-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)) →
    ∃ (v0 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v377) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x11 : Shape := ⟨2, ![10000, 11]⟩
abbrev S10000x3 : Shape := ⟨2, ![10000, 3]⟩
abbrev S10000x8 : Shape := ⟨2, ![10000, 8]⟩
abbrev S2x160000 : Shape := ⟨2, ![2, 160000]⟩
abbrev S10000 : Shape := ⟨1, ![10000]⟩
abbrev S11x96 : Shape := ⟨2, ![11, 96]⟩
abbrev S96 : Shape := ⟨1, ![96]⟩
abbrev S96x96 : Shape := ⟨2, ![96, 96]⟩
abbrev S8x96 : Shape := ⟨2, ![8, 96]⟩
abbrev S3x385x96 : Shape := ⟨3, ![3, 385, 96]⟩
abbrev S3x96 : Shape := ⟨2, ![3, 96]⟩
abbrev S3x96x96 : Shape := ⟨3, ![3, 96, 96]⟩
abbrev S3x96x1 : Shape := ⟨3, ![3, 96, 1]⟩
abbrev S3x1 : Shape := ⟨2, ![3, 1]⟩
abbrev S3x288x96 : Shape := ⟨3, ![3, 288, 96]⟩
abbrev S3x144x96 : Shape := ⟨3, ![3, 144, 96]⟩
abbrev S_ : Shape := ⟨0, ![]⟩

class Facts : Prop where
  bcast_S_S10000x11 : S_.BroadcastsInDim S10000x11 (![] : Fin 0 → Fin S10000x11.rank)
  reducesTo_S10000x11_S_d0_1 : S10000x11.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S10000x8 : S_.BroadcastsInDim S10000x8 (![] : Fin 0 → Fin S10000x8.rank)
  reducesTo_S10000x8_S_d0_1 : S10000x8.ReducesTo [0, 1] S_
  bcast_S_S11x96 : S_.BroadcastsInDim S11x96 (![] : Fin 0 → Fin S11x96.rank)
  reducesTo_S11x96_S_d0_1 : S11x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S8x96 : S_.BroadcastsInDim S8x96 (![] : Fin 0 → Fin S8x96.rank)
  reducesTo_S8x96_S_d0_1 : S8x96.ReducesTo [0, 1] S_
  bcast_S_S3x385x96 : S_.BroadcastsInDim S3x385x96 (![] : Fin 0 → Fin S3x385x96.rank)
  reducesTo_S3x385x96_S_d0_1_2 : S3x385x96.ReducesTo [0, 1, 2] S_
  bcast_S_S3x96 : S_.BroadcastsInDim S3x96 (![] : Fin 0 → Fin S3x96.rank)
  reducesTo_S3x96_S_d0_1 : S3x96.ReducesTo [0, 1] S_
  bcast_S_S3x96x96 : S_.BroadcastsInDim S3x96x96 (![] : Fin 0 → Fin S3x96x96.rank)
  reducesTo_S3x96x96_S_d0_1_2 : S3x96x96.ReducesTo [0, 1, 2] S_
  bcast_S_S3x96x1 : S_.BroadcastsInDim S3x96x1 (![] : Fin 0 → Fin S3x96x1.rank)
  reducesTo_S3x96x1_S_d0_1_2 : S3x96x1.ReducesTo [0, 1, 2] S_
  bcast_S_S3x1 : S_.BroadcastsInDim S3x1 (![] : Fin 0 → Fin S3x1.rank)
  reducesTo_S3x1_S_d0_1 : S3x1.ReducesTo [0, 1] S_
  bcast_S_S3x288x96 : S_.BroadcastsInDim S3x288x96 (![] : Fin 0 → Fin S3x288x96.rank)
  reducesTo_S3x288x96_S_d0_1_2 : S3x288x96.ReducesTo [0, 1, 2] S_
  bcast_S_S3x144x96 : S_.BroadcastsInDim S3x144x96 (![] : Fin 0 → Fin S3x144x96.rank)
  reducesTo_S3x144x96_S_d0_1_2 : S3x144x96.ReducesTo [0, 1, 2] S_

variable [Facts]

def fn_part8 {F : FTy → Type} [FloatOps F] (main_arg30 : FVec F S96 .f32) (main_arg31 : FVec F S96x96 .f32) (main_arg32 : FVec F S96 .f32) (main_v133 : IVec S_ 1) (main_v136 : IVec S96x96 1) : IVec S_ 1 :=
  let main_c_53 : IVec S_ 1 := constantI S_ 1 1#1
  let main_v137 : IVec S_ 1 := (fun x v => Host.reduce IntOp.andi x v reducesTo_S96x96_S_d0_1 h_S_) main_v136 main_c_53
  let main_v138 : IVec S_ 1 := andi main_v133 main_v137
  let main_v139 : FVec F S96 .f32 := Host.absf main_arg30
  let main_cst_54 : FVec F S_ .f32 := constant S_ .f32 0x7F800000#32
  let main_v140 : FVec F S96 .f32 := broadcastInDim S96 ![] bcast_S_S96 main_cst_54
  let main_v141 : IVec S96 1 := cmpf .olt main_v139 main_v140
  let main_c_55 : IVec S_ 1 := constantI S_ 1 1#1
  let main_v142 : IVec S_ 1 := (fun x v => Host.reduce IntOp.andi x v reducesTo_S96_S_d0 h_S_) main_v141 main_c_55
  let main_v143 : IVec S_ 1 := andi main_v138 main_v142
  let main_v144 : FVec F S96x96 .f32 := Host.absf main_arg31
  let main_cst_56 : FVec F S_ .f32 := constant S_ .f32 0x7F800000#32
  let main_v145 : FVec F S96x96 .f32 := broadcastInDim S96x96 ![] bcast_S_S96x96 main_cst_56
  let main_v146 : IVec S96x96 1 := cmpf .olt main_v144 main_v145
  let main_c_57 : IVec S_ 1 := constantI S_ 1 1#1
  let main_v147 : IVec S_ 1 := (fun x v => Host.reduce IntOp.andi x v reducesTo_S96x96_S_d0_1 h_S_) main_v146 main_c_57
  let main_v148 : IVec S_ 1 := andi main_v143 main_v147
  let main_v149 : FVec F S96 .f32 := Host.absf main_arg32
  let main_cst_58 : FVec F S_ .f32 := constant S_ .f32 0x7F800000#32
  let main_v150 : FVec F S96 .f32 := broadcastInDim S96 ![] bcast_S_S96 main_cst_58
  let main_v151 : IVec S96 1 := cmpf .olt main_v149 main_v150
  let main_c_59 : IVec S_ 1 := constantI S_ 1 1#1
  let main_v152 : IVec S_ 1 := (fun x v => Host.reduce IntOp.andi x v reducesTo_S96_S_d0 h_S_) main_v151 main_c_59
  let main_v153 : IVec S_ 1 := andi main_v148 main_v152
  main_v153

def fn_part7 {F : FTy → Type} [FloatOps F] (main_arg27 : FVec F S96x96 .f32) (main_arg28 : FVec F S96 .f32) (main_arg29 : FVec F S96x96 .f32) (main_arg30 : FVec F S96 .f32) (main_arg31 : FVec F S96x96 .f32) (main_arg32 : FVec F S96 .f32) (main_v118 : IVec S_ 1) (main_v119 : FVec F S96 .f32) : IVec S_ 1 :=
  let main_cst_46 : FVec F S_ .f32 := constant S_ .f32 0x7F800000#32
  let main_v120 : FVec F S96 .f32 := broadcastInDim S96 ![] bcast_S_S96 main_cst_46
  let main_v121 : IVec S96 1 := cmpf .olt main_v119 main_v120
  let main_c_47 : IVec S_ 1 := constantI S_ 1 1#1
  let main_v122 : IVec S_ 1 := (fun x v => Host.reduce IntOp.andi x v reducesTo_S96_S_d0 h_S_) main_v121 main_c_47
  let main_v123 : IVec S_ 1 := andi main_v118 main_v122
  let main_v124 : FVec F S96x96 .f32 := Host.absf main_arg27
  let main_cst_48 : FVec F S_ .f32 := constant S_ .f32 0x7F800000#32
  let main_v125 : FVec F S96x96 .f32 := broadcastInDim S96x96 ![] bcast_S_S96x96 main_cst_48
  let main_v126 : IVec S96x96 1 := cmpf .olt main_v124 main_v125
  let main_c_49 : IVec S_ 1 := constantI S_ 1 1#1
  let main_v127 : IVec S_ 1 := (fun x v => Host.reduce IntOp.andi x v reducesTo_S96x96_S_d0_1 h_S_) main_v126 main_c_49
  let main_v128 : IVec S_ 1 := andi main_v123 main_v127
  let main_v129 : FVec F S96 .f32 := Host.absf main_arg28
  let main_cst_50 : FVec F S_ .f32 := constant S_ .f32 0x7F800000#32
  let main_v130 : FVec F S96 .f32 := broadcastInDim S96 ![] bcast_S_S96 main_cst_50
  let main_v131 : IVec S96 1 := cmpf .olt main_v129 main_v130
  let main_c_51 : IVec S_ 1 := constantI S_ 1 1#1
  let main_v132 : IVec S_ 1 := (fun x v => Host.reduce IntOp.andi x v reducesTo_S96_S_d0 h_S_) main_v131 main_c_51
  let main_v133 : IVec S_ 1 := andi main_v128 main_v132
  let main_v134 : FVec F S96x96 .f32 := Host.absf main_arg29
  let main_cst_52 : FVec F S_ .f32 := constant S_ .f32 0x7F800000#32
  let main_v135 : FVec F S96x96 .f32 := broadcastInDim S96x96 ![] bcast_S_S96x96 main_cst_52
  let main_v136 : IVec S96x96 1 := cmpf .olt main_v134 main_v135
  fn_part8 (F := F) main_arg30 main_arg31 main_arg32 main_v133 main_v136

def fn_part6 {F : FTy → Type} [FloatOps F] (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v98 : IVec S_ 1) (main_v101 : IVec S3x96 1) (main_c_39 : IVec S_ 1) : IVec S_ 1 :=
  let main_v102 : IVec S_ 1 := (fun x v => Host.reduce IntOp.andi x v reducesTo_S3x96_S_d0_1 h_S_) main_v101 main_c_39
  let main_v103 : IVec S_ 1 := andi main_v98 main_v102
  let main_v104 : FVec F S3x96x96 .f32 := Host.absf main_arg23
  let main_cst_40 : FVec F S_ .f32 := constant S_ .f32 0x7F800000#32
  let main_v105 : FVec F S3x96x96 .f32 := broadcastInDim S3x96x96 ![] bcast_S_S3x96x96 main_cst_40
  let main_v106 : IVec S3x96x96 1 := cmpf .olt main_v104 main_v105
  let main_c_41 : IVec S_ 1 := constantI S_ 1 1#1
  let main_v107 : IVec S_ 1 := (fun x v => Host.reduce IntOp.andi x v reducesTo_S3x96x96_S_d0_1_2 h_S_) main_v106 main_c_41
  let main_v108 : IVec S_ 1 := andi main_v103 main_v107
  let main_v109 : FVec F S3x96 .f32 := Host.absf main_arg24
  let main_cst_42 : FVec F S_ .f32 := constant S_ .f32 0x7F800000#32
  let main_v110 : FVec F S3x96 .f32 := broadcastInDim S3x96 ![] bcast_S_S3x96 main_cst_42
  let main_v111 : IVec S3x96 1 := cmpf .olt main_v109 main_v110
  let main_c_43 : IVec S_ 1 := constantI S_ 1 1#1
  let main_v112 : IVec S_ 1 := (fun x v => Host.reduce IntOp.andi x v reducesTo_S3x96_S_d0_1 h_S_) main_v111 main_c_43
  let main_v113 : IVec S_ 1 := andi main_v108 main_v112
  let main_v114 : FVec F S96x96 .f32 := Host.absf main_arg25
  let main_cst_44 : FVec F S_ .f32 := constant S_ .f32 0x7F800000#32
  let main_v115 : FVec F S96x96 .f32 := broadcastInDim S96x96 ![] bcast_S_S96x96 main_cst_44
  let main_v116 : IVec S96x96 1 := cmpf .olt main_v114 main_v115
  let main_c_45 : IVec S_ 1 := constantI S_ 1 1#1
  let main_v117 : IVec S_ 1 := (fun x v => Host.reduce IntOp.andi x v reducesTo_S96x96_S_d0_1 h_S_) main_v116 main_c_45
  let main_v118 : IVec S_ 1 := andi main_v113 main_v117
  let main_v119 : FVec F S96 .f32 := Host.absf main_arg26
  fn_part7 (F := F) main_arg27 main_arg28 main_arg29 main_arg30 main_arg31 main_arg32 main_v118 main_v119

def fn_part5 {F : FTy → Type} [FloatOps F] (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v83 : IVec S_ 1) (main_v84 : FVec F S3x96x96 .f32) (main_cst_32 : FVec F S_ .f32) : IVec S_ 1 :=
  let main_v85 : FVec F S3x96x96 .f32 := broadcastInDim S3x96x96 ![] bcast_S_S3x96x96 main_cst_32
  let main_v86 : IVec S3x96x96 1 := cmpf .olt main_v84 main_v85
  let main_c_33 : IVec S_ 1 := constantI S_ 1 1#1
  let main_v87 : IVec S_ 1 := (fun x v => Host.reduce IntOp.andi x v reducesTo_S3x96x96_S_d0_1_2 h_S_) main_v86 main_c_33
  let main_v88 : IVec S_ 1 := andi main_v83 main_v87
  let main_v89 : FVec F S3x96 .f32 := Host.absf main_arg20
  let main_cst_34 : FVec F S_ .f32 := constant S_ .f32 0x7F800000#32
  let main_v90 : FVec F S3x96 .f32 := broadcastInDim S3x96 ![] bcast_S_S3x96 main_cst_34
  let main_v91 : IVec S3x96 1 := cmpf .olt main_v89 main_v90
  let main_c_35 : IVec S_ 1 := constantI S_ 1 1#1
  let main_v92 : IVec S_ 1 := (fun x v => Host.reduce IntOp.andi x v reducesTo_S3x96_S_d0_1 h_S_) main_v91 main_c_35
  let main_v93 : IVec S_ 1 := andi main_v88 main_v92
  let main_v94 : FVec F S3x144x96 .f32 := Host.absf main_arg21
  let main_cst_36 : FVec F S_ .f32 := constant S_ .f32 0x7F800000#32
  let main_v95 : FVec F S3x144x96 .f32 := broadcastInDim S3x144x96 ![] bcast_S_S3x144x96 main_cst_36
  let main_v96 : IVec S3x144x96 1 := cmpf .olt main_v94 main_v95
  let main_c_37 : IVec S_ 1 := constantI S_ 1 1#1
  let main_v97 : IVec S_ 1 := (fun x v => Host.reduce IntOp.andi x v reducesTo_S3x144x96_S_d0_1_2 h_S_) main_v96 main_c_37
  let main_v98 : IVec S_ 1 := andi main_v93 main_v97
  let main_v99 : FVec F S3x96 .f32 := Host.absf main_arg22
  let main_cst_38 : FVec F S_ .f32 := constant S_ .f32 0x7F800000#32
  let main_v100 : FVec F S3x96 .f32 := broadcastInDim S3x96 ![] bcast_S_S3x96 main_cst_38
  let main_v101 : IVec S3x96 1 := cmpf .olt main_v99 main_v100
  let main_c_39 : IVec S_ 1 := constantI S_ 1 1#1
  fn_part6 (F := F) main_arg23 main_arg24 main_arg25 main_arg26 main_arg27 main_arg28 main_arg29 main_arg30 main_arg31 main_arg32 main_v98 main_v101 main_c_39

def fn_part4 {F : FTy → Type} [FloatOps F] (main_arg16 : FVec F S3x1 .f32) (main_arg17 : FVec F S3x288x96 .f32) (main_arg18 : FVec F S3x96 .f32) (main_arg19 : FVec F S3x96x96 .f32) (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v63 : IVec S_ 1) (main_v67 : IVec S_ 1) : IVec S_ 1 :=
  let main_v68 : IVec S_ 1 := andi main_v63 main_v67
  let main_v69 : FVec F S3x1 .f32 := Host.absf main_arg16
  let main_cst_26 : FVec F S_ .f32 := constant S_ .f32 0x7F800000#32
  let main_v70 : FVec F S3x1 .f32 := broadcastInDim S3x1 ![] bcast_S_S3x1 main_cst_26
  let main_v71 : IVec S3x1 1 := cmpf .olt main_v69 main_v70
  let main_c_27 : IVec S_ 1 := constantI S_ 1 1#1
  let main_v72 : IVec S_ 1 := (fun x v => Host.reduce IntOp.andi x v reducesTo_S3x1_S_d0_1 h_S_) main_v71 main_c_27
  let main_v73 : IVec S_ 1 := andi main_v68 main_v72
  let main_v74 : FVec F S3x288x96 .f32 := Host.absf main_arg17
  let main_cst_28 : FVec F S_ .f32 := constant S_ .f32 0x7F800000#32
  let main_v75 : FVec F S3x288x96 .f32 := broadcastInDim S3x288x96 ![] bcast_S_S3x288x96 main_cst_28
  let main_v76 : IVec S3x288x96 1 := cmpf .olt main_v74 main_v75
  let main_c_29 : IVec S_ 1 := constantI S_ 1 1#1
  let main_v77 : IVec S_ 1 := (fun x v => Host.reduce IntOp.andi x v reducesTo_S3x288x96_S_d0_1_2 h_S_) main_v76 main_c_29
  let main_v78 : IVec S_ 1 := andi main_v73 main_v77
  let main_v79 : FVec F S3x96 .f32 := Host.absf main_arg18
  let main_cst_30 : FVec F S_ .f32 := constant S_ .f32 0x7F800000#32
  let main_v80 : FVec F S3x96 .f32 := broadcastInDim S3x96 ![] bcast_S_S3x96 main_cst_30
  let main_v81 : IVec S3x96 1 := cmpf .olt main_v79 main_v80
  let main_c_31 : IVec S_ 1 := constantI S_ 1 1#1
  let main_v82 : IVec S_ 1 := (fun x v => Host.reduce IntOp.andi x v reducesTo_S3x96_S_d0_1 h_S_) main_v81 main_c_31
  let main_v83 : IVec S_ 1 := andi main_v78 main_v82
  let main_v84 : FVec F S3x96x96 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_arg32 main_v83 main_v84 main_cst_32

def fn_part3 {F : FTy → Type} [FloatOps F] (main_arg13 : FVec F S3x96x96 .f32) (main_arg14 : FVec F S3x96 .f32) (main_arg15 : FVec F S3x96x1 .f32) (main_arg16 : FVec F S3x1 .f32) (main_arg17 : FVec F S3x288x96 .f32) (main_arg18 : FVec F S3x96 .f32) (main_arg19 : FVec F S3x96x96 .f32) (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v48 : IVec S_ 1) (main_v49 : FVec F S3x96 .f32) (main_v50 : FVec F S3x96 .f32) : IVec S_ 1 :=
  let main_v51 : IVec S3x96 1 := cmpf .olt main_v49 main_v50
  let main_c_19 : IVec S_ 1 := constantI S_ 1 1#1
  let main_v52 : IVec S_ 1 := (fun x v => Host.reduce IntOp.andi x v reducesTo_S3x96_S_d0_1 h_S_) main_v51 main_c_19
  let main_v53 : IVec S_ 1 := andi main_v48 main_v52
  let main_v54 : FVec F S3x96x96 .f32 := Host.absf main_arg13
  let main_cst_20 : FVec F S_ .f32 := constant S_ .f32 0x7F800000#32
  let main_v55 : FVec F S3x96x96 .f32 := broadcastInDim S3x96x96 ![] bcast_S_S3x96x96 main_cst_20
  let main_v56 : IVec S3x96x96 1 := cmpf .olt main_v54 main_v55
  let main_c_21 : IVec S_ 1 := constantI S_ 1 1#1
  let main_v57 : IVec S_ 1 := (fun x v => Host.reduce IntOp.andi x v reducesTo_S3x96x96_S_d0_1_2 h_S_) main_v56 main_c_21
  let main_v58 : IVec S_ 1 := andi main_v53 main_v57
  let main_v59 : FVec F S3x96 .f32 := Host.absf main_arg14
  let main_cst_22 : FVec F S_ .f32 := constant S_ .f32 0x7F800000#32
  let main_v60 : FVec F S3x96 .f32 := broadcastInDim S3x96 ![] bcast_S_S3x96 main_cst_22
  let main_v61 : IVec S3x96 1 := cmpf .olt main_v59 main_v60
  let main_c_23 : IVec S_ 1 := constantI S_ 1 1#1
  let main_v62 : IVec S_ 1 := (fun x v => Host.reduce IntOp.andi x v reducesTo_S3x96_S_d0_1 h_S_) main_v61 main_c_23
  let main_v63 : IVec S_ 1 := andi main_v58 main_v62
  let main_v64 : FVec F S3x96x1 .f32 := Host.absf main_arg15
  let main_cst_24 : FVec F S_ .f32 := constant S_ .f32 0x7F800000#32
  let main_v65 : FVec F S3x96x1 .f32 := broadcastInDim S3x96x1 ![] bcast_S_S3x96x1 main_cst_24
  let main_v66 : IVec S3x96x1 1 := cmpf .olt main_v64 main_v65
  let main_c_25 : IVec S_ 1 := constantI S_ 1 1#1
  let main_v67 : IVec S_ 1 := (fun x v => Host.reduce IntOp.andi x v reducesTo_S3x96x1_S_d0_1_2 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_arg32 main_v63 main_v67

def fn_part2 {F : FTy → Type} [FloatOps F] (main_arg9 : FVec F S8x96 .f32) (main_arg10 : FVec F S96 .f32) (main_arg11 : FVec F S3x385x96 .f32) (main_arg12 : FVec F S3x96 .f32) (main_arg13 : FVec F S3x96x96 .f32) (main_arg14 : FVec F S3x96 .f32) (main_arg15 : FVec F S3x96x1 .f32) (main_arg16 : FVec F S3x1 .f32) (main_arg17 : FVec F S3x288x96 .f32) (main_arg18 : FVec F S3x96 .f32) (main_arg19 : FVec F S3x96x96 .f32) (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v33 : IVec S_ 1) : IVec S_ 1 :=
  let main_v34 : FVec F S8x96 .f32 := Host.absf main_arg9
  let main_cst_12 : FVec F S_ .f32 := constant S_ .f32 0x7F800000#32
  let main_v35 : FVec F S8x96 .f32 := broadcastInDim S8x96 ![] bcast_S_S8x96 main_cst_12
  let main_v36 : IVec S8x96 1 := cmpf .olt main_v34 main_v35
  let main_c_13 : IVec S_ 1 := constantI S_ 1 1#1
  let main_v37 : IVec S_ 1 := (fun x v => Host.reduce IntOp.andi x v reducesTo_S8x96_S_d0_1 h_S_) main_v36 main_c_13
  let main_v38 : IVec S_ 1 := andi main_v33 main_v37
  let main_v39 : FVec F S96 .f32 := Host.absf main_arg10
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S3x385x96 .f32 := Host.absf main_arg11
  let main_cst_16 : FVec F S_ .f32 := constant S_ .f32 0x7F800000#32
  let main_v45 : FVec F S3x385x96 .f32 := broadcastInDim S3x385x96 ![] bcast_S_S3x385x96 main_cst_16
  let main_v46 : IVec S3x385x96 1 := cmpf .olt main_v44 main_v45
  let main_c_17 : IVec S_ 1 := constantI S_ 1 1#1
  let main_v47 : IVec S_ 1 := (fun x v => Host.reduce IntOp.andi x v reducesTo_S3x385x96_S_d0_1_2 h_S_) main_v46 main_c_17
  let main_v48 : IVec S_ 1 := andi main_v43 main_v47
  let main_v49 : FVec F S3x96 .f32 := Host.absf main_arg12
  let main_cst_18 : FVec F S_ .f32 := constant S_ .f32 0x7F800000#32
  let main_v50 : FVec F S3x96 .f32 := broadcastInDim S3x96 ![] bcast_S_S3x96 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_arg32 main_v48 main_v49 main_v50

def fn_part1 {F : FTy → Type} [FloatOps F] (main_arg6 : FVec F S96 .f32) (main_arg7 : FVec F S96x96 .f32) (main_arg8 : FVec F S96 .f32) (main_arg9 : FVec F S8x96 .f32) (main_arg10 : FVec F S96 .f32) (main_arg11 : FVec F S3x385x96 .f32) (main_arg12 : FVec F S3x96 .f32) (main_arg13 : FVec F S3x96x96 .f32) (main_arg14 : FVec F S3x96 .f32) (main_arg15 : FVec F S3x96x1 .f32) (main_arg16 : FVec F S3x1 .f32) (main_arg17 : FVec F S3x288x96 .f32) (main_arg18 : FVec F S3x96 .f32) (main_arg19 : FVec F S3x96x96 .f32) (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) (main_v13 : IVec S_ 1) (main_v16 : IVec S11x96 1) : IVec S_ 1 :=
  let main_c_5 : IVec S_ 1 := constantI S_ 1 1#1
  let main_v17 : IVec S_ 1 := (fun x v => Host.reduce IntOp.andi x v reducesTo_S11x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v33

def fn {F : FTy → Type} [FloatOps F] (main_arg0 : FVec F S10000x11 .f32) (main_arg1 : FVec F S10000x3 .f32) (main_arg2 : FVec F S10000x8 .f32) (main_arg3 : IVec S2x160000 32) (main_arg4 : IVec S10000 32) (main_arg5 : FVec F S11x96 .f32) (main_arg6 : FVec F S96 .f32) (main_arg7 : FVec F S96x96 .f32) (main_arg8 : FVec F S96 .f32) (main_arg9 : FVec F S8x96 .f32) (main_arg10 : FVec F S96 .f32) (main_arg11 : FVec F S3x385x96 .f32) (main_arg12 : FVec F S3x96 .f32) (main_arg13 : FVec F S3x96x96 .f32) (main_arg14 : FVec F S3x96 .f32) (main_arg15 : FVec F S3x96x1 .f32) (main_arg16 : FVec F S3x1 .f32) (main_arg17 : FVec F S3x288x96 .f32) (main_arg18 : FVec F S3x96 .f32) (main_arg19 : FVec F S3x96x96 .f32) (main_arg20 : FVec F S3x96 .f32) (main_arg21 : FVec F S3x144x96 .f32) (main_arg22 : FVec F S3x96 .f32) (main_arg23 : FVec F S3x96x96 .f32) (main_arg24 : FVec F S3x96 .f32) (main_arg25 : FVec F S96x96 .f32) (main_arg26 : FVec F S96 .f32) (main_arg27 : FVec F S96x96 .f32) (main_arg28 : FVec F S96 .f32) (main_arg29 : FVec F S96x96 .f32) (main_arg30 : FVec F S96 .f32) (main_arg31 : FVec F S96x96 .f32) (main_arg32 : FVec F S96 .f32) : IVec S_ 1 :=
  let main_v0 : FVec F S10000x11 .f32 := Host.absf main_arg0
  let main_cst : FVec F S_ .f32 := constant S_ .f32 0x7F800000#32
  let main_v1 : FVec F S10000x11 .f32 := broadcastInDim S10000x11 ![] bcast_S_S10000x11 main_cst
  let main_v2 : IVec S10000x11 1 := cmpf .olt main_v0 main_v1
  let main_c : IVec S_ 1 := constantI S_ 1 1#1
  let main_v3 : IVec S_ 1 := (fun x v => Host.reduce IntOp.andi x v reducesTo_S10000x11_S_d0_1 h_S_) main_v2 main_c
  let main_v4 : FVec F S10000x3 .f32 := Host.absf main_arg1
  let main_cst_0 : FVec F S_ .f32 := constant S_ .f32 0x7F800000#32
  let main_v5 : FVec F S10000x3 .f32 := broadcastInDim S10000x3 ![] bcast_S_S10000x3 main_cst_0
  let main_v6 : IVec S10000x3 1 := cmpf .olt main_v4 main_v5
  let main_c_1 : IVec S_ 1 := constantI S_ 1 1#1
  let main_v7 : IVec S_ 1 := (fun x v => Host.reduce IntOp.andi x v reducesTo_S10000x3_S_d0_1 h_S_) main_v6 main_c_1
  let main_v8 : IVec S_ 1 := andi main_v3 main_v7
  let main_v9 : FVec F S10000x8 .f32 := Host.absf main_arg2
  let main_cst_2 : FVec F S_ .f32 := constant S_ .f32 0x7F800000#32
  let main_v10 : FVec F S10000x8 .f32 := broadcastInDim S10000x8 ![] bcast_S_S10000x8 main_cst_2
  let main_v11 : IVec S10000x8 1 := cmpf .olt main_v9 main_v10
  let main_c_3 : IVec S_ 1 := constantI S_ 1 1#1
  let main_v12 : IVec S_ 1 := (fun x v => Host.reduce IntOp.andi x v reducesTo_S10000x8_S_d0_1 h_S_) main_v11 main_c_3
  let main_v13 : IVec S_ 1 := andi main_v8 main_v12
  let main_v14 : FVec F S11x96 .f32 := Host.absf main_arg5
  let main_cst_4 : FVec F S_ .f32 := constant S_ .f32 0x7F800000#32
  let main_v15 : FVec F S11x96 .f32 := broadcastInDim S11x96 ![] bcast_S_S11x96 main_cst_4
  let main_v16 : IVec S11x96 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_v13 main_v16
-- ==== Kernel.lean ====
abbrev S10000x11 : Shape := ⟨2, ![10000, 11]⟩
abbrev S10000x3 : Shape := ⟨2, ![10000, 3]⟩
abbrev S10000x8 : Shape := ⟨2, ![10000, 8]⟩
abbrev S2x160000 : Shape := ⟨2, ![2, 160000]⟩
abbrev S10000 : Shape := ⟨1, ![10000]⟩
abbrev S11x96 : Shape := ⟨2, ![11, 96]⟩
abbrev S96 : Shape := ⟨1, ![96]⟩
abbrev S96x96 : Shape := ⟨2, ![96, 96]⟩
abbrev S8x96 : Shape := ⟨2, ![8, 96]⟩
abbrev S3x385x96 : Shape := ⟨3, ![3, 385, 96]⟩
abbrev S3x96 : Shape := ⟨2, ![3, 96]⟩
abbrev S3x96x96 : Shape := ⟨3, ![3, 96, 96]⟩
abbrev S3x96x1 : Shape := ⟨3, ![3, 96, 1]⟩
abbrev S3x1 : Shape := ⟨2, ![3, 1]⟩
abbrev S3x288x96 : Shape := ⟨3, ![3, 288, 96]⟩
abbrev S3x144x96 : Shape := ⟨3, ![3, 144, 96]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3 : Shape := ⟨2, ![160000, 3]⟩
abbrev S10000x1 : Shape := ⟨2, ![10000, 1]⟩
abbrev S10000x96 : Shape := ⟨2, ![10000, 96]⟩
abbrev S1000x11 : Shape := ⟨2, ![1000, 11]⟩
abbrev S1000x8 : Shape := ⟨2, ![1000, 8]⟩
abbrev S1000x96 : Shape := ⟨2, ![1000, 96]⟩
abbrev S1x96 : Shape := ⟨2, ![1, 96]⟩
abbrev S160000x96 : Shape := ⟨2, ![160000, 96]⟩
abbrev S1x385x96 : Shape := ⟨3, ![1, 385, 96]⟩
abbrev S385x96 : Shape := ⟨2, ![385, 96]⟩
abbrev S1x96x96 : Shape := ⟨3, ![1, 96, 96]⟩
abbrev S1x96x1 : Shape := ⟨3, ![1, 96, 1]⟩
abbrev S96x1 : Shape := ⟨2, ![96, 1]⟩
abbrev S1x1 : Shape := ⟨2, ![1, 1]⟩
abbrev S1 : Shape := ⟨1, ![1]⟩
abbrev S4000x96 : Shape := ⟨2, ![4000, 96]⟩
abbrev S4000x1 : Shape := ⟨2, ![4000, 1]⟩
abbrev S4000x385 : Shape := ⟨2, ![4000, 385]⟩
abbrev S1x288x96 : Shape := ⟨3, ![1, 288, 96]⟩
abbrev S288x96 : Shape := ⟨2, ![288, 96]⟩
abbrev S1x144x96 : Shape := ⟨3, ![1, 144, 96]⟩
abbrev S144x96 : Shape := ⟨2, ![144, 96]⟩
abbrev S1000x288 : Shape := ⟨2, ![1000, 288]⟩
abbrev S1000x48 : Shape := ⟨2, ![1000, 48]⟩
abbrev S1000x144 : Shape := ⟨2, ![1000, 144]⟩
abbrev S500x96 : Shape := ⟨2, ![500, 96]⟩

abbrev nBuf : Space → Nat
  | .hbm => 297
  | .vmem => 136
  | .smem => 0
  | _ => 0

abbrev hbmTy0_0 (i : Nat) : BufTy := match i % 128 with
  | 0 => ⟨S10000x11, .f32⟩
  | 1 => ⟨S10000x3, .f32⟩
  | 2 => ⟨S10000x8, .f32⟩
  | 3 => ⟨S2x160000, .i32⟩
  | 4 => ⟨S10000, .i32⟩
  | 5 => ⟨S11x96, .f32⟩
  | 6 => ⟨S96, .f32⟩
  | 7 => ⟨S96x96, .f32⟩
  | 8 => ⟨S96, .f32⟩
  | 9 => ⟨S8x96, .f32⟩
  | 10 => ⟨S96, .f32⟩
  | 11 => ⟨S3x385x96, .f32⟩
  | 12 => ⟨S3x96, .f32⟩
  | 13 => ⟨S3x96x96, .f32⟩
  | 14 => ⟨S3x96, .f32⟩
  | 15 => ⟨S3x96x1, .f32⟩
  | 16 => ⟨S3x1, .f32⟩
  | 17 => ⟨S3x288x96, .f32⟩
  | 18 => ⟨S3x96, .f32⟩
  | 19 => ⟨S3x96x96, .f32⟩
  | 20 => ⟨S3x96, .f32⟩
  | 21 => ⟨S3x144x96, .f32⟩
  | 22 => ⟨S3x96, .f32⟩
  | 23 => ⟨S3x96x96, .f32⟩
  | 24 => ⟨S3x96, .f32⟩
  | 25 => ⟨S96x96, .f32⟩
  | 26 => ⟨S96, .f32⟩
  | 27 => ⟨S96x96, .f32⟩
  | 28 => ⟨S96, .f32⟩
  | 29 => ⟨S96x96, .f32⟩
  | 30 => ⟨S96, .f32⟩
  | 31 => ⟨S96x96, .f32⟩
  | 32 => ⟨S96, .f32⟩
  | 33 => ⟨S1x160000, .i32⟩
  | 34 => ⟨S160000, .i32⟩
  | 35 => ⟨S1x160000, .i32⟩
  | 36 => ⟨S160000, .i32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x3, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x3, .f32⟩
  | 55 => ⟨S160000x3, .f32⟩
  | 56 => ⟨S160000x3, .f32⟩
  | 57 => ⟨S_, .f32⟩
  | 58 => ⟨S160000, .f32⟩
  | 59 => ⟨S160000x1, .f32⟩
  | 60 => ⟨S160000x1, .f32⟩
  | 61 => ⟨S_, .f32⟩
  | 62 => ⟨S160000x1, .f32⟩
  | 63 => ⟨S_, .f32⟩
  | 64 => ⟨S10000x1, .f32⟩
  | 65 => ⟨S160000x1, .i32⟩
  | 66 => ⟨S10000x1, .f32⟩
  | 67 => ⟨S_, .f32⟩
  | 68 => ⟨S10000x1, .f32⟩
  | 69 => ⟨S10000x1, .f32⟩
  | 70 => ⟨S10000x96, .f32⟩
  | 71 => ⟨S10000x96, .f32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S160000x96, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x96, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000x96, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x96, .f32⟩
  | 108 => ⟨S1x385x96, .f32⟩
  | 109 => ⟨S385x96, .f32⟩
  | 110 => ⟨S1x96, .f32⟩
  | 111 => ⟨S96, .f32⟩
  | 112 => ⟨S1x96x96, .f32⟩
  | 113 => ⟨S96x96, .f32⟩
  | 114 => ⟨S1x96, .f32⟩
  | 115 => ⟨S96, .f32⟩
  | 116 => ⟨S1x96x1, .f32⟩
  | 117 => ⟨S96x1, .f32⟩
  | 118 => ⟨S1x1, .f32⟩
  | 119 => ⟨S1, .f32⟩
  | 120 => ⟨S160000x96, .f32⟩
  | 121 => ⟨S_, .f32⟩
  | 122 => ⟨S10000x96, .f32⟩
  | 123 => ⟨S160000x1, .i32⟩
  | 124 => ⟨S10000x96, .f32⟩
  | 125 => ⟨S10000x96, .f32⟩
  | 126 => ⟨S10000x96, .f32⟩
  | 127 => ⟨S1x288x96, .f32⟩
  | _ => ⟨S10000x11, .f32⟩

abbrev hbmTy0_1 (i : Nat) : BufTy := match i % 128 with
  | 0 => ⟨S288x96, .f32⟩
  | 1 => ⟨S1x96, .f32⟩
  | 2 => ⟨S96, .f32⟩
  | 3 => ⟨S1x96x96, .f32⟩
  | 4 => ⟨S96x96, .f32⟩
  | 5 => ⟨S1x96, .f32⟩
  | 6 => ⟨S96, .f32⟩
  | 7 => ⟨S1x144x96, .f32⟩
  | 8 => ⟨S144x96, .f32⟩
  | 9 => ⟨S1x96, .f32⟩
  | 10 => ⟨S96, .f32⟩
  | 11 => ⟨S1x96x96, .f32⟩
  | 12 => ⟨S96x96, .f32⟩
  | 13 => ⟨S1x96, .f32⟩
  | 14 => ⟨S96, .f32⟩
  | 15 => ⟨S10000x96, .f32⟩
  | 16 => ⟨S10000x96, .f32⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x96, .f32⟩
  | 26 => ⟨S_, .i32⟩
  | 27 => ⟨S160000, .i32⟩
  | 28 => ⟨S160000, .i1⟩
  | 29 => ⟨S_, .i32⟩
  | 30 => ⟨S160000, .i32⟩
  | 31 => ⟨S160000, .i32⟩
  | 32 => ⟨S160000, .i32⟩
  | 33 => ⟨S160000x1, .i32⟩
  | 34 => ⟨S160000x96, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x96, .f32⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x96, .f32⟩
  | 53 => ⟨S1x385x96, .f32⟩
  | 54 => ⟨S385x96, .f32⟩
  | 55 => ⟨S1x96, .f32⟩
  | 56 => ⟨S96, .f32⟩
  | 57 => ⟨S1x96x96, .f32⟩
  | 58 => ⟨S96x96, .f32⟩
  | 59 => ⟨S1x96, .f32⟩
  | 60 => ⟨S96, .f32⟩
  | 61 => ⟨S1x96x1, .f32⟩
  | 62 => ⟨S96x1, .f32⟩
  | 63 => ⟨S1x1, .f32⟩
  | 64 => ⟨S1, .f32⟩
  | 65 => ⟨S160000x96, .f32⟩
  | 66 => ⟨S_, .f32⟩
  | 67 => ⟨S10000x96, .f32⟩
  | 68 => ⟨S160000x1, .i32⟩
  | 69 => ⟨S10000x96, .f32⟩
  | 70 => ⟨S10000x96, .f32⟩
  | 71 => ⟨S10000x96, .f32⟩
  | 72 => ⟨S1x288x96, .f32⟩
  | 73 => ⟨S288x96, .f32⟩
  | 74 => ⟨S1x96, .f32⟩
  | 75 => ⟨S96, .f32⟩
  | 76 => ⟨S1x96x96, .f32⟩
  | 77 => ⟨S96x96, .f32⟩
  | 78 => ⟨S1x96, .f32⟩
  | 79 => ⟨S96, .f32⟩
  | 80 => ⟨S1x144x96, .f32⟩
  | 81 => ⟨S144x96, .f32⟩
  | 82 => ⟨S1x96, .f32⟩
  | 83 => ⟨S96, .f32⟩
  | 84 => ⟨S1x96x96, .f32⟩
  | 85 => ⟨S96x96, .f32⟩
  | 86 => ⟨S1x96, .f32⟩
  | 87 => ⟨S96, .f32⟩
  | 88 => ⟨S10000x96, .f32⟩
  | 89 => ⟨S10000x96, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000x96, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x96, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x96, .f32⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x96, .f32⟩
  | 126 => ⟨S1x385x96, .f32⟩
  | 127 => ⟨S385x96, .f32⟩
  | _ => ⟨S10000x11, .f32⟩

abbrev hbmTy0_2 (i : Nat) : BufTy := match i % 128 with
  | 0 => ⟨S1x96, .f32⟩
  | 1 => ⟨S96, .f32⟩
  | 2 => ⟨S1x96x96, .f32⟩
  | 3 => ⟨S96x96, .f32⟩
  | 4 => ⟨S1x96, .f32⟩
  | 5 => ⟨S96, .f32⟩
  | 6 => ⟨S1x96x1, .f32⟩
  | 7 => ⟨S96x1, .f32⟩
  | 8 => ⟨S1x1, .f32⟩
  | 9 => ⟨S1, .f32⟩
  | 10 => ⟨S160000x96, .f32⟩
  | 11 => ⟨S_, .f32⟩
  | 12 => ⟨S10000x96, .f32⟩
  | 13 => ⟨S160000x1, .i32⟩
  | 14 => ⟨S10000x96, .f32⟩
  | 15 => ⟨S10000x96, .f32⟩
  | 16 => ⟨S10000x96, .f32⟩
  | 17 => ⟨S1x288x96, .f32⟩
  | 18 => ⟨S288x96, .f32⟩
  | 19 => ⟨S1x96, .f32⟩
  | 20 => ⟨S96, .f32⟩
  | 21 => ⟨S1x96x96, .f32⟩
  | 22 => ⟨S96x96, .f32⟩
  | 23 => ⟨S1x96, .f32⟩
  | 24 => ⟨S96, .f32⟩
  | 25 => ⟨S1x144x96, .f32⟩
  | 26 => ⟨S144x96, .f32⟩
  | 27 => ⟨S1x96, .f32⟩
  | 28 => ⟨S96, .f32⟩
  | 29 => ⟨S1x96x96, .f32⟩
  | 30 => ⟨S96x96, .f32⟩
  | 31 => ⟨S1x96, .f32⟩
  | 32 => ⟨S96, .f32⟩
  | 33 => ⟨S10000x96, .f32⟩
  | 34 => ⟨S10000x96, .f32⟩
  | 35 => ⟨S10000x96, .f32⟩
  | 36 => ⟨S_, .f32⟩
  | 37 => ⟨S500x96, .f32⟩
  | 38 => ⟨S10000x1, .i32⟩
  | 39 => ⟨S500x96, .f32⟩
  | 40 => ⟨S500x96, .f32⟩
  | _ => ⟨S10000x11, .f32⟩

abbrev hbmTy (i : Nat) : BufTy := match i / 128 with
  | 0 => hbmTy0_0 i
  | 1 => hbmTy0_1 i
  | 2 => hbmTy0_2 i
  | _ => ⟨S10000x11, .f32⟩

abbrev vmemTy0_0 (i : Nat) : BufTy := match i % 128 with
  | 0 => ⟨S1000x11, .f32⟩
  | 1 => ⟨S1000x11, .f32⟩
  | 2 => ⟨S1000x8, .f32⟩
  | 3 => ⟨S1000x8, .f32⟩
  | 4 => ⟨S11x96, .f32⟩
  | 5 => ⟨S96, .f32⟩
  | 6 => ⟨S96x96, .f32⟩
  | 7 => ⟨S96, .f32⟩
  | 8 => ⟨S8x96, .f32⟩
  | 9 => ⟨S96, .f32⟩
  | 10 => ⟨S1000x96, .f32⟩
  | 11 => ⟨S1000x96, .f32⟩
  | 12 => ⟨S1000x96, .f32⟩
  | 13 => ⟨S1000x96, .f32⟩
  | 14 => ⟨S4000x96, .f32⟩
  | 15 => ⟨S4000x96, .f32⟩
  | 16 => ⟨S4000x96, .f32⟩
  | 17 => ⟨S4000x96, .f32⟩
  | 18 => ⟨S4000x96, .f32⟩
  | 19 => ⟨S4000x96, .f32⟩
  | 20 => ⟨S4000x96, .f32⟩
  | 21 => ⟨S4000x96, .f32⟩
  | 22 => ⟨S4000x1, .f32⟩
  | 23 => ⟨S4000x1, .f32⟩
  | 24 => ⟨S385x96, .f32⟩
  | 25 => ⟨S96, .f32⟩
  | 26 => ⟨S96x96, .f32⟩
  | 27 => ⟨S96, .f32⟩
  | 28 => ⟨S96x1, .f32⟩
  | 29 => ⟨S1, .f32⟩
  | 30 => ⟨S4000x96, .f32⟩
  | 31 => ⟨S4000x96, .f32⟩
  | 32 => ⟨S1000x96, .f32⟩
  | 33 => ⟨S1000x96, .f32⟩
  | 34 => ⟨S1000x96, .f32⟩
  | 35 => ⟨S1000x96, .f32⟩
  | 36 => ⟨S1000x96, .f32⟩
  | 37 => ⟨S1000x96, .f32⟩
  | 38 => ⟨S288x96, .f32⟩
  | 39 => ⟨S96, .f32⟩
  | 40 => ⟨S96x96, .f32⟩
  | 41 => ⟨S96, .f32⟩
  | 42 => ⟨S144x96, .f32⟩
  | 43 => ⟨S96, .f32⟩
  | 44 => ⟨S96x96, .f32⟩
  | 45 => ⟨S96, .f32⟩
  | 46 => ⟨S1000x96, .f32⟩
  | 47 => ⟨S1000x96, .f32⟩
  | 48 => ⟨S1000x96, .f32⟩
  | 49 => ⟨S1000x96, .f32⟩
  | 50 => ⟨S4000x96, .f32⟩
  | 51 => ⟨S4000x96, .f32⟩
  | 52 => ⟨S4000x96, .f32⟩
  | 53 => ⟨S4000x96, .f32⟩
  | 54 => ⟨S4000x96, .f32⟩
  | 55 => ⟨S4000x96, .f32⟩
  | 56 => ⟨S4000x96, .f32⟩
  | 57 => ⟨S4000x96, .f32⟩
  | 58 => ⟨S4000x1, .f32⟩
  | 59 => ⟨S4000x1, .f32⟩
  | 60 => ⟨S385x96, .f32⟩
  | 61 => ⟨S96, .f32⟩
  | 62 => ⟨S96x96, .f32⟩
  | 63 => ⟨S96, .f32⟩
  | 64 => ⟨S96x1, .f32⟩
  | 65 => ⟨S1, .f32⟩
  | 66 => ⟨S4000x96, .f32⟩
  | 67 => ⟨S4000x96, .f32⟩
  | 68 => ⟨S1000x96, .f32⟩
  | 69 => ⟨S1000x96, .f32⟩
  | 70 => ⟨S1000x96, .f32⟩
  | 71 => ⟨S1000x96, .f32⟩
  | 72 => ⟨S1000x96, .f32⟩
  | 73 => ⟨S1000x96, .f32⟩
  | 74 => ⟨S288x96, .f32⟩
  | 75 => ⟨S96, .f32⟩
  | 76 => ⟨S96x96, .f32⟩
  | 77 => ⟨S96, .f32⟩
  | 78 => ⟨S144x96, .f32⟩
  | 79 => ⟨S96, .f32⟩
  | 80 => ⟨S96x96, .f32⟩
  | 81 => ⟨S96, .f32⟩
  | 82 => ⟨S1000x96, .f32⟩
  | 83 => ⟨S1000x96, .f32⟩
  | 84 => ⟨S1000x96, .f32⟩
  | 85 => ⟨S1000x96, .f32⟩
  | 86 => ⟨S4000x96, .f32⟩
  | 87 => ⟨S4000x96, .f32⟩
  | 88 => ⟨S4000x96, .f32⟩
  | 89 => ⟨S4000x96, .f32⟩
  | 90 => ⟨S4000x96, .f32⟩
  | 91 => ⟨S4000x96, .f32⟩
  | 92 => ⟨S4000x96, .f32⟩
  | 93 => ⟨S4000x96, .f32⟩
  | 94 => ⟨S4000x1, .f32⟩
  | 95 => ⟨S4000x1, .f32⟩
  | 96 => ⟨S385x96, .f32⟩
  | 97 => ⟨S96, .f32⟩
  | 98 => ⟨S96x96, .f32⟩
  | 99 => ⟨S96, .f32⟩
  | 100 => ⟨S96x1, .f32⟩
  | 101 => ⟨S1, .f32⟩
  | 102 => ⟨S4000x96, .f32⟩
  | 103 => ⟨S4000x96, .f32⟩
  | 104 => ⟨S1000x96, .f32⟩
  | 105 => ⟨S1000x96, .f32⟩
  | 106 => ⟨S1000x96, .f32⟩
  | 107 => ⟨S1000x96, .f32⟩
  | 108 => ⟨S1000x96, .f32⟩
  | 109 => ⟨S1000x96, .f32⟩
  | 110 => ⟨S288x96, .f32⟩
  | 111 => ⟨S96, .f32⟩
  | 112 => ⟨S96x96, .f32⟩
  | 113 => ⟨S96, .f32⟩
  | 114 => ⟨S144x96, .f32⟩
  | 115 => ⟨S96, .f32⟩
  | 116 => ⟨S96x96, .f32⟩
  | 117 => ⟨S96, .f32⟩
  | 118 => ⟨S1000x96, .f32⟩
  | 119 => ⟨S1000x96, .f32⟩
  | 120 => ⟨S1000x96, .f32⟩
  | 121 => ⟨S1000x96, .f32⟩
  | 122 => ⟨S1000x96, .f32⟩
  | 123 => ⟨S1000x96, .f32⟩
  | 124 => ⟨S96x96, .f32⟩
  | 125 => ⟨S96, .f32⟩
  | 126 => ⟨S96x96, .f32⟩
  | 127 => ⟨S96, .f32⟩
  | _ => ⟨S10000x11, .f32⟩

abbrev vmemTy0_1 (i : Nat) : BufTy := match i % 128 with
  | 0 => ⟨S1000x96, .f32⟩
  | 1 => ⟨S1000x96, .f32⟩
  | 2 => ⟨S500x96, .f32⟩
  | 3 => ⟨S96x96, .f32⟩
  | 4 => ⟨S96, .f32⟩
  | 5 => ⟨S96x96, .f32⟩
  | 6 => ⟨S96, .f32⟩
  | 7 => ⟨S500x96, .f32⟩
  | _ => ⟨S10000x11, .f32⟩

abbrev vmemTy (i : Nat) : BufTy := match i / 128 with
  | 0 => vmemTy0_0 i
  | 1 => vmemTy0_1 i
  | _ => ⟨S10000x11, .f32⟩

abbrev bufTy : (tb : Table) → Fin (tcTables nBuf tb) → BufTy
  | .hbm, ⟨i, _⟩ => hbmTy i
  | .local _ .vmem, ⟨i, _⟩ => vmemTy i
  | _, _ => ⟨S10000x11, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_1 : Ref sig .tc := ⟨.hbm, 46, rfl⟩
abbrev main_v11 : Ref sig .tc := ⟨.hbm, 47, rfl⟩
abbrev main_v12 : Ref sig .tc := ⟨.hbm, 48, rfl⟩
abbrev main_c_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_3 : Ref sig .tc := ⟨.hbm, 61, rfl⟩
abbrev main_v23 : Ref sig .tc := ⟨.hbm, 62, rfl⟩
abbrev main_cst_4 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_5 : Ref sig .tc := ⟨.hbm, 67, rfl⟩
abbrev main_v27 : Ref sig .tc := ⟨.hbm, 68, rfl⟩
abbrev main_v28 : Ref sig .tc := ⟨.hbm, 69, rfl⟩
abbrev main_v29_0 : Ref sig .tc := ⟨.hbm, 70, rfl⟩
abbrev main_v29_1 : Ref sig .tc := ⟨.hbm, 71, rfl⟩
abbrev main_c_6 : Ref sig .tc := ⟨.hbm, 72, rfl⟩
abbrev main_v30 : Ref sig .tc := ⟨.hbm, 73, rfl⟩
abbrev main_v31 : Ref sig .tc := ⟨.hbm, 74, rfl⟩
abbrev main_c_7 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_8 : Ref sig .tc := ⟨.hbm, 81, rfl⟩
abbrev main_v37 : Ref sig .tc := ⟨.hbm, 82, rfl⟩
abbrev main_v38 : Ref sig .tc := ⟨.hbm, 83, rfl⟩
abbrev main_c_9 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_10 : Ref sig .tc := ⟨.hbm, 90, rfl⟩
abbrev main_v44 : Ref sig .tc := ⟨.hbm, 91, rfl⟩
abbrev main_v45 : Ref sig .tc := ⟨.hbm, 92, rfl⟩
abbrev main_c_11 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_12 : Ref sig .tc := ⟨.hbm, 99, rfl⟩
abbrev main_v51 : Ref sig .tc := ⟨.hbm, 100, rfl⟩
abbrev main_v52 : Ref sig .tc := ⟨.hbm, 101, rfl⟩
abbrev main_c_13 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_14 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92_0 : Ref sig .tc := ⟨.hbm, 143, rfl⟩
abbrev main_v92_1 : Ref sig .tc := ⟨.hbm, 144, rfl⟩
abbrev main_c_15 : Ref sig .tc := ⟨.hbm, 145, rfl⟩
abbrev main_v93 : Ref sig .tc := ⟨.hbm, 146, rfl⟩
abbrev main_v94 : Ref sig .tc := ⟨.hbm, 147, rfl⟩
abbrev main_c_16 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_17 : Ref sig .tc := ⟨.hbm, 154, rfl⟩
abbrev main_v100 : Ref sig .tc := ⟨.hbm, 155, rfl⟩
abbrev main_v101 : Ref sig .tc := ⟨.hbm, 156, rfl⟩
abbrev main_c_18 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_c_19 : Ref sig .tc := ⟨.hbm, 163, rfl⟩
abbrev main_v107 : Ref sig .tc := ⟨.hbm, 164, rfl⟩
abbrev main_v108 : Ref sig .tc := ⟨.hbm, 165, rfl⟩
abbrev main_c_20 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_c_21 : Ref sig .tc := ⟨.hbm, 172, rfl⟩
abbrev main_v114 : Ref sig .tc := ⟨.hbm, 173, rfl⟩
abbrev main_v115 : Ref sig .tc := ⟨.hbm, 174, rfl⟩
abbrev main_c_22 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_23 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155_0 : Ref sig .tc := ⟨.hbm, 216, rfl⟩
abbrev main_v155_1 : Ref sig .tc := ⟨.hbm, 217, rfl⟩
abbrev main_c_24 : Ref sig .tc := ⟨.hbm, 218, rfl⟩
abbrev main_v156 : Ref sig .tc := ⟨.hbm, 219, rfl⟩
abbrev main_v157 : Ref sig .tc := ⟨.hbm, 220, rfl⟩
abbrev main_c_25 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_c_26 : Ref sig .tc := ⟨.hbm, 227, rfl⟩
abbrev main_v163 : Ref sig .tc := ⟨.hbm, 228, rfl⟩
abbrev main_v164 : Ref sig .tc := ⟨.hbm, 229, rfl⟩
abbrev main_c_27 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_c_28 : Ref sig .tc := ⟨.hbm, 236, rfl⟩
abbrev main_v170 : Ref sig .tc := ⟨.hbm, 237, rfl⟩
abbrev main_v171 : Ref sig .tc := ⟨.hbm, 238, rfl⟩
abbrev main_c_29 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_c_30 : Ref sig .tc := ⟨.hbm, 245, rfl⟩
abbrev main_v177 : Ref sig .tc := ⟨.hbm, 246, rfl⟩
abbrev main_v178 : Ref sig .tc := ⟨.hbm, 247, rfl⟩
abbrev main_c_31 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_32 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218_0 : Ref sig .tc := ⟨.hbm, 289, rfl⟩
abbrev main_v218_1 : Ref sig .tc := ⟨.hbm, 290, rfl⟩
abbrev main_v219 : Ref sig .tc := ⟨.hbm, 291, rfl⟩
abbrev main_cst_33 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg8_0 : Ref sig .tc := ⟨.vmem, 43, rfl⟩
abbrev cc2_stg9_0 : Ref sig .tc := ⟨.vmem, 44, rfl⟩
abbrev cc2_stg10_0 : Ref sig .tc := ⟨.vmem, 45, rfl⟩
abbrev cc2_stg11_0 : Ref sig .tc := ⟨.vmem, 46, rfl⟩
abbrev cc2_stg11_1 : Ref sig .tc := ⟨.vmem, 47, rfl⟩
abbrev cc2_stg12_0 : Ref sig .tc := ⟨.vmem, 48, rfl⟩
abbrev cc2_stg12_1 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc3_stg3_0 : Ref sig .tc := ⟨.vmem, 56, rfl⟩
abbrev cc3_stg3_1 : Ref sig .tc := ⟨.vmem, 57, rfl⟩
abbrev cc3_stg4_0 : Ref sig .tc := ⟨.vmem, 58, rfl⟩
abbrev cc3_stg4_1 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg8_0 : Ref sig .tc := ⟨.vmem, 63, rfl⟩
abbrev cc3_stg9_0 : Ref sig .tc := ⟨.vmem, 64, rfl⟩
abbrev cc3_stg10_0 : Ref sig .tc := ⟨.vmem, 65, rfl⟩
abbrev cc3_stg11_0 : Ref sig .tc := ⟨.vmem, 66, rfl⟩
abbrev cc3_stg11_1 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg1_1 : Ref sig .tc := ⟨.vmem, 71, rfl⟩
abbrev cc4_stg2_0 : Ref sig .tc := ⟨.vmem, 72, rfl⟩
abbrev cc4_stg2_1 : Ref sig .tc := ⟨.vmem, 73, rfl⟩
abbrev cc4_stg3_0 : Ref sig .tc := ⟨.vmem, 74, rfl⟩
abbrev cc4_stg4_0 : Ref sig .tc := ⟨.vmem, 75, rfl⟩
abbrev cc4_stg5_0 : Ref sig .tc := ⟨.vmem, 76, rfl⟩
abbrev cc4_stg6_0 : Ref sig .tc := ⟨.vmem, 77, rfl⟩
abbrev cc4_stg7_0 : Ref sig .tc := ⟨.vmem, 78, rfl⟩
abbrev cc4_stg8_0 : Ref sig .tc := ⟨.vmem, 79, rfl⟩
abbrev cc4_stg9_0 : Ref sig .tc := ⟨.vmem, 80, rfl⟩
abbrev cc4_stg10_0 : Ref sig .tc := ⟨.vmem, 81, rfl⟩
abbrev cc4_stg11_0 : Ref sig .tc := ⟨.vmem, 82, rfl⟩
abbrev cc4_stg11_1 : Ref sig .tc := ⟨.vmem, 83, rfl⟩
abbrev cc4_stg12_0 : Ref sig .tc := ⟨.vmem, 84, rfl⟩
abbrev cc4_stg12_1 : Ref sig .tc := ⟨.vmem, 85, rfl⟩
abbrev cc5_stg0_0 : Ref sig .tc := ⟨.vmem, 86, rfl⟩
abbrev cc5_stg0_1 : Ref sig .tc := ⟨.vmem, 87, rfl⟩
abbrev cc5_stg1_0 : Ref sig .tc := ⟨.vmem, 88, rfl⟩
abbrev cc5_stg1_1 : Ref sig .tc := ⟨.vmem, 89, rfl⟩
abbrev cc5_stg2_0 : Ref sig .tc := ⟨.vmem, 90, rfl⟩
abbrev cc5_stg2_1 : Ref sig .tc := ⟨.vmem, 91, rfl⟩
abbrev cc5_stg3_0 : Ref sig .tc := ⟨.vmem, 92, rfl⟩
abbrev cc5_stg3_1 : Ref sig .tc := ⟨.vmem, 93, rfl⟩
abbrev cc5_stg4_0 : Ref sig .tc := ⟨.vmem, 94, rfl⟩
abbrev cc5_stg4_1 : Ref sig .tc := ⟨.vmem, 95, rfl⟩
abbrev cc5_stg5_0 : Ref sig .tc := ⟨.vmem, 96, rfl⟩
abbrev cc5_stg6_0 : Ref sig .tc := ⟨.vmem, 97, rfl⟩
abbrev cc5_stg7_0 : Ref sig .tc := ⟨.vmem, 98, rfl⟩
abbrev cc5_stg8_0 : Ref sig .tc := ⟨.vmem, 99, rfl⟩
abbrev cc5_stg9_0 : Ref sig .tc := ⟨.vmem, 100, rfl⟩
abbrev cc5_stg10_0 : Ref sig .tc := ⟨.vmem, 101, rfl⟩
abbrev cc5_stg11_0 : Ref sig .tc := ⟨.vmem, 102, rfl⟩
abbrev cc5_stg11_1 : Ref sig .tc := ⟨.vmem, 103, rfl⟩
abbrev cc6_stg0_0 : Ref sig .tc := ⟨.vmem, 104, rfl⟩
abbrev cc6_stg0_1 : Ref sig .tc := ⟨.vmem, 105, rfl⟩
abbrev cc6_stg1_0 : Ref sig .tc := ⟨.vmem, 106, rfl⟩
abbrev cc6_stg1_1 : Ref sig .tc := ⟨.vmem, 107, rfl⟩
abbrev cc6_stg2_0 : Ref sig .tc := ⟨.vmem, 108, rfl⟩
abbrev cc6_stg2_1 : Ref sig .tc := ⟨.vmem, 109, rfl⟩
abbrev cc6_stg3_0 : Ref sig .tc := ⟨.vmem, 110, rfl⟩
abbrev cc6_stg4_0 : Ref sig .tc := ⟨.vmem, 111, rfl⟩
abbrev cc6_stg5_0 : Ref sig .tc := ⟨.vmem, 112, rfl⟩
abbrev cc6_stg6_0 : Ref sig .tc := ⟨.vmem, 113, rfl⟩
abbrev cc6_stg7_0 : Ref sig .tc := ⟨.vmem, 114, rfl⟩
abbrev cc6_stg8_0 : Ref sig .tc := ⟨.vmem, 115, rfl⟩
abbrev cc6_stg9_0 : Ref sig .tc := ⟨.vmem, 116, rfl⟩
abbrev cc6_stg10_0 : Ref sig .tc := ⟨.vmem, 117, rfl⟩
abbrev cc6_stg11_0 : Ref sig .tc := ⟨.vmem, 118, rfl⟩
abbrev cc6_stg11_1 : Ref sig .tc := ⟨.vmem, 119, rfl⟩
abbrev cc6_stg12_0 : Ref sig .tc := ⟨.vmem, 120, rfl⟩
abbrev cc6_stg12_1 : Ref sig .tc := ⟨.vmem, 121, rfl⟩
abbrev cc7_stg0_0 : Ref sig .tc := ⟨.vmem, 122, rfl⟩
abbrev cc7_stg0_1 : Ref sig .tc := ⟨.vmem, 123, rfl⟩
abbrev cc7_stg1_0 : Ref sig .tc := ⟨.vmem, 124, rfl⟩
abbrev cc7_stg2_0 : Ref sig .tc := ⟨.vmem, 125, rfl⟩
abbrev cc7_stg3_0 : Ref sig .tc := ⟨.vmem, 126, rfl⟩
abbrev cc7_stg4_0 : Ref sig .tc := ⟨.vmem, 127, rfl⟩
abbrev cc7_stg5_0 : Ref sig .tc := ⟨.vmem, 128, rfl⟩
abbrev cc7_stg5_1 : Ref sig .tc := ⟨.vmem, 129, rfl⟩
abbrev cc8_stg0_0 : Ref sig .tc := ⟨.vmem, 130, rfl⟩
abbrev cc8_stg1_0 : Ref sig .tc := ⟨.vmem, 131, rfl⟩
abbrev cc8_stg2_0 : Ref sig .tc := ⟨.vmem, 132, rfl⟩
abbrev cc8_stg3_0 : Ref sig .tc := ⟨.vmem, 133, rfl⟩
abbrev cc8_stg4_0 : Ref sig .tc := ⟨.vmem, 134, rfl⟩
abbrev cc8_stg5_0 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem11_0 : DmaSem sig := 46
abbrev cc2_sem11_1 : DmaSem sig := 47
abbrev cc2_sem12_0 : DmaSem sig := 48
abbrev cc2_sem12_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc3_sem3_0 : DmaSem sig := 56
abbrev cc3_sem3_1 : DmaSem sig := 57
abbrev cc3_sem4_0 : DmaSem sig := 58
abbrev cc3_sem4_1 : DmaSem sig := 59
abbrev cc3_sem5_0 : DmaSem sig := 60
abbrev cc3_sem6_0 : DmaSem sig := 61
abbrev cc3_sem7_0 : DmaSem sig := 62
abbrev cc3_sem8_0 : DmaSem sig := 63
abbrev cc3_sem9_0 : DmaSem sig := 64
abbrev cc3_sem10_0 : DmaSem sig := 65
abbrev cc3_sem11_0 : DmaSem sig := 66
abbrev cc3_sem11_1 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73
abbrev cc4_sem3_0 : DmaSem sig := 74
abbrev cc4_sem4_0 : DmaSem sig := 75
abbrev cc4_sem5_0 : DmaSem sig := 76
abbrev cc4_sem6_0 : DmaSem sig := 77
abbrev cc4_sem7_0 : DmaSem sig := 78
abbrev cc4_sem8_0 : DmaSem sig := 79
abbrev cc4_sem9_0 : DmaSem sig := 80
abbrev cc4_sem10_0 : DmaSem sig := 81
abbrev cc4_sem11_0 : DmaSem sig := 82
abbrev cc4_sem11_1 : DmaSem sig := 83
abbrev cc4_sem12_0 : DmaSem sig := 84
abbrev cc4_sem12_1 : DmaSem sig := 85
abbrev cc5_sem0_0 : DmaSem sig := 86
abbrev cc5_sem0_1 : DmaSem sig := 87
abbrev cc5_sem1_0 : DmaSem sig := 88
abbrev cc5_sem1_1 : DmaSem sig := 89
abbrev cc5_sem2_0 : DmaSem sig := 90
abbrev cc5_sem2_1 : DmaSem sig := 91
abbrev cc5_sem3_0 : DmaSem sig := 92
abbrev cc5_sem3_1 : DmaSem sig := 93
abbrev cc5_sem4_0 : DmaSem sig := 94
abbrev cc5_sem4_1 : DmaSem sig := 95
abbrev cc5_sem5_0 : DmaSem sig := 96
abbrev cc5_sem6_0 : DmaSem sig := 97
abbrev cc5_sem7_0 : DmaSem sig := 98
abbrev cc5_sem8_0 : DmaSem sig := 99
abbrev cc5_sem9_0 : DmaSem sig := 100
abbrev cc5_sem10_0 : DmaSem sig := 101
abbrev cc5_sem11_0 : DmaSem sig := 102
abbrev cc5_sem11_1 : DmaSem sig := 103
abbrev cc6_sem0_0 : DmaSem sig := 104
abbrev cc6_sem0_1 : DmaSem sig := 105
abbrev cc6_sem1_0 : DmaSem sig := 106
abbrev cc6_sem1_1 : DmaSem sig := 107
abbrev cc6_sem2_0 : DmaSem sig := 108
abbrev cc6_sem2_1 : DmaSem sig := 109
abbrev cc6_sem3_0 : DmaSem sig := 110
abbrev cc6_sem4_0 : DmaSem sig := 111
abbrev cc6_sem5_0 : DmaSem sig := 112
abbrev cc6_sem6_0 : DmaSem sig := 113
abbrev cc6_sem7_0 : DmaSem sig := 114
abbrev cc6_sem8_0 : DmaSem sig := 115
abbrev cc6_sem9_0 : DmaSem sig := 116
abbrev cc6_sem10_0 : DmaSem sig := 117
abbrev cc6_sem11_0 : DmaSem sig := 118
abbrev cc6_sem11_1 : DmaSem sig := 119
abbrev cc6_sem12_0 : DmaSem sig := 120
abbrev cc6_sem12_1 : DmaSem sig := 121
abbrev cc7_sem0_0 : DmaSem sig := 122
abbrev cc7_sem0_1 : DmaSem sig := 123
abbrev cc7_sem1_0 : DmaSem sig := 124
abbrev cc7_sem2_0 : DmaSem sig := 125
abbrev cc7_sem3_0 : DmaSem sig := 126
abbrev cc7_sem4_0 : DmaSem sig := 127
abbrev cc7_sem5_0 : DmaSem sig := 128
abbrev cc7_sem5_1 : DmaSem sig := 129
abbrev cc8_sem0_0 : DmaSem sig := 130
abbrev cc8_sem1_0 : DmaSem sig := 131
abbrev cc8_sem2_0 : DmaSem sig := 132
abbrev cc8_sem3_0 : DmaSem sig := 133
abbrev cc8_sem4_0 : DmaSem sig := 134
abbrev cc8_sem5_0 : DmaSem sig := 135

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S385x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S96x96 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S96 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S96x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x96 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S288x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S96 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S144x96 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S96 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S96x96 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S96 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1000x96 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1000x96 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S385x96 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S96 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S96x96 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S96 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S96x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4000x96 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S288x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S144x96 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S96 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S96x96 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S96 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1000x96 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S1000x96 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S4000x96 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S385x96 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S96 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S96x96 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S96 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S96x1 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S4000x96 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x96 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S288x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S96x96 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S96 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S144x96 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S96 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S96x96 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S96 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S1000x96 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S1000x96 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S96x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S96x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S96 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1000x96 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S500x96 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S96x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S96x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S96 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S500x96 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  reducesTo_S160000x3_S160000_d1 : S160000x3.ReducesTo [1] S160000
  h_S_ : 0 < S_.numel
  bcast_S_S160000x1 : S_.BroadcastsInDim S160000x1 (![] : Fin 0 → Fin S160000x1.rank)
  bcast_S_S10000x1 : S_.BroadcastsInDim S10000x1 (![] : Fin 0 → Fin S10000x1.rank)
  inb_S1000x11_S1000x11_0_0 : ∀ a, (![0, 0] : Fin 2 → Nat) a + S1000x11.size a ≤ S1000x11.size a
  h_S1000x11 : 0 < S1000x11.numel
  inb_S11x96_S11x96_0_0 : ∀ a, (![0, 0] : Fin 2 → Nat) a + S11x96.size a ≤ S11x96.size a
  h_S11x96 : 0 < S11x96.numel
  inb_S96_S96_0 : ∀ a, (![0] : Fin 1 → Nat) a + S96.size a ≤ S96.size a
  h_S96 : 0 < S96.numel
  shapeCasts_S96_S1x96 : S96.ShapeCasts S1x96
  broadcasts_S1x96_S1000x96 : S1x96.Broadcasts S1000x96
  inb_S96x96_S96x96_0_0 : ∀ a, (![0, 0] : Fin 2 → Nat) a + S96x96.size a ≤ S96x96.size a
  h_S96x96 : 0 < S96x96.numel
  inb_S1000x8_S1000x8_0_0 : ∀ a, (![0, 0] : Fin 2 → Nat) a + S1000x8.size a ≤ S1000x8.size a
  h_S1000x8 : 0 < S1000x8.numel
  inb_S8x96_S8x96_0_0 : ∀ a, (![0, 0] : Fin 2 → Nat) a + S8x96.size a ≤ S8x96.size a
  h_S8x96 : 0 < S8x96.numel
  inb_S1000x96_S1000x96_0_0 : ∀ a, (![0, 0] : Fin 2 → Nat) a + S1000x96.size a ≤ S1000x96.size a
  h_S1000x96 : 0 < S1000x96.numel
  slices_S3x385x96_S1x385x96_0_0_0 : S3x385x96.Slices ![0, 0, 0] S1x385x96
  shapeCasts_S1x385x96_S385x96 : S1x385x96.ShapeCasts S385x96
  slices_S3x96_S1x96_0_0 : S3x96.Slices ![0, 0] S1x96
  shapeCasts_S1x96_S96 : S1x96.ShapeCasts S96
  slices_S3x96x96_S1x96x96_0_0_0 : S3x96x96.Slices ![0, 0, 0] S1x96x96
  shapeCasts_S1x96x96_S96x96 : S1x96x96.ShapeCasts S96x96
  slices_S3x96x1_S1x96x1_0_0_0 : S3x96x1.Slices ![0, 0, 0] S1x96x1
  shapeCasts_S1x96x1_S96x1 : S1x96x1.ShapeCasts S96x1
  slices_S3x1_S1x1_0_0 : S3x1.Slices ![0, 0] S1x1
  shapeCasts_S1x1_S1 : S1x1.ShapeCasts S1
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  concatenates_S4000x96_S4000x96_S4000x96_S4000x96_S4000x1_S4000x385_d1 : Shape.Concatenates [S4000x96, S4000x96, S4000x96, S4000x96, S4000x1] S4000x385 1
  inb_S385x96_S385x96_0_0 : ∀ a, (![0, 0] : Fin 2 → Nat) a + S385x96.size a ≤ S385x96.size a
  h_S385x96 : 0 < S385x96.numel
  shapeCasts_S385x96_S385x96 : S385x96.ShapeCasts S385x96
  shapeCasts_S96_S96 : S96.ShapeCasts S96
  broadcasts_S1x96_S4000x96 : S1x96.Broadcasts S4000x96
  shapeCasts_S96x96_S96x96 : S96x96.ShapeCasts S96x96
  inb_S96x1_S96x1_0_0 : ∀ a, (![0, 0] : Fin 2 → Nat) a + S96x1.size a ≤ S96x1.size a
  h_S96x1 : 0 < S96x1.numel
  shapeCasts_S96x1_S96x1 : S96x1.ShapeCasts S96x1
  inb_S1_S1_0 : ∀ a, (![0] : Fin 1 → Nat) a + S1.size a ≤ S1.size a
  h_S1 : 0 < S1.numel
  shapeCasts_S1_S1 : S1.ShapeCasts S1
  shapeCasts_S1_S1x1 : S1.ShapeCasts S1x1
  broadcasts_S1x1_S4000x1 : S1x1.Broadcasts S4000x1
  broadcasts_S4000x1_S4000x96 : S4000x1.Broadcasts S4000x96
  bcast_S_S10000x96 : S_.BroadcastsInDim S10000x96 (![] : Fin 0 → Fin S10000x96.rank)
  bcast_S10000x1_S10000x96_0_1 : S10000x1.BroadcastsInDim S10000x96 (![0, 1] : Fin 2 → Fin S10000x96.rank)
  slices_S3x288x96_S1x288x96_0_0_0 : S3x288x96.Slices ![0, 0, 0] S1x288x96
  shapeCasts_S1x288x96_S288x96 : S1x288x96.ShapeCasts S288x96
  slices_S3x144x96_S1x144x96_0_0_0 : S3x144x96.Slices ![0, 0, 0] S1x144x96
  shapeCasts_S1x144x96_S144x96 : S1x144x96.ShapeCasts S144x96
  shapeCasts_S1000x96_S1000x96 : S1000x96.ShapeCasts S1000x96
  concatenates_S1000x96_S1000x96_S1000x96_S1000x288_d1 : Shape.Concatenates [S1000x96, S1000x96, S1000x96] S1000x288 1
  inb_S288x96_S288x96_0_0 : ∀ a, (![0, 0] : Fin 2 → Nat) a + S288x96.size a ≤ S288x96.size a
  h_S288x96 : 0 < S288x96.numel
  shapeCasts_S288x96_S288x96 : S288x96.ShapeCasts S288x96
  slices_S1000x96_o0_0_S1000x48 : S1000x96.Slices ![0, 0] S1000x48
  concatenates_S1000x96_S1000x48_S1000x144_d1 : Shape.Concatenates [S1000x96, S1000x48] S1000x144 1
  inb_S144x96_S144x96_0_0 : ∀ a, (![0, 0] : Fin 2 → Nat) a + S144x96.size a ≤ S144x96.size a
  h_S144x96 : 0 < S144x96.numel
  shapeCasts_S144x96_S144x96 : S144x96.ShapeCasts S144x96
  slices_S3x385x96_S1x385x96_1_0_0 : S3x385x96.Slices ![1, 0, 0] S1x385x96
  slices_S3x96_S1x96_1_0 : S3x96.Slices ![1, 0] S1x96
  slices_S3x96x96_S1x96x96_1_0_0 : S3x96x96.Slices ![1, 0, 0] S1x96x96
  slices_S3x96x1_S1x96x1_1_0_0 : S3x96x1.Slices ![1, 0, 0] S1x96x1
  slices_S3x1_S1x1_1_0 : S3x1.Slices ![1, 0] S1x1
  slices_S3x288x96_S1x288x96_1_0_0 : S3x288x96.Slices ![1, 0, 0] S1x288x96
  slices_S3x144x96_S1x144x96_1_0_0 : S3x144x96.Slices ![1, 0, 0] S1x144x96
  slices_S3x385x96_S1x385x96_2_0_0 : S3x385x96.Slices ![2, 0, 0] S1x385x96
  slices_S3x96_S1x96_2_0 : S3x96.Slices ![2, 0] S1x96
  slices_S3x96x96_S1x96x96_2_0_0 : S3x96x96.Slices ![2, 0, 0] S1x96x96
  slices_S3x96x1_S1x96x1_2_0_0 : S3x96x1.Slices ![2, 0, 0] S1x96x1
  slices_S3x1_S1x1_2_0 : S3x1.Slices ![2, 0] S1x1
  slices_S3x288x96_S1x288x96_2_0_0 : S3x288x96.Slices ![2, 0, 0] S1x288x96
  slices_S3x144x96_S1x144x96_2_0_0 : S3x144x96.Slices ![2, 0, 0] S1x144x96
  bcast_S_S500x96 : S_.BroadcastsInDim S500x96 (![] : Fin 0 → Fin S500x96.rank)
  bcast_S10000_S10000x1_0 : S10000.BroadcastsInDim S10000x1 (![0] : Fin 1 → Fin S10000x1.rank)
  inb_S500x96_S500x96_0_0 : ∀ a, (![0, 0] : Fin 2 → Nat) a + S500x96.size a ≤ S500x96.size a
  h_S500x96 : 0 < S500x96.numel
  shapeCasts_S500x96_S500x96 : S500x96.ShapeCasts S500x96
  broadcasts_S1x96_S500x96 : S1x96.Broadcasts S500x96
  gather_S10000x3_S160000x1_S160000x3_1_0_n_n_0_1_13_wf : GatherDims.WF S10000x3 S160000x1 S160000x3 [1] [0] [] [0] [] 1 ![1, 3]
  scatter_S10000x1_S160000x1_S160000x1_1_0_0_1_wf : ScatterDims.WF S10000x1 S160000x1 S160000x1 [1] [0] [0] 1
  dot_S1000x11_S11x96_S1000x96_1_0_0_1_n_n_wf : DotDims.WF S1000x11 S11x96 S1000x96 [1] [0] [0] [1] [] []
  dot_S1000x96_S96x96_S1000x96_1_0_0_1_n_n_wf : DotDims.WF S1000x96 S96x96 S1000x96 [1] [0] [0] [1] [] []
  dot_S1000x8_S8x96_S1000x96_1_0_0_1_n_n_wf : DotDims.WF S1000x8 S8x96 S1000x96 [1] [0] [0] [1] [] []
  gather_S10000x96_S160000x1_S160000x96_1_0_n_n_0_1_196_wf : GatherDims.WF S10000x96 S160000x1 S160000x96 [1] [0] [] [0] [] 1 ![1, 96]
  dot_S4000x385_S385x96_S4000x96_1_0_0_1_n_n_wf : DotDims.WF S4000x385 S385x96 S4000x96 [1] [0] [0] [1] [] []
  dot_S4000x96_S96x96_S4000x96_1_0_0_1_n_n_wf : DotDims.WF S4000x96 S96x96 S4000x96 [1] [0] [0] [1] [] []
  dot_S4000x96_S96x1_S4000x1_1_0_0_1_n_n_wf : DotDims.WF S4000x96 S96x1 S4000x1 [1] [0] [0] [1] [] []
  scatter_S10000x96_S160000x1_S160000x96_1_0_0_1_wf : ScatterDims.WF S10000x96 S160000x1 S160000x96 [1] [0] [0] 1
  dot_S1000x288_S288x96_S1000x96_1_0_0_1_n_n_wf : DotDims.WF S1000x288 S288x96 S1000x96 [1] [0] [0] [1] [] []
  dot_S1000x144_S144x96_S1000x96_1_0_0_1_n_n_wf : DotDims.WF S1000x144 S144x96 S1000x96 [1] [0] [0] [1] [] []
  scatter_S500x96_S10000x1_S10000x96_1_0_0_1_wf : ScatterDims.WF S500x96 S10000x1 S10000x96 [1] [0] [0] 1
  dot_S500x96_S96x96_S500x96_1_0_0_1_n_n_wf : DotDims.WF S500x96 S96x96 S500x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x11.size a ≤ S10000x11.size a
  hwx0_0 : ∀ i : grid0.Coords, EltTy.bits .f32 = 32 ∨ (Rect.block (s := S10000x11) S1000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x8.size a ≤ S10000x8.size a
  hwx0_1 : ∀ i : grid0.Coords, EltTy.bits .f32 = 32 ∨ (Rect.block (s := S10000x8) S1000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x96.size a ≤ S11x96.size a
  hwx0_2 : ∀ i : grid0.Coords, EltTy.bits .f32 = 32 ∨ (Rect.block (s := S11x96) S11x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96.size a ≤ S96.size a
  hwx0_3 : ∀ i : grid0.Coords, EltTy.bits .f32 = 32 ∨ (Rect.block (s := S96) S96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x96.size a ≤ S8x96.size a
  hwx0_6 : ∀ i : grid0.Coords, EltTy.bits .f32 = 32 ∨ (Rect.block (s := S8x96) S8x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96.size a ≤ S96.size a
  hwx0_7 : ∀ i : grid0.Coords, EltTy.bits .f32 = 32 ∨ (Rect.block (s := S96) S96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x96.size a ≤ S10000x96.size a
  hwx0_8 : ∀ i : grid0.Coords, EltTy.bits .f32 = 32 ∨ (Rect.block (s := S10000x96) S1000x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x96.size a ≤ S10000x96.size a
  hwx0_9 : ∀ i : grid0.Coords, EltTy.bits .f32 = 32 ∨ (Rect.block (s := S10000x96) S1000x96.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S160000x96.size a
  hwx1_0 : ∀ i : grid1.Coords, EltTy.bits .f32 = 32 ∨ (Rect.block (s := S160000x96) S4000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x96.size a ≤ S160000x96.size a
  hwx1_1 : ∀ i : grid1.Coords, EltTy.bits .f32 = 32 ∨ (Rect.block (s := S160000x96) S4000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x96.size a ≤ S160000x96.size a
  hwx1_2 : ∀ i : grid1.Coords, EltTy.bits .f32 = 32 ∨ (Rect.block (s := S160000x96) S4000x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x96.size a ≤ S160000x96.size a
  hwx1_3 : ∀ i : grid1.Coords, EltTy.bits .f32 = 32 ∨ (Rect.block (s := S160000x96) S4000x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S160000x1.size a
  hwx1_4 : ∀ i : grid1.Coords, EltTy.bits .f32 = 32 ∨ (Rect.block (s := S160000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S385x96.size a ≤ S385x96.size a
  hwx1_5 : ∀ i : grid1.Coords, EltTy.bits .f32 = 32 ∨ (Rect.block (s := S385x96) S385x96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96.size a ≤ S96.size a
  hwx1_6 : ∀ i : grid1.Coords, EltTy.bits .f32 = 32 ∨ (Rect.block (s := S96) S96.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S96x96.size a ≤ S96x96.size a
  hwx1_7 : ∀ i : grid1.Coords, EltTy.bits .f32 = 32 ∨ (Rect.block (s := S96x96) S96x96.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S96.size a ≤ S96.size a
  hwx1_8 : ∀ i : grid1.Coords, EltTy.bits .f32 = 32 ∨ (Rect.block (s := S96) S96.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S96x1.size a ≤ S96x1.size a
  hwx1_9 : ∀ i : grid1.Coords, EltTy.bits .f32 = 32 ∨ (Rect.block (s := S96x1) S96x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1.size a ≤ S1.size a
  hwx1_10 : ∀ i : grid1.Coords, EltTy.bits .f32 = 32 ∨ (Rect.block (s := S1) S1.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x96.size a ≤ S160000x96.size a
  hwx1_11 : ∀ i : grid1.Coords, EltTy.bits .f32 = 32 ∨ (Rect.block (s := S160000x96) S4000x96.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x96.size a ≤ S10000x96.size a
  hwx2_0 : ∀ i : grid2.Coords, EltTy.bits .f32 = 32 ∨ (Rect.block (s := S10000x96) S1000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x96.size a ≤ S10000x96.size a
  hwx2_1 : ∀ i : grid2.Coords, EltTy.bits .f32 = 32 ∨ (Rect.block (s := S10000x96) S1000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x96.size a ≤ S10000x96.size a
  hwx2_2 : ∀ i : grid2.Coords, EltTy.bits .f32 = 32 ∨ (Rect.block (s := S10000x96) S1000x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S288x96.size a ≤ S288x96.size a
  hwx2_3 : ∀ i : grid2.Coords, EltTy.bits .f32 = 32 ∨ (Rect.block (s := S288x96) S288x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96.size a ≤ S96.size a
  hwx2_4 : ∀ i : grid2.Coords, EltTy.bits .f32 = 32 ∨ (Rect.block (s := S96) S96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96x96.size a ≤ S96x96.size a
  hwx2_5 : ∀ i : grid2.Coords, EltTy.bits .f32 = 32 ∨ (Rect.block (s := S96x96) S96x96.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S96.size a ≤ S96.size a
  hwx2_6 : ∀ i : grid2.Coords, EltTy.bits .f32 = 32 ∨ (Rect.block (s := S96) S96.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S144x96.size a ≤ S144x96.size a
  hwx2_7 : ∀ i : grid2.Coords, EltTy.bits .f32 = 32 ∨ (Rect.block (s := S144x96) S144x96.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S96.size a ≤ S96.size a
  hwx2_8 : ∀ i : grid2.Coords, EltTy.bits .f32 = 32 ∨ (Rect.block (s := S96) S96.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S96x96.size a ≤ S96x96.size a
  hwx2_9 : ∀ i : grid2.Coords, EltTy.bits .f32 = 32 ∨ (Rect.block (s := S96x96) S96x96.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S96.size a ≤ S96.size a
  hwx2_10 : ∀ i : grid2.Coords, EltTy.bits .f32 = 32 ∨ (Rect.block (s := S96) S96.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1000x96.size a ≤ S10000x96.size a
  hwx2_11 : ∀ i : grid2.Coords, EltTy.bits .f32 = 32 ∨ (Rect.block (s := S10000x96) S1000x96.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1000x96.size a ≤ S10000x96.size a
  hwx2_12 : ∀ i : grid2.Coords, EltTy.bits .f32 = 32 ∨ (Rect.block (s := S10000x96) S1000x96.size (cc2_transform_12 i) (hinb2_12 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x96.size a ≤ S160000x96.size a
  hwx3_0 : ∀ i : grid3.Coords, EltTy.bits .f32 = 32 ∨ (Rect.block (s := S160000x96) S4000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x96.size a ≤ S160000x96.size a
  hwx3_1 : ∀ i : grid3.Coords, EltTy.bits .f32 = 32 ∨ (Rect.block (s := S160000x96) S4000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x96.size a ≤ S160000x96.size a
  hwx3_2 : ∀ i : grid3.Coords, EltTy.bits .f32 = 32 ∨ (Rect.block (s := S160000x96) S4000x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x96.size a ≤ S160000x96.size a
  hwx3_3 : ∀ i : grid3.Coords, EltTy.bits .f32 = 32 ∨ (Rect.block (s := S160000x96) S4000x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S160000x1.size a
  hwx3_4 : ∀ i : grid3.Coords, EltTy.bits .f32 = 32 ∨ (Rect.block (s := S160000x1) S4000x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S385x96.size a ≤ S385x96.size a
  hwx3_5 : ∀ i : grid3.Coords, EltTy.bits .f32 = 32 ∨ (Rect.block (s := S385x96) S385x96.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S96.size a ≤ S96.size a
  hwx3_6 : ∀ i : grid3.Coords, EltTy.bits .f32 = 32 ∨ (Rect.block (s := S96) S96.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S96x96.size a ≤ S96x96.size a
  hwx3_7 : ∀ i : grid3.Coords, EltTy.bits .f32 = 32 ∨ (Rect.block (s := S96x96) S96x96.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S96.size a ≤ S96.size a
  hwx3_8 : ∀ i : grid3.Coords, EltTy.bits .f32 = 32 ∨ (Rect.block (s := S96) S96.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S96x1.size a ≤ S96x1.size a
  hwx3_9 : ∀ i : grid3.Coords, EltTy.bits .f32 = 32 ∨ (Rect.block (s := S96x1) S96x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1.size a ≤ S1.size a
  hwx3_10 : ∀ i : grid3.Coords, EltTy.bits .f32 = 32 ∨ (Rect.block (s := S1) S1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S4000x96.size a ≤ S160000x96.size a
  hwx3_11 : ∀ i : grid3.Coords, EltTy.bits .f32 = 32 ∨ (Rect.block (s := S160000x96) S4000x96.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x96.size a ≤ S10000x96.size a
  hwx4_0 : ∀ i : grid4.Coords, EltTy.bits .f32 = 32 ∨ (Rect.block (s := S10000x96) S1000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x96.size a ≤ S10000x96.size a
  hwx4_1 : ∀ i : grid4.Coords, EltTy.bits .f32 = 32 ∨ (Rect.block (s := S10000x96) S1000x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x96.size a ≤ S10000x96.size a
  hwx4_2 : ∀ i : grid4.Coords, EltTy.bits .f32 = 32 ∨ (Rect.block (s := S10000x96) S1000x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S288x96.size a ≤ S288x96.size a
  hwx4_3 : ∀ i : grid4.Coords, EltTy.bits .f32 = 32 ∨ (Rect.block (s := S288x96) S288x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96.size a ≤ S96.size a
  hwx4_4 : ∀ i : grid4.Coords, EltTy.bits .f32 = 32 ∨ (Rect.block (s := S96) S96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96x96.size a ≤ S96x96.size a
  hwx4_5 : ∀ i : grid4.Coords, EltTy.bits .f32 = 32 ∨ (Rect.block (s := S96x96) S96x96.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S96.size a ≤ S96.size a
  hwx4_6 : ∀ i : grid4.Coords, EltTy.bits .f32 = 32 ∨ (Rect.block (s := S96) S96.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S144x96.size a ≤ S144x96.size a
  hwx4_7 : ∀ i : grid4.Coords, EltTy.bits .f32 = 32 ∨ (Rect.block (s := S144x96) S144x96.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S96.size a ≤ S96.size a
  hwx4_8 : ∀ i : grid4.Coords, EltTy.bits .f32 = 32 ∨ (Rect.block (s := S96) S96.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S96x96.size a ≤ S96x96.size a
  hwx4_9 : ∀ i : grid4.Coords, EltTy.bits .f32 = 32 ∨ (Rect.block (s := S96x96) S96x96.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S96.size a ≤ S96.size a
  hwx4_10 : ∀ i : grid4.Coords, EltTy.bits .f32 = 32 ∨ (Rect.block (s := S96) S96.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S1000x96.size a ≤ S10000x96.size a
  hwx4_11 : ∀ i : grid4.Coords, EltTy.bits .f32 = 32 ∨ (Rect.block (s := S10000x96) S1000x96.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S1000x96.size a ≤ S10000x96.size a
  hwx4_12 : ∀ i : grid4.Coords, EltTy.bits .f32 = 32 ∨ (Rect.block (s := S10000x96) S1000x96.size (cc4_transform_12 i) (hinb4_12 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x96.size a ≤ S160000x96.size a
  hwx5_0 : ∀ i : grid5.Coords, EltTy.bits .f32 = 32 ∨ (Rect.block (s := S160000x96) S4000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x96.size a ≤ S160000x96.size a
  hwx5_1 : ∀ i : grid5.Coords, EltTy.bits .f32 = 32 ∨ (Rect.block (s := S160000x96) S4000x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x96.size a ≤ S160000x96.size a
  hwx5_2 : ∀ i : grid5.Coords, EltTy.bits .f32 = 32 ∨ (Rect.block (s := S160000x96) S4000x96.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x96.size a ≤ S160000x96.size a
  hwx5_3 : ∀ i : grid5.Coords, EltTy.bits .f32 = 32 ∨ (Rect.block (s := S160000x96) S4000x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S160000x1.size a
  hwx5_4 : ∀ i : grid5.Coords, EltTy.bits .f32 = 32 ∨ (Rect.block (s := S160000x1) S4000x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S385x96.size a ≤ S385x96.size a
  hwx5_5 : ∀ i : grid5.Coords, EltTy.bits .f32 = 32 ∨ (Rect.block (s := S385x96) S385x96.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S96.size a ≤ S96.size a
  hwx5_6 : ∀ i : grid5.Coords, EltTy.bits .f32 = 32 ∨ (Rect.block (s := S96) S96.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S96x96.size a ≤ S96x96.size a
  hwx5_7 : ∀ i : grid5.Coords, EltTy.bits .f32 = 32 ∨ (Rect.block (s := S96x96) S96x96.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S96.size a ≤ S96.size a
  hwx5_8 : ∀ i : grid5.Coords, EltTy.bits .f32 = 32 ∨ (Rect.block (s := S96) S96.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S96x1.size a ≤ S96x1.size a
  hwx5_9 : ∀ i : grid5.Coords, EltTy.bits .f32 = 32 ∨ (Rect.block (s := S96x1) S96x1.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1.size a ≤ S1.size a
  hwx5_10 : ∀ i : grid5.Coords, EltTy.bits .f32 = 32 ∨ (Rect.block (s := S1) S1.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S4000x96.size a ≤ S160000x96.size a
  hwx5_11 : ∀ i : grid5.Coords, EltTy.bits .f32 = 32 ∨ (Rect.block (s := S160000x96) S4000x96.size (cc5_transform_11 i) (hinb5_11 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x96.size a ≤ S10000x96.size a
  hwx6_0 : ∀ i : grid6.Coords, EltTy.bits .f32 = 32 ∨ (Rect.block (s := S10000x96) S1000x96.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x96.size a ≤ S10000x96.size a
  hwx6_1 : ∀ i : grid6.Coords, EltTy.bits .f32 = 32 ∨ (Rect.block (s := S10000x96) S1000x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x96.size a ≤ S10000x96.size a
  hwx6_2 : ∀ i : grid6.Coords, EltTy.bits .f32 = 32 ∨ (Rect.block (s := S10000x96) S1000x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S288x96.size a ≤ S288x96.size a
  hwx6_3 : ∀ i : grid6.Coords, EltTy.bits .f32 = 32 ∨ (Rect.block (s := S288x96) S288x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S96.size a ≤ S96.size a
  hwx6_4 : ∀ i : grid6.Coords, EltTy.bits .f32 = 32 ∨ (Rect.block (s := S96) S96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S96x96.size a ≤ S96x96.size a
  hwx6_5 : ∀ i : grid6.Coords, EltTy.bits .f32 = 32 ∨ (Rect.block (s := S96x96) S96x96.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S96.size a ≤ S96.size a
  hwx6_6 : ∀ i : grid6.Coords, EltTy.bits .f32 = 32 ∨ (Rect.block (s := S96) S96.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S144x96.size a ≤ S144x96.size a
  hwx6_7 : ∀ i : grid6.Coords, EltTy.bits .f32 = 32 ∨ (Rect.block (s := S144x96) S144x96.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S96.size a ≤ S96.size a
  hwx6_8 : ∀ i : grid6.Coords, EltTy.bits .f32 = 32 ∨ (Rect.block (s := S96) S96.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S96x96.size a ≤ S96x96.size a
  hwx6_9 : ∀ i : grid6.Coords, EltTy.bits .f32 = 32 ∨ (Rect.block (s := S96x96) S96x96.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S96.size a ≤ S96.size a
  hwx6_10 : ∀ i : grid6.Coords, EltTy.bits .f32 = 32 ∨ (Rect.block (s := S96) S96.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S1000x96.size a ≤ S10000x96.size a
  hwx6_11 : ∀ i : grid6.Coords, EltTy.bits .f32 = 32 ∨ (Rect.block (s := S10000x96) S1000x96.size (cc6_transform_11 i) (hinb6_11 i)).WholeWords (EltTy.packing .f32)
  hstage6_12 : ∀ j, (stage6_12 j).IsWhole
  nbuf6_12 : grid6.bufCount reads6_12 false = 2
  hreads6_12 : ∀ i i' : grid6.Coords, (∀ a, reads6_12 a = true → i a = i' a) → cc6_transform_12 i = cc6_transform_12 i'
  hinb6_12 : ∀ (i : grid6.Coords) a, (cc6_transform_12 i a + 1) * S1000x96.size a ≤ S10000x96.size a
  hwx6_12 : ∀ i : grid6.Coords, EltTy.bits .f32 = 32 ∨ (Rect.block (s := S10000x96) S1000x96.size (cc6_transform_12 i) (hinb6_12 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x96.size a ≤ S10000x96.size a
  hwx7_0 : ∀ i : grid7.Coords, EltTy.bits .f32 = 32 ∨ (Rect.block (s := S10000x96) S1000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S96x96.size a ≤ S96x96.size a
  hwx7_1 : ∀ i : grid7.Coords, EltTy.bits .f32 = 32 ∨ (Rect.block (s := S96x96) S96x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S96.size a ≤ S96.size a
  hwx7_2 : ∀ i : grid7.Coords, EltTy.bits .f32 = 32 ∨ (Rect.block (s := S96) S96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S96x96.size a ≤ S96x96.size a
  hwx7_3 : ∀ i : grid7.Coords, EltTy.bits .f32 = 32 ∨ (Rect.block (s := S96x96) S96x96.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S96.size a ≤ S96.size a
  hwx7_4 : ∀ i : grid7.Coords, EltTy.bits .f32 = 32 ∨ (Rect.block (s := S96) S96.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x96.size a ≤ S10000x96.size a
  hwx7_5 : ∀ i : grid7.Coords, EltTy.bits .f32 = 32 ∨ (Rect.block (s := S10000x96) S1000x96.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S500x96.size a ≤ S500x96.size a
  hwx8_0 : ∀ i : grid8.Coords, EltTy.bits .f32 = 32 ∨ (Rect.block (s := S500x96) S500x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S96x96.size a ≤ S96x96.size a
  hwx8_1 : ∀ i : grid8.Coords, EltTy.bits .f32 = 32 ∨ (Rect.block (s := S96x96) S96x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S96.size a ≤ S96.size a
  hwx8_2 : ∀ i : grid8.Coords, EltTy.bits .f32 = 32 ∨ (Rect.block (s := S96) S96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S96x96.size a ≤ S96x96.size a
  hwx8_3 : ∀ i : grid8.Coords, EltTy.bits .f32 = 32 ∨ (Rect.block (s := S96x96) S96x96.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S96.size a ≤ S96.size a
  hwx8_4 : ∀ i : grid8.Coords, EltTy.bits .f32 = 32 ∨ (Rect.block (s := S96) S96.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S500x96.size a ≤ S500x96.size a
  hwx8_5 : ∀ i : grid8.Coords, EltTy.bits .f32 = 32 ∨ (Rect.block (s := S500x96) S500x96.size (cc8_transform_5 i) (hinb8_5 i)).WholeWords (EltTy.packing .f32)

variable [Facts₀]

def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def dot_S1000x11_S11x96_S1000x96_1_0_0_1_n_n : DotDims S1000x11 S11x96 S1000x96 where
  lhsContracting := [1]
  rhsContracting := [0]
  lhsNonContracting := [0]
  rhsNonContracting := [1]
  lhsBatch := []
  rhsBatch := []
  wf := dot_S1000x11_S11x96_S1000x96_1_0_0_1_n_n_wf
def dot_S1000x96_S96x96_S1000x96_1_0_0_1_n_n : DotDims S1000x96 S96x96 S1000x96 where
  lhsContracting := [1]
  rhsContracting := [0]
  lhsNonContracting := [0]
  rhsNonContracting := [1]
  lhsBatch := []
  rhsBatch := []
  wf := dot_S1000x96_S96x96_S1000x96_1_0_0_1_n_n_wf
def dot_S1000x8_S8x96_S1000x96_1_0_0_1_n_n : DotDims S1000x8 S8x96 S1000x96 where
  lhsContracting := [1]
  rhsContracting := [0]
  lhsNonContracting := [0]
  rhsNonContracting := [1]
  lhsBatch := []
  rhsBatch := []
  wf := dot_S1000x8_S8x96_S1000x96_1_0_0_1_n_n_wf
def gather_S10000x96_S160000x1_S160000x96_1_0_n_n_0_1_196 : GatherDims S10000x96 S160000x1 S160000x96 where
  offsetDims := [1]
  collapsedSliceDims := [0]
  operandBatchingDims := []
  startIndicesBatchingDims := []
  startIndexMap := [0]
  indexVectorDim := 1
  sliceSizes := ![1, 96]
  wf := gather_S10000x96_S160000x1_S160000x96_1_0_n_n_0_1_196_wf
def dot_S4000x385_S385x96_S4000x96_1_0_0_1_n_n : DotDims S4000x385 S385x96 S4000x96 where
  lhsContracting := [1]
  rhsContracting := [0]
  lhsNonContracting := [0]
  rhsNonContracting := [1]
  lhsBatch := []
  rhsBatch := []
  wf := dot_S4000x385_S385x96_S4000x96_1_0_0_1_n_n_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf
def dot_S4000x96_S96x1_S4000x1_1_0_0_1_n_n : DotDims S4000x96 S96x1 S4000x1 where
  lhsContracting := [1]
  rhsContracting := [0]
  lhsNonContracting := [0]
  rhsNonContracting := [1]
  lhsBatch := []
  rhsBatch := []
  wf := dot_S4000x96_S96x1_S4000x1_1_0_0_1_n_n_wf
def scatter_S10000x96_S160000x1_S160000x96_1_0_0_1 : ScatterDims S10000x96 S160000x1 S160000x96 where
  updateWindowDims := [1]
  insertedWindowDims := [0]
  scatterDimsToOperandDims := [0]
  indexVectorDim := 1
  wf := scatter_S10000x96_S160000x1_S160000x96_1_0_0_1_wf
def dot_S1000x288_S288x96_S1000x96_1_0_0_1_n_n : DotDims S1000x288 S288x96 S1000x96 where
  lhsContracting := [1]
  rhsContracting := [0]
  lhsNonContracting := [0]
  rhsNonContracting := [1]
  lhsBatch := []
  rhsBatch := []
  wf := dot_S1000x288_S288x96_S1000x96_1_0_0_1_n_n_wf
def dot_S1000x144_S144x96_S1000x96_1_0_0_1_n_n : DotDims S1000x144 S144x96 S1000x96 where
  lhsContracting := [1]
  rhsContracting := [0]
  lhsNonContracting := [0]
  rhsNonContracting := [1]
  lhsBatch := []
  rhsBatch := []
  wf := dot_S1000x144_S144x96_S1000x96_1_0_0_1_n_n_wf
def scatter_S500x96_S10000x1_S10000x96_1_0_0_1 : ScatterDims S500x96 S10000x1 S10000x96 where
  updateWindowDims := [1]
  insertedWindowDims := [0]
  scatterDimsToOperandDims := [0]
  indexVectorDim := 1
  wf := scatter_S500x96_S10000x1_S10000x96_1_0_0_1_wf
def dot_S500x96_S96x96_S500x96_1_0_0_1_n_n : DotDims S500x96 S96x96 S500x96 where
  lhsContracting := [1]
  rhsContracting := [0]
  lhsNonContracting := [0]
  rhsNonContracting := [1]
  lhsBatch := []
  rhsBatch := []
  wf := dot_S500x96_S96x96_S500x96_1_0_0_1_n_n_wf

abbrev win0_0 : Pipeline.Window sig grid0 :=
  Pipeline.Window.ofSpec (Memref.whole main_arg0) S1000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S11x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S8x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29_0) S1000x96.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29_1) S1000x96.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S4000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S4000x96.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v59) S385x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v63) S96x96.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S96.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v67) S96x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v69) S1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v70) S4000x96.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v29_0) S1000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_1) S1000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1000x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v77) S288x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S96x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S96.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S144x96.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v87) S96.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v89) S96x96.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v91) S96.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v92_0) S1000x96.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v92_1) S1000x96.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v99) S4000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S4000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v113) S4000x96.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v120) S4000x96.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v22) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v122) S385x96.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v124) S96.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v126) S96x96.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v128) S96.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v130) S96x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v132) S1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v133) S4000x96.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v92_0) S1000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92_1) S1000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v138) S1000x96.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v140) S288x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v142) S96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v144) S96x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v146) S96.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v148) S144x96.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v150) S96.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v152) S96x96.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v154) S96.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v155_0) S1000x96.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v155_1) S1000x96.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v162) S4000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S4000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v176) S4000x96.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v183) S4000x96.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v22) S4000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v185) S385x96.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v187) S96.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v189) S96x96.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v191) S96.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v193) S96x1.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v195) S1.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v196) S4000x96.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

abbrev win6_0 : Pipeline.Window sig grid6 :=
  Pipeline.Window.ofSpec (Memref.whole main_v155_0) S1000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v155_1) S1000x96.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v201) S1000x96.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v203) S288x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v205) S96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v207) S96x96.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v209) S96.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v211) S144x96.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v213) S96.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v215) S96x96.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v217) S96.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v218_0) S1000x96.size cc6_transform_11 reads6_11 true false 2 stage6_11 sem6_11
    hrank6 hreads6_11 hinb6_11 nbuf6_11 (Memref.isWhole_whole _) hwx6_11 hstage6_11

abbrev win6_12 : Pipeline.Window sig grid6 :=
  Pipeline.Window.ofSpec (Memref.whole main_v218_1) S1000x96.size cc6_transform_12 reads6_12 true false 2 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

abbrev win7_0 : Pipeline.Window sig grid7 :=
  Pipeline.Window.ofSpec (Memref.whole main_v218_0) S1000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg25) S96x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg26) S96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg27) S96x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg28) S96.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v219) S1000x96.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v222) S500x96.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg29) S96x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg30) S96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg31) S96x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg32) S96.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v223) S500x96.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S10000x11 : Shape := ⟨2, ![10000, 11]⟩
abbrev S10000x3 : Shape := ⟨2, ![10000, 3]⟩
abbrev S10000x8 : Shape := ⟨2, ![10000, 8]⟩
abbrev S2x160000 : Shape := ⟨2, ![2, 160000]⟩
abbrev S10000 : Shape := ⟨1, ![10000]⟩
abbrev S11x96 : Shape := ⟨2, ![11, 96]⟩
abbrev S96 : Shape := ⟨1, ![96]⟩
abbrev S96x96 : Shape := ⟨2, ![96, 96]⟩
abbrev S8x96 : Shape := ⟨2, ![8, 96]⟩
abbrev S3x385x96 : Shape := ⟨3, ![3, 385, 96]⟩
abbrev S3x96 : Shape := ⟨2, ![3, 96]⟩
abbrev S3x96x96 : Shape := ⟨3, ![3, 96, 96]⟩
abbrev S3x96x1 : Shape := ⟨3, ![3, 96, 1]⟩
abbrev S3x1 : Shape := ⟨2, ![3, 1]⟩
abbrev S3x288x96 : Shape := ⟨3, ![3, 288, 96]⟩
abbrev S3x144x96 : Shape := ⟨3, ![3, 144, 96]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3 : Shape := ⟨2, ![160000, 3]⟩
abbrev S10000x96 : Shape := ⟨2, ![10000, 96]⟩
abbrev S1x96 : Shape := ⟨2, ![1, 96]⟩
abbrev S10000x1 : Shape := ⟨2, ![10000, 1]⟩
abbrev S160000x96 : Shape := ⟨2, ![160000, 96]⟩
abbrev S160000x385 : Shape := ⟨2, ![160000, 385]⟩
abbrev S1x385x96 : Shape := ⟨3, ![1, 385, 96]⟩
abbrev S385x96 : Shape := ⟨2, ![385, 96]⟩
abbrev S1x96x96 : Shape := ⟨3, ![1, 96, 96]⟩
abbrev S1x96x1 : Shape := ⟨3, ![1, 96, 1]⟩
abbrev S96x1 : Shape := ⟨2, ![96, 1]⟩
abbrev S1x1 : Shape := ⟨2, ![1, 1]⟩
abbrev S1 : Shape := ⟨1, ![1]⟩
abbrev S10000x288 : Shape := ⟨2, ![10000, 288]⟩
abbrev S1x288x96 : Shape := ⟨3, ![1, 288, 96]⟩
abbrev S288x96 : Shape := ⟨2, ![288, 96]⟩
abbrev S10000x48 : Shape := ⟨2, ![10000, 48]⟩
abbrev S10000x144 : Shape := ⟨2, ![10000, 144]⟩
abbrev S1x144x96 : Shape := ⟨3, ![1, 144, 96]⟩
abbrev S144x96 : Shape := ⟨2, ![144, 96]⟩
abbrev S500x96 : Shape := ⟨2, ![500, 96]⟩

abbrev nBuf : Space → Nat
  | .hbm => 483
  | .vmem => 0
  | .smem => 0
  | _ => 0

abbrev hbmTy0_0 (i : Nat) : BufTy := match i % 128 with
  | 0 => ⟨S10000x11, .f32⟩
  | 1 => ⟨S10000x3, .f32⟩
  | 2 => ⟨S10000x8, .f32⟩
  | 3 => ⟨S2x160000, .i32⟩
  | 4 => ⟨S10000, .i32⟩
  | 5 => ⟨S11x96, .f32⟩
  | 6 => ⟨S96, .f32⟩
  | 7 => ⟨S96x96, .f32⟩
  | 8 => ⟨S96, .f32⟩
  | 9 => ⟨S8x96, .f32⟩
  | 10 => ⟨S96, .f32⟩
  | 11 => ⟨S3x385x96, .f32⟩
  | 12 => ⟨S3x96, .f32⟩
  | 13 => ⟨S3x96x96, .f32⟩
  | 14 => ⟨S3x96, .f32⟩
  | 15 => ⟨S3x96x1, .f32⟩
  | 16 => ⟨S3x1, .f32⟩
  | 17 => ⟨S3x288x96, .f32⟩
  | 18 => ⟨S3x96, .f32⟩
  | 19 => ⟨S3x96x96, .f32⟩
  | 20 => ⟨S3x96, .f32⟩
  | 21 => ⟨S3x144x96, .f32⟩
  | 22 => ⟨S3x96, .f32⟩
  | 23 => ⟨S3x96x96, .f32⟩
  | 24 => ⟨S3x96, .f32⟩
  | 25 => ⟨S96x96, .f32⟩
  | 26 => ⟨S96, .f32⟩
  | 27 => ⟨S96x96, .f32⟩
  | 28 => ⟨S96, .f32⟩
  | 29 => ⟨S96x96, .f32⟩
  | 30 => ⟨S96, .f32⟩
  | 31 => ⟨S96x96, .f32⟩
  | 32 => ⟨S96, .f32⟩
  | 33 => ⟨S1x160000, .i32⟩
  | 34 => ⟨S160000, .i32⟩
  | 35 => ⟨S1x160000, .i32⟩
  | 36 => ⟨S160000, .i32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x3, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x3, .f32⟩
  | 55 => ⟨S160000x3, .f32⟩
  | 56 => ⟨S160000x3, .f32⟩
  | 57 => ⟨S_, .f32⟩
  | 58 => ⟨S160000, .f32⟩
  | 59 => ⟨S160000x1, .f32⟩
  | 60 => ⟨S160000x1, .f32⟩
  | 61 => ⟨S10000x96, .f32⟩
  | 62 => ⟨S1x96, .f32⟩
  | 63 => ⟨S10000x96, .f32⟩
  | 64 => ⟨S10000x96, .f32⟩
  | 65 => ⟨S_, .f32⟩
  | 66 => ⟨S10000x96, .f32⟩
  | 67 => ⟨S10000x96, .f32⟩
  | 68 => ⟨S10000x96, .f32⟩
  | 69 => ⟨S1x96, .f32⟩
  | 70 => ⟨S10000x96, .f32⟩
  | 71 => ⟨S10000x96, .f32⟩
  | 72 => ⟨S10000x96, .f32⟩
  | 73 => ⟨S1x96, .f32⟩
  | 74 => ⟨S10000x96, .f32⟩
  | 75 => ⟨S10000x96, .f32⟩
  | 76 => ⟨S_, .f32⟩
  | 77 => ⟨S160000x1, .f32⟩
  | 78 => ⟨S_, .f32⟩
  | 79 => ⟨S10000x1, .f32⟩
  | 80 => ⟨S160000x1, .i32⟩
  | 81 => ⟨S10000x1, .f32⟩
  | 82 => ⟨S_, .f32⟩
  | 83 => ⟨S10000x1, .f32⟩
  | 84 => ⟨S10000x1, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x96, .f32⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x96, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x96, .f32⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x96, .f32⟩
  | 121 => ⟨S160000x385, .f32⟩
  | 122 => ⟨S1x385x96, .f32⟩
  | 123 => ⟨S385x96, .f32⟩
  | 124 => ⟨S160000x96, .f32⟩
  | 125 => ⟨S1x96, .f32⟩
  | 126 => ⟨S96, .f32⟩
  | 127 => ⟨S1x96, .f32⟩
  | _ => ⟨S10000x11, .f32⟩

abbrev hbmTy0_1 (i : Nat) : BufTy := match i % 128 with
  | 0 => ⟨S160000x96, .f32⟩
  | 1 => ⟨S160000x96, .f32⟩
  | 2 => ⟨S_, .f32⟩
  | 3 => ⟨S160000x96, .f32⟩
  | 4 => ⟨S160000x96, .f32⟩
  | 5 => ⟨S1x96x96, .f32⟩
  | 6 => ⟨S96x96, .f32⟩
  | 7 => ⟨S160000x96, .f32⟩
  | 8 => ⟨S1x96, .f32⟩
  | 9 => ⟨S96, .f32⟩
  | 10 => ⟨S1x96, .f32⟩
  | 11 => ⟨S160000x96, .f32⟩
  | 12 => ⟨S160000x96, .f32⟩
  | 13 => ⟨S_, .f32⟩
  | 14 => ⟨S160000x96, .f32⟩
  | 15 => ⟨S160000x96, .f32⟩
  | 16 => ⟨S1x96x1, .f32⟩
  | 17 => ⟨S96x1, .f32⟩
  | 18 => ⟨S160000x1, .f32⟩
  | 19 => ⟨S1x1, .f32⟩
  | 20 => ⟨S1, .f32⟩
  | 21 => ⟨S1x1, .f32⟩
  | 22 => ⟨S160000x1, .f32⟩
  | 23 => ⟨S160000x1, .f32⟩
  | 24 => ⟨S160000x1, .f32⟩
  | 25 => ⟨S160000x1, .f32⟩
  | 26 => ⟨S_, .f32⟩
  | 27 => ⟨S160000x1, .f32⟩
  | 28 => ⟨S160000x1, .f32⟩
  | 29 => ⟨S_, .f32⟩
  | 30 => ⟨S160000x1, .f32⟩
  | 31 => ⟨S160000x1, .f32⟩
  | 32 => ⟨S160000x96, .f32⟩
  | 33 => ⟨S160000x96, .f32⟩
  | 34 => ⟨S_, .f32⟩
  | 35 => ⟨S10000x96, .f32⟩
  | 36 => ⟨S160000x1, .i32⟩
  | 37 => ⟨S10000x96, .f32⟩
  | 38 => ⟨S10000x96, .f32⟩
  | 39 => ⟨S10000x96, .f32⟩
  | 40 => ⟨S10000x288, .f32⟩
  | 41 => ⟨S1x288x96, .f32⟩
  | 42 => ⟨S288x96, .f32⟩
  | 43 => ⟨S10000x96, .f32⟩
  | 44 => ⟨S1x96, .f32⟩
  | 45 => ⟨S96, .f32⟩
  | 46 => ⟨S1x96, .f32⟩
  | 47 => ⟨S10000x96, .f32⟩
  | 48 => ⟨S10000x96, .f32⟩
  | 49 => ⟨S_, .f32⟩
  | 50 => ⟨S10000x96, .f32⟩
  | 51 => ⟨S10000x96, .f32⟩
  | 52 => ⟨S1x96x96, .f32⟩
  | 53 => ⟨S96x96, .f32⟩
  | 54 => ⟨S10000x96, .f32⟩
  | 55 => ⟨S1x96, .f32⟩
  | 56 => ⟨S96, .f32⟩
  | 57 => ⟨S1x96, .f32⟩
  | 58 => ⟨S10000x96, .f32⟩
  | 59 => ⟨S10000x96, .f32⟩
  | 60 => ⟨S10000x48, .f32⟩
  | 61 => ⟨S10000x144, .f32⟩
  | 62 => ⟨S1x144x96, .f32⟩
  | 63 => ⟨S144x96, .f32⟩
  | 64 => ⟨S10000x96, .f32⟩
  | 65 => ⟨S1x96, .f32⟩
  | 66 => ⟨S96, .f32⟩
  | 67 => ⟨S1x96, .f32⟩
  | 68 => ⟨S10000x96, .f32⟩
  | 69 => ⟨S10000x96, .f32⟩
  | 70 => ⟨S_, .f32⟩
  | 71 => ⟨S10000x96, .f32⟩
  | 72 => ⟨S10000x96, .f32⟩
  | 73 => ⟨S1x96x96, .f32⟩
  | 74 => ⟨S96x96, .f32⟩
  | 75 => ⟨S10000x96, .f32⟩
  | 76 => ⟨S1x96, .f32⟩
  | 77 => ⟨S96, .f32⟩
  | 78 => ⟨S1x96, .f32⟩
  | 79 => ⟨S10000x96, .f32⟩
  | 80 => ⟨S10000x96, .f32⟩
  | 81 => ⟨S_, .i32⟩
  | 82 => ⟨S160000, .i32⟩
  | 83 => ⟨S160000, .i1⟩
  | 84 => ⟨S_, .i32⟩
  | 85 => ⟨S160000, .i32⟩
  | 86 => ⟨S160000, .i32⟩
  | 87 => ⟨S160000, .i32⟩
  | 88 => ⟨S160000x1, .i32⟩
  | 89 => ⟨S160000x96, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000x96, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x96, .f32⟩
  | 108 => ⟨S_, .i32⟩
  | 109 => ⟨S160000, .i32⟩
  | 110 => ⟨S160000, .i1⟩
  | 111 => ⟨S_, .i32⟩
  | 112 => ⟨S160000, .i32⟩
  | 113 => ⟨S160000, .i32⟩
  | 114 => ⟨S160000, .i32⟩
  | 115 => ⟨S160000x1, .i32⟩
  | 116 => ⟨S160000x96, .f32⟩
  | 117 => ⟨S160000x385, .f32⟩
  | 118 => ⟨S1x385x96, .f32⟩
  | 119 => ⟨S385x96, .f32⟩
  | 120 => ⟨S160000x96, .f32⟩
  | 121 => ⟨S1x96, .f32⟩
  | 122 => ⟨S96, .f32⟩
  | 123 => ⟨S1x96, .f32⟩
  | 124 => ⟨S160000x96, .f32⟩
  | 125 => ⟨S160000x96, .f32⟩
  | 126 => ⟨S_, .f32⟩
  | 127 => ⟨S160000x96, .f32⟩
  | _ => ⟨S10000x11, .f32⟩

abbrev hbmTy0_2 (i : Nat) : BufTy := match i % 128 with
  | 0 => ⟨S160000x96, .f32⟩
  | 1 => ⟨S1x96x96, .f32⟩
  | 2 => ⟨S96x96, .f32⟩
  | 3 => ⟨S160000x96, .f32⟩
  | 4 => ⟨S1x96, .f32⟩
  | 5 => ⟨S96, .f32⟩
  | 6 => ⟨S1x96, .f32⟩
  | 7 => ⟨S160000x96, .f32⟩
  | 8 => ⟨S160000x96, .f32⟩
  | 9 => ⟨S_, .f32⟩
  | 10 => ⟨S160000x96, .f32⟩
  | 11 => ⟨S160000x96, .f32⟩
  | 12 => ⟨S1x96x1, .f32⟩
  | 13 => ⟨S96x1, .f32⟩
  | 14 => ⟨S160000x1, .f32⟩
  | 15 => ⟨S1x1, .f32⟩
  | 16 => ⟨S1, .f32⟩
  | 17 => ⟨S1x1, .f32⟩
  | 18 => ⟨S160000x1, .f32⟩
  | 19 => ⟨S160000x1, .f32⟩
  | 20 => ⟨S160000x1, .f32⟩
  | 21 => ⟨S160000x1, .f32⟩
  | 22 => ⟨S_, .f32⟩
  | 23 => ⟨S160000x1, .f32⟩
  | 24 => ⟨S160000x1, .f32⟩
  | 25 => ⟨S_, .f32⟩
  | 26 => ⟨S160000x1, .f32⟩
  | 27 => ⟨S160000x1, .f32⟩
  | 28 => ⟨S160000x96, .f32⟩
  | 29 => ⟨S160000x96, .f32⟩
  | 30 => ⟨S_, .f32⟩
  | 31 => ⟨S10000x96, .f32⟩
  | 32 => ⟨S160000x1, .i32⟩
  | 33 => ⟨S10000x96, .f32⟩
  | 34 => ⟨S10000x96, .f32⟩
  | 35 => ⟨S10000x96, .f32⟩
  | 36 => ⟨S10000x288, .f32⟩
  | 37 => ⟨S1x288x96, .f32⟩
  | 38 => ⟨S288x96, .f32⟩
  | 39 => ⟨S10000x96, .f32⟩
  | 40 => ⟨S1x96, .f32⟩
  | 41 => ⟨S96, .f32⟩
  | 42 => ⟨S1x96, .f32⟩
  | 43 => ⟨S10000x96, .f32⟩
  | 44 => ⟨S10000x96, .f32⟩
  | 45 => ⟨S_, .f32⟩
  | 46 => ⟨S10000x96, .f32⟩
  | 47 => ⟨S10000x96, .f32⟩
  | 48 => ⟨S1x96x96, .f32⟩
  | 49 => ⟨S96x96, .f32⟩
  | 50 => ⟨S10000x96, .f32⟩
  | 51 => ⟨S1x96, .f32⟩
  | 52 => ⟨S96, .f32⟩
  | 53 => ⟨S1x96, .f32⟩
  | 54 => ⟨S10000x96, .f32⟩
  | 55 => ⟨S10000x96, .f32⟩
  | 56 => ⟨S10000x48, .f32⟩
  | 57 => ⟨S10000x144, .f32⟩
  | 58 => ⟨S1x144x96, .f32⟩
  | 59 => ⟨S144x96, .f32⟩
  | 60 => ⟨S10000x96, .f32⟩
  | 61 => ⟨S1x96, .f32⟩
  | 62 => ⟨S96, .f32⟩
  | 63 => ⟨S1x96, .f32⟩
  | 64 => ⟨S10000x96, .f32⟩
  | 65 => ⟨S10000x96, .f32⟩
  | 66 => ⟨S_, .f32⟩
  | 67 => ⟨S10000x96, .f32⟩
  | 68 => ⟨S10000x96, .f32⟩
  | 69 => ⟨S1x96x96, .f32⟩
  | 70 => ⟨S96x96, .f32⟩
  | 71 => ⟨S10000x96, .f32⟩
  | 72 => ⟨S1x96, .f32⟩
  | 73 => ⟨S96, .f32⟩
  | 74 => ⟨S1x96, .f32⟩
  | 75 => ⟨S10000x96, .f32⟩
  | 76 => ⟨S10000x96, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x96, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x96, .f32⟩
  | 95 => ⟨S_, .i32⟩
  | 96 => ⟨S160000, .i32⟩
  | 97 => ⟨S160000, .i1⟩
  | 98 => ⟨S_, .i32⟩
  | 99 => ⟨S160000, .i32⟩
  | 100 => ⟨S160000, .i32⟩
  | 101 => ⟨S160000, .i32⟩
  | 102 => ⟨S160000x1, .i32⟩
  | 103 => ⟨S160000x96, .f32⟩
  | 104 => ⟨S_, .i32⟩
  | 105 => ⟨S160000, .i32⟩
  | 106 => ⟨S160000, .i1⟩
  | 107 => ⟨S_, .i32⟩
  | 108 => ⟨S160000, .i32⟩
  | 109 => ⟨S160000, .i32⟩
  | 110 => ⟨S160000, .i32⟩
  | 111 => ⟨S160000x1, .i32⟩
  | 112 => ⟨S160000x96, .f32⟩
  | 113 => ⟨S160000x385, .f32⟩
  | 114 => ⟨S1x385x96, .f32⟩
  | 115 => ⟨S385x96, .f32⟩
  | 116 => ⟨S160000x96, .f32⟩
  | 117 => ⟨S1x96, .f32⟩
  | 118 => ⟨S96, .f32⟩
  | 119 => ⟨S1x96, .f32⟩
  | 120 => ⟨S160000x96, .f32⟩
  | 121 => ⟨S160000x96, .f32⟩
  | 122 => ⟨S_, .f32⟩
  | 123 => ⟨S160000x96, .f32⟩
  | 124 => ⟨S160000x96, .f32⟩
  | 125 => ⟨S1x96x96, .f32⟩
  | 126 => ⟨S96x96, .f32⟩
  | 127 => ⟨S160000x96, .f32⟩
  | _ => ⟨S10000x11, .f32⟩

abbrev hbmTy0_3 (i : Nat) : BufTy := match i % 128 with
  | 0 => ⟨S1x96, .f32⟩
  | 1 => ⟨S96, .f32⟩
  | 2 => ⟨S1x96, .f32⟩
  | 3 => ⟨S160000x96, .f32⟩
  | 4 => ⟨S160000x96, .f32⟩
  | 5 => ⟨S_, .f32⟩
  | 6 => ⟨S160000x96, .f32⟩
  | 7 => ⟨S160000x96, .f32⟩
  | 8 => ⟨S1x96x1, .f32⟩
  | 9 => ⟨S96x1, .f32⟩
  | 10 => ⟨S160000x1, .f32⟩
  | 11 => ⟨S1x1, .f32⟩
  | 12 => ⟨S1, .f32⟩
  | 13 => ⟨S1x1, .f32⟩
  | 14 => ⟨S160000x1, .f32⟩
  | 15 => ⟨S160000x1, .f32⟩
  | 16 => ⟨S160000x1, .f32⟩
  | 17 => ⟨S160000x1, .f32⟩
  | 18 => ⟨S_, .f32⟩
  | 19 => ⟨S160000x1, .f32⟩
  | 20 => ⟨S160000x1, .f32⟩
  | 21 => ⟨S_, .f32⟩
  | 22 => ⟨S160000x1, .f32⟩
  | 23 => ⟨S160000x1, .f32⟩
  | 24 => ⟨S160000x96, .f32⟩
  | 25 => ⟨S160000x96, .f32⟩
  | 26 => ⟨S_, .f32⟩
  | 27 => ⟨S10000x96, .f32⟩
  | 28 => ⟨S160000x1, .i32⟩
  | 29 => ⟨S10000x96, .f32⟩
  | 30 => ⟨S10000x96, .f32⟩
  | 31 => ⟨S10000x96, .f32⟩
  | 32 => ⟨S10000x288, .f32⟩
  | 33 => ⟨S1x288x96, .f32⟩
  | 34 => ⟨S288x96, .f32⟩
  | 35 => ⟨S10000x96, .f32⟩
  | 36 => ⟨S1x96, .f32⟩
  | 37 => ⟨S96, .f32⟩
  | 38 => ⟨S1x96, .f32⟩
  | 39 => ⟨S10000x96, .f32⟩
  | 40 => ⟨S10000x96, .f32⟩
  | 41 => ⟨S_, .f32⟩
  | 42 => ⟨S10000x96, .f32⟩
  | 43 => ⟨S10000x96, .f32⟩
  | 44 => ⟨S1x96x96, .f32⟩
  | 45 => ⟨S96x96, .f32⟩
  | 46 => ⟨S10000x96, .f32⟩
  | 47 => ⟨S1x96, .f32⟩
  | 48 => ⟨S96, .f32⟩
  | 49 => ⟨S1x96, .f32⟩
  | 50 => ⟨S10000x96, .f32⟩
  | 51 => ⟨S10000x96, .f32⟩
  | 52 => ⟨S10000x48, .f32⟩
  | 53 => ⟨S10000x144, .f32⟩
  | 54 => ⟨S1x144x96, .f32⟩
  | 55 => ⟨S144x96, .f32⟩
  | 56 => ⟨S10000x96, .f32⟩
  | 57 => ⟨S1x96, .f32⟩
  | 58 => ⟨S96, .f32⟩
  | 59 => ⟨S1x96, .f32⟩
  | 60 => ⟨S10000x96, .f32⟩
  | 61 => ⟨S10000x96, .f32⟩
  | 62 => ⟨S_, .f32⟩
  | 63 => ⟨S10000x96, .f32⟩
  | 64 => ⟨S10000x96, .f32⟩
  | 65 => ⟨S1x96x96, .f32⟩
  | 66 => ⟨S96x96, .f32⟩
  | 67 => ⟨S10000x96, .f32⟩
  | 68 => ⟨S1x96, .f32⟩
  | 69 => ⟨S96, .f32⟩
  | 70 => ⟨S1x96, .f32⟩
  | 71 => ⟨S10000x96, .f32⟩
  | 72 => ⟨S10000x96, .f32⟩
  | 73 => ⟨S10000x96, .f32⟩
  | 74 => ⟨S1x96, .f32⟩
  | 75 => ⟨S10000x96, .f32⟩
  | 76 => ⟨S10000x96, .f32⟩
  | 77 => ⟨S_, .f32⟩
  | 78 => ⟨S10000x96, .f32⟩
  | 79 => ⟨S10000x96, .f32⟩
  | 80 => ⟨S10000x96, .f32⟩
  | 81 => ⟨S1x96, .f32⟩
  | 82 => ⟨S10000x96, .f32⟩
  | 83 => ⟨S10000x96, .f32⟩
  | 84 => ⟨S_, .f32⟩
  | 85 => ⟨S500x96, .f32⟩
  | 86 => ⟨S10000x1, .i32⟩
  | 87 => ⟨S500x96, .f32⟩
  | 88 => ⟨S500x96, .f32⟩
  | 89 => ⟨S1x96, .f32⟩
  | 90 => ⟨S500x96, .f32⟩
  | 91 => ⟨S500x96, .f32⟩
  | 92 => ⟨S_, .f32⟩
  | 93 => ⟨S500x96, .f32⟩
  | 94 => ⟨S500x96, .f32⟩
  | 95 => ⟨S500x96, .f32⟩
  | 96 => ⟨S1x96, .f32⟩
  | 97 => ⟨S500x96, .f32⟩
  | 98 => ⟨S500x96, .f32⟩
  | _ => ⟨S10000x11, .f32⟩

abbrev hbmTy (i : Nat) : BufTy := match i / 128 with
  | 0 => hbmTy0_0 i
  | 1 => hbmTy0_1 i
  | 2 => hbmTy0_2 i
  | 3 => hbmTy0_3 i
  | _ => ⟨S10000x11, .f32⟩

abbrev bufTy : (tb : Table) → Fin (tcTables nBuf tb) → BufTy
  | .hbm, ⟨i, _⟩ => hbmTy i
  | _, _ => ⟨S10000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_c_0 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_1 : Ref sig .tc := ⟨.hbm, 46, rfl⟩
abbrev main_v11 : Ref sig .tc := ⟨.hbm, 47, rfl⟩
abbrev main_v12 : Ref sig .tc := ⟨.hbm, 48, rfl⟩
abbrev main_c_2 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_call0_cst : Ref sig .tc := ⟨.hbm, 65, rfl⟩
abbrev main_call0_v0 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_3 : Ref sig .tc := ⟨.hbm, 76, rfl⟩
abbrev main_v36 : Ref sig .tc := ⟨.hbm, 77, rfl⟩
abbrev main_cst_4 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_5 : Ref sig .tc := ⟨.hbm, 82, rfl⟩
abbrev main_v40 : Ref sig .tc := ⟨.hbm, 83, rfl⟩
abbrev main_v41 : Ref sig .tc := ⟨.hbm, 84, rfl⟩
abbrev main_c_6 : Ref sig .tc := ⟨.hbm, 85, rfl⟩
abbrev main_v42 : Ref sig .tc := ⟨.hbm, 86, rfl⟩
abbrev main_v43 : Ref sig .tc := ⟨.hbm, 87, rfl⟩
abbrev main_c_7 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_c_8 : Ref sig .tc := ⟨.hbm, 94, rfl⟩
abbrev main_v49 : Ref sig .tc := ⟨.hbm, 95, rfl⟩
abbrev main_v50 : Ref sig .tc := ⟨.hbm, 96, rfl⟩
abbrev main_c_9 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_10 : Ref sig .tc := ⟨.hbm, 103, rfl⟩
abbrev main_v56 : Ref sig .tc := ⟨.hbm, 104, rfl⟩
abbrev main_v57 : Ref sig .tc := ⟨.hbm, 105, rfl⟩
abbrev main_c_11 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_12 : Ref sig .tc := ⟨.hbm, 112, rfl⟩
abbrev main_v63 : Ref sig .tc := ⟨.hbm, 113, rfl⟩
abbrev main_v64 : Ref sig .tc := ⟨.hbm, 114, rfl⟩
abbrev main_c_13 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_call1_cst : Ref sig .tc := ⟨.hbm, 130, rfl⟩
abbrev main_call1_v0 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_call2_cst : Ref sig .tc := ⟨.hbm, 141, rfl⟩
abbrev main_call2_v0 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_cst_14 : Ref sig .tc := ⟨.hbm, 154, rfl⟩
abbrev main_v99 : Ref sig .tc := ⟨.hbm, 155, rfl⟩
abbrev main_v100 : Ref sig .tc := ⟨.hbm, 156, rfl⟩
abbrev main_cst_15 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_16 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_call3_cst : Ref sig .tc := ⟨.hbm, 177, rfl⟩
abbrev main_call3_v0 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_call4_cst : Ref sig .tc := ⟨.hbm, 198, rfl⟩
abbrev main_call4_v0 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_17 : Ref sig .tc := ⟨.hbm, 209, rfl⟩
abbrev main_v147 : Ref sig .tc := ⟨.hbm, 210, rfl⟩
abbrev main_v148 : Ref sig .tc := ⟨.hbm, 211, rfl⟩
abbrev main_c_18 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_c_19 : Ref sig .tc := ⟨.hbm, 218, rfl⟩
abbrev main_v154 : Ref sig .tc := ⟨.hbm, 219, rfl⟩
abbrev main_v155 : Ref sig .tc := ⟨.hbm, 220, rfl⟩
abbrev main_c_20 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_c_21 : Ref sig .tc := ⟨.hbm, 227, rfl⟩
abbrev main_v161 : Ref sig .tc := ⟨.hbm, 228, rfl⟩
abbrev main_v162 : Ref sig .tc := ⟨.hbm, 229, rfl⟩
abbrev main_c_22 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_c_23 : Ref sig .tc := ⟨.hbm, 236, rfl⟩
abbrev main_v168 : Ref sig .tc := ⟨.hbm, 237, rfl⟩
abbrev main_v169 : Ref sig .tc := ⟨.hbm, 238, rfl⟩
abbrev main_c_24 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_call5_cst : Ref sig .tc := ⟨.hbm, 254, rfl⟩
abbrev main_call5_v0 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_call6_cst : Ref sig .tc := ⟨.hbm, 265, rfl⟩
abbrev main_call6_v0 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_cst_25 : Ref sig .tc := ⟨.hbm, 278, rfl⟩
abbrev main_v204 : Ref sig .tc := ⟨.hbm, 279, rfl⟩
abbrev main_v205 : Ref sig .tc := ⟨.hbm, 280, rfl⟩
abbrev main_cst_26 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_cst_27 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_call7_cst : Ref sig .tc := ⟨.hbm, 301, rfl⟩
abbrev main_call7_v0 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_call8_cst : Ref sig .tc := ⟨.hbm, 322, rfl⟩
abbrev main_call8_v0 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_v246 : Ref sig .tc := ⟨.hbm, 327, rfl⟩
abbrev main_v247 : Ref sig .tc := ⟨.hbm, 328, rfl⟩
abbrev main_v248 : Ref sig .tc := ⟨.hbm, 329, rfl⟩
abbrev main_v249 : Ref sig .tc := ⟨.hbm, 330, rfl⟩
abbrev main_v250 : Ref sig .tc := ⟨.hbm, 331, rfl⟩
abbrev main_v251 : Ref sig .tc := ⟨.hbm, 332, rfl⟩
abbrev main_c_28 : Ref sig .tc := ⟨.hbm, 333, rfl⟩
abbrev main_v252 : Ref sig .tc := ⟨.hbm, 334, rfl⟩
abbrev main_v253 : Ref sig .tc := ⟨.hbm, 335, rfl⟩
abbrev main_c_29 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_c_30 : Ref sig .tc := ⟨.hbm, 342, rfl⟩
abbrev main_v259 : Ref sig .tc := ⟨.hbm, 343, rfl⟩
abbrev main_v260 : Ref sig .tc := ⟨.hbm, 344, rfl⟩
abbrev main_c_31 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_c_32 : Ref sig .tc := ⟨.hbm, 351, rfl⟩
abbrev main_v266 : Ref sig .tc := ⟨.hbm, 352, rfl⟩
abbrev main_v267 : Ref sig .tc := ⟨.hbm, 353, rfl⟩
abbrev main_c_33 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_v272 : Ref sig .tc := ⟨.hbm, 359, rfl⟩
abbrev main_c_34 : Ref sig .tc := ⟨.hbm, 360, rfl⟩
abbrev main_v273 : Ref sig .tc := ⟨.hbm, 361, rfl⟩
abbrev main_v274 : Ref sig .tc := ⟨.hbm, 362, rfl⟩
abbrev main_c_35 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_call9_cst : Ref sig .tc := ⟨.hbm, 378, rfl⟩
abbrev main_call9_v0 : Ref sig .tc := ⟨.hbm, 379, rfl⟩
abbrev main_v289 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_v297 : Ref sig .tc := ⟨.hbm, 388, rfl⟩
abbrev main_call10_cst : Ref sig .tc := ⟨.hbm, 389, rfl⟩
abbrev main_call10_v0 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_cst_36 : Ref sig .tc := ⟨.hbm, 402, rfl⟩
abbrev main_v309 : Ref sig .tc := ⟨.hbm, 403, rfl⟩
abbrev main_v310 : Ref sig .tc := ⟨.hbm, 404, rfl⟩
abbrev main_cst_37 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_cst_38 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_v319 : Ref sig .tc := ⟨.hbm, 415, rfl⟩
abbrev main_v320 : Ref sig .tc := ⟨.hbm, 416, rfl⟩
abbrev main_v321 : Ref sig .tc := ⟨.hbm, 417, rfl⟩
abbrev main_v322 : Ref sig .tc := ⟨.hbm, 418, rfl⟩
abbrev main_v323 : Ref sig .tc := ⟨.hbm, 419, rfl⟩
abbrev main_v324 : Ref sig .tc := ⟨.hbm, 420, rfl⟩
abbrev main_v325 : Ref sig .tc := ⟨.hbm, 421, rfl⟩
abbrev main_v326 : Ref sig .tc := ⟨.hbm, 422, rfl⟩
abbrev main_v327 : Ref sig .tc := ⟨.hbm, 423, rfl⟩
abbrev main_v328 : Ref sig .tc := ⟨.hbm, 424, rfl⟩
abbrev main_call11_cst : Ref sig .tc := ⟨.hbm, 425, rfl⟩
abbrev main_call11_v0 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_call12_cst : Ref sig .tc := ⟨.hbm, 446, rfl⟩
abbrev main_call12_v0 : Ref sig .tc := ⟨.hbm, 447, rfl⟩
abbrev main_v348 : Ref sig .tc := ⟨.hbm, 448, rfl⟩
abbrev main_v349 : Ref sig .tc := ⟨.hbm, 449, rfl⟩
abbrev main_v350 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_v354 : Ref sig .tc := ⟨.hbm, 454, rfl⟩
abbrev main_v355 : Ref sig .tc := ⟨.hbm, 455, rfl⟩
abbrev main_v356 : Ref sig .tc := ⟨.hbm, 456, rfl⟩
abbrev main_v357 : Ref sig .tc := ⟨.hbm, 457, rfl⟩
abbrev main_v358 : Ref sig .tc := ⟨.hbm, 458, rfl⟩
abbrev main_v359 : Ref sig .tc := ⟨.hbm, 459, rfl⟩
abbrev main_v360 : Ref sig .tc := ⟨.hbm, 460, rfl⟩
abbrev main_call13_cst : Ref sig .tc := ⟨.hbm, 461, rfl⟩
abbrev main_call13_v0 : Ref sig .tc := ⟨.hbm, 462, rfl⟩
abbrev main_v361 : Ref sig .tc := ⟨.hbm, 463, rfl⟩
abbrev main_v362 : Ref sig .tc := ⟨.hbm, 464, rfl⟩
abbrev main_v363 : Ref sig .tc := ⟨.hbm, 465, rfl⟩
abbrev main_v364 : Ref sig .tc := ⟨.hbm, 466, rfl⟩
abbrev main_v365 : Ref sig .tc := ⟨.hbm, 467, rfl⟩
abbrev main_cst_39 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_v371 : Ref sig .tc := ⟨.hbm, 474, rfl⟩
abbrev main_v372 : Ref sig .tc := ⟨.hbm, 475, rfl⟩
abbrev main_call14_cst : Ref sig .tc := ⟨.hbm, 476, rfl⟩
abbrev main_call14_v0 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  reducesTo_S160000x3_S160000_d1 : S160000x3.ReducesTo [1] S160000
  h_S_ : 0 < S_.numel
  bcast_S96_S1x96_1 : S96.BroadcastsInDim S1x96 (![1] : Fin 1 → Fin S1x96.rank)
  bcast_S1x96_S10000x96_0_1 : S1x96.BroadcastsInDim S10000x96 (![0, 1] : Fin 2 → Fin S10000x96.rank)
  bcast_S_S10000x96 : S_.BroadcastsInDim S10000x96 (![] : Fin 0 → Fin S10000x96.rank)
  bcast_S_S160000x1 : S_.BroadcastsInDim S160000x1 (![] : Fin 0 → Fin S160000x1.rank)
  bcast_S_S10000x1 : S_.BroadcastsInDim S10000x1 (![] : Fin 0 → Fin S10000x1.rank)
  concatenates_S160000x96_S160000x96_S160000x96_S160000x96_S160000x1_S160000x385_d1 : Shape.Concatenates [S160000x96, S160000x96, S160000x96, S160000x96, S160000x1] S160000x385 1
  slices_S3x385x96_S1x385x96_0_0_0 : S3x385x96.Slices ![0, 0, 0] S1x385x96
  shapeCasts_S1x385x96_S385x96 : S1x385x96.ShapeCasts S385x96
  slices_S3x96_S1x96_0_0 : S3x96.Slices ![0, 0] S1x96
  shapeCasts_S1x96_S96 : S1x96.ShapeCasts S96
  bcast_S1x96_S160000x96_0_1 : S1x96.BroadcastsInDim S160000x96 (![0, 1] : Fin 2 → Fin S160000x96.rank)
  bcast_S_S160000x96 : S_.BroadcastsInDim S160000x96 (![] : Fin 0 → Fin S160000x96.rank)
  slices_S3x96x96_S1x96x96_0_0_0 : S3x96x96.Slices ![0, 0, 0] S1x96x96
  shapeCasts_S1x96x96_S96x96 : S1x96x96.ShapeCasts S96x96
  slices_S3x96x1_S1x96x1_0_0_0 : S3x96x1.Slices ![0, 0, 0] S1x96x1
  shapeCasts_S1x96x1_S96x1 : S1x96x1.ShapeCasts S96x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  bcast_S160000x1_S160000x96_0_1 : S160000x1.BroadcastsInDim S160000x96 (![0, 1] : Fin 2 → Fin S160000x96.rank)
  bcast_S10000x1_S10000x96_0_1 : S10000x1.BroadcastsInDim S10000x96 (![0, 1] : Fin 2 → Fin S10000x96.rank)
  concatenates_S10000x96_S10000x96_S10000x96_S10000x288_d1 : Shape.Concatenates [S10000x96, S10000x96, S10000x96] S10000x288 1
  slices_S3x288x96_S1x288x96_0_0_0 : S3x288x96.Slices ![0, 0, 0] S1x288x96
  shapeCasts_S1x288x96_S288x96 : S1x288x96.ShapeCasts S288x96
  slices_S10000x96_S10000x48_0_0 : S10000x96.Slices ![0, 0] S10000x48
  concatenates_S10000x96_S10000x48_S10000x144_d1 : Shape.Concatenates [S10000x96, S10000x48] S10000x144 1
  slices_S3x144x96_S1x144x96_0_0_0 : S3x144x96.Slices ![0, 0, 0] S1x144x96
  shapeCasts_S1x144x96_S144x96 : S1x144x96.ShapeCasts S144x96
  slices_S3x385x96_S1x385x96_1_0_0 : S3x385x96.Slices ![1, 0, 0] S1x385x96
  slices_S3x96_S1x96_1_0 : S3x96.Slices ![1, 0] S1x96
  slices_S3x96x96_S1x96x96_1_0_0 : S3x96x96.Slices ![1, 0, 0] S1x96x96
  slices_S3x96x1_S1x96x1_1_0_0 : S3x96x1.Slices ![1, 0, 0] S1x96x1
  slices_S3x1_S1x1_1_0 : S3x1.Slices ![1, 0] S1x1
  slices_S3x288x96_S1x288x96_1_0_0 : S3x288x96.Slices ![1, 0, 0] S1x288x96
  slices_S3x144x96_S1x144x96_1_0_0 : S3x144x96.Slices ![1, 0, 0] S1x144x96
  slices_S3x385x96_S1x385x96_2_0_0 : S3x385x96.Slices ![2, 0, 0] S1x385x96
  slices_S3x96_S1x96_2_0 : S3x96.Slices ![2, 0] S1x96
  slices_S3x96x96_S1x96x96_2_0_0 : S3x96x96.Slices ![2, 0, 0] S1x96x96
  slices_S3x96x1_S1x96x1_2_0_0 : S3x96x1.Slices ![2, 0, 0] S1x96x1
  slices_S3x1_S1x1_2_0 : S3x1.Slices ![2, 0] S1x1
  slices_S3x288x96_S1x288x96_2_0_0 : S3x288x96.Slices ![2, 0, 0] S1x288x96
  slices_S3x144x96_S1x144x96_2_0_0 : S3x144x96.Slices ![2, 0, 0] S1x144x96
  bcast_S_S500x96 : S_.BroadcastsInDim S500x96 (![] : Fin 0 → Fin S500x96.rank)
  bcast_S10000_S10000x1_0 : S10000.BroadcastsInDim S10000x1 (![0] : Fin 1 → Fin S10000x1.rank)
  bcast_S1x96_S500x96_0_1 : S1x96.BroadcastsInDim S500x96 (![0, 1] : Fin 2 → Fin S500x96.rank)
  gather_S10000x3_S160000x1_S160000x3_1_0_n_n_0_1_13_wf : GatherDims.WF S10000x3 S160000x1 S160000x3 [1] [0] [] [0] [] 1 ![1, 3]
  dot_S10000x11_S11x96_S10000x96_1_0_0_1_n_n_wf : DotDims.WF S10000x11 S11x96 S10000x96 [1] [0] [0] [1] [] []
  dot_S10000x96_S96x96_S10000x96_1_0_0_1_n_n_wf : DotDims.WF S10000x96 S96x96 S10000x96 [1] [0] [0] [1] [] []
  dot_S10000x8_S8x96_S10000x96_1_0_0_1_n_n_wf : DotDims.WF S10000x8 S8x96 S10000x96 [1] [0] [0] [1] [] []
  scatter_S10000x1_S160000x1_S160000x1_1_0_0_1_wf : ScatterDims.WF S10000x1 S160000x1 S160000x1 [1] [0] [0] 1
  gather_S10000x96_S160000x1_S160000x96_1_0_n_n_0_1_196_wf : GatherDims.WF S10000x96 S160000x1 S160000x96 [1] [0] [] [0] [] 1 ![1, 96]
  dot_S160000x385_S385x96_S160000x96_1_0_0_1_n_n_wf : DotDims.WF S160000x385 S385x96 S160000x96 [1] [0] [0] [1] [] []
  dot_S160000x96_S96x96_S160000x96_1_0_0_1_n_n_wf : DotDims.WF S160000x96 S96x96 S160000x96 [1] [0] [0] [1] [] []
  dot_S160000x96_S96x1_S160000x1_1_0_0_1_n_n_wf : DotDims.WF S160000x96 S96x1 S160000x1 [1] [0] [0] [1] [] []
  scatter_S10000x96_S160000x1_S160000x96_1_0_0_1_wf : ScatterDims.WF S10000x96 S160000x1 S160000x96 [1] [0] [0] 1
  dot_S10000x288_S288x96_S10000x96_1_0_0_1_n_n_wf : DotDims.WF S10000x288 S288x96 S10000x96 [1] [0] [0] [1] [] []
  dot_S10000x144_S144x96_S10000x96_1_0_0_1_n_n_wf : DotDims.WF S10000x144 S144x96 S10000x96 [1] [0] [0] [1] [] []
  scatter_S500x96_S10000x1_S10000x96_1_0_0_1_wf : ScatterDims.WF S500x96 S10000x1 S10000x96 [1] [0] [0] 1
  dot_S500x96_S96x96_S500x96_1_0_0_1_n_n_wf : DotDims.WF S500x96 S96x96 S500x96 [1] [0] [0] [1] [] []

variable [Facts₀]

def gather_S10000x3_S160000x1_S160000x3_1_0_n_n_0_1_13 : GatherDims S10000x3 S160000x1 S160000x3 where
  offsetDims := [1]
  collapsedSliceDims := [0]
  operandBatchingDims := []
  startIndicesBatchingDims := []
  startIndexMap := [0]
  indexVectorDim := 1
  sliceSizes := ![1, 3]
  wf := gather_S10000x3_S160000x1_S160000x3_1_0_n_n_0_1_13_wf
def dot_S10000x11_S11x96_S10000x96_1_0_0_1_n_n : DotDims S10000x11 S11x96 S10000x96 where
  lhsContracting := [1]
  rhsContracting := [0]
  lhsNonContracting := [0]
  rhsNonContracting := [1]
  lhsBatch := []
  rhsBatch := []
  wf := dot_S10000x11_S11x96_S10000x96_1_0_0_1_n_n_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def dot_S10000x8_S8x96_S10000x96_1_0_0_1_n_n : DotDims S10000x8 S8x96 S10000x96 where
  lhsContracting := [1]
  rhsContracting := [0]
  lhsNonContracting := [0]
  rhsNonContracting := [1]
  lhsBatch := []
  rhsBatch := []
  wf := dot_S10000x8_S8x96_S10000x96_1_0_0_1_n_n_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def gather_S10000x96_S160000x1_S160000x96_1_0_n_n_0_1_196 : GatherDims S10000x96 S160000x1 S160000x96 where
  offsetDims := [1]
  collapsedSliceDims := [0]
  operandBatchingDims := []
  startIndicesBatchingDims := []
  startIndexMap := [0]
  indexVectorDim := 1
  sliceSizes := ![1, 96]
  wf := gather_S10000x96_S160000x1_S160000x96_1_0_n_n_0_1_196_wf
def dot_S160000x385_S385x96_S160000x96_1_0_0_1_n_n : DotDims S160000x385 S385x96 S160000x96 where
  lhsContracting := [1]
  rhsContracting := [0]
  lhsNonContracting := [0]
  rhsNonContracting := [1]
  lhsBatch := []
  rhsBatch := []
  wf := dot_S160000x385_S385x96_S160000x96_1_0_0_1_n_n_wf
def dot_S160000x96_S96x96_S160000x96_1_0_0_1_n_n : DotDims S160000x96 S96x96 S160000x96 where
  lhsContracting := [1]
  rhsContracting := [0]
  lhsNonContracting := [0]
  rhsNonContracting := [1]
  lhsBatch := []
  rhsBatch := []
  wf := dot_S160000x96_S96x96_S160000x96_1_0_0_1_n_n_wf
def dot_S160000x96_S96x1_S160000x1_1_0_0_1_n_n : DotDims S160000x96 S96x1 S160000x1 where
  lhsContracting := [1]
  rhsContracting := [0]
  lhsNonContracting := [0]
  rhsNonContracting := [1]
  lhsBatch := []
  rhsBatch := []
  wf := dot_S160000x96_S96x1_S160000x1_1_0_0_1_n_n_wf
def scatter_S10000x96_S160000x1_S160000x96_1_0_0_1 : ScatterDims S10000x96 S160000x1 S160000x96 where
  updateWindowDims := [1]
  insertedWindowDims := [0]
  scatterDimsToOperandDims := [0]
  indexVectorDim := 1
  wf := scatter_S10000x96_S160000x1_S160000x96_1_0_0_1_wf
def dot_S10000x288_S288x96_S10000x96_1_0_0_1_n_n : DotDims S10000x288 S288x96 S10000x96 where
  lhsContracting := [1]
  rhsContracting := [0]
  lhsNonContracting := [0]
  rhsNonContracting := [1]
  lhsBatch := []
  rhsBatch := []
  wf := dot_S10000x288_S288x96_S10000x96_1_0_0_1_n_n_wf
def dot_S10000x144_S144x96_S10000x96_1_0_0_1_n_n : DotDims S10000x144 S144x96 S10000x96 where
  lhsContracting := [1]
  rhsContracting := [0]
  lhsNonContracting := [0]
  rhsNonContracting := [1]
  lhsBatch := []
  rhsBatch := []
  wf := dot_S10000x144_S144x96_S10000x96_1_0_0_1_n_n_wf
def scatter_S500x96_S10000x1_S10000x96_1_0_0_1 : ScatterDims S500x96 S10000x1 S10000x96 where
  updateWindowDims := [1]
  insertedWindowDims := [0]
  scatterDimsToOperandDims := [0]
  indexVectorDim := 1
  wf := scatter_S500x96_S10000x1_S10000x96_1_0_0_1_wf
def dot_S500x96_S96x96_S500x96_1_0_0_1_n_n : DotDims S500x96 S96x96 S500x96 where
  lhsContracting := [1]
  rhsContracting := [0]
  lhsNonContracting := [0]
  rhsNonContracting := [1]
  lhsBatch := []
  rhsBatch := []
  wf := dot_S500x96_S96x96_S500x96_1_0_0_1_n_n_wf

class Facts : Prop extends Facts₀ where

variable [Facts]
-- ==== Proof.RefOps.lean ====
/-
  The reference program as a straight line of host operations.

  @main of the reference is four hundred and fifty host operations in a row, a called function's operations standing in
  its call's place.  The program text states @main as seven parts run one after the other, and the proof reads the line
  in twenty-one stretches cut at the arrays later stretches read — the indices and distances, the embedders, the
  in-degrees, then per layer the gathered rows set side by side, the message, the aggregated messages, the new node
  states and the new position encodings, and last the decoder, the per-graph sum and the head.  Below the line is given
  once, in the twenty-seven pieces that both cuttings share; a part and a stretch are each some consecutive pieces.
  Each part of @main IS the run of its pieces, so @main is the run of the whole line; nothing in the line is scoped,
  every operation touches TensorCore buffers only and determines its results; and running the whole line is running the
  stretches one after the other.
-/
import proofs.«112516_j88167088653030_2_alg».proof.ReferenceIdeal
import proofs.«112516_j88167088653030_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lines holds of every operation of the one after the other. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The contents after two lines run one after the other: the second line's from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0–27 of @main. -/
abbrev q0 : List (HloOp τ sig (Elt F)) :=
  [ unary main_arg3 main_v0 ((extractStridedSlice S1x160000 ![0, 0] · slices_S2x160000_S1x160000_0_0) : (⟨S2x160000, .i32⟩ : BufTy).Contents (Elt F) → (⟨S1x160000, .i32⟩ : BufTy).Contents (Elt F)),
    reshape main_v0 main_v1 rfl shapeCasts_S1x160000_S160000,
    unary main_arg3 main_v2 ((extractStridedSlice S1x160000 ![1, 0] · slices_S2x160000_S1x160000_1_0) : (⟨S2x160000, .i32⟩ : BufTy).Contents (Elt F) → (⟨S1x160000, .i32⟩ : BufTy).Contents (Elt F)),
    reshape main_v2 main_v3 rfl shapeCasts_S1x160000_S160000,
    nullary main_c (constantI S_ 32 0#32),
    unary main_c main_v4 (broadcastInDim S160000 ![] bcast_S_S160000 : (⟨S_, .i32⟩ : BufTy).Contents (Elt F) → (⟨S160000, .i32⟩ : BufTy).Contents (Elt F)),
    binary main_v3 main_v4 main_v5 (cmpi .slt : (⟨S160000, .i32⟩ : BufTy).Contents (Elt F) → (⟨S160000, .i32⟩ : BufTy).Contents (Elt F) → (⟨S160000, .i1⟩ : BufTy).Contents (Elt F)),
    nullary main_c_0 (constantI S_ 32 10000#32),
    unary main_c_0 main_v6 (broadcastInDim S160000 ![] bcast_S_S160000 : (⟨S_, .i32⟩ : BufTy).Contents (Elt F) → (⟨S160000, .i32⟩ : BufTy).Contents (Elt F)),
    binary main_v3 main_v6 main_v7 (addi : (⟨S160000, .i32⟩ : BufTy).Contents (Elt F) → (⟨S160000, .i32⟩ : BufTy).Contents (Elt F) → (⟨S160000, .i32⟩ : BufTy).Contents (Elt F)),
    ternary main_v5 main_v7 main_v3 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v8 main_v9 (broadcastInDim S160000x1 ![0] bcast_S160000_S160000x1_0 : (⟨S160000, .i32⟩ : BufTy).Contents (Elt F) → (⟨S160000x1, .i32⟩ : BufTy).Contents (Elt F)),
    binary main_arg1 main_v9 main_v10 ((fun x i => Host.gather gather_S10000x3_S160000x1_S160000x3_1_0_n_n_0_1_13 x i) : (⟨S10000x3, .f32⟩ : BufTy).Contents (Elt F) → (⟨S160000x1, .i32⟩ : BufTy).Contents (Elt F) → (⟨S160000x3, .f32⟩ : BufTy).Contents (Elt F)),
    nullary main_c_1 (constantI S_ 32 0#32),
    unary main_c_1 main_v11 (broadcastInDim S160000 ![] bcast_S_S160000 : (⟨S_, .i32⟩ : BufTy).Contents (Elt F) → (⟨S160000, .i32⟩ : BufTy).Contents (Elt F)),
    binary main_v1 main_v11 main_v12 (cmpi .slt : (⟨S160000, .i32⟩ : BufTy).Contents (Elt F) → (⟨S160000, .i32⟩ : BufTy).Contents (Elt F) → (⟨S160000, .i1⟩ : BufTy).Contents (Elt F)),
    nullary main_c_2 (constantI S_ 32 10000#32),
    unary main_c_2 main_v13 (broadcastInDim S160000 ![] bcast_S_S160000 : (⟨S_, .i32⟩ : BufTy).Contents (Elt F) → (⟨S160000, .i32⟩ : BufTy).Contents (Elt F)),
    binary main_v1 main_v13 main_v14 (addi : (⟨S160000, .i32⟩ : BufTy).Contents (Elt F) → (⟨S160000, .i32⟩ : BufTy).Contents (Elt F) → (⟨S160000, .i32⟩ : BufTy).Contents (Elt F)),
    ternary main_v12 main_v14 main_v1 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v15 main_v16 (broadcastInDim S160000x1 ![0] bcast_S160000_S160000x1_0 : (⟨S160000, .i32⟩ : BufTy).Contents (Elt F) → (⟨S160000x1, .i32⟩ : BufTy).Contents (Elt F)),
    binary main_arg1 main_v16 main_v17 ((fun x i => Host.gather gather_S10000x3_S160000x1_S160000x3_1_0_n_n_0_1_13 x i) : (⟨S10000x3, .f32⟩ : BufTy).Contents (Elt F) → (⟨S160000x1, .i32⟩ : BufTy).Contents (Elt F) → (⟨S160000x3, .f32⟩ : BufTy).Contents (Elt F)),
    binary main_v10 main_v17 main_v18 (subf : (⟨S160000x3, .f32⟩ : BufTy).Contents (Elt F) → (⟨S160000x3, .f32⟩ : BufTy).Contents (Elt F) → (⟨S160000x3, .f32⟩ : BufTy).Contents (Elt F)),
    binary main_v18 main_v18 main_v19 (mulf : (⟨S160000x3, .f32⟩ : BufTy).Contents (Elt F) → (⟨S160000x3, .f32⟩ : BufTy).Contents (Elt F) → (⟨S160000x3, .f32⟩ : BufTy).Contents (Elt F)),
    nullary main_cst (constant S_ .f32 0x00000000#32),
    binary main_v19 main_cst main_v20 ((fun x v => Host.reduceAdd x v reducesTo_S160000x3_S160000_d1 h_S_) : (⟨S160000x3, .f32⟩ : BufTy).Contents (Elt F) → (⟨S_, .f32⟩ : BufTy).Contents (Elt F) → (⟨S160000, .f32⟩ : BufTy).Contents (Elt F)),
    unary main_v20 main_v21 (broadcastInDim S160000x1 ![0] bcast_S160000_S160000x1_0 : (⟨S160000, .f32⟩ : BufTy).Contents (Elt F) → (⟨S160000x1, .f32⟩ : BufTy).Contents (Elt F)),
    unary main_v21 main_v22 (Host.sqrt : (⟨S160000x1, .f32⟩ : BufTy).Contents (Elt F) → (⟨S160000x1, .f32⟩ : BufTy).Contents (Elt F)) ]
theorem q0_sub : (q0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., unary_bufs_sub .., unary_bufs_sub ..⟩
theorem q0_fresh : (q0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of this piece write. -/
abbrev q0_W : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18, main_v19, main_cst, main_v20, main_v21, main_v22]
theorem q0_writes : (q0 : List (HloOp τ sig (Elt F))).Forall fun op => op.writes ⊆ (q0_W.map (Proc.devRef (τ := τ) .tc)).toFinset := by
  simp only [q0, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 28–42 of @main. -/
abbrev q1 : List (HloOp τ sig (Elt F)) :=
  [ binary main_arg0 main_arg5 main_v23 ((fun l r => Host.dotGeneral dot_S10000x11_S11x96_S10000x96_1_0_0_1_n_n none l r) : (⟨S10000x11, .f32⟩ : BufTy).Contents (Elt F) → (⟨S11x96, .f32⟩ : BufTy).Contents (Elt F) → (⟨S10000x96, .f32⟩ : BufTy).Contents (Elt F)),
    unary main_arg6 main_v24 (broadcastInDim S1x96 ![1] bcast_S96_S1x96_1 : (⟨S96, .f32⟩ : BufTy).Contents (Elt F) → (⟨S1x96, .f32⟩ : BufTy).Contents (Elt F)),
    unary main_v24 main_v25 (broadcastInDim S10000x96 ![0, 1] bcast_S1x96_S10000x96_0_1 : (⟨S1x96, .f32⟩ : BufTy).Contents (Elt F) → (⟨S10000x96, .f32⟩ : BufTy).Contents (Elt F)),
    binary main_v23 main_v25 main_v26 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x96, .f32⟩) main_call0_v0) (broadcastInDim S10000x96 ![] bcast_S_S10000x96),
    TRef.binary (TRef.of (T := ⟨S10000x96, .f32⟩) main_v26) (TRef.of (T := ⟨S10000x96, .f32⟩) main_call0_v0) (TRef.of (T := ⟨S10000x96, .f32⟩) main_v27) maximumf,
    binary main_v27 main_arg7 main_v28 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg8 main_v29 (broadcastInDim S1x96 ![1] bcast_S96_S1x96_1 : (⟨S96, .f32⟩ : BufTy).Contents (Elt F) → (⟨S1x96, .f32⟩ : BufTy).Contents (Elt F)),
    unary main_v29 main_v30 (broadcastInDim S10000x96 ![0, 1] bcast_S1x96_S10000x96_0_1 : (⟨S1x96, .f32⟩ : BufTy).Contents (Elt F) → (⟨S10000x96, .f32⟩ : BufTy).Contents (Elt F)),
    binary main_v28 main_v30 main_v31 (addf : (⟨S10000x96, .f32⟩ : BufTy).Contents (Elt F) → (⟨S10000x96, .f32⟩ : BufTy).Contents (Elt F) → (⟨S10000x96, .f32⟩ : BufTy).Contents (Elt F)),
    binary main_arg2 main_arg9 main_v32 ((fun l r => Host.dotGeneral dot_S10000x8_S8x96_S10000x96_1_0_0_1_n_n none l r) : (⟨S10000x8, .f32⟩ : BufTy).Contents (Elt F) → (⟨S8x96, .f32⟩ : BufTy).Contents (Elt F) → (⟨S10000x96, .f32⟩ : BufTy).Contents (Elt F)),
    unary main_arg10 main_v33 (broadcastInDim S1x96 ![1] bcast_S96_S1x96_1 : (⟨S96, .f32⟩ : BufTy).Contents (Elt F) → (⟨S1x96, .f32⟩ : BufTy).Contents (Elt F)),
    unary main_v33 main_v34 (broadcastInDim S10000x96 ![0, 1] bcast_S1x96_S10000x96_0_1 : (⟨S1x96, .f32⟩ : BufTy).Contents (Elt F) → (⟨S10000x96, .f32⟩ : BufTy).Contents (Elt F)),
    binary main_v32 main_v34 main_v35 (addf : (⟨S10000x96, .f32⟩ : BufTy).Contents (Elt F) → (⟨S10000x96, .f32⟩ : BufTy).Contents (Elt F) → (⟨S10000x96, .f32⟩ : BufTy).Contents (Elt F)) ]
theorem q1_sub : (q1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩
theorem q1_fresh : (q1 : List (HloOp τ sig (Elt F))).Forall fun op => op.fresh = ∅ :=
  ⟨rfl, rfl, rfl, rfl, rfl, rfl, rfl, rfl, rfl, rfl, rfl, rfl, rfl, rfl, rfl⟩

/-- The buffers the operations of this piece write. -/
abbrev q1_W : List (Ref sig .tc) := [main_v23, main_v24, main_v25, main_v26, main_call0_cst, main_call0_v0, main_v27, main_v28, main_v29, main_v30, main_v31, main_v32, main_v33, main_v34, main_v35]
theorem q1_writes : (q1 : List (HloOp τ sig (Elt F))).Forall fun op => op.writes ⊆ (q1_W.map (Proc.devRef (τ := τ) .tc)).toFinset := by
  simp only [q1, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 43–51 of @main. -/
abbrev q2 : List (HloOp τ sig (Elt F)) :=
  [ nullary main_cst_3 (constant S_ .f32 0x3F800000#32),
    unary main_cst_3 main_v36 (broadcastInDim S160000x1 ![] bcast_S_S160000x1 : (⟨S_, .f32⟩ : BufTy).Contents (Elt F) → (⟨S160000x1, .f32⟩ : BufTy).Contents (Elt F)),
    nullary main_cst_4 (constant S_ .f32 0x00000000#32),
    unary main_cst_4 main_v37 (broadcastInDim S10000x1 ![] bcast_S_S10000x1 : (⟨S_, .f32⟩ : BufTy).Contents (Elt F) → (⟨S10000x1, .f32⟩ : BufTy).Contents (Elt F)),
    unary main_v3 main_v38 (broadcastInDim S160000x1 ![0] bcast_S160000_S160000x1_0 : (⟨S160000, .i32⟩ : BufTy).Contents (Elt F) → (⟨S160000x1, .i32⟩ : BufTy).Contents (Elt F)),
    ternary main_v37 main_v38 main_v36 main_v39 ((fun x i u => Host.scatterAdd scatter_S10000x1_S160000x1_S160000x1_1_0_0_1 x i u) : (⟨S10000x1, .f32⟩ : BufTy).Contents (Elt F) → (⟨S160000x1, .i32⟩ : BufTy).Contents (Elt F) → (⟨S160000x1, .f32⟩ : BufTy).Contents (Elt F) → (⟨S10000x1, .f32⟩ : BufTy).Contents (Elt F)),
    nullary main_cst_5 (constant S_ .f32 0x3F800000#32),
    unary main_cst_5 main_v40 (broadcastInDim S10000x1 ![] bcast_S_S10000x1 : (⟨S_, .f32⟩ : BufTy).Contents (Elt F) → (⟨S10000x1, .f32⟩ : BufTy).Contents (Elt F)),
    binary main_v39 main_v40 main_v41 (maximumf : (⟨S10000x1, .f32⟩ : BufTy).Contents (Elt F) → (⟨S10000x1, .f32⟩ : BufTy).Contents (Elt F) → (⟨S10000x1, .f32⟩ : BufTy).Contents (Elt F)) ]
theorem q2_sub : (q2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub ..⟩
theorem q2_fresh : (q2 : List (HloOp τ sig (Elt F))).Forall fun op => op.fresh = ∅ :=
  ⟨rfl, rfl, rfl, rfl, rfl, rfl, rfl, rfl, rfl⟩

/-- The buffers the operations of this piece write. -/
abbrev q2_W : List (Ref sig .tc) := [main_cst_3, main_v36, main_cst_4, main_v37, main_v38, main_v39, main_cst_5, main_v40, main_v41]
theorem q2_writes : (q2 : List (HloOp τ sig (Elt F))).Forall fun op => op.writes ⊆ (q2_W.map (Proc.devRef (τ := τ) .tc)).toFinset := by
  simp only [q2, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 52–61 of @main. -/
abbrev q3 : List (HloOp τ sig (Elt F)) :=
  [ nullary main_c_6 (constantI S_ 32 0#32),
    unary main_c_6 main_v42 (broadcastInDim S160000 ![] bcast_S_S160000 : (⟨S_, .i32⟩ : BufTy).Contents (Elt F) → (⟨S160000, .i32⟩ : BufTy).Contents (Elt F)),
    binary main_v3 main_v42 main_v43 (cmpi .slt : (⟨S160000, .i32⟩ : BufTy).Contents (Elt F) → (⟨S160000, .i32⟩ : BufTy).Contents (Elt F) → (⟨S160000, .i1⟩ : BufTy).Contents (Elt F)),
    nullary main_c_7 (constantI S_ 32 10000#32),
    unary main_c_7 main_v44 (broadcastInDim S160000 ![] bcast_S_S160000 : (⟨S_, .i32⟩ : BufTy).Contents (Elt F) → (⟨S160000, .i32⟩ : BufTy).Contents (Elt F)),
    binary main_v3 main_v44 main_v45 (addi : (⟨S160000, .i32⟩ : BufTy).Contents (Elt F) → (⟨S160000, .i32⟩ : BufTy).Contents (Elt F) → (⟨S160000, .i32⟩ : BufTy).Contents (Elt F)),
    ternary main_v43 main_v45 main_v3 main_v46 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v46 main_v47 (broadcastInDim S160000x1 ![0] bcast_S160000_S160000x1_0 : (⟨S160000, .i32⟩ : BufTy).Contents (Elt F) → (⟨S160000x1, .i32⟩ : BufTy).Contents (Elt F)),
    binary main_v31 main_v47 main_v48 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_8 (constantI S_ 32 0#32) ]
theorem q3_sub : (q3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub ..⟩
theorem q3_fresh : (q3 : List (HloOp τ sig (Elt F))).Forall fun op => op.fresh = ∅ :=
  ⟨rfl, rfl, rfl, rfl, rfl, rfl, rfl, rfl, rfl, rfl⟩

/-- The buffers the operations of this piece write. -/
abbrev q3_W : List (Ref sig .tc) := [main_c_6, main_v42, main_v43, main_c_7, main_v44, main_v45, main_v46, main_v47, main_v48, main_c_8]
theorem q3_writes : (q3 : List (HloOp τ sig (Elt F))).Forall fun op => op.writes ⊆ (q3_W.map (Proc.devRef (τ := τ) .tc)).toFinset := by
  simp only [q3, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 62–88 of @main. -/
abbrev q4 : List (HloOp τ sig (Elt F)) :=
  [ unary main_c_8 main_v49 (broadcastInDim S160000 ![] bcast_S_S160000 : (⟨S_, .i32⟩ : BufTy).Contents (Elt F) → (⟨S160000, .i32⟩ : BufTy).Contents (Elt F)),
    binary main_v1 main_v49 main_v50 (cmpi .slt : (⟨S160000, .i32⟩ : BufTy).Contents (Elt F) → (⟨S160000, .i32⟩ : BufTy).Contents (Elt F) → (⟨S160000, .i1⟩ : BufTy).Contents (Elt F)),
    nullary main_c_9 (constantI S_ 32 10000#32),
    unary main_c_9 main_v51 (broadcastInDim S160000 ![] bcast_S_S160000 : (⟨S_, .i32⟩ : BufTy).Contents (Elt F) → (⟨S160000, .i32⟩ : BufTy).Contents (Elt F)),
    binary main_v1 main_v51 main_v52 (addi : (⟨S160000, .i32⟩ : BufTy).Contents (Elt F) → (⟨S160000, .i32⟩ : BufTy).Contents (Elt F) → (⟨S160000, .i32⟩ : BufTy).Contents (Elt F)),
    ternary main_v50 main_v52 main_v1 main_v53 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v53 main_v54 (broadcastInDim S160000x1 ![0] bcast_S160000_S160000x1_0 : (⟨S160000, .i32⟩ : BufTy).Contents (Elt F) → (⟨S160000x1, .i32⟩ : BufTy).Contents (Elt F)),
    binary main_v31 main_v54 main_v55 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_10 (constantI S_ 32 0#32),
    unary main_c_10 main_v56 (broadcastInDim S160000 ![] bcast_S_S160000 : (⟨S_, .i32⟩ : BufTy).Contents (Elt F) → (⟨S160000, .i32⟩ : BufTy).Contents (Elt F)),
    binary main_v3 main_v56 main_v57 (cmpi .slt : (⟨S160000, .i32⟩ : BufTy).Contents (Elt F) → (⟨S160000, .i32⟩ : BufTy).Contents (Elt F) → (⟨S160000, .i1⟩ : BufTy).Contents (Elt F)),
    nullary main_c_11 (constantI S_ 32 10000#32),
    unary main_c_11 main_v58 (broadcastInDim S160000 ![] bcast_S_S160000 : (⟨S_, .i32⟩ : BufTy).Contents (Elt F) → (⟨S160000, .i32⟩ : BufTy).Contents (Elt F)),
    binary main_v3 main_v58 main_v59 (addi : (⟨S160000, .i32⟩ : BufTy).Contents (Elt F) → (⟨S160000, .i32⟩ : BufTy).Contents (Elt F) → (⟨S160000, .i32⟩ : BufTy).Contents (Elt F)),
    ternary main_v57 main_v59 main_v3 main_v60 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v60 main_v61 (broadcastInDim S160000x1 ![0] bcast_S160000_S160000x1_0 : (⟨S160000, .i32⟩ : BufTy).Contents (Elt F) → (⟨S160000x1, .i32⟩ : BufTy).Contents (Elt F)),
    binary main_v35 main_v61 main_v62 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_12 (constantI S_ 32 0#32),
    unary main_c_12 main_v63 (broadcastInDim S160000 ![] bcast_S_S160000 : (⟨S_, .i32⟩ : BufTy).Contents (Elt F) → (⟨S160000, .i32⟩ : BufTy).Contents (Elt F)),
    binary main_v1 main_v63 main_v64 (cmpi .slt : (⟨S160000, .i32⟩ : BufTy).Contents (Elt F) → (⟨S160000, .i32⟩ : BufTy).Contents (Elt F) → (⟨S160000, .i1⟩ : BufTy).Contents (Elt F)),
    nullary main_c_13 (constantI S_ 32 10000#32),
    unary main_c_13 main_v65 (broadcastInDim S160000 ![] bcast_S_S160000 : (⟨S_, .i32⟩ : BufTy).Contents (Elt F) → (⟨S160000, .i32⟩ : BufTy).Contents (Elt F)),
    binary main_v1 main_v65 main_v66 (addi : (⟨S160000, .i32⟩ : BufTy).Contents (Elt F) → (⟨S160000, .i32⟩ : BufTy).Contents (Elt F) → (⟨S160000, .i32⟩ : BufTy).Contents (Elt F)),
    ternary main_v64 main_v66 main_v1 main_v67 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v67 main_v68 (broadcastInDim S160000x1 ![0] bcast_S160000_S160000x1_0 : (⟨S160000, .i32⟩ : BufTy).Contents (Elt F) → (⟨S160000x1, .i32⟩ : BufTy).Contents (Elt F)),
    binary main_v35 main_v68 main_v69 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nary ![main_v48, main_v55, main_v62, main_v69, main_v22] main_v70 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q4_sub : (q4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩
theorem q4_fresh : (q4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- The buffers the operations of this piece write. -/
abbrev q4_W : List (Ref sig .tc) := [main_v49, main_v50, main_c_9, main_v51, main_v52, main_v53, main_v54, main_v55, main_c_10, main_v56, main_v57, main_c_11, main_v58, main_v59, main_v60, main_v61, main_v62, main_c_12, main_v63, main_v64, main_c_13, main_v65, main_v66, main_v67, main_v68, main_v69, main_v70]
theorem q4_writes : (q4 : List (HloOp τ sig (Elt F))).Forall fun op => op.writes ⊆ (q4_W.map (Proc.devRef (τ := τ) .tc)).toFinset := by
  simp only [q4, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 89–125 of @main. -/
abbrev q5 : List (HloOp τ sig (Elt F)) :=
  [ unary main_arg11 main_v71 ((extractStridedSlice S1x385x96 ![0, 0, 0] · slices_S3x385x96_S1x385x96_0_0_0) : (⟨S3x385x96, .f32⟩ : BufTy).Contents (Elt F) → (⟨S1x385x96, .f32⟩ : BufTy).Contents (Elt F)),
    reshape main_v71 main_v72 rfl shapeCasts_S1x385x96_S385x96,
    binary main_v70 main_v72 main_v73 ((fun l r => Host.dotGeneral dot_S160000x385_S385x96_S160000x96_1_0_0_1_n_n none l r) : (⟨S160000x385, .f32⟩ : BufTy).Contents (Elt F) → (⟨S385x96, .f32⟩ : BufTy).Contents (Elt F) → (⟨S160000x96, .f32⟩ : BufTy).Contents (Elt F)),
    unary main_arg12 main_v74 ((extractStridedSlice S1x96 ![0, 0] · slices_S3x96_S1x96_0_0) : (⟨S3x96, .f32⟩ : BufTy).Contents (Elt F) → (⟨S1x96, .f32⟩ : BufTy).Contents (Elt F)),
    reshape main_v74 main_v75 rfl shapeCasts_S1x96_S96,
    unary main_v75 main_v76 (broadcastInDim S1x96 ![1] bcast_S96_S1x96_1 : (⟨S96, .f32⟩ : BufTy).Contents (Elt F) → (⟨S1x96, .f32⟩ : BufTy).Contents (Elt F)),
    unary main_v76 main_v77 (broadcastInDim S160000x96 ![0, 1] bcast_S1x96_S160000x96_0_1 : (⟨S1x96, .f32⟩ : BufTy).Contents (Elt F) → (⟨S160000x96, .f32⟩ : BufTy).Contents (Elt F)),
    binary main_v73 main_v77 main_v78 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S160000x96, .f32⟩) main_call1_v0) (broadcastInDim S160000x96 ![] bcast_S_S160000x96),
    TRef.binary (TRef.of (T := ⟨S160000x96, .f32⟩) main_v78) (TRef.of (T := ⟨S160000x96, .f32⟩) main_call1_v0) (TRef.of (T := ⟨S160000x96, .f32⟩) main_v79) maximumf,
    unary main_arg13 main_v80 ((extractStridedSlice S1x96x96 ![0, 0, 0] · slices_S3x96x96_S1x96x96_0_0_0) : (⟨S3x96x96, .f32⟩ : BufTy).Contents (Elt F) → (⟨S1x96x96, .f32⟩ : BufTy).Contents (Elt F)),
    reshape main_v80 main_v81 rfl shapeCasts_S1x96x96_S96x96,
    binary main_v79 main_v81 main_v82 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    unary main_arg14 main_v83 ((extractStridedSlice S1x96 ![0, 0] · slices_S3x96_S1x96_0_0) : (⟨S3x96, .f32⟩ : BufTy).Contents (Elt F) → (⟨S1x96, .f32⟩ : BufTy).Contents (Elt F)),
    reshape main_v83 main_v84 rfl shapeCasts_S1x96_S96,
    unary main_v84 main_v85 (broadcastInDim S1x96 ![1] bcast_S96_S1x96_1 : (⟨S96, .f32⟩ : BufTy).Contents (Elt F) → (⟨S1x96, .f32⟩ : BufTy).Contents (Elt F)),
    unary main_v85 main_v86 (broadcastInDim S160000x96 ![0, 1] bcast_S1x96_S160000x96_0_1 : (⟨S1x96, .f32⟩ : BufTy).Contents (Elt F) → (⟨S160000x96, .f32⟩ : BufTy).Contents (Elt F)),
    binary main_v82 main_v86 main_v87 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S160000x96, .f32⟩) main_call2_v0) (broadcastInDim S160000x96 ![] bcast_S_S160000x96),
    TRef.binary (TRef.of (T := ⟨S160000x96, .f32⟩) main_v87) (TRef.of (T := ⟨S160000x96, .f32⟩) main_call2_v0) (TRef.of (T := ⟨S160000x96, .f32⟩) main_v88) maximumf,
    unary main_arg15 main_v89 ((extractStridedSlice S1x96x1 ![0, 0, 0] · slices_S3x96x1_S1x96x1_0_0_0) : (⟨S3x96x1, .f32⟩ : BufTy).Contents (Elt F) → (⟨S1x96x1, .f32⟩ : BufTy).Contents (Elt F)),
    reshape main_v89 main_v90 rfl shapeCasts_S1x96x1_S96x1,
    binary main_v88 main_v90 main_v91 ((fun l r => Host.dotGeneral dot_S160000x96_S96x1_S160000x1_1_0_0_1_n_n none l r) : (⟨S160000x96, .f32⟩ : BufTy).Contents (Elt F) → (⟨S96x1, .f32⟩ : BufTy).Contents (Elt F) → (⟨S160000x1, .f32⟩ : BufTy).Contents (Elt F)),
    unary main_arg16 main_v92 ((extractStridedSlice S1x1 ![0, 0] · slices_S3x1_S1x1_0_0) : (⟨S3x1, .f32⟩ : BufTy).Contents (Elt F) → (⟨S1x1, .f32⟩ : BufTy).Contents (Elt F)),
    reshape main_v92 main_v93 rfl shapeCasts_S1x1_S1,
    unary main_v93 main_v94 (broadcastInDim S1x1 ![1] bcast_S1_S1x1_1 : (⟨S1, .f32⟩ : BufTy).Contents (Elt F) → (⟨S1x1, .f32⟩ : BufTy).Contents (Elt F)),
    unary main_v94 main_v95 (broadcastInDim S160000x1 ![0, 1] bcast_S1x1_S160000x1_0_1 : (⟨S1x1, .f32⟩ : BufTy).Contents (Elt F) → (⟨S160000x1, .f32⟩ : BufTy).Contents (Elt F)),
    binary main_v91 main_v95 main_v96 (addf : (⟨S160000x1, .f32⟩ : BufTy).Contents (Elt F) → (⟨S160000x1, .f32⟩ : BufTy).Contents (Elt F) → (⟨S160000x1, .f32⟩ : BufTy).Contents (Elt F)),
    unary main_v96 main_v97 (Host.negf : (⟨S160000x1, .f32⟩ : BufTy).Contents (Elt F) → (⟨S160000x1, .f32⟩ : BufTy).Contents (Elt F)),
    unary main_v97 main_v98 (Host.exp : (⟨S160000x1, .f32⟩ : BufTy).Contents (Elt F) → (⟨S160000x1, .f32⟩ : BufTy).Contents (Elt F)),
    nullary main_cst_14 (constant S_ .f32 0x3F800000#32),
    unary main_cst_14 main_v99 (broadcastInDim S160000x1 ![] bcast_S_S160000x1 : (⟨S_, .f32⟩ : BufTy).Contents (Elt F) → (⟨S160000x1, .f32⟩ : BufTy).Contents (Elt F)),
    binary main_v99 main_v98 main_v100 (addf : (⟨S160000x1, .f32⟩ : BufTy).Contents (Elt F) → (⟨S160000x1, .f32⟩ : BufTy).Contents (Elt F) → (⟨S160000x1, .f32⟩ : BufTy).Contents (Elt F)),
    nullary main_cst_15 (constant S_ .f32 0x3F800000#32),
    unary main_cst_15 main_v101 (broadcastInDim S160000x1 ![] bcast_S_S160000x1 : (⟨S_, .f32⟩ : BufTy).Contents (Elt F) → (⟨S160000x1, .f32⟩ : BufTy).Contents (Elt F)) ]
theorem q5_sub : (q5 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub ..⟩
theorem q5_fresh : (q5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of this piece write. -/
abbrev q5_W : List (Ref sig .tc) := [main_v71, main_v72, main_v73, main_v74, main_v75, main_v76, main_v77, main_v78, main_call1_cst, main_call1_v0, main_v79, main_v80, main_v81, main_v82, main_v83, main_v84, main_v85, main_v86, main_v87, main_call2_cst, main_call2_v0, main_v88, main_v89, main_v90, main_v91, main_v92, main_v93, main_v94, main_v95, main_v96, main_v97, main_v98, main_cst_14, main_v99, main_v100, main_cst_15, main_v101]
theorem q5_writes : (q5 : List (HloOp τ sig (Elt F))).Forall fun op => op.writes ⊆ (q5_W.map (Proc.devRef (τ := τ) .tc)).toFinset := by
  simp only [q5, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 126–128 of @main. -/
abbrev q6 : List (HloOp τ sig (Elt F)) :=
  [ binary main_v101 main_v100 main_v102 (Host.divf : (⟨S160000x1, .f32⟩ : BufTy).Contents (Elt F) → (⟨S160000x1, .f32⟩ : BufTy).Contents (Elt F) → (⟨S160000x1, .f32⟩ : BufTy).Contents (Elt F)),
    unary main_v102 main_v103 (broadcastInDim S160000x96 ![0, 1] bcast_S160000x1_S160000x96_0_1 : (⟨S160000x1, .f32⟩ : BufTy).Contents (Elt F) → (⟨S160000x96, .f32⟩ : BufTy).Contents (Elt F)),
    binary main_v88 main_v103 main_v104 (mulf : (⟨S160000x96, .f32⟩ : BufTy).Contents (Elt F) → (⟨S160000x96, .f32⟩ : BufTy).Contents (Elt F) → (⟨S160000x96, .f32⟩ : BufTy).Contents (Elt F)) ]
theorem q6_sub : (q6 : List (HloOp τ sig (Elt F))).Forall fun op => op.bufs ⊆ tcRefs τ sig :=
  ⟨binary_bufs_sub .., unary_bufs_sub .., binary_bufs_sub ..⟩
theorem q6_fresh : (q6 : List (HloOp τ sig (Elt F))).Forall fun op => op.fresh = ∅ :=
  ⟨rfl, rfl, rfl⟩

/-- The buffers the operations of this piece write. -/
abbrev q6_W : List (Ref sig .tc) := [main_v102, main_v103, main_v104]
theorem q6_writes : (q6 : List (HloOp τ sig (Elt F))).Forall fun op => op.writes ⊆ (q6_W.map (Proc.devRef (τ := τ) .tc)).toFinset := by
  simp only [q6, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 129–134 of @main. -/
abbrev q7 : List (HloOp τ sig (Elt F)) :=
  [ nullary main_cst_16 (constant S_ .f32 0x00000000#32),
    unary main_cst_16 main_v105 (broadcastInDim S10000x96 ![] bcast_S_S10000x96 : (⟨S_, .f32⟩ : BufTy).Contents (Elt F) → (⟨S10000x96, .f32⟩ : BufTy).Contents (Elt F)),
    unary main_v3 main_v106 (broadcastInDim S160000x1 ![0] bcast_S160000_S160000x1_0 : (⟨S160000, .i32⟩ : BufTy).Contents (Elt F) → (⟨S160000x1, .i32⟩ : BufTy).Contents (Elt F)),
    ternary main_v105 main_v106 main_v104 main_v107 ((fun x i u => Host.scatterAdd scatter_S10000x96_S160000x1_S160000x96_1_0_0_1 x i u) : (⟨S10000x96, .f32⟩ : BufTy).Contents (Elt F) → (⟨S160000x1, .i32⟩ : BufTy).Contents (Elt F) → (⟨S160000x96, .f32⟩ : BufTy).Contents (Elt F) → (⟨S10000x96, .f32⟩ : BufTy).Contents (Elt F)),
    unary main_v41 main_v108 (broadcastInDim S10000x96 ![0, 1] bcast_S10000x1_S10000x96_0_1 : (⟨S10000x1, .f32⟩ : BufTy).Contents (Elt F) → (⟨S10000x96, .f32⟩ : BufTy).Contents (Elt F)),
    binary main_v107 main_v108 main_v109 (Host.divf : (⟨S10000x96, .f32⟩ : BufTy).Contents (Elt F) → (⟨S10000x96, .f32⟩ : BufTy).Contents (Elt F) → (⟨S10000x96, .f32⟩ : BufTy).Contents (Elt F)) ]
theorem q7_sub : (q7 : List (HloOp τ sig (Elt F))).Forall fun op => op.bufs ⊆ tcRefs τ sig :=
  ⟨nullary_bufs_sub .., unary_bufs_sub .., unary_bufs_sub .., ternary_bufs_sub .., unary_bufs_sub .., binary_bufs_sub ..⟩
theorem q7_fresh : (q7 : List (HloOp τ sig (Elt F))).Forall fun op => op.fresh = ∅ :=
  ⟨rfl, rfl, rfl, rfl, rfl, rfl⟩

/-- The buffers the operations of this piece write. -/
abbrev q7_W : List (Ref sig .tc) := [main_cst_16, main_v105, main_v106, main_v107, main_v108, main_v109]
theorem q7_writes : (q7 : List (HloOp τ sig (Elt F))).Forall fun op => op.writes ⊆ (q7_W.map (Proc.devRef (τ := τ) .tc)).toFinset := by
  simp only [q7, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 135–154 of @main. -/
abbrev q8 : List (HloOp τ sig (Elt F)) :=
  [ nary ![main_v31, main_v35, main_v109] main_v110 (fun u => concatenate S10000x288 1 [⟨S10000x96, u 0⟩, ⟨S10000x96, u 1⟩, ⟨S10000x96, u 2⟩] concatenates_S10000x96_S10000x96_S10000x96_S10000x288_d1),
    unary main_arg17 main_v111 ((extractStridedSlice S1x288x96 ![0, 0, 0] · slices_S3x288x96_S1x288x96_0_0_0) : (⟨S3x288x96, .f32⟩ : BufTy).Contents (Elt F) → (⟨S1x288x96, .f32⟩ : BufTy).Contents (Elt F)),
    reshape main_v111 main_v112 rfl shapeCasts_S1x288x96_S288x96,
    binary main_v110 main_v112 main_v113 ((fun l r => Host.dotGeneral dot_S10000x288_S288x96_S10000x96_1_0_0_1_n_n none l r) : (⟨S10000x288, .f32⟩ : BufTy).Contents (Elt F) → (⟨S288x96, .f32⟩ : BufTy).Contents (Elt F) → (⟨S10000x96, .f32⟩ : BufTy).Contents (Elt F)),
    unary main_arg18 main_v114 ((extractStridedSlice S1x96 ![0, 0] · slices_S3x96_S1x96_0_0) : (⟨S3x96, .f32⟩ : BufTy).Contents (Elt F) → (⟨S1x96, .f32⟩ : BufTy).Contents (Elt F)),
    reshape main_v114 main_v115 rfl shapeCasts_S1x96_S96,
    unary main_v115 main_v116 (broadcastInDim S1x96 ![1] bcast_S96_S1x96_1 : (⟨S96, .f32⟩ : BufTy).Contents (Elt F) → (⟨S1x96, .f32⟩ : BufTy).Contents (Elt F)),
    unary main_v116 main_v117 (broadcastInDim S10000x96 ![0, 1] bcast_S1x96_S10000x96_0_1 : (⟨S1x96, .f32⟩ : BufTy).Contents (Elt F) → (⟨S10000x96, .f32⟩ : BufTy).Contents (Elt F)),
    binary main_v113 main_v117 main_v118 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S10000x96, .f32⟩) main_call3_v0) (broadcastInDim S10000x96 ![] bcast_S_S10000x96),
    TRef.binary (TRef.of (T := ⟨S10000x96, .f32⟩) main_v118) (TRef.of (T := ⟨S10000x96, .f32⟩) main_call3_v0) (TRef.of (T := ⟨S10000x96, .f32⟩) main_v119) maximumf,
    unary main_arg19 main_v120 ((extractStridedSlice S1x96x96 ![0, 0, 0] · slices_S3x96x96_S1x96x96_0_0_0) : (⟨S3x96x96, .f32⟩ : BufTy).Contents (Elt F) → (⟨S1x96x96, .f32⟩ : BufTy).Contents (Elt F)),
    reshape main_v120 main_v121 rfl shapeCasts_S1x96x96_S96x96,
    binary main_v119 main_v121 main_v122 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg20 main_v123 ((extractStridedSlice S1x96 ![0, 0] · slices_S3x96_S1x96_0_0) : (⟨S3x96, .f32⟩ : BufTy).Contents (Elt F) → (⟨S1x96, .f32⟩ : BufTy).Contents (Elt F)),
    reshape main_v123 main_v124 rfl shapeCasts_S1x96_S96,
    unary main_v124 main_v125 (broadcastInDim S1x96 ![1] bcast_S96_S1x96_1 : (⟨S96, .f32⟩ : BufTy).Contents (Elt F) → (⟨S1x96, .f32⟩ : BufTy).Contents (Elt F)),
    unary main_v125 main_v126 (broadcastInDim S10000x96 ![0, 1] bcast_S1x96_S10000x96_0_1 : (⟨S1x96, .f32⟩ : BufTy).Contents (Elt F) → (⟨S10000x96, .f32⟩ : BufTy).Contents (Elt F)),
    binary main_v122 main_v126 main_v127 (addf : (⟨S10000x96, .f32⟩ : BufTy).Contents (Elt F) → (⟨S10000x96, .f32⟩ : BufTy).Contents (Elt F) → (⟨S10000x96, .f32⟩ : BufTy).Contents (Elt F)) ]
theorem q8_sub : (q8 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q8_fresh : (q8 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers the operations of this piece write. -/
abbrev q8_W : List (Ref sig .tc) := [main_v110, main_v111, main_v112, main_v113, main_v114, main_v115, main_v116, main_v117, main_v118, main_call3_cst, main_call3_v0, main_v119, main_v120, main_v121, main_v122, main_v123, main_v124, main_v125, main_v126, main_v127]
theorem q8_writes : (q8 : List (HloOp τ sig (Elt F))).Forall fun op => op.writes ⊆ (q8_W.map (Proc.devRef (τ := τ) .tc)).toFinset := by
  simp only [q8, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 155–175 of @main. -/
abbrev q9 : List (HloOp τ sig (Elt F)) :=
  [ unary main_v109 main_v128 ((extractStridedSlice S10000x48 ![0, 0] · slices_S10000x96_S10000x48_0_0) : (⟨S10000x96, .f32⟩ : BufTy).Contents (Elt F) → (⟨S10000x48, .f32⟩ : BufTy).Contents (Elt F)),
    binary main_v35 main_v128 main_v129 ((fun a b => concatenate S10000x144 1 [⟨S10000x96, a⟩, ⟨S10000x48, b⟩] concatenates_S10000x96_S10000x48_S10000x144_d1) : (⟨S10000x96, .f32⟩ : BufTy).Contents (Elt F) → (⟨S10000x48, .f32⟩ : BufTy).Contents (Elt F) → (⟨S10000x144, .f32⟩ : BufTy).Contents (Elt F)),
    unary main_arg21 main_v130 ((extractStridedSlice S1x144x96 ![0, 0, 0] · slices_S3x144x96_S1x144x96_0_0_0) : (⟨S3x144x96, .f32⟩ : BufTy).Contents (Elt F) → (⟨S1x144x96, .f32⟩ : BufTy).Contents (Elt F)),
    reshape main_v130 main_v131 rfl shapeCasts_S1x144x96_S144x96,
    binary main_v129 main_v131 main_v132 ((fun l r => Host.dotGeneral dot_S10000x144_S144x96_S10000x96_1_0_0_1_n_n none l r) : (⟨S10000x144, .f32⟩ : BufTy).Contents (Elt F) → (⟨S144x96, .f32⟩ : BufTy).Contents (Elt F) → (⟨S10000x96, .f32⟩ : BufTy).Contents (Elt F)),
    unary main_arg22 main_v133 ((extractStridedSlice S1x96 ![0, 0] · slices_S3x96_S1x96_0_0) : (⟨S3x96, .f32⟩ : BufTy).Contents (Elt F) → (⟨S1x96, .f32⟩ : BufTy).Contents (Elt F)),
    reshape main_v133 main_v134 rfl shapeCasts_S1x96_S96,
    unary main_v134 main_v135 (broadcastInDim S1x96 ![1] bcast_S96_S1x96_1 : (⟨S96, .f32⟩ : BufTy).Contents (Elt F) → (⟨S1x96, .f32⟩ : BufTy).Contents (Elt F)),
    unary main_v135 main_v136 (broadcastInDim S10000x96 ![0, 1] bcast_S1x96_S10000x96_0_1 : (⟨S1x96, .f32⟩ : BufTy).Contents (Elt F) → (⟨S10000x96, .f32⟩ : BufTy).Contents (Elt F)),
    binary main_v132 main_v136 main_v137 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S10000x96, .f32⟩) main_call4_v0) (broadcastInDim S10000x96 ![] bcast_S_S10000x96),
    TRef.binary (TRef.of (T := ⟨S10000x96, .f32⟩) main_v137) (TRef.of (T := ⟨S10000x96, .f32⟩) main_call4_v0) (TRef.of (T := ⟨S10000x96, .f32⟩) main_v138) maximumf,
    unary main_arg23 main_v139 ((extractStridedSlice S1x96x96 ![0, 0, 0] · slices_S3x96x96_S1x96x96_0_0_0) : (⟨S3x96x96, .f32⟩ : BufTy).Contents (Elt F) → (⟨S1x96x96, .f32⟩ : BufTy).Contents (Elt F)),
    reshape main_v139 main_v140 rfl shapeCasts_S1x96x96_S96x96,
    binary main_v138 main_v140 main_v141 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg24 main_v142 ((extractStridedSlice S1x96 ![0, 0] · slices_S3x96_S1x96_0_0) : (⟨S3x96, .f32⟩ : BufTy).Contents (Elt F) → (⟨S1x96, .f32⟩ : BufTy).Contents (Elt F)),
    reshape main_v142 main_v143 rfl shapeCasts_S1x96_S96,
    unary main_v143 main_v144 (broadcastInDim S1x96 ![1] bcast_S96_S1x96_1 : (⟨S96, .f32⟩ : BufTy).Contents (Elt F) → (⟨S1x96, .f32⟩ : BufTy).Contents (Elt F)),
    unary main_v144 main_v145 (broadcastInDim S10000x96 ![0, 1] bcast_S1x96_S10000x96_0_1 : (⟨S1x96, .f32⟩ : BufTy).Contents (Elt F) → (⟨S10000x96, .f32⟩ : BufTy).Contents (Elt F)),
    binary main_v141 main_v145 main_v146 (addf : (⟨S10000x96, .f32⟩ : BufTy).Contents (Elt F) → (⟨S10000x96, .f32⟩ : BufTy).Contents (Elt F) → (⟨S10000x96, .f32⟩ : BufTy).Contents (Elt F)) ]
theorem q9_sub : (q9 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q9_fresh : (q9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the operations of this piece write. -/
abbrev q9_W : List (Ref sig .tc) := [main_v128, main_v129, main_v130, main_v131, main_v132, main_v133, main_v134, main_v135, main_v136, main_v137, main_call4_cst, main_call4_v0, main_v138, main_v139, main_v140, main_v141, main_v142, main_v143, main_v144, main_v145, main_v146]
theorem q9_writes : (q9 : List (HloOp τ sig (Elt F))).Forall fun op => op.writes ⊆ (q9_W.map (Proc.devRef (τ := τ) .tc)).toFinset := by
  simp only [q9, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 176–189 of @main. -/
abbrev q10 : List (HloOp τ sig (Elt F)) :=
  [ nullary main_c_17 (constantI S_ 32 0#32),
    unary main_c_17 main_v147 (broadcastInDim S160000 ![] bcast_S_S160000 : (⟨S_, .i32⟩ : BufTy).Contents (Elt F) → (⟨S160000, .i32⟩ : BufTy).Contents (Elt F)),
    binary main_v3 main_v147 main_v148 (cmpi .slt : (⟨S160000, .i32⟩ : BufTy).Contents (Elt F) → (⟨S160000, .i32⟩ : BufTy).Contents (Elt F) → (⟨S160000, .i1⟩ : BufTy).Contents (Elt F)),
    nullary main_c_18 (constantI S_ 32 10000#32),
    unary main_c_18 main_v149 (broadcastInDim S160000 ![] bcast_S_S160000 : (⟨S_, .i32⟩ : BufTy).Contents (Elt F) → (⟨S160000, .i32⟩ : BufTy).Contents (Elt F)),
    binary main_v3 main_v149 main_v150 (addi : (⟨S160000, .i32⟩ : BufTy).Contents (Elt F) → (⟨S160000, .i32⟩ : BufTy).Contents (Elt F) → (⟨S160000, .i32⟩ : BufTy).Contents (Elt F)),
    ternary main_v148 main_v150 main_v3 main_v151 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v151 main_v152 (broadcastInDim S160000x1 ![0] bcast_S160000_S160000x1_0 : (⟨S160000, .i32⟩ : BufTy).Contents (Elt F) → (⟨S160000x1, .i32⟩ : BufTy).Contents (Elt F)),
    binary main_v127 main_v152 main_v153 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_19 (constantI S_ 32 0#32),
    unary main_c_19 main_v154 (broadcastInDim S160000 ![] bcast_S_S160000 : (⟨S_, .i32⟩ : BufTy).Contents (Elt F) → (⟨S160000, .i32⟩ : BufTy).Contents (Elt F)),
    binary main_v1 main_v154 main_v155 (cmpi .slt : (⟨S160000, .i32⟩ : BufTy).Contents (Elt F) → (⟨S160000, .i32⟩ : BufTy).Contents (Elt F) → (⟨S160000, .i1⟩ : BufTy).Contents (Elt F)),
    nullary main_c_20 (constantI S_ 32 10000#32),
    unary main_c_20 main_v156 (broadcastInDim S160000 ![] bcast_S_S160000 : (⟨S_, .i32⟩ : BufTy).Contents (Elt F) → (⟨S160000, .i32⟩ : BufTy).Contents (Elt F)) ]
theorem q10_sub : (q10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub ..⟩
theorem q10_fresh : (q10 : List (HloOp τ sig (Elt F))).Forall fun op => op.fresh = ∅ :=
  ⟨rfl, rfl, rfl, rfl, rfl, rfl, rfl, rfl, rfl, rfl, rfl, rfl, rfl, rfl⟩

/-- The buffers the operations of this piece write. -/
abbrev q10_W : List (Ref sig .tc) := [main_c_17, main_v147, main_v148, main_c_18, main_v149, main_v150, main_v151, main_v152, main_v153, main_c_19, main_v154, main_v155, main_c_20, main_v156]
theorem q10_writes : (q10 : List (HloOp τ sig (Elt F))).Forall fun op => op.writes ⊆ (q10_W.map (Proc.devRef (τ := τ) .tc)).toFinset := by
  simp only [q10, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 190–212 of @main. -/
abbrev q11 : List (HloOp τ sig (Elt F)) :=
  [ binary main_v1 main_v156 main_v157 (addi : (⟨S160000, .i32⟩ : BufTy).Contents (Elt F) → (⟨S160000, .i32⟩ : BufTy).Contents (Elt F) → (⟨S160000, .i32⟩ : BufTy).Contents (Elt F)),
    ternary main_v155 main_v157 main_v1 main_v158 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v158 main_v159 (broadcastInDim S160000x1 ![0] bcast_S160000_S160000x1_0 : (⟨S160000, .i32⟩ : BufTy).Contents (Elt F) → (⟨S160000x1, .i32⟩ : BufTy).Contents (Elt F)),
    binary main_v127 main_v159 main_v160 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_21 (constantI S_ 32 0#32),
    unary main_c_21 main_v161 (broadcastInDim S160000 ![] bcast_S_S160000 : (⟨S_, .i32⟩ : BufTy).Contents (Elt F) → (⟨S160000, .i32⟩ : BufTy).Contents (Elt F)),
    binary main_v3 main_v161 main_v162 (cmpi .slt : (⟨S160000, .i32⟩ : BufTy).Contents (Elt F) → (⟨S160000, .i32⟩ : BufTy).Contents (Elt F) → (⟨S160000, .i1⟩ : BufTy).Contents (Elt F)),
    nullary main_c_22 (constantI S_ 32 10000#32),
    unary main_c_22 main_v163 (broadcastInDim S160000 ![] bcast_S_S160000 : (⟨S_, .i32⟩ : BufTy).Contents (Elt F) → (⟨S160000, .i32⟩ : BufTy).Contents (Elt F)),
    binary main_v3 main_v163 main_v164 (addi : (⟨S160000, .i32⟩ : BufTy).Contents (Elt F) → (⟨S160000, .i32⟩ : BufTy).Contents (Elt F) → (⟨S160000, .i32⟩ : BufTy).Contents (Elt F)),
    ternary main_v162 main_v164 main_v3 main_v165 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v165 main_v166 (broadcastInDim S160000x1 ![0] bcast_S160000_S160000x1_0 : (⟨S160000, .i32⟩ : BufTy).Contents (Elt F) → (⟨S160000x1, .i32⟩ : BufTy).Contents (Elt F)),
    binary main_v146 main_v166 main_v167 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_23 (constantI S_ 32 0#32),
    unary main_c_23 main_v168 (broadcastInDim S160000 ![] bcast_S_S160000 : (⟨S_, .i32⟩ : BufTy).Contents (Elt F) → (⟨S160000, .i32⟩ : BufTy).Contents (Elt F)),
    binary main_v1 main_v168 main_v169 (cmpi .slt : (⟨S160000, .i32⟩ : BufTy).Contents (Elt F) → (⟨S160000, .i32⟩ : BufTy).Contents (Elt F) → (⟨S160000, .i1⟩ : BufTy).Contents (Elt F)),
    nullary main_c_24 (constantI S_ 32 10000#32),
    unary main_c_24 main_v170 (broadcastInDim S160000 ![] bcast_S_S160000 : (⟨S_, .i32⟩ : BufTy).Contents (Elt F) → (⟨S160000, .i32⟩ : BufTy).Contents (Elt F)),
    binary main_v1 main_v170 main_v171 (addi : (⟨S160000, .i32⟩ : BufTy).Contents (Elt F) → (⟨S160000, .i32⟩ : BufTy).Contents (Elt F) → (⟨S160000, .i32⟩ : BufTy).Contents (Elt F)),
    ternary main_v169 main_v171 main_v1 main_v172 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v172 main_v173 (broadcastInDim S160000x1 ![0] bcast_S160000_S160000x1_0 : (⟨S160000, .i32⟩ : BufTy).Contents (Elt F) → (⟨S160000x1, .i32⟩ : BufTy).Contents (Elt F)),
    binary main_v146 main_v173 main_v174 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nary ![main_v153, main_v160, main_v167, main_v174, main_v22] main_v175 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q11_sub : (q11 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩
theorem q11_fresh : (q11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers the operations of this piece write. -/
abbrev q11_W : List (Ref sig .tc) := [main_v157, main_v158, main_v159, main_v160, main_c_21, main_v161, main_v162, main_c_22, main_v163, main_v164, main_v165, main_v166, main_v167, main_c_23, main_v168, main_v169, main_c_24, main_v170, main_v171, main_v172, main_v173, main_v174, main_v175]
theorem q11_writes : (q11 : List (HloOp τ sig (Elt F))).Forall fun op => op.writes ⊆ (q11_W.map (Proc.devRef (τ := τ) .tc)).toFinset := by
  simp only [q11, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 213–252 of @main. -/
abbrev q12 : List (HloOp τ sig (Elt F)) :=
  [ unary main_arg11 main_v176 ((extractStridedSlice S1x385x96 ![1, 0, 0] · slices_S3x385x96_S1x385x96_1_0_0) : (⟨S3x385x96, .f32⟩ : BufTy).Contents (Elt F) → (⟨S1x385x96, .f32⟩ : BufTy).Contents (Elt F)),
    reshape main_v176 main_v177 rfl shapeCasts_S1x385x96_S385x96,
    binary main_v175 main_v177 main_v178 ((fun l r => Host.dotGeneral dot_S160000x385_S385x96_S160000x96_1_0_0_1_n_n none l r) : (⟨S160000x385, .f32⟩ : BufTy).Contents (Elt F) → (⟨S385x96, .f32⟩ : BufTy).Contents (Elt F) → (⟨S160000x96, .f32⟩ : BufTy).Contents (Elt F)),
    unary main_arg12 main_v179 ((extractStridedSlice S1x96 ![1, 0] · slices_S3x96_S1x96_1_0) : (⟨S3x96, .f32⟩ : BufTy).Contents (Elt F) → (⟨S1x96, .f32⟩ : BufTy).Contents (Elt F)),
    reshape main_v179 main_v180 rfl shapeCasts_S1x96_S96,
    unary main_v180 main_v181 (broadcastInDim S1x96 ![1] bcast_S96_S1x96_1 : (⟨S96, .f32⟩ : BufTy).Contents (Elt F) → (⟨S1x96, .f32⟩ : BufTy).Contents (Elt F)),
    unary main_v181 main_v182 (broadcastInDim S160000x96 ![0, 1] bcast_S1x96_S160000x96_0_1 : (⟨S1x96, .f32⟩ : BufTy).Contents (Elt F) → (⟨S160000x96, .f32⟩ : BufTy).Contents (Elt F)),
    binary main_v178 main_v182 main_v183 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S160000x96, .f32⟩) main_call5_v0) (broadcastInDim S160000x96 ![] bcast_S_S160000x96),
    TRef.binary (TRef.of (T := ⟨S160000x96, .f32⟩) main_v183) (TRef.of (T := ⟨S160000x96, .f32⟩) main_call5_v0) (TRef.of (T := ⟨S160000x96, .f32⟩) main_v184) maximumf,
    unary main_arg13 main_v185 ((extractStridedSlice S1x96x96 ![1, 0, 0] · slices_S3x96x96_S1x96x96_1_0_0) : (⟨S3x96x96, .f32⟩ : BufTy).Contents (Elt F) → (⟨S1x96x96, .f32⟩ : BufTy).Contents (Elt F)),
    reshape main_v185 main_v186 rfl shapeCasts_S1x96x96_S96x96,
    binary main_v184 main_v186 main_v187 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    unary main_arg14 main_v188 ((extractStridedSlice S1x96 ![1, 0] · slices_S3x96_S1x96_1_0) : (⟨S3x96, .f32⟩ : BufTy).Contents (Elt F) → (⟨S1x96, .f32⟩ : BufTy).Contents (Elt F)),
    reshape main_v188 main_v189 rfl shapeCasts_S1x96_S96,
    unary main_v189 main_v190 (broadcastInDim S1x96 ![1] bcast_S96_S1x96_1 : (⟨S96, .f32⟩ : BufTy).Contents (Elt F) → (⟨S1x96, .f32⟩ : BufTy).Contents (Elt F)),
    unary main_v190 main_v191 (broadcastInDim S160000x96 ![0, 1] bcast_S1x96_S160000x96_0_1 : (⟨S1x96, .f32⟩ : BufTy).Contents (Elt F) → (⟨S160000x96, .f32⟩ : BufTy).Contents (Elt F)),
    binary main_v187 main_v191 main_v192 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S160000x96, .f32⟩) main_call6_v0) (broadcastInDim S160000x96 ![] bcast_S_S160000x96),
    TRef.binary (TRef.of (T := ⟨S160000x96, .f32⟩) main_v192) (TRef.of (T := ⟨S160000x96, .f32⟩) main_call6_v0) (TRef.of (T := ⟨S160000x96, .f32⟩) main_v193) maximumf,
    unary main_arg15 main_v194 ((extractStridedSlice S1x96x1 ![1, 0, 0] · slices_S3x96x1_S1x96x1_1_0_0) : (⟨S3x96x1, .f32⟩ : BufTy).Contents (Elt F) → (⟨S1x96x1, .f32⟩ : BufTy).Contents (Elt F)),
    reshape main_v194 main_v195 rfl shapeCasts_S1x96x1_S96x1,
    binary main_v193 main_v195 main_v196 ((fun l r => Host.dotGeneral dot_S160000x96_S96x1_S160000x1_1_0_0_1_n_n none l r) : (⟨S160000x96, .f32⟩ : BufTy).Contents (Elt F) → (⟨S96x1, .f32⟩ : BufTy).Contents (Elt F) → (⟨S160000x1, .f32⟩ : BufTy).Contents (Elt F)),
    unary main_arg16 main_v197 ((extractStridedSlice S1x1 ![1, 0] · slices_S3x1_S1x1_1_0) : (⟨S3x1, .f32⟩ : BufTy).Contents (Elt F) → (⟨S1x1, .f32⟩ : BufTy).Contents (Elt F)),
    reshape main_v197 main_v198 rfl shapeCasts_S1x1_S1,
    unary main_v198 main_v199 (broadcastInDim S1x1 ![1] bcast_S1_S1x1_1 : (⟨S1, .f32⟩ : BufTy).Contents (Elt F) → (⟨S1x1, .f32⟩ : BufTy).Contents (Elt F)),
    unary main_v199 main_v200 (broadcastInDim S160000x1 ![0, 1] bcast_S1x1_S160000x1_0_1 : (⟨S1x1, .f32⟩ : BufTy).Contents (Elt F) → (⟨S160000x1, .f32⟩ : BufTy).Contents (Elt F)),
    binary main_v196 main_v200 main_v201 (addf : (⟨S160000x1, .f32⟩ : BufTy).Contents (Elt F) → (⟨S160000x1, .f32⟩ : BufTy).Contents (Elt F) → (⟨S160000x1, .f32⟩ : BufTy).Contents (Elt F)),
    unary main_v201 main_v202 (Host.negf : (⟨S160000x1, .f32⟩ : BufTy).Contents (Elt F) → (⟨S160000x1, .f32⟩ : BufTy).Contents (Elt F)),
    unary main_v202 main_v203 (Host.exp : (⟨S160000x1, .f32⟩ : BufTy).Contents (Elt F) → (⟨S160000x1, .f32⟩ : BufTy).Contents (Elt F)),
    nullary main_cst_25 (constant S_ .f32 0x3F800000#32),
    unary main_cst_25 main_v204 (broadcastInDim S160000x1 ![] bcast_S_S160000x1 : (⟨S_, .f32⟩ : BufTy).Contents (Elt F) → (⟨S160000x1, .f32⟩ : BufTy).Contents (Elt F)),
    binary main_v204 main_v203 main_v205 (addf : (⟨S160000x1, .f32⟩ : BufTy).Contents (Elt F) → (⟨S160000x1, .f32⟩ : BufTy).Contents (Elt F) → (⟨S160000x1, .f32⟩ : BufTy).Contents (Elt F)),
    nullary main_cst_26 (constant S_ .f32 0x3F800000#32),
    unary main_cst_26 main_v206 (broadcastInDim S160000x1 ![] bcast_S_S160000x1 : (⟨S_, .f32⟩ : BufTy).Contents (Elt F) → (⟨S160000x1, .f32⟩ : BufTy).Contents (Elt F)),
    binary main_v206 main_v205 main_v207 (Host.divf : (⟨S160000x1, .f32⟩ : BufTy).Contents (Elt F) → (⟨S160000x1, .f32⟩ : BufTy).Contents (Elt F) → (⟨S160000x1, .f32⟩ : BufTy).Contents (Elt F)),
    unary main_v207 main_v208 (broadcastInDim S160000x96 ![0, 1] bcast_S160000x1_S160000x96_0_1 : (⟨S160000x1, .f32⟩ : BufTy).Contents (Elt F) → (⟨S160000x96, .f32⟩ : BufTy).Contents (Elt F)),
    binary main_v193 main_v208 main_v209 (mulf : (⟨S160000x96, .f32⟩ : BufTy).Contents (Elt F) → (⟨S160000x96, .f32⟩ : BufTy).Contents (Elt F) → (⟨S160000x96, .f32⟩ : BufTy).Contents (Elt F)) ]
theorem q12_sub : (q12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem q12_fresh : (q12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of this piece write. -/
abbrev q12_W : List (Ref sig .tc) := [main_v176, main_v177, main_v178, main_v179, main_v180, main_v181, main_v182, main_v183, main_call5_cst, main_call5_v0, main_v184, main_v185, main_v186, main_v187, main_v188, main_v189, main_v190, main_v191, main_v192, main_call6_cst, main_call6_v0, main_v193, main_v194, main_v195, main_v196, main_v197, main_v198, main_v199, main_v200, main_v201, main_v202, main_v203, main_cst_25, main_v204, main_v205, main_cst_26, main_v206, main_v207, main_v208, main_v209]
theorem q12_writes : (q12 : List (HloOp τ sig (Elt F))).Forall fun op => op.writes ⊆ (q12_W.map (Proc.devRef (τ := τ) .tc)).toFinset := by
  simp only [q12, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 253–253 of @main. -/
abbrev q13 : List (HloOp τ sig (Elt F)) :=
  [ nullary main_cst_27 (constant S_ .f32 0x00000000#32) ]
theorem q13_sub : (q13 : List (HloOp τ sig (Elt F))).Forall fun op => op.bufs ⊆ tcRefs τ sig :=
  nullary_bufs_sub ..
theorem q13_fresh : (q13 : List (HloOp τ sig (Elt F))).Forall fun op => op.fresh = ∅ :=
  rfl

/-- The buffers the operations of this piece write. -/
abbrev q13_W : List (Ref sig .tc) := [main_cst_27]
theorem q13_writes : (q13 : List (HloOp τ sig (Elt F))).Forall fun op => op.writes ⊆ (q13_W.map (Proc.devRef (τ := τ) .tc)).toFinset := by
  simp only [q13, List.Forall]; exact (by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- Operations 254–258 of @main. -/
abbrev q14 : List (HloOp τ sig (Elt F)) :=
  [ unary main_cst_27 main_v210 (broadcastInDim S10000x96 ![] bcast_S_S10000x96 : (⟨S_, .f32⟩ : BufTy).Contents (Elt F) → (⟨S10000x96, .f32⟩ : BufTy).Contents (Elt F)),
    unary main_v3 main_v211 (broadcastInDim S160000x1 ![0] bcast_S160000_S160000x1_0 : (⟨S160000, .i32⟩ : BufTy).Contents (Elt F) → (⟨S160000x1, .i32⟩ : BufTy).Contents (Elt F)),
    ternary main_v210 main_v211 main_v209 main_v212 ((fun x i u => Host.scatterAdd scatter_S10000x96_S160000x1_S160000x96_1_0_0_1 x i u) : (⟨S10000x96, .f32⟩ : BufTy).Contents (Elt F) → (⟨S160000x1, .i32⟩ : BufTy).Contents (Elt F) → (⟨S160000x96, .f32⟩ : BufTy).Contents (Elt F) → (⟨S10000x96, .f32⟩ : BufTy).Contents (Elt F)),
    unary main_v41 main_v213 (broadcastInDim S10000x96 ![0, 1] bcast_S10000x1_S10000x96_0_1 : (⟨S10000x1, .f32⟩ : BufTy).Contents (Elt F) → (⟨S10000x96, .f32⟩ : BufTy).Contents (Elt F)),
    binary main_v212 main_v213 main_v214 (Host.divf : (⟨S10000x96, .f32⟩ : BufTy).Contents (Elt F) → (⟨S10000x96, .f32⟩ : BufTy).Contents (Elt F) → (⟨S10000x96, .f32⟩ : BufTy).Contents (Elt F)) ]
theorem q14_sub : (q14 : List (HloOp τ sig (Elt F))).Forall fun op => op.bufs ⊆ tcRefs τ sig :=
  ⟨unary_bufs_sub .., unary_bufs_sub .., ternary_bufs_sub .., unary_bufs_sub .., binary_bufs_sub ..⟩
theorem q14_fresh : (q14 : List (HloOp τ sig (Elt F))).Forall fun op => op.fresh = ∅ :=
  ⟨rfl, rfl, rfl, rfl, rfl⟩

/-- The buffers the operations of this piece write. -/
abbrev q14_W : List (Ref sig .tc) := [main_v210, main_v211, main_v212, main_v213, main_v214]
theorem q14_writes : (q14 : List (HloOp τ sig (Elt F))).Forall fun op => op.writes ⊆ (q14_W.map (Proc.devRef (τ := τ) .tc)).toFinset := by
  simp only [q14, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 259–278 of @main. -/
abbrev q15 : List (HloOp τ sig (Elt F)) :=
  [ nary ![main_v127, main_v146, main_v214] main_v215 (fun u => concatenate S10000x288 1 [⟨S10000x96, u 0⟩, ⟨S10000x96, u 1⟩, ⟨S10000x96, u 2⟩] concatenates_S10000x96_S10000x96_S10000x96_S10000x288_d1),
    unary main_arg17 main_v216 ((extractStridedSlice S1x288x96 ![1, 0, 0] · slices_S3x288x96_S1x288x96_1_0_0) : (⟨S3x288x96, .f32⟩ : BufTy).Contents (Elt F) → (⟨S1x288x96, .f32⟩ : BufTy).Contents (Elt F)),
    reshape main_v216 main_v217 rfl shapeCasts_S1x288x96_S288x96,
    binary main_v215 main_v217 main_v218 ((fun l r => Host.dotGeneral dot_S10000x288_S288x96_S10000x96_1_0_0_1_n_n none l r) : (⟨S10000x288, .f32⟩ : BufTy).Contents (Elt F) → (⟨S288x96, .f32⟩ : BufTy).Contents (Elt F) → (⟨S10000x96, .f32⟩ : BufTy).Contents (Elt F)),
    unary main_arg18 main_v219 ((extractStridedSlice S1x96 ![1, 0] · slices_S3x96_S1x96_1_0) : (⟨S3x96, .f32⟩ : BufTy).Contents (Elt F) → (⟨S1x96, .f32⟩ : BufTy).Contents (Elt F)),
    reshape main_v219 main_v220 rfl shapeCasts_S1x96_S96,
    unary main_v220 main_v221 (broadcastInDim S1x96 ![1] bcast_S96_S1x96_1 : (⟨S96, .f32⟩ : BufTy).Contents (Elt F) → (⟨S1x96, .f32⟩ : BufTy).Contents (Elt F)),
    unary main_v221 main_v222 (broadcastInDim S10000x96 ![0, 1] bcast_S1x96_S10000x96_0_1 : (⟨S1x96, .f32⟩ : BufTy).Contents (Elt F) → (⟨S10000x96, .f32⟩ : BufTy).Contents (Elt F)),
    binary main_v218 main_v222 main_v223 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S10000x96, .f32⟩) main_call7_v0) (broadcastInDim S10000x96 ![] bcast_S_S10000x96),
    TRef.binary (TRef.of (T := ⟨S10000x96, .f32⟩) main_v223) (TRef.of (T := ⟨S10000x96, .f32⟩) main_call7_v0) (TRef.of (T := ⟨S10000x96, .f32⟩) main_v224) maximumf,
    unary main_arg19 main_v225 ((extractStridedSlice S1x96x96 ![1, 0, 0] · slices_S3x96x96_S1x96x96_1_0_0) : (⟨S3x96x96, .f32⟩ : BufTy).Contents (Elt F) → (⟨S1x96x96, .f32⟩ : BufTy).Contents (Elt F)),
    reshape main_v225 main_v226 rfl shapeCasts_S1x96x96_S96x96,
    binary main_v224 main_v226 main_v227 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg20 main_v228 ((extractStridedSlice S1x96 ![1, 0] · slices_S3x96_S1x96_1_0) : (⟨S3x96, .f32⟩ : BufTy).Contents (Elt F) → (⟨S1x96, .f32⟩ : BufTy).Contents (Elt F)),
    reshape main_v228 main_v229 rfl shapeCasts_S1x96_S96,
    unary main_v229 main_v230 (broadcastInDim S1x96 ![1] bcast_S96_S1x96_1 : (⟨S96, .f32⟩ : BufTy).Contents (Elt F) → (⟨S1x96, .f32⟩ : BufTy).Contents (Elt F)),
    unary main_v230 main_v231 (broadcastInDim S10000x96 ![0, 1] bcast_S1x96_S10000x96_0_1 : (⟨S1x96, .f32⟩ : BufTy).Contents (Elt F) → (⟨S10000x96, .f32⟩ : BufTy).Contents (Elt F)),
    binary main_v227 main_v231 main_v232 (addf : (⟨S10000x96, .f32⟩ : BufTy).Contents (Elt F) → (⟨S10000x96, .f32⟩ : BufTy).Contents (Elt F) → (⟨S10000x96, .f32⟩ : BufTy).Contents (Elt F)) ]
theorem q15_sub : (q15 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q15_fresh : (q15 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers the operations of this piece write. -/
abbrev q15_W : List (Ref sig .tc) := [main_v215, main_v216, main_v217, main_v218, main_v219, main_v220, main_v221, main_v222, main_v223, main_call7_cst, main_call7_v0, main_v224, main_v225, main_v226, main_v227, main_v228, main_v229, main_v230, main_v231, main_v232]
theorem q15_writes : (q15 : List (HloOp τ sig (Elt F))).Forall fun op => op.writes ⊆ (q15_W.map (Proc.devRef (τ := τ) .tc)).toFinset := by
  simp only [q15, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 279–299 of @main. -/
abbrev q16 : List (HloOp τ sig (Elt F)) :=
  [ unary main_v214 main_v233 ((extractStridedSlice S10000x48 ![0, 0] · slices_S10000x96_S10000x48_0_0) : (⟨S10000x96, .f32⟩ : BufTy).Contents (Elt F) → (⟨S10000x48, .f32⟩ : BufTy).Contents (Elt F)),
    binary main_v146 main_v233 main_v234 ((fun a b => concatenate S10000x144 1 [⟨S10000x96, a⟩, ⟨S10000x48, b⟩] concatenates_S10000x96_S10000x48_S10000x144_d1) : (⟨S10000x96, .f32⟩ : BufTy).Contents (Elt F) → (⟨S10000x48, .f32⟩ : BufTy).Contents (Elt F) → (⟨S10000x144, .f32⟩ : BufTy).Contents (Elt F)),
    unary main_arg21 main_v235 ((extractStridedSlice S1x144x96 ![1, 0, 0] · slices_S3x144x96_S1x144x96_1_0_0) : (⟨S3x144x96, .f32⟩ : BufTy).Contents (Elt F) → (⟨S1x144x96, .f32⟩ : BufTy).Contents (Elt F)),
    reshape main_v235 main_v236 rfl shapeCasts_S1x144x96_S144x96,
    binary main_v234 main_v236 main_v237 ((fun l r => Host.dotGeneral dot_S10000x144_S144x96_S10000x96_1_0_0_1_n_n none l r) : (⟨S10000x144, .f32⟩ : BufTy).Contents (Elt F) → (⟨S144x96, .f32⟩ : BufTy).Contents (Elt F) → (⟨S10000x96, .f32⟩ : BufTy).Contents (Elt F)),
    unary main_arg22 main_v238 ((extractStridedSlice S1x96 ![1, 0] · slices_S3x96_S1x96_1_0) : (⟨S3x96, .f32⟩ : BufTy).Contents (Elt F) → (⟨S1x96, .f32⟩ : BufTy).Contents (Elt F)),
    reshape main_v238 main_v239 rfl shapeCasts_S1x96_S96,
    unary main_v239 main_v240 (broadcastInDim S1x96 ![1] bcast_S96_S1x96_1 : (⟨S96, .f32⟩ : BufTy).Contents (Elt F) → (⟨S1x96, .f32⟩ : BufTy).Contents (Elt F)),
    unary main_v240 main_v241 (broadcastInDim S10000x96 ![0, 1] bcast_S1x96_S10000x96_0_1 : (⟨S1x96, .f32⟩ : BufTy).Contents (Elt F) → (⟨S10000x96, .f32⟩ : BufTy).Contents (Elt F)),
    binary main_v237 main_v241 main_v242 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S10000x96, .f32⟩) main_call8_v0) (broadcastInDim S10000x96 ![] bcast_S_S10000x96),
    TRef.binary (TRef.of (T := ⟨S10000x96, .f32⟩) main_v242) (TRef.of (T := ⟨S10000x96, .f32⟩) main_call8_v0) (TRef.of (T := ⟨S10000x96, .f32⟩) main_v243) maximumf,
    unary main_arg23 main_v244 ((extractStridedSlice S1x96x96 ![1, 0, 0] · slices_S3x96x96_S1x96x96_1_0_0) : (⟨S3x96x96, .f32⟩ : BufTy).Contents (Elt F) → (⟨S1x96x96, .f32⟩ : BufTy).Contents (Elt F)),
    reshape main_v244 main_v245 rfl shapeCasts_S1x96x96_S96x96,
    binary main_v243 main_v245 main_v246 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg24 main_v247 ((extractStridedSlice S1x96 ![1, 0] · slices_S3x96_S1x96_1_0) : (⟨S3x96, .f32⟩ : BufTy).Contents (Elt F) → (⟨S1x96, .f32⟩ : BufTy).Contents (Elt F)),
    reshape main_v247 main_v248 rfl shapeCasts_S1x96_S96,
    unary main_v248 main_v249 (broadcastInDim S1x96 ![1] bcast_S96_S1x96_1 : (⟨S96, .f32⟩ : BufTy).Contents (Elt F) → (⟨S1x96, .f32⟩ : BufTy).Contents (Elt F)),
    unary main_v249 main_v250 (broadcastInDim S10000x96 ![0, 1] bcast_S1x96_S10000x96_0_1 : (⟨S1x96, .f32⟩ : BufTy).Contents (Elt F) → (⟨S10000x96, .f32⟩ : BufTy).Contents (Elt F)),
    binary main_v246 main_v250 main_v251 (addf : (⟨S10000x96, .f32⟩ : BufTy).Contents (Elt F) → (⟨S10000x96, .f32⟩ : BufTy).Contents (Elt F) → (⟨S10000x96, .f32⟩ : BufTy).Contents (Elt F)) ]
theorem q16_sub : (q16 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q16_fresh : (q16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the operations of this piece write. -/
abbrev q16_W : List (Ref sig .tc) := [main_v233, main_v234, main_v235, main_v236, main_v237, main_v238, main_v239, main_v240, main_v241, main_v242, main_call8_cst, main_call8_v0, main_v243, main_v244, main_v245, main_v246, main_v247, main_v248, main_v249, main_v250, main_v251]
theorem q16_writes : (q16 : List (HloOp τ sig (Elt F))).Forall fun op => op.writes ⊆ (q16_W.map (Proc.devRef (τ := τ) .tc)).toFinset := by
  simp only [q16, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 300–317 of @main. -/
abbrev q17 : List (HloOp τ sig (Elt F)) :=
  [ nullary main_c_28 (constantI S_ 32 0#32),
    unary main_c_28 main_v252 (broadcastInDim S160000 ![] bcast_S_S160000 : (⟨S_, .i32⟩ : BufTy).Contents (Elt F) → (⟨S160000, .i32⟩ : BufTy).Contents (Elt F)),
    binary main_v3 main_v252 main_v253 (cmpi .slt : (⟨S160000, .i32⟩ : BufTy).Contents (Elt F) → (⟨S160000, .i32⟩ : BufTy).Contents (Elt F) → (⟨S160000, .i1⟩ : BufTy).Contents (Elt F)),
    nullary main_c_29 (constantI S_ 32 10000#32),
    unary main_c_29 main_v254 (broadcastInDim S160000 ![] bcast_S_S160000 : (⟨S_, .i32⟩ : BufTy).Contents (Elt F) → (⟨S160000, .i32⟩ : BufTy).Contents (Elt F)),
    binary main_v3 main_v254 main_v255 (addi : (⟨S160000, .i32⟩ : BufTy).Contents (Elt F) → (⟨S160000, .i32⟩ : BufTy).Contents (Elt F) → (⟨S160000, .i32⟩ : BufTy).Contents (Elt F)),
    ternary main_v253 main_v255 main_v3 main_v256 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v256 main_v257 (broadcastInDim S160000x1 ![0] bcast_S160000_S160000x1_0 : (⟨S160000, .i32⟩ : BufTy).Contents (Elt F) → (⟨S160000x1, .i32⟩ : BufTy).Contents (Elt F)),
    binary main_v232 main_v257 main_v258 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_30 (constantI S_ 32 0#32),
    unary main_c_30 main_v259 (broadcastInDim S160000 ![] bcast_S_S160000 : (⟨S_, .i32⟩ : BufTy).Contents (Elt F) → (⟨S160000, .i32⟩ : BufTy).Contents (Elt F)),
    binary main_v1 main_v259 main_v260 (cmpi .slt : (⟨S160000, .i32⟩ : BufTy).Contents (Elt F) → (⟨S160000, .i32⟩ : BufTy).Contents (Elt F) → (⟨S160000, .i1⟩ : BufTy).Contents (Elt F)),
    nullary main_c_31 (constantI S_ 32 10000#32),
    unary main_c_31 main_v261 (broadcastInDim S160000 ![] bcast_S_S160000 : (⟨S_, .i32⟩ : BufTy).Contents (Elt F) → (⟨S160000, .i32⟩ : BufTy).Contents (Elt F)),
    binary main_v1 main_v261 main_v262 (addi : (⟨S160000, .i32⟩ : BufTy).Contents (Elt F) → (⟨S160000, .i32⟩ : BufTy).Contents (Elt F) → (⟨S160000, .i32⟩ : BufTy).Contents (Elt F)),
    ternary main_v260 main_v262 main_v1 main_v263 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v263 main_v264 (broadcastInDim S160000x1 ![0] bcast_S160000_S160000x1_0 : (⟨S160000, .i32⟩ : BufTy).Contents (Elt F) → (⟨S160000x1, .i32⟩ : BufTy).Contents (Elt F)),
    binary main_v232 main_v264 main_v265 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)) ]
theorem q17_sub : (q17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem q17_fresh : (q17 : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers the operations of this piece write. -/
abbrev q17_W : List (Ref sig .tc) := [main_c_28, main_v252, main_v253, main_c_29, main_v254, main_v255, main_v256, main_v257, main_v258, main_c_30, main_v259, main_v260, main_c_31, main_v261, main_v262, main_v263, main_v264, main_v265]
theorem q17_writes : (q17 : List (HloOp τ sig (Elt F))).Forall fun op => op.writes ⊆ (q17_W.map (Proc.devRef (τ := τ) .tc)).toFinset := by
  simp only [q17, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 318–336 of @main. -/
abbrev q18 : List (HloOp τ sig (Elt F)) :=
  [ nullary main_c_32 (constantI S_ 32 0#32),
    unary main_c_32 main_v266 (broadcastInDim S160000 ![] bcast_S_S160000 : (⟨S_, .i32⟩ : BufTy).Contents (Elt F) → (⟨S160000, .i32⟩ : BufTy).Contents (Elt F)),
    binary main_v3 main_v266 main_v267 (cmpi .slt : (⟨S160000, .i32⟩ : BufTy).Contents (Elt F) → (⟨S160000, .i32⟩ : BufTy).Contents (Elt F) → (⟨S160000, .i1⟩ : BufTy).Contents (Elt F)),
    nullary main_c_33 (constantI S_ 32 10000#32),
    unary main_c_33 main_v268 (broadcastInDim S160000 ![] bcast_S_S160000 : (⟨S_, .i32⟩ : BufTy).Contents (Elt F) → (⟨S160000, .i32⟩ : BufTy).Contents (Elt F)),
    binary main_v3 main_v268 main_v269 (addi : (⟨S160000, .i32⟩ : BufTy).Contents (Elt F) → (⟨S160000, .i32⟩ : BufTy).Contents (Elt F) → (⟨S160000, .i32⟩ : BufTy).Contents (Elt F)),
    ternary main_v267 main_v269 main_v3 main_v270 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v270 main_v271 (broadcastInDim S160000x1 ![0] bcast_S160000_S160000x1_0 : (⟨S160000, .i32⟩ : BufTy).Contents (Elt F) → (⟨S160000x1, .i32⟩ : BufTy).Contents (Elt F)),
    binary main_v251 main_v271 main_v272 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_34 (constantI S_ 32 0#32),
    unary main_c_34 main_v273 (broadcastInDim S160000 ![] bcast_S_S160000 : (⟨S_, .i32⟩ : BufTy).Contents (Elt F) → (⟨S160000, .i32⟩ : BufTy).Contents (Elt F)),
    binary main_v1 main_v273 main_v274 (cmpi .slt : (⟨S160000, .i32⟩ : BufTy).Contents (Elt F) → (⟨S160000, .i32⟩ : BufTy).Contents (Elt F) → (⟨S160000, .i1⟩ : BufTy).Contents (Elt F)),
    nullary main_c_35 (constantI S_ 32 10000#32),
    unary main_c_35 main_v275 (broadcastInDim S160000 ![] bcast_S_S160000 : (⟨S_, .i32⟩ : BufTy).Contents (Elt F) → (⟨S160000, .i32⟩ : BufTy).Contents (Elt F)),
    binary main_v1 main_v275 main_v276 (addi : (⟨S160000, .i32⟩ : BufTy).Contents (Elt F) → (⟨S160000, .i32⟩ : BufTy).Contents (Elt F) → (⟨S160000, .i32⟩ : BufTy).Contents (Elt F)),
    ternary main_v274 main_v276 main_v1 main_v277 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v277 main_v278 (broadcastInDim S160000x1 ![0] bcast_S160000_S160000x1_0 : (⟨S160000, .i32⟩ : BufTy).Contents (Elt F) → (⟨S160000x1, .i32⟩ : BufTy).Contents (Elt F)),
    binary main_v251 main_v278 main_v279 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nary ![main_v258, main_v265, main_v272, main_v279, main_v22] main_v280 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q18_sub : (q18 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩
theorem q18_fresh : (q18 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the operations of this piece write. -/
abbrev q18_W : List (Ref sig .tc) := [main_c_32, main_v266, main_v267, main_c_33, main_v268, main_v269, main_v270, main_v271, main_v272, main_c_34, main_v273, main_v274, main_c_35, main_v275, main_v276, main_v277, main_v278, main_v279, main_v280]
theorem q18_writes : (q18 : List (HloOp τ sig (Elt F))).Forall fun op => op.writes ⊆ (q18_W.map (Proc.devRef (τ := τ) .tc)).toFinset := by
  simp only [q18, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 337–376 of @main. -/
abbrev q19 : List (HloOp τ sig (Elt F)) :=
  [ unary main_arg11 main_v281 ((extractStridedSlice S1x385x96 ![2, 0, 0] · slices_S3x385x96_S1x385x96_2_0_0) : (⟨S3x385x96, .f32⟩ : BufTy).Contents (Elt F) → (⟨S1x385x96, .f32⟩ : BufTy).Contents (Elt F)),
    reshape main_v281 main_v282 rfl shapeCasts_S1x385x96_S385x96,
    binary main_v280 main_v282 main_v283 ((fun l r => Host.dotGeneral dot_S160000x385_S385x96_S160000x96_1_0_0_1_n_n none l r) : (⟨S160000x385, .f32⟩ : BufTy).Contents (Elt F) → (⟨S385x96, .f32⟩ : BufTy).Contents (Elt F) → (⟨S160000x96, .f32⟩ : BufTy).Contents (Elt F)),
    unary main_arg12 main_v284 ((extractStridedSlice S1x96 ![2, 0] · slices_S3x96_S1x96_2_0) : (⟨S3x96, .f32⟩ : BufTy).Contents (Elt F) → (⟨S1x96, .f32⟩ : BufTy).Contents (Elt F)),
    reshape main_v284 main_v285 rfl shapeCasts_S1x96_S96,
    unary main_v285 main_v286 (broadcastInDim S1x96 ![1] bcast_S96_S1x96_1 : (⟨S96, .f32⟩ : BufTy).Contents (Elt F) → (⟨S1x96, .f32⟩ : BufTy).Contents (Elt F)),
    unary main_v286 main_v287 (broadcastInDim S160000x96 ![0, 1] bcast_S1x96_S160000x96_0_1 : (⟨S1x96, .f32⟩ : BufTy).Contents (Elt F) → (⟨S160000x96, .f32⟩ : BufTy).Contents (Elt F)),
    binary main_v283 main_v287 main_v288 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S160000x96, .f32⟩) main_call9_v0) (broadcastInDim S160000x96 ![] bcast_S_S160000x96),
    TRef.binary (TRef.of (T := ⟨S160000x96, .f32⟩) main_v288) (TRef.of (T := ⟨S160000x96, .f32⟩) main_call9_v0) (TRef.of (T := ⟨S160000x96, .f32⟩) main_v289) maximumf,
    unary main_arg13 main_v290 ((extractStridedSlice S1x96x96 ![2, 0, 0] · slices_S3x96x96_S1x96x96_2_0_0) : (⟨S3x96x96, .f32⟩ : BufTy).Contents (Elt F) → (⟨S1x96x96, .f32⟩ : BufTy).Contents (Elt F)),
    reshape main_v290 main_v291 rfl shapeCasts_S1x96x96_S96x96,
    binary main_v289 main_v291 main_v292 ((fun l r => Host.dotGeneral dot_S160000x96_S96x96_S160000x96_1_0_0_1_n_n none l r) : (⟨S160000x96, .f32⟩ : BufTy).Contents (Elt F) → (⟨S96x96, .f32⟩ : BufTy).Contents (Elt F) → (⟨S160000x96, .f32⟩ : BufTy).Contents (Elt F)),
    unary main_arg14 main_v293 ((extractStridedSlice S1x96 ![2, 0] · slices_S3x96_S1x96_2_0) : (⟨S3x96, .f32⟩ : BufTy).Contents (Elt F) → (⟨S1x96, .f32⟩ : BufTy).Contents (Elt F)),
    reshape main_v293 main_v294 rfl shapeCasts_S1x96_S96,
    unary main_v294 main_v295 (broadcastInDim S1x96 ![1] bcast_S96_S1x96_1 : (⟨S96, .f32⟩ : BufTy).Contents (Elt F) → (⟨S1x96, .f32⟩ : BufTy).Contents (Elt F)),
    unary main_v295 main_v296 (broadcastInDim S160000x96 ![0, 1] bcast_S1x96_S160000x96_0_1 : (⟨S1x96, .f32⟩ : BufTy).Contents (Elt F) → (⟨S160000x96, .f32⟩ : BufTy).Contents (Elt F)),
    binary main_v292 main_v296 main_v297 (addf : (⟨S160000x96, .f32⟩ : BufTy).Contents (Elt F) → (⟨S160000x96, .f32⟩ : BufTy).Contents (Elt F) → (⟨S160000x96, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S160000x96, .f32⟩) main_call10_v0) (broadcastInDim S160000x96 ![] bcast_S_S160000x96),
    TRef.binary (TRef.of (T := ⟨S160000x96, .f32⟩) main_v297) (TRef.of (T := ⟨S160000x96, .f32⟩) main_call10_v0) (TRef.of (T := ⟨S160000x96, .f32⟩) main_v298) maximumf,
    unary main_arg15 main_v299 ((extractStridedSlice S1x96x1 ![2, 0, 0] · slices_S3x96x1_S1x96x1_2_0_0) : (⟨S3x96x1, .f32⟩ : BufTy).Contents (Elt F) → (⟨S1x96x1, .f32⟩ : BufTy).Contents (Elt F)),
    reshape main_v299 main_v300 rfl shapeCasts_S1x96x1_S96x1,
    binary main_v298 main_v300 main_v301 ((fun l r => Host.dotGeneral dot_S160000x96_S96x1_S160000x1_1_0_0_1_n_n none l r) : (⟨S160000x96, .f32⟩ : BufTy).Contents (Elt F) → (⟨S96x1, .f32⟩ : BufTy).Contents (Elt F) → (⟨S160000x1, .f32⟩ : BufTy).Contents (Elt F)),
    unary main_arg16 main_v302 ((extractStridedSlice S1x1 ![2, 0] · slices_S3x1_S1x1_2_0) : (⟨S3x1, .f32⟩ : BufTy).Contents (Elt F) → (⟨S1x1, .f32⟩ : BufTy).Contents (Elt F)),
    reshape main_v302 main_v303 rfl shapeCasts_S1x1_S1,
    unary main_v303 main_v304 (broadcastInDim S1x1 ![1] bcast_S1_S1x1_1 : (⟨S1, .f32⟩ : BufTy).Contents (Elt F) → (⟨S1x1, .f32⟩ : BufTy).Contents (Elt F)),
    unary main_v304 main_v305 (broadcastInDim S160000x1 ![0, 1] bcast_S1x1_S160000x1_0_1 : (⟨S1x1, .f32⟩ : BufTy).Contents (Elt F) → (⟨S160000x1, .f32⟩ : BufTy).Contents (Elt F)),
    binary main_v301 main_v305 main_v306 (addf : (⟨S160000x1, .f32⟩ : BufTy).Contents (Elt F) → (⟨S160000x1, .f32⟩ : BufTy).Contents (Elt F) → (⟨S160000x1, .f32⟩ : BufTy).Contents (Elt F)),
    unary main_v306 main_v307 (Host.negf : (⟨S160000x1, .f32⟩ : BufTy).Contents (Elt F) → (⟨S160000x1, .f32⟩ : BufTy).Contents (Elt F)),
    unary main_v307 main_v308 (Host.exp : (⟨S160000x1, .f32⟩ : BufTy).Contents (Elt F) → (⟨S160000x1, .f32⟩ : BufTy).Contents (Elt F)),
    nullary main_cst_36 (constant S_ .f32 0x3F800000#32),
    unary main_cst_36 main_v309 (broadcastInDim S160000x1 ![] bcast_S_S160000x1 : (⟨S_, .f32⟩ : BufTy).Contents (Elt F) → (⟨S160000x1, .f32⟩ : BufTy).Contents (Elt F)),
    binary main_v309 main_v308 main_v310 (addf : (⟨S160000x1, .f32⟩ : BufTy).Contents (Elt F) → (⟨S160000x1, .f32⟩ : BufTy).Contents (Elt F) → (⟨S160000x1, .f32⟩ : BufTy).Contents (Elt F)),
    nullary main_cst_37 (constant S_ .f32 0x3F800000#32),
    unary main_cst_37 main_v311 (broadcastInDim S160000x1 ![] bcast_S_S160000x1 : (⟨S_, .f32⟩ : BufTy).Contents (Elt F) → (⟨S160000x1, .f32⟩ : BufTy).Contents (Elt F)),
    binary main_v311 main_v310 main_v312 (Host.divf : (⟨S160000x1, .f32⟩ : BufTy).Contents (Elt F) → (⟨S160000x1, .f32⟩ : BufTy).Contents (Elt F) → (⟨S160000x1, .f32⟩ : BufTy).Contents (Elt F)),
    unary main_v312 main_v313 (broadcastInDim S160000x96 ![0, 1] bcast_S160000x1_S160000x96_0_1 : (⟨S160000x1, .f32⟩ : BufTy).Contents (Elt F) → (⟨S160000x96, .f32⟩ : BufTy).Contents (Elt F)),
    binary main_v298 main_v313 main_v314 (mulf : (⟨S160000x96, .f32⟩ : BufTy).Contents (Elt F) → (⟨S160000x96, .f32⟩ : BufTy).Contents (Elt F) → (⟨S160000x96, .f32⟩ : BufTy).Contents (Elt F)) ]
theorem q19_sub : (q19 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem q19_fresh : (q19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of this piece write. -/
abbrev q19_W : List (Ref sig .tc) := [main_v281, main_v282, main_v283, main_v284, main_v285, main_v286, main_v287, main_v288, main_call9_cst, main_call9_v0, main_v289, main_v290, main_v291, main_v292, main_v293, main_v294, main_v295, main_v296, main_v297, main_call10_cst, main_call10_v0, main_v298, main_v299, main_v300, main_v301, main_v302, main_v303, main_v304, main_v305, main_v306, main_v307, main_v308, main_cst_36, main_v309, main_v310, main_cst_37, main_v311, main_v312, main_v313, main_v314]
theorem q19_writes : (q19 : List (HloOp τ sig (Elt F))).Forall fun op => op.writes ⊆ (q19_W.map (Proc.devRef (τ := τ) .tc)).toFinset := by
  simp only [q19, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 377–381 of @main. -/
abbrev q20 : List (HloOp τ sig (Elt F)) :=
  [ nullary main_cst_38 (constant S_ .f32 0x00000000#32),
    unary main_cst_38 main_v315 (broadcastInDim S10000x96 ![] bcast_S_S10000x96 : (⟨S_, .f32⟩ : BufTy).Contents (Elt F) → (⟨S10000x96, .f32⟩ : BufTy).Contents (Elt F)),
    unary main_v3 main_v316 (broadcastInDim S160000x1 ![0] bcast_S160000_S160000x1_0 : (⟨S160000, .i32⟩ : BufTy).Contents (Elt F) → (⟨S160000x1, .i32⟩ : BufTy).Contents (Elt F)),
    ternary main_v315 main_v316 main_v314 main_v317 ((fun x i u => Host.scatterAdd scatter_S10000x96_S160000x1_S160000x96_1_0_0_1 x i u) : (⟨S10000x96, .f32⟩ : BufTy).Contents (Elt F) → (⟨S160000x1, .i32⟩ : BufTy).Contents (Elt F) → (⟨S160000x96, .f32⟩ : BufTy).Contents (Elt F) → (⟨S10000x96, .f32⟩ : BufTy).Contents (Elt F)),
    unary main_v41 main_v318 (broadcastInDim S10000x96 ![0, 1] bcast_S10000x1_S10000x96_0_1 : (⟨S10000x1, .f32⟩ : BufTy).Contents (Elt F) → (⟨S10000x96, .f32⟩ : BufTy).Contents (Elt F)) ]
theorem q20_sub : (q20 : List (HloOp τ sig (Elt F))).Forall fun op => op.bufs ⊆ tcRefs τ sig :=
  ⟨nullary_bufs_sub .., unary_bufs_sub .., unary_bufs_sub .., ternary_bufs_sub .., unary_bufs_sub ..⟩
theorem q20_fresh : (q20 : List (HloOp τ sig (Elt F))).Forall fun op => op.fresh = ∅ :=
  ⟨rfl, rfl, rfl, rfl, rfl⟩

/-- The buffers the operations of this piece write. -/
abbrev q20_W : List (Ref sig .tc) := [main_cst_38, main_v315, main_v316, main_v317, main_v318]
theorem q20_writes : (q20 : List (HloOp τ sig (Elt F))).Forall fun op => op.writes ⊆ (q20_W.map (Proc.devRef (τ := τ) .tc)).toFinset := by
  simp only [q20, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 382–382 of @main. -/
abbrev q21 : List (HloOp τ sig (Elt F)) :=
  [ binary main_v317 main_v318 main_v319 (Host.divf : (⟨S10000x96, .f32⟩ : BufTy).Contents (Elt F) → (⟨S10000x96, .f32⟩ : BufTy).Contents (Elt F) → (⟨S10000x96, .f32⟩ : BufTy).Contents (Elt F)) ]
theorem q21_sub : (q21 : List (HloOp τ sig (Elt F))).Forall fun op => op.bufs ⊆ tcRefs τ sig :=
  binary_bufs_sub ..
theorem q21_fresh : (q21 : List (HloOp τ sig (Elt F))).Forall fun op => op.fresh = ∅ :=
  rfl

/-- The buffers the operations of this piece write. -/
abbrev q21_W : List (Ref sig .tc) := [main_v319]
theorem q21_writes : (q21 : List (HloOp τ sig (Elt F))).Forall fun op => op.writes ⊆ (q21_W.map (Proc.devRef (τ := τ) .tc)).toFinset := by
  simp only [q21, List.Forall]; exact (by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide))

/-- Operations 383–402 of @main. -/
abbrev q22 : List (HloOp τ sig (Elt F)) :=
  [ nary ![main_v232, main_v251, main_v319] main_v320 (fun u => concatenate S10000x288 1 [⟨S10000x96, u 0⟩, ⟨S10000x96, u 1⟩, ⟨S10000x96, u 2⟩] concatenates_S10000x96_S10000x96_S10000x96_S10000x288_d1),
    unary main_arg17 main_v321 ((extractStridedSlice S1x288x96 ![2, 0, 0] · slices_S3x288x96_S1x288x96_2_0_0) : (⟨S3x288x96, .f32⟩ : BufTy).Contents (Elt F) → (⟨S1x288x96, .f32⟩ : BufTy).Contents (Elt F)),
    reshape main_v321 main_v322 rfl shapeCasts_S1x288x96_S288x96,
    binary main_v320 main_v322 main_v323 ((fun l r => Host.dotGeneral dot_S10000x288_S288x96_S10000x96_1_0_0_1_n_n none l r) : (⟨S10000x288, .f32⟩ : BufTy).Contents (Elt F) → (⟨S288x96, .f32⟩ : BufTy).Contents (Elt F) → (⟨S10000x96, .f32⟩ : BufTy).Contents (Elt F)),
    unary main_arg18 main_v324 ((extractStridedSlice S1x96 ![2, 0] · slices_S3x96_S1x96_2_0) : (⟨S3x96, .f32⟩ : BufTy).Contents (Elt F) → (⟨S1x96, .f32⟩ : BufTy).Contents (Elt F)),
    reshape main_v324 main_v325 rfl shapeCasts_S1x96_S96,
    unary main_v325 main_v326 (broadcastInDim S1x96 ![1] bcast_S96_S1x96_1 : (⟨S96, .f32⟩ : BufTy).Contents (Elt F) → (⟨S1x96, .f32⟩ : BufTy).Contents (Elt F)),
    unary main_v326 main_v327 (broadcastInDim S10000x96 ![0, 1] bcast_S1x96_S10000x96_0_1 : (⟨S1x96, .f32⟩ : BufTy).Contents (Elt F) → (⟨S10000x96, .f32⟩ : BufTy).Contents (Elt F)),
    binary main_v323 main_v327 main_v328 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S10000x96, .f32⟩) main_call11_v0) (broadcastInDim S10000x96 ![] bcast_S_S10000x96),
    TRef.binary (TRef.of (T := ⟨S10000x96, .f32⟩) main_v328) (TRef.of (T := ⟨S10000x96, .f32⟩) main_call11_v0) (TRef.of (T := ⟨S10000x96, .f32⟩) main_v329) maximumf,
    unary main_arg19 main_v330 ((extractStridedSlice S1x96x96 ![2, 0, 0] · slices_S3x96x96_S1x96x96_2_0_0) : (⟨S3x96x96, .f32⟩ : BufTy).Contents (Elt F) → (⟨S1x96x96, .f32⟩ : BufTy).Contents (Elt F)),
    reshape main_v330 main_v331 rfl shapeCasts_S1x96x96_S96x96,
    binary main_v329 main_v331 main_v332 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg20 main_v333 ((extractStridedSlice S1x96 ![2, 0] · slices_S3x96_S1x96_2_0) : (⟨S3x96, .f32⟩ : BufTy).Contents (Elt F) → (⟨S1x96, .f32⟩ : BufTy).Contents (Elt F)),
    reshape main_v333 main_v334 rfl shapeCasts_S1x96_S96,
    unary main_v334 main_v335 (broadcastInDim S1x96 ![1] bcast_S96_S1x96_1 : (⟨S96, .f32⟩ : BufTy).Contents (Elt F) → (⟨S1x96, .f32⟩ : BufTy).Contents (Elt F)),
    unary main_v335 main_v336 (broadcastInDim S10000x96 ![0, 1] bcast_S1x96_S10000x96_0_1 : (⟨S1x96, .f32⟩ : BufTy).Contents (Elt F) → (⟨S10000x96, .f32⟩ : BufTy).Contents (Elt F)),
    binary main_v332 main_v336 main_v337 (addf : (⟨S10000x96, .f32⟩ : BufTy).Contents (Elt F) → (⟨S10000x96, .f32⟩ : BufTy).Contents (Elt F) → (⟨S10000x96, .f32⟩ : BufTy).Contents (Elt F)) ]
theorem q22_sub : (q22 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q22_fresh : (q22 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

/-- The buffers the operations of this piece write. -/
abbrev q22_W : List (Ref sig .tc) := [main_v320, main_v321, main_v322, main_v323, main_v324, main_v325, main_v326, main_v327, main_v328, main_call11_cst, main_call11_v0, main_v329, main_v330, main_v331, main_v332, main_v333, main_v334, main_v335, main_v336, main_v337]
theorem q22_writes : (q22 : List (HloOp τ sig (Elt F))).Forall fun op => op.writes ⊆ (q22_W.map (Proc.devRef (τ := τ) .tc)).toFinset := by
  simp only [q22, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 403–423 of @main. -/
abbrev q23 : List (HloOp τ sig (Elt F)) :=
  [ unary main_v319 main_v338 ((extractStridedSlice S10000x48 ![0, 0] · slices_S10000x96_S10000x48_0_0) : (⟨S10000x96, .f32⟩ : BufTy).Contents (Elt F) → (⟨S10000x48, .f32⟩ : BufTy).Contents (Elt F)),
    binary main_v251 main_v338 main_v339 ((fun a b => concatenate S10000x144 1 [⟨S10000x96, a⟩, ⟨S10000x48, b⟩] concatenates_S10000x96_S10000x48_S10000x144_d1) : (⟨S10000x96, .f32⟩ : BufTy).Contents (Elt F) → (⟨S10000x48, .f32⟩ : BufTy).Contents (Elt F) → (⟨S10000x144, .f32⟩ : BufTy).Contents (Elt F)),
    unary main_arg21 main_v340 ((extractStridedSlice S1x144x96 ![2, 0, 0] · slices_S3x144x96_S1x144x96_2_0_0) : (⟨S3x144x96, .f32⟩ : BufTy).Contents (Elt F) → (⟨S1x144x96, .f32⟩ : BufTy).Contents (Elt F)),
    reshape main_v340 main_v341 rfl shapeCasts_S1x144x96_S144x96,
    binary main_v339 main_v341 main_v342 ((fun l r => Host.dotGeneral dot_S10000x144_S144x96_S10000x96_1_0_0_1_n_n none l r) : (⟨S10000x144, .f32⟩ : BufTy).Contents (Elt F) → (⟨S144x96, .f32⟩ : BufTy).Contents (Elt F) → (⟨S10000x96, .f32⟩ : BufTy).Contents (Elt F)),
    unary main_arg22 main_v343 ((extractStridedSlice S1x96 ![2, 0] · slices_S3x96_S1x96_2_0) : (⟨S3x96, .f32⟩ : BufTy).Contents (Elt F) → (⟨S1x96, .f32⟩ : BufTy).Contents (Elt F)),
    reshape main_v343 main_v344 rfl shapeCasts_S1x96_S96,
    unary main_v344 main_v345 (broadcastInDim S1x96 ![1] bcast_S96_S1x96_1 : (⟨S96, .f32⟩ : BufTy).Contents (Elt F) → (⟨S1x96, .f32⟩ : BufTy).Contents (Elt F)),
    unary main_v345 main_v346 (broadcastInDim S10000x96 ![0, 1] bcast_S1x96_S10000x96_0_1 : (⟨S1x96, .f32⟩ : BufTy).Contents (Elt F) → (⟨S10000x96, .f32⟩ : BufTy).Contents (Elt F)),
    binary main_v342 main_v346 main_v347 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S10000x96, .f32⟩) main_call12_v0) (broadcastInDim S10000x96 ![] bcast_S_S10000x96),
    TRef.binary (TRef.of (T := ⟨S10000x96, .f32⟩) main_v347) (TRef.of (T := ⟨S10000x96, .f32⟩) main_call12_v0) (TRef.of (T := ⟨S10000x96, .f32⟩) main_v348) maximumf,
    unary main_arg23 main_v349 ((extractStridedSlice S1x96x96 ![2, 0, 0] · slices_S3x96x96_S1x96x96_2_0_0) : (⟨S3x96x96, .f32⟩ : BufTy).Contents (Elt F) → (⟨S1x96x96, .f32⟩ : BufTy).Contents (Elt F)),
    reshape main_v349 main_v350 rfl shapeCasts_S1x96x96_S96x96,
    binary main_v348 main_v350 main_v351 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg24 main_v352 ((extractStridedSlice S1x96 ![2, 0] · slices_S3x96_S1x96_2_0) : (⟨S3x96, .f32⟩ : BufTy).Contents (Elt F) → (⟨S1x96, .f32⟩ : BufTy).Contents (Elt F)),
    reshape main_v352 main_v353 rfl shapeCasts_S1x96_S96,
    unary main_v353 main_v354 (broadcastInDim S1x96 ![1] bcast_S96_S1x96_1 : (⟨S96, .f32⟩ : BufTy).Contents (Elt F) → (⟨S1x96, .f32⟩ : BufTy).Contents (Elt F)),
    unary main_v354 main_v355 (broadcastInDim S10000x96 ![0, 1] bcast_S1x96_S10000x96_0_1 : (⟨S1x96, .f32⟩ : BufTy).Contents (Elt F) → (⟨S10000x96, .f32⟩ : BufTy).Contents (Elt F)),
    binary main_v351 main_v355 main_v356 (addf : (⟨S10000x96, .f32⟩ : BufTy).Contents (Elt F) → (⟨S10000x96, .f32⟩ : BufTy).Contents (Elt F) → (⟨S10000x96, .f32⟩ : BufTy).Contents (Elt F)) ]
theorem q23_sub : (q23 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub ..⟩
theorem q23_fresh : (q23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers the operations of this piece write. -/
abbrev q23_W : List (Ref sig .tc) := [main_v338, main_v339, main_v340, main_v341, main_v342, main_v343, main_v344, main_v345, main_v346, main_v347, main_call12_cst, main_call12_v0, main_v348, main_v349, main_v350, main_v351, main_v352, main_v353, main_v354, main_v355, main_v356]
theorem q23_writes : (q23 : List (HloOp τ sig (Elt F))).Forall fun op => op.writes ⊆ (q23_W.map (Proc.devRef (τ := τ) .tc)).toFinset := by
  simp only [q23, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 424–434 of @main. -/
abbrev q24 : List (HloOp τ sig (Elt F)) :=
  [ binary main_v337 main_arg25 main_v357 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg26 main_v358 (broadcastInDim S1x96 ![1] bcast_S96_S1x96_1 : (⟨S96, .f32⟩ : BufTy).Contents (Elt F) → (⟨S1x96, .f32⟩ : BufTy).Contents (Elt F)),
    unary main_v358 main_v359 (broadcastInDim S10000x96 ![0, 1] bcast_S1x96_S10000x96_0_1 : (⟨S1x96, .f32⟩ : BufTy).Contents (Elt F) → (⟨S10000x96, .f32⟩ : BufTy).Contents (Elt F)),
    binary main_v357 main_v359 main_v360 (addf : (⟨S10000x96, .f32⟩ : BufTy).Contents (Elt F) → (⟨S10000x96, .f32⟩ : BufTy).Contents (Elt F) → (⟨S10000x96, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S10000x96, .f32⟩) main_call13_v0) (broadcastInDim S10000x96 ![] bcast_S_S10000x96),
    TRef.binary (TRef.of (T := ⟨S10000x96, .f32⟩) main_v360) (TRef.of (T := ⟨S10000x96, .f32⟩) main_call13_v0) (TRef.of (T := ⟨S10000x96, .f32⟩) main_v361) maximumf,
    binary main_v361 main_arg27 main_v362 ((fun l r => Host.dotGeneral dot_S10000x96_S96x96_S10000x96_1_0_0_1_n_n none l r) : (⟨S10000x96, .f32⟩ : BufTy).Contents (Elt F) → (⟨S96x96, .f32⟩ : BufTy).Contents (Elt F) → (⟨S10000x96, .f32⟩ : BufTy).Contents (Elt F)),
    unary main_arg28 main_v363 (broadcastInDim S1x96 ![1] bcast_S96_S1x96_1 : (⟨S96, .f32⟩ : BufTy).Contents (Elt F) → (⟨S1x96, .f32⟩ : BufTy).Contents (Elt F)),
    unary main_v363 main_v364 (broadcastInDim S10000x96 ![0, 1] bcast_S1x96_S10000x96_0_1 : (⟨S1x96, .f32⟩ : BufTy).Contents (Elt F) → (⟨S10000x96, .f32⟩ : BufTy).Contents (Elt F)),
    binary main_v362 main_v364 main_v365 (addf : (⟨S10000x96, .f32⟩ : BufTy).Contents (Elt F) → (⟨S10000x96, .f32⟩ : BufTy).Contents (Elt F) → (⟨S10000x96, .f32⟩ : BufTy).Contents (Elt F)) ]
theorem q24_sub : (q24 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem q24_fresh : (q24 : List (HloOp τ sig (Elt F))).Forall fun op => op.fresh = ∅ :=
  ⟨rfl, rfl, rfl, rfl, rfl, rfl, rfl, rfl, rfl, rfl, rfl⟩

/-- The buffers the operations of this piece write. -/
abbrev q24_W : List (Ref sig .tc) := [main_v357, main_v358, main_v359, main_v360, main_call13_cst, main_call13_v0, main_v361, main_v362, main_v363, main_v364, main_v365]
theorem q24_writes : (q24 : List (HloOp τ sig (Elt F))).Forall fun op => op.writes ⊆ (q24_W.map (Proc.devRef (τ := τ) .tc)).toFinset := by
  simp only [q24, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 435–438 of @main. -/
abbrev q25 : List (HloOp τ sig (Elt F)) :=
  [ nullary main_cst_39 (constant S_ .f32 0x00000000#32),
    unary main_cst_39 main_v366 (broadcastInDim S500x96 ![] bcast_S_S500x96 : (⟨S_, .f32⟩ : BufTy).Contents (Elt F) → (⟨S500x96, .f32⟩ : BufTy).Contents (Elt F)),
    unary main_arg4 main_v367 (broadcastInDim S10000x1 ![0] bcast_S10000_S10000x1_0 : (⟨S10000, .i32⟩ : BufTy).Contents (Elt F) → (⟨S10000x1, .i32⟩ : BufTy).Contents (Elt F)),
    ternary main_v366 main_v367 main_v365 main_v368 ((fun x i u => Host.scatterAdd scatter_S500x96_S10000x1_S10000x96_1_0_0_1 x i u) : (⟨S500x96, .f32⟩ : BufTy).Contents (Elt F) → (⟨S10000x1, .i32⟩ : BufTy).Contents (Elt F) → (⟨S10000x96, .f32⟩ : BufTy).Contents (Elt F) → (⟨S500x96, .f32⟩ : BufTy).Contents (Elt F)) ]
theorem q25_sub : (q25 : List (HloOp τ sig (Elt F))).Forall fun op => op.bufs ⊆ tcRefs τ sig :=
  ⟨nullary_bufs_sub .., unary_bufs_sub .., unary_bufs_sub .., ternary_bufs_sub ..⟩
theorem q25_fresh : (q25 : List (HloOp τ sig (Elt F))).Forall fun op => op.fresh = ∅ :=
  ⟨rfl, rfl, rfl, rfl⟩

/-- The buffers the operations of this piece write. -/
abbrev q25_W : List (Ref sig .tc) := [main_cst_39, main_v366, main_v367, main_v368]
theorem q25_writes : (q25 : List (HloOp τ sig (Elt F))).Forall fun op => op.writes ⊆ (q25_W.map (Proc.devRef (τ := τ) .tc)).toFinset := by
  simp only [q25, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Operations 439–449 of @main. -/
abbrev q26 : List (HloOp τ sig (Elt F)) :=
  [ binary main_v368 main_arg29 main_v369 ((fun l r => Host.dotGeneral dot_S500x96_S96x96_S500x96_1_0_0_1_n_n none l r) : (⟨S500x96, .f32⟩ : BufTy).Contents (Elt F) → (⟨S96x96, .f32⟩ : BufTy).Contents (Elt F) → (⟨S500x96, .f32⟩ : BufTy).Contents (Elt F)),
    unary main_arg30 main_v370 (broadcastInDim S1x96 ![1] bcast_S96_S1x96_1 : (⟨S96, .f32⟩ : BufTy).Contents (Elt F) → (⟨S1x96, .f32⟩ : BufTy).Contents (Elt F)),
    unary main_v370 main_v371 (broadcastInDim S500x96 ![0, 1] bcast_S1x96_S500x96_0_1 : (⟨S1x96, .f32⟩ : BufTy).Contents (Elt F) → (⟨S500x96, .f32⟩ : BufTy).Contents (Elt F)),
    binary main_v369 main_v371 main_v372 (addf : (⟨S500x96, .f32⟩ : BufTy).Contents (Elt F) → (⟨S500x96, .f32⟩ : BufTy).Contents (Elt F) → (⟨S500x96, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S500x96, .f32⟩) main_call14_v0) (broadcastInDim S500x96 ![] bcast_S_S500x96),
    TRef.binary (TRef.of (T := ⟨S500x96, .f32⟩) main_v372) (TRef.of (T := ⟨S500x96, .f32⟩) main_call14_v0) (TRef.of (T := ⟨S500x96, .f32⟩) main_v373) maximumf,
    binary main_v373 main_arg31 main_v374 ((fun l r => Host.dotGeneral dot_S500x96_S96x96_S500x96_1_0_0_1_n_n none l r) : (⟨S500x96, .f32⟩ : BufTy).Contents (Elt F) → (⟨S96x96, .f32⟩ : BufTy).Contents (Elt F) → (⟨S500x96, .f32⟩ : BufTy).Contents (Elt F)),
    unary main_arg32 main_v375 (broadcastInDim S1x96 ![1] bcast_S96_S1x96_1 : (⟨S96, .f32⟩ : BufTy).Contents (Elt F) → (⟨S1x96, .f32⟩ : BufTy).Contents (Elt F)),
    unary main_v375 main_v376 (broadcastInDim S500x96 ![0, 1] bcast_S1x96_S500x96_0_1 : (⟨S1x96, .f32⟩ : BufTy).Contents (Elt F) → (⟨S500x96, .f32⟩ : BufTy).Contents (Elt F)),
    binary main_v374 main_v376 main_v377 (addf : (⟨S500x96, .f32⟩ : BufTy).Contents (Elt F) → (⟨S500x96, .f32⟩ : BufTy).Contents (Elt F) → (⟨S500x96, .f32⟩ : BufTy).Contents (Elt F)) ]
theorem q26_sub : (q26 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem q26_fresh : (q26 : List (HloOp τ sig (Elt F))).Forall fun op => op.fresh = ∅ :=
  ⟨rfl, rfl, rfl, rfl, rfl, rfl, rfl, rfl, rfl, rfl, rfl⟩

/-- The buffers the operations of this piece write. -/
abbrev q26_W : List (Ref sig .tc) := [main_v369, main_v370, main_v371, main_v372, main_call14_cst, main_call14_v0, main_v373, main_v374, main_v375, main_v376, main_v377]
theorem q26_writes : (q26 : List (HloOp τ sig (Elt F))).Forall fun op => op.writes ⊆ (q26_W.map (Proc.devRef (τ := τ) .tc)).toFinset := by
  simp only [q26, List.Forall]; exact ⟨by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide), by simp only [TRef.nullary, TRef.unary, TRef.binary, nullary_writes, unary_writes, binary_writes, ternary_writes, quaternary_writes, reshape_writes, binaryIndexed_writes, nary_writes, unaryIndexed_writes, Finset.singleton_subset_iff, List.mem_toFinset]; exact List.mem_map_of_mem (by decide)⟩

/-- Piece 4 without its last operation. -/
abbrev q4i : List (HloOp τ sig (Elt F)) :=
  [ unary main_c_8 main_v49 (broadcastInDim S160000 ![] bcast_S_S160000 : (⟨S_, .i32⟩ : BufTy).Contents (Elt F) → (⟨S160000, .i32⟩ : BufTy).Contents (Elt F)),
    binary main_v1 main_v49 main_v50 (cmpi .slt : (⟨S160000, .i32⟩ : BufTy).Contents (Elt F) → (⟨S160000, .i32⟩ : BufTy).Contents (Elt F) → (⟨S160000, .i1⟩ : BufTy).Contents (Elt F)),
    nullary main_c_9 (constantI S_ 32 10000#32),
    unary main_c_9 main_v51 (broadcastInDim S160000 ![] bcast_S_S160000 : (⟨S_, .i32⟩ : BufTy).Contents (Elt F) → (⟨S160000, .i32⟩ : BufTy).Contents (Elt F)),
    binary main_v1 main_v51 main_v52 (addi : (⟨S160000, .i32⟩ : BufTy).Contents (Elt F) → (⟨S160000, .i32⟩ : BufTy).Contents (Elt F) → (⟨S160000, .i32⟩ : BufTy).Contents (Elt F)),
    ternary main_v50 main_v52 main_v1 main_v53 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v53 main_v54 (broadcastInDim S160000x1 ![0] bcast_S160000_S160000x1_0 : (⟨S160000, .i32⟩ : BufTy).Contents (Elt F) → (⟨S160000x1, .i32⟩ : BufTy).Contents (Elt F)),
    binary main_v31 main_v54 main_v55 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_10 (constantI S_ 32 0#32),
    unary main_c_10 main_v56 (broadcastInDim S160000 ![] bcast_S_S160000 : (⟨S_, .i32⟩ : BufTy).Contents (Elt F) → (⟨S160000, .i32⟩ : BufTy).Contents (Elt F)),
    binary main_v3 main_v56 main_v57 (cmpi .slt : (⟨S160000, .i32⟩ : BufTy).Contents (Elt F) → (⟨S160000, .i32⟩ : BufTy).Contents (Elt F) → (⟨S160000, .i1⟩ : BufTy).Contents (Elt F)),
    nullary main_c_11 (constantI S_ 32 10000#32),
    unary main_c_11 main_v58 (broadcastInDim S160000 ![] bcast_S_S160000 : (⟨S_, .i32⟩ : BufTy).Contents (Elt F) → (⟨S160000, .i32⟩ : BufTy).Contents (Elt F)),
    binary main_v3 main_v58 main_v59 (addi : (⟨S160000, .i32⟩ : BufTy).Contents (Elt F) → (⟨S160000, .i32⟩ : BufTy).Contents (Elt F) → (⟨S160000, .i32⟩ : BufTy).Contents (Elt F)),
    ternary main_v57 main_v59 main_v3 main_v60 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v60 main_v61 (broadcastInDim S160000x1 ![0] bcast_S160000_S160000x1_0 : (⟨S160000, .i32⟩ : BufTy).Contents (Elt F) → (⟨S160000x1, .i32⟩ : BufTy).Contents (Elt F)),
    binary main_v35 main_v61 main_v62 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_12 (constantI S_ 32 0#32),
    unary main_c_12 main_v63 (broadcastInDim S160000 ![] bcast_S_S160000 : (⟨S_, .i32⟩ : BufTy).Contents (Elt F) → (⟨S160000, .i32⟩ : BufTy).Contents (Elt F)),
    binary main_v1 main_v63 main_v64 (cmpi .slt : (⟨S160000, .i32⟩ : BufTy).Contents (Elt F) → (⟨S160000, .i32⟩ : BufTy).Contents (Elt F) → (⟨S160000, .i1⟩ : BufTy).Contents (Elt F)),
    nullary main_c_13 (constantI S_ 32 10000#32),
    unary main_c_13 main_v65 (broadcastInDim S160000 ![] bcast_S_S160000 : (⟨S_, .i32⟩ : BufTy).Contents (Elt F) → (⟨S160000, .i32⟩ : BufTy).Contents (Elt F)),
    binary main_v1 main_v65 main_v66 (addi : (⟨S160000, .i32⟩ : BufTy).Contents (Elt F) → (⟨S160000, .i32⟩ : BufTy).Contents (Elt F) → (⟨S160000, .i32⟩ : BufTy).Contents (Elt F)),
    ternary main_v64 main_v66 main_v1 main_v67 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v67 main_v68 (broadcastInDim S160000x1 ![0] bcast_S160000_S160000x1_0 : (⟨S160000, .i32⟩ : BufTy).Contents (Elt F) → (⟨S160000x1, .i32⟩ : BufTy).Contents (Elt F)),
    binary main_v35 main_v68 main_v69 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)) ]
/-- The last operation of piece 4: the five arrays set side by side. -/
abbrev q4n : List (HloOp τ sig (Elt F)) :=
  [ nary ![main_v48, main_v55, main_v62, main_v69, main_v22] main_v70 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q4_split : (q4 : List (HloOp τ sig (Elt F))) = q4i ++ q4n := rfl

/-- Piece 11 without its last operation. -/
abbrev q11i : List (HloOp τ sig (Elt F)) :=
  [ binary main_v1 main_v156 main_v157 (addi : (⟨S160000, .i32⟩ : BufTy).Contents (Elt F) → (⟨S160000, .i32⟩ : BufTy).Contents (Elt F) → (⟨S160000, .i32⟩ : BufTy).Contents (Elt F)),
    ternary main_v155 main_v157 main_v1 main_v158 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v158 main_v159 (broadcastInDim S160000x1 ![0] bcast_S160000_S160000x1_0 : (⟨S160000, .i32⟩ : BufTy).Contents (Elt F) → (⟨S160000x1, .i32⟩ : BufTy).Contents (Elt F)),
    binary main_v127 main_v159 main_v160 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_21 (constantI S_ 32 0#32),
    unary main_c_21 main_v161 (broadcastInDim S160000 ![] bcast_S_S160000 : (⟨S_, .i32⟩ : BufTy).Contents (Elt F) → (⟨S160000, .i32⟩ : BufTy).Contents (Elt F)),
    binary main_v3 main_v161 main_v162 (cmpi .slt : (⟨S160000, .i32⟩ : BufTy).Contents (Elt F) → (⟨S160000, .i32⟩ : BufTy).Contents (Elt F) → (⟨S160000, .i1⟩ : BufTy).Contents (Elt F)),
    nullary main_c_22 (constantI S_ 32 10000#32),
    unary main_c_22 main_v163 (broadcastInDim S160000 ![] bcast_S_S160000 : (⟨S_, .i32⟩ : BufTy).Contents (Elt F) → (⟨S160000, .i32⟩ : BufTy).Contents (Elt F)),
    binary main_v3 main_v163 main_v164 (addi : (⟨S160000, .i32⟩ : BufTy).Contents (Elt F) → (⟨S160000, .i32⟩ : BufTy).Contents (Elt F) → (⟨S160000, .i32⟩ : BufTy).Contents (Elt F)),
    ternary main_v162 main_v164 main_v3 main_v165 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v165 main_v166 (broadcastInDim S160000x1 ![0] bcast_S160000_S160000x1_0 : (⟨S160000, .i32⟩ : BufTy).Contents (Elt F) → (⟨S160000x1, .i32⟩ : BufTy).Contents (Elt F)),
    binary main_v146 main_v166 main_v167 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_23 (constantI S_ 32 0#32),
    unary main_c_23 main_v168 (broadcastInDim S160000 ![] bcast_S_S160000 : (⟨S_, .i32⟩ : BufTy).Contents (Elt F) → (⟨S160000, .i32⟩ : BufTy).Contents (Elt F)),
    binary main_v1 main_v168 main_v169 (cmpi .slt : (⟨S160000, .i32⟩ : BufTy).Contents (Elt F) → (⟨S160000, .i32⟩ : BufTy).Contents (Elt F) → (⟨S160000, .i1⟩ : BufTy).Contents (Elt F)),
    nullary main_c_24 (constantI S_ 32 10000#32),
    unary main_c_24 main_v170 (broadcastInDim S160000 ![] bcast_S_S160000 : (⟨S_, .i32⟩ : BufTy).Contents (Elt F) → (⟨S160000, .i32⟩ : BufTy).Contents (Elt F)),
    binary main_v1 main_v170 main_v171 (addi : (⟨S160000, .i32⟩ : BufTy).Contents (Elt F) → (⟨S160000, .i32⟩ : BufTy).Contents (Elt F) → (⟨S160000, .i32⟩ : BufTy).Contents (Elt F)),
    ternary main_v169 main_v171 main_v1 main_v172 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v172 main_v173 (broadcastInDim S160000x1 ![0] bcast_S160000_S160000x1_0 : (⟨S160000, .i32⟩ : BufTy).Contents (Elt F) → (⟨S160000x1, .i32⟩ : BufTy).Contents (Elt F)),
    binary main_v146 main_v173 main_v174 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)) ]
/-- The last operation of piece 11: the five arrays set side by side. -/
abbrev q11n : List (HloOp τ sig (Elt F)) :=
  [ nary ![main_v153, main_v160, main_v167, main_v174, main_v22] main_v175 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q11_split : (q11 : List (HloOp τ sig (Elt F))) = q11i ++ q11n := rfl

/-- Piece 18 without its last operation. -/
abbrev q18i : List (HloOp τ sig (Elt F)) :=
  [ nullary main_c_32 (constantI S_ 32 0#32),
    unary main_c_32 main_v266 (broadcastInDim S160000 ![] bcast_S_S160000 : (⟨S_, .i32⟩ : BufTy).Contents (Elt F) → (⟨S160000, .i32⟩ : BufTy).Contents (Elt F)),
    binary main_v3 main_v266 main_v267 (cmpi .slt : (⟨S160000, .i32⟩ : BufTy).Contents (Elt F) → (⟨S160000, .i32⟩ : BufTy).Contents (Elt F) → (⟨S160000, .i1⟩ : BufTy).Contents (Elt F)),
    nullary main_c_33 (constantI S_ 32 10000#32),
    unary main_c_33 main_v268 (broadcastInDim S160000 ![] bcast_S_S160000 : (⟨S_, .i32⟩ : BufTy).Contents (Elt F) → (⟨S160000, .i32⟩ : BufTy).Contents (Elt F)),
    binary main_v3 main_v268 main_v269 (addi : (⟨S160000, .i32⟩ : BufTy).Contents (Elt F) → (⟨S160000, .i32⟩ : BufTy).Contents (Elt F) → (⟨S160000, .i32⟩ : BufTy).Contents (Elt F)),
    ternary main_v267 main_v269 main_v3 main_v270 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v270 main_v271 (broadcastInDim S160000x1 ![0] bcast_S160000_S160000x1_0 : (⟨S160000, .i32⟩ : BufTy).Contents (Elt F) → (⟨S160000x1, .i32⟩ : BufTy).Contents (Elt F)),
    binary main_v251 main_v271 main_v272 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)),
    nullary main_c_34 (constantI S_ 32 0#32),
    unary main_c_34 main_v273 (broadcastInDim S160000 ![] bcast_S_S160000 : (⟨S_, .i32⟩ : BufTy).Contents (Elt F) → (⟨S160000, .i32⟩ : BufTy).Contents (Elt F)),
    binary main_v1 main_v273 main_v274 (cmpi .slt : (⟨S160000, .i32⟩ : BufTy).Contents (Elt F) → (⟨S160000, .i32⟩ : BufTy).Contents (Elt F) → (⟨S160000, .i1⟩ : BufTy).Contents (Elt F)),
    nullary main_c_35 (constantI S_ 32 10000#32),
    unary main_c_35 main_v275 (broadcastInDim S160000 ![] bcast_S_S160000 : (⟨S_, .i32⟩ : BufTy).Contents (Elt F) → (⟨S160000, .i32⟩ : BufTy).Contents (Elt F)),
    binary main_v1 main_v275 main_v276 (addi : (⟨S160000, .i32⟩ : BufTy).Contents (Elt F) → (⟨S160000, .i32⟩ : BufTy).Contents (Elt F) → (⟨S160000, .i32⟩ : BufTy).Contents (Elt F)),
    ternary main_v274 main_v276 main_v1 main_v277 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v277 main_v278 (broadcastInDim S160000x1 ![0] bcast_S160000_S160000x1_0 : (⟨S160000, .i32⟩ : BufTy).Contents (Elt F) → (⟨S160000x1, .i32⟩ : BufTy).Contents (Elt F)),
    binary main_v251 main_v278 main_v279 ((fun x i => Host.gather gather_S10000x96_S160000x1_S160000x96_1_0_n_n_0_1_196 x i) : (⟨S10000x96, .f32⟩ : BufTy).Contents (Elt F) → (⟨S160000x1, .i32⟩ : BufTy).Contents (Elt F) → (⟨S160000x96, .f32⟩ : BufTy).Contents (Elt F)) ]
/-- The last operation of piece 18: the five arrays set side by side. -/
abbrev q18n : List (HloOp τ sig (Elt F)) :=
  [ nary ![main_v258, main_v265, main_v272, main_v279, main_v22] main_v280 (fun u => concatenate S160000x385 1 [⟨S160000x96, u 0⟩, ⟨S160000x96, u 1⟩, ⟨S160000x96, u 2⟩, ⟨S160000x96, u 3⟩, ⟨S160000x1, u 4⟩] concatenates_S160000x96_S160000x96_S160000x96_S160000x96_S160000x1_S160000x385_d1) ]
theorem q18_split : (q18 : List (HloOp τ sig (Elt F))) = q18i ++ q18n := rfl

/-- The operations of part 0 of @main. -/
abbrev part0 : List (HloOp τ sig (Elt F)) := q0 ++ (q1 ++ (q2 ++ (q3)))
/-- The operations of part 1 of @main. -/
abbrev part1 : List (HloOp τ sig (Elt F)) := q4 ++ (q5)
/-- The operations of part 2 of @main. -/
abbrev part2 : List (HloOp τ sig (Elt F)) := q6 ++ (q7 ++ (q8 ++ (q9 ++ (q10))))
/-- The operations of part 3 of @main. -/
abbrev part3 : List (HloOp τ sig (Elt F)) := q11 ++ (q12 ++ (q13))
/-- The operations of part 4 of @main. -/
abbrev part4 : List (HloOp τ sig (Elt F)) := q14 ++ (q15 ++ (q16 ++ (q17)))
/-- The operations of part 5 of @main. -/
abbrev part5 : List (HloOp τ sig (Elt F)) := q18 ++ (q19 ++ (q20))
/-- The operations of part 6 of @main. -/
abbrev part6 : List (HloOp τ sig (Elt F)) := q21 ++ (q22 ++ (q23 ++ (q24 ++ (q25 ++ (q26)))))

/-- Stretch 0 of the line. -/
abbrev ops0 : List (HloOp τ sig (Elt F)) := q0
/-- Stretch 1 of the line. -/
abbrev ops1 : List (HloOp τ sig (Elt F)) := q1
/-- Stretch 2 of the line. -/
abbrev ops2 : List (HloOp τ sig (Elt F)) := q2
/-- Stretch 3 of the line. -/
abbrev ops3 : List (HloOp τ sig (Elt F)) := q3 ++ (q4)
/-- Stretch 4 of the line. -/
abbrev ops4 : List (HloOp τ sig (Elt F)) := q5 ++ (q6)
/-- Stretch 5 of the line. -/
abbrev ops5 : List (HloOp τ sig (Elt F)) := q7
/-- Stretch 6 of the line. -/
abbrev ops6 : List (HloOp τ sig (Elt F)) := q8
/-- Stretch 7 of the line. -/
abbrev ops7 : List (HloOp τ sig (Elt F)) := q9
/-- Stretch 8 of the line. -/
abbrev ops8 : List (HloOp τ sig (Elt F)) := q10 ++ (q11)
/-- Stretch 9 of the line. -/
abbrev ops9 : List (HloOp τ sig (Elt F)) := q12
/-- Stretch 10 of the line. -/
abbrev ops10 : List (HloOp τ sig (Elt F)) := q13 ++ (q14)
/-- Stretch 11 of the line. -/
abbrev ops11 : List (HloOp τ sig (Elt F)) := q15
/-- Stretch 12 of the line. -/
abbrev ops12 : List (HloOp τ sig (Elt F)) := q16
/-- Stretch 13 of the line. -/
abbrev ops13 : List (HloOp τ sig (Elt F)) := q17 ++ (q18)
/-- Stretch 14 of the line. -/
abbrev ops14 : List (HloOp τ sig (Elt F)) := q19
/-- Stretch 15 of the line. -/
abbrev ops15 : List (HloOp τ sig (Elt F)) := q20 ++ (q21)
/-- Stretch 16 of the line. -/
abbrev ops16 : List (HloOp τ sig (Elt F)) := q22
/-- Stretch 17 of the line. -/
abbrev ops17 : List (HloOp τ sig (Elt F)) := q23
/-- Stretch 18 of the line. -/
abbrev ops18 : List (HloOp τ sig (Elt F)) := q24
/-- Stretch 19 of the line. -/
abbrev ops19 : List (HloOp τ sig (Elt F)) := q25
/-- Stretch 20 of the line. -/
abbrev ops20 : List (HloOp τ sig (Elt F)) := q26

/-- @main's 450 operations, in order: the parts one after the other. -/
abbrev ops : List (HloOp τ sig (Elt F)) := part0 ++ (part1 ++ (part2 ++ (part3 ++ (part4 ++ (part5 ++ (part6 ++ ([])))))))

set_option maxRecDepth 8192 in
set_option maxHeartbeats 4000000 in
theorem part0_eq (c : Dev nD) : main_part0 (F := F) c = seq part0 := rfl
set_option maxRecDepth 8192 in
set_option maxHeartbeats 4000000 in
theorem part1_eq (c : Dev nD) : main_part1 (F := F) c = seq part1 := rfl
set_option maxRecDepth 8192 in
set_option maxHeartbeats 4000000 in
theorem part2_eq (c : Dev nD) : main_part2 (F := F) c = seq part2 := rfl
set_option maxRecDepth 8192 in
set_option maxHeartbeats 4000000 in
theorem part3_eq (c : Dev nD) : main_part3 (F := F) c = seq part3 := rfl
set_option maxRecDepth 8192 in
set_option maxHeartbeats 4000000 in
theorem part4_eq (c : Dev nD) : main_part4 (F := F) c = seq part4 := rfl
set_option maxRecDepth 8192 in
set_option maxHeartbeats 4000000 in
theorem part5_eq (c : Dev nD) : main_part5 (F := F) c = seq part5 := rfl
set_option maxRecDepth 8192 in
set_option maxHeartbeats 4000000 in
theorem part6_eq (c : Dev nD) : main_part6 (F := F) c = seq part6 := rfl
theorem part7_eq (c : Dev nD) : main_part7 (F := F) c = seq [] := rfl

/-- @main is the run of the whole line. -/
theorem main_eq (c : Dev nD) : main (F := F) c = seq ops := by
  unfold main
  rw [part0_eq, part1_eq, part2_eq, part3_eq, part4_eq, part5_eq, part6_eq, part7_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (q0_sub) (forall_append (q1_sub) (forall_append (q2_sub) (q3_sub)))) (forall_append (forall_append (q4_sub) (q5_sub)) (forall_append (forall_append (q6_sub) (forall_append (q7_sub) (forall_append (q8_sub) (forall_append (q9_sub) (q10_sub))))) (forall_append (forall_append (q11_sub) (forall_append (q12_sub) (q13_sub))) (forall_append (forall_append (q14_sub) (forall_append (q15_sub) (forall_append (q16_sub) (q17_sub)))) (forall_append (forall_append (q18_sub) (forall_append (q19_sub) (q20_sub))) (forall_append (forall_append (q21_sub) (forall_append (q22_sub) (forall_append (q23_sub) (forall_append (q24_sub) (forall_append (q25_sub) (q26_sub)))))) (trivial)))))))

theorem ops_fresh : ∀ op ∈ (ops : List (HloOp τ sig (Elt F))), op.fresh = ∅ :=
  List.forall_iff_forall_mem.1 (forall_append (forall_append (q0_fresh) (forall_append (q1_fresh) (forall_append (q2_fresh) (q3_fresh)))) (forall_append (forall_append (q4_fresh) (q5_fresh)) (forall_append (forall_append (q6_fresh) (forall_append (q7_fresh) (forall_append (q8_fresh) (forall_append (q9_fresh) (q10_fresh))))) (forall_append (forall_append (q11_fresh) (forall_append (q12_fresh) (q13_fresh))) (forall_append (forall_append (q14_fresh) (forall_append (q15_fresh) (forall_append (q16_fresh) (q17_fresh)))) (forall_append (forall_append (q18_fresh) (forall_append (q19_fresh) (q20_fresh))) (forall_append (forall_append (q21_fresh) (forall_append (q22_fresh) (forall_append (q23_fresh) (forall_append (q24_fresh) (forall_append (q25_fresh) (q26_fresh)))))) (trivial))))))))

/-- Running the whole line is running the stretches one after the other. -/
theorem after_split (V : Valuation τ sig (Elt F)) :
    after ops V = after ops20 (after ops19 (after ops18 (after ops17 (after ops16 (after ops15 (after ops14 (after ops13 (after ops12 (after ops11 (after ops10 (after ops9 (after ops8 (after ops7 (after ops6 (after ops5 (after ops4 (after ops3 (after ops2 (after ops1 (after ops0 (V))))))))))))))))))))) := by
  simp only [ops, part0, part1, part2, part3, part4, part5, part6, ops0, ops1, ops2, ops3, ops4, ops5, ops6, ops7, ops8, ops9, ops10, ops11, ops12, ops13, ops14, ops15, ops16, ops17, ops18, ops19, ops20, after_append, after_nil]

/-- A buffer stretch 0 does not write keeps its contents through it. -/
theorem ops0_keep (V : Valuation τ sig (Elt F)) (r : Ref sig .tc) (h : r ∉ q0_W) :
    after ops0 V (Proc.devRef .tc r) = V (Proc.devRef .tc r) :=
  after_of_writes_sub q0 _ q0_writes h
/-- A buffer stretch 1 does not write keeps its contents through it. -/
theorem ops1_keep (V : Valuation τ sig (Elt F)) (r : Ref sig .tc) (h : r ∉ q1_W) :
    after ops1 V (Proc.devRef .tc r) = V (Proc.devRef .tc r) :=
  after_of_writes_sub q1 _ q1_writes h
/-- A buffer stretch 2 does not write keeps its contents through it. -/
theorem ops2_keep (V : Valuation τ sig (Elt F)) (r : Ref sig .tc) (h : r ∉ q2_W) :
    after ops2 V (Proc.devRef .tc r) = V (Proc.devRef .tc r) :=
  after_of_writes_sub q2 _ q2_writes h
/-- A buffer stretch 3 does not write keeps its contents through it. -/
theorem ops3_keep (V : Valuation τ sig (Elt F)) (r : Ref sig .tc) (h : r ∉ q3_W) (h' : r ∉ q4_W) :
    after ops3 V (Proc.devRef .tc r) = V (Proc.devRef .tc r) := by
  show after (q3 ++ q4) V _ = _
  rw [after_append, after_of_writes_sub q4 _ q4_writes h', after_of_writes_sub q3 _ q3_writes h]
/-- A buffer stretch 4 does not write keeps its contents through it. -/
theorem ops4_keep (V : Valuation τ sig (Elt F)) (r : Ref sig .tc) (h : r ∉ q5_W) (h' : r ∉ q6_W) :
    after ops4 V (Proc.devRef .tc r) = V (Proc.devRef .tc r) := by
  show after (q5 ++ q6) V _ = _
  rw [after_append, after_of_writes_sub q6 _ q6_writes h', after_of_writes_sub q5 _ q5_writes h]
/-- A buffer stretch 5 does not write keeps its contents through it. -/
theorem ops5_keep (V : Valuation τ sig (Elt F)) (r : Ref sig .tc) (h : r ∉ q7_W) :
    after ops5 V (Proc.devRef .tc r) = V (Proc.devRef .tc r) :=
  after_of_writes_sub q7 _ q7_writes h
/-- A buffer stretch 6 does not write keeps its contents through it. -/
theorem ops6_keep (V : Valuation τ sig (Elt F)) (r : Ref sig .tc) (h : r ∉ q8_W) :
    after ops6 V (Proc.devRef .tc r) = V (Proc.devRef .tc r) :=
  after_of_writes_sub q8 _ q8_writes h
/-- A buffer stretch 7 does not write keeps its contents through it. -/
theorem ops7_keep (V : Valuation τ sig (Elt F)) (r : Ref sig .tc) (h : r ∉ q9_W) :
    after ops7 V (Proc.devRef .tc r) = V (Proc.devRef .tc r) :=
  after_of_writes_sub q9 _ q9_writes h
/-- A buffer stretch 8 does not write keeps its contents through it. -/
theorem ops8_keep (V : Valuation τ sig (Elt F)) (r : Ref sig .tc) (h : r ∉ q10_W) (h' : r ∉ q11_W) :
    after ops8 V (Proc.devRef .tc r) = V (Proc.devRef .tc r) := by
  show after (q10 ++ q11) V _ = _
  rw [after_append, after_of_writes_sub q11 _ q11_writes h', after_of_writes_sub q10 _ q10_writes h]
/-- A buffer stretch 9 does not write keeps its contents through it. -/
theorem ops9_keep (V : Valuation τ sig (Elt F)) (r : Ref sig .tc) (h : r ∉ q12_W) :
    after ops9 V (Proc.devRef .tc r) = V (Proc.devRef .tc r) :=
  after_of_writes_sub q12 _ q12_writes h
/-- A buffer stretch 10 does not write keeps its contents through it. -/
theorem ops10_keep (V : Valuation τ sig (Elt F)) (r : Ref sig .tc) (h : r ∉ q13_W) (h' : r ∉ q14_W) :
    after ops10 V (Proc.devRef .tc r) = V (Proc.devRef .tc r) := by
  show after (q13 ++ q14) V _ = _
  rw [after_append, after_of_writes_sub q14 _ q14_writes h', after_of_writes_sub q13 _ q13_writes h]
/-- A buffer stretch 11 does not write keeps its contents through it. -/
theorem ops11_keep (V : Valuation τ sig (Elt F)) (r : Ref sig .tc) (h : r ∉ q15_W) :
    after ops11 V (Proc.devRef .tc r) = V (Proc.devRef .tc r) :=
  after_of_writes_sub q15 _ q15_writes h
/-- A buffer stretch 12 does not write keeps its contents through it. -/
theorem ops12_keep (V : Valuation τ sig (Elt F)) (r : Ref sig .tc) (h : r ∉ q16_W) :
    after ops12 V (Proc.devRef .tc r) = V (Proc.devRef .tc r) :=
  after_of_writes_sub q16 _ q16_writes h
/-- A buffer stretch 13 does not write keeps its contents through it. -/
theorem ops13_keep (V : Valuation τ sig (Elt F)) (r : Ref sig .tc) (h : r ∉ q17_W) (h' : r ∉ q18_W) :
    after ops13 V (Proc.devRef .tc r) = V (Proc.devRef .tc r) := by
  show after (q17 ++ q18) V _ = _
  rw [after_append, after_of_writes_sub q18 _ q18_writes h', after_of_writes_sub q17 _ q17_writes h]
/-- A buffer stretch 14 does not write keeps its contents through it. -/
theorem ops14_keep (V : Valuation τ sig (Elt F)) (r : Ref sig .tc) (h : r ∉ q19_W) :
    after ops14 V (Proc.devRef .tc r) = V (Proc.devRef .tc r) :=
  after_of_writes_sub q19 _ q19_writes h
/-- A buffer stretch 15 does not write keeps its contents through it. -/
theorem ops15_keep (V : Valuation τ sig (Elt F)) (r : Ref sig .tc) (h : r ∉ q20_W) (h' : r ∉ q21_W) :
    after ops15 V (Proc.devRef .tc r) = V (Proc.devRef .tc r) := by
  show after (q20 ++ q21) V _ = _
  rw [after_append, after_of_writes_sub q21 _ q21_writes h', after_of_writes_sub q20 _ q20_writes h]
/-- A buffer stretch 16 does not write keeps its contents through it. -/
theorem ops16_keep (V : Valuation τ sig (Elt F)) (r : Ref sig .tc) (h : r ∉ q22_W) :
    after ops16 V (Proc.devRef .tc r) = V (Proc.devRef .tc r) :=
  after_of_writes_sub q22 _ q22_writes h
/-- A buffer stretch 17 does not write keeps its contents through it. -/
theorem ops17_keep (V : Valuation τ sig (Elt F)) (r : Ref sig .tc) (h : r ∉ q23_W) :
    after ops17 V (Proc.devRef .tc r) = V (Proc.devRef .tc r) :=
  after_of_writes_sub q23 _ q23_writes h
/-- A buffer stretch 18 does not write keeps its contents through it. -/
theorem ops18_keep (V : Valuation τ sig (Elt F)) (r : Ref sig .tc) (h : r ∉ q24_W) :
    after ops18 V (Proc.devRef .tc r) = V (Proc.devRef .tc r) :=
  after_of_writes_sub q24 _ q24_writes h
/-- A buffer stretch 19 does not write keeps its contents through it. -/
theorem ops19_keep (V : Valuation τ sig (Elt F)) (r : Ref sig .tc) (h : r ∉ q25_W) :
    after ops19 V (Proc.devRef .tc r) = V (Proc.devRef .tc r) :=
  after_of_writes_sub q25 _ q25_writes h
/-- A buffer stretch 20 does not write keeps its contents through it. -/
theorem ops20_keep (V : Valuation τ sig (Elt F)) (r : Ref sig .tc) (h : r ∉ q26_W) :
    after ops20 V (Proc.devRef .tc r) = V (Proc.devRef .tc r) :=
  after_of_writes_sub q26 _ q26_writes h

end Cert.ReferenceIdeal.Line

end
-- ==== Proof.RefVals.lean ====
/-
  The reference program's stages, one definition per operation.

  Each definition is the value one operation of the reference's @main writes, as a function of the argument arrays it
  depends on, in the program's own order and with the program's own dimension records: the index slices, the gathers,
  the distances, the in-degrees, the embedders, each layer's concatenations, dense lines, gate, scatter-mean and updates,
  the node decoder, the per-graph sum and the head.  They name every intermediate array so that statements about the
  run can speak of one stage at a time instead of the whole composed expression.  (The text of the definitions follows the
  generated read-back of the reference, one stage per operation.)
-/
import proofs.«112516_j88167088653030_2_alg».proof.ReferenceIdeal
import proofs.«112516_j88167088653030_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

def val_main_v0 (x3 : (⟨S2x160000, .i32⟩ : BufTy).Contents (Elt F)) : (⟨S1x160000, .i32⟩ : BufTy).Contents (Elt F) :=
  extractStridedSlice S1x160000 ![0, 0] (x3) slices_S2x160000_S1x160000_0_0

def val_main_v1 (x3 : (⟨S2x160000, .i32⟩ : BufTy).Contents (Elt F)) : (⟨S160000, .i32⟩ : BufTy).Contents (Elt F) :=
  shapeCast _ (val_main_v0 (F := F) x3) shapeCasts_S1x160000_S160000

def val_main_v2 (x3 : (⟨S2x160000, .i32⟩ : BufTy).Contents (Elt F)) : (⟨S1x160000, .i32⟩ : BufTy).Contents (Elt F) :=
  extractStridedSlice S1x160000 ![1, 0] (x3) slices_S2x160000_S1x160000_1_0

def val_main_v3 (x3 : (⟨S2x160000, .i32⟩ : BufTy).Contents (Elt F)) : (⟨S160000, .i32⟩ : BufTy).Contents (Elt F) :=
  shapeCast _ (val_main_v2 (F := F) x3) shapeCasts_S1x160000_S160000

def val_main_c : (⟨S_, .i32⟩ : BufTy).Contents (Elt F) :=
  constantI S_ 32 0#32

def val_main_v4 : (⟨S160000, .i32⟩ : BufTy).Contents (Elt F) :=
  broadcastInDim S160000 ![] bcast_S_S160000 (val_main_c (F := F))

def val_main_v5 (x3 : (⟨S2x160000, .i32⟩ : BufTy).Contents (Elt F)) : (⟨S160000, .i1⟩ : BufTy).Contents (Elt F) :=
  cmpi .slt (val_main_v3 (F := F) x3) (val_main_v4 (F := F))

def val_main_c_0 : (⟨S_, .i32⟩ : BufTy).Contents (Elt F) :=
  constantI S_ 32 10000#32

def val_main_v6 : (⟨S160000, .i32⟩ : BufTy).Contents (Elt F) :=
  broadcastInDim S160000 ![] bcast_S_S160000 (val_main_c_0 (F := F))

def val_main_v7 (x3 : (⟨S2x160000, .i32⟩ : BufTy).Contents (Elt F)) : (⟨S160000, .i32⟩ : BufTy).Contents (Elt F) :=
  addi (val_main_v3 (F := F) x3) (val_main_v6 (F := F))

def val_main_v8 (x3 : (⟨S2x160000, .i32⟩ : BufTy).Contents (Elt F)) : (⟨S160000, .i32⟩ : BufTy).Contents (Elt F) :=
  select (val_main_v5 (F := F) x3) (val_main_v7 (F := F) x3) (val_main_v3 (F := F) x3)

def val_main_v9 (x3 : (⟨S2x160000, .i32⟩ : BufTy).Contents (Elt F)) : (⟨S160000x1, .i32⟩ : BufTy).Contents (Elt F) :=
  broadcastInDim S160000x1 ![0] bcast_S160000_S160000x1_0 (val_main_v8 (F := F) x3)

def val_main_v10 (x1 : (⟨S10000x3, .f32⟩ : BufTy).Contents (Elt F)) (x3 : (⟨S2x160000, .i32⟩ : BufTy).Contents (Elt F)) : (⟨S160000x3, .f32⟩ : BufTy).Contents (Elt F) :=
  Host.gather gather_S10000x3_S160000x1_S160000x3_1_0_n_n_0_1_13 (x1) (val_main_v9 (F := F) x3)

def val_main_c_1 : (⟨S_, .i32⟩ : BufTy).Contents (Elt F) :=
  constantI S_ 32 0#32

def val_main_v11 : (⟨S160000, .i32⟩ : BufTy).Contents (Elt F) :=
  broadcastInDim S160000 ![] bcast_S_S160000 (val_main_c_1 (F := F))

def val_main_v12 (x3 : (⟨S2x160000, .i32⟩ : BufTy).Contents (Elt F)) : (⟨S160000, .i1⟩ : BufTy).Contents (Elt F) :=
  cmpi .slt (val_main_v1 (F := F) x3) (val_main_v11 (F := F))

def val_main_c_2 : (⟨S_, .i32⟩ : BufTy).Contents (Elt F) :=
  constantI S_ 32 10000#32

def val_main_v13 : (⟨S160000, .i32⟩ : BufTy).Contents (Elt F) :=
  broadcastInDim S160000 ![] bcast_S_S160000 (val_main_c_2 (F := F))

def val_main_v14 (x3 : (⟨S2x160000, .i32⟩ : BufTy).Contents (Elt F)) : (⟨S160000, .i32⟩ : BufTy).Contents (Elt F) :=
  addi (val_main_v1 (F := F) x3) (val_main_v13 (F := F))

def val_main_v15 (x3 : (⟨S2x160000, .i32⟩ : BufTy).Contents (Elt F)) : (⟨S160000, .i32⟩ : BufTy).Contents (Elt F) :=
  select (val_main_v12 (F := F) x3) (val_main_v14 (F := F) x3) (val_main_v1 (F := F) x3)

def val_main_v16 (x3 : (⟨S2x160000, .i32⟩ : BufTy).Contents (Elt F)) : (⟨S160000x1, .i32⟩ : BufTy).Contents (Elt F) :=
  broadcastInDim S160000x1 ![0] bcast_S160000_S160000x1_0 (val_main_v15 (F := F) x3)

def val_main_v17 (x1 : (⟨S10000x3, .f32⟩ : BufTy).Contents (Elt F)) (x3 : (⟨S2x160000, .i32⟩ : BufTy).Contents (Elt F)) : (⟨S160000x3, .f32⟩ : BufTy).Contents (Elt F) :=
  Host.gather gather_S10000x3_S160000x1_S160000x3_1_0_n_n_0_1_13 (x1) (val_main_v16 (F := F) x3)

def val_main_v18 (x1 : (⟨S10000x3, .f32⟩ : BufTy).Contents (Elt F)) (x3 : (⟨S2x160000, .i32⟩ : BufTy).Contents (Elt F)) : (⟨S160000x3, .f32⟩ : BufTy).Contents (Elt F) :=
  subf (val_main_v10 (F := F) x1 x3) (val_main_v17 (F := F) x1 x3)

def val_main_v19 (x1 : (⟨S10000x3, .f32⟩ : BufTy).Contents (Elt F)) (x3 : (⟨S2x160000, .i32⟩ : BufTy).Contents (Elt F)) : (⟨S160000x3, .f32⟩ : BufTy).Contents (Elt F) :=
  mulf (val_main_v18 (F := F) x1 x3) (val_main_v18 (F := F) x1 x3)

def val_main_cst : (⟨S_, .f32⟩ : BufTy).Contents (Elt F) :=
  constant S_ .f32 0x00000000#32

def val_main_v20 (x1 : (⟨S10000x3, .f32⟩ : BufTy).Contents (Elt F)) (x3 : (⟨S2x160000, .i32⟩ : BufTy).Contents (Elt F)) : (⟨S160000, .f32⟩ : BufTy).Contents (Elt F) :=
  Host.reduceAdd (val_main_v19 (F := F) x1 x3) (val_main_cst (F := F)) reducesTo_S160000x3_S160000_d1 h_S_

def val_main_v21 (x1 : (⟨S10000x3, .f32⟩ : BufTy).Contents (Elt F)) (x3 : (⟨S2x160000, .i32⟩ : BufTy).Contents (Elt F)) : (⟨S160000x1, .f32⟩ : BufTy).Contents (Elt F) :=
  broadcastInDim S160000x1 ![0] bcast_S160000_S160000x1_0 (val_main_v20 (F := F) x1 x3)

def val_main_v22 (x1 : (⟨S10000x3, .f32⟩ : BufTy).Contents (Elt F)) (x3 : (⟨S2x160000, .i32⟩ : BufTy).Contents (Elt F)) : (⟨S160000x1, .f32⟩ : BufTy).Contents (Elt F) :=
  Host.sqrt (val_main_v21 (F := F) x1 x3)

def val_main_v23 (x0 : (⟨S10000x11, .f32⟩ : BufTy).Contents (Elt F)) (x5 : (⟨S11x96, .f32⟩ : BufTy).Contents (Elt F)) : (⟨S10000x96, .f32⟩ : BufTy).Contents (Elt F) :=
  Host.dotGeneral dot_S10000x11_S11x96_S10000x96_1_0_0_1_n_n none (x0) (x5)

def val_main_v24 (x6 : (⟨S96, .f32⟩ : BufTy).Contents (Elt F)) : (⟨S1x96, .f32⟩ : BufTy).Contents (Elt F) :=
  broadcastInDim S1x96 ![1] bcast_S96_S1x96_1 (x6)

def val_main_v25 (x6 : (⟨S96, .f32⟩ : BufTy).Contents (Elt F)) : (⟨S10000x96, .f32⟩ : BufTy).Contents (Elt F) :=
  broadcastInDim S10000x96 ![0, 1] bcast_S1x96_S10000x96_0_1 (val_main_v24 (F := F) x6)

def val_main_v26 (x0 : (⟨S10000x11, .f32⟩ : BufTy).Contents (Elt F)) (x5 : (⟨S11x96, .f32⟩ : BufTy).Contents (Elt F)) (x6 : (⟨S96, .f32⟩ : BufTy).Contents (Elt F)) : (⟨S10000x96, .f32⟩ : BufTy).Contents (Elt F) :=
  addf (val_main_v23 (F := F) x0 x5) (val_main_v25 (F := F) x6)

def val_main_call0_cst : (⟨S_, .f32⟩ : BufTy).Contents (Elt F) :=
  constant S_ .f32 0x00000000#32

def val_main_call0_v0 : (⟨S10000x96, .f32⟩ : BufTy).Contents (Elt F) :=
  broadcastInDim S10000x96 ![] bcast_S_S10000x96 (val_main_call0_cst (F := F))

def val_main_v27 (x0 : (⟨S10000x11, .f32⟩ : BufTy).Contents (Elt F)) (x5 : (⟨S11x96, .f32⟩ : BufTy).Contents (Elt F)) (x6 : (⟨S96, .f32⟩ : BufTy).Contents (Elt F)) : (⟨S10000x96, .f32⟩ : BufTy).Contents (Elt F) :=
  maximumf (val_main_v26 (F := F) x0 x5 x6) (val_main_call0_v0 (F := F))

def val_main_v28 (x0 : (⟨S10000x11, .f32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) : (⟨S10000x96, .f32⟩ : BufTy).Contents (Elt F) :=
  Host.dotGeneral dot_S10000x96_S96x96_S10000x96_1_0_0_1_n_n none (val_main_v27 (F := F) x0 x5 x6) (x7)

def val_main_v29 (x8 : (⟨S96, .f32⟩ : BufTy).Contents (Elt F)) : (⟨S1x96, .f32⟩ : BufTy).Contents (Elt F) :=
  broadcastInDim S1x96 ![1] bcast_S96_S1x96_1 (x8)

def val_main_v30 (x8 : (⟨S96, .f32⟩ : BufTy).Contents (Elt F)) : (⟨S10000x96, .f32⟩ : BufTy).Contents (Elt F) :=
  broadcastInDim S10000x96 ![0, 1] bcast_S1x96_S10000x96_0_1 (val_main_v29 (F := F) x8)

def val_main_v31 (x0 : (⟨S10000x11, .f32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) : (⟨S10000x96, .f32⟩ : BufTy).Contents (Elt F) :=
  addf (val_main_v28 (F := F) x0 x5 x6 x7) (val_main_v30 (F := F) x8)

def val_main_v32 (x2 : (⟨S10000x8, .f32⟩ : BufTy).Contents (Elt F)) (x9 : (⟨S8x96, .f32⟩ : BufTy).Contents (Elt F)) : (⟨S10000x96, .f32⟩ : BufTy).Contents (Elt F) :=
  Host.dotGeneral dot_S10000x8_S8x96_S10000x96_1_0_0_1_n_n none (x2) (x9)

def val_main_v33 (x10 : (⟨S96, .f32⟩ : BufTy).Contents (Elt F)) : (⟨S1x96, .f32⟩ : BufTy).Contents (Elt F) :=
  broadcastInDim S1x96 ![1] bcast_S96_S1x96_1 (x10)

def val_main_v34 (x10 : (⟨S96, .f32⟩ : BufTy).Contents (Elt F)) : (⟨S10000x96, .f32⟩ : BufTy).Contents (Elt F) :=
  broadcastInDim S10000x96 ![0, 1] bcast_S1x96_S10000x96_0_1 (val_main_v33 (F := F) x10)

def val_main_v35 (x2 : (⟨S10000x8, .f32⟩ : BufTy).Contents (Elt F)) (x9 : (⟨S8x96, .f32⟩ : BufTy).Contents (Elt F)) (x10 : (⟨S96, .f32⟩ : BufTy).Contents (Elt F)) : (⟨S10000x96, .f32⟩ : BufTy).Contents (Elt F) :=
  addf (val_main_v32 (F := F) x2 x9) (val_main_v34 (F := F) x10)

def val_main_cst_3 : (⟨S_, .f32⟩ : BufTy).Contents (Elt F) :=
  constant S_ .f32 0x3F800000#32

def val_main_v36 : (⟨S160000x1, .f32⟩ : BufTy).Contents (Elt F) :=
  broadcastInDim S160000x1 ![] bcast_S_S160000x1 (val_main_cst_3 (F := F))

def val_main_cst_4 : (⟨S_, .f32⟩ : BufTy).Contents (Elt F) :=
  constant S_ .f32 0x00000000#32

def val_main_v37 : (⟨S10000x1, .f32⟩ : BufTy).Contents (Elt F) :=
  broadcastInDim S10000x1 ![] bcast_S_S10000x1 (val_main_cst_4 (F := F))

def val_main_v38 (x3 : (⟨S2x160000, .i32⟩ : BufTy).Contents (Elt F)) : (⟨S160000x1, .i32⟩ : BufTy).Contents (Elt F) :=
  broadcastInDim S160000x1 ![0] bcast_S160000_S160000x1_0 (val_main_v3 (F := F) x3)

def val_main_v39 (x3 : (⟨S2x160000, .i32⟩ : BufTy).Contents (Elt F)) : (⟨S10000x1, .f32⟩ : BufTy).Contents (Elt F) :=
  Host.scatterAdd scatter_S10000x1_S160000x1_S160000x1_1_0_0_1 (val_main_v37 (F := F)) (val_main_v38 (F := F) x3) (val_main_v36 (F := F))

def val_main_cst_5 : (⟨S_, .f32⟩ : BufTy).Contents (Elt F) :=
  constant S_ .f32 0x3F800000#32

def val_main_v40 : (⟨S10000x1, .f32⟩ : BufTy).Contents (Elt F) :=
  broadcastInDim S10000x1 ![] bcast_S_S10000x1 (val_main_cst_5 (F := F))

def val_main_v41 (x3 : (⟨S2x160000, .i32⟩ : BufTy).Contents (Elt F)) : (⟨S10000x1, .f32⟩ : BufTy).Contents (Elt F) :=
  maximumf (val_main_v39 (F := F) x3) (val_main_v40 (F := F))

def val_main_c_6 : (⟨S_, .i32⟩ : BufTy).Contents (Elt F) :=
  constantI S_ 32 0#32

def val_main_v42 : (⟨S160000, .i32⟩ : BufTy).Contents (Elt F) :=
  broadcastInDim S160000 ![] bcast_S_S160000 (val_main_c_6 (F := F))

def val_main_v43 (x3 : (⟨S2x160000, .i32⟩ : BufTy).Contents (Elt F)) : (⟨S160000, .i1⟩ : BufTy).Contents (Elt F) :=
  cmpi .slt (val_main_v3 (F := F) x3) (val_main_v42 (F := F))

def val_main_c_7 : (⟨S_, .i32⟩ : BufTy).Contents (Elt F) :=
  constantI S_ 32 10000#32

def val_main_v44 : (⟨S160000, .i32⟩ : BufTy).Contents (Elt F) :=
  broadcastInDim S160000 ![] bcast_S_S160000 (val_main_c_7 (F := F))

def val_main_v45 (x3 : (⟨S2x160000, .i32⟩ : BufTy).Contents (Elt F)) : (⟨S160000, .i32⟩ : BufTy).Contents (Elt F) :=
  addi (val_main_v3 (F := F) x3) (val_main_v44 (F := F))

def val_main_v46 (x3 : (⟨S2x160000, .i32⟩ : BufTy).Contents (Elt F)) : (⟨S160000, .i32⟩ : BufTy).Contents (Elt F) :=
  select (val_main_v43 (F := F) x3) (val_main_v45 (F := F) x3) (val_main_v3 (F := F) x3)

def val_main_v47 (x3 : (⟨S2x160000, .i32⟩ : BufTy).Contents (Elt F)) : (⟨S160000x1, .i32⟩ : BufTy).Contents (Elt F) :=
  broadcastInDim S160000x1 ![0] bcast_S160000_S160000x1_0 (val_main_v46 (F := F) x3)

def val_main_v48 (x0 : (⟨S10000x11, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) : (⟨S160000x96, .f32⟩ : BufTy).Contents (Elt F) :=
  Host.gather gather_S10000x96_S160000x1_S160000x96_1_0_n_n_0_1_196 (val_main_v31 (F := F) x0 x5 x6 x7 x8) (val_main_v47 (F := F) x3)

def val_main_c_8 : (⟨S_, .i32⟩ : BufTy).Contents (Elt F) :=
  constantI S_ 32 0#32

def val_main_v49 : (⟨S160000, .i32⟩ : BufTy).Contents (Elt F) :=
  broadcastInDim S160000 ![] bcast_S_S160000 (val_main_c_8 (F := F))

def val_main_v50 (x3 : (⟨S2x160000, .i32⟩ : BufTy).Contents (Elt F)) : (⟨S160000, .i1⟩ : BufTy).Contents (Elt F) :=
  cmpi .slt (val_main_v1 (F := F) x3) (val_main_v49 (F := F))

def val_main_c_9 : (⟨S_, .i32⟩ : BufTy).Contents (Elt F) :=
  constantI S_ 32 10000#32

def val_main_v51 : (⟨S160000, .i32⟩ : BufTy).Contents (Elt F) :=
  broadcastInDim S160000 ![] bcast_S_S160000 (val_main_c_9 (F := F))

def val_main_v52 (x3 : (⟨S2x160000, .i32⟩ : BufTy).Contents (Elt F)) : (⟨S160000, .i32⟩ : BufTy).Contents (Elt F) :=
  addi (val_main_v1 (F := F) x3) (val_main_v51 (F := F))

def val_main_v53 (x3 : (⟨S2x160000, .i32⟩ : BufTy).Contents (Elt F)) : (⟨S160000, .i32⟩ : BufTy).Contents (Elt F) :=
  select (val_main_v50 (F := F) x3) (val_main_v52 (F := F) x3) (val_main_v1 (F := F) x3)

def val_main_v54 (x3 : (⟨S2x160000, .i32⟩ : BufTy).Contents (Elt F)) : (⟨S160000x1, .i32⟩ : BufTy).Contents (Elt F) :=
  broadcastInDim S160000x1 ![0] bcast_S160000_S160000x1_0 (val_main_v53 (F := F) x3)

def val_main_v55 (x0 : (⟨S10000x11, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) : (⟨S160000x96, .f32⟩ : BufTy).Contents (Elt F) :=
  Host.gather gather_S10000x96_S160000x1_S160000x96_1_0_n_n_0_1_196 (val_main_v31 (F := F) x0 x5 x6 x7 x8) (val_main_v54 (F := F) x3)

def val_main_c_10 : (⟨S_, .i32⟩ : BufTy).Contents (Elt F) :=
  constantI S_ 32 0#32

def val_main_v56 : (⟨S160000, .i32⟩ : BufTy).Contents (Elt F) :=
  broadcastInDim S160000 ![] bcast_S_S160000 (val_main_c_10 (F := F))

def val_main_v57 (x3 : (⟨S2x160000, .i32⟩ : BufTy).Contents (Elt F)) : (⟨S160000, .i1⟩ : BufTy).Contents (Elt F) :=
  cmpi .slt (val_main_v3 (F := F) x3) (val_main_v56 (F := F))

def val_main_c_11 : (⟨S_, .i32⟩ : BufTy).Contents (Elt F) :=
  constantI S_ 32 10000#32

def val_main_v58 : (⟨S160000, .i32⟩ : BufTy).Contents (Elt F) :=
  broadcastInDim S160000 ![] bcast_S_S160000 (val_main_c_11 (F := F))

def val_main_v59 (x3 : (⟨S2x160000, .i32⟩ : BufTy).Contents (Elt F)) : (⟨S160000, .i32⟩ : BufTy).Contents (Elt F) :=
  addi (val_main_v3 (F := F) x3) (val_main_v58 (F := F))

def val_main_v60 (x3 : (⟨S2x160000, .i32⟩ : BufTy).Contents (Elt F)) : (⟨S160000, .i32⟩ : BufTy).Contents (Elt F) :=
  select (val_main_v57 (F := F) x3) (val_main_v59 (F := F) x3) (val_main_v3 (F := F) x3)

def val_main_v61 (x3 : (⟨S2x160000, .i32⟩ : BufTy).Contents (Elt F)) : (⟨S160000x1, .i32⟩ : BufTy).Contents (Elt F) :=
  broadcastInDim S160000x1 ![0] bcast_S160000_S160000x1_0 (val_main_v60 (F := F) x3)

def val_main_v62 (x2 : (⟨S10000x8, .f32⟩ : BufTy).Contents (Elt F)) (x3 : (⟨S2x160000, .i32⟩ : BufTy).Contents (Elt F)) (x9 : (⟨S8x96, .f32⟩ : BufTy).Contents (Elt F)) (x10 : (⟨S96, .f32⟩ : BufTy).Contents (Elt F)) : (⟨S160000x96, .f32⟩ : BufTy).Contents (Elt F) :=
  Host.gather gather_S10000x96_S160000x1_S160000x96_1_0_n_n_0_1_196 (val_main_v35 (F := F) x2 x9 x10) (val_main_v61 (F := F) x3)

def val_main_c_12 : (⟨S_, .i32⟩ : BufTy).Contents (Elt F) :=
  constantI S_ 32 0#32

def val_main_v63 : (⟨S160000, .i32⟩ : BufTy).Contents (Elt F) :=
  broadcastInDim S160000 ![] bcast_S_S160000 (val_main_c_12 (F := F))

def val_main_v64 (x3 : (⟨S2x160000, .i32⟩ : BufTy).Contents (Elt F)) : (⟨S160000, .i1⟩ : BufTy).Contents (Elt F) :=
  cmpi .slt (val_main_v1 (F := F) x3) (val_main_v63 (F := F))

def val_main_c_13 : (⟨S_, .i32⟩ : BufTy).Contents (Elt F) :=
  constantI S_ 32 10000#32

def val_main_v65 : (⟨S160000, .i32⟩ : BufTy).Contents (Elt F) :=
  broadcastInDim S160000 ![] bcast_S_S160000 (val_main_c_13 (F := F))

def val_main_v66 (x3 : (⟨S2x160000, .i32⟩ : BufTy).Contents (Elt F)) : (⟨S160000, .i32⟩ : BufTy).Contents (Elt F) :=
  addi (val_main_v1 (F := F) x3) (val_main_v65 (F := F))

def val_main_v67 (x3 : (⟨S2x160000, .i32⟩ : BufTy).Contents (Elt F)) : (⟨S160000, .i32⟩ : BufTy).Contents (Elt F) :=
  select (val_main_v64 (F := F) x3) (val_main_v66 (F := F) x3) (val_main_v1 (F := F) x3)

def val_main_v68 (x3 : (⟨S2x160000, .i32⟩ : BufTy).Contents (Elt F)) : (⟨S160000x1, .i32⟩ : BufTy).Contents (Elt F) :=
  broadcastInDim S160000x1 ![0] bcast_S160000_S160000x1_0 (val_main_v67 (F := F) x3)

def val_main_v69 (x2 : (⟨S10000x8, .f32⟩ : BufTy).Contents (Elt F)) (x3 : (⟨S2x160000, .i32⟩ : BufTy).Contents (Elt F)) (x9 : (⟨S8x96, .f32⟩ : BufTy).Contents (Elt F)) (x10 : (⟨S96, .f32⟩ : BufTy).Contents (Elt F)) : (⟨S160000x96, .f32⟩ : BufTy).Contents (Elt F) :=
  Host.gather gather_S10000x96_S160000x1_S160000x96_1_0_n_n_0_1_196 (val_main_v35 (F := F) x2 x9 x10) (val_main_v68 (F := F) x3)

def val_main_v70 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) : (⟨S160000x385, .f32⟩ : BufTy).Contents (Elt F) :=
  concatenate S160000x385 1 [⟨S160000x96, (val_main_v48 (F := F) x0 x3 x5 x6 x7 x8)⟩, ⟨S160000x96, (val_main_v55 (F := F) x0 x3 x5 x6 x7 x8)⟩, ⟨S160000x96, (val_main_v62 (F := F) x2 x3 x9 x10)⟩, ⟨S160000x96, (val_main_v69 (F := F) x2 x3 x9 x10)⟩, ⟨S160000x1, (val_main_v22 (F := F) x1 x3)⟩] concatenates_S160000x96_S160000x96_S160000x96_S160000x96_S160000x1_S160000x385_d1

def val_main_v71 (x11 : (⟨S3x385x96, .f32⟩ : BufTy).Contents (Elt F)) : (⟨S1x385x96, .f32⟩ : BufTy).Contents (Elt F) :=
  extractStridedSlice S1x385x96 ![0, 0, 0] (x11) slices_S3x385x96_S1x385x96_0_0_0

def val_main_v72 (x11 : (⟨S3x385x96, .f32⟩ : BufTy).Contents (Elt F)) : (⟨S385x96, .f32⟩ : BufTy).Contents (Elt F) :=
  shapeCast _ (val_main_v71 (F := F) x11) shapeCasts_S1x385x96_S385x96

def val_main_v73 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) : (⟨S160000x96, .f32⟩ : BufTy).Contents (Elt F) :=
  Host.dotGeneral dot_S160000x385_S385x96_S160000x96_1_0_0_1_n_n none (val_main_v70 (F := F) x0 x1 x2 x3 x5 x6 x7 x8 x9 x10) (val_main_v72 (F := F) x11)

def val_main_v74 (x12 : (⟨S3x96, .f32⟩ : BufTy).Contents (Elt F)) : (⟨S1x96, .f32⟩ : BufTy).Contents (Elt F) :=
  extractStridedSlice S1x96 ![0, 0] (x12) slices_S3x96_S1x96_0_0

def val_main_v75 (x12 : (⟨S3x96, .f32⟩ : BufTy).Contents (Elt F)) : (⟨S96, .f32⟩ : BufTy).Contents (Elt F) :=
  shapeCast _ (val_main_v74 (F := F) x12) shapeCasts_S1x96_S96

def val_main_v76 (x12 : (⟨S3x96, .f32⟩ : BufTy).Contents (Elt F)) : (⟨S1x96, .f32⟩ : BufTy).Contents (Elt F) :=
  broadcastInDim S1x96 ![1] bcast_S96_S1x96_1 (val_main_v75 (F := F) x12)

def val_main_v77 (x12 : (⟨S3x96, .f32⟩ : BufTy).Contents (Elt F)) : (⟨S160000x96, .f32⟩ : BufTy).Contents (Elt F) :=
  broadcastInDim S160000x96 ![0, 1] bcast_S1x96_S160000x96_0_1 (val_main_v76 (F := F) x12)

def val_main_v78 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) : (⟨S160000x96, .f32⟩ : BufTy).Contents (Elt F) :=
  addf (val_main_v73 (F := F) x0 x1 x2 x3 x5 x6 x7 x8 x9 x10 x11) (val_main_v77 (F := F) x12)

def val_main_call1_cst : (⟨S_, .f32⟩ : BufTy).Contents (Elt F) :=
  constant S_ .f32 0x00000000#32

def val_main_call1_v0 : (⟨S160000x96, .f32⟩ : BufTy).Contents (Elt F) :=
  broadcastInDim S160000x96 ![] bcast_S_S160000x96 (val_main_call1_cst (F := F))

def val_main_v79 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) : (⟨S160000x96, .f32⟩ : BufTy).Contents (Elt F) :=
  maximumf (val_main_v78 (F := F) x0 x1 x2 x3 x5 x6 x7 x8 x9 x10 x11 x12) (val_main_call1_v0 (F := F))

def val_main_v80 (x13 : (⟨S3x96x96, .f32⟩ : BufTy).Contents (Elt F)) : (⟨S1x96x96, .f32⟩ : BufTy).Contents (Elt F) :=
  extractStridedSlice S1x96x96 ![0, 0, 0] (x13) slices_S3x96x96_S1x96x96_0_0_0

def val_main_v81 (x13 : (⟨S3x96x96, .f32⟩ : BufTy).Contents (Elt F)) : (⟨S96x96, .f32⟩ : BufTy).Contents (Elt F) :=
  shapeCast _ (val_main_v80 (F := F) x13) shapeCasts_S1x96x96_S96x96

def val_main_v82 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) : (⟨S160000x96, .f32⟩ : BufTy).Contents (Elt F) :=
  Host.dotGeneral dot_S160000x96_S96x96_S160000x96_1_0_0_1_n_n none (val_main_v79 (F := F) x0 x1 x2 x3 x5 x6 x7 x8 x9 x10 x11 x12) (val_main_v81 (F := F) x13)

def val_main_v83 (x14 : (⟨S3x96, .f32⟩ : BufTy).Contents (Elt F)) : (⟨S1x96, .f32⟩ : BufTy).Contents (Elt F) :=
  extractStridedSlice S1x96 ![0, 0] (x14) slices_S3x96_S1x96_0_0

def val_main_v84 (x14 : (⟨S3x96, .f32⟩ : BufTy).Contents (Elt F)) : (⟨S96, .f32⟩ : BufTy).Contents (Elt F) :=
  shapeCast _ (val_main_v83 (F := F) x14) shapeCasts_S1x96_S96

def val_main_v85 (x14 : (⟨S3x96, .f32⟩ : BufTy).Contents (Elt F)) : (⟨S1x96, .f32⟩ : BufTy).Contents (Elt F) :=
  broadcastInDim S1x96 ![1] bcast_S96_S1x96_1 (val_main_v84 (F := F) x14)

def val_main_v86 (x14 : (⟨S3x96, .f32⟩ : BufTy).Contents (Elt F)) : (⟨S160000x96, .f32⟩ : BufTy).Contents (Elt F) :=
  broadcastInDim S160000x96 ![0, 1] bcast_S1x96_S160000x96_0_1 (val_main_v85 (F := F) x14)

def val_main_v87 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) : (⟨S160000x96, .f32⟩ : BufTy).Contents (Elt F) :=
  addf (val_main_v82 (F := F) x0 x1 x2 x3 x5 x6 x7 x8 x9 x10 x11 x12 x13) (val_main_v86 (F := F) x14)

def val_main_call2_cst : (⟨S_, .f32⟩ : BufTy).Contents (Elt F) :=
  constant S_ .f32 0x00000000#32

def val_main_call2_v0 : (⟨S160000x96, .f32⟩ : BufTy).Contents (Elt F) :=
  broadcastInDim S160000x96 ![] bcast_S_S160000x96 (val_main_call2_cst (F := F))

def val_main_v88 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) : (⟨S160000x96, .f32⟩ : BufTy).Contents (Elt F) :=
  maximumf (val_main_v87 (F := F) x0 x1 x2 x3 x5 x6 x7 x8 x9 x10 x11 x12 x13 x14) (val_main_call2_v0 (F := F))

def val_main_v89 (x15 : (⟨S3x96x1, .f32⟩ : BufTy).Contents (Elt F)) : (⟨S1x96x1, .f32⟩ : BufTy).Contents (Elt F) :=
  extractStridedSlice S1x96x1 ![0, 0, 0] (x15) slices_S3x96x1_S1x96x1_0_0_0

def val_main_v90 (x15 : (⟨S3x96x1, .f32⟩ : BufTy).Contents (Elt F)) : (⟨S96x1, .f32⟩ : BufTy).Contents (Elt F) :=
  shapeCast _ (val_main_v89 (F := F) x15) shapeCasts_S1x96x1_S96x1

def val_main_v91 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) : (⟨S160000x1, .f32⟩ : BufTy).Contents (Elt F) :=
  Host.dotGeneral dot_S160000x96_S96x1_S160000x1_1_0_0_1_n_n none (val_main_v88 (F := F) x0 x1 x2 x3 x5 x6 x7 x8 x9 x10 x11 x12 x13 x14) (val_main_v90 (F := F) x15)

def val_main_v92 (x16 : (⟨S3x1, .f32⟩ : BufTy).Contents (Elt F)) : (⟨S1x1, .f32⟩ : BufTy).Contents (Elt F) :=
  extractStridedSlice S1x1 ![0, 0] (x16) slices_S3x1_S1x1_0_0

def val_main_v93 (x16 : (⟨S3x1, .f32⟩ : BufTy).Contents (Elt F)) : (⟨S1, .f32⟩ : BufTy).Contents (Elt F) :=
  shapeCast _ (val_main_v92 (F := F) x16) shapeCasts_S1x1_S1

def val_main_v94 (x16 : (⟨S3x1, .f32⟩ : BufTy).Contents (Elt F)) : (⟨S1x1, .f32⟩ : BufTy).Contents (Elt F) :=
  broadcastInDim S1x1 ![1] bcast_S1_S1x1_1 (val_main_v93 (F := F) x16)

def val_main_v95 (x16 : (⟨S3x1, .f32⟩ : BufTy).Contents (Elt F)) : (⟨S160000x1, .f32⟩ : BufTy).Contents (Elt F) :=
  broadcastInDim S160000x1 ![0, 1] bcast_S1x1_S160000x1_0_1 (val_main_v94 (F := F) x16)

def val_main_v96 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x1, .f32⟩ : BufTy).Contents (Elt F) :=
  addf (val_main_v91 (F := F) x0 x1 x2 x3 x5 x6 x7 x8 x9 x10 x11 x12 x13 x14 x15) (val_main_v95 (F := F) x16)

def val_main_v97 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x1, .f32⟩ : BufTy).Contents (Elt F) :=
  Host.negf (val_main_v96 (F := F) x0 x1 x2 x3 x5 x6 x7 x8 x9 x10 x11 x12 x13 x14 x15 x16)

def val_main_v98 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x1, .f32⟩ : BufTy).Contents (Elt F) :=
  Host.exp (val_main_v97 (F := F) x0 x1 x2 x3 x5 x6 x7 x8 x9 x10 x11 x12 x13 x14 x15 x16)

def val_main_cst_14 : (⟨S_, .f32⟩ : BufTy).Contents (Elt F) :=
  constant S_ .f32 0x3F800000#32

def val_main_v99 : (⟨S160000x1, .f32⟩ : BufTy).Contents (Elt F) :=
  broadcastInDim S160000x1 ![] bcast_S_S160000x1 (val_main_cst_14 (F := F))

def val_main_v100 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x1, .f32⟩ : BufTy).Contents (Elt F) :=
  addf (val_main_v99 (F := F)) (val_main_v98 (F := F) x0 x1 x2 x3 x5 x6 x7 x8 x9 x10 x11 x12 x13 x14 x15 x16)

def val_main_cst_15 : (⟨S_, .f32⟩ : BufTy).Contents (Elt F) :=
  constant S_ .f32 0x3F800000#32

def val_main_v101 : (⟨S160000x1, .f32⟩ : BufTy).Contents (Elt F) :=
  broadcastInDim S160000x1 ![] bcast_S_S160000x1 (val_main_cst_15 (F := F))

def val_main_v102 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x1, .f32⟩ : BufTy).Contents (Elt F) :=
  Host.divf (val_main_v101 (F := F)) (val_main_v100 (F := F) x0 x1 x2 x3 x5 x6 x7 x8 x9 x10 x11 x12 x13 x14 x15 x16)

def val_main_v103 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x96, .f32⟩ : BufTy).Contents (Elt F) :=
  broadcastInDim S160000x96 ![0, 1] bcast_S160000x1_S160000x96_0_1 (val_main_v102 (F := F) x0 x1 x2 x3 x5 x6 x7 x8 x9 x10 x11 x12 x13 x14 x15 x16)

def val_main_v104 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S160000x96, .f32⟩ : BufTy).Contents (Elt F) :=
  mulf (val_main_v88 (F := F) x0 x1 x2 x3 x5 x6 x7 x8 x9 x10 x11 x12 x13 x14) (val_main_v103 (F := F) x0 x1 x2 x3 x5 x6 x7 x8 x9 x10 x11 x12 x13 x14 x15 x16)

def val_main_cst_16 : (⟨S_, .f32⟩ : BufTy).Contents (Elt F) :=
  constant S_ .f32 0x00000000#32

def val_main_v105 : (⟨S10000x96, .f32⟩ : BufTy).Contents (Elt F) :=
  broadcastInDim S10000x96 ![] bcast_S_S10000x96 (val_main_cst_16 (F := F))

def val_main_v106 (x3 : (⟨S2x160000, .i32⟩ : BufTy).Contents (Elt F)) : (⟨S160000x1, .i32⟩ : BufTy).Contents (Elt F) :=
  broadcastInDim S160000x1 ![0] bcast_S160000_S160000x1_0 (val_main_v3 (F := F) x3)

def val_main_v107 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S10000x96, .f32⟩ : BufTy).Contents (Elt F) :=
  Host.scatterAdd scatter_S10000x96_S160000x1_S160000x96_1_0_0_1 (val_main_v105 (F := F)) (val_main_v106 (F := F) x3) (val_main_v104 (F := F) x0 x1 x2 x3 x5 x6 x7 x8 x9 x10 x11 x12 x13 x14 x15 x16)

def val_main_v108 (x3 : (⟨S2x160000, .i32⟩ : BufTy).Contents (Elt F)) : (⟨S10000x96, .f32⟩ : BufTy).Contents (Elt F) :=
  broadcastInDim S10000x96 ![0, 1] bcast_S10000x1_S10000x96_0_1 (val_main_v41 (F := F) x3)

def val_main_v109 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S10000x96, .f32⟩ : BufTy).Contents (Elt F) :=
  Host.divf (val_main_v107 (F := F) x0 x1 x2 x3 x5 x6 x7 x8 x9 x10 x11 x12 x13 x14 x15 x16) (val_main_v108 (F := F) x3)

def val_main_v110 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S10000x288, .f32⟩ : BufTy).Contents (Elt F) :=
  concatenate S10000x288 1 [⟨S10000x96, (val_main_v31 (F := F) x0 x5 x6 x7 x8)⟩, ⟨S10000x96, (val_main_v35 (F := F) x2 x9 x10)⟩, ⟨S10000x96, (val_main_v109 (F := F) x0 x1 x2 x3 x5 x6 x7 x8 x9 x10 x11 x12 x13 x14 x15 x16)⟩] concatenates_S10000x96_S10000x96_S10000x96_S10000x288_d1

def val_main_v111 (x17 : (⟨S3x288x96, .f32⟩ : BufTy).Contents (Elt F)) : (⟨S1x288x96, .f32⟩ : BufTy).Contents (Elt F) :=
  extractStridedSlice S1x288x96 ![0, 0, 0] (x17) slices_S3x288x96_S1x288x96_0_0_0

def val_main_v112 (x17 : (⟨S3x288x96, .f32⟩ : BufTy).Contents (Elt F)) : (⟨S288x96, .f32⟩ : BufTy).Contents (Elt F) :=
  shapeCast _ (val_main_v111 (F := F) x17) shapeCasts_S1x288x96_S288x96

def val_main_v113 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) : (⟨S10000x96, .f32⟩ : BufTy).Contents (Elt F) :=
  Host.dotGeneral dot_S10000x288_S288x96_S10000x96_1_0_0_1_n_n none (val_main_v110 (F := F) x0 x1 x2 x3 x5 x6 x7 x8 x9 x10 x11 x12 x13 x14 x15 x16) (val_main_v112 (F := F) x17)

def val_main_v114 (x18 : (⟨S3x96, .f32⟩ : BufTy).Contents (Elt F)) : (⟨S1x96, .f32⟩ : BufTy).Contents (Elt F) :=
  extractStridedSlice S1x96 ![0, 0] (x18) slices_S3x96_S1x96_0_0

def val_main_v115 (x18 : (⟨S3x96, .f32⟩ : BufTy).Contents (Elt F)) : (⟨S96, .f32⟩ : BufTy).Contents (Elt F) :=
  shapeCast _ (val_main_v114 (F := F) x18) shapeCasts_S1x96_S96

def val_main_v116 (x18 : (⟨S3x96, .f32⟩ : BufTy).Contents (Elt F)) : (⟨S1x96, .f32⟩ : BufTy).Contents (Elt F) :=
  broadcastInDim S1x96 ![1] bcast_S96_S1x96_1 (val_main_v115 (F := F) x18)

def val_main_v117 (x18 : (⟨S3x96, .f32⟩ : BufTy).Contents (Elt F)) : (⟨S10000x96, .f32⟩ : BufTy).Contents (Elt F) :=
  broadcastInDim S10000x96 ![0, 1] bcast_S1x96_S10000x96_0_1 (val_main_v116 (F := F) x18)

def val_main_v118 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) : (⟨S10000x96, .f32⟩ : BufTy).Contents (Elt F) :=
  addf (val_main_v113 (F := F) x0 x1 x2 x3 x5 x6 x7 x8 x9 x10 x11 x12 x13 x14 x15 x16 x17) (val_main_v117 (F := F) x18)

def val_main_call3_cst : (⟨S_, .f32⟩ : BufTy).Contents (Elt F) :=
  constant S_ .f32 0x00000000#32

def val_main_call3_v0 : (⟨S10000x96, .f32⟩ : BufTy).Contents (Elt F) :=
  broadcastInDim S10000x96 ![] bcast_S_S10000x96 (val_main_call3_cst (F := F))

def val_main_v119 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) : (⟨S10000x96, .f32⟩ : BufTy).Contents (Elt F) :=
  maximumf (val_main_v118 (F := F) x0 x1 x2 x3 x5 x6 x7 x8 x9 x10 x11 x12 x13 x14 x15 x16 x17 x18) (val_main_call3_v0 (F := F))

def val_main_v120 (x19 : (⟨S3x96x96, .f32⟩ : BufTy).Contents (Elt F)) : (⟨S1x96x96, .f32⟩ : BufTy).Contents (Elt F) :=
  extractStridedSlice S1x96x96 ![0, 0, 0] (x19) slices_S3x96x96_S1x96x96_0_0_0

def val_main_v121 (x19 : (⟨S3x96x96, .f32⟩ : BufTy).Contents (Elt F)) : (⟨S96x96, .f32⟩ : BufTy).Contents (Elt F) :=
  shapeCast _ (val_main_v120 (F := F) x19) shapeCasts_S1x96x96_S96x96

def val_main_v122 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) : (⟨S10000x96, .f32⟩ : BufTy).Contents (Elt F) :=
  Host.dotGeneral dot_S10000x96_S96x96_S10000x96_1_0_0_1_n_n none (val_main_v119 (F := F) x0 x1 x2 x3 x5 x6 x7 x8 x9 x10 x11 x12 x13 x14 x15 x16 x17 x18) (val_main_v121 (F := F) x19)

def val_main_v123 (x20 : (⟨S3x96, .f32⟩ : BufTy).Contents (Elt F)) : (⟨S1x96, .f32⟩ : BufTy).Contents (Elt F) :=
  extractStridedSlice S1x96 ![0, 0] (x20) slices_S3x96_S1x96_0_0

def val_main_v124 (x20 : (⟨S3x96, .f32⟩ : BufTy).Contents (Elt F)) : (⟨S96, .f32⟩ : BufTy).Contents (Elt F) :=
  shapeCast _ (val_main_v123 (F := F) x20) shapeCasts_S1x96_S96

def val_main_v125 (x20 : (⟨S3x96, .f32⟩ : BufTy).Contents (Elt F)) : (⟨S1x96, .f32⟩ : BufTy).Contents (Elt F) :=
  broadcastInDim S1x96 ![1] bcast_S96_S1x96_1 (val_main_v124 (F := F) x20)

def val_main_v126 (x20 : (⟨S3x96, .f32⟩ : BufTy).Contents (Elt F)) : (⟨S10000x96, .f32⟩ : BufTy).Contents (Elt F) :=
  broadcastInDim S10000x96 ![0, 1] bcast_S1x96_S10000x96_0_1 (val_main_v125 (F := F) x20)

def val_main_v127 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) : (⟨S10000x96, .f32⟩ : BufTy).Contents (Elt F) :=
  addf (val_main_v122 (F := F) x0 x1 x2 x3 x5 x6 x7 x8 x9 x10 x11 x12 x13 x14 x15 x16 x17 x18 x19) (val_main_v126 (F := F) x20)

def val_main_v128 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S10000x48, .f32⟩ : BufTy).Contents (Elt F) :=
  extractStridedSlice S10000x48 ![0, 0] (val_main_v109 (F := F) x0 x1 x2 x3 x5 x6 x7 x8 x9 x10 x11 x12 x13 x14 x15 x16) slices_S10000x96_S10000x48_0_0

def val_main_v129 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) : (⟨S10000x144, .f32⟩ : BufTy).Contents (Elt F) :=
  concatenate S10000x144 1 [⟨S10000x96, (val_main_v35 (F := F) x2 x9 x10)⟩, ⟨S10000x48, (val_main_v128 (F := F) x0 x1 x2 x3 x5 x6 x7 x8 x9 x10 x11 x12 x13 x14 x15 x16)⟩] concatenates_S10000x96_S10000x48_S10000x144_d1

def val_main_v130 (x21 : (⟨S3x144x96, .f32⟩ : BufTy).Contents (Elt F)) : (⟨S1x144x96, .f32⟩ : BufTy).Contents (Elt F) :=
  extractStridedSlice S1x144x96 ![0, 0, 0] (x21) slices_S3x144x96_S1x144x96_0_0_0

def val_main_v131 (x21 : (⟨S3x144x96, .f32⟩ : BufTy).Contents (Elt F)) : (⟨S144x96, .f32⟩ : BufTy).Contents (Elt F) :=
  shapeCast _ (val_main_v130 (F := F) x21) shapeCasts_S1x144x96_S144x96

def val_main_v132 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) : (⟨S10000x96, .f32⟩ : BufTy).Contents (Elt F) :=
  Host.dotGeneral dot_S10000x144_S144x96_S10000x96_1_0_0_1_n_n none (val_main_v129 (F := F) x0 x1 x2 x3 x5 x6 x7 x8 x9 x10 x11 x12 x13 x14 x15 x16) (val_main_v131 (F := F) x21)

def val_main_v133 (x22 : (⟨S3x96, .f32⟩ : BufTy).Contents (Elt F)) : (⟨S1x96, .f32⟩ : BufTy).Contents (Elt F) :=
  extractStridedSlice S1x96 ![0, 0] (x22) slices_S3x96_S1x96_0_0

def val_main_v134 (x22 : (⟨S3x96, .f32⟩ : BufTy).Contents (Elt F)) : (⟨S96, .f32⟩ : BufTy).Contents (Elt F) :=
  shapeCast _ (val_main_v133 (F := F) x22) shapeCasts_S1x96_S96

def val_main_v135 (x22 : (⟨S3x96, .f32⟩ : BufTy).Contents (Elt F)) : (⟨S1x96, .f32⟩ : BufTy).Contents (Elt F) :=
  broadcastInDim S1x96 ![1] bcast_S96_S1x96_1 (val_main_v134 (F := F) x22)

def val_main_v136 (x22 : (⟨S3x96, .f32⟩ : BufTy).Contents (Elt F)) : (⟨S10000x96, .f32⟩ : BufTy).Contents (Elt F) :=
  broadcastInDim S10000x96 ![0, 1] bcast_S1x96_S10000x96_0_1 (val_main_v135 (F := F) x22)

def val_main_v137 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) : (⟨S10000x96, .f32⟩ : BufTy).Contents (Elt F) :=
  addf (val_main_v132 (F := F) x0 x1 x2 x3 x5 x6 x7 x8 x9 x10 x11 x12 x13 x14 x15 x16 x21) (val_main_v136 (F := F) x22)

def val_main_call4_cst : (⟨S_, .f32⟩ : BufTy).Contents (Elt F) :=
  constant S_ .f32 0x00000000#32

def val_main_call4_v0 : (⟨S10000x96, .f32⟩ : BufTy).Contents (Elt F) :=
  broadcastInDim S10000x96 ![] bcast_S_S10000x96 (val_main_call4_cst (F := F))

def val_main_v138 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) : (⟨S10000x96, .f32⟩ : BufTy).Contents (Elt F) :=
  maximumf (val_main_v137 (F := F) x0 x1 x2 x3 x5 x6 x7 x8 x9 x10 x11 x12 x13 x14 x15 x16 x21 x22) (val_main_call4_v0 (F := F))

def val_main_v139 (x23 : (⟨S3x96x96, .f32⟩ : BufTy).Contents (Elt F)) : (⟨S1x96x96, .f32⟩ : BufTy).Contents (Elt F) :=
  extractStridedSlice S1x96x96 ![0, 0, 0] (x23) slices_S3x96x96_S1x96x96_0_0_0

def val_main_v140 (x23 : (⟨S3x96x96, .f32⟩ : BufTy).Contents (Elt F)) : (⟨S96x96, .f32⟩ : BufTy).Contents (Elt F) :=
  shapeCast _ (val_main_v139 (F := F) x23) shapeCasts_S1x96x96_S96x96

def val_main_v141 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) : (⟨S10000x96, .f32⟩ : BufTy).Contents (Elt F) :=
  Host.dotGeneral dot_S10000x96_S96x96_S10000x96_1_0_0_1_n_n none (val_main_v138 (F := F) x0 x1 x2 x3 x5 x6 x7 x8 x9 x10 x11 x12 x13 x14 x15 x16 x21 x22) (val_main_v140 (F := F) x23)

def val_main_v142 (x24 : (⟨S3x96, .f32⟩ : BufTy).Contents (Elt F)) : (⟨S1x96, .f32⟩ : BufTy).Contents (Elt F) :=
  extractStridedSlice S1x96 ![0, 0] (x24) slices_S3x96_S1x96_0_0

def val_main_v143 (x24 : (⟨S3x96, .f32⟩ : BufTy).Contents (Elt F)) : (⟨S96, .f32⟩ : BufTy).Contents (Elt F) :=
  shapeCast _ (val_main_v142 (F := F) x24) shapeCasts_S1x96_S96

def val_main_v144 (x24 : (⟨S3x96, .f32⟩ : BufTy).Contents (Elt F)) : (⟨S1x96, .f32⟩ : BufTy).Contents (Elt F) :=
  broadcastInDim S1x96 ![1] bcast_S96_S1x96_1 (val_main_v143 (F := F) x24)

def val_main_v145 (x24 : (⟨S3x96, .f32⟩ : BufTy).Contents (Elt F)) : (⟨S10000x96, .f32⟩ : BufTy).Contents (Elt F) :=
  broadcastInDim S10000x96 ![0, 1] bcast_S1x96_S10000x96_0_1 (val_main_v144 (F := F) x24)

def val_main_v146 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v141 (F := F) x0 x1 x2 x3 x5 x6 x7 x8 x9 x10 x11 x12 x13 x14 x15 x16 x21 x22 x23) (val_main_v145 (F := F) x24)

def val_main_c_17 : (⟨S_, .i32⟩ : BufTy).Contents (Elt F) :=
  constantI S_ 32 0#32

def val_main_v147 : (⟨S160000, .i32⟩ : BufTy).Contents (Elt F) :=
  broadcastInDim S160000 ![] bcast_S_S160000 (val_main_c_17 (F := F))

def val_main_v148 (x3 : (⟨S2x160000, .i32⟩ : BufTy).Contents (Elt F)) : (⟨S160000, .i1⟩ : BufTy).Contents (Elt F) :=
  cmpi .slt (val_main_v3 (F := F) x3) (val_main_v147 (F := F))

def val_main_c_18 : (⟨S_, .i32⟩ : BufTy).Contents (Elt F) :=
  constantI S_ 32 10000#32

def val_main_v149 : (⟨S160000, .i32⟩ : BufTy).Contents (Elt F) :=
  broadcastInDim S160000 ![] bcast_S_S160000 (val_main_c_18 (F := F))

def val_main_v150 (x3 : (⟨S2x160000, .i32⟩ : BufTy).Contents (Elt F)) : (⟨S160000, .i32⟩ : BufTy).Contents (Elt F) :=
  addi (val_main_v3 (F := F) x3) (val_main_v149 (F := F))

def val_main_v151 (x3 : (⟨S2x160000, .i32⟩ : BufTy).Contents (Elt F)) : (⟨S160000, .i32⟩ : BufTy).Contents (Elt F) :=
  select (val_main_v148 (F := F) x3) (val_main_v150 (F := F) x3) (val_main_v3 (F := F) x3)

def val_main_v152 (x3 : (⟨S2x160000, .i32⟩ : BufTy).Contents (Elt F)) : (⟨S160000x1, .i32⟩ : BufTy).Contents (Elt F) :=
  broadcastInDim S160000x1 ![0] bcast_S160000_S160000x1_0 (val_main_v151 (F := F) x3)

def val_main_v153 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) : (⟨S160000x96, .f32⟩ : BufTy).Contents (Elt F) :=
  Host.gather gather_S10000x96_S160000x1_S160000x96_1_0_n_n_0_1_196 (val_main_v127 (F := F) x0 x1 x2 x3 x5 x6 x7 x8 x9 x10 x11 x12 x13 x14 x15 x16 x17 x18 x19 x20) (val_main_v152 (F := F) x3)

def val_main_c_19 : (⟨S_, .i32⟩ : BufTy).Contents (Elt F) :=
  constantI S_ 32 0#32

def val_main_v154 : (⟨S160000, .i32⟩ : BufTy).Contents (Elt F) :=
  broadcastInDim S160000 ![] bcast_S_S160000 (val_main_c_19 (F := F))

def val_main_v155 (x3 : (⟨S2x160000, .i32⟩ : BufTy).Contents (Elt F)) : (⟨S160000, .i1⟩ : BufTy).Contents (Elt F) :=
  cmpi .slt (val_main_v1 (F := F) x3) (val_main_v154 (F := F))

def val_main_c_20 : (⟨S_, .i32⟩ : BufTy).Contents (Elt F) :=
  constantI S_ 32 10000#32

def val_main_v156 : (⟨S160000, .i32⟩ : BufTy).Contents (Elt F) :=
  broadcastInDim S160000 ![] bcast_S_S160000 (val_main_c_20 (F := F))

def val_main_v157 (x3 : (⟨S2x160000, .i32⟩ : BufTy).Contents (Elt F)) : (⟨S160000, .i32⟩ : BufTy).Contents (Elt F) :=
  addi (val_main_v1 (F := F) x3) (val_main_v156 (F := F))

def val_main_v158 (x3 : (⟨S2x160000, .i32⟩ : BufTy).Contents (Elt F)) : (⟨S160000, .i32⟩ : BufTy).Contents (Elt F) :=
  select (val_main_v155 (F := F) x3) (val_main_v157 (F := F) x3) (val_main_v1 (F := F) x3)

def val_main_v159 (x3 : (⟨S2x160000, .i32⟩ : BufTy).Contents (Elt F)) : (⟨S160000x1, .i32⟩ : BufTy).Contents (Elt F) :=
  broadcastInDim S160000x1 ![0] bcast_S160000_S160000x1_0 (val_main_v158 (F := F) x3)

def val_main_v160 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) : (⟨S160000x96, .f32⟩ : BufTy).Contents (Elt F) :=
  Host.gather gather_S10000x96_S160000x1_S160000x96_1_0_n_n_0_1_196 (val_main_v127 (F := F) x0 x1 x2 x3 x5 x6 x7 x8 x9 x10 x11 x12 x13 x14 x15 x16 x17 x18 x19 x20) (val_main_v159 (F := F) x3)

def val_main_c_21 : (⟨S_, .i32⟩ : BufTy).Contents (Elt F) :=
  constantI S_ 32 0#32

def val_main_v161 : (⟨S160000, .i32⟩ : BufTy).Contents (Elt F) :=
  broadcastInDim S160000 ![] bcast_S_S160000 (val_main_c_21 (F := F))

def val_main_v162 (x3 : (⟨S2x160000, .i32⟩ : BufTy).Contents (Elt F)) : (⟨S160000, .i1⟩ : BufTy).Contents (Elt F) :=
  cmpi .slt (val_main_v3 (F := F) x3) (val_main_v161 (F := F))

def val_main_c_22 : (⟨S_, .i32⟩ : BufTy).Contents (Elt F) :=
  constantI S_ 32 10000#32

def val_main_v163 : (⟨S160000, .i32⟩ : BufTy).Contents (Elt F) :=
  broadcastInDim S160000 ![] bcast_S_S160000 (val_main_c_22 (F := F))

def val_main_v164 (x3 : (⟨S2x160000, .i32⟩ : BufTy).Contents (Elt F)) : (⟨S160000, .i32⟩ : BufTy).Contents (Elt F) :=
  addi (val_main_v3 (F := F) x3) (val_main_v163 (F := F))

def val_main_v165 (x3 : (⟨S2x160000, .i32⟩ : BufTy).Contents (Elt F)) : (⟨S160000, .i32⟩ : BufTy).Contents (Elt F) :=
  select (val_main_v162 (F := F) x3) (val_main_v164 (F := F) x3) (val_main_v3 (F := F) x3)

def val_main_v166 (x3 : (⟨S2x160000, .i32⟩ : BufTy).Contents (Elt F)) : (⟨S160000x1, .i32⟩ : BufTy).Contents (Elt F) :=
  broadcastInDim S160000x1 ![0] bcast_S160000_S160000x1_0 (val_main_v165 (F := F) x3)

def val_main_v167 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v146 (F := F) x0 x1 x2 x3 x5 x6 x7 x8 x9 x10 x11 x12 x13 x14 x15 x16 x21 x22 x23 x24) (val_main_v166 (F := F) x3)

def val_main_c_23 : (⟨S_, .i32⟩ : BufTy).Contents (Elt F) :=
  constantI S_ 32 0#32

def val_main_v168 : (⟨S160000, .i32⟩ : BufTy).Contents (Elt F) :=
  broadcastInDim S160000 ![] bcast_S_S160000 (val_main_c_23 (F := F))

def val_main_v169 (x3 : (⟨S2x160000, .i32⟩ : BufTy).Contents (Elt F)) : (⟨S160000, .i1⟩ : BufTy).Contents (Elt F) :=
  cmpi .slt (val_main_v1 (F := F) x3) (val_main_v168 (F := F))

def val_main_c_24 : (⟨S_, .i32⟩ : BufTy).Contents (Elt F) :=
  constantI S_ 32 10000#32

def val_main_v170 : (⟨S160000, .i32⟩ : BufTy).Contents (Elt F) :=
  broadcastInDim S160000 ![] bcast_S_S160000 (val_main_c_24 (F := F))

def val_main_v171 (x3 : (⟨S2x160000, .i32⟩ : BufTy).Contents (Elt F)) : (⟨S160000, .i32⟩ : BufTy).Contents (Elt F) :=
  addi (val_main_v1 (F := F) x3) (val_main_v170 (F := F))

def val_main_v172 (x3 : (⟨S2x160000, .i32⟩ : BufTy).Contents (Elt F)) : (⟨S160000, .i32⟩ : BufTy).Contents (Elt F) :=
  select (val_main_v169 (F := F) x3) (val_main_v171 (F := F) x3) (val_main_v1 (F := F) x3)

def val_main_v173 (x3 : (⟨S2x160000, .i32⟩ : BufTy).Contents (Elt F)) : (⟨S160000x1, .i32⟩ : BufTy).Contents (Elt F) :=
  broadcastInDim S160000x1 ![0] bcast_S160000_S160000x1_0 (val_main_v172 (F := F) x3)

def val_main_v174 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v146 (F := F) x0 x1 x2 x3 x5 x6 x7 x8 x9 x10 x11 x12 x13 x14 x15 x16 x21 x22 x23 x24) (val_main_v173 (F := F) x3)

def val_main_v175 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x385, .f32⟩ : BufTy).Contents (Elt F) :=
  concatenate S160000x385 1 [⟨S160000x96, (val_main_v153 (F := F) x0 x1 x2 x3 x5 x6 x7 x8 x9 x10 x11 x12 x13 x14 x15 x16 x17 x18 x19 x20)⟩, ⟨S160000x96, (val_main_v160 (F := F) x0 x1 x2 x3 x5 x6 x7 x8 x9 x10 x11 x12 x13 x14 x15 x16 x17 x18 x19 x20)⟩, ⟨S160000x96, (val_main_v167 (F := F) x0 x1 x2 x3 x5 x6 x7 x8 x9 x10 x11 x12 x13 x14 x15 x16 x21 x22 x23 x24)⟩, ⟨S160000x96, (val_main_v174 (F := F) x0 x1 x2 x3 x5 x6 x7 x8 x9 x10 x11 x12 x13 x14 x15 x16 x21 x22 x23 x24)⟩, ⟨S160000x1, (val_main_v22 (F := F) x1 x3)⟩] concatenates_S160000x96_S160000x96_S160000x96_S160000x96_S160000x1_S160000x385_d1

def val_main_v176 (x11 : (⟨S3x385x96, .f32⟩ : BufTy).Contents (Elt F)) : (⟨S1x385x96, .f32⟩ : BufTy).Contents (Elt F) :=
  extractStridedSlice S1x385x96 ![1, 0, 0] (x11) slices_S3x385x96_S1x385x96_1_0_0

def val_main_v177 (x11 : (⟨S3x385x96, .f32⟩ : BufTy).Contents (Elt F)) : (⟨S385x96, .f32⟩ : BufTy).Contents (Elt F) :=
  shapeCast _ (val_main_v176 (F := F) x11) shapeCasts_S1x385x96_S385x96

def val_main_v178 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.dotGeneral dot_S160000x385_S385x96_S160000x96_1_0_0_1_n_n none (val_main_v175 (F := F) x0 x1 x2 x3 x5 x6 x7 x8 x9 x10 x11 x12 x13 x14 x15 x16 x17 x18 x19 x20 x21 x22 x23 x24) (val_main_v177 (F := F) x11)

def val_main_v179 (x12 : (⟨S3x96, .f32⟩ : BufTy).Contents (Elt F)) : (⟨S1x96, .f32⟩ : BufTy).Contents (Elt F) :=
  extractStridedSlice S1x96 ![1, 0] (x12) slices_S3x96_S1x96_1_0

def val_main_v180 (x12 : (⟨S3x96, .f32⟩ : BufTy).Contents (Elt F)) : (⟨S96, .f32⟩ : BufTy).Contents (Elt F) :=
  shapeCast _ (val_main_v179 (F := F) x12) shapeCasts_S1x96_S96

def val_main_v181 (x12 : (⟨S3x96, .f32⟩ : BufTy).Contents (Elt F)) : (⟨S1x96, .f32⟩ : BufTy).Contents (Elt F) :=
  broadcastInDim S1x96 ![1] bcast_S96_S1x96_1 (val_main_v180 (F := F) x12)

def val_main_v182 (x12 : (⟨S3x96, .f32⟩ : BufTy).Contents (Elt F)) : (⟨S160000x96, .f32⟩ : BufTy).Contents (Elt F) :=
  broadcastInDim S160000x96 ![0, 1] bcast_S1x96_S160000x96_0_1 (val_main_v181 (F := F) x12)

def val_main_v183 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  addf (val_main_v178 (F := F) x0 x1 x2 x3 x5 x6 x7 x8 x9 x10 x11 x12 x13 x14 x15 x16 x17 x18 x19 x20 x21 x22 x23 x24) (val_main_v182 (F := F) x12)

def val_main_call5_cst : (⟨S_, .f32⟩ : BufTy).Contents (Elt F) :=
  constant S_ .f32 0x00000000#32

def val_main_call5_v0 : (⟨S160000x96, .f32⟩ : BufTy).Contents (Elt F) :=
  broadcastInDim S160000x96 ![] bcast_S_S160000x96 (val_main_call5_cst (F := F))

def val_main_v184 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  maximumf (val_main_v183 (F := F) x0 x1 x2 x3 x5 x6 x7 x8 x9 x10 x11 x12 x13 x14 x15 x16 x17 x18 x19 x20 x21 x22 x23 x24) (val_main_call5_v0 (F := F))

def val_main_v185 (x13 : (⟨S3x96x96, .f32⟩ : BufTy).Contents (Elt F)) : (⟨S1x96x96, .f32⟩ : BufTy).Contents (Elt F) :=
  extractStridedSlice S1x96x96 ![1, 0, 0] (x13) slices_S3x96x96_S1x96x96_1_0_0

def val_main_v186 (x13 : (⟨S3x96x96, .f32⟩ : BufTy).Contents (Elt F)) : (⟨S96x96, .f32⟩ : BufTy).Contents (Elt F) :=
  shapeCast _ (val_main_v185 (F := F) x13) shapeCasts_S1x96x96_S96x96

def val_main_v187 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.dotGeneral dot_S160000x96_S96x96_S160000x96_1_0_0_1_n_n none (val_main_v184 (F := F) x0 x1 x2 x3 x5 x6 x7 x8 x9 x10 x11 x12 x13 x14 x15 x16 x17 x18 x19 x20 x21 x22 x23 x24) (val_main_v186 (F := F) x13)

def val_main_v188 (x14 : (⟨S3x96, .f32⟩ : BufTy).Contents (Elt F)) : (⟨S1x96, .f32⟩ : BufTy).Contents (Elt F) :=
  extractStridedSlice S1x96 ![1, 0] (x14) slices_S3x96_S1x96_1_0

def val_main_v189 (x14 : (⟨S3x96, .f32⟩ : BufTy).Contents (Elt F)) : (⟨S96, .f32⟩ : BufTy).Contents (Elt F) :=
  shapeCast _ (val_main_v188 (F := F) x14) shapeCasts_S1x96_S96

def val_main_v190 (x14 : (⟨S3x96, .f32⟩ : BufTy).Contents (Elt F)) : (⟨S1x96, .f32⟩ : BufTy).Contents (Elt F) :=
  broadcastInDim S1x96 ![1] bcast_S96_S1x96_1 (val_main_v189 (F := F) x14)

def val_main_v191 (x14 : (⟨S3x96, .f32⟩ : BufTy).Contents (Elt F)) : (⟨S160000x96, .f32⟩ : BufTy).Contents (Elt F) :=
  broadcastInDim S160000x96 ![0, 1] bcast_S1x96_S160000x96_0_1 (val_main_v190 (F := F) x14)

def val_main_v192 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  addf (val_main_v187 (F := F) x0 x1 x2 x3 x5 x6 x7 x8 x9 x10 x11 x12 x13 x14 x15 x16 x17 x18 x19 x20 x21 x22 x23 x24) (val_main_v191 (F := F) x14)

def val_main_call6_cst : (⟨S_, .f32⟩ : BufTy).Contents (Elt F) :=
  constant S_ .f32 0x00000000#32

def val_main_call6_v0 : (⟨S160000x96, .f32⟩ : BufTy).Contents (Elt F) :=
  broadcastInDim S160000x96 ![] bcast_S_S160000x96 (val_main_call6_cst (F := F))

def val_main_v193 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  maximumf (val_main_v192 (F := F) x0 x1 x2 x3 x5 x6 x7 x8 x9 x10 x11 x12 x13 x14 x15 x16 x17 x18 x19 x20 x21 x22 x23 x24) (val_main_call6_v0 (F := F))

def val_main_v194 (x15 : (⟨S3x96x1, .f32⟩ : BufTy).Contents (Elt F)) : (⟨S1x96x1, .f32⟩ : BufTy).Contents (Elt F) :=
  extractStridedSlice S1x96x1 ![1, 0, 0] (x15) slices_S3x96x1_S1x96x1_1_0_0

def val_main_v195 (x15 : (⟨S3x96x1, .f32⟩ : BufTy).Contents (Elt F)) : (⟨S96x1, .f32⟩ : BufTy).Contents (Elt F) :=
  shapeCast _ (val_main_v194 (F := F) x15) shapeCasts_S1x96x1_S96x1

def val_main_v196 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.dotGeneral dot_S160000x96_S96x1_S160000x1_1_0_0_1_n_n none (val_main_v193 (F := F) x0 x1 x2 x3 x5 x6 x7 x8 x9 x10 x11 x12 x13 x14 x15 x16 x17 x18 x19 x20 x21 x22 x23 x24) (val_main_v195 (F := F) x15)

def val_main_v197 (x16 : (⟨S3x1, .f32⟩ : BufTy).Contents (Elt F)) : (⟨S1x1, .f32⟩ : BufTy).Contents (Elt F) :=
  extractStridedSlice S1x1 ![1, 0] (x16) slices_S3x1_S1x1_1_0

def val_main_v198 (x16 : (⟨S3x1, .f32⟩ : BufTy).Contents (Elt F)) : (⟨S1, .f32⟩ : BufTy).Contents (Elt F) :=
  shapeCast _ (val_main_v197 (F := F) x16) shapeCasts_S1x1_S1

def val_main_v199 (x16 : (⟨S3x1, .f32⟩ : BufTy).Contents (Elt F)) : (⟨S1x1, .f32⟩ : BufTy).Contents (Elt F) :=
  broadcastInDim S1x1 ![1] bcast_S1_S1x1_1 (val_main_v198 (F := F) x16)

def val_main_v200 (x16 : (⟨S3x1, .f32⟩ : BufTy).Contents (Elt F)) : (⟨S160000x1, .f32⟩ : BufTy).Contents (Elt F) :=
  broadcastInDim S160000x1 ![0, 1] bcast_S1x1_S160000x1_0_1 (val_main_v199 (F := F) x16)

def val_main_v201 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  addf (val_main_v196 (F := F) x0 x1 x2 x3 x5 x6 x7 x8 x9 x10 x11 x12 x13 x14 x15 x16 x17 x18 x19 x20 x21 x22 x23 x24) (val_main_v200 (F := F) x16)

def val_main_v202 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.negf (val_main_v201 (F := F) x0 x1 x2 x3 x5 x6 x7 x8 x9 x10 x11 x12 x13 x14 x15 x16 x17 x18 x19 x20 x21 x22 x23 x24)

def val_main_v203 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.exp (val_main_v202 (F := F) x0 x1 x2 x3 x5 x6 x7 x8 x9 x10 x11 x12 x13 x14 x15 x16 x17 x18 x19 x20 x21 x22 x23 x24)

def val_main_cst_25 : (⟨S_, .f32⟩ : BufTy).Contents (Elt F) :=
  constant S_ .f32 0x3F800000#32

def val_main_v204 : (⟨S160000x1, .f32⟩ : BufTy).Contents (Elt F) :=
  broadcastInDim S160000x1 ![] bcast_S_S160000x1 (val_main_cst_25 (F := F))

def val_main_v205 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  addf (val_main_v204 (F := F)) (val_main_v203 (F := F) x0 x1 x2 x3 x5 x6 x7 x8 x9 x10 x11 x12 x13 x14 x15 x16 x17 x18 x19 x20 x21 x22 x23 x24)

def val_main_cst_26 : (⟨S_, .f32⟩ : BufTy).Contents (Elt F) :=
  constant S_ .f32 0x3F800000#32

def val_main_v206 : (⟨S160000x1, .f32⟩ : BufTy).Contents (Elt F) :=
  broadcastInDim S160000x1 ![] bcast_S_S160000x1 (val_main_cst_26 (F := F))

def val_main_v207 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.divf (val_main_v206 (F := F)) (val_main_v205 (F := F) x0 x1 x2 x3 x5 x6 x7 x8 x9 x10 x11 x12 x13 x14 x15 x16 x17 x18 x19 x20 x21 x22 x23 x24)

def val_main_v208 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  broadcastInDim S160000x96 ![0, 1] bcast_S160000x1_S160000x96_0_1 (val_main_v207 (F := F) x0 x1 x2 x3 x5 x6 x7 x8 x9 x10 x11 x12 x13 x14 x15 x16 x17 x18 x19 x20 x21 x22 x23 x24)

def val_main_v209 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  mulf (val_main_v193 (F := F) x0 x1 x2 x3 x5 x6 x7 x8 x9 x10 x11 x12 x13 x14 x15 x16 x17 x18 x19 x20 x21 x22 x23 x24) (val_main_v208 (F := F) x0 x1 x2 x3 x5 x6 x7 x8 x9 x10 x11 x12 x13 x14 x15 x16 x17 x18 x19 x20 x21 x22 x23 x24)

def val_main_cst_27 : (⟨S_, .f32⟩ : BufTy).Contents (Elt F) :=
  constant S_ .f32 0x00000000#32

def val_main_v210 : (⟨S10000x96, .f32⟩ : BufTy).Contents (Elt F) :=
  broadcastInDim S10000x96 ![] bcast_S_S10000x96 (val_main_cst_27 (F := F))

def val_main_v211 (x3 : (⟨S2x160000, .i32⟩ : BufTy).Contents (Elt F)) : (⟨S160000x1, .i32⟩ : BufTy).Contents (Elt F) :=
  broadcastInDim S160000x1 ![0] bcast_S160000_S160000x1_0 (val_main_v3 (F := F) x3)

def val_main_v212 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.scatterAdd scatter_S10000x96_S160000x1_S160000x96_1_0_0_1 (val_main_v210 (F := F)) (val_main_v211 (F := F) x3) (val_main_v209 (F := F) x0 x1 x2 x3 x5 x6 x7 x8 x9 x10 x11 x12 x13 x14 x15 x16 x17 x18 x19 x20 x21 x22 x23 x24)

def val_main_v213 (x3 : (⟨S2x160000, .i32⟩ : BufTy).Contents (Elt F)) : (⟨S10000x96, .f32⟩ : BufTy).Contents (Elt F) :=
  broadcastInDim S10000x96 ![0, 1] bcast_S10000x1_S10000x96_0_1 (val_main_v41 (F := F) x3)

def val_main_v214 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.divf (val_main_v212 (F := F) x0 x1 x2 x3 x5 x6 x7 x8 x9 x10 x11 x12 x13 x14 x15 x16 x17 x18 x19 x20 x21 x22 x23 x24) (val_main_v213 (F := F) x3)

def val_main_v215 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x288, .f32⟩ : BufTy).Contents (Elt F) :=
  concatenate S10000x288 1 [⟨S10000x96, (val_main_v127 (F := F) x0 x1 x2 x3 x5 x6 x7 x8 x9 x10 x11 x12 x13 x14 x15 x16 x17 x18 x19 x20)⟩, ⟨S10000x96, (val_main_v146 (F := F) x0 x1 x2 x3 x5 x6 x7 x8 x9 x10 x11 x12 x13 x14 x15 x16 x21 x22 x23 x24)⟩, ⟨S10000x96, (val_main_v214 (F := F) x0 x1 x2 x3 x5 x6 x7 x8 x9 x10 x11 x12 x13 x14 x15 x16 x17 x18 x19 x20 x21 x22 x23 x24)⟩] concatenates_S10000x96_S10000x96_S10000x96_S10000x288_d1

def val_main_v216 (x17 : (⟨S3x288x96, .f32⟩ : BufTy).Contents (Elt F)) : (⟨S1x288x96, .f32⟩ : BufTy).Contents (Elt F) :=
  extractStridedSlice S1x288x96 ![1, 0, 0] (x17) slices_S3x288x96_S1x288x96_1_0_0

def val_main_v217 (x17 : (⟨S3x288x96, .f32⟩ : BufTy).Contents (Elt F)) : (⟨S288x96, .f32⟩ : BufTy).Contents (Elt F) :=
  shapeCast _ (val_main_v216 (F := F) x17) shapeCasts_S1x288x96_S288x96

def val_main_v218 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x288_S288x96_S10000x96_1_0_0_1_n_n none (val_main_v215 (F := F) x0 x1 x2 x3 x5 x6 x7 x8 x9 x10 x11 x12 x13 x14 x15 x16 x17 x18 x19 x20 x21 x22 x23 x24) (val_main_v217 (F := F) x17)

def val_main_v219 (x18 : (⟨S3x96, .f32⟩ : BufTy).Contents (Elt F)) : (⟨S1x96, .f32⟩ : BufTy).Contents (Elt F) :=
  extractStridedSlice S1x96 ![1, 0] (x18) slices_S3x96_S1x96_1_0

def val_main_v220 (x18 : (⟨S3x96, .f32⟩ : BufTy).Contents (Elt F)) : (⟨S96, .f32⟩ : BufTy).Contents (Elt F) :=
  shapeCast _ (val_main_v219 (F := F) x18) shapeCasts_S1x96_S96

def val_main_v221 (x18 : (⟨S3x96, .f32⟩ : BufTy).Contents (Elt F)) : (⟨S1x96, .f32⟩ : BufTy).Contents (Elt F) :=
  broadcastInDim S1x96 ![1] bcast_S96_S1x96_1 (val_main_v220 (F := F) x18)

def val_main_v222 (x18 : (⟨S3x96, .f32⟩ : BufTy).Contents (Elt F)) : (⟨S10000x96, .f32⟩ : BufTy).Contents (Elt F) :=
  broadcastInDim S10000x96 ![0, 1] bcast_S1x96_S10000x96_0_1 (val_main_v221 (F := F) x18)

def val_main_v223 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v218 (F := F) x0 x1 x2 x3 x5 x6 x7 x8 x9 x10 x11 x12 x13 x14 x15 x16 x17 x18 x19 x20 x21 x22 x23 x24) (val_main_v222 (F := F) x18)

def val_main_call7_cst : (⟨S_, .f32⟩ : BufTy).Contents (Elt F) :=
  constant S_ .f32 0x00000000#32

def val_main_call7_v0 : (⟨S10000x96, .f32⟩ : BufTy).Contents (Elt F) :=
  broadcastInDim S10000x96 ![] bcast_S_S10000x96 (val_main_call7_cst (F := F))

def val_main_v224 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  maximumf (val_main_v223 (F := F) x0 x1 x2 x3 x5 x6 x7 x8 x9 x10 x11 x12 x13 x14 x15 x16 x17 x18 x19 x20 x21 x22 x23 x24) (val_main_call7_v0 (F := F))

def val_main_v225 (x19 : (⟨S3x96x96, .f32⟩ : BufTy).Contents (Elt F)) : (⟨S1x96x96, .f32⟩ : BufTy).Contents (Elt F) :=
  extractStridedSlice S1x96x96 ![1, 0, 0] (x19) slices_S3x96x96_S1x96x96_1_0_0

def val_main_v226 (x19 : (⟨S3x96x96, .f32⟩ : BufTy).Contents (Elt F)) : (⟨S96x96, .f32⟩ : BufTy).Contents (Elt F) :=
  shapeCast _ (val_main_v225 (F := F) x19) shapeCasts_S1x96x96_S96x96

def val_main_v227 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x96_S96x96_S10000x96_1_0_0_1_n_n none (val_main_v224 (F := F) x0 x1 x2 x3 x5 x6 x7 x8 x9 x10 x11 x12 x13 x14 x15 x16 x17 x18 x19 x20 x21 x22 x23 x24) (val_main_v226 (F := F) x19)

def val_main_v228 (x20 : (⟨S3x96, .f32⟩ : BufTy).Contents (Elt F)) : (⟨S1x96, .f32⟩ : BufTy).Contents (Elt F) :=
  extractStridedSlice S1x96 ![1, 0] (x20) slices_S3x96_S1x96_1_0

def val_main_v229 (x20 : (⟨S3x96, .f32⟩ : BufTy).Contents (Elt F)) : (⟨S96, .f32⟩ : BufTy).Contents (Elt F) :=
  shapeCast _ (val_main_v228 (F := F) x20) shapeCasts_S1x96_S96

def val_main_v230 (x20 : (⟨S3x96, .f32⟩ : BufTy).Contents (Elt F)) : (⟨S1x96, .f32⟩ : BufTy).Contents (Elt F) :=
  broadcastInDim S1x96 ![1] bcast_S96_S1x96_1 (val_main_v229 (F := F) x20)

def val_main_v231 (x20 : (⟨S3x96, .f32⟩ : BufTy).Contents (Elt F)) : (⟨S10000x96, .f32⟩ : BufTy).Contents (Elt F) :=
  broadcastInDim S10000x96 ![0, 1] bcast_S1x96_S10000x96_0_1 (val_main_v230 (F := F) x20)

def val_main_v232 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v227 (F := F) x0 x1 x2 x3 x5 x6 x7 x8 x9 x10 x11 x12 x13 x14 x15 x16 x17 x18 x19 x20 x21 x22 x23 x24) (val_main_v231 (F := F) x20)

def val_main_v233 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x48, .f32⟩ : BufTy).Contents (Elt F) :=
  extractStridedSlice S10000x48 ![0, 0] (val_main_v214 (F := F) x0 x1 x2 x3 x5 x6 x7 x8 x9 x10 x11 x12 x13 x14 x15 x16 x17 x18 x19 x20 x21 x22 x23 x24) slices_S10000x96_S10000x48_0_0

def val_main_v234 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x144, .f32⟩ : BufTy).Contents (Elt F) :=
  concatenate S10000x144 1 [⟨S10000x96, (val_main_v146 (F := F) x0 x1 x2 x3 x5 x6 x7 x8 x9 x10 x11 x12 x13 x14 x15 x16 x21 x22 x23 x24)⟩, ⟨S10000x48, (val_main_v233 (F := F) x0 x1 x2 x3 x5 x6 x7 x8 x9 x10 x11 x12 x13 x14 x15 x16 x17 x18 x19 x20 x21 x22 x23 x24)⟩] concatenates_S10000x96_S10000x48_S10000x144_d1

def val_main_v235 (x21 : (⟨S3x144x96, .f32⟩ : BufTy).Contents (Elt F)) : (⟨S1x144x96, .f32⟩ : BufTy).Contents (Elt F) :=
  extractStridedSlice S1x144x96 ![1, 0, 0] (x21) slices_S3x144x96_S1x144x96_1_0_0

def val_main_v236 (x21 : (⟨S3x144x96, .f32⟩ : BufTy).Contents (Elt F)) : (⟨S144x96, .f32⟩ : BufTy).Contents (Elt F) :=
  shapeCast _ (val_main_v235 (F := F) x21) shapeCasts_S1x144x96_S144x96

def val_main_v237 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x144_S144x96_S10000x96_1_0_0_1_n_n none (val_main_v234 (F := F) x0 x1 x2 x3 x5 x6 x7 x8 x9 x10 x11 x12 x13 x14 x15 x16 x17 x18 x19 x20 x21 x22 x23 x24) (val_main_v236 (F := F) x21)

def val_main_v238 (x22 : (⟨S3x96, .f32⟩ : BufTy).Contents (Elt F)) : (⟨S1x96, .f32⟩ : BufTy).Contents (Elt F) :=
  extractStridedSlice S1x96 ![1, 0] (x22) slices_S3x96_S1x96_1_0

def val_main_v239 (x22 : (⟨S3x96, .f32⟩ : BufTy).Contents (Elt F)) : (⟨S96, .f32⟩ : BufTy).Contents (Elt F) :=
  shapeCast _ (val_main_v238 (F := F) x22) shapeCasts_S1x96_S96

def val_main_v240 (x22 : (⟨S3x96, .f32⟩ : BufTy).Contents (Elt F)) : (⟨S1x96, .f32⟩ : BufTy).Contents (Elt F) :=
  broadcastInDim S1x96 ![1] bcast_S96_S1x96_1 (val_main_v239 (F := F) x22)

def val_main_v241 (x22 : (⟨S3x96, .f32⟩ : BufTy).Contents (Elt F)) : (⟨S10000x96, .f32⟩ : BufTy).Contents (Elt F) :=
  broadcastInDim S10000x96 ![0, 1] bcast_S1x96_S10000x96_0_1 (val_main_v240 (F := F) x22)

def val_main_v242 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v237 (F := F) x0 x1 x2 x3 x5 x6 x7 x8 x9 x10 x11 x12 x13 x14 x15 x16 x17 x18 x19 x20 x21 x22 x23 x24) (val_main_v241 (F := F) x22)

def val_main_call8_cst : (⟨S_, .f32⟩ : BufTy).Contents (Elt F) :=
  constant S_ .f32 0x00000000#32

def val_main_call8_v0 : (⟨S10000x96, .f32⟩ : BufTy).Contents (Elt F) :=
  broadcastInDim S10000x96 ![] bcast_S_S10000x96 (val_main_call8_cst (F := F))

def val_main_v243 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  maximumf (val_main_v242 (F := F) x0 x1 x2 x3 x5 x6 x7 x8 x9 x10 x11 x12 x13 x14 x15 x16 x17 x18 x19 x20 x21 x22 x23 x24) (val_main_call8_v0 (F := F))

def val_main_v244 (x23 : (⟨S3x96x96, .f32⟩ : BufTy).Contents (Elt F)) : (⟨S1x96x96, .f32⟩ : BufTy).Contents (Elt F) :=
  extractStridedSlice S1x96x96 ![1, 0, 0] (x23) slices_S3x96x96_S1x96x96_1_0_0

def val_main_v245 (x23 : (⟨S3x96x96, .f32⟩ : BufTy).Contents (Elt F)) : (⟨S96x96, .f32⟩ : BufTy).Contents (Elt F) :=
  shapeCast _ (val_main_v244 (F := F) x23) shapeCasts_S1x96x96_S96x96

def val_main_v246 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x96_S96x96_S10000x96_1_0_0_1_n_n none (val_main_v243 (F := F) x0 x1 x2 x3 x5 x6 x7 x8 x9 x10 x11 x12 x13 x14 x15 x16 x17 x18 x19 x20 x21 x22 x23 x24) (val_main_v245 (F := F) x23)

def val_main_v247 (x24 : (⟨S3x96, .f32⟩ : BufTy).Contents (Elt F)) : (⟨S1x96, .f32⟩ : BufTy).Contents (Elt F) :=
  extractStridedSlice S1x96 ![1, 0] (x24) slices_S3x96_S1x96_1_0

def val_main_v248 (x24 : (⟨S3x96, .f32⟩ : BufTy).Contents (Elt F)) : (⟨S96, .f32⟩ : BufTy).Contents (Elt F) :=
  shapeCast _ (val_main_v247 (F := F) x24) shapeCasts_S1x96_S96

def val_main_v249 (x24 : (⟨S3x96, .f32⟩ : BufTy).Contents (Elt F)) : (⟨S1x96, .f32⟩ : BufTy).Contents (Elt F) :=
  broadcastInDim S1x96 ![1] bcast_S96_S1x96_1 (val_main_v248 (F := F) x24)

def val_main_v250 (x24 : (⟨S3x96, .f32⟩ : BufTy).Contents (Elt F)) : (⟨S10000x96, .f32⟩ : BufTy).Contents (Elt F) :=
  broadcastInDim S10000x96 ![0, 1] bcast_S1x96_S10000x96_0_1 (val_main_v249 (F := F) x24)

def val_main_v251 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v246 (F := F) x0 x1 x2 x3 x5 x6 x7 x8 x9 x10 x11 x12 x13 x14 x15 x16 x17 x18 x19 x20 x21 x22 x23 x24) (val_main_v250 (F := F) x24)

def val_main_c_28 : (⟨S_, .i32⟩ : BufTy).Contents (Elt F) :=
  constantI S_ 32 0#32

def val_main_v252 : (⟨S160000, .i32⟩ : BufTy).Contents (Elt F) :=
  broadcastInDim S160000 ![] bcast_S_S160000 (val_main_c_28 (F := F))

def val_main_v253 (x3 : (⟨S2x160000, .i32⟩ : BufTy).Contents (Elt F)) : (⟨S160000, .i1⟩ : BufTy).Contents (Elt F) :=
  cmpi .slt (val_main_v3 (F := F) x3) (val_main_v252 (F := F))

def val_main_c_29 : (⟨S_, .i32⟩ : BufTy).Contents (Elt F) :=
  constantI S_ 32 10000#32

def val_main_v254 : (⟨S160000, .i32⟩ : BufTy).Contents (Elt F) :=
  broadcastInDim S160000 ![] bcast_S_S160000 (val_main_c_29 (F := F))

def val_main_v255 (x3 : (⟨S2x160000, .i32⟩ : BufTy).Contents (Elt F)) : (⟨S160000, .i32⟩ : BufTy).Contents (Elt F) :=
  addi (val_main_v3 (F := F) x3) (val_main_v254 (F := F))

def val_main_v256 (x3 : (⟨S2x160000, .i32⟩ : BufTy).Contents (Elt F)) : (⟨S160000, .i32⟩ : BufTy).Contents (Elt F) :=
  select (val_main_v253 (F := F) x3) (val_main_v255 (F := F) x3) (val_main_v3 (F := F) x3)

def val_main_v257 (x3 : (⟨S2x160000, .i32⟩ : BufTy).Contents (Elt F)) : (⟨S160000x1, .i32⟩ : BufTy).Contents (Elt F) :=
  broadcastInDim S160000x1 ![0] bcast_S160000_S160000x1_0 (val_main_v256 (F := F) x3)

def val_main_v258 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v232 (F := F) x0 x1 x2 x3 x5 x6 x7 x8 x9 x10 x11 x12 x13 x14 x15 x16 x17 x18 x19 x20 x21 x22 x23 x24) (val_main_v257 (F := F) x3)

def val_main_c_30 : (⟨S_, .i32⟩ : BufTy).Contents (Elt F) :=
  constantI S_ 32 0#32

def val_main_v259 : (⟨S160000, .i32⟩ : BufTy).Contents (Elt F) :=
  broadcastInDim S160000 ![] bcast_S_S160000 (val_main_c_30 (F := F))

def val_main_v260 (x3 : (⟨S2x160000, .i32⟩ : BufTy).Contents (Elt F)) : (⟨S160000, .i1⟩ : BufTy).Contents (Elt F) :=
  cmpi .slt (val_main_v1 (F := F) x3) (val_main_v259 (F := F))

def val_main_c_31 : (⟨S_, .i32⟩ : BufTy).Contents (Elt F) :=
  constantI S_ 32 10000#32

def val_main_v261 : (⟨S160000, .i32⟩ : BufTy).Contents (Elt F) :=
  broadcastInDim S160000 ![] bcast_S_S160000 (val_main_c_31 (F := F))

def val_main_v262 (x3 : (⟨S2x160000, .i32⟩ : BufTy).Contents (Elt F)) : (⟨S160000, .i32⟩ : BufTy).Contents (Elt F) :=
  addi (val_main_v1 (F := F) x3) (val_main_v261 (F := F))

def val_main_v263 (x3 : (⟨S2x160000, .i32⟩ : BufTy).Contents (Elt F)) : (⟨S160000, .i32⟩ : BufTy).Contents (Elt F) :=
  select (val_main_v260 (F := F) x3) (val_main_v262 (F := F) x3) (val_main_v1 (F := F) x3)

def val_main_v264 (x3 : (⟨S2x160000, .i32⟩ : BufTy).Contents (Elt F)) : (⟨S160000x1, .i32⟩ : BufTy).Contents (Elt F) :=
  broadcastInDim S160000x1 ![0] bcast_S160000_S160000x1_0 (val_main_v263 (F := F) x3)

def val_main_v265 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v232 (F := F) x0 x1 x2 x3 x5 x6 x7 x8 x9 x10 x11 x12 x13 x14 x15 x16 x17 x18 x19 x20 x21 x22 x23 x24) (val_main_v264 (F := F) x3)

def val_main_c_32 : (⟨S_, .i32⟩ : BufTy).Contents (Elt F) :=
  constantI S_ 32 0#32

def val_main_v266 : (⟨S160000, .i32⟩ : BufTy).Contents (Elt F) :=
  broadcastInDim S160000 ![] bcast_S_S160000 (val_main_c_32 (F := F))

def val_main_v267 (x3 : (⟨S2x160000, .i32⟩ : BufTy).Contents (Elt F)) : (⟨S160000, .i1⟩ : BufTy).Contents (Elt F) :=
  cmpi .slt (val_main_v3 (F := F) x3) (val_main_v266 (F := F))

def val_main_c_33 : (⟨S_, .i32⟩ : BufTy).Contents (Elt F) :=
  constantI S_ 32 10000#32

def val_main_v268 : (⟨S160000, .i32⟩ : BufTy).Contents (Elt F) :=
  broadcastInDim S160000 ![] bcast_S_S160000 (val_main_c_33 (F := F))

def val_main_v269 (x3 : (⟨S2x160000, .i32⟩ : BufTy).Contents (Elt F)) : (⟨S160000, .i32⟩ : BufTy).Contents (Elt F) :=
  addi (val_main_v3 (F := F) x3) (val_main_v268 (F := F))

def val_main_v270 (x3 : (⟨S2x160000, .i32⟩ : BufTy).Contents (Elt F)) : (⟨S160000, .i32⟩ : BufTy).Contents (Elt F) :=
  select (val_main_v267 (F := F) x3) (val_main_v269 (F := F) x3) (val_main_v3 (F := F) x3)

def val_main_v271 (x3 : (⟨S2x160000, .i32⟩ : BufTy).Contents (Elt F)) : (⟨S160000x1, .i32⟩ : BufTy).Contents (Elt F) :=
  broadcastInDim S160000x1 ![0] bcast_S160000_S160000x1_0 (val_main_v270 (F := F) x3)

def val_main_v272 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v251 (F := F) x0 x1 x2 x3 x5 x6 x7 x8 x9 x10 x11 x12 x13 x14 x15 x16 x17 x18 x19 x20 x21 x22 x23 x24) (val_main_v271 (F := F) x3)

def val_main_c_34 : (⟨S_, .i32⟩ : BufTy).Contents (Elt F) :=
  constantI S_ 32 0#32

def val_main_v273 : (⟨S160000, .i32⟩ : BufTy).Contents (Elt F) :=
  broadcastInDim S160000 ![] bcast_S_S160000 (val_main_c_34 (F := F))

def val_main_v274 (x3 : (⟨S2x160000, .i32⟩ : BufTy).Contents (Elt F)) : (⟨S160000, .i1⟩ : BufTy).Contents (Elt F) :=
  cmpi .slt (val_main_v1 (F := F) x3) (val_main_v273 (F := F))

def val_main_c_35 : (⟨S_, .i32⟩ : BufTy).Contents (Elt F) :=
  constantI S_ 32 10000#32

def val_main_v275 : (⟨S160000, .i32⟩ : BufTy).Contents (Elt F) :=
  broadcastInDim S160000 ![] bcast_S_S160000 (val_main_c_35 (F := F))

def val_main_v276 (x3 : (⟨S2x160000, .i32⟩ : BufTy).Contents (Elt F)) : (⟨S160000, .i32⟩ : BufTy).Contents (Elt F) :=
  addi (val_main_v1 (F := F) x3) (val_main_v275 (F := F))

def val_main_v277 (x3 : (⟨S2x160000, .i32⟩ : BufTy).Contents (Elt F)) : (⟨S160000, .i32⟩ : BufTy).Contents (Elt F) :=
  select (val_main_v274 (F := F) x3) (val_main_v276 (F := F) x3) (val_main_v1 (F := F) x3)

def val_main_v278 (x3 : (⟨S2x160000, .i32⟩ : BufTy).Contents (Elt F)) : (⟨S160000x1, .i32⟩ : BufTy).Contents (Elt F) :=
  broadcastInDim S160000x1 ![0] bcast_S160000_S160000x1_0 (val_main_v277 (F := F) x3)

def val_main_v279 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.gather gather_S10000x96_S160000x1_S160000x96_1_0_n_n_0_1_196 (val_main_v251 (F := F) x0 x1 x2 x3 x5 x6 x7 x8 x9 x10 x11 x12 x13 x14 x15 x16 x17 x18 x19 x20 x21 x22 x23 x24) (val_main_v278 (F := F) x3)

def val_main_v280 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x385, .f32⟩ : BufTy).Contents (Elt F) :=
  concatenate S160000x385 1 [⟨S160000x96, (val_main_v258 (F := F) x0 x1 x2 x3 x5 x6 x7 x8 x9 x10 x11 x12 x13 x14 x15 x16 x17 x18 x19 x20 x21 x22 x23 x24)⟩, ⟨S160000x96, (val_main_v265 (F := F) x0 x1 x2 x3 x5 x6 x7 x8 x9 x10 x11 x12 x13 x14 x15 x16 x17 x18 x19 x20 x21 x22 x23 x24)⟩, ⟨S160000x96, (val_main_v272 (F := F) x0 x1 x2 x3 x5 x6 x7 x8 x9 x10 x11 x12 x13 x14 x15 x16 x17 x18 x19 x20 x21 x22 x23 x24)⟩, ⟨S160000x96, (val_main_v279 (F := F) x0 x1 x2 x3 x5 x6 x7 x8 x9 x10 x11 x12 x13 x14 x15 x16 x17 x18 x19 x20 x21 x22 x23 x24)⟩, ⟨S160000x1, (val_main_v22 (F := F) x1 x3)⟩] concatenates_S160000x96_S160000x96_S160000x96_S160000x96_S160000x1_S160000x385_d1

def val_main_v281 (x11 : (⟨S3x385x96, .f32⟩ : BufTy).Contents (Elt F)) : (⟨S1x385x96, .f32⟩ : BufTy).Contents (Elt F) :=
  extractStridedSlice S1x385x96 ![2, 0, 0] (x11) slices_S3x385x96_S1x385x96_2_0_0

def val_main_v282 (x11 : (⟨S3x385x96, .f32⟩ : BufTy).Contents (Elt F)) : (⟨S385x96, .f32⟩ : BufTy).Contents (Elt F) :=
  shapeCast _ (val_main_v281 (F := F) x11) shapeCasts_S1x385x96_S385x96

def val_main_v283 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.dotGeneral dot_S160000x385_S385x96_S160000x96_1_0_0_1_n_n none (val_main_v280 (F := F) x0 x1 x2 x3 x5 x6 x7 x8 x9 x10 x11 x12 x13 x14 x15 x16 x17 x18 x19 x20 x21 x22 x23 x24) (val_main_v282 (F := F) x11)

def val_main_v284 (x12 : (⟨S3x96, .f32⟩ : BufTy).Contents (Elt F)) : (⟨S1x96, .f32⟩ : BufTy).Contents (Elt F) :=
  extractStridedSlice S1x96 ![2, 0] (x12) slices_S3x96_S1x96_2_0

def val_main_v285 (x12 : (⟨S3x96, .f32⟩ : BufTy).Contents (Elt F)) : (⟨S96, .f32⟩ : BufTy).Contents (Elt F) :=
  shapeCast _ (val_main_v284 (F := F) x12) shapeCasts_S1x96_S96

def val_main_v286 (x12 : (⟨S3x96, .f32⟩ : BufTy).Contents (Elt F)) : (⟨S1x96, .f32⟩ : BufTy).Contents (Elt F) :=
  broadcastInDim S1x96 ![1] bcast_S96_S1x96_1 (val_main_v285 (F := F) x12)

def val_main_v287 (x12 : (⟨S3x96, .f32⟩ : BufTy).Contents (Elt F)) : (⟨S160000x96, .f32⟩ : BufTy).Contents (Elt F) :=
  broadcastInDim S160000x96 ![0, 1] bcast_S1x96_S160000x96_0_1 (val_main_v286 (F := F) x12)

def val_main_v288 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  addf (val_main_v283 (F := F) x0 x1 x2 x3 x5 x6 x7 x8 x9 x10 x11 x12 x13 x14 x15 x16 x17 x18 x19 x20 x21 x22 x23 x24) (val_main_v287 (F := F) x12)

def val_main_call9_cst : (⟨S_, .f32⟩ : BufTy).Contents (Elt F) :=
  constant S_ .f32 0x00000000#32

def val_main_call9_v0 : (⟨S160000x96, .f32⟩ : BufTy).Contents (Elt F) :=
  broadcastInDim S160000x96 ![] bcast_S_S160000x96 (val_main_call9_cst (F := F))

def val_main_v289 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  maximumf (val_main_v288 (F := F) x0 x1 x2 x3 x5 x6 x7 x8 x9 x10 x11 x12 x13 x14 x15 x16 x17 x18 x19 x20 x21 x22 x23 x24) (val_main_call9_v0 (F := F))

def val_main_v290 (x13 : (⟨S3x96x96, .f32⟩ : BufTy).Contents (Elt F)) : (⟨S1x96x96, .f32⟩ : BufTy).Contents (Elt F) :=
  extractStridedSlice S1x96x96 ![2, 0, 0] (x13) slices_S3x96x96_S1x96x96_2_0_0

def val_main_v291 (x13 : (⟨S3x96x96, .f32⟩ : BufTy).Contents (Elt F)) : (⟨S96x96, .f32⟩ : BufTy).Contents (Elt F) :=
  shapeCast _ (val_main_v290 (F := F) x13) shapeCasts_S1x96x96_S96x96

def val_main_v292 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  Host.dotGeneral dot_S160000x96_S96x96_S160000x96_1_0_0_1_n_n none (val_main_v289 (F := F) x0 x1 x2 x3 x5 x6 x7 x8 x9 x10 x11 x12 x13 x14 x15 x16 x17 x18 x19 x20 x21 x22 x23 x24) (val_main_v291 (F := F) x13)

def val_main_v293 (x14 : (⟨S3x96, .f32⟩ : BufTy).Contents (Elt F)) : (⟨S1x96, .f32⟩ : BufTy).Contents (Elt F) :=
  extractStridedSlice S1x96 ![2, 0] (x14) slices_S3x96_S1x96_2_0

def val_main_v294 (x14 : (⟨S3x96, .f32⟩ : BufTy).Contents (Elt F)) : (⟨S96, .f32⟩ : BufTy).Contents (Elt F) :=
  shapeCast _ (val_main_v293 (F := F) x14) shapeCasts_S1x96_S96

def val_main_v295 (x14 : (⟨S3x96, .f32⟩ : BufTy).Contents (Elt F)) : (⟨S1x96, .f32⟩ : BufTy).Contents (Elt F) :=
  broadcastInDim S1x96 ![1] bcast_S96_S1x96_1 (val_main_v294 (F := F) x14)

def val_main_v296 (x14 : (⟨S3x96, .f32⟩ : BufTy).Contents (Elt F)) : (⟨S160000x96, .f32⟩ : BufTy).Contents (Elt F) :=
  broadcastInDim S160000x96 ![0, 1] bcast_S1x96_S160000x96_0_1 (val_main_v295 (F := F) x14)

def val_main_v297 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  addf (val_main_v292 (F := F) x0 x1 x2 x3 x5 x6 x7 x8 x9 x10 x11 x12 x13 x14 x15 x16 x17 x18 x19 x20 x21 x22 x23 x24) (val_main_v296 (F := F) x14)

def val_main_call10_cst : (⟨S_, .f32⟩ : BufTy).Contents (Elt F) :=
  constant S_ .f32 0x00000000#32

def val_main_call10_v0 : (⟨S160000x96, .f32⟩ : BufTy).Contents (Elt F) :=
  broadcastInDim S160000x96 ![] bcast_S_S160000x96 (val_main_call10_cst (F := F))

def val_main_v298 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  maximumf (val_main_v297 (F := F) x0 x1 x2 x3 x5 x6 x7 x8 x9 x10 x11 x12 x13 x14 x15 x16 x17 x18 x19 x20 x21 x22 x23 x24) (val_main_call10_v0 (F := F))

def val_main_v299 (x15 : (⟨S3x96x1, .f32⟩ : BufTy).Contents (Elt F)) : (⟨S1x96x1, .f32⟩ : BufTy).Contents (Elt F) :=
  extractStridedSlice S1x96x1 ![2, 0, 0] (x15) slices_S3x96x1_S1x96x1_2_0_0

def val_main_v300 (x15 : (⟨S3x96x1, .f32⟩ : BufTy).Contents (Elt F)) : (⟨S96x1, .f32⟩ : BufTy).Contents (Elt F) :=
  shapeCast _ (val_main_v299 (F := F) x15) shapeCasts_S1x96x1_S96x1

def val_main_v301 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.dotGeneral dot_S160000x96_S96x1_S160000x1_1_0_0_1_n_n none (val_main_v298 (F := F) x0 x1 x2 x3 x5 x6 x7 x8 x9 x10 x11 x12 x13 x14 x15 x16 x17 x18 x19 x20 x21 x22 x23 x24) (val_main_v300 (F := F) x15)

def val_main_v302 (x16 : (⟨S3x1, .f32⟩ : BufTy).Contents (Elt F)) : (⟨S1x1, .f32⟩ : BufTy).Contents (Elt F) :=
  extractStridedSlice S1x1 ![2, 0] (x16) slices_S3x1_S1x1_2_0

def val_main_v303 (x16 : (⟨S3x1, .f32⟩ : BufTy).Contents (Elt F)) : (⟨S1, .f32⟩ : BufTy).Contents (Elt F) :=
  shapeCast _ (val_main_v302 (F := F) x16) shapeCasts_S1x1_S1

def val_main_v304 (x16 : (⟨S3x1, .f32⟩ : BufTy).Contents (Elt F)) : (⟨S1x1, .f32⟩ : BufTy).Contents (Elt F) :=
  broadcastInDim S1x1 ![1] bcast_S1_S1x1_1 (val_main_v303 (F := F) x16)

def val_main_v305 (x16 : (⟨S3x1, .f32⟩ : BufTy).Contents (Elt F)) : (⟨S160000x1, .f32⟩ : BufTy).Contents (Elt F) :=
  broadcastInDim S160000x1 ![0, 1] bcast_S1x1_S160000x1_0_1 (val_main_v304 (F := F) x16)

def val_main_v306 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  addf (val_main_v301 (F := F) x0 x1 x2 x3 x5 x6 x7 x8 x9 x10 x11 x12 x13 x14 x15 x16 x17 x18 x19 x20 x21 x22 x23 x24) (val_main_v305 (F := F) x16)

def val_main_v307 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.negf (val_main_v306 (F := F) x0 x1 x2 x3 x5 x6 x7 x8 x9 x10 x11 x12 x13 x14 x15 x16 x17 x18 x19 x20 x21 x22 x23 x24)

def val_main_v308 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.exp (val_main_v307 (F := F) x0 x1 x2 x3 x5 x6 x7 x8 x9 x10 x11 x12 x13 x14 x15 x16 x17 x18 x19 x20 x21 x22 x23 x24)

def val_main_cst_36 : (⟨S_, .f32⟩ : BufTy).Contents (Elt F) :=
  constant S_ .f32 0x3F800000#32

def val_main_v309 : (⟨S160000x1, .f32⟩ : BufTy).Contents (Elt F) :=
  broadcastInDim S160000x1 ![] bcast_S_S160000x1 (val_main_cst_36 (F := F))

def val_main_v310 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  addf (val_main_v309 (F := F)) (val_main_v308 (F := F) x0 x1 x2 x3 x5 x6 x7 x8 x9 x10 x11 x12 x13 x14 x15 x16 x17 x18 x19 x20 x21 x22 x23 x24)

def val_main_cst_37 : (⟨S_, .f32⟩ : BufTy).Contents (Elt F) :=
  constant S_ .f32 0x3F800000#32

def val_main_v311 : (⟨S160000x1, .f32⟩ : BufTy).Contents (Elt F) :=
  broadcastInDim S160000x1 ![] bcast_S_S160000x1 (val_main_cst_37 (F := F))

def val_main_v312 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x1, .f32⟩ : BufTy).Contents (Elt F) :=
  Host.divf (val_main_v311 (F := F)) (val_main_v310 (F := F) x0 x1 x2 x3 x5 x6 x7 x8 x9 x10 x11 x12 x13 x14 x15 x16 x17 x18 x19 x20 x21 x22 x23 x24)

def val_main_v313 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  broadcastInDim S160000x96 ![0, 1] bcast_S160000x1_S160000x96_0_1 (val_main_v312 (F := F) x0 x1 x2 x3 x5 x6 x7 x8 x9 x10 x11 x12 x13 x14 x15 x16 x17 x18 x19 x20 x21 x22 x23 x24)

def val_main_v314 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S160000x96, .f32⟩ : BufTy).Contents (Elt F) :=
  mulf (val_main_v298 (F := F) x0 x1 x2 x3 x5 x6 x7 x8 x9 x10 x11 x12 x13 x14 x15 x16 x17 x18 x19 x20 x21 x22 x23 x24) (val_main_v313 (F := F) x0 x1 x2 x3 x5 x6 x7 x8 x9 x10 x11 x12 x13 x14 x15 x16 x17 x18 x19 x20 x21 x22 x23 x24)

def val_main_cst_38 : (⟨S_, .f32⟩ : BufTy).Contents (Elt F) :=
  constant S_ .f32 0x00000000#32

def val_main_v315 : (⟨S10000x96, .f32⟩ : BufTy).Contents (Elt F) :=
  broadcastInDim S10000x96 ![] bcast_S_S10000x96 (val_main_cst_38 (F := F))

def val_main_v316 (x3 : (⟨S2x160000, .i32⟩ : BufTy).Contents (Elt F)) : (⟨S160000x1, .i32⟩ : BufTy).Contents (Elt F) :=
  broadcastInDim S160000x1 ![0] bcast_S160000_S160000x1_0 (val_main_v3 (F := F) x3)

def val_main_v317 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.scatterAdd scatter_S10000x96_S160000x1_S160000x96_1_0_0_1 (val_main_v315 (F := F)) (val_main_v316 (F := F) x3) (val_main_v314 (F := F) x0 x1 x2 x3 x5 x6 x7 x8 x9 x10 x11 x12 x13 x14 x15 x16 x17 x18 x19 x20 x21 x22 x23 x24)

def val_main_v318 (x3 : (⟨S2x160000, .i32⟩ : BufTy).Contents (Elt F)) : (⟨S10000x96, .f32⟩ : BufTy).Contents (Elt F) :=
  broadcastInDim S10000x96 ![0, 1] bcast_S10000x1_S10000x96_0_1 (val_main_v41 (F := F) x3)

def val_main_v319 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.divf (val_main_v317 (F := F) x0 x1 x2 x3 x5 x6 x7 x8 x9 x10 x11 x12 x13 x14 x15 x16 x17 x18 x19 x20 x21 x22 x23 x24) (val_main_v318 (F := F) x3)

def val_main_v320 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x288, .f32⟩ : BufTy).Contents (Elt F) :=
  concatenate S10000x288 1 [⟨S10000x96, (val_main_v232 (F := F) x0 x1 x2 x3 x5 x6 x7 x8 x9 x10 x11 x12 x13 x14 x15 x16 x17 x18 x19 x20 x21 x22 x23 x24)⟩, ⟨S10000x96, (val_main_v251 (F := F) x0 x1 x2 x3 x5 x6 x7 x8 x9 x10 x11 x12 x13 x14 x15 x16 x17 x18 x19 x20 x21 x22 x23 x24)⟩, ⟨S10000x96, (val_main_v319 (F := F) x0 x1 x2 x3 x5 x6 x7 x8 x9 x10 x11 x12 x13 x14 x15 x16 x17 x18 x19 x20 x21 x22 x23 x24)⟩] concatenates_S10000x96_S10000x96_S10000x96_S10000x288_d1

def val_main_v321 (x17 : (⟨S3x288x96, .f32⟩ : BufTy).Contents (Elt F)) : (⟨S1x288x96, .f32⟩ : BufTy).Contents (Elt F) :=
  extractStridedSlice S1x288x96 ![2, 0, 0] (x17) slices_S3x288x96_S1x288x96_2_0_0

def val_main_v322 (x17 : (⟨S3x288x96, .f32⟩ : BufTy).Contents (Elt F)) : (⟨S288x96, .f32⟩ : BufTy).Contents (Elt F) :=
  shapeCast _ (val_main_v321 (F := F) x17) shapeCasts_S1x288x96_S288x96

def val_main_v323 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x288_S288x96_S10000x96_1_0_0_1_n_n none (val_main_v320 (F := F) x0 x1 x2 x3 x5 x6 x7 x8 x9 x10 x11 x12 x13 x14 x15 x16 x17 x18 x19 x20 x21 x22 x23 x24) (val_main_v322 (F := F) x17)

def val_main_v324 (x18 : (⟨S3x96, .f32⟩ : BufTy).Contents (Elt F)) : (⟨S1x96, .f32⟩ : BufTy).Contents (Elt F) :=
  extractStridedSlice S1x96 ![2, 0] (x18) slices_S3x96_S1x96_2_0

def val_main_v325 (x18 : (⟨S3x96, .f32⟩ : BufTy).Contents (Elt F)) : (⟨S96, .f32⟩ : BufTy).Contents (Elt F) :=
  shapeCast _ (val_main_v324 (F := F) x18) shapeCasts_S1x96_S96

def val_main_v326 (x18 : (⟨S3x96, .f32⟩ : BufTy).Contents (Elt F)) : (⟨S1x96, .f32⟩ : BufTy).Contents (Elt F) :=
  broadcastInDim S1x96 ![1] bcast_S96_S1x96_1 (val_main_v325 (F := F) x18)

def val_main_v327 (x18 : (⟨S3x96, .f32⟩ : BufTy).Contents (Elt F)) : (⟨S10000x96, .f32⟩ : BufTy).Contents (Elt F) :=
  broadcastInDim S10000x96 ![0, 1] bcast_S1x96_S10000x96_0_1 (val_main_v326 (F := F) x18)

def val_main_v328 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v323 (F := F) x0 x1 x2 x3 x5 x6 x7 x8 x9 x10 x11 x12 x13 x14 x15 x16 x17 x18 x19 x20 x21 x22 x23 x24) (val_main_v327 (F := F) x18)

def val_main_call11_cst : (⟨S_, .f32⟩ : BufTy).Contents (Elt F) :=
  constant S_ .f32 0x00000000#32

def val_main_call11_v0 : (⟨S10000x96, .f32⟩ : BufTy).Contents (Elt F) :=
  broadcastInDim S10000x96 ![] bcast_S_S10000x96 (val_main_call11_cst (F := F))

def val_main_v329 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  maximumf (val_main_v328 (F := F) x0 x1 x2 x3 x5 x6 x7 x8 x9 x10 x11 x12 x13 x14 x15 x16 x17 x18 x19 x20 x21 x22 x23 x24) (val_main_call11_v0 (F := F))

def val_main_v330 (x19 : (⟨S3x96x96, .f32⟩ : BufTy).Contents (Elt F)) : (⟨S1x96x96, .f32⟩ : BufTy).Contents (Elt F) :=
  extractStridedSlice S1x96x96 ![2, 0, 0] (x19) slices_S3x96x96_S1x96x96_2_0_0

def val_main_v331 (x19 : (⟨S3x96x96, .f32⟩ : BufTy).Contents (Elt F)) : (⟨S96x96, .f32⟩ : BufTy).Contents (Elt F) :=
  shapeCast _ (val_main_v330 (F := F) x19) shapeCasts_S1x96x96_S96x96

def val_main_v332 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x96_S96x96_S10000x96_1_0_0_1_n_n none (val_main_v329 (F := F) x0 x1 x2 x3 x5 x6 x7 x8 x9 x10 x11 x12 x13 x14 x15 x16 x17 x18 x19 x20 x21 x22 x23 x24) (val_main_v331 (F := F) x19)

def val_main_v333 (x20 : (⟨S3x96, .f32⟩ : BufTy).Contents (Elt F)) : (⟨S1x96, .f32⟩ : BufTy).Contents (Elt F) :=
  extractStridedSlice S1x96 ![2, 0] (x20) slices_S3x96_S1x96_2_0

def val_main_v334 (x20 : (⟨S3x96, .f32⟩ : BufTy).Contents (Elt F)) : (⟨S96, .f32⟩ : BufTy).Contents (Elt F) :=
  shapeCast _ (val_main_v333 (F := F) x20) shapeCasts_S1x96_S96

def val_main_v335 (x20 : (⟨S3x96, .f32⟩ : BufTy).Contents (Elt F)) : (⟨S1x96, .f32⟩ : BufTy).Contents (Elt F) :=
  broadcastInDim S1x96 ![1] bcast_S96_S1x96_1 (val_main_v334 (F := F) x20)

def val_main_v336 (x20 : (⟨S3x96, .f32⟩ : BufTy).Contents (Elt F)) : (⟨S10000x96, .f32⟩ : BufTy).Contents (Elt F) :=
  broadcastInDim S10000x96 ![0, 1] bcast_S1x96_S10000x96_0_1 (val_main_v335 (F := F) x20)

def val_main_v337 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v332 (F := F) x0 x1 x2 x3 x5 x6 x7 x8 x9 x10 x11 x12 x13 x14 x15 x16 x17 x18 x19 x20 x21 x22 x23 x24) (val_main_v336 (F := F) x20)

def val_main_v338 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x48, .f32⟩ : BufTy).Contents (Elt F) :=
  extractStridedSlice S10000x48 ![0, 0] (val_main_v319 (F := F) x0 x1 x2 x3 x5 x6 x7 x8 x9 x10 x11 x12 x13 x14 x15 x16 x17 x18 x19 x20 x21 x22 x23 x24) slices_S10000x96_S10000x48_0_0

def val_main_v339 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x144, .f32⟩ : BufTy).Contents (Elt F) :=
  concatenate S10000x144 1 [⟨S10000x96, (val_main_v251 (F := F) x0 x1 x2 x3 x5 x6 x7 x8 x9 x10 x11 x12 x13 x14 x15 x16 x17 x18 x19 x20 x21 x22 x23 x24)⟩, ⟨S10000x48, (val_main_v338 (F := F) x0 x1 x2 x3 x5 x6 x7 x8 x9 x10 x11 x12 x13 x14 x15 x16 x17 x18 x19 x20 x21 x22 x23 x24)⟩] concatenates_S10000x96_S10000x48_S10000x144_d1

def val_main_v340 (x21 : (⟨S3x144x96, .f32⟩ : BufTy).Contents (Elt F)) : (⟨S1x144x96, .f32⟩ : BufTy).Contents (Elt F) :=
  extractStridedSlice S1x144x96 ![2, 0, 0] (x21) slices_S3x144x96_S1x144x96_2_0_0

def val_main_v341 (x21 : (⟨S3x144x96, .f32⟩ : BufTy).Contents (Elt F)) : (⟨S144x96, .f32⟩ : BufTy).Contents (Elt F) :=
  shapeCast _ (val_main_v340 (F := F) x21) shapeCasts_S1x144x96_S144x96

def val_main_v342 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x144_S144x96_S10000x96_1_0_0_1_n_n none (val_main_v339 (F := F) x0 x1 x2 x3 x5 x6 x7 x8 x9 x10 x11 x12 x13 x14 x15 x16 x17 x18 x19 x20 x21 x22 x23 x24) (val_main_v341 (F := F) x21)

def val_main_v343 (x22 : (⟨S3x96, .f32⟩ : BufTy).Contents (Elt F)) : (⟨S1x96, .f32⟩ : BufTy).Contents (Elt F) :=
  extractStridedSlice S1x96 ![2, 0] (x22) slices_S3x96_S1x96_2_0

def val_main_v344 (x22 : (⟨S3x96, .f32⟩ : BufTy).Contents (Elt F)) : (⟨S96, .f32⟩ : BufTy).Contents (Elt F) :=
  shapeCast _ (val_main_v343 (F := F) x22) shapeCasts_S1x96_S96

def val_main_v345 (x22 : (⟨S3x96, .f32⟩ : BufTy).Contents (Elt F)) : (⟨S1x96, .f32⟩ : BufTy).Contents (Elt F) :=
  broadcastInDim S1x96 ![1] bcast_S96_S1x96_1 (val_main_v344 (F := F) x22)

def val_main_v346 (x22 : (⟨S3x96, .f32⟩ : BufTy).Contents (Elt F)) : (⟨S10000x96, .f32⟩ : BufTy).Contents (Elt F) :=
  broadcastInDim S10000x96 ![0, 1] bcast_S1x96_S10000x96_0_1 (val_main_v345 (F := F) x22)

def val_main_v347 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v342 (F := F) x0 x1 x2 x3 x5 x6 x7 x8 x9 x10 x11 x12 x13 x14 x15 x16 x17 x18 x19 x20 x21 x22 x23 x24) (val_main_v346 (F := F) x22)

def val_main_call12_cst : (⟨S_, .f32⟩ : BufTy).Contents (Elt F) :=
  constant S_ .f32 0x00000000#32

def val_main_call12_v0 : (⟨S10000x96, .f32⟩ : BufTy).Contents (Elt F) :=
  broadcastInDim S10000x96 ![] bcast_S_S10000x96 (val_main_call12_cst (F := F))

def val_main_v348 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  maximumf (val_main_v347 (F := F) x0 x1 x2 x3 x5 x6 x7 x8 x9 x10 x11 x12 x13 x14 x15 x16 x17 x18 x19 x20 x21 x22 x23 x24) (val_main_call12_v0 (F := F))

def val_main_v349 (x23 : (⟨S3x96x96, .f32⟩ : BufTy).Contents (Elt F)) : (⟨S1x96x96, .f32⟩ : BufTy).Contents (Elt F) :=
  extractStridedSlice S1x96x96 ![2, 0, 0] (x23) slices_S3x96x96_S1x96x96_2_0_0

def val_main_v350 (x23 : (⟨S3x96x96, .f32⟩ : BufTy).Contents (Elt F)) : (⟨S96x96, .f32⟩ : BufTy).Contents (Elt F) :=
  shapeCast _ (val_main_v349 (F := F) x23) shapeCasts_S1x96x96_S96x96

def val_main_v351 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  Host.dotGeneral dot_S10000x96_S96x96_S10000x96_1_0_0_1_n_n none (val_main_v348 (F := F) x0 x1 x2 x3 x5 x6 x7 x8 x9 x10 x11 x12 x13 x14 x15 x16 x17 x18 x19 x20 x21 x22 x23 x24) (val_main_v350 (F := F) x23)

def val_main_v352 (x24 : (⟨S3x96, .f32⟩ : BufTy).Contents (Elt F)) : (⟨S1x96, .f32⟩ : BufTy).Contents (Elt F) :=
  extractStridedSlice S1x96 ![2, 0] (x24) slices_S3x96_S1x96_2_0

def val_main_v353 (x24 : (⟨S3x96, .f32⟩ : BufTy).Contents (Elt F)) : (⟨S96, .f32⟩ : BufTy).Contents (Elt F) :=
  shapeCast _ (val_main_v352 (F := F) x24) shapeCasts_S1x96_S96

def val_main_v354 (x24 : (⟨S3x96, .f32⟩ : BufTy).Contents (Elt F)) : (⟨S1x96, .f32⟩ : BufTy).Contents (Elt F) :=
  broadcastInDim S1x96 ![1] bcast_S96_S1x96_1 (val_main_v353 (F := F) x24)

def val_main_v355 (x24 : (⟨S3x96, .f32⟩ : BufTy).Contents (Elt F)) : (⟨S10000x96, .f32⟩ : BufTy).Contents (Elt F) :=
  broadcastInDim S10000x96 ![0, 1] bcast_S1x96_S10000x96_0_1 (val_main_v354 (F := F) x24)

def val_main_v356 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) : (⟨S10000x96, .f32⟩ : BufTy).Contents (Elt F) :=
  addf (val_main_v351 (F := F) x0 x1 x2 x3 x5 x6 x7 x8 x9 x10 x11 x12 x13 x14 x15 x16 x17 x18 x19 x20 x21 x22 x23 x24) (val_main_v355 (F := F) x24)

def val_main_v357 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) : (⟨S10000x96, .f32⟩ : BufTy).Contents (Elt F) :=
  Host.dotGeneral dot_S10000x96_S96x96_S10000x96_1_0_0_1_n_n none (val_main_v337 (F := F) x0 x1 x2 x3 x5 x6 x7 x8 x9 x10 x11 x12 x13 x14 x15 x16 x17 x18 x19 x20 x21 x22 x23 x24) (x25)

def val_main_v358 (x26 : (⟨S96, .f32⟩ : BufTy).Contents (Elt F)) : (⟨S1x96, .f32⟩ : BufTy).Contents (Elt F) :=
  broadcastInDim S1x96 ![1] bcast_S96_S1x96_1 (x26)

def val_main_v359 (x26 : (⟨S96, .f32⟩ : BufTy).Contents (Elt F)) : (⟨S10000x96, .f32⟩ : BufTy).Contents (Elt F) :=
  broadcastInDim S10000x96 ![0, 1] bcast_S1x96_S10000x96_0_1 (val_main_v358 (F := F) x26)

def val_main_v360 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) : (⟨S10000x96, .f32⟩ : BufTy).Contents (Elt F) :=
  addf (val_main_v357 (F := F) x0 x1 x2 x3 x5 x6 x7 x8 x9 x10 x11 x12 x13 x14 x15 x16 x17 x18 x19 x20 x21 x22 x23 x24 x25) (val_main_v359 (F := F) x26)

def val_main_call13_cst : (⟨S_, .f32⟩ : BufTy).Contents (Elt F) :=
  constant S_ .f32 0x00000000#32

def val_main_call13_v0 : (⟨S10000x96, .f32⟩ : BufTy).Contents (Elt F) :=
  broadcastInDim S10000x96 ![] bcast_S_S10000x96 (val_main_call13_cst (F := F))

def val_main_v361 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) : (⟨S10000x96, .f32⟩ : BufTy).Contents (Elt F) :=
  maximumf (val_main_v360 (F := F) x0 x1 x2 x3 x5 x6 x7 x8 x9 x10 x11 x12 x13 x14 x15 x16 x17 x18 x19 x20 x21 x22 x23 x24 x25 x26) (val_main_call13_v0 (F := F))

def val_main_v362 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) : (⟨S10000x96, .f32⟩ : BufTy).Contents (Elt F) :=
  Host.dotGeneral dot_S10000x96_S96x96_S10000x96_1_0_0_1_n_n none (val_main_v361 (F := F) x0 x1 x2 x3 x5 x6 x7 x8 x9 x10 x11 x12 x13 x14 x15 x16 x17 x18 x19 x20 x21 x22 x23 x24 x25 x26) (x27)

def val_main_v363 (x28 : (⟨S96, .f32⟩ : BufTy).Contents (Elt F)) : (⟨S1x96, .f32⟩ : BufTy).Contents (Elt F) :=
  broadcastInDim S1x96 ![1] bcast_S96_S1x96_1 (x28)

def val_main_v364 (x28 : (⟨S96, .f32⟩ : BufTy).Contents (Elt F)) : (⟨S10000x96, .f32⟩ : BufTy).Contents (Elt F) :=
  broadcastInDim S10000x96 ![0, 1] bcast_S1x96_S10000x96_0_1 (val_main_v363 (F := F) x28)

def val_main_v365 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) : (⟨S10000x96, .f32⟩ : BufTy).Contents (Elt F) :=
  addf (val_main_v362 (F := F) x0 x1 x2 x3 x5 x6 x7 x8 x9 x10 x11 x12 x13 x14 x15 x16 x17 x18 x19 x20 x21 x22 x23 x24 x25 x26 x27) (val_main_v364 (F := F) x28)

def val_main_cst_39 : (⟨S_, .f32⟩ : BufTy).Contents (Elt F) :=
  constant S_ .f32 0x00000000#32

def val_main_v366 : (⟨S500x96, .f32⟩ : BufTy).Contents (Elt F) :=
  broadcastInDim S500x96 ![] bcast_S_S500x96 (val_main_cst_39 (F := F))

def val_main_v367 (x4 : (⟨S10000, .i32⟩ : BufTy).Contents (Elt F)) : (⟨S10000x1, .i32⟩ : BufTy).Contents (Elt F) :=
  broadcastInDim S10000x1 ![0] bcast_S10000_S10000x1_0 (x4)

def val_main_v368 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) : (⟨S500x96, .f32⟩ : BufTy).Contents (Elt F) :=
  Host.scatterAdd scatter_S500x96_S10000x1_S10000x96_1_0_0_1 (val_main_v366 (F := F)) (val_main_v367 (F := F) x4) (val_main_v365 (F := F) x0 x1 x2 x3 x5 x6 x7 x8 x9 x10 x11 x12 x13 x14 x15 x16 x17 x18 x19 x20 x21 x22 x23 x24 x25 x26 x27 x28)

def val_main_v369 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) (x29 : (⟨S96x96, .f32⟩ : BufTy).Contents (Elt F)) : (⟨S500x96, .f32⟩ : BufTy).Contents (Elt F) :=
  Host.dotGeneral dot_S500x96_S96x96_S500x96_1_0_0_1_n_n none (val_main_v368 (F := F) x0 x1 x2 x3 x4 x5 x6 x7 x8 x9 x10 x11 x12 x13 x14 x15 x16 x17 x18 x19 x20 x21 x22 x23 x24 x25 x26 x27 x28) (x29)

def val_main_v370 (x30 : (⟨S96, .f32⟩ : BufTy).Contents (Elt F)) : (⟨S1x96, .f32⟩ : BufTy).Contents (Elt F) :=
  broadcastInDim S1x96 ![1] bcast_S96_S1x96_1 (x30)

def val_main_v371 (x30 : (⟨S96, .f32⟩ : BufTy).Contents (Elt F)) : (⟨S500x96, .f32⟩ : BufTy).Contents (Elt F) :=
  broadcastInDim S500x96 ![0, 1] bcast_S1x96_S500x96_0_1 (val_main_v370 (F := F) x30)

def val_main_v372 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) (x29 : (⟨S96x96, .f32⟩ : BufTy).Contents (Elt F)) (x30 : (⟨S96, .f32⟩ : BufTy).Contents (Elt F)) : (⟨S500x96, .f32⟩ : BufTy).Contents (Elt F) :=
  addf (val_main_v369 (F := F) x0 x1 x2 x3 x4 x5 x6 x7 x8 x9 x10 x11 x12 x13 x14 x15 x16 x17 x18 x19 x20 x21 x22 x23 x24 x25 x26 x27 x28 x29) (val_main_v371 (F := F) x30)

def val_main_call14_cst : (⟨S_, .f32⟩ : BufTy).Contents (Elt F) :=
  constant S_ .f32 0x00000000#32

def val_main_call14_v0 : (⟨S500x96, .f32⟩ : BufTy).Contents (Elt F) :=
  broadcastInDim S500x96 ![] bcast_S_S500x96 (val_main_call14_cst (F := F))

def val_main_v373 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) (x29 : (⟨S96x96, .f32⟩ : BufTy).Contents (Elt F)) (x30 : (⟨S96, .f32⟩ : BufTy).Contents (Elt F)) : (⟨S500x96, .f32⟩ : BufTy).Contents (Elt F) :=
  maximumf (val_main_v372 (F := F) x0 x1 x2 x3 x4 x5 x6 x7 x8 x9 x10 x11 x12 x13 x14 x15 x16 x17 x18 x19 x20 x21 x22 x23 x24 x25 x26 x27 x28 x29 x30) (val_main_call14_v0 (F := F))

def val_main_v374 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) (x29 : (⟨S96x96, .f32⟩ : BufTy).Contents (Elt F)) (x30 : (⟨S96, .f32⟩ : BufTy).Contents (Elt F)) (x31 : (⟨S96x96, .f32⟩ : BufTy).Contents (Elt F)) : (⟨S500x96, .f32⟩ : BufTy).Contents (Elt F) :=
  Host.dotGeneral dot_S500x96_S96x96_S500x96_1_0_0_1_n_n none (val_main_v373 (F := F) x0 x1 x2 x3 x4 x5 x6 x7 x8 x9 x10 x11 x12 x13 x14 x15 x16 x17 x18 x19 x20 x21 x22 x23 x24 x25 x26 x27 x28 x29 x30) (x31)

def val_main_v375 (x32 : (⟨S96, .f32⟩ : BufTy).Contents (Elt F)) : (⟨S1x96, .f32⟩ : BufTy).Contents (Elt F) :=
  broadcastInDim S1x96 ![1] bcast_S96_S1x96_1 (x32)

def val_main_v376 (x32 : (⟨S96, .f32⟩ : BufTy).Contents (Elt F)) : (⟨S500x96, .f32⟩ : BufTy).Contents (Elt F) :=
  broadcastInDim S500x96 ![0, 1] bcast_S1x96_S500x96_0_1 (val_main_v375 (F := F) x32)

def val_main_v377 (x0 : (⟨S10000x11, .f32⟩ : BufTy).Contents (Elt F)) (x1 : (⟨S10000x3, .f32⟩ : BufTy).Contents (Elt F)) (x2 : (⟨S10000x8, .f32⟩ : BufTy).Contents (Elt F)) (x3 : (⟨S2x160000, .i32⟩ : BufTy).Contents (Elt F)) (x4 : (⟨S10000, .i32⟩ : BufTy).Contents (Elt F)) (x5 : (⟨S11x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S8x96, .f32⟩ : BufTy).Contents (Elt F)) (x10 : (⟨S96, .f32⟩ : BufTy).Contents (Elt F)) (x11 : (⟨S3x385x96, .f32⟩ : BufTy).Contents (Elt F)) (x12 : (⟨S3x96, .f32⟩ : BufTy).Contents (Elt F)) (x13 : (⟨S3x96x96, .f32⟩ : BufTy).Contents (Elt F)) (x14 : (⟨S3x96, .f32⟩ : BufTy).Contents (Elt F)) (x15 : (⟨S3x96x1, .f32⟩ : BufTy).Contents (Elt F)) (x16 : (⟨S3x1, .f32⟩ : BufTy).Contents (Elt F)) (x17 : (⟨S3x288x96, .f32⟩ : BufTy).Contents (Elt F)) (x18 : (⟨S3x96, .f32⟩ : BufTy).Contents (Elt F)) (x19 : (⟨S3x96x96, .f32⟩ : BufTy).Contents (Elt F)) (x20 : (⟨S3x96, .f32⟩ : BufTy).Contents (Elt F)) (x21 : (⟨S3x144x96, .f32⟩ : BufTy).Contents (Elt F)) (x22 : (⟨S3x96, .f32⟩ : BufTy).Contents (Elt F)) (x23 : (⟨S3x96x96, .f32⟩ : BufTy).Contents (Elt F)) (x24 : (⟨S3x96, .f32⟩ : BufTy).Contents (Elt F)) (x25 : (⟨S96x96, .f32⟩ : BufTy).Contents (Elt F)) (x26 : (⟨S96, .f32⟩ : BufTy).Contents (Elt F)) (x27 : (⟨S96x96, .f32⟩ : BufTy).Contents (Elt F)) (x28 : (⟨S96, .f32⟩ : BufTy).Contents (Elt F)) (x29 : (⟨S96x96, .f32⟩ : BufTy).Contents (Elt F)) (x30 : (⟨S96, .f32⟩ : BufTy).Contents (Elt F)) (x31 : (⟨S96x96, .f32⟩ : BufTy).Contents (Elt F)) (x32 : (⟨S96, .f32⟩ : BufTy).Contents (Elt F)) : (⟨S500x96, .f32⟩ : BufTy).Contents (Elt F) :=
  addf (val_main_v374 (F := F) x0 x1 x2 x3 x4 x5 x6 x7 x8 x9 x10 x11 x12 x13 x14 x15 x16 x17 x18 x19 x20 x21 x22 x23 x24 x25 x26 x27 x28 x29 x30 x31) (val_main_v376 (F := F) x32)

end Cert.ReferenceIdeal.Stages

end
-- ==== Proof.LibNary.lean ====
/-
  A host operation over a literal family of three or of five buffers, read at its result.

  An operation of several operands (a concatenation) is printed over a family `![a, b, …]` of references, and its result
  is its function of the family `fun k => F (xs k)` of the operands' contents.  Under that binder the reference
  `![a, b, …] k` is no literal, so nothing more can be said of the contents there.  For a literal family the same result
  is the function of the contents listed one by one, each AT ITS OWN reference, where the contents of each operand can be
  read further.  The library states this for four operands; here are three and five, in the same words.
-/
import Idealize.ShloMosaic.Lib.StableHlo.Run

namespace Cert.LibNary

open Idealize.ShloMosaic Idealize.ShloMosaic.TcCoe Idealize.SL.Sem Idealize.ShloMosaic.StableHlo

variable {τ : Topo} {sig : RefSig} {Val : EltTy → Type}
variable {x a b c d y : Ref sig .tc}

/-- The result of an operation over three literal references, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The result of an operation over five literal references, each operand's contents at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.LibNary

/-- The contents of one buffer after a literal line of host operations, in one pass: every operation's result at its own
    result buffer is its function of its operands' contents, and at any other buffer what was there; an operation over
    three, four or five literal references is read operand by operand. -/
macro "after_results_each" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- What the one pass leaves unread — contents standing inside a pair of a concatenation's list, where a rewriting pass
    does not enter —, read by rewriting: each operation's result at its own result buffer to its function's value, at
    any other buffer to what was there, until none applies. -/
macro "after_results_rest" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))
-- ==== Proof.RefRun.lean ====
/-
  The reference's run, one stretch of its line at a time.

  A straight line of host operations leaves every buffer at the fold of the operations' results over the launch contents.
  Read in stretches, the contents after one stretch are the contents the next is entered with: a buffer a stretch does not
  write keeps its contents, and a buffer it writes holds the stretch's operations applied to the contents it was entered
  with — which, for the arrays later stretches read, are the reference's named stages of the argument arrays.  So after the
  last stretch the result buffer holds the last stage, and every argument array is as launched.
-/
import proofs.«112516_j88167088653030_2_alg».proof.Proof.RefOps
import proofs.«112516_j88167088653030_2_alg».proof.Proof.RefVals
import proofs.«112516_j88167088653030_2_alg».proof.Proof.LibNary
import Idealize.ShloMosaic.Lib.StableHlo.Run

set_option maxRecDepth 16384
set_option maxHeartbeats 600000

noncomputable section

namespace Cert.ReferenceIdeal.RefRun

open Cert.ReferenceIdeal Cert.ReferenceIdeal.Gen Cert.ReferenceIdeal.Line
open Idealize.ShloMosaic Idealize.ShloMosaic.TcCoe Idealize.ShloMosaic.StableHlo Idealize.SL.Sem

variable (m : (ℓ : Loc nD τ sig) → Buf (Elt Ideal) ℓ)

/-- Core c's buffers at launch. -/
def U0 (c : Dev nD) : Valuation τ sig (Elt Ideal) := StableHlo.launchContents m c
def U1 (c : Dev nD) : Valuation τ sig (Elt Ideal) := StableHlo.after ops0 (U0 m c)
def U2 (c : Dev nD) : Valuation τ sig (Elt Ideal) := StableHlo.after ops1 (U1 m c)
def U3 (c : Dev nD) : Valuation τ sig (Elt Ideal) := StableHlo.after ops2 (U2 m c)
def U4 (c : Dev nD) : Valuation τ sig (Elt Ideal) := StableHlo.after ops3 (U3 m c)
def U5 (c : Dev nD) : Valuation τ sig (Elt Ideal) := StableHlo.after ops4 (U4 m c)
def U6 (c : Dev nD) : Valuation τ sig (Elt Ideal) := StableHlo.after ops5 (U5 m c)
def U7 (c : Dev nD) : Valuation τ sig (Elt Ideal) := StableHlo.after ops6 (U6 m c)
def U8 (c : Dev nD) : Valuation τ sig (Elt Ideal) := StableHlo.after ops7 (U7 m c)
def U9 (c : Dev nD) : Valuation τ sig (Elt Ideal) := StableHlo.after ops8 (U8 m c)
def U10 (c : Dev nD) : Valuation τ sig (Elt Ideal) := StableHlo.after ops9 (U9 m c)
def U11 (c : Dev nD) : Valuation τ sig (Elt Ideal) := StableHlo.after ops10 (U10 m c)
def U12 (c : Dev nD) : Valuation τ sig (Elt Ideal) := StableHlo.after ops11 (U11 m c)
def U13 (c : Dev nD) : Valuation τ sig (Elt Ideal) := StableHlo.after ops12 (U12 m c)
def U14 (c : Dev nD) : Valuation τ sig (Elt Ideal) := StableHlo.after ops13 (U13 m c)
def U15 (c : Dev nD) : Valuation τ sig (Elt Ideal) := StableHlo.after ops14 (U14 m c)
def U16 (c : Dev nD) : Valuation τ sig (Elt Ideal) := StableHlo.after ops15 (U15 m c)
def U17 (c : Dev nD) : Valuation τ sig (Elt Ideal) := StableHlo.after ops16 (U16 m c)
def U18 (c : Dev nD) : Valuation τ sig (Elt Ideal) := StableHlo.after ops17 (U17 m c)
def U19 (c : Dev nD) : Valuation τ sig (Elt Ideal) := StableHlo.after ops18 (U18 m c)
def U20 (c : Dev nD) : Valuation τ sig (Elt Ideal) := StableHlo.after ops19 (U19 m c)
def U21 (c : Dev nD) : Valuation τ sig (Elt Ideal) := StableHlo.after ops20 (U20 m c)

/-- The whole line's contents are the stretches' in turn. -/
theorem after_ops (V : Valuation τ sig (Elt Ideal)) : StableHlo.after (ops (F := Ideal)) V = StableHlo.after ops20 (StableHlo.after ops19 (StableHlo.after ops18 (StableHlo.after ops17 (StableHlo.after ops16 (StableHlo.after ops15 (StableHlo.after ops14 (StableHlo.after ops13 (StableHlo.after ops12 (StableHlo.after ops11 (StableHlo.after ops10 (StableHlo.after ops9 (StableHlo.after ops8 (StableHlo.after ops7 (StableHlo.after ops6 (StableHlo.after ops5 (StableHlo.after ops4 (StableHlo.after ops3 (StableHlo.after ops2 (StableHlo.after ops1 (StableHlo.after ops0 (V))))))))))))))))))))) :=
  after_split V

theorem G0_arg0 (c : Dev nD) : U0 m c (Proc.devRef .tc main_arg0) = m ((c.tc : Thread nD τ).loc main_arg0) := rfl

theorem G1_arg0 (c : Dev nD) : U1 m c (Proc.devRef .tc main_arg0) = m ((c.tc : Thread nD τ).loc main_arg0) :=
  (ops0_keep _ main_arg0 (by decide)).trans (G0_arg0 m c)

theorem G0_arg5 (c : Dev nD) : U0 m c (Proc.devRef .tc main_arg5) = m ((c.tc : Thread nD τ).loc main_arg5) := rfl

theorem G1_arg5 (c : Dev nD) : U1 m c (Proc.devRef .tc main_arg5) = m ((c.tc : Thread nD τ).loc main_arg5) :=
  (ops0_keep _ main_arg5 (by decide)).trans (G0_arg5 m c)

theorem G0_arg6 (c : Dev nD) : U0 m c (Proc.devRef .tc main_arg6) = m ((c.tc : Thread nD τ).loc main_arg6) := rfl

theorem G1_arg6 (c : Dev nD) : U1 m c (Proc.devRef .tc main_arg6) = m ((c.tc : Thread nD τ).loc main_arg6) :=
  (ops0_keep _ main_arg6 (by decide)).trans (G0_arg6 m c)

theorem G0_arg7 (c : Dev nD) : U0 m c (Proc.devRef .tc main_arg7) = m ((c.tc : Thread nD τ).loc main_arg7) := rfl

theorem G1_arg7 (c : Dev nD) : U1 m c (Proc.devRef .tc main_arg7) = m ((c.tc : Thread nD τ).loc main_arg7) :=
  (ops0_keep _ main_arg7 (by decide)).trans (G0_arg7 m c)

theorem G0_arg8 (c : Dev nD) : U0 m c (Proc.devRef .tc main_arg8) = m ((c.tc : Thread nD τ).loc main_arg8) := rfl

theorem G1_arg8 (c : Dev nD) : U1 m c (Proc.devRef .tc main_arg8) = m ((c.tc : Thread nD τ).loc main_arg8) :=
  (ops0_keep _ main_arg8 (by decide)).trans (G0_arg8 m c)

theorem G2_v31 (c : Dev nD) : U2 m c (Proc.devRef .tc main_v31) = Cert.ReferenceIdeal.Stages.val_main_v31 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) := by
  show StableHlo.after q1 (U1 m c) (Proc.devRef .tc main_v31) = _
  unfold q1
  after_results_each
  simp only [StableHlo.TRef.toBuf, StableHlo.TRef.ofBuf, cast_eq, G1_arg0 m c, G1_arg5 m c, G1_arg6 m c, G1_arg7 m c, G1_arg8 m c] <;> rfl

theorem G3_v31 (c : Dev nD) : U3 m c (Proc.devRef .tc main_v31) = Cert.ReferenceIdeal.Stages.val_main_v31 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (ops2_keep _ main_v31 (by decide)).trans (G2_v31 m c)

theorem G4_v31 (c : Dev nD) : U4 m c (Proc.devRef .tc main_v31) = Cert.ReferenceIdeal.Stages.val_main_v31 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (ops3_keep _ main_v31 (by decide) (by decide)).trans (G3_v31 m c)

theorem G5_v31 (c : Dev nD) : U5 m c (Proc.devRef .tc main_v31) = Cert.ReferenceIdeal.Stages.val_main_v31 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (ops4_keep _ main_v31 (by decide) (by decide)).trans (G4_v31 m c)

theorem G6_v31 (c : Dev nD) : U6 m c (Proc.devRef .tc main_v31) = Cert.ReferenceIdeal.Stages.val_main_v31 (F := Ideal) (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) :=
  (ops5_keep _ main_v31 (by decide)).trans (G5_v31 m c)

theorem G0_arg2 (c : Dev nD) : U0 m c (Proc.devRef .tc main_arg2) = m ((c.tc : Thread nD τ).loc main_arg2) := rfl

theorem G1_arg2 (c : Dev nD) : U1 m c (Proc.devRef .tc main_arg2) = m ((c.tc : Thread nD τ).loc main_arg2) :=
  (ops0_keep _ main_arg2 (by decide)).trans (G0_arg2 m c)

theorem G0_arg9 (c : Dev nD) : U0 m c (Proc.devRef .tc main_arg9) = m ((c.tc : Thread nD τ).loc main_arg9) := rfl

theorem G1_arg9 (c : Dev nD) : U1 m c (Proc.devRef .tc main_arg9) = m ((c.tc : Thread nD τ).loc main_arg9) :=
  (ops0_keep _ main_arg9 (by decide)).trans (G0_arg9 m c)

theorem G0_arg10 (c : Dev nD) : U0 m c (Proc.devRef .tc main_arg10) = m ((c.tc : Thread nD τ).loc main_arg10) := rfl

theorem G1_arg10 (c : Dev nD) : U1 m c (Proc.devRef .tc main_arg10) = m ((c.tc : Thread nD τ).loc main_arg10) :=
  (ops0_keep _ main_arg10 (by decide)).trans (G0_arg10 m c)

theorem G2_v35 (c : Dev nD) : U2 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) := by
  show StableHlo.after q1 (U1 m c) (Proc.devRef .tc main_v35) = _
  unfold q1
  after_results_each
  simp only [StableHlo.TRef.toBuf, StableHlo.TRef.ofBuf, cast_eq, G1_arg2 m c, G1_arg9 m c, G1_arg10 m c] <;> rfl

theorem G3_v35 (c : Dev nD) : U3 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) :=
  (ops2_keep _ main_v35 (by decide)).trans (G2_v35 m c)

theorem G4_v35 (c : Dev nD) : U4 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) :=
  (ops3_keep _ main_v35 (by decide) (by decide)).trans (G3_v35 m c)

theorem G5_v35 (c : Dev nD) : U5 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) :=
  (ops4_keep _ main_v35 (by decide) (by decide)).trans (G4_v35 m c)

theorem G6_v35 (c : Dev nD) : U6 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) :=
  (ops5_keep _ main_v35 (by decide)).trans (G5_v35 m c)

theorem G0_arg3 (c : Dev nD) : U0 m c (Proc.devRef .tc main_arg3) = m ((c.tc : Thread nD τ).loc main_arg3) := rfl

theorem G1_v1 (c : Dev nD) : U1 m c (Proc.devRef .tc main_v1) = Cert.ReferenceIdeal.Stages.val_main_v1 (F := Ideal) (m ((c.tc : Thread nD τ).loc main_arg3)) := by
  show StableHlo.after q0 (U0 m c) (Proc.devRef .tc main_v1) = _
  unfold q0
  after_results_each
  simp only [StableHlo.TRef.toBuf, StableHlo.TRef.ofBuf, cast_eq, G0_arg3 m c] <;> rfl

theorem G2_v1 (c : Dev nD) : U2 m c (Proc.devRef .tc main_v1) = Cert.ReferenceIdeal.Stages.val_main_v1 (F := Ideal) (m ((c.tc : Thread nD τ).loc main_arg3)) :=
  (ops1_keep _ main_v1 (by decide)).trans (G1_v1 m c)

theorem G3_v1 (c : Dev nD) : U3 m c (Proc.devRef .tc main_v1) = Cert.ReferenceIdeal.Stages.val_main_v1 (F := Ideal) (m ((c.tc : Thread nD τ).loc main_arg3)) :=
  (ops2_keep _ main_v1 (by decide)).trans (G2_v1 m c)

theorem G1_v3 (c : Dev nD) : U1 m c (Proc.devRef .tc main_v3) = Cert.ReferenceIdeal.Stages.val_main_v3 (F := Ideal) (m ((c.tc : Thread nD τ).loc main_arg3)) := by
  show StableHlo.after q0 (U0 m c) (Proc.devRef .tc main_v3) = _
  unfold q0
  after_results_each
  simp only [StableHlo.TRef.toBuf, StableHlo.TRef.ofBuf, cast_eq, G0_arg3 m c] <;> rfl

theorem G2_v3 (c : Dev nD) : U2 m c (Proc.devRef .tc main_v3) = Cert.ReferenceIdeal.Stages.val_main_v3 (F := Ideal) (m ((c.tc : Thread nD τ).loc main_arg3)) :=
  (ops1_keep _ main_v3 (by decide)).trans (G1_v3 m c)

theorem G3_v3 (c : Dev nD) : U3 m c (Proc.devRef .tc main_v3) = Cert.ReferenceIdeal.Stages.val_main_v3 (F := Ideal) (m ((c.tc : Thread nD τ).loc main_arg3)) :=
  (ops2_keep _ main_v3 (by decide)).trans (G2_v3 m c)

theorem G0_arg1 (c : Dev nD) : U0 m c (Proc.devRef .tc main_arg1) = m ((c.tc : Thread nD τ).loc main_arg1) := rfl

theorem G1_v22 (c : Dev nD) : U1 m c (Proc.devRef .tc main_v22) = Cert.ReferenceIdeal.Stages.val_main_v22 (F := Ideal) (m ((c.tc : Thread nD τ).loc main_arg1)) (m ((c.tc : Thread nD τ).loc main_arg3)) := by
  show StableHlo.after q0 (U0 m c) (Proc.devRef .tc main_v22) = _
  unfold q0
  after_results_each
  simp only [StableHlo.TRef.toBuf, StableHlo.TRef.ofBuf, cast_eq, G0_arg1 m c, G0_arg3 m c] <;> rfl

theorem G2_v22 (c : Dev nD) : U2 m c (Proc.devRef .tc main_v22) = Cert.ReferenceIdeal.Stages.val_main_v22 (F := Ideal) (m ((c.tc : Thread nD τ).loc main_arg1)) (m ((c.tc : Thread nD τ).loc main_arg3)) :=
  (ops1_keep _ main_v22 (by decide)).trans (G1_v22 m c)

theorem G3_v22 (c : Dev nD) : U3 m c (Proc.devRef .tc main_v22) = Cert.ReferenceIdeal.Stages.val_main_v22 (F := Ideal) (m ((c.tc : Thread nD τ).loc main_arg1)) (m ((c.tc : Thread nD τ).loc main_arg3)) :=
  (ops2_keep _ main_v22 (by decide)).trans (G2_v22 m c)

theorem H3_v48 (c : Dev nD) : StableHlo.after q4i (StableHlo.after q3 (U3 m c)) (Proc.devRef .tc main_v48) = Cert.ReferenceIdeal.Stages.val_main_v48 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  unfold q4i q3
  after_results_each
  simp only [StableHlo.TRef.toBuf, StableHlo.TRef.ofBuf, cast_eq, G3_v31 m c, G3_v35 m c, G3_v1 m c, G3_v3 m c, G3_v22 m c] <;> rfl

theorem H3_v55 (c : Dev nD) : StableHlo.after q4i (StableHlo.after q3 (U3 m c)) (Proc.devRef .tc main_v55) = Cert.ReferenceIdeal.Stages.val_main_v55 (F := Ideal) (m ((c.tc : Thread nD τ).loc main_arg0)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  unfold q4i q3
  after_results_each
  simp only [StableHlo.TRef.toBuf, StableHlo.TRef.ofBuf, cast_eq, G3_v31 m c, G3_v35 m c, G3_v1 m c, G3_v3 m c, G3_v22 m c] <;> rfl

theorem H3_v62 (c : Dev nD) : StableHlo.after q4i (StableHlo.after q3 (U3 m c)) (Proc.devRef .tc main_v62) = Cert.ReferenceIdeal.Stages.val_main_v62 (F := Ideal) (m ((c.tc : Thread nD τ).loc main_arg2)) (m ((c.tc : Thread nD τ).loc main_arg3)) (m ((c.tc : Thread nD τ).loc main_arg9)) (m ((c.tc : Thread nD τ).loc main_arg10)) := by
  unfold q4i q3
  after_results_each
  simp only [StableHlo.TRef.toBuf, StableHlo.TRef.ofBuf, cast_eq, G3_v31 m c, G3_v35 m c, G3_v1 m c, G3_v3 m c, G3_v22 m c] <;> rfl

theorem H3_v69 (c : Dev nD) : StableHlo.after q4i (StableHlo.after q3 (U3 m c)) (Proc.devRef .tc main_v69) = Cert.ReferenceIdeal.Stages.val_main_v69 (F := Ideal) (m ((c.tc : Thread nD τ).loc main_arg2)) (m ((c.tc : Thread nD τ).loc main_arg3)) (m ((c.tc : Thread nD τ).loc main_arg9)) (m ((c.tc : Thread nD τ).loc main_arg10)) := by
  unfold q4i q3
  after_results_each
  simp only [StableHlo.TRef.toBuf, StableHlo.TRef.ofBuf, cast_eq, G3_v31 m c, G3_v35 m c, G3_v1 m c, G3_v3 m c, G3_v22 m c] <;> rfl

theorem H3_v22 (c : Dev nD) : StableHlo.after q4i (StableHlo.after q3 (U3 m c)) (Proc.devRef .tc main_v22) = Cert.ReferenceIdeal.Stages.val_main_v22 (F := Ideal) (m ((c.tc : Thread nD τ).loc main_arg1)) (m ((c.tc : Thread nD τ).loc main_arg3)) := by
  unfold q4i q3
  after_results_each
  simp only [StableHlo.TRef.toBuf, StableHlo.TRef.ofBuf, cast_eq, G3_v31 m c, G3_v35 m c, G3_v1 m c, G3_v3 m c, G3_v22 m c] <;> rfl

theorem G4_v70 (c : Dev nD) : U4 m c (Proc.devRef .tc main_v70) = Cert.ReferenceIdeal.Stages.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after (q3 ++ q4) (U3 m c) (Proc.devRef .tc main_v70) = _
  rw [Line.after_append, q4_split, Line.after_append]
  unfold q4n
  rw [StableHlo.after_cons, StableHlo.after_nil, Cert.LibNary.nary5_result']
  rw [H3_v48 m c, H3_v55 m c, H3_v62 m c, H3_v69 m c, H3_v22 m c]
  rfl

theorem G0_arg11 (c : Dev nD) : U0 m c (Proc.devRef .tc main_arg11) = m ((c.tc : Thread nD τ).loc main_arg11) := rfl

theorem G1_arg11 (c : Dev nD) : U1 m c (Proc.devRef .tc main_arg11) = m ((c.tc : Thread nD τ).loc main_arg11) :=
  (ops0_keep _ main_arg11 (by decide)).trans (G0_arg11 m c)

theorem G2_arg11 (c : Dev nD) : U2 m c (Proc.devRef .tc main_arg11) = m ((c.tc : Thread nD τ).loc main_arg11) :=
  (ops1_keep _ main_arg11 (by decide)).trans (G1_arg11 m c)

theorem G3_arg11 (c : Dev nD) : U3 m c (Proc.devRef .tc main_arg11) = m ((c.tc : Thread nD τ).loc main_arg11) :=
  (ops2_keep _ main_arg11 (by decide)).trans (G2_arg11 m c)

theorem G4_arg11 (c : Dev nD) : U4 m c (Proc.devRef .tc main_arg11) = m ((c.tc : Thread nD τ).loc main_arg11) :=
  (ops3_keep _ main_arg11 (by decide) (by decide)).trans (G3_arg11 m c)

theorem G0_arg12 (c : Dev nD) : U0 m c (Proc.devRef .tc main_arg12) = m ((c.tc : Thread nD τ).loc main_arg12) := rfl

theorem G1_arg12 (c : Dev nD) : U1 m c (Proc.devRef .tc main_arg12) = m ((c.tc : Thread nD τ).loc main_arg12) :=
  (ops0_keep _ main_arg12 (by decide)).trans (G0_arg12 m c)

theorem G2_arg12 (c : Dev nD) : U2 m c (Proc.devRef .tc main_arg12) = m ((c.tc : Thread nD τ).loc main_arg12) :=
  (ops1_keep _ main_arg12 (by decide)).trans (G1_arg12 m c)

theorem G3_arg12 (c : Dev nD) : U3 m c (Proc.devRef .tc main_arg12) = m ((c.tc : Thread nD τ).loc main_arg12) :=
  (ops2_keep _ main_arg12 (by decide)).trans (G2_arg12 m c)

theorem G4_arg12 (c : Dev nD) : U4 m c (Proc.devRef .tc main_arg12) = m ((c.tc : Thread nD τ).loc main_arg12) :=
  (ops3_keep _ main_arg12 (by decide) (by decide)).trans (G3_arg12 m c)

theorem G0_arg13 (c : Dev nD) : U0 m c (Proc.devRef .tc main_arg13) = m ((c.tc : Thread nD τ).loc main_arg13) := rfl

theorem G1_arg13 (c : Dev nD) : U1 m c (Proc.devRef .tc main_arg13) = m ((c.tc : Thread nD τ).loc main_arg13) :=
  (ops0_keep _ main_arg13 (by decide)).trans (G0_arg13 m c)

theorem G2_arg13 (c : Dev nD) : U2 m c (Proc.devRef .tc main_arg13) = m ((c.tc : Thread nD τ).loc main_arg13) :=
  (ops1_keep _ main_arg13 (by decide)).trans (G1_arg13 m c)

theorem G3_arg13 (c : Dev nD) : U3 m c (Proc.devRef .tc main_arg13) = m ((c.tc : Thread nD τ).loc main_arg13) :=
  (ops2_keep _ main_arg13 (by decide)).trans (G2_arg13 m c)

theorem G4_arg13 (c : Dev nD) : U4 m c (Proc.devRef .tc main_arg13) = m ((c.tc : Thread nD τ).loc main_arg13) :=
  (ops3_keep _ main_arg13 (by decide) (by decide)).trans (G3_arg13 m c)

theorem G0_arg14 (c : Dev nD) : U0 m c (Proc.devRef .tc main_arg14) = m ((c.tc : Thread nD τ).loc main_arg14) := rfl

theorem G1_arg14 (c : Dev nD) : U1 m c (Proc.devRef .tc main_arg14) = m ((c.tc : Thread nD τ).loc main_arg14) :=
  (ops0_keep _ main_arg14 (by decide)).trans (G0_arg14 m c)

theorem G2_arg14 (c : Dev nD) : U2 m c (Proc.devRef .tc main_arg14) = m ((c.tc : Thread nD τ).loc main_arg14) :=
  (ops1_keep _ main_arg14 (by decide)).trans (G1_arg14 m c)

theorem G3_arg14 (c : Dev nD) : U3 m c (Proc.devRef .tc main_arg14) = m ((c.tc : Thread nD τ).loc main_arg14) :=
  (ops2_keep _ main_arg14 (by decide)).trans (G2_arg14 m c)

theorem G4_arg14 (c : Dev nD) : U4 m c (Proc.devRef .tc main_arg14) = m ((c.tc : Thread nD τ).loc main_arg14) :=
  (ops3_keep _ main_arg14 (by decide) (by decide)).trans (G3_arg14 m c)

theorem G0_arg15 (c : Dev nD) : U0 m c (Proc.devRef .tc main_arg15) = m ((c.tc : Thread nD τ).loc main_arg15) := rfl

theorem G1_arg15 (c : Dev nD) : U1 m c (Proc.devRef .tc main_arg15) = m ((c.tc : Thread nD τ).loc main_arg15) :=
  (ops0_keep _ main_arg15 (by decide)).trans (G0_arg15 m c)

theorem G2_arg15 (c : Dev nD) : U2 m c (Proc.devRef .tc main_arg15) = m ((c.tc : Thread nD τ).loc main_arg15) :=
  (ops1_keep _ main_arg15 (by decide)).trans (G1_arg15 m c)

theorem G3_arg15 (c : Dev nD) : U3 m c (Proc.devRef .tc main_arg15) = m ((c.tc : Thread nD τ).loc main_arg15) :=
  (ops2_keep _ main_arg15 (by decide)).trans (G2_arg15 m c)

theorem G4_arg15 (c : Dev nD) : U4 m c (Proc.devRef .tc main_arg15) = m ((c.tc : Thread nD τ).loc main_arg15) :=
  (ops3_keep _ main_arg15 (by decide) (by decide)).trans (G3_arg15 m c)

theorem G0_arg16 (c : Dev nD) : U0 m c (Proc.devRef .tc main_arg16) = m ((c.tc : Thread nD τ).loc main_arg16) := rfl

theorem G1_arg16 (c : Dev nD) : U1 m c (Proc.devRef .tc main_arg16) = m ((c.tc : Thread nD τ).loc main_arg16) :=
  (ops0_keep _ main_arg16 (by decide)).trans (G0_arg16 m c)

theorem G2_arg16 (c : Dev nD) : U2 m c (Proc.devRef .tc main_arg16) = m ((c.tc : Thread nD τ).loc main_arg16) :=
  (ops1_keep _ main_arg16 (by decide)).trans (G1_arg16 m c)

theorem G3_arg16 (c : Dev nD) : U3 m c (Proc.devRef .tc main_arg16) = m ((c.tc : Thread nD τ).loc main_arg16) :=
  (ops2_keep _ main_arg16 (by decide)).trans (G2_arg16 m c)

theorem G4_arg16 (c : Dev nD) : U4 m c (Proc.devRef .tc main_arg16) = m ((c.tc : Thread nD τ).loc main_arg16) :=
  (ops3_keep _ main_arg16 (by decide) (by decide)).trans (G3_arg16 m c)

theorem G5_v104 (c : Dev nD) : U5 m c (Proc.devRef .tc main_v104) = Cert.ReferenceIdeal.Stages.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after (q5 ++ q6) (U4 m c) (Proc.devRef .tc main_v104) = _
  rw [Line.after_append]
  unfold q5 q6
  after_results_each
  simp only [StableHlo.TRef.toBuf, StableHlo.TRef.ofBuf, cast_eq, G4_v70 m c, G4_arg11 m c, G4_arg12 m c, G4_arg13 m c, G4_arg14 m c, G4_arg15 m c, G4_arg16 m c] <;> rfl

theorem G4_v3 (c : Dev nD) : U4 m c (Proc.devRef .tc main_v3) = Cert.ReferenceIdeal.Stages.val_main_v3 (F := Ideal) (m ((c.tc : Thread nD τ).loc main_arg3)) :=
  (ops3_keep _ main_v3 (by decide) (by decide)).trans (G3_v3 m c)

theorem G5_v3 (c : Dev nD) : U5 m c (Proc.devRef .tc main_v3) = Cert.ReferenceIdeal.Stages.val_main_v3 (F := Ideal) (m ((c.tc : Thread nD τ).loc main_arg3)) :=
  (ops4_keep _ main_v3 (by decide) (by decide)).trans (G4_v3 m c)

theorem G3_v41 (c : Dev nD) : U3 m c (Proc.devRef .tc main_v41) = Cert.ReferenceIdeal.Stages.val_main_v41 (F := Ideal) (m ((c.tc : Thread nD τ).loc main_arg3)) := by
  show StableHlo.after q2 (U2 m c) (Proc.devRef .tc main_v41) = _
  unfold q2
  after_results_each
  simp only [StableHlo.TRef.toBuf, StableHlo.TRef.ofBuf, cast_eq, G2_v3 m c] <;> rfl

theorem G4_v41 (c : Dev nD) : U4 m c (Proc.devRef .tc main_v41) = Cert.ReferenceIdeal.Stages.val_main_v41 (F := Ideal) (m ((c.tc : Thread nD τ).loc main_arg3)) :=
  (ops3_keep _ main_v41 (by decide) (by decide)).trans (G3_v41 m c)

theorem G5_v41 (c : Dev nD) : U5 m c (Proc.devRef .tc main_v41) = Cert.ReferenceIdeal.Stages.val_main_v41 (F := Ideal) (m ((c.tc : Thread nD τ).loc main_arg3)) :=
  (ops4_keep _ main_v41 (by decide) (by decide)).trans (G4_v41 m c)

theorem G6_v109 (c : Dev nD) : U6 m c (Proc.devRef .tc main_v109) = Cert.ReferenceIdeal.Stages.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  show StableHlo.after q7 (U5 m c) (Proc.devRef .tc main_v109) = _
  unfold q7
  after_results_each
  simp only [StableHlo.TRef.toBuf, StableHlo.TRef.ofBuf, cast_eq, G5_v104 m c, G5_v3 m c, G5_v41 m c] <;> rfl

theorem G0_arg17 (c : Dev nD) : U0 m c (Proc.devRef .tc main_arg17) = m ((c.tc : Thread nD τ).loc main_arg17) := rfl

theorem G1_arg17 (c : Dev nD) : U1 m c (Proc.devRef .tc main_arg17) = m ((c.tc : Thread nD τ).loc main_arg17) :=
  (ops0_keep _ main_arg17 (by decide)).trans (G0_arg17 m c)

theorem G2_arg17 (c : Dev nD) : U2 m c (Proc.devRef .tc main_arg17) = m ((c.tc : Thread nD τ).loc main_arg17) :=
  (ops1_keep _ main_arg17 (by decide)).trans (G1_arg17 m c)

theorem G3_arg17 (c : Dev nD) : U3 m c (Proc.devRef .tc main_arg17) = m ((c.tc : Thread nD τ).loc main_arg17) :=
  (ops2_keep _ main_arg17 (by decide)).trans (G2_arg17 m c)

theorem G4_arg17 (c : Dev nD) : U4 m c (Proc.devRef .tc main_arg17) = m ((c.tc : Thread nD τ).loc main_arg17) :=
  (ops3_keep _ main_arg17 (by decide) (by decide)).trans (G3_arg17 m c)

theorem G5_arg17 (c : Dev nD) : U5 m c (Proc.devRef .tc main_arg17) = m ((c.tc : Thread nD τ).loc main_arg17) :=
  (ops4_keep _ main_arg17 (by decide) (by decide)).trans (G4_arg17 m c)

theorem G6_arg17 (c : Dev nD) : U6 m c (Proc.devRef .tc main_arg17) = m ((c.tc : Thread nD τ).loc main_arg17) :=
  (ops5_keep _ main_arg17 (by decide)).trans (G5_arg17 m c)

theorem G0_arg18 (c : Dev nD) : U0 m c (Proc.devRef .tc main_arg18) = m ((c.tc : Thread nD τ).loc main_arg18) := rfl

theorem G1_arg18 (c : Dev nD) : U1 m c (Proc.devRef .tc main_arg18) = m ((c.tc : Thread nD τ).loc main_arg18) :=
  (ops0_keep _ main_arg18 (by decide)).trans (G0_arg18 m c)

theorem G2_arg18 (c : Dev nD) : U2 m c (Proc.devRef .tc main_arg18) = m ((c.tc : Thread nD τ).loc main_arg18) :=
  (ops1_keep _ main_arg18 (by decide)).trans (G1_arg18 m c)

theorem G3_arg18 (c : Dev nD) : U3 m c (Proc.devRef .tc main_arg18) = m ((c.tc : Thread nD τ).loc main_arg18) :=
  (ops2_keep _ main_arg18 (by decide)).trans (G2_arg18 m c)

theorem G4_arg18 (c : Dev nD) : U4 m c (Proc.devRef .tc main_arg18) = m ((c.tc : Thread nD τ).loc main_arg18) :=
  (ops3_keep _ main_arg18 (by decide) (by decide)).trans (G3_arg18 m c)

theorem G5_arg18 (c : Dev nD) : U5 m c (Proc.devRef .tc main_arg18) = m ((c.tc : Thread nD τ).loc main_arg18) :=
  (ops4_keep _ main_arg18 (by decide) (by decide)).trans (G4_arg18 m c)

theorem G6_arg18 (c : Dev nD) : U6 m c (Proc.devRef .tc main_arg18) = m ((c.tc : Thread nD τ).loc main_arg18) :=
  (ops5_keep _ main_arg18 (by decide)).trans (G5_arg18 m c)

theorem G0_arg19 (c : Dev nD) : U0 m c (Proc.devRef .tc main_arg19) = m ((c.tc : Thread nD τ).loc main_arg19) := rfl

theorem G1_arg19 (c : Dev nD) : U1 m c (Proc.devRef .tc main_arg19) = m ((c.tc : Thread nD τ).loc main_arg19) :=
  (ops0_keep _ main_arg19 (by decide)).trans (G0_arg19 m c)

theorem G2_arg19 (c : Dev nD) : U2 m c (Proc.devRef .tc main_arg19) = m ((c.tc : Thread nD τ).loc main_arg19) :=
  (ops1_keep _ main_arg19 (by decide)).trans (G1_arg19 m c)

theorem G3_arg19 (c : Dev nD) : U3 m c (Proc.devRef .tc main_arg19) = m ((c.tc : Thread nD τ).loc main_arg19) :=
  (ops2_keep _ main_arg19 (by decide)).trans (G2_arg19 m c)

theorem G4_arg19 (c : Dev nD) : U4 m c (Proc.devRef .tc main_arg19) = m ((c.tc : Thread nD τ).loc main_arg19) :=
  (ops3_keep _ main_arg19 (by decide) (by decide)).trans (G3_arg19 m c)

theorem G5_arg19 (c : Dev nD) : U5 m c (Proc.devRef .tc main_arg19) = m ((c.tc : Thread nD τ).loc main_arg19) :=
  (ops4_keep _ main_arg19 (by decide) (by decide)).trans (G4_arg19 m c)

theorem G6_arg19 (c : Dev nD) : U6 m c (Proc.devRef .tc main_arg19) = m ((c.tc : Thread nD τ).loc main_arg19) :=
  (ops5_keep _ main_arg19 (by decide)).trans (G5_arg19 m c)

theorem G0_arg20 (c : Dev nD) : U0 m c (Proc.devRef .tc main_arg20) = m ((c.tc : Thread nD τ).loc main_arg20) := rfl

theorem G1_arg20 (c : Dev nD) : U1 m c (Proc.devRef .tc main_arg20) = m ((c.tc : Thread nD τ).loc main_arg20) :=
  (ops0_keep _ main_arg20 (by decide)).trans (G0_arg20 m c)

theorem G2_arg20 (c : Dev nD) : U2 m c (Proc.devRef .tc main_arg20) = m ((c.tc : Thread nD τ).loc main_arg20) :=
  (ops1_keep _ main_arg20 (by decide)).trans (G1_arg20 m c)

theorem G3_arg20 (c : Dev nD) : U3 m c (Proc.devRef .tc main_arg20) = m ((c.tc : Thread nD τ).loc main_arg20) :=
  (ops2_keep _ main_arg20 (by decide)).trans (G2_arg20 m c)

theorem G4_arg20 (c : Dev nD) : U4 m c (Proc.devRef .tc main_arg20) = m ((c.tc : Thread nD τ).loc main_arg20) :=
  (ops3_keep _ main_arg20 (by decide) (by decide)).trans (G3_arg20 m c)

theorem G5_arg20 (c : Dev nD) : U5 m c (Proc.devRef .tc main_arg20) = m ((c.tc : Thread nD τ).loc main_arg20) :=
  (ops4_keep _ main_arg20 (by decide) (by decide)).trans (G4_arg20 m c)

theorem G6_arg20 (c : Dev nD) : U6 m c (Proc.devRef .tc main_arg20) = m ((c.tc : Thread nD τ).loc main_arg20) :=
  (ops5_keep _ main_arg20 (by decide)).trans (G5_arg20 m c)

theorem G7_v127 (c : Dev nD) : U7 m c (Proc.devRef .tc main_v127) = Cert.ReferenceIdeal.Stages.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show StableHlo.after q8 (U6 m c) (Proc.devRef .tc main_v127) = _
  unfold q8
  after_results_each
  rw [G6_v31 m c, G6_v35 m c, G6_v109 m c]
  simp only [StableHlo.TRef.toBuf, StableHlo.TRef.ofBuf, cast_eq, G6_v31 m c, G6_v35 m c, G6_v109 m c, G6_arg17 m c, G6_arg18 m c, G6_arg19 m c, G6_arg20 m c] <;> rfl

theorem G8_v127 (c : Dev nD) : U8 m c (Proc.devRef .tc main_v127) = Cert.ReferenceIdeal.Stages.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (ops7_keep _ main_v127 (by decide)).trans (G7_v127 m c)

theorem G9_v127 (c : Dev nD) : U9 m c (Proc.devRef .tc main_v127) = Cert.ReferenceIdeal.Stages.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (ops8_keep _ main_v127 (by decide) (by decide)).trans (G8_v127 m c)

theorem G10_v127 (c : Dev nD) : U10 m c (Proc.devRef .tc main_v127) = Cert.ReferenceIdeal.Stages.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (ops9_keep _ main_v127 (by decide)).trans (G9_v127 m c)

theorem G11_v127 (c : Dev nD) : U11 m c (Proc.devRef .tc main_v127) = Cert.ReferenceIdeal.Stages.val_main_v127 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (ops10_keep _ main_v127 (by decide) (by decide)).trans (G10_v127 m c)

theorem G7_v35 (c : Dev nD) : U7 m c (Proc.devRef .tc main_v35) = Cert.ReferenceIdeal.Stages.val_main_v35 (F := Ideal) (m ((c.tc : Thread nD τ).loc main_arg2)) (m ((c.tc : Thread nD τ).loc main_arg9)) (m ((c.tc : Thread nD τ).loc main_arg10)) :=
  (ops6_keep _ main_v35 (by decide)).trans (G6_v35 m c)

theorem G7_v109 (c : Dev nD) : U7 m c (Proc.devRef .tc main_v109) = Cert.ReferenceIdeal.Stages.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
  (ops6_keep _ main_v109 (by decide)).trans (G6_v109 m c)

theorem G0_arg21 (c : Dev nD) : U0 m c (Proc.devRef .tc main_arg21) = m ((c.tc : Thread nD τ).loc main_arg21) := rfl

theorem G1_arg21 (c : Dev nD) : U1 m c (Proc.devRef .tc main_arg21) = m ((c.tc : Thread nD τ).loc main_arg21) :=
  (ops0_keep _ main_arg21 (by decide)).trans (G0_arg21 m c)

theorem G2_arg21 (c : Dev nD) : U2 m c (Proc.devRef .tc main_arg21) = m ((c.tc : Thread nD τ).loc main_arg21) :=
  (ops1_keep _ main_arg21 (by decide)).trans (G1_arg21 m c)

theorem G3_arg21 (c : Dev nD) : U3 m c (Proc.devRef .tc main_arg21) = m ((c.tc : Thread nD τ).loc main_arg21) :=
  (ops2_keep _ main_arg21 (by decide)).trans (G2_arg21 m c)

theorem G4_arg21 (c : Dev nD) : U4 m c (Proc.devRef .tc main_arg21) = m ((c.tc : Thread nD τ).loc main_arg21) :=
  (ops3_keep _ main_arg21 (by decide) (by decide)).trans (G3_arg21 m c)

theorem G5_arg21 (c : Dev nD) : U5 m c (Proc.devRef .tc main_arg21) = m ((c.tc : Thread nD τ).loc main_arg21) :=
  (ops4_keep _ main_arg21 (by decide) (by decide)).trans (G4_arg21 m c)

theorem G6_arg21 (c : Dev nD) : U6 m c (Proc.devRef .tc main_arg21) = m ((c.tc : Thread nD τ).loc main_arg21) :=
  (ops5_keep _ main_arg21 (by decide)).trans (G5_arg21 m c)

theorem G7_arg21 (c : Dev nD) : U7 m c (Proc.devRef .tc main_arg21) = m ((c.tc : Thread nD τ).loc main_arg21) :=
  (ops6_keep _ main_arg21 (by decide)).trans (G6_arg21 m c)

theorem G0_arg22 (c : Dev nD) : U0 m c (Proc.devRef .tc main_arg22) = m ((c.tc : Thread nD τ).loc main_arg22) := rfl

theorem G1_arg22 (c : Dev nD) : U1 m c (Proc.devRef .tc main_arg22) = m ((c.tc : Thread nD τ).loc main_arg22) :=
  (ops0_keep _ main_arg22 (by decide)).trans (G0_arg22 m c)

theorem G2_arg22 (c : Dev nD) : U2 m c (Proc.devRef .tc main_arg22) = m ((c.tc : Thread nD τ).loc main_arg22) :=
  (ops1_keep _ main_arg22 (by decide)).trans (G1_arg22 m c)

theorem G3_arg22 (c : Dev nD) : U3 m c (Proc.devRef .tc main_arg22) = m ((c.tc : Thread nD τ).loc main_arg22) :=
  (ops2_keep _ main_arg22 (by decide)).trans (G2_arg22 m c)

theorem G4_arg22 (c : Dev nD) : U4 m c (Proc.devRef .tc main_arg22) = m ((c.tc : Thread nD τ).loc main_arg22) :=
  (ops3_keep _ main_arg22 (by decide) (by decide)).trans (G3_arg22 m c)

theorem G5_arg22 (c : Dev nD) : U5 m c (Proc.devRef .tc main_arg22) = m ((c.tc : Thread nD τ).loc main_arg22) :=
  (ops4_keep _ main_arg22 (by decide) (by decide)).trans (G4_arg22 m c)

theorem G6_arg22 (c : Dev nD) : U6 m c (Proc.devRef .tc main_arg22) = m ((c.tc : Thread nD τ).loc main_arg22) :=
  (ops5_keep _ main_arg22 (by decide)).trans (G5_arg22 m c)

theorem G7_arg22 (c : Dev nD) : U7 m c (Proc.devRef .tc main_arg22) = m ((c.tc : Thread nD τ).loc main_arg22) :=
  (ops6_keep _ main_arg22 (by decide)).trans (G6_arg22 m c)

theorem G0_arg23 (c : Dev nD) : U0 m c (Proc.devRef .tc main_arg23) = m ((c.tc : Thread nD τ).loc main_arg23) := rfl

theorem G1_arg23 (c : Dev nD) : U1 m c (Proc.devRef .tc main_arg23) = m ((c.tc : Thread nD τ).loc main_arg23) :=
  (ops0_keep _ main_arg23 (by decide)).trans (G0_arg23 m c)

theorem G2_arg23 (c : Dev nD) : U2 m c (Proc.devRef .tc main_arg23) = m ((c.tc : Thread nD τ).loc main_arg23) :=
  (ops1_keep _ main_arg23 (by decide)).trans (G1_arg23 m c)

theorem G3_arg23 (c : Dev nD) : U3 m c (Proc.devRef .tc main_arg23) = m ((c.tc : Thread nD τ).loc main_arg23) :=
  (ops2_keep _ main_arg23 (by decide)).trans (G2_arg23 m c)

theorem G4_arg23 (c : Dev nD) : U4 m c (Proc.devRef .tc main_arg23) = m ((c.tc : Thread nD τ).loc main_arg23) :=
  (ops3_keep _ main_arg23 (by decide) (by decide)).trans (G3_arg23 m c)

theorem G5_arg23 (c : Dev nD) : U5 m c (Proc.devRef .tc main_arg23) = m ((c.tc : Thread nD τ).loc main_arg23) :=
  (ops4_keep _ main_arg23 (by decide) (by decide)).trans (G4_arg23 m c)

theorem G6_arg23 (c : Dev nD) : U6 m c (Proc.devRef .tc main_arg23) = m ((c.tc : Thread nD τ).loc main_arg23) :=
  (ops5_keep _ main_arg23 (by decide)).trans (G5_arg23 m c)

theorem G7_arg23 (c : Dev nD) : U7 m c (Proc.devRef .tc main_arg23) = m ((c.tc : Thread nD τ).loc main_arg23) :=
  (ops6_keep _ main_arg23 (by decide)).trans (G6_arg23 m c)

theorem G0_arg24 (c : Dev nD) : U0 m c (Proc.devRef .tc main_arg24) = m ((c.tc : Thread nD τ).loc main_arg24) := rfl

theorem G1_arg24 (c : Dev nD) : U1 m c (Proc.devRef .tc main_arg24) = m ((c.tc : Thread nD τ).loc main_arg24) :=
  (ops0_keep _ main_arg24 (by decide)).trans (G0_arg24 m c)

theorem G2_arg24 (c : Dev nD) : U2 m c (Proc.devRef .tc main_arg24) = m ((c.tc : Thread nD τ).loc main_arg24) :=
  (ops1_keep _ main_arg24 (by decide)).trans (G1_arg24 m c)

theorem G3_arg24 (c : Dev nD) : U3 m c (Proc.devRef .tc main_arg24) = m ((c.tc : Thread nD τ).loc main_arg24) :=
  (ops2_keep _ main_arg24 (by decide)).trans (G2_arg24 m c)

theorem G4_arg24 (c : Dev nD) : U4 m c (Proc.devRef .tc main_arg24) = m ((c.tc : Thread nD τ).loc main_arg24) :=
  (ops3_keep _ main_arg24 (by decide) (by decide)).trans (G3_arg24 m c)

theorem G5_arg24 (c : Dev nD) : U5 m c (Proc.devRef .tc main_arg24) = m ((c.tc : Thread nD τ).loc main_arg24) :=
  (ops4_keep _ main_arg24 (by decide) (by decide)).trans (G4_arg24 m c)

theorem G6_arg24 (c : Dev nD) : U6 m c (Proc.devRef .tc main_arg24) = m ((c.tc : Thread nD τ).loc main_arg24) :=
  (ops5_keep _ main_arg24 (by decide)).trans (G5_arg24 m c)

theorem G7_arg24 (c : Dev nD) : U7 m c (Proc.devRef .tc main_arg24) = m ((c.tc : Thread nD τ).loc main_arg24) :=
  (ops6_keep _ main_arg24 (by decide)).trans (G6_arg24 m c)

set_option maxHeartbeats 1200000 in
theorem G8_v146 (c : Dev nD) : U8 m c (Proc.devRef .tc main_v146) = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) := by
  show StableHlo.after q9 (U7 m c) (Proc.devRef .tc main_v146) = _
  unfold q9
  after_results_each
  simp only [StableHlo.TRef.toBuf, StableHlo.TRef.ofBuf, cast_eq, G7_v35 m c, G7_v109 m c, G7_arg21 m c, G7_arg22 m c, G7_arg23 m c, G7_arg24 m c]
  after_results_rest
  rw [G7_v35 m c, G7_v109 m c]
  rfl

theorem G9_v146 (c : Dev nD) : U9 m c (Proc.devRef .tc main_v146) = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) :=
  (ops8_keep _ main_v146 (by decide) (by decide)).trans (G8_v146 m c)

theorem G10_v146 (c : Dev nD) : U10 m c (Proc.devRef .tc main_v146) = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) :=
  (ops9_keep _ main_v146 (by decide)).trans (G9_v146 m c)

theorem G11_v146 (c : Dev nD) : U11 m c (Proc.devRef .tc main_v146) = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) :=
  (ops10_keep _ main_v146 (by decide) (by decide)).trans (G10_v146 m c)

theorem G4_v1 (c : Dev nD) : U4 m c (Proc.devRef .tc main_v1) = Cert.ReferenceIdeal.Stages.val_main_v1 (F := Ideal) (m ((c.tc : Thread nD τ).loc main_arg3)) :=
  (ops3_keep _ main_v1 (by decide) (by decide)).trans (G3_v1 m c)

theorem G5_v1 (c : Dev nD) : U5 m c (Proc.devRef .tc main_v1) = Cert.ReferenceIdeal.Stages.val_main_v1 (F := Ideal) (m ((c.tc : Thread nD τ).loc main_arg3)) :=
  (ops4_keep _ main_v1 (by decide) (by decide)).trans (G4_v1 m c)

theorem G6_v1 (c : Dev nD) : U6 m c (Proc.devRef .tc main_v1) = Cert.ReferenceIdeal.Stages.val_main_v1 (F := Ideal) (m ((c.tc : Thread nD τ).loc main_arg3)) :=
  (ops5_keep _ main_v1 (by decide)).trans (G5_v1 m c)

theorem G7_v1 (c : Dev nD) : U7 m c (Proc.devRef .tc main_v1) = Cert.ReferenceIdeal.Stages.val_main_v1 (F := Ideal) (m ((c.tc : Thread nD τ).loc main_arg3)) :=
  (ops6_keep _ main_v1 (by decide)).trans (G6_v1 m c)

theorem G8_v1 (c : Dev nD) : U8 m c (Proc.devRef .tc main_v1) = Cert.ReferenceIdeal.Stages.val_main_v1 (F := Ideal) (m ((c.tc : Thread nD τ).loc main_arg3)) :=
  (ops7_keep _ main_v1 (by decide)).trans (G7_v1 m c)

theorem G6_v3 (c : Dev nD) : U6 m c (Proc.devRef .tc main_v3) = Cert.ReferenceIdeal.Stages.val_main_v3 (F := Ideal) (m ((c.tc : Thread nD τ).loc main_arg3)) :=
  (ops5_keep _ main_v3 (by decide)).trans (G5_v3 m c)

theorem G7_v3 (c : Dev nD) : U7 m c (Proc.devRef .tc main_v3) = Cert.ReferenceIdeal.Stages.val_main_v3 (F := Ideal) (m ((c.tc : Thread nD τ).loc main_arg3)) :=
  (ops6_keep _ main_v3 (by decide)).trans (G6_v3 m c)

theorem G8_v3 (c : Dev nD) : U8 m c (Proc.devRef .tc main_v3) = Cert.ReferenceIdeal.Stages.val_main_v3 (F := Ideal) (m ((c.tc : Thread nD τ).loc main_arg3)) :=
  (ops7_keep _ main_v3 (by decide)).trans (G7_v3 m c)

theorem G4_v22 (c : Dev nD) : U4 m c (Proc.devRef .tc main_v22) = Cert.ReferenceIdeal.Stages.val_main_v22 (F := Ideal) (m ((c.tc : Thread nD τ).loc main_arg1)) (m ((c.tc : Thread nD τ).loc main_arg3)) :=
  (ops3_keep _ main_v22 (by decide) (by decide)).trans (G3_v22 m c)

theorem G5_v22 (c : Dev nD) : U5 m c (Proc.devRef .tc main_v22) = Cert.ReferenceIdeal.Stages.val_main_v22 (F := Ideal) (m ((c.tc : Thread nD τ).loc main_arg1)) (m ((c.tc : Thread nD τ).loc main_arg3)) :=
  (ops4_keep _ main_v22 (by decide) (by decide)).trans (G4_v22 m c)

theorem G6_v22 (c : Dev nD) : U6 m c (Proc.devRef .tc main_v22) = Cert.ReferenceIdeal.Stages.val_main_v22 (F := Ideal) (m ((c.tc : Thread nD τ).loc main_arg1)) (m ((c.tc : Thread nD τ).loc main_arg3)) :=
  (ops5_keep _ main_v22 (by decide)).trans (G5_v22 m c)

theorem G7_v22 (c : Dev nD) : U7 m c (Proc.devRef .tc main_v22) = Cert.ReferenceIdeal.Stages.val_main_v22 (F := Ideal) (m ((c.tc : Thread nD τ).loc main_arg1)) (m ((c.tc : Thread nD τ).loc main_arg3)) :=
  (ops6_keep _ main_v22 (by decide)).trans (G6_v22 m c)

theorem G8_v22 (c : Dev nD) : U8 m c (Proc.devRef .tc main_v22) = Cert.ReferenceIdeal.Stages.val_main_v22 (F := Ideal) (m ((c.tc : Thread nD τ).loc main_arg1)) (m ((c.tc : Thread nD τ).loc main_arg3)) :=
  (ops7_keep _ main_v22 (by decide)).trans (G7_v22 m c)

theorem H8_v153 (c : Dev nD) : StableHlo.after q11i (StableHlo.after q10 (U8 m c)) (Proc.devRef .tc main_v153) = Cert.ReferenceIdeal.Stages.val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold q11i q10
  after_results_each
  simp only [StableHlo.TRef.toBuf, StableHlo.TRef.ofBuf, cast_eq, G8_v127 m c, G8_v146 m c, G8_v1 m c, G8_v3 m c, G8_v22 m c] <;> rfl

theorem H8_v160 (c : Dev nD) : StableHlo.after q11i (StableHlo.after q10 (U8 m c)) (Proc.devRef .tc main_v160) = Cert.ReferenceIdeal.Stages.val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold q11i q10
  after_results_each
  simp only [StableHlo.TRef.toBuf, StableHlo.TRef.ofBuf, cast_eq, G8_v127 m c, G8_v146 m c, G8_v1 m c, G8_v3 m c, G8_v22 m c] <;> rfl

theorem H8_v167 (c : Dev nD) : StableHlo.after q11i (StableHlo.after q10 (U8 m c)) (Proc.devRef .tc main_v167) = Cert.ReferenceIdeal.Stages.val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) := by
  unfold q11i q10
  after_results_each
  simp only [StableHlo.TRef.toBuf, StableHlo.TRef.ofBuf, cast_eq, G8_v127 m c, G8_v146 m c, G8_v1 m c, G8_v3 m c, G8_v22 m c] <;> rfl

theorem H8_v174 (c : Dev nD) : StableHlo.after q11i (StableHlo.after q10 (U8 m c)) (Proc.devRef .tc main_v174) = Cert.ReferenceIdeal.Stages.val_main_v174 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) := by
  unfold q11i q10
  after_results_each
  simp only [StableHlo.TRef.toBuf, StableHlo.TRef.ofBuf, cast_eq, G8_v127 m c, G8_v146 m c, G8_v1 m c, G8_v3 m c, G8_v22 m c] <;> rfl

theorem H8_v22 (c : Dev nD) : StableHlo.after q11i (StableHlo.after q10 (U8 m c)) (Proc.devRef .tc main_v22) = Cert.ReferenceIdeal.Stages.val_main_v22 (F := Ideal) (m ((c.tc : Thread nD τ).loc main_arg1)) (m ((c.tc : Thread nD τ).loc main_arg3)) := by
  unfold q11i q10
  after_results_each
  simp only [StableHlo.TRef.toBuf, StableHlo.TRef.ofBuf, cast_eq, G8_v127 m c, G8_v146 m c, G8_v1 m c, G8_v3 m c, G8_v22 m c] <;> rfl

theorem G9_v175 (c : Dev nD) : U9 m c (Proc.devRef .tc main_v175) = Cert.ReferenceIdeal.Stages.val_main_v175 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after (q10 ++ q11) (U8 m c) (Proc.devRef .tc main_v175) = _
  rw [Line.after_append, q11_split, Line.after_append]
  unfold q11n
  rw [StableHlo.after_cons, StableHlo.after_nil, Cert.LibNary.nary5_result']
  rw [H8_v153 m c, H8_v160 m c, H8_v167 m c, H8_v174 m c, H8_v22 m c]
  rfl

theorem G5_arg11 (c : Dev nD) : U5 m c (Proc.devRef .tc main_arg11) = m ((c.tc : Thread nD τ).loc main_arg11) :=
  (ops4_keep _ main_arg11 (by decide) (by decide)).trans (G4_arg11 m c)

theorem G6_arg11 (c : Dev nD) : U6 m c (Proc.devRef .tc main_arg11) = m ((c.tc : Thread nD τ).loc main_arg11) :=
  (ops5_keep _ main_arg11 (by decide)).trans (G5_arg11 m c)

theorem G7_arg11 (c : Dev nD) : U7 m c (Proc.devRef .tc main_arg11) = m ((c.tc : Thread nD τ).loc main_arg11) :=
  (ops6_keep _ main_arg11 (by decide)).trans (G6_arg11 m c)

theorem G8_arg11 (c : Dev nD) : U8 m c (Proc.devRef .tc main_arg11) = m ((c.tc : Thread nD τ).loc main_arg11) :=
  (ops7_keep _ main_arg11 (by decide)).trans (G7_arg11 m c)

theorem G9_arg11 (c : Dev nD) : U9 m c (Proc.devRef .tc main_arg11) = m ((c.tc : Thread nD τ).loc main_arg11) :=
  (ops8_keep _ main_arg11 (by decide) (by decide)).trans (G8_arg11 m c)

theorem G5_arg12 (c : Dev nD) : U5 m c (Proc.devRef .tc main_arg12) = m ((c.tc : Thread nD τ).loc main_arg12) :=
  (ops4_keep _ main_arg12 (by decide) (by decide)).trans (G4_arg12 m c)

theorem G6_arg12 (c : Dev nD) : U6 m c (Proc.devRef .tc main_arg12) = m ((c.tc : Thread nD τ).loc main_arg12) :=
  (ops5_keep _ main_arg12 (by decide)).trans (G5_arg12 m c)

theorem G7_arg12 (c : Dev nD) : U7 m c (Proc.devRef .tc main_arg12) = m ((c.tc : Thread nD τ).loc main_arg12) :=
  (ops6_keep _ main_arg12 (by decide)).trans (G6_arg12 m c)

theorem G8_arg12 (c : Dev nD) : U8 m c (Proc.devRef .tc main_arg12) = m ((c.tc : Thread nD τ).loc main_arg12) :=
  (ops7_keep _ main_arg12 (by decide)).trans (G7_arg12 m c)

theorem G9_arg12 (c : Dev nD) : U9 m c (Proc.devRef .tc main_arg12) = m ((c.tc : Thread nD τ).loc main_arg12) :=
  (ops8_keep _ main_arg12 (by decide) (by decide)).trans (G8_arg12 m c)

theorem G5_arg13 (c : Dev nD) : U5 m c (Proc.devRef .tc main_arg13) = m ((c.tc : Thread nD τ).loc main_arg13) :=
  (ops4_keep _ main_arg13 (by decide) (by decide)).trans (G4_arg13 m c)

theorem G6_arg13 (c : Dev nD) : U6 m c (Proc.devRef .tc main_arg13) = m ((c.tc : Thread nD τ).loc main_arg13) :=
  (ops5_keep _ main_arg13 (by decide)).trans (G5_arg13 m c)

theorem G7_arg13 (c : Dev nD) : U7 m c (Proc.devRef .tc main_arg13) = m ((c.tc : Thread nD τ).loc main_arg13) :=
  (ops6_keep _ main_arg13 (by decide)).trans (G6_arg13 m c)

theorem G8_arg13 (c : Dev nD) : U8 m c (Proc.devRef .tc main_arg13) = m ((c.tc : Thread nD τ).loc main_arg13) :=
  (ops7_keep _ main_arg13 (by decide)).trans (G7_arg13 m c)

theorem G9_arg13 (c : Dev nD) : U9 m c (Proc.devRef .tc main_arg13) = m ((c.tc : Thread nD τ).loc main_arg13) :=
  (ops8_keep _ main_arg13 (by decide) (by decide)).trans (G8_arg13 m c)

theorem G5_arg14 (c : Dev nD) : U5 m c (Proc.devRef .tc main_arg14) = m ((c.tc : Thread nD τ).loc main_arg14) :=
  (ops4_keep _ main_arg14 (by decide) (by decide)).trans (G4_arg14 m c)

theorem G6_arg14 (c : Dev nD) : U6 m c (Proc.devRef .tc main_arg14) = m ((c.tc : Thread nD τ).loc main_arg14) :=
  (ops5_keep _ main_arg14 (by decide)).trans (G5_arg14 m c)

theorem G7_arg14 (c : Dev nD) : U7 m c (Proc.devRef .tc main_arg14) = m ((c.tc : Thread nD τ).loc main_arg14) :=
  (ops6_keep _ main_arg14 (by decide)).trans (G6_arg14 m c)

theorem G8_arg14 (c : Dev nD) : U8 m c (Proc.devRef .tc main_arg14) = m ((c.tc : Thread nD τ).loc main_arg14) :=
  (ops7_keep _ main_arg14 (by decide)).trans (G7_arg14 m c)

theorem G9_arg14 (c : Dev nD) : U9 m c (Proc.devRef .tc main_arg14) = m ((c.tc : Thread nD τ).loc main_arg14) :=
  (ops8_keep _ main_arg14 (by decide) (by decide)).trans (G8_arg14 m c)

theorem G5_arg15 (c : Dev nD) : U5 m c (Proc.devRef .tc main_arg15) = m ((c.tc : Thread nD τ).loc main_arg15) :=
  (ops4_keep _ main_arg15 (by decide) (by decide)).trans (G4_arg15 m c)

theorem G6_arg15 (c : Dev nD) : U6 m c (Proc.devRef .tc main_arg15) = m ((c.tc : Thread nD τ).loc main_arg15) :=
  (ops5_keep _ main_arg15 (by decide)).trans (G5_arg15 m c)

theorem G7_arg15 (c : Dev nD) : U7 m c (Proc.devRef .tc main_arg15) = m ((c.tc : Thread nD τ).loc main_arg15) :=
  (ops6_keep _ main_arg15 (by decide)).trans (G6_arg15 m c)

theorem G8_arg15 (c : Dev nD) : U8 m c (Proc.devRef .tc main_arg15) = m ((c.tc : Thread nD τ).loc main_arg15) :=
  (ops7_keep _ main_arg15 (by decide)).trans (G7_arg15 m c)

theorem G9_arg15 (c : Dev nD) : U9 m c (Proc.devRef .tc main_arg15) = m ((c.tc : Thread nD τ).loc main_arg15) :=
  (ops8_keep _ main_arg15 (by decide) (by decide)).trans (G8_arg15 m c)

theorem G5_arg16 (c : Dev nD) : U5 m c (Proc.devRef .tc main_arg16) = m ((c.tc : Thread nD τ).loc main_arg16) :=
  (ops4_keep _ main_arg16 (by decide) (by decide)).trans (G4_arg16 m c)

theorem G6_arg16 (c : Dev nD) : U6 m c (Proc.devRef .tc main_arg16) = m ((c.tc : Thread nD τ).loc main_arg16) :=
  (ops5_keep _ main_arg16 (by decide)).trans (G5_arg16 m c)

theorem G7_arg16 (c : Dev nD) : U7 m c (Proc.devRef .tc main_arg16) = m ((c.tc : Thread nD τ).loc main_arg16) :=
  (ops6_keep _ main_arg16 (by decide)).trans (G6_arg16 m c)

theorem G8_arg16 (c : Dev nD) : U8 m c (Proc.devRef .tc main_arg16) = m ((c.tc : Thread nD τ).loc main_arg16) :=
  (ops7_keep _ main_arg16 (by decide)).trans (G7_arg16 m c)

theorem G9_arg16 (c : Dev nD) : U9 m c (Proc.devRef .tc main_arg16) = m ((c.tc : Thread nD τ).loc main_arg16) :=
  (ops8_keep _ main_arg16 (by decide) (by decide)).trans (G8_arg16 m c)

theorem G10_v209 (c : Dev nD) : U10 m c (Proc.devRef .tc main_v209) = Cert.ReferenceIdeal.Stages.val_main_v209 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after q12 (U9 m c) (Proc.devRef .tc main_v209) = _
  unfold q12
  after_results_each
  simp only [StableHlo.TRef.toBuf, StableHlo.TRef.ofBuf, cast_eq, G9_v175 m c, G9_arg11 m c, G9_arg12 m c, G9_arg13 m c, G9_arg14 m c, G9_arg15 m c, G9_arg16 m c] <;> rfl

theorem G9_v3 (c : Dev nD) : U9 m c (Proc.devRef .tc main_v3) = Cert.ReferenceIdeal.Stages.val_main_v3 (F := Ideal) (m ((c.tc : Thread nD τ).loc main_arg3)) :=
  (ops8_keep _ main_v3 (by decide) (by decide)).trans (G8_v3 m c)

theorem G10_v3 (c : Dev nD) : U10 m c (Proc.devRef .tc main_v3) = Cert.ReferenceIdeal.Stages.val_main_v3 (F := Ideal) (m ((c.tc : Thread nD τ).loc main_arg3)) :=
  (ops9_keep _ main_v3 (by decide)).trans (G9_v3 m c)

theorem G6_v41 (c : Dev nD) : U6 m c (Proc.devRef .tc main_v41) = Cert.ReferenceIdeal.Stages.val_main_v41 (F := Ideal) (m ((c.tc : Thread nD τ).loc main_arg3)) :=
  (ops5_keep _ main_v41 (by decide)).trans (G5_v41 m c)

theorem G7_v41 (c : Dev nD) : U7 m c (Proc.devRef .tc main_v41) = Cert.ReferenceIdeal.Stages.val_main_v41 (F := Ideal) (m ((c.tc : Thread nD τ).loc main_arg3)) :=
  (ops6_keep _ main_v41 (by decide)).trans (G6_v41 m c)

theorem G8_v41 (c : Dev nD) : U8 m c (Proc.devRef .tc main_v41) = Cert.ReferenceIdeal.Stages.val_main_v41 (F := Ideal) (m ((c.tc : Thread nD τ).loc main_arg3)) :=
  (ops7_keep _ main_v41 (by decide)).trans (G7_v41 m c)

theorem G9_v41 (c : Dev nD) : U9 m c (Proc.devRef .tc main_v41) = Cert.ReferenceIdeal.Stages.val_main_v41 (F := Ideal) (m ((c.tc : Thread nD τ).loc main_arg3)) :=
  (ops8_keep _ main_v41 (by decide) (by decide)).trans (G8_v41 m c)

theorem G10_v41 (c : Dev nD) : U10 m c (Proc.devRef .tc main_v41) = Cert.ReferenceIdeal.Stages.val_main_v41 (F := Ideal) (m ((c.tc : Thread nD τ).loc main_arg3)) :=
  (ops9_keep _ main_v41 (by decide)).trans (G9_v41 m c)

theorem G11_v214 (c : Dev nD) : U11 m c (Proc.devRef .tc main_v214) = Cert.ReferenceIdeal.Stages.val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after (q13 ++ q14) (U10 m c) (Proc.devRef .tc main_v214) = _
  rw [Line.after_append]
  unfold q13 q14
  after_results_each
  simp only [StableHlo.TRef.toBuf, StableHlo.TRef.ofBuf, cast_eq, G10_v209 m c, G10_v3 m c, G10_v41 m c] <;> rfl

theorem G7_arg17 (c : Dev nD) : U7 m c (Proc.devRef .tc main_arg17) = m ((c.tc : Thread nD τ).loc main_arg17) :=
  (ops6_keep _ main_arg17 (by decide)).trans (G6_arg17 m c)

theorem G8_arg17 (c : Dev nD) : U8 m c (Proc.devRef .tc main_arg17) = m ((c.tc : Thread nD τ).loc main_arg17) :=
  (ops7_keep _ main_arg17 (by decide)).trans (G7_arg17 m c)

theorem G9_arg17 (c : Dev nD) : U9 m c (Proc.devRef .tc main_arg17) = m ((c.tc : Thread nD τ).loc main_arg17) :=
  (ops8_keep _ main_arg17 (by decide) (by decide)).trans (G8_arg17 m c)

theorem G10_arg17 (c : Dev nD) : U10 m c (Proc.devRef .tc main_arg17) = m ((c.tc : Thread nD τ).loc main_arg17) :=
  (ops9_keep _ main_arg17 (by decide)).trans (G9_arg17 m c)

theorem G11_arg17 (c : Dev nD) : U11 m c (Proc.devRef .tc main_arg17) = m ((c.tc : Thread nD τ).loc main_arg17) :=
  (ops10_keep _ main_arg17 (by decide) (by decide)).trans (G10_arg17 m c)

theorem G7_arg18 (c : Dev nD) : U7 m c (Proc.devRef .tc main_arg18) = m ((c.tc : Thread nD τ).loc main_arg18) :=
  (ops6_keep _ main_arg18 (by decide)).trans (G6_arg18 m c)

theorem G8_arg18 (c : Dev nD) : U8 m c (Proc.devRef .tc main_arg18) = m ((c.tc : Thread nD τ).loc main_arg18) :=
  (ops7_keep _ main_arg18 (by decide)).trans (G7_arg18 m c)

theorem G9_arg18 (c : Dev nD) : U9 m c (Proc.devRef .tc main_arg18) = m ((c.tc : Thread nD τ).loc main_arg18) :=
  (ops8_keep _ main_arg18 (by decide) (by decide)).trans (G8_arg18 m c)

theorem G10_arg18 (c : Dev nD) : U10 m c (Proc.devRef .tc main_arg18) = m ((c.tc : Thread nD τ).loc main_arg18) :=
  (ops9_keep _ main_arg18 (by decide)).trans (G9_arg18 m c)

theorem G11_arg18 (c : Dev nD) : U11 m c (Proc.devRef .tc main_arg18) = m ((c.tc : Thread nD τ).loc main_arg18) :=
  (ops10_keep _ main_arg18 (by decide) (by decide)).trans (G10_arg18 m c)

theorem G7_arg19 (c : Dev nD) : U7 m c (Proc.devRef .tc main_arg19) = m ((c.tc : Thread nD τ).loc main_arg19) :=
  (ops6_keep _ main_arg19 (by decide)).trans (G6_arg19 m c)

theorem G8_arg19 (c : Dev nD) : U8 m c (Proc.devRef .tc main_arg19) = m ((c.tc : Thread nD τ).loc main_arg19) :=
  (ops7_keep _ main_arg19 (by decide)).trans (G7_arg19 m c)

theorem G9_arg19 (c : Dev nD) : U9 m c (Proc.devRef .tc main_arg19) = m ((c.tc : Thread nD τ).loc main_arg19) :=
  (ops8_keep _ main_arg19 (by decide) (by decide)).trans (G8_arg19 m c)

theorem G10_arg19 (c : Dev nD) : U10 m c (Proc.devRef .tc main_arg19) = m ((c.tc : Thread nD τ).loc main_arg19) :=
  (ops9_keep _ main_arg19 (by decide)).trans (G9_arg19 m c)

theorem G11_arg19 (c : Dev nD) : U11 m c (Proc.devRef .tc main_arg19) = m ((c.tc : Thread nD τ).loc main_arg19) :=
  (ops10_keep _ main_arg19 (by decide) (by decide)).trans (G10_arg19 m c)

theorem G7_arg20 (c : Dev nD) : U7 m c (Proc.devRef .tc main_arg20) = m ((c.tc : Thread nD τ).loc main_arg20) :=
  (ops6_keep _ main_arg20 (by decide)).trans (G6_arg20 m c)

theorem G8_arg20 (c : Dev nD) : U8 m c (Proc.devRef .tc main_arg20) = m ((c.tc : Thread nD τ).loc main_arg20) :=
  (ops7_keep _ main_arg20 (by decide)).trans (G7_arg20 m c)

theorem G9_arg20 (c : Dev nD) : U9 m c (Proc.devRef .tc main_arg20) = m ((c.tc : Thread nD τ).loc main_arg20) :=
  (ops8_keep _ main_arg20 (by decide) (by decide)).trans (G8_arg20 m c)

theorem G10_arg20 (c : Dev nD) : U10 m c (Proc.devRef .tc main_arg20) = m ((c.tc : Thread nD τ).loc main_arg20) :=
  (ops9_keep _ main_arg20 (by decide)).trans (G9_arg20 m c)

theorem G11_arg20 (c : Dev nD) : U11 m c (Proc.devRef .tc main_arg20) = m ((c.tc : Thread nD τ).loc main_arg20) :=
  (ops10_keep _ main_arg20 (by decide) (by decide)).trans (G10_arg20 m c)

theorem G12_v232 (c : Dev nD) : U12 m c (Proc.devRef .tc main_v232) = Cert.ReferenceIdeal.Stages.val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after q15 (U11 m c) (Proc.devRef .tc main_v232) = _
  unfold q15
  after_results_each
  rw [G11_v127 m c, G11_v146 m c, G11_v214 m c]
  simp only [StableHlo.TRef.toBuf, StableHlo.TRef.ofBuf, cast_eq, G11_v127 m c, G11_v146 m c, G11_v214 m c, G11_arg17 m c, G11_arg18 m c, G11_arg19 m c, G11_arg20 m c] <;> rfl

theorem G13_v232 (c : Dev nD) : U13 m c (Proc.devRef .tc main_v232) = Cert.ReferenceIdeal.Stages.val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops12_keep _ main_v232 (by decide)).trans (G12_v232 m c)

theorem G14_v232 (c : Dev nD) : U14 m c (Proc.devRef .tc main_v232) = Cert.ReferenceIdeal.Stages.val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops13_keep _ main_v232 (by decide) (by decide)).trans (G13_v232 m c)

theorem G15_v232 (c : Dev nD) : U15 m c (Proc.devRef .tc main_v232) = Cert.ReferenceIdeal.Stages.val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops14_keep _ main_v232 (by decide)).trans (G14_v232 m c)

theorem G16_v232 (c : Dev nD) : U16 m c (Proc.devRef .tc main_v232) = Cert.ReferenceIdeal.Stages.val_main_v232 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops15_keep _ main_v232 (by decide) (by decide)).trans (G15_v232 m c)

theorem G12_v146 (c : Dev nD) : U12 m c (Proc.devRef .tc main_v146) = Cert.ReferenceIdeal.Stages.val_main_v146 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (m ((c.tc : Thread nD τ).loc main_arg24)) :=
  (ops11_keep _ main_v146 (by decide)).trans (G11_v146 m c)

theorem G12_v214 (c : Dev nD) : U12 m c (Proc.devRef .tc main_v214) = Cert.ReferenceIdeal.Stages.val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops11_keep _ main_v214 (by decide)).trans (G11_v214 m c)

theorem G8_arg21 (c : Dev nD) : U8 m c (Proc.devRef .tc main_arg21) = m ((c.tc : Thread nD τ).loc main_arg21) :=
  (ops7_keep _ main_arg21 (by decide)).trans (G7_arg21 m c)

theorem G9_arg21 (c : Dev nD) : U9 m c (Proc.devRef .tc main_arg21) = m ((c.tc : Thread nD τ).loc main_arg21) :=
  (ops8_keep _ main_arg21 (by decide) (by decide)).trans (G8_arg21 m c)

theorem G10_arg21 (c : Dev nD) : U10 m c (Proc.devRef .tc main_arg21) = m ((c.tc : Thread nD τ).loc main_arg21) :=
  (ops9_keep _ main_arg21 (by decide)).trans (G9_arg21 m c)

theorem G11_arg21 (c : Dev nD) : U11 m c (Proc.devRef .tc main_arg21) = m ((c.tc : Thread nD τ).loc main_arg21) :=
  (ops10_keep _ main_arg21 (by decide) (by decide)).trans (G10_arg21 m c)

theorem G12_arg21 (c : Dev nD) : U12 m c (Proc.devRef .tc main_arg21) = m ((c.tc : Thread nD τ).loc main_arg21) :=
  (ops11_keep _ main_arg21 (by decide)).trans (G11_arg21 m c)

theorem G8_arg22 (c : Dev nD) : U8 m c (Proc.devRef .tc main_arg22) = m ((c.tc : Thread nD τ).loc main_arg22) :=
  (ops7_keep _ main_arg22 (by decide)).trans (G7_arg22 m c)

theorem G9_arg22 (c : Dev nD) : U9 m c (Proc.devRef .tc main_arg22) = m ((c.tc : Thread nD τ).loc main_arg22) :=
  (ops8_keep _ main_arg22 (by decide) (by decide)).trans (G8_arg22 m c)

theorem G10_arg22 (c : Dev nD) : U10 m c (Proc.devRef .tc main_arg22) = m ((c.tc : Thread nD τ).loc main_arg22) :=
  (ops9_keep _ main_arg22 (by decide)).trans (G9_arg22 m c)

theorem G11_arg22 (c : Dev nD) : U11 m c (Proc.devRef .tc main_arg22) = m ((c.tc : Thread nD τ).loc main_arg22) :=
  (ops10_keep _ main_arg22 (by decide) (by decide)).trans (G10_arg22 m c)

theorem G12_arg22 (c : Dev nD) : U12 m c (Proc.devRef .tc main_arg22) = m ((c.tc : Thread nD τ).loc main_arg22) :=
  (ops11_keep _ main_arg22 (by decide)).trans (G11_arg22 m c)

theorem G8_arg23 (c : Dev nD) : U8 m c (Proc.devRef .tc main_arg23) = m ((c.tc : Thread nD τ).loc main_arg23) :=
  (ops7_keep _ main_arg23 (by decide)).trans (G7_arg23 m c)

theorem G9_arg23 (c : Dev nD) : U9 m c (Proc.devRef .tc main_arg23) = m ((c.tc : Thread nD τ).loc main_arg23) :=
  (ops8_keep _ main_arg23 (by decide) (by decide)).trans (G8_arg23 m c)

theorem G10_arg23 (c : Dev nD) : U10 m c (Proc.devRef .tc main_arg23) = m ((c.tc : Thread nD τ).loc main_arg23) :=
  (ops9_keep _ main_arg23 (by decide)).trans (G9_arg23 m c)

theorem G11_arg23 (c : Dev nD) : U11 m c (Proc.devRef .tc main_arg23) = m ((c.tc : Thread nD τ).loc main_arg23) :=
  (ops10_keep _ main_arg23 (by decide) (by decide)).trans (G10_arg23 m c)

theorem G12_arg23 (c : Dev nD) : U12 m c (Proc.devRef .tc main_arg23) = m ((c.tc : Thread nD τ).loc main_arg23) :=
  (ops11_keep _ main_arg23 (by decide)).trans (G11_arg23 m c)

theorem G8_arg24 (c : Dev nD) : U8 m c (Proc.devRef .tc main_arg24) = m ((c.tc : Thread nD τ).loc main_arg24) :=
  (ops7_keep _ main_arg24 (by decide)).trans (G7_arg24 m c)

theorem G9_arg24 (c : Dev nD) : U9 m c (Proc.devRef .tc main_arg24) = m ((c.tc : Thread nD τ).loc main_arg24) :=
  (ops8_keep _ main_arg24 (by decide) (by decide)).trans (G8_arg24 m c)

theorem G10_arg24 (c : Dev nD) : U10 m c (Proc.devRef .tc main_arg24) = m ((c.tc : Thread nD τ).loc main_arg24) :=
  (ops9_keep _ main_arg24 (by decide)).trans (G9_arg24 m c)

theorem G11_arg24 (c : Dev nD) : U11 m c (Proc.devRef .tc main_arg24) = m ((c.tc : Thread nD τ).loc main_arg24) :=
  (ops10_keep _ main_arg24 (by decide) (by decide)).trans (G10_arg24 m c)

theorem G12_arg24 (c : Dev nD) : U12 m c (Proc.devRef .tc main_arg24) = m ((c.tc : Thread nD τ).loc main_arg24) :=
  (ops11_keep _ main_arg24 (by decide)).trans (G11_arg24 m c)

set_option maxHeartbeats 1200000 in
theorem G13_v251 (c : Dev nD) : U13 m c (Proc.devRef .tc main_v251) = Cert.ReferenceIdeal.Stages.val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after q16 (U12 m c) (Proc.devRef .tc main_v251) = _
  unfold q16
  after_results_each
  simp only [StableHlo.TRef.toBuf, StableHlo.TRef.ofBuf, cast_eq, G12_v146 m c, G12_v214 m c, G12_arg21 m c, G12_arg22 m c, G12_arg23 m c, G12_arg24 m c]
  after_results_rest
  rw [G12_v146 m c, G12_v214 m c]
  rfl

theorem G14_v251 (c : Dev nD) : U14 m c (Proc.devRef .tc main_v251) = Cert.ReferenceIdeal.Stages.val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops13_keep _ main_v251 (by decide) (by decide)).trans (G13_v251 m c)

theorem G15_v251 (c : Dev nD) : U15 m c (Proc.devRef .tc main_v251) = Cert.ReferenceIdeal.Stages.val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops14_keep _ main_v251 (by decide)).trans (G14_v251 m c)

theorem G16_v251 (c : Dev nD) : U16 m c (Proc.devRef .tc main_v251) = Cert.ReferenceIdeal.Stages.val_main_v251 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops15_keep _ main_v251 (by decide) (by decide)).trans (G15_v251 m c)

theorem G9_v1 (c : Dev nD) : U9 m c (Proc.devRef .tc main_v1) = Cert.ReferenceIdeal.Stages.val_main_v1 (F := Ideal) (m ((c.tc : Thread nD τ).loc main_arg3)) :=
  (ops8_keep _ main_v1 (by decide) (by decide)).trans (G8_v1 m c)

theorem G10_v1 (c : Dev nD) : U10 m c (Proc.devRef .tc main_v1) = Cert.ReferenceIdeal.Stages.val_main_v1 (F := Ideal) (m ((c.tc : Thread nD τ).loc main_arg3)) :=
  (ops9_keep _ main_v1 (by decide)).trans (G9_v1 m c)

theorem G11_v1 (c : Dev nD) : U11 m c (Proc.devRef .tc main_v1) = Cert.ReferenceIdeal.Stages.val_main_v1 (F := Ideal) (m ((c.tc : Thread nD τ).loc main_arg3)) :=
  (ops10_keep _ main_v1 (by decide) (by decide)).trans (G10_v1 m c)

theorem G12_v1 (c : Dev nD) : U12 m c (Proc.devRef .tc main_v1) = Cert.ReferenceIdeal.Stages.val_main_v1 (F := Ideal) (m ((c.tc : Thread nD τ).loc main_arg3)) :=
  (ops11_keep _ main_v1 (by decide)).trans (G11_v1 m c)

theorem G13_v1 (c : Dev nD) : U13 m c (Proc.devRef .tc main_v1) = Cert.ReferenceIdeal.Stages.val_main_v1 (F := Ideal) (m ((c.tc : Thread nD τ).loc main_arg3)) :=
  (ops12_keep _ main_v1 (by decide)).trans (G12_v1 m c)

theorem G11_v3 (c : Dev nD) : U11 m c (Proc.devRef .tc main_v3) = Cert.ReferenceIdeal.Stages.val_main_v3 (F := Ideal) (m ((c.tc : Thread nD τ).loc main_arg3)) :=
  (ops10_keep _ main_v3 (by decide) (by decide)).trans (G10_v3 m c)

theorem G12_v3 (c : Dev nD) : U12 m c (Proc.devRef .tc main_v3) = Cert.ReferenceIdeal.Stages.val_main_v3 (F := Ideal) (m ((c.tc : Thread nD τ).loc main_arg3)) :=
  (ops11_keep _ main_v3 (by decide)).trans (G11_v3 m c)

theorem G13_v3 (c : Dev nD) : U13 m c (Proc.devRef .tc main_v3) = Cert.ReferenceIdeal.Stages.val_main_v3 (F := Ideal) (m ((c.tc : Thread nD τ).loc main_arg3)) :=
  (ops12_keep _ main_v3 (by decide)).trans (G12_v3 m c)

theorem G9_v22 (c : Dev nD) : U9 m c (Proc.devRef .tc main_v22) = Cert.ReferenceIdeal.Stages.val_main_v22 (F := Ideal) (m ((c.tc : Thread nD τ).loc main_arg1)) (m ((c.tc : Thread nD τ).loc main_arg3)) :=
  (ops8_keep _ main_v22 (by decide) (by decide)).trans (G8_v22 m c)

theorem G10_v22 (c : Dev nD) : U10 m c (Proc.devRef .tc main_v22) = Cert.ReferenceIdeal.Stages.val_main_v22 (F := Ideal) (m ((c.tc : Thread nD τ).loc main_arg1)) (m ((c.tc : Thread nD τ).loc main_arg3)) :=
  (ops9_keep _ main_v22 (by decide)).trans (G9_v22 m c)

theorem G11_v22 (c : Dev nD) : U11 m c (Proc.devRef .tc main_v22) = Cert.ReferenceIdeal.Stages.val_main_v22 (F := Ideal) (m ((c.tc : Thread nD τ).loc main_arg1)) (m ((c.tc : Thread nD τ).loc main_arg3)) :=
  (ops10_keep _ main_v22 (by decide) (by decide)).trans (G10_v22 m c)

theorem G12_v22 (c : Dev nD) : U12 m c (Proc.devRef .tc main_v22) = Cert.ReferenceIdeal.Stages.val_main_v22 (F := Ideal) (m ((c.tc : Thread nD τ).loc main_arg1)) (m ((c.tc : Thread nD τ).loc main_arg3)) :=
  (ops11_keep _ main_v22 (by decide)).trans (G11_v22 m c)

theorem G13_v22 (c : Dev nD) : U13 m c (Proc.devRef .tc main_v22) = Cert.ReferenceIdeal.Stages.val_main_v22 (F := Ideal) (m ((c.tc : Thread nD τ).loc main_arg1)) (m ((c.tc : Thread nD τ).loc main_arg3)) :=
  (ops12_keep _ main_v22 (by decide)).trans (G12_v22 m c)

theorem H13_v258 (c : Dev nD) : StableHlo.after q18i (StableHlo.after q17 (U13 m c)) (Proc.devRef .tc main_v258) = Cert.ReferenceIdeal.Stages.val_main_v258 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold q18i q17
  after_results_each
  simp only [StableHlo.TRef.toBuf, StableHlo.TRef.ofBuf, cast_eq, G13_v232 m c, G13_v251 m c, G13_v1 m c, G13_v3 m c, G13_v22 m c] <;> rfl

theorem H13_v265 (c : Dev nD) : StableHlo.after q18i (StableHlo.after q17 (U13 m c)) (Proc.devRef .tc main_v265) = Cert.ReferenceIdeal.Stages.val_main_v265 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold q18i q17
  after_results_each
  simp only [StableHlo.TRef.toBuf, StableHlo.TRef.ofBuf, cast_eq, G13_v232 m c, G13_v251 m c, G13_v1 m c, G13_v3 m c, G13_v22 m c] <;> rfl

theorem H13_v272 (c : Dev nD) : StableHlo.after q18i (StableHlo.after q17 (U13 m c)) (Proc.devRef .tc main_v272) = Cert.ReferenceIdeal.Stages.val_main_v272 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold q18i q17
  after_results_each
  simp only [StableHlo.TRef.toBuf, StableHlo.TRef.ofBuf, cast_eq, G13_v232 m c, G13_v251 m c, G13_v1 m c, G13_v3 m c, G13_v22 m c] <;> rfl

theorem H13_v279 (c : Dev nD) : StableHlo.after q18i (StableHlo.after q17 (U13 m c)) (Proc.devRef .tc main_v279) = Cert.ReferenceIdeal.Stages.val_main_v279 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  unfold q18i q17
  after_results_each
  simp only [StableHlo.TRef.toBuf, StableHlo.TRef.ofBuf, cast_eq, G13_v232 m c, G13_v251 m c, G13_v1 m c, G13_v3 m c, G13_v22 m c] <;> rfl

theorem H13_v22 (c : Dev nD) : StableHlo.after q18i (StableHlo.after q17 (U13 m c)) (Proc.devRef .tc main_v22) = Cert.ReferenceIdeal.Stages.val_main_v22 (F := Ideal) (m ((c.tc : Thread nD τ).loc main_arg1)) (m ((c.tc : Thread nD τ).loc main_arg3)) := by
  unfold q18i q17
  after_results_each
  simp only [StableHlo.TRef.toBuf, StableHlo.TRef.ofBuf, cast_eq, G13_v232 m c, G13_v251 m c, G13_v1 m c, G13_v3 m c, G13_v22 m c] <;> rfl

theorem G14_v280 (c : Dev nD) : U14 m c (Proc.devRef .tc main_v280) = Cert.ReferenceIdeal.Stages.val_main_v280 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after (q17 ++ q18) (U13 m c) (Proc.devRef .tc main_v280) = _
  rw [Line.after_append, q18_split, Line.after_append]
  unfold q18n
  rw [StableHlo.after_cons, StableHlo.after_nil, Cert.LibNary.nary5_result']
  rw [H13_v258 m c, H13_v265 m c, H13_v272 m c, H13_v279 m c, H13_v22 m c]
  rfl

theorem G10_arg11 (c : Dev nD) : U10 m c (Proc.devRef .tc main_arg11) = m ((c.tc : Thread nD τ).loc main_arg11) :=
  (ops9_keep _ main_arg11 (by decide)).trans (G9_arg11 m c)

theorem G11_arg11 (c : Dev nD) : U11 m c (Proc.devRef .tc main_arg11) = m ((c.tc : Thread nD τ).loc main_arg11) :=
  (ops10_keep _ main_arg11 (by decide) (by decide)).trans (G10_arg11 m c)

theorem G12_arg11 (c : Dev nD) : U12 m c (Proc.devRef .tc main_arg11) = m ((c.tc : Thread nD τ).loc main_arg11) :=
  (ops11_keep _ main_arg11 (by decide)).trans (G11_arg11 m c)

theorem G13_arg11 (c : Dev nD) : U13 m c (Proc.devRef .tc main_arg11) = m ((c.tc : Thread nD τ).loc main_arg11) :=
  (ops12_keep _ main_arg11 (by decide)).trans (G12_arg11 m c)

theorem G14_arg11 (c : Dev nD) : U14 m c (Proc.devRef .tc main_arg11) = m ((c.tc : Thread nD τ).loc main_arg11) :=
  (ops13_keep _ main_arg11 (by decide) (by decide)).trans (G13_arg11 m c)

theorem G10_arg12 (c : Dev nD) : U10 m c (Proc.devRef .tc main_arg12) = m ((c.tc : Thread nD τ).loc main_arg12) :=
  (ops9_keep _ main_arg12 (by decide)).trans (G9_arg12 m c)

theorem G11_arg12 (c : Dev nD) : U11 m c (Proc.devRef .tc main_arg12) = m ((c.tc : Thread nD τ).loc main_arg12) :=
  (ops10_keep _ main_arg12 (by decide) (by decide)).trans (G10_arg12 m c)

theorem G12_arg12 (c : Dev nD) : U12 m c (Proc.devRef .tc main_arg12) = m ((c.tc : Thread nD τ).loc main_arg12) :=
  (ops11_keep _ main_arg12 (by decide)).trans (G11_arg12 m c)

theorem G13_arg12 (c : Dev nD) : U13 m c (Proc.devRef .tc main_arg12) = m ((c.tc : Thread nD τ).loc main_arg12) :=
  (ops12_keep _ main_arg12 (by decide)).trans (G12_arg12 m c)

theorem G14_arg12 (c : Dev nD) : U14 m c (Proc.devRef .tc main_arg12) = m ((c.tc : Thread nD τ).loc main_arg12) :=
  (ops13_keep _ main_arg12 (by decide) (by decide)).trans (G13_arg12 m c)

theorem G10_arg13 (c : Dev nD) : U10 m c (Proc.devRef .tc main_arg13) = m ((c.tc : Thread nD τ).loc main_arg13) :=
  (ops9_keep _ main_arg13 (by decide)).trans (G9_arg13 m c)

theorem G11_arg13 (c : Dev nD) : U11 m c (Proc.devRef .tc main_arg13) = m ((c.tc : Thread nD τ).loc main_arg13) :=
  (ops10_keep _ main_arg13 (by decide) (by decide)).trans (G10_arg13 m c)

theorem G12_arg13 (c : Dev nD) : U12 m c (Proc.devRef .tc main_arg13) = m ((c.tc : Thread nD τ).loc main_arg13) :=
  (ops11_keep _ main_arg13 (by decide)).trans (G11_arg13 m c)

theorem G13_arg13 (c : Dev nD) : U13 m c (Proc.devRef .tc main_arg13) = m ((c.tc : Thread nD τ).loc main_arg13) :=
  (ops12_keep _ main_arg13 (by decide)).trans (G12_arg13 m c)

theorem G14_arg13 (c : Dev nD) : U14 m c (Proc.devRef .tc main_arg13) = m ((c.tc : Thread nD τ).loc main_arg13) :=
  (ops13_keep _ main_arg13 (by decide) (by decide)).trans (G13_arg13 m c)

theorem G10_arg14 (c : Dev nD) : U10 m c (Proc.devRef .tc main_arg14) = m ((c.tc : Thread nD τ).loc main_arg14) :=
  (ops9_keep _ main_arg14 (by decide)).trans (G9_arg14 m c)

theorem G11_arg14 (c : Dev nD) : U11 m c (Proc.devRef .tc main_arg14) = m ((c.tc : Thread nD τ).loc main_arg14) :=
  (ops10_keep _ main_arg14 (by decide) (by decide)).trans (G10_arg14 m c)

theorem G12_arg14 (c : Dev nD) : U12 m c (Proc.devRef .tc main_arg14) = m ((c.tc : Thread nD τ).loc main_arg14) :=
  (ops11_keep _ main_arg14 (by decide)).trans (G11_arg14 m c)

theorem G13_arg14 (c : Dev nD) : U13 m c (Proc.devRef .tc main_arg14) = m ((c.tc : Thread nD τ).loc main_arg14) :=
  (ops12_keep _ main_arg14 (by decide)).trans (G12_arg14 m c)

theorem G14_arg14 (c : Dev nD) : U14 m c (Proc.devRef .tc main_arg14) = m ((c.tc : Thread nD τ).loc main_arg14) :=
  (ops13_keep _ main_arg14 (by decide) (by decide)).trans (G13_arg14 m c)

theorem G10_arg15 (c : Dev nD) : U10 m c (Proc.devRef .tc main_arg15) = m ((c.tc : Thread nD τ).loc main_arg15) :=
  (ops9_keep _ main_arg15 (by decide)).trans (G9_arg15 m c)

theorem G11_arg15 (c : Dev nD) : U11 m c (Proc.devRef .tc main_arg15) = m ((c.tc : Thread nD τ).loc main_arg15) :=
  (ops10_keep _ main_arg15 (by decide) (by decide)).trans (G10_arg15 m c)

theorem G12_arg15 (c : Dev nD) : U12 m c (Proc.devRef .tc main_arg15) = m ((c.tc : Thread nD τ).loc main_arg15) :=
  (ops11_keep _ main_arg15 (by decide)).trans (G11_arg15 m c)

theorem G13_arg15 (c : Dev nD) : U13 m c (Proc.devRef .tc main_arg15) = m ((c.tc : Thread nD τ).loc main_arg15) :=
  (ops12_keep _ main_arg15 (by decide)).trans (G12_arg15 m c)

theorem G14_arg15 (c : Dev nD) : U14 m c (Proc.devRef .tc main_arg15) = m ((c.tc : Thread nD τ).loc main_arg15) :=
  (ops13_keep _ main_arg15 (by decide) (by decide)).trans (G13_arg15 m c)

theorem G10_arg16 (c : Dev nD) : U10 m c (Proc.devRef .tc main_arg16) = m ((c.tc : Thread nD τ).loc main_arg16) :=
  (ops9_keep _ main_arg16 (by decide)).trans (G9_arg16 m c)

theorem G11_arg16 (c : Dev nD) : U11 m c (Proc.devRef .tc main_arg16) = m ((c.tc : Thread nD τ).loc main_arg16) :=
  (ops10_keep _ main_arg16 (by decide) (by decide)).trans (G10_arg16 m c)

theorem G12_arg16 (c : Dev nD) : U12 m c (Proc.devRef .tc main_arg16) = m ((c.tc : Thread nD τ).loc main_arg16) :=
  (ops11_keep _ main_arg16 (by decide)).trans (G11_arg16 m c)

theorem G13_arg16 (c : Dev nD) : U13 m c (Proc.devRef .tc main_arg16) = m ((c.tc : Thread nD τ).loc main_arg16) :=
  (ops12_keep _ main_arg16 (by decide)).trans (G12_arg16 m c)

theorem G14_arg16 (c : Dev nD) : U14 m c (Proc.devRef .tc main_arg16) = m ((c.tc : Thread nD τ).loc main_arg16) :=
  (ops13_keep _ main_arg16 (by decide) (by decide)).trans (G13_arg16 m c)

theorem G15_v314 (c : Dev nD) : U15 m c (Proc.devRef .tc main_v314) = Cert.ReferenceIdeal.Stages.val_main_v314 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after q19 (U14 m c) (Proc.devRef .tc main_v314) = _
  unfold q19
  after_results_each
  simp only [StableHlo.TRef.toBuf, StableHlo.TRef.ofBuf, cast_eq, G14_v280 m c, G14_arg11 m c, G14_arg12 m c, G14_arg13 m c, G14_arg14 m c, G14_arg15 m c, G14_arg16 m c] <;> rfl

theorem G14_v3 (c : Dev nD) : U14 m c (Proc.devRef .tc main_v3) = Cert.ReferenceIdeal.Stages.val_main_v3 (F := Ideal) (m ((c.tc : Thread nD τ).loc main_arg3)) :=
  (ops13_keep _ main_v3 (by decide) (by decide)).trans (G13_v3 m c)

theorem G15_v3 (c : Dev nD) : U15 m c (Proc.devRef .tc main_v3) = Cert.ReferenceIdeal.Stages.val_main_v3 (F := Ideal) (m ((c.tc : Thread nD τ).loc main_arg3)) :=
  (ops14_keep _ main_v3 (by decide)).trans (G14_v3 m c)

theorem G11_v41 (c : Dev nD) : U11 m c (Proc.devRef .tc main_v41) = Cert.ReferenceIdeal.Stages.val_main_v41 (F := Ideal) (m ((c.tc : Thread nD τ).loc main_arg3)) :=
  (ops10_keep _ main_v41 (by decide) (by decide)).trans (G10_v41 m c)

theorem G12_v41 (c : Dev nD) : U12 m c (Proc.devRef .tc main_v41) = Cert.ReferenceIdeal.Stages.val_main_v41 (F := Ideal) (m ((c.tc : Thread nD τ).loc main_arg3)) :=
  (ops11_keep _ main_v41 (by decide)).trans (G11_v41 m c)

theorem G13_v41 (c : Dev nD) : U13 m c (Proc.devRef .tc main_v41) = Cert.ReferenceIdeal.Stages.val_main_v41 (F := Ideal) (m ((c.tc : Thread nD τ).loc main_arg3)) :=
  (ops12_keep _ main_v41 (by decide)).trans (G12_v41 m c)

theorem G14_v41 (c : Dev nD) : U14 m c (Proc.devRef .tc main_v41) = Cert.ReferenceIdeal.Stages.val_main_v41 (F := Ideal) (m ((c.tc : Thread nD τ).loc main_arg3)) :=
  (ops13_keep _ main_v41 (by decide) (by decide)).trans (G13_v41 m c)

theorem G15_v41 (c : Dev nD) : U15 m c (Proc.devRef .tc main_v41) = Cert.ReferenceIdeal.Stages.val_main_v41 (F := Ideal) (m ((c.tc : Thread nD τ).loc main_arg3)) :=
  (ops14_keep _ main_v41 (by decide)).trans (G14_v41 m c)

theorem G16_v319 (c : Dev nD) : U16 m c (Proc.devRef .tc main_v319) = Cert.ReferenceIdeal.Stages.val_main_v319 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after (q20 ++ q21) (U15 m c) (Proc.devRef .tc main_v319) = _
  rw [Line.after_append]
  unfold q20 q21
  after_results_each
  simp only [StableHlo.TRef.toBuf, StableHlo.TRef.ofBuf, cast_eq, G15_v314 m c, G15_v3 m c, G15_v41 m c] <;> rfl

theorem G12_arg17 (c : Dev nD) : U12 m c (Proc.devRef .tc main_arg17) = m ((c.tc : Thread nD τ).loc main_arg17) :=
  (ops11_keep _ main_arg17 (by decide)).trans (G11_arg17 m c)

theorem G13_arg17 (c : Dev nD) : U13 m c (Proc.devRef .tc main_arg17) = m ((c.tc : Thread nD τ).loc main_arg17) :=
  (ops12_keep _ main_arg17 (by decide)).trans (G12_arg17 m c)

theorem G14_arg17 (c : Dev nD) : U14 m c (Proc.devRef .tc main_arg17) = m ((c.tc : Thread nD τ).loc main_arg17) :=
  (ops13_keep _ main_arg17 (by decide) (by decide)).trans (G13_arg17 m c)

theorem G15_arg17 (c : Dev nD) : U15 m c (Proc.devRef .tc main_arg17) = m ((c.tc : Thread nD τ).loc main_arg17) :=
  (ops14_keep _ main_arg17 (by decide)).trans (G14_arg17 m c)

theorem G16_arg17 (c : Dev nD) : U16 m c (Proc.devRef .tc main_arg17) = m ((c.tc : Thread nD τ).loc main_arg17) :=
  (ops15_keep _ main_arg17 (by decide) (by decide)).trans (G15_arg17 m c)

theorem G12_arg18 (c : Dev nD) : U12 m c (Proc.devRef .tc main_arg18) = m ((c.tc : Thread nD τ).loc main_arg18) :=
  (ops11_keep _ main_arg18 (by decide)).trans (G11_arg18 m c)

theorem G13_arg18 (c : Dev nD) : U13 m c (Proc.devRef .tc main_arg18) = m ((c.tc : Thread nD τ).loc main_arg18) :=
  (ops12_keep _ main_arg18 (by decide)).trans (G12_arg18 m c)

theorem G14_arg18 (c : Dev nD) : U14 m c (Proc.devRef .tc main_arg18) = m ((c.tc : Thread nD τ).loc main_arg18) :=
  (ops13_keep _ main_arg18 (by decide) (by decide)).trans (G13_arg18 m c)

theorem G15_arg18 (c : Dev nD) : U15 m c (Proc.devRef .tc main_arg18) = m ((c.tc : Thread nD τ).loc main_arg18) :=
  (ops14_keep _ main_arg18 (by decide)).trans (G14_arg18 m c)

theorem G16_arg18 (c : Dev nD) : U16 m c (Proc.devRef .tc main_arg18) = m ((c.tc : Thread nD τ).loc main_arg18) :=
  (ops15_keep _ main_arg18 (by decide) (by decide)).trans (G15_arg18 m c)

theorem G12_arg19 (c : Dev nD) : U12 m c (Proc.devRef .tc main_arg19) = m ((c.tc : Thread nD τ).loc main_arg19) :=
  (ops11_keep _ main_arg19 (by decide)).trans (G11_arg19 m c)

theorem G13_arg19 (c : Dev nD) : U13 m c (Proc.devRef .tc main_arg19) = m ((c.tc : Thread nD τ).loc main_arg19) :=
  (ops12_keep _ main_arg19 (by decide)).trans (G12_arg19 m c)

theorem G14_arg19 (c : Dev nD) : U14 m c (Proc.devRef .tc main_arg19) = m ((c.tc : Thread nD τ).loc main_arg19) :=
  (ops13_keep _ main_arg19 (by decide) (by decide)).trans (G13_arg19 m c)

theorem G15_arg19 (c : Dev nD) : U15 m c (Proc.devRef .tc main_arg19) = m ((c.tc : Thread nD τ).loc main_arg19) :=
  (ops14_keep _ main_arg19 (by decide)).trans (G14_arg19 m c)

theorem G16_arg19 (c : Dev nD) : U16 m c (Proc.devRef .tc main_arg19) = m ((c.tc : Thread nD τ).loc main_arg19) :=
  (ops15_keep _ main_arg19 (by decide) (by decide)).trans (G15_arg19 m c)

theorem G12_arg20 (c : Dev nD) : U12 m c (Proc.devRef .tc main_arg20) = m ((c.tc : Thread nD τ).loc main_arg20) :=
  (ops11_keep _ main_arg20 (by decide)).trans (G11_arg20 m c)

theorem G13_arg20 (c : Dev nD) : U13 m c (Proc.devRef .tc main_arg20) = m ((c.tc : Thread nD τ).loc main_arg20) :=
  (ops12_keep _ main_arg20 (by decide)).trans (G12_arg20 m c)

theorem G14_arg20 (c : Dev nD) : U14 m c (Proc.devRef .tc main_arg20) = m ((c.tc : Thread nD τ).loc main_arg20) :=
  (ops13_keep _ main_arg20 (by decide) (by decide)).trans (G13_arg20 m c)

theorem G15_arg20 (c : Dev nD) : U15 m c (Proc.devRef .tc main_arg20) = m ((c.tc : Thread nD τ).loc main_arg20) :=
  (ops14_keep _ main_arg20 (by decide)).trans (G14_arg20 m c)

theorem G16_arg20 (c : Dev nD) : U16 m c (Proc.devRef .tc main_arg20) = m ((c.tc : Thread nD τ).loc main_arg20) :=
  (ops15_keep _ main_arg20 (by decide) (by decide)).trans (G15_arg20 m c)

theorem G17_v337 (c : Dev nD) : U17 m c (Proc.devRef .tc main_v337) = Cert.ReferenceIdeal.Stages.val_main_v337 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  show StableHlo.after q22 (U16 m c) (Proc.devRef .tc main_v337) = _
  unfold q22
  after_results_each
  rw [G16_v232 m c, G16_v251 m c, G16_v319 m c]
  simp only [StableHlo.TRef.toBuf, StableHlo.TRef.ofBuf, cast_eq, G16_v232 m c, G16_v251 m c, G16_v319 m c, G16_arg17 m c, G16_arg18 m c, G16_arg19 m c, G16_arg20 m c] <;> rfl

theorem G18_v337 (c : Dev nD) : U18 m c (Proc.devRef .tc main_v337) = Cert.ReferenceIdeal.Stages.val_main_v337 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  (ops17_keep _ main_v337 (by decide)).trans (G17_v337 m c)

theorem G0_arg25 (c : Dev nD) : U0 m c (Proc.devRef .tc main_arg25) = m ((c.tc : Thread nD τ).loc main_arg25) := rfl

theorem G1_arg25 (c : Dev nD) : U1 m c (Proc.devRef .tc main_arg25) = m ((c.tc : Thread nD τ).loc main_arg25) :=
  (ops0_keep _ main_arg25 (by decide)).trans (G0_arg25 m c)

theorem G2_arg25 (c : Dev nD) : U2 m c (Proc.devRef .tc main_arg25) = m ((c.tc : Thread nD τ).loc main_arg25) :=
  (ops1_keep _ main_arg25 (by decide)).trans (G1_arg25 m c)

theorem G3_arg25 (c : Dev nD) : U3 m c (Proc.devRef .tc main_arg25) = m ((c.tc : Thread nD τ).loc main_arg25) :=
  (ops2_keep _ main_arg25 (by decide)).trans (G2_arg25 m c)

theorem G4_arg25 (c : Dev nD) : U4 m c (Proc.devRef .tc main_arg25) = m ((c.tc : Thread nD τ).loc main_arg25) :=
  (ops3_keep _ main_arg25 (by decide) (by decide)).trans (G3_arg25 m c)

theorem G5_arg25 (c : Dev nD) : U5 m c (Proc.devRef .tc main_arg25) = m ((c.tc : Thread nD τ).loc main_arg25) :=
  (ops4_keep _ main_arg25 (by decide) (by decide)).trans (G4_arg25 m c)

theorem G6_arg25 (c : Dev nD) : U6 m c (Proc.devRef .tc main_arg25) = m ((c.tc : Thread nD τ).loc main_arg25) :=
  (ops5_keep _ main_arg25 (by decide)).trans (G5_arg25 m c)

theorem G7_arg25 (c : Dev nD) : U7 m c (Proc.devRef .tc main_arg25) = m ((c.tc : Thread nD τ).loc main_arg25) :=
  (ops6_keep _ main_arg25 (by decide)).trans (G6_arg25 m c)

theorem G8_arg25 (c : Dev nD) : U8 m c (Proc.devRef .tc main_arg25) = m ((c.tc : Thread nD τ).loc main_arg25) :=
  (ops7_keep _ main_arg25 (by decide)).trans (G7_arg25 m c)

theorem G9_arg25 (c : Dev nD) : U9 m c (Proc.devRef .tc main_arg25) = m ((c.tc : Thread nD τ).loc main_arg25) :=
  (ops8_keep _ main_arg25 (by decide) (by decide)).trans (G8_arg25 m c)

theorem G10_arg25 (c : Dev nD) : U10 m c (Proc.devRef .tc main_arg25) = m ((c.tc : Thread nD τ).loc main_arg25) :=
  (ops9_keep _ main_arg25 (by decide)).trans (G9_arg25 m c)

theorem G11_arg25 (c : Dev nD) : U11 m c (Proc.devRef .tc main_arg25) = m ((c.tc : Thread nD τ).loc main_arg25) :=
  (ops10_keep _ main_arg25 (by decide) (by decide)).trans (G10_arg25 m c)

theorem G12_arg25 (c : Dev nD) : U12 m c (Proc.devRef .tc main_arg25) = m ((c.tc : Thread nD τ).loc main_arg25) :=
  (ops11_keep _ main_arg25 (by decide)).trans (G11_arg25 m c)

theorem G13_arg25 (c : Dev nD) : U13 m c (Proc.devRef .tc main_arg25) = m ((c.tc : Thread nD τ).loc main_arg25) :=
  (ops12_keep _ main_arg25 (by decide)).trans (G12_arg25 m c)

theorem G14_arg25 (c : Dev nD) : U14 m c (Proc.devRef .tc main_arg25) = m ((c.tc : Thread nD τ).loc main_arg25) :=
  (ops13_keep _ main_arg25 (by decide) (by decide)).trans (G13_arg25 m c)

theorem G15_arg25 (c : Dev nD) : U15 m c (Proc.devRef .tc main_arg25) = m ((c.tc : Thread nD τ).loc main_arg25) :=
  (ops14_keep _ main_arg25 (by decide)).trans (G14_arg25 m c)

theorem G16_arg25 (c : Dev nD) : U16 m c (Proc.devRef .tc main_arg25) = m ((c.tc : Thread nD τ).loc main_arg25) :=
  (ops15_keep _ main_arg25 (by decide) (by decide)).trans (G15_arg25 m c)

theorem G17_arg25 (c : Dev nD) : U17 m c (Proc.devRef .tc main_arg25) = m ((c.tc : Thread nD τ).loc main_arg25) :=
  (ops16_keep _ main_arg25 (by decide)).trans (G16_arg25 m c)

theorem G18_arg25 (c : Dev nD) : U18 m c (Proc.devRef .tc main_arg25) = m ((c.tc : Thread nD τ).loc main_arg25) :=
  (ops17_keep _ main_arg25 (by decide)).trans (G17_arg25 m c)

theorem G0_arg26 (c : Dev nD) : U0 m c (Proc.devRef .tc main_arg26) = m ((c.tc : Thread nD τ).loc main_arg26) := rfl

theorem G1_arg26 (c : Dev nD) : U1 m c (Proc.devRef .tc main_arg26) = m ((c.tc : Thread nD τ).loc main_arg26) :=
  (ops0_keep _ main_arg26 (by decide)).trans (G0_arg26 m c)

theorem G2_arg26 (c : Dev nD) : U2 m c (Proc.devRef .tc main_arg26) = m ((c.tc : Thread nD τ).loc main_arg26) :=
  (ops1_keep _ main_arg26 (by decide)).trans (G1_arg26 m c)

theorem G3_arg26 (c : Dev nD) : U3 m c (Proc.devRef .tc main_arg26) = m ((c.tc : Thread nD τ).loc main_arg26) :=
  (ops2_keep _ main_arg26 (by decide)).trans (G2_arg26 m c)

theorem G4_arg26 (c : Dev nD) : U4 m c (Proc.devRef .tc main_arg26) = m ((c.tc : Thread nD τ).loc main_arg26) :=
  (ops3_keep _ main_arg26 (by decide) (by decide)).trans (G3_arg26 m c)

theorem G5_arg26 (c : Dev nD) : U5 m c (Proc.devRef .tc main_arg26) = m ((c.tc : Thread nD τ).loc main_arg26) :=
  (ops4_keep _ main_arg26 (by decide) (by decide)).trans (G4_arg26 m c)

theorem G6_arg26 (c : Dev nD) : U6 m c (Proc.devRef .tc main_arg26) = m ((c.tc : Thread nD τ).loc main_arg26) :=
  (ops5_keep _ main_arg26 (by decide)).trans (G5_arg26 m c)

theorem G7_arg26 (c : Dev nD) : U7 m c (Proc.devRef .tc main_arg26) = m ((c.tc : Thread nD τ).loc main_arg26) :=
  (ops6_keep _ main_arg26 (by decide)).trans (G6_arg26 m c)

theorem G8_arg26 (c : Dev nD) : U8 m c (Proc.devRef .tc main_arg26) = m ((c.tc : Thread nD τ).loc main_arg26) :=
  (ops7_keep _ main_arg26 (by decide)).trans (G7_arg26 m c)

theorem G9_arg26 (c : Dev nD) : U9 m c (Proc.devRef .tc main_arg26) = m ((c.tc : Thread nD τ).loc main_arg26) :=
  (ops8_keep _ main_arg26 (by decide) (by decide)).trans (G8_arg26 m c)

theorem G10_arg26 (c : Dev nD) : U10 m c (Proc.devRef .tc main_arg26) = m ((c.tc : Thread nD τ).loc main_arg26) :=
  (ops9_keep _ main_arg26 (by decide)).trans (G9_arg26 m c)

theorem G11_arg26 (c : Dev nD) : U11 m c (Proc.devRef .tc main_arg26) = m ((c.tc : Thread nD τ).loc main_arg26) :=
  (ops10_keep _ main_arg26 (by decide) (by decide)).trans (G10_arg26 m c)

theorem G12_arg26 (c : Dev nD) : U12 m c (Proc.devRef .tc main_arg26) = m ((c.tc : Thread nD τ).loc main_arg26) :=
  (ops11_keep _ main_arg26 (by decide)).trans (G11_arg26 m c)

theorem G13_arg26 (c : Dev nD) : U13 m c (Proc.devRef .tc main_arg26) = m ((c.tc : Thread nD τ).loc main_arg26) :=
  (ops12_keep _ main_arg26 (by decide)).trans (G12_arg26 m c)

theorem G14_arg26 (c : Dev nD) : U14 m c (Proc.devRef .tc main_arg26) = m ((c.tc : Thread nD τ).loc main_arg26) :=
  (ops13_keep _ main_arg26 (by decide) (by decide)).trans (G13_arg26 m c)

theorem G15_arg26 (c : Dev nD) : U15 m c (Proc.devRef .tc main_arg26) = m ((c.tc : Thread nD τ).loc main_arg26) :=
  (ops14_keep _ main_arg26 (by decide)).trans (G14_arg26 m c)

theorem G16_arg26 (c : Dev nD) : U16 m c (Proc.devRef .tc main_arg26) = m ((c.tc : Thread nD τ).loc main_arg26) :=
  (ops15_keep _ main_arg26 (by decide) (by decide)).trans (G15_arg26 m c)

theorem G17_arg26 (c : Dev nD) : U17 m c (Proc.devRef .tc main_arg26) = m ((c.tc : Thread nD τ).loc main_arg26) :=
  (ops16_keep _ main_arg26 (by decide)).trans (G16_arg26 m c)

theorem G18_arg26 (c : Dev nD) : U18 m c (Proc.devRef .tc main_arg26) = m ((c.tc : Thread nD τ).loc main_arg26) :=
  (ops17_keep _ main_arg26 (by decide)).trans (G17_arg26 m c)

theorem G0_arg27 (c : Dev nD) : U0 m c (Proc.devRef .tc main_arg27) = m ((c.tc : Thread nD τ).loc main_arg27) := rfl

theorem G1_arg27 (c : Dev nD) : U1 m c (Proc.devRef .tc main_arg27) = m ((c.tc : Thread nD τ).loc main_arg27) :=
  (ops0_keep _ main_arg27 (by decide)).trans (G0_arg27 m c)

theorem G2_arg27 (c : Dev nD) : U2 m c (Proc.devRef .tc main_arg27) = m ((c.tc : Thread nD τ).loc main_arg27) :=
  (ops1_keep _ main_arg27 (by decide)).trans (G1_arg27 m c)

theorem G3_arg27 (c : Dev nD) : U3 m c (Proc.devRef .tc main_arg27) = m ((c.tc : Thread nD τ).loc main_arg27) :=
  (ops2_keep _ main_arg27 (by decide)).trans (G2_arg27 m c)

theorem G4_arg27 (c : Dev nD) : U4 m c (Proc.devRef .tc main_arg27) = m ((c.tc : Thread nD τ).loc main_arg27) :=
  (ops3_keep _ main_arg27 (by decide) (by decide)).trans (G3_arg27 m c)

theorem G5_arg27 (c : Dev nD) : U5 m c (Proc.devRef .tc main_arg27) = m ((c.tc : Thread nD τ).loc main_arg27) :=
  (ops4_keep _ main_arg27 (by decide) (by decide)).trans (G4_arg27 m c)

theorem G6_arg27 (c : Dev nD) : U6 m c (Proc.devRef .tc main_arg27) = m ((c.tc : Thread nD τ).loc main_arg27) :=
  (ops5_keep _ main_arg27 (by decide)).trans (G5_arg27 m c)

theorem G7_arg27 (c : Dev nD) : U7 m c (Proc.devRef .tc main_arg27) = m ((c.tc : Thread nD τ).loc main_arg27) :=
  (ops6_keep _ main_arg27 (by decide)).trans (G6_arg27 m c)

theorem G8_arg27 (c : Dev nD) : U8 m c (Proc.devRef .tc main_arg27) = m ((c.tc : Thread nD τ).loc main_arg27) :=
  (ops7_keep _ main_arg27 (by decide)).trans (G7_arg27 m c)

theorem G9_arg27 (c : Dev nD) : U9 m c (Proc.devRef .tc main_arg27) = m ((c.tc : Thread nD τ).loc main_arg27) :=
  (ops8_keep _ main_arg27 (by decide) (by decide)).trans (G8_arg27 m c)

theorem G10_arg27 (c : Dev nD) : U10 m c (Proc.devRef .tc main_arg27) = m ((c.tc : Thread nD τ).loc main_arg27) :=
  (ops9_keep _ main_arg27 (by decide)).trans (G9_arg27 m c)

theorem G11_arg27 (c : Dev nD) : U11 m c (Proc.devRef .tc main_arg27) = m ((c.tc : Thread nD τ).loc main_arg27) :=
  (ops10_keep _ main_arg27 (by decide) (by decide)).trans (G10_arg27 m c)

theorem G12_arg27 (c : Dev nD) : U12 m c (Proc.devRef .tc main_arg27) = m ((c.tc : Thread nD τ).loc main_arg27) :=
  (ops11_keep _ main_arg27 (by decide)).trans (G11_arg27 m c)

theorem G13_arg27 (c : Dev nD) : U13 m c (Proc.devRef .tc main_arg27) = m ((c.tc : Thread nD τ).loc main_arg27) :=
  (ops12_keep _ main_arg27 (by decide)).trans (G12_arg27 m c)

theorem G14_arg27 (c : Dev nD) : U14 m c (Proc.devRef .tc main_arg27) = m ((c.tc : Thread nD τ).loc main_arg27) :=
  (ops13_keep _ main_arg27 (by decide) (by decide)).trans (G13_arg27 m c)

theorem G15_arg27 (c : Dev nD) : U15 m c (Proc.devRef .tc main_arg27) = m ((c.tc : Thread nD τ).loc main_arg27) :=
  (ops14_keep _ main_arg27 (by decide)).trans (G14_arg27 m c)

theorem G16_arg27 (c : Dev nD) : U16 m c (Proc.devRef .tc main_arg27) = m ((c.tc : Thread nD τ).loc main_arg27) :=
  (ops15_keep _ main_arg27 (by decide) (by decide)).trans (G15_arg27 m c)

theorem G17_arg27 (c : Dev nD) : U17 m c (Proc.devRef .tc main_arg27) = m ((c.tc : Thread nD τ).loc main_arg27) :=
  (ops16_keep _ main_arg27 (by decide)).trans (G16_arg27 m c)

theorem G18_arg27 (c : Dev nD) : U18 m c (Proc.devRef .tc main_arg27) = m ((c.tc : Thread nD τ).loc main_arg27) :=
  (ops17_keep _ main_arg27 (by decide)).trans (G17_arg27 m c)

theorem G0_arg28 (c : Dev nD) : U0 m c (Proc.devRef .tc main_arg28) = m ((c.tc : Thread nD τ).loc main_arg28) := rfl

theorem G1_arg28 (c : Dev nD) : U1 m c (Proc.devRef .tc main_arg28) = m ((c.tc : Thread nD τ).loc main_arg28) :=
  (ops0_keep _ main_arg28 (by decide)).trans (G0_arg28 m c)

theorem G2_arg28 (c : Dev nD) : U2 m c (Proc.devRef .tc main_arg28) = m ((c.tc : Thread nD τ).loc main_arg28) :=
  (ops1_keep _ main_arg28 (by decide)).trans (G1_arg28 m c)

theorem G3_arg28 (c : Dev nD) : U3 m c (Proc.devRef .tc main_arg28) = m ((c.tc : Thread nD τ).loc main_arg28) :=
  (ops2_keep _ main_arg28 (by decide)).trans (G2_arg28 m c)

theorem G4_arg28 (c : Dev nD) : U4 m c (Proc.devRef .tc main_arg28) = m ((c.tc : Thread nD τ).loc main_arg28) :=
  (ops3_keep _ main_arg28 (by decide) (by decide)).trans (G3_arg28 m c)

theorem G5_arg28 (c : Dev nD) : U5 m c (Proc.devRef .tc main_arg28) = m ((c.tc : Thread nD τ).loc main_arg28) :=
  (ops4_keep _ main_arg28 (by decide) (by decide)).trans (G4_arg28 m c)

theorem G6_arg28 (c : Dev nD) : U6 m c (Proc.devRef .tc main_arg28) = m ((c.tc : Thread nD τ).loc main_arg28) :=
  (ops5_keep _ main_arg28 (by decide)).trans (G5_arg28 m c)

theorem G7_arg28 (c : Dev nD) : U7 m c (Proc.devRef .tc main_arg28) = m ((c.tc : Thread nD τ).loc main_arg28) :=
  (ops6_keep _ main_arg28 (by decide)).trans (G6_arg28 m c)

theorem G8_arg28 (c : Dev nD) : U8 m c (Proc.devRef .tc main_arg28) = m ((c.tc : Thread nD τ).loc main_arg28) :=
  (ops7_keep _ main_arg28 (by decide)).trans (G7_arg28 m c)

theorem G9_arg28 (c : Dev nD) : U9 m c (Proc.devRef .tc main_arg28) = m ((c.tc : Thread nD τ).loc main_arg28) :=
  (ops8_keep _ main_arg28 (by decide) (by decide)).trans (G8_arg28 m c)

theorem G10_arg28 (c : Dev nD) : U10 m c (Proc.devRef .tc main_arg28) = m ((c.tc : Thread nD τ).loc main_arg28) :=
  (ops9_keep _ main_arg28 (by decide)).trans (G9_arg28 m c)

theorem G11_arg28 (c : Dev nD) : U11 m c (Proc.devRef .tc main_arg28) = m ((c.tc : Thread nD τ).loc main_arg28) :=
  (ops10_keep _ main_arg28 (by decide) (by decide)).trans (G10_arg28 m c)

theorem G12_arg28 (c : Dev nD) : U12 m c (Proc.devRef .tc main_arg28) = m ((c.tc : Thread nD τ).loc main_arg28) :=
  (ops11_keep _ main_arg28 (by decide)).trans (G11_arg28 m c)

theorem G13_arg28 (c : Dev nD) : U13 m c (Proc.devRef .tc main_arg28) = m ((c.tc : Thread nD τ).loc main_arg28) :=
  (ops12_keep _ main_arg28 (by decide)).trans (G12_arg28 m c)

theorem G14_arg28 (c : Dev nD) : U14 m c (Proc.devRef .tc main_arg28) = m ((c.tc : Thread nD τ).loc main_arg28) :=
  (ops13_keep _ main_arg28 (by decide) (by decide)).trans (G13_arg28 m c)

theorem G15_arg28 (c : Dev nD) : U15 m c (Proc.devRef .tc main_arg28) = m ((c.tc : Thread nD τ).loc main_arg28) :=
  (ops14_keep _ main_arg28 (by decide)).trans (G14_arg28 m c)

theorem G16_arg28 (c : Dev nD) : U16 m c (Proc.devRef .tc main_arg28) = m ((c.tc : Thread nD τ).loc main_arg28) :=
  (ops15_keep _ main_arg28 (by decide) (by decide)).trans (G15_arg28 m c)

theorem G17_arg28 (c : Dev nD) : U17 m c (Proc.devRef .tc main_arg28) = m ((c.tc : Thread nD τ).loc main_arg28) :=
  (ops16_keep _ main_arg28 (by decide)).trans (G16_arg28 m c)

theorem G18_arg28 (c : Dev nD) : U18 m c (Proc.devRef .tc main_arg28) = m ((c.tc : Thread nD τ).loc main_arg28) :=
  (ops17_keep _ main_arg28 (by decide)).trans (G17_arg28 m c)

theorem G19_v365 (c : Dev nD) : U19 m c (Proc.devRef .tc main_v365) = Cert.ReferenceIdeal.Stages.val_main_v365 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  show StableHlo.after q24 (U18 m c) (Proc.devRef .tc main_v365) = _
  unfold q24
  after_results_each
  simp only [StableHlo.TRef.toBuf, StableHlo.TRef.ofBuf, cast_eq, G18_v337 m c, G18_arg25 m c, G18_arg26 m c, G18_arg27 m c, G18_arg28 m c] <;> rfl

theorem G0_arg4 (c : Dev nD) : U0 m c (Proc.devRef .tc main_arg4) = m ((c.tc : Thread nD τ).loc main_arg4) := rfl

theorem G1_arg4 (c : Dev nD) : U1 m c (Proc.devRef .tc main_arg4) = m ((c.tc : Thread nD τ).loc main_arg4) :=
  (ops0_keep _ main_arg4 (by decide)).trans (G0_arg4 m c)

theorem G2_arg4 (c : Dev nD) : U2 m c (Proc.devRef .tc main_arg4) = m ((c.tc : Thread nD τ).loc main_arg4) :=
  (ops1_keep _ main_arg4 (by decide)).trans (G1_arg4 m c)

theorem G3_arg4 (c : Dev nD) : U3 m c (Proc.devRef .tc main_arg4) = m ((c.tc : Thread nD τ).loc main_arg4) :=
  (ops2_keep _ main_arg4 (by decide)).trans (G2_arg4 m c)

theorem G4_arg4 (c : Dev nD) : U4 m c (Proc.devRef .tc main_arg4) = m ((c.tc : Thread nD τ).loc main_arg4) :=
  (ops3_keep _ main_arg4 (by decide) (by decide)).trans (G3_arg4 m c)

theorem G5_arg4 (c : Dev nD) : U5 m c (Proc.devRef .tc main_arg4) = m ((c.tc : Thread nD τ).loc main_arg4) :=
  (ops4_keep _ main_arg4 (by decide) (by decide)).trans (G4_arg4 m c)

theorem G6_arg4 (c : Dev nD) : U6 m c (Proc.devRef .tc main_arg4) = m ((c.tc : Thread nD τ).loc main_arg4) :=
  (ops5_keep _ main_arg4 (by decide)).trans (G5_arg4 m c)

theorem G7_arg4 (c : Dev nD) : U7 m c (Proc.devRef .tc main_arg4) = m ((c.tc : Thread nD τ).loc main_arg4) :=
  (ops6_keep _ main_arg4 (by decide)).trans (G6_arg4 m c)

theorem G8_arg4 (c : Dev nD) : U8 m c (Proc.devRef .tc main_arg4) = m ((c.tc : Thread nD τ).loc main_arg4) :=
  (ops7_keep _ main_arg4 (by decide)).trans (G7_arg4 m c)

theorem G9_arg4 (c : Dev nD) : U9 m c (Proc.devRef .tc main_arg4) = m ((c.tc : Thread nD τ).loc main_arg4) :=
  (ops8_keep _ main_arg4 (by decide) (by decide)).trans (G8_arg4 m c)

theorem G10_arg4 (c : Dev nD) : U10 m c (Proc.devRef .tc main_arg4) = m ((c.tc : Thread nD τ).loc main_arg4) :=
  (ops9_keep _ main_arg4 (by decide)).trans (G9_arg4 m c)

theorem G11_arg4 (c : Dev nD) : U11 m c (Proc.devRef .tc main_arg4) = m ((c.tc : Thread nD τ).loc main_arg4) :=
  (ops10_keep _ main_arg4 (by decide) (by decide)).trans (G10_arg4 m c)

theorem G12_arg4 (c : Dev nD) : U12 m c (Proc.devRef .tc main_arg4) = m ((c.tc : Thread nD τ).loc main_arg4) :=
  (ops11_keep _ main_arg4 (by decide)).trans (G11_arg4 m c)

theorem G13_arg4 (c : Dev nD) : U13 m c (Proc.devRef .tc main_arg4) = m ((c.tc : Thread nD τ).loc main_arg4) :=
  (ops12_keep _ main_arg4 (by decide)).trans (G12_arg4 m c)

theorem G14_arg4 (c : Dev nD) : U14 m c (Proc.devRef .tc main_arg4) = m ((c.tc : Thread nD τ).loc main_arg4) :=
  (ops13_keep _ main_arg4 (by decide) (by decide)).trans (G13_arg4 m c)

theorem G15_arg4 (c : Dev nD) : U15 m c (Proc.devRef .tc main_arg4) = m ((c.tc : Thread nD τ).loc main_arg4) :=
  (ops14_keep _ main_arg4 (by decide)).trans (G14_arg4 m c)

theorem G16_arg4 (c : Dev nD) : U16 m c (Proc.devRef .tc main_arg4) = m ((c.tc : Thread nD τ).loc main_arg4) :=
  (ops15_keep _ main_arg4 (by decide) (by decide)).trans (G15_arg4 m c)

theorem G17_arg4 (c : Dev nD) : U17 m c (Proc.devRef .tc main_arg4) = m ((c.tc : Thread nD τ).loc main_arg4) :=
  (ops16_keep _ main_arg4 (by decide)).trans (G16_arg4 m c)

theorem G18_arg4 (c : Dev nD) : U18 m c (Proc.devRef .tc main_arg4) = m ((c.tc : Thread nD τ).loc main_arg4) :=
  (ops17_keep _ main_arg4 (by decide)).trans (G17_arg4 m c)

theorem G19_arg4 (c : Dev nD) : U19 m c (Proc.devRef .tc main_arg4) = m ((c.tc : Thread nD τ).loc main_arg4) :=
  (ops18_keep _ main_arg4 (by decide)).trans (G18_arg4 m c)

theorem G20_v368 (c : Dev nD) : U20 m c (Proc.devRef .tc main_v368) = Cert.ReferenceIdeal.Stages.val_main_v368 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  show StableHlo.after q25 (U19 m c) (Proc.devRef .tc main_v368) = _
  unfold q25
  after_results_each
  simp only [StableHlo.TRef.toBuf, StableHlo.TRef.ofBuf, cast_eq, G19_v365 m c, G19_arg4 m c] <;> rfl

theorem G0_arg29 (c : Dev nD) : U0 m c (Proc.devRef .tc main_arg29) = m ((c.tc : Thread nD τ).loc main_arg29) := rfl

theorem G1_arg29 (c : Dev nD) : U1 m c (Proc.devRef .tc main_arg29) = m ((c.tc : Thread nD τ).loc main_arg29) :=
  (ops0_keep _ main_arg29 (by decide)).trans (G0_arg29 m c)

theorem G2_arg29 (c : Dev nD) : U2 m c (Proc.devRef .tc main_arg29) = m ((c.tc : Thread nD τ).loc main_arg29) :=
  (ops1_keep _ main_arg29 (by decide)).trans (G1_arg29 m c)

theorem G3_arg29 (c : Dev nD) : U3 m c (Proc.devRef .tc main_arg29) = m ((c.tc : Thread nD τ).loc main_arg29) :=
  (ops2_keep _ main_arg29 (by decide)).trans (G2_arg29 m c)

theorem G4_arg29 (c : Dev nD) : U4 m c (Proc.devRef .tc main_arg29) = m ((c.tc : Thread nD τ).loc main_arg29) :=
  (ops3_keep _ main_arg29 (by decide) (by decide)).trans (G3_arg29 m c)

theorem G5_arg29 (c : Dev nD) : U5 m c (Proc.devRef .tc main_arg29) = m ((c.tc : Thread nD τ).loc main_arg29) :=
  (ops4_keep _ main_arg29 (by decide) (by decide)).trans (G4_arg29 m c)

theorem G6_arg29 (c : Dev nD) : U6 m c (Proc.devRef .tc main_arg29) = m ((c.tc : Thread nD τ).loc main_arg29) :=
  (ops5_keep _ main_arg29 (by decide)).trans (G5_arg29 m c)

theorem G7_arg29 (c : Dev nD) : U7 m c (Proc.devRef .tc main_arg29) = m ((c.tc : Thread nD τ).loc main_arg29) :=
  (ops6_keep _ main_arg29 (by decide)).trans (G6_arg29 m c)

theorem G8_arg29 (c : Dev nD) : U8 m c (Proc.devRef .tc main_arg29) = m ((c.tc : Thread nD τ).loc main_arg29) :=
  (ops7_keep _ main_arg29 (by decide)).trans (G7_arg29 m c)

theorem G9_arg29 (c : Dev nD) : U9 m c (Proc.devRef .tc main_arg29) = m ((c.tc : Thread nD τ).loc main_arg29) :=
  (ops8_keep _ main_arg29 (by decide) (by decide)).trans (G8_arg29 m c)

theorem G10_arg29 (c : Dev nD) : U10 m c (Proc.devRef .tc main_arg29) = m ((c.tc : Thread nD τ).loc main_arg29) :=
  (ops9_keep _ main_arg29 (by decide)).trans (G9_arg29 m c)

theorem G11_arg29 (c : Dev nD) : U11 m c (Proc.devRef .tc main_arg29) = m ((c.tc : Thread nD τ).loc main_arg29) :=
  (ops10_keep _ main_arg29 (by decide) (by decide)).trans (G10_arg29 m c)

theorem G12_arg29 (c : Dev nD) : U12 m c (Proc.devRef .tc main_arg29) = m ((c.tc : Thread nD τ).loc main_arg29) :=
  (ops11_keep _ main_arg29 (by decide)).trans (G11_arg29 m c)

theorem G13_arg29 (c : Dev nD) : U13 m c (Proc.devRef .tc main_arg29) = m ((c.tc : Thread nD τ).loc main_arg29) :=
  (ops12_keep _ main_arg29 (by decide)).trans (G12_arg29 m c)

theorem G14_arg29 (c : Dev nD) : U14 m c (Proc.devRef .tc main_arg29) = m ((c.tc : Thread nD τ).loc main_arg29) :=
  (ops13_keep _ main_arg29 (by decide) (by decide)).trans (G13_arg29 m c)

theorem G15_arg29 (c : Dev nD) : U15 m c (Proc.devRef .tc main_arg29) = m ((c.tc : Thread nD τ).loc main_arg29) :=
  (ops14_keep _ main_arg29 (by decide)).trans (G14_arg29 m c)

theorem G16_arg29 (c : Dev nD) : U16 m c (Proc.devRef .tc main_arg29) = m ((c.tc : Thread nD τ).loc main_arg29) :=
  (ops15_keep _ main_arg29 (by decide) (by decide)).trans (G15_arg29 m c)

theorem G17_arg29 (c : Dev nD) : U17 m c (Proc.devRef .tc main_arg29) = m ((c.tc : Thread nD τ).loc main_arg29) :=
  (ops16_keep _ main_arg29 (by decide)).trans (G16_arg29 m c)

theorem G18_arg29 (c : Dev nD) : U18 m c (Proc.devRef .tc main_arg29) = m ((c.tc : Thread nD τ).loc main_arg29) :=
  (ops17_keep _ main_arg29 (by decide)).trans (G17_arg29 m c)

theorem G19_arg29 (c : Dev nD) : U19 m c (Proc.devRef .tc main_arg29) = m ((c.tc : Thread nD τ).loc main_arg29) :=
  (ops18_keep _ main_arg29 (by decide)).trans (G18_arg29 m c)

theorem G20_arg29 (c : Dev nD) : U20 m c (Proc.devRef .tc main_arg29) = m ((c.tc : Thread nD τ).loc main_arg29) :=
  (ops19_keep _ main_arg29 (by decide)).trans (G19_arg29 m c)

theorem G0_arg30 (c : Dev nD) : U0 m c (Proc.devRef .tc main_arg30) = m ((c.tc : Thread nD τ).loc main_arg30) := rfl

theorem G1_arg30 (c : Dev nD) : U1 m c (Proc.devRef .tc main_arg30) = m ((c.tc : Thread nD τ).loc main_arg30) :=
  (ops0_keep _ main_arg30 (by decide)).trans (G0_arg30 m c)

theorem G2_arg30 (c : Dev nD) : U2 m c (Proc.devRef .tc main_arg30) = m ((c.tc : Thread nD τ).loc main_arg30) :=
  (ops1_keep _ main_arg30 (by decide)).trans (G1_arg30 m c)

theorem G3_arg30 (c : Dev nD) : U3 m c (Proc.devRef .tc main_arg30) = m ((c.tc : Thread nD τ).loc main_arg30) :=
  (ops2_keep _ main_arg30 (by decide)).trans (G2_arg30 m c)

theorem G4_arg30 (c : Dev nD) : U4 m c (Proc.devRef .tc main_arg30) = m ((c.tc : Thread nD τ).loc main_arg30) :=
  (ops3_keep _ main_arg30 (by decide) (by decide)).trans (G3_arg30 m c)

theorem G5_arg30 (c : Dev nD) : U5 m c (Proc.devRef .tc main_arg30) = m ((c.tc : Thread nD τ).loc main_arg30) :=
  (ops4_keep _ main_arg30 (by decide) (by decide)).trans (G4_arg30 m c)

theorem G6_arg30 (c : Dev nD) : U6 m c (Proc.devRef .tc main_arg30) = m ((c.tc : Thread nD τ).loc main_arg30) :=
  (ops5_keep _ main_arg30 (by decide)).trans (G5_arg30 m c)

theorem G7_arg30 (c : Dev nD) : U7 m c (Proc.devRef .tc main_arg30) = m ((c.tc : Thread nD τ).loc main_arg30) :=
  (ops6_keep _ main_arg30 (by decide)).trans (G6_arg30 m c)

theorem G8_arg30 (c : Dev nD) : U8 m c (Proc.devRef .tc main_arg30) = m ((c.tc : Thread nD τ).loc main_arg30) :=
  (ops7_keep _ main_arg30 (by decide)).trans (G7_arg30 m c)

theorem G9_arg30 (c : Dev nD) : U9 m c (Proc.devRef .tc main_arg30) = m ((c.tc : Thread nD τ).loc main_arg30) :=
  (ops8_keep _ main_arg30 (by decide) (by decide)).trans (G8_arg30 m c)

theorem G10_arg30 (c : Dev nD) : U10 m c (Proc.devRef .tc main_arg30) = m ((c.tc : Thread nD τ).loc main_arg30) :=
  (ops9_keep _ main_arg30 (by decide)).trans (G9_arg30 m c)

theorem G11_arg30 (c : Dev nD) : U11 m c (Proc.devRef .tc main_arg30) = m ((c.tc : Thread nD τ).loc main_arg30) :=
  (ops10_keep _ main_arg30 (by decide) (by decide)).trans (G10_arg30 m c)

theorem G12_arg30 (c : Dev nD) : U12 m c (Proc.devRef .tc main_arg30) = m ((c.tc : Thread nD τ).loc main_arg30) :=
  (ops11_keep _ main_arg30 (by decide)).trans (G11_arg30 m c)

theorem G13_arg30 (c : Dev nD) : U13 m c (Proc.devRef .tc main_arg30) = m ((c.tc : Thread nD τ).loc main_arg30) :=
  (ops12_keep _ main_arg30 (by decide)).trans (G12_arg30 m c)

theorem G14_arg30 (c : Dev nD) : U14 m c (Proc.devRef .tc main_arg30) = m ((c.tc : Thread nD τ).loc main_arg30) :=
  (ops13_keep _ main_arg30 (by decide) (by decide)).trans (G13_arg30 m c)

theorem G15_arg30 (c : Dev nD) : U15 m c (Proc.devRef .tc main_arg30) = m ((c.tc : Thread nD τ).loc main_arg30) :=
  (ops14_keep _ main_arg30 (by decide)).trans (G14_arg30 m c)

theorem G16_arg30 (c : Dev nD) : U16 m c (Proc.devRef .tc main_arg30) = m ((c.tc : Thread nD τ).loc main_arg30) :=
  (ops15_keep _ main_arg30 (by decide) (by decide)).trans (G15_arg30 m c)

theorem G17_arg30 (c : Dev nD) : U17 m c (Proc.devRef .tc main_arg30) = m ((c.tc : Thread nD τ).loc main_arg30) :=
  (ops16_keep _ main_arg30 (by decide)).trans (G16_arg30 m c)

theorem G18_arg30 (c : Dev nD) : U18 m c (Proc.devRef .tc main_arg30) = m ((c.tc : Thread nD τ).loc main_arg30) :=
  (ops17_keep _ main_arg30 (by decide)).trans (G17_arg30 m c)

theorem G19_arg30 (c : Dev nD) : U19 m c (Proc.devRef .tc main_arg30) = m ((c.tc : Thread nD τ).loc main_arg30) :=
  (ops18_keep _ main_arg30 (by decide)).trans (G18_arg30 m c)

theorem G20_arg30 (c : Dev nD) : U20 m c (Proc.devRef .tc main_arg30) = m ((c.tc : Thread nD τ).loc main_arg30) :=
  (ops19_keep _ main_arg30 (by decide)).trans (G19_arg30 m c)

theorem G0_arg31 (c : Dev nD) : U0 m c (Proc.devRef .tc main_arg31) = m ((c.tc : Thread nD τ).loc main_arg31) := rfl

theorem G1_arg31 (c : Dev nD) : U1 m c (Proc.devRef .tc main_arg31) = m ((c.tc : Thread nD τ).loc main_arg31) :=
  (ops0_keep _ main_arg31 (by decide)).trans (G0_arg31 m c)

theorem G2_arg31 (c : Dev nD) : U2 m c (Proc.devRef .tc main_arg31) = m ((c.tc : Thread nD τ).loc main_arg31) :=
  (ops1_keep _ main_arg31 (by decide)).trans (G1_arg31 m c)

theorem G3_arg31 (c : Dev nD) : U3 m c (Proc.devRef .tc main_arg31) = m ((c.tc : Thread nD τ).loc main_arg31) :=
  (ops2_keep _ main_arg31 (by decide)).trans (G2_arg31 m c)

theorem G4_arg31 (c : Dev nD) : U4 m c (Proc.devRef .tc main_arg31) = m ((c.tc : Thread nD τ).loc main_arg31) :=
  (ops3_keep _ main_arg31 (by decide) (by decide)).trans (G3_arg31 m c)

theorem G5_arg31 (c : Dev nD) : U5 m c (Proc.devRef .tc main_arg31) = m ((c.tc : Thread nD τ).loc main_arg31) :=
  (ops4_keep _ main_arg31 (by decide) (by decide)).trans (G4_arg31 m c)

theorem G6_arg31 (c : Dev nD) : U6 m c (Proc.devRef .tc main_arg31) = m ((c.tc : Thread nD τ).loc main_arg31) :=
  (ops5_keep _ main_arg31 (by decide)).trans (G5_arg31 m c)

theorem G7_arg31 (c : Dev nD) : U7 m c (Proc.devRef .tc main_arg31) = m ((c.tc : Thread nD τ).loc main_arg31) :=
  (ops6_keep _ main_arg31 (by decide)).trans (G6_arg31 m c)

theorem G8_arg31 (c : Dev nD) : U8 m c (Proc.devRef .tc main_arg31) = m ((c.tc : Thread nD τ).loc main_arg31) :=
  (ops7_keep _ main_arg31 (by decide)).trans (G7_arg31 m c)

theorem G9_arg31 (c : Dev nD) : U9 m c (Proc.devRef .tc main_arg31) = m ((c.tc : Thread nD τ).loc main_arg31) :=
  (ops8_keep _ main_arg31 (by decide) (by decide)).trans (G8_arg31 m c)

theorem G10_arg31 (c : Dev nD) : U10 m c (Proc.devRef .tc main_arg31) = m ((c.tc : Thread nD τ).loc main_arg31) :=
  (ops9_keep _ main_arg31 (by decide)).trans (G9_arg31 m c)

theorem G11_arg31 (c : Dev nD) : U11 m c (Proc.devRef .tc main_arg31) = m ((c.tc : Thread nD τ).loc main_arg31) :=
  (ops10_keep _ main_arg31 (by decide) (by decide)).trans (G10_arg31 m c)

theorem G12_arg31 (c : Dev nD) : U12 m c (Proc.devRef .tc main_arg31) = m ((c.tc : Thread nD τ).loc main_arg31) :=
  (ops11_keep _ main_arg31 (by decide)).trans (G11_arg31 m c)

theorem G13_arg31 (c : Dev nD) : U13 m c (Proc.devRef .tc main_arg31) = m ((c.tc : Thread nD τ).loc main_arg31) :=
  (ops12_keep _ main_arg31 (by decide)).trans (G12_arg31 m c)

theorem G14_arg31 (c : Dev nD) : U14 m c (Proc.devRef .tc main_arg31) = m ((c.tc : Thread nD τ).loc main_arg31) :=
  (ops13_keep _ main_arg31 (by decide) (by decide)).trans (G13_arg31 m c)

theorem G15_arg31 (c : Dev nD) : U15 m c (Proc.devRef .tc main_arg31) = m ((c.tc : Thread nD τ).loc main_arg31) :=
  (ops14_keep _ main_arg31 (by decide)).trans (G14_arg31 m c)

theorem G16_arg31 (c : Dev nD) : U16 m c (Proc.devRef .tc main_arg31) = m ((c.tc : Thread nD τ).loc main_arg31) :=
  (ops15_keep _ main_arg31 (by decide) (by decide)).trans (G15_arg31 m c)

theorem G17_arg31 (c : Dev nD) : U17 m c (Proc.devRef .tc main_arg31) = m ((c.tc : Thread nD τ).loc main_arg31) :=
  (ops16_keep _ main_arg31 (by decide)).trans (G16_arg31 m c)

theorem G18_arg31 (c : Dev nD) : U18 m c (Proc.devRef .tc main_arg31) = m ((c.tc : Thread nD τ).loc main_arg31) :=
  (ops17_keep _ main_arg31 (by decide)).trans (G17_arg31 m c)

theorem G19_arg31 (c : Dev nD) : U19 m c (Proc.devRef .tc main_arg31) = m ((c.tc : Thread nD τ).loc main_arg31) :=
  (ops18_keep _ main_arg31 (by decide)).trans (G18_arg31 m c)

theorem G20_arg31 (c : Dev nD) : U20 m c (Proc.devRef .tc main_arg31) = m ((c.tc : Thread nD τ).loc main_arg31) :=
  (ops19_keep _ main_arg31 (by decide)).trans (G19_arg31 m c)

theorem G0_arg32 (c : Dev nD) : U0 m c (Proc.devRef .tc main_arg32) = m ((c.tc : Thread nD τ).loc main_arg32) := rfl

theorem G1_arg32 (c : Dev nD) : U1 m c (Proc.devRef .tc main_arg32) = m ((c.tc : Thread nD τ).loc main_arg32) :=
  (ops0_keep _ main_arg32 (by decide)).trans (G0_arg32 m c)

theorem G2_arg32 (c : Dev nD) : U2 m c (Proc.devRef .tc main_arg32) = m ((c.tc : Thread nD τ).loc main_arg32) :=
  (ops1_keep _ main_arg32 (by decide)).trans (G1_arg32 m c)

theorem G3_arg32 (c : Dev nD) : U3 m c (Proc.devRef .tc main_arg32) = m ((c.tc : Thread nD τ).loc main_arg32) :=
  (ops2_keep _ main_arg32 (by decide)).trans (G2_arg32 m c)

theorem G4_arg32 (c : Dev nD) : U4 m c (Proc.devRef .tc main_arg32) = m ((c.tc : Thread nD τ).loc main_arg32) :=
  (ops3_keep _ main_arg32 (by decide) (by decide)).trans (G3_arg32 m c)

theorem G5_arg32 (c : Dev nD) : U5 m c (Proc.devRef .tc main_arg32) = m ((c.tc : Thread nD τ).loc main_arg32) :=
  (ops4_keep _ main_arg32 (by decide) (by decide)).trans (G4_arg32 m c)

theorem G6_arg32 (c : Dev nD) : U6 m c (Proc.devRef .tc main_arg32) = m ((c.tc : Thread nD τ).loc main_arg32) :=
  (ops5_keep _ main_arg32 (by decide)).trans (G5_arg32 m c)

theorem G7_arg32 (c : Dev nD) : U7 m c (Proc.devRef .tc main_arg32) = m ((c.tc : Thread nD τ).loc main_arg32) :=
  (ops6_keep _ main_arg32 (by decide)).trans (G6_arg32 m c)

theorem G8_arg32 (c : Dev nD) : U8 m c (Proc.devRef .tc main_arg32) = m ((c.tc : Thread nD τ).loc main_arg32) :=
  (ops7_keep _ main_arg32 (by decide)).trans (G7_arg32 m c)

theorem G9_arg32 (c : Dev nD) : U9 m c (Proc.devRef .tc main_arg32) = m ((c.tc : Thread nD τ).loc main_arg32) :=
  (ops8_keep _ main_arg32 (by decide) (by decide)).trans (G8_arg32 m c)

theorem G10_arg32 (c : Dev nD) : U10 m c (Proc.devRef .tc main_arg32) = m ((c.tc : Thread nD τ).loc main_arg32) :=
  (ops9_keep _ main_arg32 (by decide)).trans (G9_arg32 m c)

theorem G11_arg32 (c : Dev nD) : U11 m c (Proc.devRef .tc main_arg32) = m ((c.tc : Thread nD τ).loc main_arg32) :=
  (ops10_keep _ main_arg32 (by decide) (by decide)).trans (G10_arg32 m c)

theorem G12_arg32 (c : Dev nD) : U12 m c (Proc.devRef .tc main_arg32) = m ((c.tc : Thread nD τ).loc main_arg32) :=
  (ops11_keep _ main_arg32 (by decide)).trans (G11_arg32 m c)

theorem G13_arg32 (c : Dev nD) : U13 m c (Proc.devRef .tc main_arg32) = m ((c.tc : Thread nD τ).loc main_arg32) :=
  (ops12_keep _ main_arg32 (by decide)).trans (G12_arg32 m c)

theorem G14_arg32 (c : Dev nD) : U14 m c (Proc.devRef .tc main_arg32) = m ((c.tc : Thread nD τ).loc main_arg32) :=
  (ops13_keep _ main_arg32 (by decide) (by decide)).trans (G13_arg32 m c)

theorem G15_arg32 (c : Dev nD) : U15 m c (Proc.devRef .tc main_arg32) = m ((c.tc : Thread nD τ).loc main_arg32) :=
  (ops14_keep _ main_arg32 (by decide)).trans (G14_arg32 m c)

theorem G16_arg32 (c : Dev nD) : U16 m c (Proc.devRef .tc main_arg32) = m ((c.tc : Thread nD τ).loc main_arg32) :=
  (ops15_keep _ main_arg32 (by decide) (by decide)).trans (G15_arg32 m c)

theorem G17_arg32 (c : Dev nD) : U17 m c (Proc.devRef .tc main_arg32) = m ((c.tc : Thread nD τ).loc main_arg32) :=
  (ops16_keep _ main_arg32 (by decide)).trans (G16_arg32 m c)

theorem G18_arg32 (c : Dev nD) : U18 m c (Proc.devRef .tc main_arg32) = m ((c.tc : Thread nD τ).loc main_arg32) :=
  (ops17_keep _ main_arg32 (by decide)).trans (G17_arg32 m c)

theorem G19_arg32 (c : Dev nD) : U19 m c (Proc.devRef .tc main_arg32) = m ((c.tc : Thread nD τ).loc main_arg32) :=
  (ops18_keep _ main_arg32 (by decide)).trans (G18_arg32 m c)

theorem G20_arg32 (c : Dev nD) : U20 m c (Proc.devRef .tc main_arg32) = m ((c.tc : Thread nD τ).loc main_arg32) :=
  (ops19_keep _ main_arg32 (by decide)).trans (G19_arg32 m c)

theorem G21_v377 (c : Dev nD) : U21 m c (Proc.devRef .tc main_v377) = Cert.ReferenceIdeal.Stages.val_main_v377 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) := by
  show StableHlo.after q26 (U20 m c) (Proc.devRef .tc main_v377) = _
  unfold q26
  after_results_each
  simp only [StableHlo.TRef.toBuf, StableHlo.TRef.ofBuf, cast_eq, G20_v368 m c, G20_arg29 m c, G20_arg30 m c, G20_arg31 m c, G20_arg32 m c] <;> rfl

theorem G2_arg0 (c : Dev nD) : U2 m c (Proc.devRef .tc main_arg0) = m ((c.tc : Thread nD τ).loc main_arg0) :=
  (ops1_keep _ main_arg0 (by decide)).trans (G1_arg0 m c)

theorem G3_arg0 (c : Dev nD) : U3 m c (Proc.devRef .tc main_arg0) = m ((c.tc : Thread nD τ).loc main_arg0) :=
  (ops2_keep _ main_arg0 (by decide)).trans (G2_arg0 m c)

theorem G4_arg0 (c : Dev nD) : U4 m c (Proc.devRef .tc main_arg0) = m ((c.tc : Thread nD τ).loc main_arg0) :=
  (ops3_keep _ main_arg0 (by decide) (by decide)).trans (G3_arg0 m c)

theorem G5_arg0 (c : Dev nD) : U5 m c (Proc.devRef .tc main_arg0) = m ((c.tc : Thread nD τ).loc main_arg0) :=
  (ops4_keep _ main_arg0 (by decide) (by decide)).trans (G4_arg0 m c)

theorem G6_arg0 (c : Dev nD) : U6 m c (Proc.devRef .tc main_arg0) = m ((c.tc : Thread nD τ).loc main_arg0) :=
  (ops5_keep _ main_arg0 (by decide)).trans (G5_arg0 m c)

theorem G7_arg0 (c : Dev nD) : U7 m c (Proc.devRef .tc main_arg0) = m ((c.tc : Thread nD τ).loc main_arg0) :=
  (ops6_keep _ main_arg0 (by decide)).trans (G6_arg0 m c)

theorem G8_arg0 (c : Dev nD) : U8 m c (Proc.devRef .tc main_arg0) = m ((c.tc : Thread nD τ).loc main_arg0) :=
  (ops7_keep _ main_arg0 (by decide)).trans (G7_arg0 m c)

theorem G9_arg0 (c : Dev nD) : U9 m c (Proc.devRef .tc main_arg0) = m ((c.tc : Thread nD τ).loc main_arg0) :=
  (ops8_keep _ main_arg0 (by decide) (by decide)).trans (G8_arg0 m c)

theorem G10_arg0 (c : Dev nD) : U10 m c (Proc.devRef .tc main_arg0) = m ((c.tc : Thread nD τ).loc main_arg0) :=
  (ops9_keep _ main_arg0 (by decide)).trans (G9_arg0 m c)

theorem G11_arg0 (c : Dev nD) : U11 m c (Proc.devRef .tc main_arg0) = m ((c.tc : Thread nD τ).loc main_arg0) :=
  (ops10_keep _ main_arg0 (by decide) (by decide)).trans (G10_arg0 m c)

theorem G12_arg0 (c : Dev nD) : U12 m c (Proc.devRef .tc main_arg0) = m ((c.tc : Thread nD τ).loc main_arg0) :=
  (ops11_keep _ main_arg0 (by decide)).trans (G11_arg0 m c)

theorem G13_arg0 (c : Dev nD) : U13 m c (Proc.devRef .tc main_arg0) = m ((c.tc : Thread nD τ).loc main_arg0) :=
  (ops12_keep _ main_arg0 (by decide)).trans (G12_arg0 m c)

theorem G14_arg0 (c : Dev nD) : U14 m c (Proc.devRef .tc main_arg0) = m ((c.tc : Thread nD τ).loc main_arg0) :=
  (ops13_keep _ main_arg0 (by decide) (by decide)).trans (G13_arg0 m c)

theorem G15_arg0 (c : Dev nD) : U15 m c (Proc.devRef .tc main_arg0) = m ((c.tc : Thread nD τ).loc main_arg0) :=
  (ops14_keep _ main_arg0 (by decide)).trans (G14_arg0 m c)

theorem G16_arg0 (c : Dev nD) : U16 m c (Proc.devRef .tc main_arg0) = m ((c.tc : Thread nD τ).loc main_arg0) :=
  (ops15_keep _ main_arg0 (by decide) (by decide)).trans (G15_arg0 m c)

theorem G17_arg0 (c : Dev nD) : U17 m c (Proc.devRef .tc main_arg0) = m ((c.tc : Thread nD τ).loc main_arg0) :=
  (ops16_keep _ main_arg0 (by decide)).trans (G16_arg0 m c)

theorem G18_arg0 (c : Dev nD) : U18 m c (Proc.devRef .tc main_arg0) = m ((c.tc : Thread nD τ).loc main_arg0) :=
  (ops17_keep _ main_arg0 (by decide)).trans (G17_arg0 m c)

theorem G19_arg0 (c : Dev nD) : U19 m c (Proc.devRef .tc main_arg0) = m ((c.tc : Thread nD τ).loc main_arg0) :=
  (ops18_keep _ main_arg0 (by decide)).trans (G18_arg0 m c)

theorem G20_arg0 (c : Dev nD) : U20 m c (Proc.devRef .tc main_arg0) = m ((c.tc : Thread nD τ).loc main_arg0) :=
  (ops19_keep _ main_arg0 (by decide)).trans (G19_arg0 m c)

theorem G21_arg0 (c : Dev nD) : U21 m c (Proc.devRef .tc main_arg0) = m ((c.tc : Thread nD τ).loc main_arg0) :=
  (ops20_keep _ main_arg0 (by decide)).trans (G20_arg0 m c)

theorem G1_arg1 (c : Dev nD) : U1 m c (Proc.devRef .tc main_arg1) = m ((c.tc : Thread nD τ).loc main_arg1) :=
  (ops0_keep _ main_arg1 (by decide)).trans (G0_arg1 m c)

theorem G2_arg1 (c : Dev nD) : U2 m c (Proc.devRef .tc main_arg1) = m ((c.tc : Thread nD τ).loc main_arg1) :=
  (ops1_keep _ main_arg1 (by decide)).trans (G1_arg1 m c)

theorem G3_arg1 (c : Dev nD) : U3 m c (Proc.devRef .tc main_arg1) = m ((c.tc : Thread nD τ).loc main_arg1) :=
  (ops2_keep _ main_arg1 (by decide)).trans (G2_arg1 m c)

theorem G4_arg1 (c : Dev nD) : U4 m c (Proc.devRef .tc main_arg1) = m ((c.tc : Thread nD τ).loc main_arg1) :=
  (ops3_keep _ main_arg1 (by decide) (by decide)).trans (G3_arg1 m c)

theorem G5_arg1 (c : Dev nD) : U5 m c (Proc.devRef .tc main_arg1) = m ((c.tc : Thread nD τ).loc main_arg1) :=
  (ops4_keep _ main_arg1 (by decide) (by decide)).trans (G4_arg1 m c)

theorem G6_arg1 (c : Dev nD) : U6 m c (Proc.devRef .tc main_arg1) = m ((c.tc : Thread nD τ).loc main_arg1) :=
  (ops5_keep _ main_arg1 (by decide)).trans (G5_arg1 m c)

theorem G7_arg1 (c : Dev nD) : U7 m c (Proc.devRef .tc main_arg1) = m ((c.tc : Thread nD τ).loc main_arg1) :=
  (ops6_keep _ main_arg1 (by decide)).trans (G6_arg1 m c)

theorem G8_arg1 (c : Dev nD) : U8 m c (Proc.devRef .tc main_arg1) = m ((c.tc : Thread nD τ).loc main_arg1) :=
  (ops7_keep _ main_arg1 (by decide)).trans (G7_arg1 m c)

theorem G9_arg1 (c : Dev nD) : U9 m c (Proc.devRef .tc main_arg1) = m ((c.tc : Thread nD τ).loc main_arg1) :=
  (ops8_keep _ main_arg1 (by decide) (by decide)).trans (G8_arg1 m c)

theorem G10_arg1 (c : Dev nD) : U10 m c (Proc.devRef .tc main_arg1) = m ((c.tc : Thread nD τ).loc main_arg1) :=
  (ops9_keep _ main_arg1 (by decide)).trans (G9_arg1 m c)

theorem G11_arg1 (c : Dev nD) : U11 m c (Proc.devRef .tc main_arg1) = m ((c.tc : Thread nD τ).loc main_arg1) :=
  (ops10_keep _ main_arg1 (by decide) (by decide)).trans (G10_arg1 m c)

theorem G12_arg1 (c : Dev nD) : U12 m c (Proc.devRef .tc main_arg1) = m ((c.tc : Thread nD τ).loc main_arg1) :=
  (ops11_keep _ main_arg1 (by decide)).trans (G11_arg1 m c)

theorem G13_arg1 (c : Dev nD) : U13 m c (Proc.devRef .tc main_arg1) = m ((c.tc : Thread nD τ).loc main_arg1) :=
  (ops12_keep _ main_arg1 (by decide)).trans (G12_arg1 m c)

theorem G14_arg1 (c : Dev nD) : U14 m c (Proc.devRef .tc main_arg1) = m ((c.tc : Thread nD τ).loc main_arg1) :=
  (ops13_keep _ main_arg1 (by decide) (by decide)).trans (G13_arg1 m c)

theorem G15_arg1 (c : Dev nD) : U15 m c (Proc.devRef .tc main_arg1) = m ((c.tc : Thread nD τ).loc main_arg1) :=
  (ops14_keep _ main_arg1 (by decide)).trans (G14_arg1 m c)

theorem G16_arg1 (c : Dev nD) : U16 m c (Proc.devRef .tc main_arg1) = m ((c.tc : Thread nD τ).loc main_arg1) :=
  (ops15_keep _ main_arg1 (by decide) (by decide)).trans (G15_arg1 m c)

theorem G17_arg1 (c : Dev nD) : U17 m c (Proc.devRef .tc main_arg1) = m ((c.tc : Thread nD τ).loc main_arg1) :=
  (ops16_keep _ main_arg1 (by decide)).trans (G16_arg1 m c)

theorem G18_arg1 (c : Dev nD) : U18 m c (Proc.devRef .tc main_arg1) = m ((c.tc : Thread nD τ).loc main_arg1) :=
  (ops17_keep _ main_arg1 (by decide)).trans (G17_arg1 m c)

theorem G19_arg1 (c : Dev nD) : U19 m c (Proc.devRef .tc main_arg1) = m ((c.tc : Thread nD τ).loc main_arg1) :=
  (ops18_keep _ main_arg1 (by decide)).trans (G18_arg1 m c)

theorem G20_arg1 (c : Dev nD) : U20 m c (Proc.devRef .tc main_arg1) = m ((c.tc : Thread nD τ).loc main_arg1) :=
  (ops19_keep _ main_arg1 (by decide)).trans (G19_arg1 m c)

theorem G21_arg1 (c : Dev nD) : U21 m c (Proc.devRef .tc main_arg1) = m ((c.tc : Thread nD τ).loc main_arg1) :=
  (ops20_keep _ main_arg1 (by decide)).trans (G20_arg1 m c)

theorem G2_arg2 (c : Dev nD) : U2 m c (Proc.devRef .tc main_arg2) = m ((c.tc : Thread nD τ).loc main_arg2) :=
  (ops1_keep _ main_arg2 (by decide)).trans (G1_arg2 m c)

theorem G3_arg2 (c : Dev nD) : U3 m c (Proc.devRef .tc main_arg2) = m ((c.tc : Thread nD τ).loc main_arg2) :=
  (ops2_keep _ main_arg2 (by decide)).trans (G2_arg2 m c)

theorem G4_arg2 (c : Dev nD) : U4 m c (Proc.devRef .tc main_arg2) = m ((c.tc : Thread nD τ).loc main_arg2) :=
  (ops3_keep _ main_arg2 (by decide) (by decide)).trans (G3_arg2 m c)

theorem G5_arg2 (c : Dev nD) : U5 m c (Proc.devRef .tc main_arg2) = m ((c.tc : Thread nD τ).loc main_arg2) :=
  (ops4_keep _ main_arg2 (by decide) (by decide)).trans (G4_arg2 m c)

theorem G6_arg2 (c : Dev nD) : U6 m c (Proc.devRef .tc main_arg2) = m ((c.tc : Thread nD τ).loc main_arg2) :=
  (ops5_keep _ main_arg2 (by decide)).trans (G5_arg2 m c)

theorem G7_arg2 (c : Dev nD) : U7 m c (Proc.devRef .tc main_arg2) = m ((c.tc : Thread nD τ).loc main_arg2) :=
  (ops6_keep _ main_arg2 (by decide)).trans (G6_arg2 m c)

theorem G8_arg2 (c : Dev nD) : U8 m c (Proc.devRef .tc main_arg2) = m ((c.tc : Thread nD τ).loc main_arg2) :=
  (ops7_keep _ main_arg2 (by decide)).trans (G7_arg2 m c)

theorem G9_arg2 (c : Dev nD) : U9 m c (Proc.devRef .tc main_arg2) = m ((c.tc : Thread nD τ).loc main_arg2) :=
  (ops8_keep _ main_arg2 (by decide) (by decide)).trans (G8_arg2 m c)

theorem G10_arg2 (c : Dev nD) : U10 m c (Proc.devRef .tc main_arg2) = m ((c.tc : Thread nD τ).loc main_arg2) :=
  (ops9_keep _ main_arg2 (by decide)).trans (G9_arg2 m c)

theorem G11_arg2 (c : Dev nD) : U11 m c (Proc.devRef .tc main_arg2) = m ((c.tc : Thread nD τ).loc main_arg2) :=
  (ops10_keep _ main_arg2 (by decide) (by decide)).trans (G10_arg2 m c)

theorem G12_arg2 (c : Dev nD) : U12 m c (Proc.devRef .tc main_arg2) = m ((c.tc : Thread nD τ).loc main_arg2) :=
  (ops11_keep _ main_arg2 (by decide)).trans (G11_arg2 m c)

theorem G13_arg2 (c : Dev nD) : U13 m c (Proc.devRef .tc main_arg2) = m ((c.tc : Thread nD τ).loc main_arg2) :=
  (ops12_keep _ main_arg2 (by decide)).trans (G12_arg2 m c)

theorem G14_arg2 (c : Dev nD) : U14 m c (Proc.devRef .tc main_arg2) = m ((c.tc : Thread nD τ).loc main_arg2) :=
  (ops13_keep _ main_arg2 (by decide) (by decide)).trans (G13_arg2 m c)

theorem G15_arg2 (c : Dev nD) : U15 m c (Proc.devRef .tc main_arg2) = m ((c.tc : Thread nD τ).loc main_arg2) :=
  (ops14_keep _ main_arg2 (by decide)).trans (G14_arg2 m c)

theorem G16_arg2 (c : Dev nD) : U16 m c (Proc.devRef .tc main_arg2) = m ((c.tc : Thread nD τ).loc main_arg2) :=
  (ops15_keep _ main_arg2 (by decide) (by decide)).trans (G15_arg2 m c)

theorem G17_arg2 (c : Dev nD) : U17 m c (Proc.devRef .tc main_arg2) = m ((c.tc : Thread nD τ).loc main_arg2) :=
  (ops16_keep _ main_arg2 (by decide)).trans (G16_arg2 m c)

theorem G18_arg2 (c : Dev nD) : U18 m c (Proc.devRef .tc main_arg2) = m ((c.tc : Thread nD τ).loc main_arg2) :=
  (ops17_keep _ main_arg2 (by decide)).trans (G17_arg2 m c)

theorem G19_arg2 (c : Dev nD) : U19 m c (Proc.devRef .tc main_arg2) = m ((c.tc : Thread nD τ).loc main_arg2) :=
  (ops18_keep _ main_arg2 (by decide)).trans (G18_arg2 m c)

theorem G20_arg2 (c : Dev nD) : U20 m c (Proc.devRef .tc main_arg2) = m ((c.tc : Thread nD τ).loc main_arg2) :=
  (ops19_keep _ main_arg2 (by decide)).trans (G19_arg2 m c)

theorem G21_arg2 (c : Dev nD) : U21 m c (Proc.devRef .tc main_arg2) = m ((c.tc : Thread nD τ).loc main_arg2) :=
  (ops20_keep _ main_arg2 (by decide)).trans (G20_arg2 m c)

theorem G1_arg3 (c : Dev nD) : U1 m c (Proc.devRef .tc main_arg3) = m ((c.tc : Thread nD τ).loc main_arg3) :=
  (ops0_keep _ main_arg3 (by decide)).trans (G0_arg3 m c)

theorem G2_arg3 (c : Dev nD) : U2 m c (Proc.devRef .tc main_arg3) = m ((c.tc : Thread nD τ).loc main_arg3) :=
  (ops1_keep _ main_arg3 (by decide)).trans (G1_arg3 m c)

theorem G3_arg3 (c : Dev nD) : U3 m c (Proc.devRef .tc main_arg3) = m ((c.tc : Thread nD τ).loc main_arg3) :=
  (ops2_keep _ main_arg3 (by decide)).trans (G2_arg3 m c)

theorem G4_arg3 (c : Dev nD) : U4 m c (Proc.devRef .tc main_arg3) = m ((c.tc : Thread nD τ).loc main_arg3) :=
  (ops3_keep _ main_arg3 (by decide) (by decide)).trans (G3_arg3 m c)

theorem G5_arg3 (c : Dev nD) : U5 m c (Proc.devRef .tc main_arg3) = m ((c.tc : Thread nD τ).loc main_arg3) :=
  (ops4_keep _ main_arg3 (by decide) (by decide)).trans (G4_arg3 m c)

theorem G6_arg3 (c : Dev nD) : U6 m c (Proc.devRef .tc main_arg3) = m ((c.tc : Thread nD τ).loc main_arg3) :=
  (ops5_keep _ main_arg3 (by decide)).trans (G5_arg3 m c)

theorem G7_arg3 (c : Dev nD) : U7 m c (Proc.devRef .tc main_arg3) = m ((c.tc : Thread nD τ).loc main_arg3) :=
  (ops6_keep _ main_arg3 (by decide)).trans (G6_arg3 m c)

theorem G8_arg3 (c : Dev nD) : U8 m c (Proc.devRef .tc main_arg3) = m ((c.tc : Thread nD τ).loc main_arg3) :=
  (ops7_keep _ main_arg3 (by decide)).trans (G7_arg3 m c)

theorem G9_arg3 (c : Dev nD) : U9 m c (Proc.devRef .tc main_arg3) = m ((c.tc : Thread nD τ).loc main_arg3) :=
  (ops8_keep _ main_arg3 (by decide) (by decide)).trans (G8_arg3 m c)

theorem G10_arg3 (c : Dev nD) : U10 m c (Proc.devRef .tc main_arg3) = m ((c.tc : Thread nD τ).loc main_arg3) :=
  (ops9_keep _ main_arg3 (by decide)).trans (G9_arg3 m c)

theorem G11_arg3 (c : Dev nD) : U11 m c (Proc.devRef .tc main_arg3) = m ((c.tc : Thread nD τ).loc main_arg3) :=
  (ops10_keep _ main_arg3 (by decide) (by decide)).trans (G10_arg3 m c)

theorem G12_arg3 (c : Dev nD) : U12 m c (Proc.devRef .tc main_arg3) = m ((c.tc : Thread nD τ).loc main_arg3) :=
  (ops11_keep _ main_arg3 (by decide)).trans (G11_arg3 m c)

theorem G13_arg3 (c : Dev nD) : U13 m c (Proc.devRef .tc main_arg3) = m ((c.tc : Thread nD τ).loc main_arg3) :=
  (ops12_keep _ main_arg3 (by decide)).trans (G12_arg3 m c)

theorem G14_arg3 (c : Dev nD) : U14 m c (Proc.devRef .tc main_arg3) = m ((c.tc : Thread nD τ).loc main_arg3) :=
  (ops13_keep _ main_arg3 (by decide) (by decide)).trans (G13_arg3 m c)

theorem G15_arg3 (c : Dev nD) : U15 m c (Proc.devRef .tc main_arg3) = m ((c.tc : Thread nD τ).loc main_arg3) :=
  (ops14_keep _ main_arg3 (by decide)).trans (G14_arg3 m c)

theorem G16_arg3 (c : Dev nD) : U16 m c (Proc.devRef .tc main_arg3) = m ((c.tc : Thread nD τ).loc main_arg3) :=
  (ops15_keep _ main_arg3 (by decide) (by decide)).trans (G15_arg3 m c)

theorem G17_arg3 (c : Dev nD) : U17 m c (Proc.devRef .tc main_arg3) = m ((c.tc : Thread nD τ).loc main_arg3) :=
  (ops16_keep _ main_arg3 (by decide)).trans (G16_arg3 m c)

theorem G18_arg3 (c : Dev nD) : U18 m c (Proc.devRef .tc main_arg3) = m ((c.tc : Thread nD τ).loc main_arg3) :=
  (ops17_keep _ main_arg3 (by decide)).trans (G17_arg3 m c)

theorem G19_arg3 (c : Dev nD) : U19 m c (Proc.devRef .tc main_arg3) = m ((c.tc : Thread nD τ).loc main_arg3) :=
  (ops18_keep _ main_arg3 (by decide)).trans (G18_arg3 m c)

theorem G20_arg3 (c : Dev nD) : U20 m c (Proc.devRef .tc main_arg3) = m ((c.tc : Thread nD τ).loc main_arg3) :=
  (ops19_keep _ main_arg3 (by decide)).trans (G19_arg3 m c)

theorem G21_arg3 (c : Dev nD) : U21 m c (Proc.devRef .tc main_arg3) = m ((c.tc : Thread nD τ).loc main_arg3) :=
  (ops20_keep _ main_arg3 (by decide)).trans (G20_arg3 m c)

theorem G20_arg4 (c : Dev nD) : U20 m c (Proc.devRef .tc main_arg4) = m ((c.tc : Thread nD τ).loc main_arg4) :=
  (ops19_keep _ main_arg4 (by decide)).trans (G19_arg4 m c)

theorem G21_arg4 (c : Dev nD) : U21 m c (Proc.devRef .tc main_arg4) = m ((c.tc : Thread nD τ).loc main_arg4) :=
  (ops20_keep _ main_arg4 (by decide)).trans (G20_arg4 m c)

theorem G2_arg5 (c : Dev nD) : U2 m c (Proc.devRef .tc main_arg5) = m ((c.tc : Thread nD τ).loc main_arg5) :=
  (ops1_keep _ main_arg5 (by decide)).trans (G1_arg5 m c)

theorem G3_arg5 (c : Dev nD) : U3 m c (Proc.devRef .tc main_arg5) = m ((c.tc : Thread nD τ).loc main_arg5) :=
  (ops2_keep _ main_arg5 (by decide)).trans (G2_arg5 m c)

theorem G4_arg5 (c : Dev nD) : U4 m c (Proc.devRef .tc main_arg5) = m ((c.tc : Thread nD τ).loc main_arg5) :=
  (ops3_keep _ main_arg5 (by decide) (by decide)).trans (G3_arg5 m c)

theorem G5_arg5 (c : Dev nD) : U5 m c (Proc.devRef .tc main_arg5) = m ((c.tc : Thread nD τ).loc main_arg5) :=
  (ops4_keep _ main_arg5 (by decide) (by decide)).trans (G4_arg5 m c)

theorem G6_arg5 (c : Dev nD) : U6 m c (Proc.devRef .tc main_arg5) = m ((c.tc : Thread nD τ).loc main_arg5) :=
  (ops5_keep _ main_arg5 (by decide)).trans (G5_arg5 m c)

theorem G7_arg5 (c : Dev nD) : U7 m c (Proc.devRef .tc main_arg5) = m ((c.tc : Thread nD τ).loc main_arg5) :=
  (ops6_keep _ main_arg5 (by decide)).trans (G6_arg5 m c)

theorem G8_arg5 (c : Dev nD) : U8 m c (Proc.devRef .tc main_arg5) = m ((c.tc : Thread nD τ).loc main_arg5) :=
  (ops7_keep _ main_arg5 (by decide)).trans (G7_arg5 m c)

theorem G9_arg5 (c : Dev nD) : U9 m c (Proc.devRef .tc main_arg5) = m ((c.tc : Thread nD τ).loc main_arg5) :=
  (ops8_keep _ main_arg5 (by decide) (by decide)).trans (G8_arg5 m c)

theorem G10_arg5 (c : Dev nD) : U10 m c (Proc.devRef .tc main_arg5) = m ((c.tc : Thread nD τ).loc main_arg5) :=
  (ops9_keep _ main_arg5 (by decide)).trans (G9_arg5 m c)

theorem G11_arg5 (c : Dev nD) : U11 m c (Proc.devRef .tc main_arg5) = m ((c.tc : Thread nD τ).loc main_arg5) :=
  (ops10_keep _ main_arg5 (by decide) (by decide)).trans (G10_arg5 m c)

theorem G12_arg5 (c : Dev nD) : U12 m c (Proc.devRef .tc main_arg5) = m ((c.tc : Thread nD τ).loc main_arg5) :=
  (ops11_keep _ main_arg5 (by decide)).trans (G11_arg5 m c)

theorem G13_arg5 (c : Dev nD) : U13 m c (Proc.devRef .tc main_arg5) = m ((c.tc : Thread nD τ).loc main_arg5) :=
  (ops12_keep _ main_arg5 (by decide)).trans (G12_arg5 m c)

theorem G14_arg5 (c : Dev nD) : U14 m c (Proc.devRef .tc main_arg5) = m ((c.tc : Thread nD τ).loc main_arg5) :=
  (ops13_keep _ main_arg5 (by decide) (by decide)).trans (G13_arg5 m c)

theorem G15_arg5 (c : Dev nD) : U15 m c (Proc.devRef .tc main_arg5) = m ((c.tc : Thread nD τ).loc main_arg5) :=
  (ops14_keep _ main_arg5 (by decide)).trans (G14_arg5 m c)

theorem G16_arg5 (c : Dev nD) : U16 m c (Proc.devRef .tc main_arg5) = m ((c.tc : Thread nD τ).loc main_arg5) :=
  (ops15_keep _ main_arg5 (by decide) (by decide)).trans (G15_arg5 m c)

theorem G17_arg5 (c : Dev nD) : U17 m c (Proc.devRef .tc main_arg5) = m ((c.tc : Thread nD τ).loc main_arg5) :=
  (ops16_keep _ main_arg5 (by decide)).trans (G16_arg5 m c)

theorem G18_arg5 (c : Dev nD) : U18 m c (Proc.devRef .tc main_arg5) = m ((c.tc : Thread nD τ).loc main_arg5) :=
  (ops17_keep _ main_arg5 (by decide)).trans (G17_arg5 m c)

theorem G19_arg5 (c : Dev nD) : U19 m c (Proc.devRef .tc main_arg5) = m ((c.tc : Thread nD τ).loc main_arg5) :=
  (ops18_keep _ main_arg5 (by decide)).trans (G18_arg5 m c)

theorem G20_arg5 (c : Dev nD) : U20 m c (Proc.devRef .tc main_arg5) = m ((c.tc : Thread nD τ).loc main_arg5) :=
  (ops19_keep _ main_arg5 (by decide)).trans (G19_arg5 m c)

theorem G21_arg5 (c : Dev nD) : U21 m c (Proc.devRef .tc main_arg5) = m ((c.tc : Thread nD τ).loc main_arg5) :=
  (ops20_keep _ main_arg5 (by decide)).trans (G20_arg5 m c)

theorem G2_arg6 (c : Dev nD) : U2 m c (Proc.devRef .tc main_arg6) = m ((c.tc : Thread nD τ).loc main_arg6) :=
  (ops1_keep _ main_arg6 (by decide)).trans (G1_arg6 m c)

theorem G3_arg6 (c : Dev nD) : U3 m c (Proc.devRef .tc main_arg6) = m ((c.tc : Thread nD τ).loc main_arg6) :=
  (ops2_keep _ main_arg6 (by decide)).trans (G2_arg6 m c)

theorem G4_arg6 (c : Dev nD) : U4 m c (Proc.devRef .tc main_arg6) = m ((c.tc : Thread nD τ).loc main_arg6) :=
  (ops3_keep _ main_arg6 (by decide) (by decide)).trans (G3_arg6 m c)

theorem G5_arg6 (c : Dev nD) : U5 m c (Proc.devRef .tc main_arg6) = m ((c.tc : Thread nD τ).loc main_arg6) :=
  (ops4_keep _ main_arg6 (by decide) (by decide)).trans (G4_arg6 m c)

theorem G6_arg6 (c : Dev nD) : U6 m c (Proc.devRef .tc main_arg6) = m ((c.tc : Thread nD τ).loc main_arg6) :=
  (ops5_keep _ main_arg6 (by decide)).trans (G5_arg6 m c)

theorem G7_arg6 (c : Dev nD) : U7 m c (Proc.devRef .tc main_arg6) = m ((c.tc : Thread nD τ).loc main_arg6) :=
  (ops6_keep _ main_arg6 (by decide)).trans (G6_arg6 m c)

theorem G8_arg6 (c : Dev nD) : U8 m c (Proc.devRef .tc main_arg6) = m ((c.tc : Thread nD τ).loc main_arg6) :=
  (ops7_keep _ main_arg6 (by decide)).trans (G7_arg6 m c)

theorem G9_arg6 (c : Dev nD) : U9 m c (Proc.devRef .tc main_arg6) = m ((c.tc : Thread nD τ).loc main_arg6) :=
  (ops8_keep _ main_arg6 (by decide) (by decide)).trans (G8_arg6 m c)

theorem G10_arg6 (c : Dev nD) : U10 m c (Proc.devRef .tc main_arg6) = m ((c.tc : Thread nD τ).loc main_arg6) :=
  (ops9_keep _ main_arg6 (by decide)).trans (G9_arg6 m c)

theorem G11_arg6 (c : Dev nD) : U11 m c (Proc.devRef .tc main_arg6) = m ((c.tc : Thread nD τ).loc main_arg6) :=
  (ops10_keep _ main_arg6 (by decide) (by decide)).trans (G10_arg6 m c)

theorem G12_arg6 (c : Dev nD) : U12 m c (Proc.devRef .tc main_arg6) = m ((c.tc : Thread nD τ).loc main_arg6) :=
  (ops11_keep _ main_arg6 (by decide)).trans (G11_arg6 m c)

theorem G13_arg6 (c : Dev nD) : U13 m c (Proc.devRef .tc main_arg6) = m ((c.tc : Thread nD τ).loc main_arg6) :=
  (ops12_keep _ main_arg6 (by decide)).trans (G12_arg6 m c)

theorem G14_arg6 (c : Dev nD) : U14 m c (Proc.devRef .tc main_arg6) = m ((c.tc : Thread nD τ).loc main_arg6) :=
  (ops13_keep _ main_arg6 (by decide) (by decide)).trans (G13_arg6 m c)

theorem G15_arg6 (c : Dev nD) : U15 m c (Proc.devRef .tc main_arg6) = m ((c.tc : Thread nD τ).loc main_arg6) :=
  (ops14_keep _ main_arg6 (by decide)).trans (G14_arg6 m c)

theorem G16_arg6 (c : Dev nD) : U16 m c (Proc.devRef .tc main_arg6) = m ((c.tc : Thread nD τ).loc main_arg6) :=
  (ops15_keep _ main_arg6 (by decide) (by decide)).trans (G15_arg6 m c)

theorem G17_arg6 (c : Dev nD) : U17 m c (Proc.devRef .tc main_arg6) = m ((c.tc : Thread nD τ).loc main_arg6) :=
  (ops16_keep _ main_arg6 (by decide)).trans (G16_arg6 m c)

theorem G18_arg6 (c : Dev nD) : U18 m c (Proc.devRef .tc main_arg6) = m ((c.tc : Thread nD τ).loc main_arg6) :=
  (ops17_keep _ main_arg6 (by decide)).trans (G17_arg6 m c)

theorem G19_arg6 (c : Dev nD) : U19 m c (Proc.devRef .tc main_arg6) = m ((c.tc : Thread nD τ).loc main_arg6) :=
  (ops18_keep _ main_arg6 (by decide)).trans (G18_arg6 m c)

theorem G20_arg6 (c : Dev nD) : U20 m c (Proc.devRef .tc main_arg6) = m ((c.tc : Thread nD τ).loc main_arg6) :=
  (ops19_keep _ main_arg6 (by decide)).trans (G19_arg6 m c)

theorem G21_arg6 (c : Dev nD) : U21 m c (Proc.devRef .tc main_arg6) = m ((c.tc : Thread nD τ).loc main_arg6) :=
  (ops20_keep _ main_arg6 (by decide)).trans (G20_arg6 m c)

theorem G2_arg7 (c : Dev nD) : U2 m c (Proc.devRef .tc main_arg7) = m ((c.tc : Thread nD τ).loc main_arg7) :=
  (ops1_keep _ main_arg7 (by decide)).trans (G1_arg7 m c)

theorem G3_arg7 (c : Dev nD) : U3 m c (Proc.devRef .tc main_arg7) = m ((c.tc : Thread nD τ).loc main_arg7) :=
  (ops2_keep _ main_arg7 (by decide)).trans (G2_arg7 m c)

theorem G4_arg7 (c : Dev nD) : U4 m c (Proc.devRef .tc main_arg7) = m ((c.tc : Thread nD τ).loc main_arg7) :=
  (ops3_keep _ main_arg7 (by decide) (by decide)).trans (G3_arg7 m c)

theorem G5_arg7 (c : Dev nD) : U5 m c (Proc.devRef .tc main_arg7) = m ((c.tc : Thread nD τ).loc main_arg7) :=
  (ops4_keep _ main_arg7 (by decide) (by decide)).trans (G4_arg7 m c)

theorem G6_arg7 (c : Dev nD) : U6 m c (Proc.devRef .tc main_arg7) = m ((c.tc : Thread nD τ).loc main_arg7) :=
  (ops5_keep _ main_arg7 (by decide)).trans (G5_arg7 m c)

theorem G7_arg7 (c : Dev nD) : U7 m c (Proc.devRef .tc main_arg7) = m ((c.tc : Thread nD τ).loc main_arg7) :=
  (ops6_keep _ main_arg7 (by decide)).trans (G6_arg7 m c)

theorem G8_arg7 (c : Dev nD) : U8 m c (Proc.devRef .tc main_arg7) = m ((c.tc : Thread nD τ).loc main_arg7) :=
  (ops7_keep _ main_arg7 (by decide)).trans (G7_arg7 m c)

theorem G9_arg7 (c : Dev nD) : U9 m c (Proc.devRef .tc main_arg7) = m ((c.tc : Thread nD τ).loc main_arg7) :=
  (ops8_keep _ main_arg7 (by decide) (by decide)).trans (G8_arg7 m c)

theorem G10_arg7 (c : Dev nD) : U10 m c (Proc.devRef .tc main_arg7) = m ((c.tc : Thread nD τ).loc main_arg7) :=
  (ops9_keep _ main_arg7 (by decide)).trans (G9_arg7 m c)

theorem G11_arg7 (c : Dev nD) : U11 m c (Proc.devRef .tc main_arg7) = m ((c.tc : Thread nD τ).loc main_arg7) :=
  (ops10_keep _ main_arg7 (by decide) (by decide)).trans (G10_arg7 m c)

theorem G12_arg7 (c : Dev nD) : U12 m c (Proc.devRef .tc main_arg7) = m ((c.tc : Thread nD τ).loc main_arg7) :=
  (ops11_keep _ main_arg7 (by decide)).trans (G11_arg7 m c)

theorem G13_arg7 (c : Dev nD) : U13 m c (Proc.devRef .tc main_arg7) = m ((c.tc : Thread nD τ).loc main_arg7) :=
  (ops12_keep _ main_arg7 (by decide)).trans (G12_arg7 m c)

theorem G14_arg7 (c : Dev nD) : U14 m c (Proc.devRef .tc main_arg7) = m ((c.tc : Thread nD τ).loc main_arg7) :=
  (ops13_keep _ main_arg7 (by decide) (by decide)).trans (G13_arg7 m c)

theorem G15_arg7 (c : Dev nD) : U15 m c (Proc.devRef .tc main_arg7) = m ((c.tc : Thread nD τ).loc main_arg7) :=
  (ops14_keep _ main_arg7 (by decide)).trans (G14_arg7 m c)

theorem G16_arg7 (c : Dev nD) : U16 m c (Proc.devRef .tc main_arg7) = m ((c.tc : Thread nD τ).loc main_arg7) :=
  (ops15_keep _ main_arg7 (by decide) (by decide)).trans (G15_arg7 m c)

theorem G17_arg7 (c : Dev nD) : U17 m c (Proc.devRef .tc main_arg7) = m ((c.tc : Thread nD τ).loc main_arg7) :=
  (ops16_keep _ main_arg7 (by decide)).trans (G16_arg7 m c)

theorem G18_arg7 (c : Dev nD) : U18 m c (Proc.devRef .tc main_arg7) = m ((c.tc : Thread nD τ).loc main_arg7) :=
  (ops17_keep _ main_arg7 (by decide)).trans (G17_arg7 m c)

theorem G19_arg7 (c : Dev nD) : U19 m c (Proc.devRef .tc main_arg7) = m ((c.tc : Thread nD τ).loc main_arg7) :=
  (ops18_keep _ main_arg7 (by decide)).trans (G18_arg7 m c)

theorem G20_arg7 (c : Dev nD) : U20 m c (Proc.devRef .tc main_arg7) = m ((c.tc : Thread nD τ).loc main_arg7) :=
  (ops19_keep _ main_arg7 (by decide)).trans (G19_arg7 m c)

theorem G21_arg7 (c : Dev nD) : U21 m c (Proc.devRef .tc main_arg7) = m ((c.tc : Thread nD τ).loc main_arg7) :=
  (ops20_keep _ main_arg7 (by decide)).trans (G20_arg7 m c)

theorem G2_arg8 (c : Dev nD) : U2 m c (Proc.devRef .tc main_arg8) = m ((c.tc : Thread nD τ).loc main_arg8) :=
  (ops1_keep _ main_arg8 (by decide)).trans (G1_arg8 m c)

theorem G3_arg8 (c : Dev nD) : U3 m c (Proc.devRef .tc main_arg8) = m ((c.tc : Thread nD τ).loc main_arg8) :=
  (ops2_keep _ main_arg8 (by decide)).trans (G2_arg8 m c)

theorem G4_arg8 (c : Dev nD) : U4 m c (Proc.devRef .tc main_arg8) = m ((c.tc : Thread nD τ).loc main_arg8) :=
  (ops3_keep _ main_arg8 (by decide) (by decide)).trans (G3_arg8 m c)

theorem G5_arg8 (c : Dev nD) : U5 m c (Proc.devRef .tc main_arg8) = m ((c.tc : Thread nD τ).loc main_arg8) :=
  (ops4_keep _ main_arg8 (by decide) (by decide)).trans (G4_arg8 m c)

theorem G6_arg8 (c : Dev nD) : U6 m c (Proc.devRef .tc main_arg8) = m ((c.tc : Thread nD τ).loc main_arg8) :=
  (ops5_keep _ main_arg8 (by decide)).trans (G5_arg8 m c)

theorem G7_arg8 (c : Dev nD) : U7 m c (Proc.devRef .tc main_arg8) = m ((c.tc : Thread nD τ).loc main_arg8) :=
  (ops6_keep _ main_arg8 (by decide)).trans (G6_arg8 m c)

theorem G8_arg8 (c : Dev nD) : U8 m c (Proc.devRef .tc main_arg8) = m ((c.tc : Thread nD τ).loc main_arg8) :=
  (ops7_keep _ main_arg8 (by decide)).trans (G7_arg8 m c)

theorem G9_arg8 (c : Dev nD) : U9 m c (Proc.devRef .tc main_arg8) = m ((c.tc : Thread nD τ).loc main_arg8) :=
  (ops8_keep _ main_arg8 (by decide) (by decide)).trans (G8_arg8 m c)

theorem G10_arg8 (c : Dev nD) : U10 m c (Proc.devRef .tc main_arg8) = m ((c.tc : Thread nD τ).loc main_arg8) :=
  (ops9_keep _ main_arg8 (by decide)).trans (G9_arg8 m c)

theorem G11_arg8 (c : Dev nD) : U11 m c (Proc.devRef .tc main_arg8) = m ((c.tc : Thread nD τ).loc main_arg8) :=
  (ops10_keep _ main_arg8 (by decide) (by decide)).trans (G10_arg8 m c)

theorem G12_arg8 (c : Dev nD) : U12 m c (Proc.devRef .tc main_arg8) = m ((c.tc : Thread nD τ).loc main_arg8) :=
  (ops11_keep _ main_arg8 (by decide)).trans (G11_arg8 m c)

theorem G13_arg8 (c : Dev nD) : U13 m c (Proc.devRef .tc main_arg8) = m ((c.tc : Thread nD τ).loc main_arg8) :=
  (ops12_keep _ main_arg8 (by decide)).trans (G12_arg8 m c)

theorem G14_arg8 (c : Dev nD) : U14 m c (Proc.devRef .tc main_arg8) = m ((c.tc : Thread nD τ).loc main_arg8) :=
  (ops13_keep _ main_arg8 (by decide) (by decide)).trans (G13_arg8 m c)

theorem G15_arg8 (c : Dev nD) : U15 m c (Proc.devRef .tc main_arg8) = m ((c.tc : Thread nD τ).loc main_arg8) :=
  (ops14_keep _ main_arg8 (by decide)).trans (G14_arg8 m c)

theorem G16_arg8 (c : Dev nD) : U16 m c (Proc.devRef .tc main_arg8) = m ((c.tc : Thread nD τ).loc main_arg8) :=
  (ops15_keep _ main_arg8 (by decide) (by decide)).trans (G15_arg8 m c)

theorem G17_arg8 (c : Dev nD) : U17 m c (Proc.devRef .tc main_arg8) = m ((c.tc : Thread nD τ).loc main_arg8) :=
  (ops16_keep _ main_arg8 (by decide)).trans (G16_arg8 m c)

theorem G18_arg8 (c : Dev nD) : U18 m c (Proc.devRef .tc main_arg8) = m ((c.tc : Thread nD τ).loc main_arg8) :=
  (ops17_keep _ main_arg8 (by decide)).trans (G17_arg8 m c)

theorem G19_arg8 (c : Dev nD) : U19 m c (Proc.devRef .tc main_arg8) = m ((c.tc : Thread nD τ).loc main_arg8) :=
  (ops18_keep _ main_arg8 (by decide)).trans (G18_arg8 m c)

theorem G20_arg8 (c : Dev nD) : U20 m c (Proc.devRef .tc main_arg8) = m ((c.tc : Thread nD τ).loc main_arg8) :=
  (ops19_keep _ main_arg8 (by decide)).trans (G19_arg8 m c)

theorem G21_arg8 (c : Dev nD) : U21 m c (Proc.devRef .tc main_arg8) = m ((c.tc : Thread nD τ).loc main_arg8) :=
  (ops20_keep _ main_arg8 (by decide)).trans (G20_arg8 m c)

theorem G2_arg9 (c : Dev nD) : U2 m c (Proc.devRef .tc main_arg9) = m ((c.tc : Thread nD τ).loc main_arg9) :=
  (ops1_keep _ main_arg9 (by decide)).trans (G1_arg9 m c)

theorem G3_arg9 (c : Dev nD) : U3 m c (Proc.devRef .tc main_arg9) = m ((c.tc : Thread nD τ).loc main_arg9) :=
  (ops2_keep _ main_arg9 (by decide)).trans (G2_arg9 m c)

theorem G4_arg9 (c : Dev nD) : U4 m c (Proc.devRef .tc main_arg9) = m ((c.tc : Thread nD τ).loc main_arg9) :=
  (ops3_keep _ main_arg9 (by decide) (by decide)).trans (G3_arg9 m c)

theorem G5_arg9 (c : Dev nD) : U5 m c (Proc.devRef .tc main_arg9) = m ((c.tc : Thread nD τ).loc main_arg9) :=
  (ops4_keep _ main_arg9 (by decide) (by decide)).trans (G4_arg9 m c)

theorem G6_arg9 (c : Dev nD) : U6 m c (Proc.devRef .tc main_arg9) = m ((c.tc : Thread nD τ).loc main_arg9) :=
  (ops5_keep _ main_arg9 (by decide)).trans (G5_arg9 m c)

theorem G7_arg9 (c : Dev nD) : U7 m c (Proc.devRef .tc main_arg9) = m ((c.tc : Thread nD τ).loc main_arg9) :=
  (ops6_keep _ main_arg9 (by decide)).trans (G6_arg9 m c)

theorem G8_arg9 (c : Dev nD) : U8 m c (Proc.devRef .tc main_arg9) = m ((c.tc : Thread nD τ).loc main_arg9) :=
  (ops7_keep _ main_arg9 (by decide)).trans (G7_arg9 m c)

theorem G9_arg9 (c : Dev nD) : U9 m c (Proc.devRef .tc main_arg9) = m ((c.tc : Thread nD τ).loc main_arg9) :=
  (ops8_keep _ main_arg9 (by decide) (by decide)).trans (G8_arg9 m c)

theorem G10_arg9 (c : Dev nD) : U10 m c (Proc.devRef .tc main_arg9) = m ((c.tc : Thread nD τ).loc main_arg9) :=
  (ops9_keep _ main_arg9 (by decide)).trans (G9_arg9 m c)

theorem G11_arg9 (c : Dev nD) : U11 m c (Proc.devRef .tc main_arg9) = m ((c.tc : Thread nD τ).loc main_arg9) :=
  (ops10_keep _ main_arg9 (by decide) (by decide)).trans (G10_arg9 m c)

theorem G12_arg9 (c : Dev nD) : U12 m c (Proc.devRef .tc main_arg9) = m ((c.tc : Thread nD τ).loc main_arg9) :=
  (ops11_keep _ main_arg9 (by decide)).trans (G11_arg9 m c)

theorem G13_arg9 (c : Dev nD) : U13 m c (Proc.devRef .tc main_arg9) = m ((c.tc : Thread nD τ).loc main_arg9) :=
  (ops12_keep _ main_arg9 (by decide)).trans (G12_arg9 m c)

theorem G14_arg9 (c : Dev nD) : U14 m c (Proc.devRef .tc main_arg9) = m ((c.tc : Thread nD τ).loc main_arg9) :=
  (ops13_keep _ main_arg9 (by decide) (by decide)).trans (G13_arg9 m c)

theorem G15_arg9 (c : Dev nD) : U15 m c (Proc.devRef .tc main_arg9) = m ((c.tc : Thread nD τ).loc main_arg9) :=
  (ops14_keep _ main_arg9 (by decide)).trans (G14_arg9 m c)

theorem G16_arg9 (c : Dev nD) : U16 m c (Proc.devRef .tc main_arg9) = m ((c.tc : Thread nD τ).loc main_arg9) :=
  (ops15_keep _ main_arg9 (by decide) (by decide)).trans (G15_arg9 m c)

theorem G17_arg9 (c : Dev nD) : U17 m c (Proc.devRef .tc main_arg9) = m ((c.tc : Thread nD τ).loc main_arg9) :=
  (ops16_keep _ main_arg9 (by decide)).trans (G16_arg9 m c)

theorem G18_arg9 (c : Dev nD) : U18 m c (Proc.devRef .tc main_arg9) = m ((c.tc : Thread nD τ).loc main_arg9) :=
  (ops17_keep _ main_arg9 (by decide)).trans (G17_arg9 m c)

theorem G19_arg9 (c : Dev nD) : U19 m c (Proc.devRef .tc main_arg9) = m ((c.tc : Thread nD τ).loc main_arg9) :=
  (ops18_keep _ main_arg9 (by decide)).trans (G18_arg9 m c)

theorem G20_arg9 (c : Dev nD) : U20 m c (Proc.devRef .tc main_arg9) = m ((c.tc : Thread nD τ).loc main_arg9) :=
  (ops19_keep _ main_arg9 (by decide)).trans (G19_arg9 m c)

theorem G21_arg9 (c : Dev nD) : U21 m c (Proc.devRef .tc main_arg9) = m ((c.tc : Thread nD τ).loc main_arg9) :=
  (ops20_keep _ main_arg9 (by decide)).trans (G20_arg9 m c)

theorem G2_arg10 (c : Dev nD) : U2 m c (Proc.devRef .tc main_arg10) = m ((c.tc : Thread nD τ).loc main_arg10) :=
  (ops1_keep _ main_arg10 (by decide)).trans (G1_arg10 m c)

theorem G3_arg10 (c : Dev nD) : U3 m c (Proc.devRef .tc main_arg10) = m ((c.tc : Thread nD τ).loc main_arg10) :=
  (ops2_keep _ main_arg10 (by decide)).trans (G2_arg10 m c)

theorem G4_arg10 (c : Dev nD) : U4 m c (Proc.devRef .tc main_arg10) = m ((c.tc : Thread nD τ).loc main_arg10) :=
  (ops3_keep _ main_arg10 (by decide) (by decide)).trans (G3_arg10 m c)

theorem G5_arg10 (c : Dev nD) : U5 m c (Proc.devRef .tc main_arg10) = m ((c.tc : Thread nD τ).loc main_arg10) :=
  (ops4_keep _ main_arg10 (by decide) (by decide)).trans (G4_arg10 m c)

theorem G6_arg10 (c : Dev nD) : U6 m c (Proc.devRef .tc main_arg10) = m ((c.tc : Thread nD τ).loc main_arg10) :=
  (ops5_keep _ main_arg10 (by decide)).trans (G5_arg10 m c)

theorem G7_arg10 (c : Dev nD) : U7 m c (Proc.devRef .tc main_arg10) = m ((c.tc : Thread nD τ).loc main_arg10) :=
  (ops6_keep _ main_arg10 (by decide)).trans (G6_arg10 m c)

theorem G8_arg10 (c : Dev nD) : U8 m c (Proc.devRef .tc main_arg10) = m ((c.tc : Thread nD τ).loc main_arg10) :=
  (ops7_keep _ main_arg10 (by decide)).trans (G7_arg10 m c)

theorem G9_arg10 (c : Dev nD) : U9 m c (Proc.devRef .tc main_arg10) = m ((c.tc : Thread nD τ).loc main_arg10) :=
  (ops8_keep _ main_arg10 (by decide) (by decide)).trans (G8_arg10 m c)

theorem G10_arg10 (c : Dev nD) : U10 m c (Proc.devRef .tc main_arg10) = m ((c.tc : Thread nD τ).loc main_arg10) :=
  (ops9_keep _ main_arg10 (by decide)).trans (G9_arg10 m c)

theorem G11_arg10 (c : Dev nD) : U11 m c (Proc.devRef .tc main_arg10) = m ((c.tc : Thread nD τ).loc main_arg10) :=
  (ops10_keep _ main_arg10 (by decide) (by decide)).trans (G10_arg10 m c)

theorem G12_arg10 (c : Dev nD) : U12 m c (Proc.devRef .tc main_arg10) = m ((c.tc : Thread nD τ).loc main_arg10) :=
  (ops11_keep _ main_arg10 (by decide)).trans (G11_arg10 m c)

theorem G13_arg10 (c : Dev nD) : U13 m c (Proc.devRef .tc main_arg10) = m ((c.tc : Thread nD τ).loc main_arg10) :=
  (ops12_keep _ main_arg10 (by decide)).trans (G12_arg10 m c)

theorem G14_arg10 (c : Dev nD) : U14 m c (Proc.devRef .tc main_arg10) = m ((c.tc : Thread nD τ).loc main_arg10) :=
  (ops13_keep _ main_arg10 (by decide) (by decide)).trans (G13_arg10 m c)

theorem G15_arg10 (c : Dev nD) : U15 m c (Proc.devRef .tc main_arg10) = m ((c.tc : Thread nD τ).loc main_arg10) :=
  (ops14_keep _ main_arg10 (by decide)).trans (G14_arg10 m c)

theorem G16_arg10 (c : Dev nD) : U16 m c (Proc.devRef .tc main_arg10) = m ((c.tc : Thread nD τ).loc main_arg10) :=
  (ops15_keep _ main_arg10 (by decide) (by decide)).trans (G15_arg10 m c)

theorem G17_arg10 (c : Dev nD) : U17 m c (Proc.devRef .tc main_arg10) = m ((c.tc : Thread nD τ).loc main_arg10) :=
  (ops16_keep _ main_arg10 (by decide)).trans (G16_arg10 m c)

theorem G18_arg10 (c : Dev nD) : U18 m c (Proc.devRef .tc main_arg10) = m ((c.tc : Thread nD τ).loc main_arg10) :=
  (ops17_keep _ main_arg10 (by decide)).trans (G17_arg10 m c)

theorem G19_arg10 (c : Dev nD) : U19 m c (Proc.devRef .tc main_arg10) = m ((c.tc : Thread nD τ).loc main_arg10) :=
  (ops18_keep _ main_arg10 (by decide)).trans (G18_arg10 m c)

theorem G20_arg10 (c : Dev nD) : U20 m c (Proc.devRef .tc main_arg10) = m ((c.tc : Thread nD τ).loc main_arg10) :=
  (ops19_keep _ main_arg10 (by decide)).trans (G19_arg10 m c)

theorem G21_arg10 (c : Dev nD) : U21 m c (Proc.devRef .tc main_arg10) = m ((c.tc : Thread nD τ).loc main_arg10) :=
  (ops20_keep _ main_arg10 (by decide)).trans (G20_arg10 m c)

theorem G15_arg11 (c : Dev nD) : U15 m c (Proc.devRef .tc main_arg11) = m ((c.tc : Thread nD τ).loc main_arg11) :=
  (ops14_keep _ main_arg11 (by decide)).trans (G14_arg11 m c)

theorem G16_arg11 (c : Dev nD) : U16 m c (Proc.devRef .tc main_arg11) = m ((c.tc : Thread nD τ).loc main_arg11) :=
  (ops15_keep _ main_arg11 (by decide) (by decide)).trans (G15_arg11 m c)

theorem G17_arg11 (c : Dev nD) : U17 m c (Proc.devRef .tc main_arg11) = m ((c.tc : Thread nD τ).loc main_arg11) :=
  (ops16_keep _ main_arg11 (by decide)).trans (G16_arg11 m c)

theorem G18_arg11 (c : Dev nD) : U18 m c (Proc.devRef .tc main_arg11) = m ((c.tc : Thread nD τ).loc main_arg11) :=
  (ops17_keep _ main_arg11 (by decide)).trans (G17_arg11 m c)

theorem G19_arg11 (c : Dev nD) : U19 m c (Proc.devRef .tc main_arg11) = m ((c.tc : Thread nD τ).loc main_arg11) :=
  (ops18_keep _ main_arg11 (by decide)).trans (G18_arg11 m c)

theorem G20_arg11 (c : Dev nD) : U20 m c (Proc.devRef .tc main_arg11) = m ((c.tc : Thread nD τ).loc main_arg11) :=
  (ops19_keep _ main_arg11 (by decide)).trans (G19_arg11 m c)

theorem G21_arg11 (c : Dev nD) : U21 m c (Proc.devRef .tc main_arg11) = m ((c.tc : Thread nD τ).loc main_arg11) :=
  (ops20_keep _ main_arg11 (by decide)).trans (G20_arg11 m c)

theorem G15_arg12 (c : Dev nD) : U15 m c (Proc.devRef .tc main_arg12) = m ((c.tc : Thread nD τ).loc main_arg12) :=
  (ops14_keep _ main_arg12 (by decide)).trans (G14_arg12 m c)

theorem G16_arg12 (c : Dev nD) : U16 m c (Proc.devRef .tc main_arg12) = m ((c.tc : Thread nD τ).loc main_arg12) :=
  (ops15_keep _ main_arg12 (by decide) (by decide)).trans (G15_arg12 m c)

theorem G17_arg12 (c : Dev nD) : U17 m c (Proc.devRef .tc main_arg12) = m ((c.tc : Thread nD τ).loc main_arg12) :=
  (ops16_keep _ main_arg12 (by decide)).trans (G16_arg12 m c)

theorem G18_arg12 (c : Dev nD) : U18 m c (Proc.devRef .tc main_arg12) = m ((c.tc : Thread nD τ).loc main_arg12) :=
  (ops17_keep _ main_arg12 (by decide)).trans (G17_arg12 m c)

theorem G19_arg12 (c : Dev nD) : U19 m c (Proc.devRef .tc main_arg12) = m ((c.tc : Thread nD τ).loc main_arg12) :=
  (ops18_keep _ main_arg12 (by decide)).trans (G18_arg12 m c)

theorem G20_arg12 (c : Dev nD) : U20 m c (Proc.devRef .tc main_arg12) = m ((c.tc : Thread nD τ).loc main_arg12) :=
  (ops19_keep _ main_arg12 (by decide)).trans (G19_arg12 m c)

theorem G21_arg12 (c : Dev nD) : U21 m c (Proc.devRef .tc main_arg12) = m ((c.tc : Thread nD τ).loc main_arg12) :=
  (ops20_keep _ main_arg12 (by decide)).trans (G20_arg12 m c)

theorem G15_arg13 (c : Dev nD) : U15 m c (Proc.devRef .tc main_arg13) = m ((c.tc : Thread nD τ).loc main_arg13) :=
  (ops14_keep _ main_arg13 (by decide)).trans (G14_arg13 m c)

theorem G16_arg13 (c : Dev nD) : U16 m c (Proc.devRef .tc main_arg13) = m ((c.tc : Thread nD τ).loc main_arg13) :=
  (ops15_keep _ main_arg13 (by decide) (by decide)).trans (G15_arg13 m c)

theorem G17_arg13 (c : Dev nD) : U17 m c (Proc.devRef .tc main_arg13) = m ((c.tc : Thread nD τ).loc main_arg13) :=
  (ops16_keep _ main_arg13 (by decide)).trans (G16_arg13 m c)

theorem G18_arg13 (c : Dev nD) : U18 m c (Proc.devRef .tc main_arg13) = m ((c.tc : Thread nD τ).loc main_arg13) :=
  (ops17_keep _ main_arg13 (by decide)).trans (G17_arg13 m c)

theorem G19_arg13 (c : Dev nD) : U19 m c (Proc.devRef .tc main_arg13) = m ((c.tc : Thread nD τ).loc main_arg13) :=
  (ops18_keep _ main_arg13 (by decide)).trans (G18_arg13 m c)

theorem G20_arg13 (c : Dev nD) : U20 m c (Proc.devRef .tc main_arg13) = m ((c.tc : Thread nD τ).loc main_arg13) :=
  (ops19_keep _ main_arg13 (by decide)).trans (G19_arg13 m c)

theorem G21_arg13 (c : Dev nD) : U21 m c (Proc.devRef .tc main_arg13) = m ((c.tc : Thread nD τ).loc main_arg13) :=
  (ops20_keep _ main_arg13 (by decide)).trans (G20_arg13 m c)

theorem G15_arg14 (c : Dev nD) : U15 m c (Proc.devRef .tc main_arg14) = m ((c.tc : Thread nD τ).loc main_arg14) :=
  (ops14_keep _ main_arg14 (by decide)).trans (G14_arg14 m c)

theorem G16_arg14 (c : Dev nD) : U16 m c (Proc.devRef .tc main_arg14) = m ((c.tc : Thread nD τ).loc main_arg14) :=
  (ops15_keep _ main_arg14 (by decide) (by decide)).trans (G15_arg14 m c)

theorem G17_arg14 (c : Dev nD) : U17 m c (Proc.devRef .tc main_arg14) = m ((c.tc : Thread nD τ).loc main_arg14) :=
  (ops16_keep _ main_arg14 (by decide)).trans (G16_arg14 m c)

theorem G18_arg14 (c : Dev nD) : U18 m c (Proc.devRef .tc main_arg14) = m ((c.tc : Thread nD τ).loc main_arg14) :=
  (ops17_keep _ main_arg14 (by decide)).trans (G17_arg14 m c)

theorem G19_arg14 (c : Dev nD) : U19 m c (Proc.devRef .tc main_arg14) = m ((c.tc : Thread nD τ).loc main_arg14) :=
  (ops18_keep _ main_arg14 (by decide)).trans (G18_arg14 m c)

theorem G20_arg14 (c : Dev nD) : U20 m c (Proc.devRef .tc main_arg14) = m ((c.tc : Thread nD τ).loc main_arg14) :=
  (ops19_keep _ main_arg14 (by decide)).trans (G19_arg14 m c)

theorem G21_arg14 (c : Dev nD) : U21 m c (Proc.devRef .tc main_arg14) = m ((c.tc : Thread nD τ).loc main_arg14) :=
  (ops20_keep _ main_arg14 (by decide)).trans (G20_arg14 m c)

theorem G15_arg15 (c : Dev nD) : U15 m c (Proc.devRef .tc main_arg15) = m ((c.tc : Thread nD τ).loc main_arg15) :=
  (ops14_keep _ main_arg15 (by decide)).trans (G14_arg15 m c)

theorem G16_arg15 (c : Dev nD) : U16 m c (Proc.devRef .tc main_arg15) = m ((c.tc : Thread nD τ).loc main_arg15) :=
  (ops15_keep _ main_arg15 (by decide) (by decide)).trans (G15_arg15 m c)

theorem G17_arg15 (c : Dev nD) : U17 m c (Proc.devRef .tc main_arg15) = m ((c.tc : Thread nD τ).loc main_arg15) :=
  (ops16_keep _ main_arg15 (by decide)).trans (G16_arg15 m c)

theorem G18_arg15 (c : Dev nD) : U18 m c (Proc.devRef .tc main_arg15) = m ((c.tc : Thread nD τ).loc main_arg15) :=
  (ops17_keep _ main_arg15 (by decide)).trans (G17_arg15 m c)

theorem G19_arg15 (c : Dev nD) : U19 m c (Proc.devRef .tc main_arg15) = m ((c.tc : Thread nD τ).loc main_arg15) :=
  (ops18_keep _ main_arg15 (by decide)).trans (G18_arg15 m c)

theorem G20_arg15 (c : Dev nD) : U20 m c (Proc.devRef .tc main_arg15) = m ((c.tc : Thread nD τ).loc main_arg15) :=
  (ops19_keep _ main_arg15 (by decide)).trans (G19_arg15 m c)

theorem G21_arg15 (c : Dev nD) : U21 m c (Proc.devRef .tc main_arg15) = m ((c.tc : Thread nD τ).loc main_arg15) :=
  (ops20_keep _ main_arg15 (by decide)).trans (G20_arg15 m c)

theorem G15_arg16 (c : Dev nD) : U15 m c (Proc.devRef .tc main_arg16) = m ((c.tc : Thread nD τ).loc main_arg16) :=
  (ops14_keep _ main_arg16 (by decide)).trans (G14_arg16 m c)

theorem G16_arg16 (c : Dev nD) : U16 m c (Proc.devRef .tc main_arg16) = m ((c.tc : Thread nD τ).loc main_arg16) :=
  (ops15_keep _ main_arg16 (by decide) (by decide)).trans (G15_arg16 m c)

theorem G17_arg16 (c : Dev nD) : U17 m c (Proc.devRef .tc main_arg16) = m ((c.tc : Thread nD τ).loc main_arg16) :=
  (ops16_keep _ main_arg16 (by decide)).trans (G16_arg16 m c)

theorem G18_arg16 (c : Dev nD) : U18 m c (Proc.devRef .tc main_arg16) = m ((c.tc : Thread nD τ).loc main_arg16) :=
  (ops17_keep _ main_arg16 (by decide)).trans (G17_arg16 m c)

theorem G19_arg16 (c : Dev nD) : U19 m c (Proc.devRef .tc main_arg16) = m ((c.tc : Thread nD τ).loc main_arg16) :=
  (ops18_keep _ main_arg16 (by decide)).trans (G18_arg16 m c)

theorem G20_arg16 (c : Dev nD) : U20 m c (Proc.devRef .tc main_arg16) = m ((c.tc : Thread nD τ).loc main_arg16) :=
  (ops19_keep _ main_arg16 (by decide)).trans (G19_arg16 m c)

theorem G21_arg16 (c : Dev nD) : U21 m c (Proc.devRef .tc main_arg16) = m ((c.tc : Thread nD τ).loc main_arg16) :=
  (ops20_keep _ main_arg16 (by decide)).trans (G20_arg16 m c)

theorem G17_arg17 (c : Dev nD) : U17 m c (Proc.devRef .tc main_arg17) = m ((c.tc : Thread nD τ).loc main_arg17) :=
  (ops16_keep _ main_arg17 (by decide)).trans (G16_arg17 m c)

theorem G18_arg17 (c : Dev nD) : U18 m c (Proc.devRef .tc main_arg17) = m ((c.tc : Thread nD τ).loc main_arg17) :=
  (ops17_keep _ main_arg17 (by decide)).trans (G17_arg17 m c)

theorem G19_arg17 (c : Dev nD) : U19 m c (Proc.devRef .tc main_arg17) = m ((c.tc : Thread nD τ).loc main_arg17) :=
  (ops18_keep _ main_arg17 (by decide)).trans (G18_arg17 m c)

theorem G20_arg17 (c : Dev nD) : U20 m c (Proc.devRef .tc main_arg17) = m ((c.tc : Thread nD τ).loc main_arg17) :=
  (ops19_keep _ main_arg17 (by decide)).trans (G19_arg17 m c)

theorem G21_arg17 (c : Dev nD) : U21 m c (Proc.devRef .tc main_arg17) = m ((c.tc : Thread nD τ).loc main_arg17) :=
  (ops20_keep _ main_arg17 (by decide)).trans (G20_arg17 m c)

theorem G17_arg18 (c : Dev nD) : U17 m c (Proc.devRef .tc main_arg18) = m ((c.tc : Thread nD τ).loc main_arg18) :=
  (ops16_keep _ main_arg18 (by decide)).trans (G16_arg18 m c)

theorem G18_arg18 (c : Dev nD) : U18 m c (Proc.devRef .tc main_arg18) = m ((c.tc : Thread nD τ).loc main_arg18) :=
  (ops17_keep _ main_arg18 (by decide)).trans (G17_arg18 m c)

theorem G19_arg18 (c : Dev nD) : U19 m c (Proc.devRef .tc main_arg18) = m ((c.tc : Thread nD τ).loc main_arg18) :=
  (ops18_keep _ main_arg18 (by decide)).trans (G18_arg18 m c)

theorem G20_arg18 (c : Dev nD) : U20 m c (Proc.devRef .tc main_arg18) = m ((c.tc : Thread nD τ).loc main_arg18) :=
  (ops19_keep _ main_arg18 (by decide)).trans (G19_arg18 m c)

theorem G21_arg18 (c : Dev nD) : U21 m c (Proc.devRef .tc main_arg18) = m ((c.tc : Thread nD τ).loc main_arg18) :=
  (ops20_keep _ main_arg18 (by decide)).trans (G20_arg18 m c)

theorem G17_arg19 (c : Dev nD) : U17 m c (Proc.devRef .tc main_arg19) = m ((c.tc : Thread nD τ).loc main_arg19) :=
  (ops16_keep _ main_arg19 (by decide)).trans (G16_arg19 m c)

theorem G18_arg19 (c : Dev nD) : U18 m c (Proc.devRef .tc main_arg19) = m ((c.tc : Thread nD τ).loc main_arg19) :=
  (ops17_keep _ main_arg19 (by decide)).trans (G17_arg19 m c)

theorem G19_arg19 (c : Dev nD) : U19 m c (Proc.devRef .tc main_arg19) = m ((c.tc : Thread nD τ).loc main_arg19) :=
  (ops18_keep _ main_arg19 (by decide)).trans (G18_arg19 m c)

theorem G20_arg19 (c : Dev nD) : U20 m c (Proc.devRef .tc main_arg19) = m ((c.tc : Thread nD τ).loc main_arg19) :=
  (ops19_keep _ main_arg19 (by decide)).trans (G19_arg19 m c)

theorem G21_arg19 (c : Dev nD) : U21 m c (Proc.devRef .tc main_arg19) = m ((c.tc : Thread nD τ).loc main_arg19) :=
  (ops20_keep _ main_arg19 (by decide)).trans (G20_arg19 m c)

theorem G17_arg20 (c : Dev nD) : U17 m c (Proc.devRef .tc main_arg20) = m ((c.tc : Thread nD τ).loc main_arg20) :=
  (ops16_keep _ main_arg20 (by decide)).trans (G16_arg20 m c)

theorem G18_arg20 (c : Dev nD) : U18 m c (Proc.devRef .tc main_arg20) = m ((c.tc : Thread nD τ).loc main_arg20) :=
  (ops17_keep _ main_arg20 (by decide)).trans (G17_arg20 m c)

theorem G19_arg20 (c : Dev nD) : U19 m c (Proc.devRef .tc main_arg20) = m ((c.tc : Thread nD τ).loc main_arg20) :=
  (ops18_keep _ main_arg20 (by decide)).trans (G18_arg20 m c)

theorem G20_arg20 (c : Dev nD) : U20 m c (Proc.devRef .tc main_arg20) = m ((c.tc : Thread nD τ).loc main_arg20) :=
  (ops19_keep _ main_arg20 (by decide)).trans (G19_arg20 m c)

theorem G21_arg20 (c : Dev nD) : U21 m c (Proc.devRef .tc main_arg20) = m ((c.tc : Thread nD τ).loc main_arg20) :=
  (ops20_keep _ main_arg20 (by decide)).trans (G20_arg20 m c)

theorem G13_arg21 (c : Dev nD) : U13 m c (Proc.devRef .tc main_arg21) = m ((c.tc : Thread nD τ).loc main_arg21) :=
  (ops12_keep _ main_arg21 (by decide)).trans (G12_arg21 m c)

theorem G14_arg21 (c : Dev nD) : U14 m c (Proc.devRef .tc main_arg21) = m ((c.tc : Thread nD τ).loc main_arg21) :=
  (ops13_keep _ main_arg21 (by decide) (by decide)).trans (G13_arg21 m c)

theorem G15_arg21 (c : Dev nD) : U15 m c (Proc.devRef .tc main_arg21) = m ((c.tc : Thread nD τ).loc main_arg21) :=
  (ops14_keep _ main_arg21 (by decide)).trans (G14_arg21 m c)

theorem G16_arg21 (c : Dev nD) : U16 m c (Proc.devRef .tc main_arg21) = m ((c.tc : Thread nD τ).loc main_arg21) :=
  (ops15_keep _ main_arg21 (by decide) (by decide)).trans (G15_arg21 m c)

theorem G17_arg21 (c : Dev nD) : U17 m c (Proc.devRef .tc main_arg21) = m ((c.tc : Thread nD τ).loc main_arg21) :=
  (ops16_keep _ main_arg21 (by decide)).trans (G16_arg21 m c)

theorem G18_arg21 (c : Dev nD) : U18 m c (Proc.devRef .tc main_arg21) = m ((c.tc : Thread nD τ).loc main_arg21) :=
  (ops17_keep _ main_arg21 (by decide)).trans (G17_arg21 m c)

theorem G19_arg21 (c : Dev nD) : U19 m c (Proc.devRef .tc main_arg21) = m ((c.tc : Thread nD τ).loc main_arg21) :=
  (ops18_keep _ main_arg21 (by decide)).trans (G18_arg21 m c)

theorem G20_arg21 (c : Dev nD) : U20 m c (Proc.devRef .tc main_arg21) = m ((c.tc : Thread nD τ).loc main_arg21) :=
  (ops19_keep _ main_arg21 (by decide)).trans (G19_arg21 m c)

theorem G21_arg21 (c : Dev nD) : U21 m c (Proc.devRef .tc main_arg21) = m ((c.tc : Thread nD τ).loc main_arg21) :=
  (ops20_keep _ main_arg21 (by decide)).trans (G20_arg21 m c)

theorem G13_arg22 (c : Dev nD) : U13 m c (Proc.devRef .tc main_arg22) = m ((c.tc : Thread nD τ).loc main_arg22) :=
  (ops12_keep _ main_arg22 (by decide)).trans (G12_arg22 m c)

theorem G14_arg22 (c : Dev nD) : U14 m c (Proc.devRef .tc main_arg22) = m ((c.tc : Thread nD τ).loc main_arg22) :=
  (ops13_keep _ main_arg22 (by decide) (by decide)).trans (G13_arg22 m c)

theorem G15_arg22 (c : Dev nD) : U15 m c (Proc.devRef .tc main_arg22) = m ((c.tc : Thread nD τ).loc main_arg22) :=
  (ops14_keep _ main_arg22 (by decide)).trans (G14_arg22 m c)

theorem G16_arg22 (c : Dev nD) : U16 m c (Proc.devRef .tc main_arg22) = m ((c.tc : Thread nD τ).loc main_arg22) :=
  (ops15_keep _ main_arg22 (by decide) (by decide)).trans (G15_arg22 m c)

theorem G17_arg22 (c : Dev nD) : U17 m c (Proc.devRef .tc main_arg22) = m ((c.tc : Thread nD τ).loc main_arg22) :=
  (ops16_keep _ main_arg22 (by decide)).trans (G16_arg22 m c)

theorem G18_arg22 (c : Dev nD) : U18 m c (Proc.devRef .tc main_arg22) = m ((c.tc : Thread nD τ).loc main_arg22) :=
  (ops17_keep _ main_arg22 (by decide)).trans (G17_arg22 m c)

theorem G19_arg22 (c : Dev nD) : U19 m c (Proc.devRef .tc main_arg22) = m ((c.tc : Thread nD τ).loc main_arg22) :=
  (ops18_keep _ main_arg22 (by decide)).trans (G18_arg22 m c)

theorem G20_arg22 (c : Dev nD) : U20 m c (Proc.devRef .tc main_arg22) = m ((c.tc : Thread nD τ).loc main_arg22) :=
  (ops19_keep _ main_arg22 (by decide)).trans (G19_arg22 m c)

theorem G21_arg22 (c : Dev nD) : U21 m c (Proc.devRef .tc main_arg22) = m ((c.tc : Thread nD τ).loc main_arg22) :=
  (ops20_keep _ main_arg22 (by decide)).trans (G20_arg22 m c)

theorem G13_arg23 (c : Dev nD) : U13 m c (Proc.devRef .tc main_arg23) = m ((c.tc : Thread nD τ).loc main_arg23) :=
  (ops12_keep _ main_arg23 (by decide)).trans (G12_arg23 m c)

theorem G14_arg23 (c : Dev nD) : U14 m c (Proc.devRef .tc main_arg23) = m ((c.tc : Thread nD τ).loc main_arg23) :=
  (ops13_keep _ main_arg23 (by decide) (by decide)).trans (G13_arg23 m c)

theorem G15_arg23 (c : Dev nD) : U15 m c (Proc.devRef .tc main_arg23) = m ((c.tc : Thread nD τ).loc main_arg23) :=
  (ops14_keep _ main_arg23 (by decide)).trans (G14_arg23 m c)

theorem G16_arg23 (c : Dev nD) : U16 m c (Proc.devRef .tc main_arg23) = m ((c.tc : Thread nD τ).loc main_arg23) :=
  (ops15_keep _ main_arg23 (by decide) (by decide)).trans (G15_arg23 m c)

theorem G17_arg23 (c : Dev nD) : U17 m c (Proc.devRef .tc main_arg23) = m ((c.tc : Thread nD τ).loc main_arg23) :=
  (ops16_keep _ main_arg23 (by decide)).trans (G16_arg23 m c)

theorem G18_arg23 (c : Dev nD) : U18 m c (Proc.devRef .tc main_arg23) = m ((c.tc : Thread nD τ).loc main_arg23) :=
  (ops17_keep _ main_arg23 (by decide)).trans (G17_arg23 m c)

theorem G19_arg23 (c : Dev nD) : U19 m c (Proc.devRef .tc main_arg23) = m ((c.tc : Thread nD τ).loc main_arg23) :=
  (ops18_keep _ main_arg23 (by decide)).trans (G18_arg23 m c)

theorem G20_arg23 (c : Dev nD) : U20 m c (Proc.devRef .tc main_arg23) = m ((c.tc : Thread nD τ).loc main_arg23) :=
  (ops19_keep _ main_arg23 (by decide)).trans (G19_arg23 m c)

theorem G21_arg23 (c : Dev nD) : U21 m c (Proc.devRef .tc main_arg23) = m ((c.tc : Thread nD τ).loc main_arg23) :=
  (ops20_keep _ main_arg23 (by decide)).trans (G20_arg23 m c)

theorem G13_arg24 (c : Dev nD) : U13 m c (Proc.devRef .tc main_arg24) = m ((c.tc : Thread nD τ).loc main_arg24) :=
  (ops12_keep _ main_arg24 (by decide)).trans (G12_arg24 m c)

theorem G14_arg24 (c : Dev nD) : U14 m c (Proc.devRef .tc main_arg24) = m ((c.tc : Thread nD τ).loc main_arg24) :=
  (ops13_keep _ main_arg24 (by decide) (by decide)).trans (G13_arg24 m c)

theorem G15_arg24 (c : Dev nD) : U15 m c (Proc.devRef .tc main_arg24) = m ((c.tc : Thread nD τ).loc main_arg24) :=
  (ops14_keep _ main_arg24 (by decide)).trans (G14_arg24 m c)

theorem G16_arg24 (c : Dev nD) : U16 m c (Proc.devRef .tc main_arg24) = m ((c.tc : Thread nD τ).loc main_arg24) :=
  (ops15_keep _ main_arg24 (by decide) (by decide)).trans (G15_arg24 m c)

theorem G17_arg24 (c : Dev nD) : U17 m c (Proc.devRef .tc main_arg24) = m ((c.tc : Thread nD τ).loc main_arg24) :=
  (ops16_keep _ main_arg24 (by decide)).trans (G16_arg24 m c)

theorem G18_arg24 (c : Dev nD) : U18 m c (Proc.devRef .tc main_arg24) = m ((c.tc : Thread nD τ).loc main_arg24) :=
  (ops17_keep _ main_arg24 (by decide)).trans (G17_arg24 m c)

theorem G19_arg24 (c : Dev nD) : U19 m c (Proc.devRef .tc main_arg24) = m ((c.tc : Thread nD τ).loc main_arg24) :=
  (ops18_keep _ main_arg24 (by decide)).trans (G18_arg24 m c)

theorem G20_arg24 (c : Dev nD) : U20 m c (Proc.devRef .tc main_arg24) = m ((c.tc : Thread nD τ).loc main_arg24) :=
  (ops19_keep _ main_arg24 (by decide)).trans (G19_arg24 m c)

theorem G21_arg24 (c : Dev nD) : U21 m c (Proc.devRef .tc main_arg24) = m ((c.tc : Thread nD τ).loc main_arg24) :=
  (ops20_keep _ main_arg24 (by decide)).trans (G20_arg24 m c)

theorem G19_arg25 (c : Dev nD) : U19 m c (Proc.devRef .tc main_arg25) = m ((c.tc : Thread nD τ).loc main_arg25) :=
  (ops18_keep _ main_arg25 (by decide)).trans (G18_arg25 m c)

theorem G20_arg25 (c : Dev nD) : U20 m c (Proc.devRef .tc main_arg25) = m ((c.tc : Thread nD τ).loc main_arg25) :=
  (ops19_keep _ main_arg25 (by decide)).trans (G19_arg25 m c)

theorem G21_arg25 (c : Dev nD) : U21 m c (Proc.devRef .tc main_arg25) = m ((c.tc : Thread nD τ).loc main_arg25) :=
  (ops20_keep _ main_arg25 (by decide)).trans (G20_arg25 m c)

theorem G19_arg26 (c : Dev nD) : U19 m c (Proc.devRef .tc main_arg26) = m ((c.tc : Thread nD τ).loc main_arg26) :=
  (ops18_keep _ main_arg26 (by decide)).trans (G18_arg26 m c)

theorem G20_arg26 (c : Dev nD) : U20 m c (Proc.devRef .tc main_arg26) = m ((c.tc : Thread nD τ).loc main_arg26) :=
  (ops19_keep _ main_arg26 (by decide)).trans (G19_arg26 m c)

theorem G21_arg26 (c : Dev nD) : U21 m c (Proc.devRef .tc main_arg26) = m ((c.tc : Thread nD τ).loc main_arg26) :=
  (ops20_keep _ main_arg26 (by decide)).trans (G20_arg26 m c)

theorem G19_arg27 (c : Dev nD) : U19 m c (Proc.devRef .tc main_arg27) = m ((c.tc : Thread nD τ).loc main_arg27) :=
  (ops18_keep _ main_arg27 (by decide)).trans (G18_arg27 m c)

theorem G20_arg27 (c : Dev nD) : U20 m c (Proc.devRef .tc main_arg27) = m ((c.tc : Thread nD τ).loc main_arg27) :=
  (ops19_keep _ main_arg27 (by decide)).trans (G19_arg27 m c)

theorem G21_arg27 (c : Dev nD) : U21 m c (Proc.devRef .tc main_arg27) = m ((c.tc : Thread nD τ).loc main_arg27) :=
  (ops20_keep _ main_arg27 (by decide)).trans (G20_arg27 m c)

theorem G19_arg28 (c : Dev nD) : U19 m c (Proc.devRef .tc main_arg28) = m ((c.tc : Thread nD τ).loc main_arg28) :=
  (ops18_keep _ main_arg28 (by decide)).trans (G18_arg28 m c)

theorem G20_arg28 (c : Dev nD) : U20 m c (Proc.devRef .tc main_arg28) = m ((c.tc : Thread nD τ).loc main_arg28) :=
  (ops19_keep _ main_arg28 (by decide)).trans (G19_arg28 m c)

theorem G21_arg28 (c : Dev nD) : U21 m c (Proc.devRef .tc main_arg28) = m ((c.tc : Thread nD τ).loc main_arg28) :=
  (ops20_keep _ main_arg28 (by decide)).trans (G20_arg28 m c)

theorem G21_arg29 (c : Dev nD) : U21 m c (Proc.devRef .tc main_arg29) = m ((c.tc : Thread nD τ).loc main_arg29) :=
  (ops20_keep _ main_arg29 (by decide)).trans (G20_arg29 m c)

theorem G21_arg30 (c : Dev nD) : U21 m c (Proc.devRef .tc main_arg30) = m ((c.tc : Thread nD τ).loc main_arg30) :=
  (ops20_keep _ main_arg30 (by decide)).trans (G20_arg30 m c)

theorem G21_arg31 (c : Dev nD) : U21 m c (Proc.devRef .tc main_arg31) = m ((c.tc : Thread nD τ).loc main_arg31) :=
  (ops20_keep _ main_arg31 (by decide)).trans (G20_arg31 m c)

theorem G21_arg32 (c : Dev nD) : U21 m c (Proc.devRef .tc main_arg32) = m ((c.tc : Thread nD τ).loc main_arg32) :=
  (ops20_keep _ main_arg32 (by decide)).trans (G20_arg32 m c)

/-- On every device, from any memory with zero counters: every weakly fair execution of the reference's @main terminates
    with the result buffer at the reference's last stage of the argument arrays and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v377) = Cert.ReferenceIdeal.Stages.val_main_v377 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32) :=
  (θ_run defs _ _).mono (fun _ h c => ⟨(h c main_v377).trans ((congrFun (after_ops _) _).trans (G21_v377 m c)),
      (h c main_arg0).trans ((congrFun (after_ops _) _).trans (G21_arg0 m c)),
      (h c main_arg1).trans ((congrFun (after_ops _) _).trans (G21_arg1 m c)),
      (h c main_arg2).trans ((congrFun (after_ops _) _).trans (G21_arg2 m c)),
      (h c main_arg3).trans ((congrFun (after_ops _) _).trans (G21_arg3 m c)),
      (h c main_arg4).trans ((congrFun (after_ops _) _).trans (G21_arg4 m c)),
      (h c main_arg5).trans ((congrFun (after_ops _) _).trans (G21_arg5 m c)),
      (h c main_arg6).trans ((congrFun (after_ops _) _).trans (G21_arg6 m c)),
      (h c main_arg7).trans ((congrFun (after_ops _) _).trans (G21_arg7 m c)),
      (h c main_arg8).trans ((congrFun (after_ops _) _).trans (G21_arg8 m c)),
      (h c main_arg9).trans ((congrFun (after_ops _) _).trans (G21_arg9 m c)),
      (h c main_arg10).trans ((congrFun (after_ops _) _).trans (G21_arg10 m c)),
      (h c main_arg11).trans ((congrFun (after_ops _) _).trans (G21_arg11 m c)),
      (h c main_arg12).trans ((congrFun (after_ops _) _).trans (G21_arg12 m c)),
      (h c main_arg13).trans ((congrFun (after_ops _) _).trans (G21_arg13 m c)),
      (h c main_arg14).trans ((congrFun (after_ops _) _).trans (G21_arg14 m c)),
      (h c main_arg15).trans ((congrFun (after_ops _) _).trans (G21_arg15 m c)),
      (h c main_arg16).trans ((congrFun (after_ops _) _).trans (G21_arg16 m c)),
      (h c main_arg17).trans ((congrFun (after_ops _) _).trans (G21_arg17 m c)),
      (h c main_arg18).trans ((congrFun (after_ops _) _).trans (G21_arg18 m c)),
      (h c main_arg19).trans ((congrFun (after_ops _) _).trans (G21_arg19 m c)),
      (h c main_arg20).trans ((congrFun (after_ops _) _).trans (G21_arg20 m c)),
      (h c main_arg21).trans ((congrFun (after_ops _) _).trans (G21_arg21 m c)),
      (h c main_arg22).trans ((congrFun (after_ops _) _).trans (G21_arg22 m c)),
      (h c main_arg23).trans ((congrFun (after_ops _) _).trans (G21_arg23 m c)),
      (h c main_arg24).trans ((congrFun (after_ops _) _).trans (G21_arg24 m c)),
      (h c main_arg25).trans ((congrFun (after_ops _) _).trans (G21_arg25 m c)),
      (h c main_arg26).trans ((congrFun (after_ops _) _).trans (G21_arg26 m c)),
      (h c main_arg27).trans ((congrFun (after_ops _) _).trans (G21_arg27 m c)),
      (h c main_arg28).trans ((congrFun (after_ops _) _).trans (G21_arg28 m c)),
      (h c main_arg29).trans ((congrFun (after_ops _) _).trans (G21_arg29 m c)),
      (h c main_arg30).trans ((congrFun (after_ops _) _).trans (G21_arg30 m c)),
      (h c main_arg31).trans ((congrFun (after_ops _) _).trans (G21_arg31 m c)),
      (h c main_arg32).trans ((congrFun (after_ops _) _).trans (G21_arg32 m c))⟩)
    (run_seq scopedRefs_eq scopedSems_eq defs main (fun _ => ops) main_eq (fun _ => ops_sub) m ρ (fun _ => ops_fresh))

end Cert.ReferenceIdeal.RefRun

end
-- ==== Proof.KRun.lean ====
/-
  The idealized kernel program's run with its result named.

  @main is seventeen segments: host lines and nine kernel regions in turn.  Each segment takes the contents of every
  buffer at its entry to their contents at its exit, and the last contents, read at the result buffer, are the
  program's result; the argument arrays are read back unchanged through all seventeen.  The run below is the launch over
  those segments, with the final state read at the result buffer as well as at the arguments.
-/
import proofs.«112516_j88167088653030_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last segment's
    exit contents and every argument array as launched. -/
theorem run_value : θ_run defs (onTc (τ := τ) (main (F := F))) ⟨m, fun _ => 0, ρ⟩ (fun r => ∀ c : Dev nD,
      r.2.mem ((c.tc : Thread nD τ).loc main_v223) = W17 m ρ c (Proc.devRef .tc main_v223)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v223 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c),
       (h c _ (mem_uc main_arg24 (by decide))).trans (W17_main_arg24 m ρ c),
       (h c _ (mem_uc main_arg25 (by decide))).trans (W17_main_arg25 m ρ c),
       (h c _ (mem_uc main_arg26 (by decide))).trans (W17_main_arg26 m ρ c),
       (h c _ (mem_uc main_arg27 (by decide))).trans (W17_main_arg27 m ρ c),
       (h c _ (mem_uc main_arg28 (by decide))).trans (W17_main_arg28 m ρ c),
       (h c _ (mem_uc main_arg29 (by decide))).trans (W17_main_arg29 m ρ c),
       (h c _ (mem_uc main_arg30 (by decide))).trans (W17_main_arg30 m ρ c),
       (h c _ (mem_uc main_arg31 (by decide))).trans (W17_main_arg31 m ρ c),
       (h c _ (mem_uc main_arg32 (by decide))).trans (W17_main_arg32 m ρ c)⟩)

end Cert.KernelIdeal.RunValue

end
-- ==== Proof.LibLayer.lean ====
/-
  The layer's mathematics over the extended reals, one row at a time.

  A dense layer takes a row x of k numbers to the d numbers  (∑ q, x q · W q c) + b c ; the gated unit is
  silu y = y · (1 / (1 + e^(−y))). Each of the program's four two-layer perceptrons is a function of ONE row of
  its input matrix: an edge's message and positional message are functions of that edge's state rows, a node's
  update and positional update of that node's rows. So a tile of rows computed by itself is the same rows of the
  whole matrix computed at once — nothing else joins the two programs, and no law of arithmetic beyond
  reading each sum where it is written is used.
-/
import Idealize.ShloMosaic.PureOps.Ideal
import Idealize.ShloMosaic.Lib.ValueIdx

noncomputable section

open scoped BigOperators

namespace Cert.Layer

open Idealize.ShloMosaic Idealize.ShloMosaic.ValueIdx

variable {k h d : ℕ}

/-- One output of a dense layer on a row: the row against a column of the weights, plus the bias. -/
def lin (x : Fin k → EReal) (W : Fin k → Fin d → EReal) (b : Fin d → EReal) (c : Fin d) : EReal :=
  (∑ q : Fin k, x q * W q c) + b c

/-- The gated unit y · σ(y), σ the logistic function. -/
def silu (y : EReal) : EReal := y * Ideal.logistic y

/-- Two dense layers on a row with activations `f` after the first and `g` after the second. -/
def mlp (f g : EReal → EReal) (x : Fin k → EReal) (W₁ : Fin k → Fin h → EReal) (b₁ : Fin h → EReal)
    (W₂ : Fin h → Fin d → EReal) (b₂ : Fin d → EReal) (c : Fin d) : EReal :=
  g (lin (fun j => f (lin x W₁ b₁ j)) W₂ b₂ c)

/-- Row `p` of an [n, k] array. -/
def rows {n : ℕ} (X : (⟨2, ![n, k]⟩ : Shape).Idx → EReal) (p : Fin n) : Fin k → EReal := fun q => X (ix2 p q)

/-- A [k, d] array as a matrix of numbers. -/
def mat (W : (⟨2, ![k, d]⟩ : Shape).Idx → EReal) : Fin k → Fin d → EReal := fun q j => W (ix2 q j)

/-- A length-d array as a vector of numbers. -/
def vec (b : (⟨1, ![d]⟩ : Shape).Idx → EReal) : Fin d → EReal := fun j => b (ix1 j)

end Cert.Layer

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«112516_j88167088653030_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.LibDenseLayers.lean ====
/-
  Dense layers of a tile of rows, read at an entry, over the extended reals.

  Over the extended reals a matrix-unit product into the zero accumulator is the plain sum of products, and a bias — a
  length-d array cast to one row and that row repeated over all rows — reads the same number in every row. So one dense
  layer of an [n, k] tile, at entry (p, c), is  (∑ q, X (p, q) · W (q, c)) + b c : the layer's value on row p alone
  (`dense_apply`, with `bias_apply` for the repeated row); and two such layers with an entrywise function after each are
  the two-layer perceptron of row p (`mlp_apply`: the second layer's input is given entry by entry as f of the first
  layer's output, so a narrowing of the float format in between, the identity here, is absorbed by `rfl`). Stated for any
  number of rows and any inner sizes, over any printed dimension-number records equal to the plain ones; the vocabulary
  (lin, mlp, rows, mat, vec) is LibLayer's.
-/
import proofs.«112516_j88167088653030_2_alg».proof.Proof.LibLayer
import proofs.«112516_j88167088653030_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibDenseLayers

open Cert.Layer
open Idealize.ShloMosaic Idealize.ShloMosaic.ValueIdx

/-! ## One dense layer and two in a row, for any number of rows -/

variable {n k h d : ℕ}

/-- A length-d bias cast to one row and that row repeated over n rows reads, at (p, c), the bias at c. -/
theorem bias_apply (b : (⟨1, ![d]⟩ : Shape).Idx → EReal)
    (h₁ : (⟨1, ![d]⟩ : Shape).ShapeCasts ⟨2, ![1, d]⟩) (h₂ : (⟨2, ![1, d]⟩ : Shape).Broadcasts ⟨2, ![n, d]⟩)
    (p : Fin n) (c : Fin d) :
    broadcastTo ⟨2, ![n, d]⟩ (shapeCast ⟨2, ![1, d]⟩ b h₁) h₂ (ix2 p c) = b (ix1 c) :=
  (broadcastTo_1b_ab_apply _ h₂ p c).trans (shapeCast_a_1a_apply b h₁ 0 c)

/-- One dense layer — a plain product into the zero accumulator, plus the repeated bias row — at (p, c) is the
    layer's value on row p of its input. -/
theorem dense_apply {φ₁ φ₂ : FTy} (D : DotDims ⟨2, ![n, k]⟩ ⟨2, ![k, d]⟩ ⟨2, ![n, d]⟩) (hD : D = DotDims.plain n k d)
    (prec : Option ContractPrecision)
    (X : FVec Ideal ⟨2, ![n, k]⟩ φ₁) (W : FVec Ideal ⟨2, ![k, d]⟩ φ₂) (b : FVec Ideal ⟨1, ![d]⟩ .f32)
    (h₁ : (⟨1, ![d]⟩ : Shape).ShapeCasts ⟨2, ![1, d]⟩) (h₂ : (⟨2, ![1, d]⟩ : Shape).Broadcasts ⟨2, ![n, d]⟩)
    (p : Fin n) (c : Fin d) :
    addf (matmul D prec X W (constant (F := Ideal) ⟨2, ![n, d]⟩ .f32 0x00000000#32))
        (broadcastTo ⟨2, ![n, d]⟩ (shapeCast ⟨2, ![1, d]⟩ b h₁) h₂) (ix2 p c)
      = lin (rows X p) (mat W) (vec b) c := by
  rw [addf_apply, bias_apply]
  exact congrArg (· + b (ix1 c)) (Cert.LibPlainDot.matmul_zero_apply D hD prec X W p c)

/-- Two dense layers in a row: when the second layer's input Y is, entry by entry, f of the first layer's output,
    g of the second layer's output at (p, c) is the two-layer perceptron of row p. -/
theorem mlp_apply {φ₁ φ₂ φ₃ φ₄ : FTy} (f g : EReal → EReal)
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (prec₁ prec₂ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).ShapeCasts ⟨2, ![1, h]⟩) (a₂ : (⟨2, ![1, h]⟩ : Shape).Broadcasts ⟨2, ![n, h]⟩)
    (Y : FVec Ideal ⟨2, ![n, h]⟩ φ₃)
    (hY : ∀ p q, Y (ix2 p q) = f (addf (matmul D₁ prec₁ X W₁ (constant (F := Ideal) ⟨2, ![n, h]⟩ .f32 0x00000000#32))
        (broadcastTo ⟨2, ![n, h]⟩ (shapeCast ⟨2, ![1, h]⟩ b₁ a₁) a₂) (ix2 p q)))
    (W₂ : FVec Ideal ⟨2, ![h, d]⟩ φ₄) (b₂ : FVec Ideal ⟨1, ![d]⟩ .f32)
    (c₁ : (⟨1, ![d]⟩ : Shape).ShapeCasts ⟨2, ![1, d]⟩) (c₂ : (⟨2, ![1, d]⟩ : Shape).Broadcasts ⟨2, ![n, d]⟩)
    (p : Fin n) (c : Fin d) :
    g (addf (matmul D₂ prec₂ Y W₂ (constant (F := Ideal) ⟨2, ![n, d]⟩ .f32 0x00000000#32))
        (broadcastTo ⟨2, ![n, d]⟩ (shapeCast ⟨2, ![1, d]⟩ b₂ c₁) c₂) (ix2 p c))
      = mlp f g (rows X p) (mat W₁) (vec b₁) (mat W₂) (vec b₂) c := by
  rw [dense_apply D₂ hD₂]
  unfold mlp
  refine congrArg (fun x => g (lin x (mat W₂) (vec b₂) c)) (funext fun q => ?_)
  exact (hY p q).trans (congrArg f (dense_apply D₁ hD₁ prec₁ X W₁ b₁ a₁ a₂ p q))

end Cert.LibDenseLayers

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.Rowwise.lean ====
/-
  Row-wise vocabulary shared by the kernel's regions and the reference's host lines.

  Every dense stretch of this network — the two embedders, an edge's message with its gate, a node's two updates, the node
  decoder and the pooled head — is a function of ONE row of each of its row-indexed inputs and of the whole weight arrays.
  So a tile of rows computed by itself holds the same numbers as those rows of the whole array computed at once, and the
  two programs differ only in where each sum is written.  Here: the rectifier with the programs' zero word, and a dense
  layer as the host writes it (a dot_general, plus the bias broadcast to one row and that row to every row) read at an
  entry: the same row-wise value `lin` the kernel's matrix-unit product plus its repeated bias row has.
-/
import proofs.«112516_j88167088653030_2_alg».proof.Proof.LibLayer
import proofs.«112516_j88167088653030_2_alg».proof.Proof.LibPlainDot
import proofs.«112516_j88167088653030_2_alg».proof.Proof.LibDenseLayers
import proofs.«112516_j88167088653030_2_alg».proof.Proof.LibConsts
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

open scoped BigOperators

namespace Cert.Rowwise

open Cert.Layer Cert.LibDenseLayers
open Idealize.ShloMosaic Idealize.ShloMosaic.ValueIdx

/-- The rectifier as both programs spell it: the larger of y and the number the all-zero f32 word denotes. -/
def relu (y : EReal) : EReal := max y (Ideal.ofBits .f32 0x00000000#32)

variable {n k h d : ℕ}

/-- The kernel's rectifier (a maximum with the splat of the zero word) at an entry. -/
theorem kRelu_apply {s : Shape} (Y : FVec Ideal s .f32) (i : s.Idx) :
    maximumf Y (broadcast s (Scalar.ofBits (F := Ideal) .f32 0x00000000#32)) i = relu (Y i) := rfl

/-- The host's rectifier (a maximum with the zero constant broadcast to the shape) at an entry. -/
theorem hRelu_apply {s : Shape} (Y : FVec Ideal s .f32) (hb : (⟨0, ![]⟩ : Shape).BroadcastsInDim s ![]) (i : s.Idx) :
    maximumf Y (broadcastInDim s ![] hb (constant (F := Ideal) ⟨0, ![]⟩ .f32 0x00000000#32)) i = relu (Y i) := rfl

/-- On the host a length-d bias is broadcast to one row and that row to n rows; at (p, c) it reads the bias at c. -/
theorem hostBias_apply (b : (⟨1, ![d]⟩ : Shape).Idx → EReal)
    (h₁ : (⟨1, ![d]⟩ : Shape).BroadcastsInDim ⟨2, ![1, d]⟩ ![1])
    (h₂ : (⟨2, ![1, d]⟩ : Shape).BroadcastsInDim ⟨2, ![n, d]⟩ ![0, 1])
    (p : Fin n) (c : Fin d) :
    broadcastInDim ⟨2, ![n, d]⟩ ![0, 1] h₂ (broadcastInDim ⟨2, ![1, d]⟩ ![1] h₁ b) (ix2 p c) = b (ix1 c) := by
  rw [broadcastInDim_oneRow_apply]
  refine broadcastInDim_apply ![1] h₁ b (ix2 (0 : Fin 1) c) (ix1 c) fun a => ?_
  match a with
  | ⟨0, _⟩ =>
    show c.val = if d = 1 then 0 else c.val
    split
    · have := c.isLt; omega
    · rfl

/-- One dense layer as the host writes it, at (p, c): the layer's value on row p of its input. -/
theorem hostDense_apply {φ₁ φ₂ : FTy} (D : DotDims ⟨2, ![n, k]⟩ ⟨2, ![k, d]⟩ ⟨2, ![n, d]⟩) (hD : D = DotDims.plain n k d)
    (prec : Option ContractPrecision)
    (X : FVec Ideal ⟨2, ![n, k]⟩ φ₁) (W : FVec Ideal ⟨2, ![k, d]⟩ φ₂) (b : FVec Ideal ⟨1, ![d]⟩ .f32)
    (h₁ : (⟨1, ![d]⟩ : Shape).BroadcastsInDim ⟨2, ![1, d]⟩ ![1])
    (h₂ : (⟨2, ![1, d]⟩ : Shape).BroadcastsInDim ⟨2, ![n, d]⟩ ![0, 1])
    (p : Fin n) (c : Fin d) :
    addf (Host.dotGeneral D prec X W) (broadcastInDim ⟨2, ![n, d]⟩ ![0, 1] h₂ (broadcastInDim ⟨2, ![1, d]⟩ ![1] h₁ b)) (ix2 p c)
      = lin (rows X p) (mat W) (vec b) c := by
  rw [addf_apply, hostBias_apply]
  exact congrArg (· + b (ix1 c)) (Cert.LibPlainDot.dotGeneral_apply D hD prec _ X W p c)

/-- Two dense layers as the host writes them, the rectifier (a maximum with the broadcast zero constant) between them, and any
    entrywise function g after the second: at (p, c), the two-layer perceptron of row p. -/
theorem hostMlp_apply {φ₁ φ₂ φ₄ : FTy} (g : EReal → EReal)
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (prec₁ prec₂ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).BroadcastsInDim ⟨2, ![1, h]⟩ ![1]) (a₂ : (⟨2, ![1, h]⟩ : Shape).BroadcastsInDim ⟨2, ![n, h]⟩ ![0, 1])
    (z : (⟨0, ![]⟩ : Shape).BroadcastsInDim ⟨2, ![n, h]⟩ ![])
    (W₂ : FVec Ideal ⟨2, ![h, d]⟩ φ₄) (b₂ : FVec Ideal ⟨1, ![d]⟩ .f32)
    (c₁ : (⟨1, ![d]⟩ : Shape).BroadcastsInDim ⟨2, ![1, d]⟩ ![1]) (c₂ : (⟨2, ![1, d]⟩ : Shape).BroadcastsInDim ⟨2, ![n, d]⟩ ![0, 1])
    (p : Fin n) (c : Fin d) :
    g (addf (Host.dotGeneral D₂ prec₂
          (maximumf (addf (Host.dotGeneral D₁ prec₁ X W₁) (broadcastInDim ⟨2, ![n, h]⟩ ![0, 1] a₂ (broadcastInDim ⟨2, ![1, h]⟩ ![1] a₁ b₁)))
            (broadcastInDim ⟨2, ![n, h]⟩ ![] z (constant (F := Ideal) ⟨0, ![]⟩ .f32 0x00000000#32))) W₂)
        (broadcastInDim ⟨2, ![n, d]⟩ ![0, 1] c₂ (broadcastInDim ⟨2, ![1, d]⟩ ![1] c₁ b₂)) (ix2 p c))
      = mlp relu g (rows X p) (mat W₁) (vec b₁) (mat W₂) (vec b₂) c := by
  rw [hostDense_apply D₂ hD₂]
  unfold mlp
  refine congrArg (fun x => g (lin x (mat W₂) (vec b₂) c)) (funext fun q => ?_)
  show relu (addf (Host.dotGeneral D₁ prec₁ X W₁) (broadcastInDim ⟨2, ![n, h]⟩ ![0, 1] a₂ (broadcastInDim ⟨2, ![1, h]⟩ ![1] a₁ b₁)) (ix2 p q))
    = relu (lin (rows X p) (mat W₁) (vec b₁) q)
  rw [hostDense_apply D₁ hD₁]

/-- A dense layer applied to every row of an [n, k] array: entry (p, c) is the layer's value on row p. -/
def linRows (X : (⟨2, ![n, k]⟩ : Shape).Idx → EReal) (W : (⟨2, ![k, d]⟩ : Shape).Idx → EReal)
    (b : (⟨1, ![d]⟩ : Shape).Idx → EReal) : (⟨2, ![n, d]⟩ : Shape).Idx → EReal :=
  fun i => lin (rows X (i 0)) (mat W) (vec b) (i 1)

/-- Two dense layers with the rectifier between them applied to every row of an [n, k] array. -/
def mlpRows (X : (⟨2, ![n, k]⟩ : Shape).Idx → EReal) (W₁ : (⟨2, ![k, h]⟩ : Shape).Idx → EReal)
    (b₁ : (⟨1, ![h]⟩ : Shape).Idx → EReal) (W₂ : (⟨2, ![h, d]⟩ : Shape).Idx → EReal)
    (b₂ : (⟨1, ![d]⟩ : Shape).Idx → EReal) : (⟨2, ![n, d]⟩ : Shape).Idx → EReal :=
  fun i => mlp relu id (rows X (i 0)) (mat W₁) (vec b₁) (mat W₂) (vec b₂) (i 1)

/-! ## The gated message -/

/-- An edge's message from its concatenated row x: two dense layers with the rectifier after each give m; the gate is
    the logistic function of one more dense layer of m onto a single number; the message is m times the gate. -/
def msgRow (x : Fin k → EReal) (W₁ : Fin k → Fin h → EReal) (b₁ : Fin h → EReal) (W₂ : Fin h → Fin d → EReal)
    (b₂ : Fin d → EReal) (g : Fin d → Fin 1 → EReal) (gb : Fin 1 → EReal) (c : Fin d) : EReal :=
  mlp relu relu x W₁ b₁ W₂ b₂ c * Ideal.logistic (lin (fun j => mlp relu relu x W₁ b₁ W₂ b₂ j) g gb 0)

/-- The gated message of every row of an [n, k] array. -/
def msgRows (X : (⟨2, ![n, k]⟩ : Shape).Idx → EReal) (W₁ : (⟨2, ![k, h]⟩ : Shape).Idx → EReal)
    (b₁ : (⟨1, ![h]⟩ : Shape).Idx → EReal) (W₂ : (⟨2, ![h, d]⟩ : Shape).Idx → EReal) (b₂ : (⟨1, ![d]⟩ : Shape).Idx → EReal)
    (g : (⟨2, ![d, 1]⟩ : Shape).Idx → EReal) (gb : (⟨1, ![1]⟩ : Shape).Idx → EReal) : (⟨2, ![n, d]⟩ : Shape).Idx → EReal :=
  fun i => msgRow (rows X (i 0)) (mat W₁) (vec b₁) (mat W₂) (vec b₂) (mat g) (vec gb) (i 1)

/-- A column [n, 1] repeated along d columns reads, at (p, c), the column at (p, 0). -/
theorem colBroadcast_apply {α : Type} (v : (⟨2, ![n, 1]⟩ : Shape).Idx → α) (hb : (⟨2, ![n, 1]⟩ : Shape).Broadcasts ⟨2, ![n, d]⟩)
    (p : Fin n) (c : Fin d) : broadcastTo ⟨2, ![n, d]⟩ v hb (ix2 p c) = v (ix2 p (0 : Fin 1)) := by
  refine broadcastTo_apply v hb (ix2 p c) (ix2 p (0 : Fin 1)) fun ax => ?_
  match ax with
  | ⟨0, _⟩ =>
    show p.val = if n = 1 then 0 else p.val
    split
    · have := p.isLt; omega
    · rfl
  | ⟨1, _⟩ => rfl

/-- The same on the host: a column [n, 1] broadcast along axes [0, 1] to [n, d]. -/
theorem hostColBroadcast_apply {α : Type} (v : (⟨2, ![n, 1]⟩ : Shape).Idx → α)
    (hb : (⟨2, ![n, 1]⟩ : Shape).BroadcastsInDim ⟨2, ![n, d]⟩ ![0, 1]) (p : Fin n) (c : Fin d) :
    broadcastInDim ⟨2, ![n, d]⟩ ![0, 1] hb v (ix2 p c) = v (ix2 p (0 : Fin 1)) := by
  refine broadcastInDim_apply ![0, 1] hb v (ix2 p c) (ix2 p (0 : Fin 1)) fun ax => ?_
  match ax with
  | ⟨0, _⟩ =>
    show p.val = if n = 1 then 0 else p.val
    split
    · have := p.isLt; omega
    · rfl
  | ⟨1, _⟩ => rfl

/-- The kernel's gated message at (p, c): M the twice-rectified two-layer value (given entry by entry through its first
    layer's rectified value Y), G the matrix-unit product of M with the gate column into zero, the gate bias a one-entry
    array cast to [1, 1] and repeated down the rows. -/
theorem kMsg_apply {φ₁ φ₂ φ₃ φ₄ φ₅ : FTy}
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (D₃ : DotDims ⟨2, ![n, d]⟩ ⟨2, ![d, 1]⟩ ⟨2, ![n, 1]⟩) (hD₃ : D₃ = DotDims.plain n d 1)
    (prec₁ prec₂ prec₃ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).ShapeCasts ⟨2, ![1, h]⟩) (a₂ : (⟨2, ![1, h]⟩ : Shape).Broadcasts ⟨2, ![n, h]⟩)
    (Y : FVec Ideal ⟨2, ![n, h]⟩ φ₃)
    (hY : ∀ p q, Y (ix2 p q) = relu (addf (matmul D₁ prec₁ X W₁ (constant (F := Ideal) ⟨2, ![n, h]⟩ .f32 0x00000000#32))
        (broadcastTo ⟨2, ![n, h]⟩ (shapeCast ⟨2, ![1, h]⟩ b₁ a₁) a₂) (ix2 p q)))
    (W₂ : FVec Ideal ⟨2, ![h, d]⟩ φ₄) (b₂ : FVec Ideal ⟨1, ![d]⟩ .f32)
    (c₁ : (⟨1, ![d]⟩ : Shape).ShapeCasts ⟨2, ![1, d]⟩) (c₂ : (⟨2, ![1, d]⟩ : Shape).Broadcasts ⟨2, ![n, d]⟩)
    (M : FVec Ideal ⟨2, ![n, d]⟩ .f32)
    (hM : ∀ p q, M (ix2 p q) = relu (addf (matmul D₂ prec₂ Y W₂ (constant (F := Ideal) ⟨2, ![n, d]⟩ .f32 0x00000000#32))
        (broadcastTo ⟨2, ![n, d]⟩ (shapeCast ⟨2, ![1, d]⟩ b₂ c₁) c₂) (ix2 p q)))
    (g : FVec Ideal ⟨2, ![d, 1]⟩ φ₅) (G : FVec Ideal ⟨2, ![n, 1]⟩ .f32)
    (hG : ∀ p, G (ix2 p (0 : Fin 1)) = matmul D₃ prec₃ M g (constant (F := Ideal) ⟨2, ![n, 1]⟩ .f32 0x00000000#32) (ix2 p (0 : Fin 1)))
    (gb : FVec Ideal ⟨1, ![1]⟩ .f32)
    (e₁ : (⟨1, ![1]⟩ : Shape).ShapeCasts ⟨2, ![1, 1]⟩) (e₂ : (⟨2, ![1, 1]⟩ : Shape).Broadcasts ⟨2, ![n, 1]⟩)
    (e₃ : (⟨2, ![n, 1]⟩ : Shape).Broadcasts ⟨2, ![n, d]⟩) (p : Fin n) (c : Fin d) :
    mulf M (broadcastTo ⟨2, ![n, d]⟩ (logistic (addf G (broadcastTo ⟨2, ![n, 1]⟩ (shapeCast ⟨2, ![1, 1]⟩ gb e₁) e₂))) e₃) (ix2 p c)
      = msgRow (rows X p) (mat W₁) (vec b₁) (mat W₂) (vec b₂) (mat g) (vec gb) c := by
  have hMrow : ∀ q, M (ix2 p q) = mlp relu relu (rows X p) (mat W₁) (vec b₁) (mat W₂) (vec b₂) q := fun q =>
    (hM p q).trans (mlp_apply relu relu D₁ hD₁ D₂ hD₂ prec₁ prec₂ X W₁ b₁ a₁ a₂ Y hY W₂ b₂ c₁ c₂ p q)
  rw [mulf_apply, colBroadcast_apply]
  show M (ix2 p c) * Ideal.logistic (G (ix2 p (0 : Fin 1)) + broadcastTo ⟨2, ![n, 1]⟩ (shapeCast ⟨2, ![1, 1]⟩ gb e₁) e₂ (ix2 p (0 : Fin 1))) = _
  have hS : matmul D₃ prec₃ M g (constant (F := Ideal) ⟨2, ![n, 1]⟩ .f32 0x00000000#32) (ix2 p (0 : Fin 1))
      = ∑ q : Fin d, M (ix2 p q) * g (ix2 q (0 : Fin 1)) := Cert.LibPlainDot.matmul_zero_apply D₃ hD₃ prec₃ M g p 0
  rw [bias_apply, hG p, hS, hMrow c]
  unfold msgRow lin
  refine congrArg (fun s => _ * Ideal.logistic (s + gb (ix1 0))) (Finset.sum_congr rfl fun q _ => ?_)
  rw [hMrow q]; rfl

/-- The kernel's gated message spelt out in full — the two rectified dense layers, the gate column's product, the one-entry
    bias, the logistic function and the product — at (p, c). -/
theorem kMsg_full {φ₁ φ₂ φ₄ φ₅ : FTy}
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (D₃ : DotDims ⟨2, ![n, d]⟩ ⟨2, ![d, 1]⟩ ⟨2, ![n, 1]⟩) (hD₃ : D₃ = DotDims.plain n d 1)
    (prec₁ prec₂ prec₃ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).ShapeCasts ⟨2, ![1, h]⟩) (a₂ : (⟨2, ![1, h]⟩ : Shape).Broadcasts ⟨2, ![n, h]⟩)
    (W₂ : FVec Ideal ⟨2, ![h, d]⟩ φ₄) (b₂ : FVec Ideal ⟨1, ![d]⟩ .f32)
    (c₁ : (⟨1, ![d]⟩ : Shape).ShapeCasts ⟨2, ![1, d]⟩) (c₂ : (⟨2, ![1, d]⟩ : Shape).Broadcasts ⟨2, ![n, d]⟩)
    (g : FVec Ideal ⟨2, ![d, 1]⟩ φ₅) (gb : FVec Ideal ⟨1, ![1]⟩ .f32)
    (e₁ : (⟨1, ![1]⟩ : Shape).ShapeCasts ⟨2, ![1, 1]⟩) (e₂ : (⟨2, ![1, 1]⟩ : Shape).Broadcasts ⟨2, ![n, 1]⟩)
    (e₃ : (⟨2, ![n, 1]⟩ : Shape).Broadcasts ⟨2, ![n, d]⟩) (p : Fin n) (c : Fin d) :
    mulf
        (maximumf (addf (matmul D₂ prec₂
            (maximumf (addf (matmul D₁ prec₁ X W₁ (constant (F := Ideal) ⟨2, ![n, h]⟩ .f32 0x00000000#32))
                (broadcastTo ⟨2, ![n, h]⟩ (shapeCast ⟨2, ![1, h]⟩ b₁ a₁) a₂))
              (broadcast ⟨2, ![n, h]⟩ (Scalar.ofBits (F := Ideal) .f32 0x00000000#32)))
            W₂ (constant (F := Ideal) ⟨2, ![n, d]⟩ .f32 0x00000000#32))
          (broadcastTo ⟨2, ![n, d]⟩ (shapeCast ⟨2, ![1, d]⟩ b₂ c₁) c₂))
          (broadcast ⟨2, ![n, d]⟩ (Scalar.ofBits (F := Ideal) .f32 0x00000000#32)))
        (broadcastTo ⟨2, ![n, d]⟩ (logistic (addf
          (matmul D₃ prec₃
            (maximumf (addf (matmul D₂ prec₂
                (maximumf (addf (matmul D₁ prec₁ X W₁ (constant (F := Ideal) ⟨2, ![n, h]⟩ .f32 0x00000000#32))
                    (broadcastTo ⟨2, ![n, h]⟩ (shapeCast ⟨2, ![1, h]⟩ b₁ a₁) a₂))
                  (broadcast ⟨2, ![n, h]⟩ (Scalar.ofBits (F := Ideal) .f32 0x00000000#32)))
                W₂ (constant (F := Ideal) ⟨2, ![n, d]⟩ .f32 0x00000000#32))
              (broadcastTo ⟨2, ![n, d]⟩ (shapeCast ⟨2, ![1, d]⟩ b₂ c₁) c₂))
              (broadcast ⟨2, ![n, d]⟩ (Scalar.ofBits (F := Ideal) .f32 0x00000000#32)))
            g (constant (F := Ideal) ⟨2, ![n, 1]⟩ .f32 0x00000000#32))
          (broadcastTo ⟨2, ![n, 1]⟩ (shapeCast ⟨2, ![1, 1]⟩ gb e₁) e₂))) e₃) (ix2 p c)
      = msgRow (rows X p) (mat W₁) (vec b₁) (mat W₂) (vec b₂) (mat g) (vec gb) c :=
  kMsg_apply D₁ hD₁ D₂ hD₂ D₃ hD₃ prec₁ prec₂ prec₃ X W₁ b₁ a₁ a₂ _ (fun _ _ => rfl) W₂ b₂ c₁ c₂ _ (fun _ _ => rfl) g _
    (fun _ => rfl) gb e₁ e₂ e₃ p c

/-- The kernel's two dense layers with the rectifier between them, spelt out in full, at (p, c). -/
theorem kMlp_full {φ₁ φ₂ φ₄ : FTy} (g : EReal → EReal)
    (D₁ : DotDims ⟨2, ![n, k]⟩ ⟨2, ![k, h]⟩ ⟨2, ![n, h]⟩) (hD₁ : D₁ = DotDims.plain n k h)
    (D₂ : DotDims ⟨2, ![n, h]⟩ ⟨2, ![h, d]⟩ ⟨2, ![n, d]⟩) (hD₂ : D₂ = DotDims.plain n h d)
    (prec₁ prec₂ : Option ContractPrecision)
    (X : FVec Ideal ⟨2, ![n, k]⟩ φ₁) (W₁ : FVec Ideal ⟨2, ![k, h]⟩ φ₂) (b₁ : FVec Ideal ⟨1, ![h]⟩ .f32)
    (a₁ : (⟨1, ![h]⟩ : Shape).ShapeCasts ⟨2, ![1, h]⟩) (a₂ : (⟨2, ![1, h]⟩ : Shape).Broadcasts ⟨2, ![n, h]⟩)
    (W₂ : FVec Ideal ⟨2, ![h, d]⟩ φ₄) (b₂ : FVec Ideal ⟨1, ![d]⟩ .f32)
    (c₁ : (⟨1, ![d]⟩ : Shape).ShapeCasts ⟨2, ![1, d]⟩) (c₂ : (⟨2, ![1, d]⟩ : Shape).Broadcasts ⟨2, ![n, d]⟩)
    (p : Fin n) (c : Fin d) :
    g (addf (matmul D₂ prec₂
          (maximumf (addf (matmul D₁ prec₁ X W₁ (constant (F := Ideal) ⟨2, ![n, h]⟩ .f32 0x00000000#32))
              (broadcastTo ⟨2, ![n, h]⟩ (shapeCast ⟨2, ![1, h]⟩ b₁ a₁) a₂))
            (broadcast ⟨2, ![n, h]⟩ (Scalar.ofBits (F := Ideal) .f32 0x00000000#32)))
          W₂ (constant (F := Ideal) ⟨2, ![n, d]⟩ .f32 0x00000000#32))
        (broadcastTo ⟨2, ![n, d]⟩ (shapeCast ⟨2, ![1, d]⟩ b₂ c₁) c₂) (ix2 p c))
      = mlp relu g (rows X p) (mat W₁) (vec b₁) (mat W₂) (vec b₂) c :=
  mlp_apply relu g D₁ hD₁ D₂ hD₂ prec₁ prec₂ X W₁ b₁ a₁ a₂ _ (fun _ _ => rfl) W₂ b₂ c₁ c₂ p c

/-- The host's gated message at (p, c): the same value, the gate spelt 1 / (1 + e^(−y)) with the one word broadcast. -/
theorem hMsgGate_apply (M : FVec Ideal ⟨2, ![n, d]⟩ .f32) (Gb : FVec Ideal ⟨2, ![n, 1]⟩ .f32)
    (o₁ o₂ : (⟨0, ![]⟩ : Shape).BroadcastsInDim ⟨2, ![n, 1]⟩ ![])
    (e₃ : (⟨2, ![n, 1]⟩ : Shape).BroadcastsInDim ⟨2, ![n, d]⟩ ![0, 1]) (p : Fin n) (c : Fin d) :
    mulf M (broadcastInDim ⟨2, ![n, d]⟩ ![0, 1] e₃ (Host.divf (broadcastInDim ⟨2, ![n, 1]⟩ ![] o₁ (constant (F := Ideal) ⟨0, ![]⟩ .f32 0x3F800000#32))
        (addf (broadcastInDim ⟨2, ![n, 1]⟩ ![] o₂ (constant (F := Ideal) ⟨0, ![]⟩ .f32 0x3F800000#32)) (Host.exp (Host.negf Gb))))) (ix2 p c)
      = M (ix2 p c) * Ideal.logistic (Gb (ix2 p (0 : Fin 1))) := by
  rw [mulf_apply, hostColBroadcast_apply]
  show M (ix2 p c) * Ideal.div (Ideal.ofBits .f32 0x3F800000#32) (Ideal.ofBits .f32 0x3F800000#32 + Ideal.exp (-(Gb (ix2 p (0 : Fin 1))))) = _
  rw [Cert.Consts.ofBits_one]
  rfl

/-- The host's gated message at (p, c), from M given row-wise as the twice-rectified two-layer value: the gate's dense
    layer (a dot_general of M with the gate column plus the one-entry bias broadcast to every row), then 1 / (1 + e^(−·)). -/
theorem hostMsg_apply {φ₅ : FTy} (x : Fin k → EReal) (W₁ : Fin k → Fin h → EReal) (b₁ : Fin h → EReal) (W₂ : Fin h → Fin d → EReal)
    (b₂ : Fin d → EReal)
    (D₃ : DotDims ⟨2, ![n, d]⟩ ⟨2, ![d, 1]⟩ ⟨2, ![n, 1]⟩) (hD₃ : D₃ = DotDims.plain n d 1) (prec₃ : Option ContractPrecision)
    (M : FVec Ideal ⟨2, ![n, d]⟩ .f32) (p : Fin n) (hM : ∀ q, M (ix2 p q) = mlp relu relu x W₁ b₁ W₂ b₂ q)
    (g : FVec Ideal ⟨2, ![d, 1]⟩ φ₅) (gb : FVec Ideal ⟨1, ![1]⟩ .f32)
    (u₁ : (⟨1, ![1]⟩ : Shape).BroadcastsInDim ⟨2, ![1, 1]⟩ ![1]) (u₂ : (⟨2, ![1, 1]⟩ : Shape).BroadcastsInDim ⟨2, ![n, 1]⟩ ![0, 1])
    (o₁ o₂ : (⟨0, ![]⟩ : Shape).BroadcastsInDim ⟨2, ![n, 1]⟩ ![])
    (e₃ : (⟨2, ![n, 1]⟩ : Shape).BroadcastsInDim ⟨2, ![n, d]⟩ ![0, 1]) (c : Fin d) :
    mulf M (broadcastInDim ⟨2, ![n, d]⟩ ![0, 1] e₃ (Host.divf (broadcastInDim ⟨2, ![n, 1]⟩ ![] o₁ (constant (F := Ideal) ⟨0, ![]⟩ .f32 0x3F800000#32))
        (addf (broadcastInDim ⟨2, ![n, 1]⟩ ![] o₂ (constant (F := Ideal) ⟨0, ![]⟩ .f32 0x3F800000#32))
          (Host.exp (Host.negf (addf (Host.dotGeneral D₃ prec₃ M g)
            (broadcastInDim ⟨2, ![n, 1]⟩ ![0, 1] u₂ (broadcastInDim ⟨2, ![1, 1]⟩ ![1] u₁ gb)))))))) (ix2 p c)
      = msgRow x W₁ b₁ W₂ b₂ (mat g) (vec gb) c := by
  rw [hMsgGate_apply, hostDense_apply D₃ hD₃, hM c]
  unfold msgRow
  refine congrArg (fun s => _ * Ideal.logistic (lin s (mat g) (vec gb) 0)) (funext fun q => ?_)
  exact hM q

end Cert.Rowwise

end
-- ==== Proof.RefDense.lean ====
/-
  The reference's dense stretches, row by row.

  Each dense stretch of the reference — the two embedders, each layer's message with its gate, each layer's two updates, the
  node decoder and the pooled head — is a line of host operations: dot_general, a bias broadcast to every row, a maximum with
  the zero constant, and for the gate negate, exponential, add and divide.  Read at an entry (p, c), each is the row-wise
  value (a dense layer, a two-layer perceptron, a gated message) of row p of the stretch's input array: the same row-wise
  functions the kernel's tiles compute.  The inputs of a stretch (gathered rows, concatenations, aggregated messages, weight
  slices) stay named by the reference's own stages.
-/
import proofs.«112516_j88167088653030_2_alg».proof.Proof.RefVals
import proofs.«112516_j88167088653030_2_alg».proof.Proof.Rowwise

set_option maxRecDepth 16384

noncomputable section

namespace Cert.ReferenceIdeal.RefDense

open Cert.ReferenceIdeal Cert.ReferenceIdeal.Gen Cert.ReferenceIdeal.Stages Cert.Layer Cert.Rowwise
open Idealize.ShloMosaic Idealize.ShloMosaic.TcCoe Idealize.ShloMosaic.ValueIdx

variable (x0 : (⟨S10000x11, .f32⟩ : BufTy).Contents (Elt Ideal)) (x1 : (⟨S10000x3, .f32⟩ : BufTy).Contents (Elt Ideal)) (x2 : (⟨S10000x8, .f32⟩ : BufTy).Contents (Elt Ideal)) (x3 : (⟨S2x160000, .i32⟩ : BufTy).Contents (Elt Ideal)) (x4 : (⟨S10000, .i32⟩ : BufTy).Contents (Elt Ideal)) (x5 : (⟨S11x96, .f32⟩ : BufTy).Contents (Elt Ideal)) (x6 : (⟨S96, .f32⟩ : BufTy).Contents (Elt Ideal)) (x7 : (⟨S96x96, .f32⟩ : BufTy).Contents (Elt Ideal)) (x8 : (⟨S96, .f32⟩ : BufTy).Contents (Elt Ideal)) (x9 : (⟨S8x96, .f32⟩ : BufTy).Contents (Elt Ideal)) (x10 : (⟨S96, .f32⟩ : BufTy).Contents (Elt Ideal)) (x11 : (⟨S3x385x96, .f32⟩ : BufTy).Contents (Elt Ideal)) (x12 : (⟨S3x96, .f32⟩ : BufTy).Contents (Elt Ideal)) (x13 : (⟨S3x96x96, .f32⟩ : BufTy).Contents (Elt Ideal)) (x14 : (⟨S3x96, .f32⟩ : BufTy).Contents (Elt Ideal)) (x15 : (⟨S3x96x1, .f32⟩ : BufTy).Contents (Elt Ideal)) (x16 : (⟨S3x1, .f32⟩ : BufTy).Contents (Elt Ideal)) (x17 : (⟨S3x288x96, .f32⟩ : BufTy).Contents (Elt Ideal)) (x18 : (⟨S3x96, .f32⟩ : BufTy).Contents (Elt Ideal)) (x19 : (⟨S3x96x96, .f32⟩ : BufTy).Contents (Elt Ideal)) (x20 : (⟨S3x96, .f32⟩ : BufTy).Contents (Elt Ideal)) (x21 : (⟨S3x144x96, .f32⟩ : BufTy).Contents (Elt Ideal)) (x22 : (⟨S3x96, .f32⟩ : BufTy).Contents (Elt Ideal)) (x23 : (⟨S3x96x96, .f32⟩ : BufTy).Contents (Elt Ideal)) (x24 : (⟨S3x96, .f32⟩ : BufTy).Contents (Elt Ideal)) (x25 : (⟨S96x96, .f32⟩ : BufTy).Contents (Elt Ideal)) (x26 : (⟨S96, .f32⟩ : BufTy).Contents (Elt Ideal)) (x27 : (⟨S96x96, .f32⟩ : BufTy).Contents (Elt Ideal)) (x28 : (⟨S96, .f32⟩ : BufTy).Contents (Elt Ideal)) (x29 : (⟨S96x96, .f32⟩ : BufTy).Contents (Elt Ideal)) (x30 : (⟨S96, .f32⟩ : BufTy).Contents (Elt Ideal)) (x31 : (⟨S96x96, .f32⟩ : BufTy).Contents (Elt Ideal)) (x32 : (⟨S96, .f32⟩ : BufTy).Contents (Elt Ideal))

/-- `%v31` of the reference: two dense layers, the rectifier between, of every row of its input. -/
theorem ref_h0 : val_main_v31 (F := Ideal) x0 x5 x6 x7 x8 = mlpRows x0 x5 x6 x7 x8 := by
  funext i
  obtain ⟨p, q, rfl⟩ : ∃ (p : Fin 10000) (q : Fin 96), i = ix2 p q := ⟨i 0, i 1, eq_ix2 i⟩
  unfold val_main_v31 val_main_v28 val_main_v27 val_main_v26 val_main_v23 val_main_v25 val_main_v24 val_main_call0_v0 val_main_call0_cst val_main_v30 val_main_v29
  exact hostMlp_apply id dot_S10000x11_S11x96_S10000x96_1_0_0_1_n_n rfl dot_S10000x96_S96x96_S10000x96_1_0_0_1_n_n rfl none none _ _ _ _ _ _ _ _ _ _ p q

/-- `%v35` of the reference: one dense layer of every row of its input. -/
theorem ref_pe0 : val_main_v35 (F := Ideal) x2 x9 x10 = linRows x2 x9 x10 := by
  funext i
  obtain ⟨p, q, rfl⟩ : ∃ (p : Fin 10000) (q : Fin 96), i = ix2 p q := ⟨i 0, i 1, eq_ix2 i⟩
  unfold val_main_v35 val_main_v32 val_main_v34 val_main_v33
  exact hostDense_apply dot_S10000x8_S8x96_S10000x96_1_0_0_1_n_n rfl none _ _ _ _ _ p q

/-- `%v104` of the reference: the gated message of every row of the five gathered arrays set side by side. -/
theorem ref_msg1 : val_main_v104 (F := Ideal) x0 x1 x2 x3 x5 x6 x7 x8 x9 x10 x11 x12 x13 x14 x15 x16 = msgRows (val_main_v70 (F := Ideal) x0 x1 x2 x3 x5 x6 x7 x8 x9 x10) (val_main_v72 (F := Ideal) x11) (val_main_v75 (F := Ideal) x12) (val_main_v81 (F := Ideal) x13) (val_main_v84 (F := Ideal) x14) (val_main_v90 (F := Ideal) x15) (val_main_v93 (F := Ideal) x16) := by
  funext i
  obtain ⟨p, q, rfl⟩ : ∃ (p : Fin 160000) (q : Fin 96), i = ix2 p q := ⟨i 0, i 1, eq_ix2 i⟩
  have hM : ∀ q' : Fin 96, val_main_v88 (F := Ideal) x0 x1 x2 x3 x5 x6 x7 x8 x9 x10 x11 x12 x13 x14 (ix2 p q') = mlp relu relu (rows (val_main_v70 (F := Ideal) x0 x1 x2 x3 x5 x6 x7 x8 x9 x10) p) (mat (val_main_v72 (F := Ideal) x11)) (vec (val_main_v75 (F := Ideal) x12)) (mat (val_main_v81 (F := Ideal) x13)) (vec (val_main_v84 (F := Ideal) x14)) q' := fun q' => by
    unfold val_main_v88 val_main_v87 val_main_v82 val_main_v79 val_main_v78 val_main_v73 val_main_v77 val_main_v76 val_main_call1_v0 val_main_call1_cst val_main_v86 val_main_v85 val_main_call2_v0 val_main_call2_cst
    exact hostMlp_apply relu dot_S160000x385_S385x96_S160000x96_1_0_0_1_n_n rfl dot_S160000x96_S96x96_S160000x96_1_0_0_1_n_n rfl none none _ _ _ _ _ _ _ _ _ _ p q'
  unfold val_main_v104 val_main_v103 val_main_v102 val_main_v101 val_main_cst_15 val_main_v100 val_main_v99 val_main_cst_14 val_main_v98 val_main_v97 val_main_v96 val_main_v91 val_main_v95 val_main_v94
  exact hostMsg_apply _ _ _ _ _ dot_S160000x96_S96x1_S160000x1_1_0_0_1_n_n rfl none (val_main_v88 (F := Ideal) x0 x1 x2 x3 x5 x6 x7 x8 x9 x10 x11 x12 x13 x14) p hM (val_main_v90 (F := Ideal) x15) (val_main_v93 (F := Ideal) x16) _ _ _ _ _ q

/-- `%v127` of the reference: two dense layers, the rectifier between, of every row of its input. -/
theorem ref_h1 : val_main_v127 (F := Ideal) x0 x1 x2 x3 x5 x6 x7 x8 x9 x10 x11 x12 x13 x14 x15 x16 x17 x18 x19 x20 = mlpRows (val_main_v110 (F := Ideal) x0 x1 x2 x3 x5 x6 x7 x8 x9 x10 x11 x12 x13 x14 x15 x16) (val_main_v112 (F := Ideal) x17) (val_main_v115 (F := Ideal) x18) (val_main_v121 (F := Ideal) x19) (val_main_v124 (F := Ideal) x20) := by
  funext i
  obtain ⟨p, q, rfl⟩ : ∃ (p : Fin 10000) (q : Fin 96), i = ix2 p q := ⟨i 0, i 1, eq_ix2 i⟩
  unfold val_main_v127 val_main_v122 val_main_v119 val_main_v118 val_main_v113 val_main_v117 val_main_v116 val_main_call3_v0 val_main_call3_cst val_main_v126 val_main_v125
  exact hostMlp_apply id dot_S10000x288_S288x96_S10000x96_1_0_0_1_n_n rfl dot_S10000x96_S96x96_S10000x96_1_0_0_1_n_n rfl none none _ _ _ _ _ _ _ _ _ _ p q

/-- `%v146` of the reference: two dense layers, the rectifier between, of every row of its input. -/
theorem ref_pe1 : val_main_v146 (F := Ideal) x0 x1 x2 x3 x5 x6 x7 x8 x9 x10 x11 x12 x13 x14 x15 x16 x21 x22 x23 x24 = mlpRows (val_main_v129 (F := Ideal) x0 x1 x2 x3 x5 x6 x7 x8 x9 x10 x11 x12 x13 x14 x15 x16) (val_main_v131 (F := Ideal) x21) (val_main_v134 (F := Ideal) x22) (val_main_v140 (F := Ideal) x23) (val_main_v143 (F := Ideal) x24) := by
  funext i
  obtain ⟨p, q, rfl⟩ : ∃ (p : Fin 10000) (q : Fin 96), i = ix2 p q := ⟨i 0, i 1, eq_ix2 i⟩
  unfold val_main_v146 val_main_v141 val_main_v138 val_main_v137 val_main_v132 val_main_v136 val_main_v135 val_main_call4_v0 val_main_call4_cst val_main_v145 val_main_v144
  exact hostMlp_apply id dot_S10000x144_S144x96_S10000x96_1_0_0_1_n_n rfl dot_S10000x96_S96x96_S10000x96_1_0_0_1_n_n rfl none none _ _ _ _ _ _ _ _ _ _ p q

/-- `%v209` of the reference: the gated message of every row of the five gathered arrays set side by side. -/
theorem ref_msg2 : val_main_v209 (F := Ideal) x0 x1 x2 x3 x5 x6 x7 x8 x9 x10 x11 x12 x13 x14 x15 x16 x17 x18 x19 x20 x21 x22 x23 x24 = msgRows (val_main_v175 (F := Ideal) x0 x1 x2 x3 x5 x6 x7 x8 x9 x10 x11 x12 x13 x14 x15 x16 x17 x18 x19 x20 x21 x22 x23 x24) (val_main_v177 (F := Ideal) x11) (val_main_v180 (F := Ideal) x12) (val_main_v186 (F := Ideal) x13) (val_main_v189 (F := Ideal) x14) (val_main_v195 (F := Ideal) x15) (val_main_v198 (F := Ideal) x16) := by
  funext i
  obtain ⟨p, q, rfl⟩ : ∃ (p : Fin 160000) (q : Fin 96), i = ix2 p q := ⟨i 0, i 1, eq_ix2 i⟩
  have hM : ∀ q' : Fin 96, val_main_v193 (F := Ideal) x0 x1 x2 x3 x5 x6 x7 x8 x9 x10 x11 x12 x13 x14 x15 x16 x17 x18 x19 x20 x21 x22 x23 x24 (ix2 p q') = mlp relu relu (rows (val_main_v175 (F := Ideal) x0 x1 x2 x3 x5 x6 x7 x8 x9 x10 x11 x12 x13 x14 x15 x16 x17 x18 x19 x20 x21 x22 x23 x24) p) (mat (val_main_v177 (F := Ideal) x11)) (vec (val_main_v180 (F := Ideal) x12)) (mat (val_main_v186 (F := Ideal) x13)) (vec (val_main_v189 (F := Ideal) x14)) q' := fun q' => by
    unfold val_main_v193 val_main_v192 val_main_v187 val_main_v184 val_main_v183 val_main_v178 val_main_v182 val_main_v181 val_main_call5_v0 val_main_call5_cst val_main_v191 val_main_v190 val_main_call6_v0 val_main_call6_cst
    exact hostMlp_apply relu dot_S160000x385_S385x96_S160000x96_1_0_0_1_n_n rfl dot_S160000x96_S96x96_S160000x96_1_0_0_1_n_n rfl none none _ _ _ _ _ _ _ _ _ _ p q'
  unfold val_main_v209 val_main_v208 val_main_v207 val_main_v206 val_main_cst_26 val_main_v205 val_main_v204 val_main_cst_25 val_main_v203 val_main_v202 val_main_v201 val_main_v196 val_main_v200 val_main_v199
  exact hostMsg_apply _ _ _ _ _ dot_S160000x96_S96x1_S160000x1_1_0_0_1_n_n rfl none (val_main_v193 (F := Ideal) x0 x1 x2 x3 x5 x6 x7 x8 x9 x10 x11 x12 x13 x14 x15 x16 x17 x18 x19 x20 x21 x22 x23 x24) p hM (val_main_v195 (F := Ideal) x15) (val_main_v198 (F := Ideal) x16) _ _ _ _ _ q

/-- `%v232` of the reference: two dense layers, the rectifier between, of every row of its input. -/
theorem ref_h2 : val_main_v232 (F := Ideal) x0 x1 x2 x3 x5 x6 x7 x8 x9 x10 x11 x12 x13 x14 x15 x16 x17 x18 x19 x20 x21 x22 x23 x24 = mlpRows (val_main_v215 (F := Ideal) x0 x1 x2 x3 x5 x6 x7 x8 x9 x10 x11 x12 x13 x14 x15 x16 x17 x18 x19 x20 x21 x22 x23 x24) (val_main_v217 (F := Ideal) x17) (val_main_v220 (F := Ideal) x18) (val_main_v226 (F := Ideal) x19) (val_main_v229 (F := Ideal) x20) := by
  funext i
  obtain ⟨p, q, rfl⟩ : ∃ (p : Fin 10000) (q : Fin 96), i = ix2 p q := ⟨i 0, i 1, eq_ix2 i⟩
  unfold val_main_v232 val_main_v227 val_main_v224 val_main_v223 val_main_v218 val_main_v222 val_main_v221 val_main_call7_v0 val_main_call7_cst val_main_v231 val_main_v230
  exact hostMlp_apply id dot_S10000x288_S288x96_S10000x96_1_0_0_1_n_n rfl dot_S10000x96_S96x96_S10000x96_1_0_0_1_n_n rfl none none _ _ _ _ _ _ _ _ _ _ p q

/-- `%v251` of the reference: two dense layers, the rectifier between, of every row of its input. -/
theorem ref_pe2 : val_main_v251 (F := Ideal) x0 x1 x2 x3 x5 x6 x7 x8 x9 x10 x11 x12 x13 x14 x15 x16 x17 x18 x19 x20 x21 x22 x23 x24 = mlpRows (val_main_v234 (F := Ideal) x0 x1 x2 x3 x5 x6 x7 x8 x9 x10 x11 x12 x13 x14 x15 x16 x17 x18 x19 x20 x21 x22 x23 x24) (val_main_v236 (F := Ideal) x21) (val_main_v239 (F := Ideal) x22) (val_main_v245 (F := Ideal) x23) (val_main_v248 (F := Ideal) x24) := by
  funext i
  obtain ⟨p, q, rfl⟩ : ∃ (p : Fin 10000) (q : Fin 96), i = ix2 p q := ⟨i 0, i 1, eq_ix2 i⟩
  unfold val_main_v251 val_main_v246 val_main_v243 val_main_v242 val_main_v237 val_main_v241 val_main_v240 val_main_call8_v0 val_main_call8_cst val_main_v250 val_main_v249
  exact hostMlp_apply id dot_S10000x144_S144x96_S10000x96_1_0_0_1_n_n rfl dot_S10000x96_S96x96_S10000x96_1_0_0_1_n_n rfl none none _ _ _ _ _ _ _ _ _ _ p q

/-- `%v314` of the reference: the gated message of every row of the five gathered arrays set side by side. -/
theorem ref_msg3 : val_main_v314 (F := Ideal) x0 x1 x2 x3 x5 x6 x7 x8 x9 x10 x11 x12 x13 x14 x15 x16 x17 x18 x19 x20 x21 x22 x23 x24 = msgRows (val_main_v280 (F := Ideal) x0 x1 x2 x3 x5 x6 x7 x8 x9 x10 x11 x12 x13 x14 x15 x16 x17 x18 x19 x20 x21 x22 x23 x24) (val_main_v282 (F := Ideal) x11) (val_main_v285 (F := Ideal) x12) (val_main_v291 (F := Ideal) x13) (val_main_v294 (F := Ideal) x14) (val_main_v300 (F := Ideal) x15) (val_main_v303 (F := Ideal) x16) := by
  funext i
  obtain ⟨p, q, rfl⟩ : ∃ (p : Fin 160000) (q : Fin 96), i = ix2 p q := ⟨i 0, i 1, eq_ix2 i⟩
  have hM : ∀ q' : Fin 96, val_main_v298 (F := Ideal) x0 x1 x2 x3 x5 x6 x7 x8 x9 x10 x11 x12 x13 x14 x15 x16 x17 x18 x19 x20 x21 x22 x23 x24 (ix2 p q') = mlp relu relu (rows (val_main_v280 (F := Ideal) x0 x1 x2 x3 x5 x6 x7 x8 x9 x10 x11 x12 x13 x14 x15 x16 x17 x18 x19 x20 x21 x22 x23 x24) p) (mat (val_main_v282 (F := Ideal) x11)) (vec (val_main_v285 (F := Ideal) x12)) (mat (val_main_v291 (F := Ideal) x13)) (vec (val_main_v294 (F := Ideal) x14)) q' := fun q' => by
    unfold val_main_v298 val_main_v297 val_main_v292 val_main_v289 val_main_v288 val_main_v283 val_main_v287 val_main_v286 val_main_call9_v0 val_main_call9_cst val_main_v296 val_main_v295 val_main_call10_v0 val_main_call10_cst
    exact hostMlp_apply relu dot_S160000x385_S385x96_S160000x96_1_0_0_1_n_n rfl dot_S160000x96_S96x96_S160000x96_1_0_0_1_n_n rfl none none _ _ _ _ _ _ _ _ _ _ p q'
  unfold val_main_v314 val_main_v313 val_main_v312 val_main_v311 val_main_cst_37 val_main_v310 val_main_v309 val_main_cst_36 val_main_v308 val_main_v307 val_main_v306 val_main_v301 val_main_v305 val_main_v304
  exact hostMsg_apply _ _ _ _ _ dot_S160000x96_S96x1_S160000x1_1_0_0_1_n_n rfl none (val_main_v298 (F := Ideal) x0 x1 x2 x3 x5 x6 x7 x8 x9 x10 x11 x12 x13 x14 x15 x16 x17 x18 x19 x20 x21 x22 x23 x24) p hM (val_main_v300 (F := Ideal) x15) (val_main_v303 (F := Ideal) x16) _ _ _ _ _ q

/-- `%v337` of the reference: two dense layers, the rectifier between, of every row of its input. -/
theorem ref_h3 : val_main_v337 (F := Ideal) x0 x1 x2 x3 x5 x6 x7 x8 x9 x10 x11 x12 x13 x14 x15 x16 x17 x18 x19 x20 x21 x22 x23 x24 = mlpRows (val_main_v320 (F := Ideal) x0 x1 x2 x3 x5 x6 x7 x8 x9 x10 x11 x12 x13 x14 x15 x16 x17 x18 x19 x20 x21 x22 x23 x24) (val_main_v322 (F := Ideal) x17) (val_main_v325 (F := Ideal) x18) (val_main_v331 (F := Ideal) x19) (val_main_v334 (F := Ideal) x20) := by
  funext i
  obtain ⟨p, q, rfl⟩ : ∃ (p : Fin 10000) (q : Fin 96), i = ix2 p q := ⟨i 0, i 1, eq_ix2 i⟩
  unfold val_main_v337 val_main_v332 val_main_v329 val_main_v328 val_main_v323 val_main_v327 val_main_v326 val_main_call11_v0 val_main_call11_cst val_main_v336 val_main_v335
  exact hostMlp_apply id dot_S10000x288_S288x96_S10000x96_1_0_0_1_n_n rfl dot_S10000x96_S96x96_S10000x96_1_0_0_1_n_n rfl none none _ _ _ _ _ _ _ _ _ _ p q

/-- `%v356` of the reference: two dense layers, the rectifier between, of every row of its input. -/
theorem ref_pe3 : val_main_v356 (F := Ideal) x0 x1 x2 x3 x5 x6 x7 x8 x9 x10 x11 x12 x13 x14 x15 x16 x17 x18 x19 x20 x21 x22 x23 x24 = mlpRows (val_main_v339 (F := Ideal) x0 x1 x2 x3 x5 x6 x7 x8 x9 x10 x11 x12 x13 x14 x15 x16 x17 x18 x19 x20 x21 x22 x23 x24) (val_main_v341 (F := Ideal) x21) (val_main_v344 (F := Ideal) x22) (val_main_v350 (F := Ideal) x23) (val_main_v353 (F := Ideal) x24) := by
  funext i
  obtain ⟨p, q, rfl⟩ : ∃ (p : Fin 10000) (q : Fin 96), i = ix2 p q := ⟨i 0, i 1, eq_ix2 i⟩
  unfold val_main_v356 val_main_v351 val_main_v348 val_main_v347 val_main_v342 val_main_v346 val_main_v345 val_main_call12_v0 val_main_call12_cst val_main_v355 val_main_v354
  exact hostMlp_apply id dot_S10000x144_S144x96_S10000x96_1_0_0_1_n_n rfl dot_S10000x96_S96x96_S10000x96_1_0_0_1_n_n rfl none none _ _ _ _ _ _ _ _ _ _ p q

/-- `%v365` of the reference: two dense layers, the rectifier between, of every row of its input. -/
theorem ref_dec : val_main_v365 (F := Ideal) x0 x1 x2 x3 x5 x6 x7 x8 x9 x10 x11 x12 x13 x14 x15 x16 x17 x18 x19 x20 x21 x22 x23 x24 x25 x26 x27 x28 = mlpRows (val_main_v337 (F := Ideal) x0 x1 x2 x3 x5 x6 x7 x8 x9 x10 x11 x12 x13 x14 x15 x16 x17 x18 x19 x20 x21 x22 x23 x24) x25 x26 x27 x28 := by
  funext i
  obtain ⟨p, q, rfl⟩ : ∃ (p : Fin 10000) (q : Fin 96), i = ix2 p q := ⟨i 0, i 1, eq_ix2 i⟩
  unfold val_main_v365 val_main_v362 val_main_v361 val_main_v360 val_main_v357 val_main_v359 val_main_v358 val_main_call13_v0 val_main_call13_cst val_main_v364 val_main_v363
  exact hostMlp_apply id dot_S10000x96_S96x96_S10000x96_1_0_0_1_n_n rfl dot_S10000x96_S96x96_S10000x96_1_0_0_1_n_n rfl none none _ _ _ _ _ _ _ _ _ _ p q

/-- `%v377` of the reference: two dense layers, the rectifier between, of every row of its input. -/
theorem ref_head : val_main_v377 (F := Ideal) x0 x1 x2 x3 x4 x5 x6 x7 x8 x9 x10 x11 x12 x13 x14 x15 x16 x17 x18 x19 x20 x21 x22 x23 x24 x25 x26 x27 x28 x29 x30 x31 x32 = mlpRows (val_main_v368 (F := Ideal) x0 x1 x2 x3 x4 x5 x6 x7 x8 x9 x10 x11 x12 x13 x14 x15 x16 x17 x18 x19 x20 x21 x22 x23 x24 x25 x26 x27 x28) x29 x30 x31 x32 := by
  funext i
  obtain ⟨p, q, rfl⟩ : ∃ (p : Fin 500) (q : Fin 96), i = ix2 p q := ⟨i 0, i 1, eq_ix2 i⟩
  unfold val_main_v377 val_main_v374 val_main_v373 val_main_v372 val_main_v369 val_main_v371 val_main_v370 val_main_call14_v0 val_main_call14_cst val_main_v376 val_main_v375
  exact hostMlp_apply id dot_S500x96_S96x96_S500x96_1_0_0_1_n_n rfl dot_S500x96_S96x96_S500x96_1_0_0_1_n_n rfl none none _ _ _ _ _ _ _ _ _ _ p q

end Cert.ReferenceIdeal.RefDense

end
-- ==== Proof.Concat.lean ====
/-
  Arrays set side by side along the columns, read one row at a time.

  The message kernel multiplies an edge's five row blocks [h_dst | h_src | pe_dst | pe_src | dist] (96 + 96 + 96 + 96 + 1
  columns) by one 385-row weight matrix, and the update kernel a node's [h | pe | agg] (3 × 96 columns) and
  [pe | agg's first 48 columns] (96 + 48 columns).  Entry (p, k) of such a concatenation is the entry (p, k − pre) of the
  piece whose column span holds k, pre the widths of the pieces before it.  So row p of the concatenation depends on row p
  of each piece only: when each piece of one concatenation agrees on its row p with row P of the corresponding piece of
  another (a tile against the whole array), the two concatenations agree on those rows (`concat5_rows`, `concat3_rows`,
  `concat2_rows`).  Stated for any number of rows.
-/
import Idealize.ShloMosaic.Lib.Pipeline.Value
import Idealize.ShloMosaic.Lib.ValueIdx

noncomputable section

namespace Cert.Concat

open Idealize.ShloMosaic Idealize.ShloMosaic.ValueIdx

variable {α : Type}

/-- Piece number `i` of a concatenation of [n, ·] arrays along the columns into [n, K], read at (p, k) for a column k
    inside the piece's span [pre, pre + w). -/
theorem piece_apply {n K w : ℕ} (xs : List ((s : Shape) × (s.Idx → α)))
    (h : Shape.Concatenates (xs.map (·.1)) ⟨2, ![n, K]⟩ 1) (i : ℕ) (hi : i < xs.length)
    (x : (⟨2, ![n, w]⟩ : Shape).Idx → α) (hx : xs[i] = ⟨⟨2, ![n, w]⟩, x⟩) (pre : ℕ)
    (hpre : (((xs.take i).map (·.1)).map fun s => if h : s.rank = (⟨2, ![n, K]⟩ : Shape).rank then s.size ((1 : Fin 2).cast h.symm) else 0).sum = pre)
    (p : Fin n) (k : Fin K) (hlo : pre ≤ k.val) (hhi : k.val - pre < w) :
    concatenate ⟨2, ![n, K]⟩ 1 xs h (ix2 p k) = x (ix2 p ⟨k.val - pre, hhi⟩) :=
  concatenate_apply_piece (t := ⟨2, ![n, K]⟩) 1 xs h (ix2 p k) i hi ⟨2, ![n, w]⟩ x hx rfl pre hpre
    (ix2 p ⟨k.val - pre, hhi⟩) (fun ax hne => by match ax with | ⟨0, _⟩ => rfl | ⟨1, _⟩ => exact absurd rfl hne)
    (by show pre + (k.val - pre) = k.val; omega)

/-- Five pieces of widths 96, 96, 96, 96, 1: rows that agree piece by piece agree in the concatenation. -/
theorem concat5_rows {n N : ℕ}
    (a b c d : (⟨2, ![n, 96]⟩ : Shape).Idx → α) (e : (⟨2, ![n, 1]⟩ : Shape).Idx → α)
    (A B C D : (⟨2, ![N, 96]⟩ : Shape).Idx → α) (E : (⟨2, ![N, 1]⟩ : Shape).Idx → α)
    (h : Shape.Concatenates [(⟨2, ![n, 96]⟩ : Shape), ⟨2, ![n, 96]⟩, ⟨2, ![n, 96]⟩, ⟨2, ![n, 96]⟩, ⟨2, ![n, 1]⟩] ⟨2, ![n, 385]⟩ 1)
    (H : Shape.Concatenates [(⟨2, ![N, 96]⟩ : Shape), ⟨2, ![N, 96]⟩, ⟨2, ![N, 96]⟩, ⟨2, ![N, 96]⟩, ⟨2, ![N, 1]⟩] ⟨2, ![N, 385]⟩ 1)
    (p : Fin n) (P : Fin N)
    (ha : ∀ j, a (ix2 p j) = A (ix2 P j)) (hb : ∀ j, b (ix2 p j) = B (ix2 P j)) (hc : ∀ j, c (ix2 p j) = C (ix2 P j))
    (hd : ∀ j, d (ix2 p j) = D (ix2 P j)) (he : ∀ j, e (ix2 p j) = E (ix2 P j)) (k : Fin 385) :
    concatenate ⟨2, ![n, 385]⟩ 1 [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h (ix2 p k)
      = concatenate ⟨2, ![N, 385]⟩ 1 [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H (ix2 P k) := by
  have hk := k.isLt
  by_cases h1 : k.val < 96
  · rw [piece_apply [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h 0 (by simp only [List.length_cons, List.length_nil]; omega) a rfl 0 rfl p k (by omega) (by omega),
      piece_apply [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H 0 (by simp only [List.length_cons, List.length_nil]; omega) A rfl 0 rfl P k (by omega) (by omega)]
    exact ha _
  by_cases h2 : k.val < 192
  · rw [piece_apply [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h 1 (by simp only [List.length_cons, List.length_nil]; omega) b rfl 96 rfl p k (by omega) (by omega),
      piece_apply [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H 1 (by simp only [List.length_cons, List.length_nil]; omega) B rfl 96 rfl P k (by omega) (by omega)]
    exact hb _
  by_cases h3 : k.val < 288
  · rw [piece_apply [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h 2 (by simp only [List.length_cons, List.length_nil]; omega) c rfl 192 rfl p k (by omega) (by omega),
      piece_apply [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H 2 (by simp only [List.length_cons, List.length_nil]; omega) C rfl 192 rfl P k (by omega) (by omega)]
    exact hc _
  by_cases h4 : k.val < 384
  · rw [piece_apply [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h 3 (by simp only [List.length_cons, List.length_nil]; omega) d rfl 288 rfl p k (by omega) (by omega),
      piece_apply [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H 3 (by simp only [List.length_cons, List.length_nil]; omega) D rfl 288 rfl P k (by omega) (by omega)]
    exact hd _
  · rw [piece_apply [⟨⟨2, ![n, 96]⟩, a⟩, ⟨⟨2, ![n, 96]⟩, b⟩, ⟨⟨2, ![n, 96]⟩, c⟩, ⟨⟨2, ![n, 96]⟩, d⟩, ⟨⟨2, ![n, 1]⟩, e⟩] h 4 (by simp only [List.length_cons, List.length_nil]; omega) e rfl 384 rfl p k (by omega) (by omega),
      piece_apply [⟨⟨2, ![N, 96]⟩, A⟩, ⟨⟨2, ![N, 96]⟩, B⟩, ⟨⟨2, ![N, 96]⟩, C⟩, ⟨⟨2, ![N, 96]⟩, D⟩, ⟨⟨2, ![N, 1]⟩, E⟩] H 4 (by simp only [List.length_cons, List.length_nil]; omega) E rfl 384 rfl P k (by omega) (by omega)]
    exact he _

/-- Three pieces of width 96. -/
theorem concat3_rows {n N : ℕ}
    (a b c : (⟨2, ![n, 96]⟩ : Shape).Idx → α) (A B C : (⟨2, ![N, 96]⟩ : Shape).Idx → α)
    (h : Shape.Concatenates [(⟨2, ![n, 96]⟩ : Shape), ⟨2, ![n, 96]⟩, ⟨2, ![n, 96]⟩] ⟨2, ![n, 288]⟩ 1)
    (H : Shape.Concatenates [(⟨2, ![N, 96]⟩ : Shape), ⟨2, ![N, 96]⟩, ⟨2, ![N, 96]⟩] ⟨2, ![N, 288]⟩ 1)
    (p : Fin n) (P : Fin N)
    (ha : ∀ j, a (ix2 p j) = A (ix2 P j)) (hb : ∀ j, b (ix2 p j) = B (ix2 P j)) (hc : ∀ j, c (ix2 p j) = C (ix2 P j))
    (k : Fin 288) :
    concatenate ⟨2, ![n, 288]⟩ 1 [⟨⟨2, ![n, 96]⟩, a⟩, ⟨⟨2, ![n, 96]⟩, b⟩, ⟨⟨2, ![n, 96]⟩, c⟩] h (ix2 p k)
      = concatenate ⟨2, ![N, 288]⟩ 1 [⟨⟨2, ![N, 96]⟩, A⟩, ⟨⟨2, ![N, 96]⟩, B⟩, ⟨⟨2, ![N, 96]⟩, C⟩] H (ix2 P k) := by
  have hk := k.isLt
  by_cases h1 : k.val < 96
  · rw [piece_apply [⟨⟨2, ![n, 96]⟩, a⟩, ⟨⟨2, ![n, 96]⟩, b⟩, ⟨⟨2, ![n, 96]⟩, c⟩] h 0 (by simp only [List.length_cons, List.length_nil]; omega) a rfl 0 rfl p k (by omega) (by omega),
      piece_apply [⟨⟨2, ![N, 96]⟩, A⟩, ⟨⟨2, ![N, 96]⟩, B⟩, ⟨⟨2, ![N, 96]⟩, C⟩] H 0 (by simp only [List.length_cons, List.length_nil]; omega) A rfl 0 rfl P k (by omega) (by omega)]
    exact ha _
  by_cases h2 : k.val < 192
  · rw [piece_apply [⟨⟨2, ![n, 96]⟩, a⟩, ⟨⟨2, ![n, 96]⟩, b⟩, ⟨⟨2, ![n, 96]⟩, c⟩] h 1 (by simp only [List.length_cons, List.length_nil]; omega) b rfl 96 rfl p k (by omega) (by omega),
      piece_apply [⟨⟨2, ![N, 96]⟩, A⟩, ⟨⟨2, ![N, 96]⟩, B⟩, ⟨⟨2, ![N, 96]⟩, C⟩] H 1 (by simp only [List.length_cons, List.length_nil]; omega) B rfl 96 rfl P k (by omega) (by omega)]
    exact hb _
  · rw [piece_apply [⟨⟨2, ![n, 96]⟩, a⟩, ⟨⟨2, ![n, 96]⟩, b⟩, ⟨⟨2, ![n, 96]⟩, c⟩] h 2 (by simp only [List.length_cons, List.length_nil]; omega) c rfl 192 rfl p k (by omega) (by omega),
      piece_apply [⟨⟨2, ![N, 96]⟩, A⟩, ⟨⟨2, ![N, 96]⟩, B⟩, ⟨⟨2, ![N, 96]⟩, C⟩] H 2 (by simp only [List.length_cons, List.length_nil]; omega) C rfl 192 rfl P k (by omega) (by omega)]
    exact hc _

/-- Two pieces of widths 96 and 48. -/
theorem concat2_rows {n N : ℕ}
    (a : (⟨2, ![n, 96]⟩ : Shape).Idx → α) (b : (⟨2, ![n, 48]⟩ : Shape).Idx → α)
    (A : (⟨2, ![N, 96]⟩ : Shape).Idx → α) (B : (⟨2, ![N, 48]⟩ : Shape).Idx → α)
    (h : Shape.Concatenates [(⟨2, ![n, 96]⟩ : Shape), ⟨2, ![n, 48]⟩] ⟨2, ![n, 144]⟩ 1)
    (H : Shape.Concatenates [(⟨2, ![N, 96]⟩ : Shape), ⟨2, ![N, 48]⟩] ⟨2, ![N, 144]⟩ 1)
    (p : Fin n) (P : Fin N)
    (ha : ∀ j, a (ix2 p j) = A (ix2 P j)) (hb : ∀ j, b (ix2 p j) = B (ix2 P j)) (k : Fin 144) :
    concatenate ⟨2, ![n, 144]⟩ 1 [⟨⟨2, ![n, 96]⟩, a⟩, ⟨⟨2, ![n, 48]⟩, b⟩] h (ix2 p k)
      = concatenate ⟨2, ![N, 144]⟩ 1 [⟨⟨2, ![N, 96]⟩, A⟩, ⟨⟨2, ![N, 48]⟩, B⟩] H (ix2 P k) := by
  have hk := k.isLt
  by_cases h1 : k.val < 96
  · rw [piece_apply [⟨⟨2, ![n, 96]⟩, a⟩, ⟨⟨2, ![n, 48]⟩, b⟩] h 0 (by simp only [List.length_cons, List.length_nil]; omega) a rfl 0 rfl p k (by omega) (by omega),
      piece_apply [⟨⟨2, ![N, 96]⟩, A⟩, ⟨⟨2, ![N, 48]⟩, B⟩] H 0 (by simp only [List.length_cons, List.length_nil]; omega) A rfl 0 rfl P k (by omega) (by omega)]
    exact ha _
  · rw [piece_apply [⟨⟨2, ![n, 96]⟩, a⟩, ⟨⟨2, ![n, 48]⟩, b⟩] h 1 (by simp only [List.length_cons, List.length_nil]; omega) b rfl 96 rfl p k (by omega) (by omega),
      piece_apply [⟨⟨2, ![N, 96]⟩, A⟩, ⟨⟨2, ![N, 48]⟩, B⟩] H 1 (by simp only [List.length_cons, List.length_nil]; omega) B rfl 96 rfl P k (by omega) (by omega)]
    exact hb _

/-- The first 48 columns of a [n, 96] array, at (p, j). -/
theorem slice48_apply {n : ℕ} (x : (⟨2, ![n, 96]⟩ : Shape).Idx → α)
    (h : (⟨2, ![n, 96]⟩ : Shape).Slices ![0, 0] ⟨2, ![n, 48]⟩) (p : Fin n) (j : Fin 48) :
    extractStridedSlice ⟨2, ![n, 48]⟩ ![0, 0] x h (ix2 p j) = x (ix2 p ⟨j.val, by omega⟩) :=
  extractStridedSlice_apply ![0, 0] x h (ix2 p j) (ix2 p ⟨j.val, by omega⟩) fun ax => by
    match ax with
    | ⟨0, _⟩ => show p.val = 0 + p.val; omega
    | ⟨1, _⟩ => show j.val = 0 + j.val; omega

end Cert.Concat

end
-- ==== Proof.Region0.lean ====
/-
  The embedders' region: what its two output arrays hold after the run.

  Grid point t of ten takes rows 1000·t … 1000·t + 999 of the node features and of the initial position encodings, and the
  six weight arrays whole.  The node states are (relu(X·W₁ + b₁))·W₂ + b₂ and the position encodings P·W + b, row by row;
  row p of either tile depends on row 1000·t + p of its input alone, so the ten tiles together are those two row-wise
  functions of the whole arrays.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Embed

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-tiled windows sit on tile t, the weight windows at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The body's stored value at row p, column q of the tile, as a function of the tile's row p. -/
theorem pay8_apply (x : Vec Ideal S1000x11 .f32) (w1 : Vec Ideal S11x96 .f32) (b1 : Vec Ideal S96 .f32) (w2 : Vec Ideal S96x96 .f32) (b2 : Vec Ideal S96 .f32) (p : Fin 1000) (q : Fin 96) :
    k0_pay1 x w1 b1 w2 b2 (ix2 p q) = mlp relu id (rows x p) (mat w1) (vec b1) (mat w2) (vec b2) q := by
  unfold k0_pay1
  try simp only [shapeCast_self]
  exact mlp_apply (n := 1000) relu id dot_S1000x11_S11x96_S1000x96_1_0_0_1_n_n rfl dot_S1000x96_S96x96_S1000x96_1_0_0_1_n_n rfl _ _ x w1 b1 _ _ _ (fun _ _ => rfl) w2 b2 _ _ p q

/-- What grid point t writes back to output window 8 is tile t of the row-wise function of the whole input array. -/
theorem flushed8_eq (c : Dev nD) (t : Fin cfg0.N) :
    (dat0 V c).flushed 8 t = ((cfg0.win 8).blk t).view.read (Elt Ideal) (mlpRows (V c main_arg0) (V c main_arg5) (V c main_arg6) (V c main_arg7) (V c main_arg8)) := by
  show (cfg0.win 8).cut (grid0.coords t) ((dat0 V c).after 8 t) = _
  rw [after0_8]
  unfold out0_8
  rw [View.canon_unit_zero hz2]
  simp only [View.ld_unit_zero (S := S1000x11) hz2, View.ld_unit_zero (S := S1000x8) hz2, View.ld_unit_zero (S := S11x96) hz2, View.ld_unit_zero (S := S96x96) hz2, View.ld_unit_zero (S := S8x96) hz2, View.ld_unit_zero (S := S96) hz1]
  obtain ⟨e0, e0', e1, e1', e2, e2', e3, e4, e4', e5, e6, e6', e7, e8, e8', e9, e9'⟩ := idx_facts t
  funext j
  obtain ⟨p, q, rfl⟩ : ∃ (p : Fin 1000) (q : Fin 96), j = ix2 p q := ⟨j 0, j 1, eq_ix2 j⟩
  refine (pay8_apply (iblk0 V c 0 t) (iblk0 V c 2 t) (iblk0 V c 3 t) (iblk0 V c 4 t) (iblk0 V c 5 t) p q).trans ?_
  show mlp relu id (rows (iblk0 V c 0 t) p) (mat (iblk0 V c 2 t)) (vec (iblk0 V c 3 t)) (mat (iblk0 V c 4 t)) (vec (iblk0 V c 5 t)) q
    = mlp relu id (rows (V c main_arg0) ((((cfg0.win 8).blk t).view.emb (ix2 p q)) 0)) (mat (V c main_arg5)) (vec (V c main_arg6)) (mat (V c main_arg7)) (vec (V c main_arg8)) ((((cfg0.win 8).blk t).view.emb (ix2 p q)) 1)
  have hX : rows (iblk0 V c 0 t) p = rows (V c main_arg0) ((((cfg0.win 8).blk t).view.emb (ix2 p q)) 0) := by
    funext q'
    show V c main_arg0 (((cfg0.win 0).blk t).view.emb (ix2 p q')) = V c main_arg0 (ix2 ((((cfg0.win 8).blk t).view.emb (ix2 p q)) 0) q')
    refine congrArg (V c main_arg0) (funext fun ax => Fin.ext ?_)
    match ax with
    | ⟨0, _⟩ => show win0_0.index t (0 : Fin 2) * 1000 + 1 * p.val = win0_8.index t (0 : Fin 2) * 1000 + 1 * p.val; omega
    | ⟨1, _⟩ => show win0_0.index t (1 : Fin 2) * 11 + 1 * q'.val = q'.val; omega
  have hW1 : mat (iblk0 V c 2 t) = mat (V c main_arg5) := by
    funext a b
    show V c main_arg5 (((cfg0.win 2).blk t).view.emb (ix2 a b)) = V c main_arg5 (ix2 a b)
    refine congrArg (V c main_arg5) (funext fun ax => Fin.ext ?_)
    match ax with
    | ⟨0, _⟩ => show win0_2.index t (0 : Fin 2) * 11 + 1 * a.val = a.val; omega
    | ⟨1, _⟩ => show win0_2.index t (1 : Fin 2) * 96 + 1 * b.val = b.val; omega
  have hW2 : mat (iblk0 V c 4 t) = mat (V c main_arg7) := by
    funext a b
    show V c main_arg7 (((cfg0.win 4).blk t).view.emb (ix2 a b)) = V c main_arg7 (ix2 a b)
    refine congrArg (V c main_arg7) (funext fun ax => Fin.ext ?_)
    match ax with
    | ⟨0, _⟩ => show win0_4.index t (0 : Fin 2) * 96 + 1 * a.val = a.val; omega
    | ⟨1, _⟩ => show win0_4.index t (1 : Fin 2) * 96 + 1 * b.val = b.val; omega
  have hb1 : vec (iblk0 V c 3 t) = vec (V c main_arg6) := by
    funext a
    show V c main_arg6 (((cfg0.win 3).blk t).view.emb (ix1 a)) = V c main_arg6 (ix1 a)
    refine congrArg (V c main_arg6) (funext fun ax => Fin.ext ?_)
    match ax with
    | ⟨0, _⟩ => show win0_3.index t (0 : Fin 1) * 96 + 1 * a.val = a.val; omega
  have hb2 : vec (iblk0 V c 5 t) = vec (V c main_arg8) := by
    funext a
    show V c main_arg8 (((cfg0.win 5).blk t).view.emb (ix1 a)) = V c main_arg8 (ix1 a)
    refine congrArg (V c main_arg8) (funext fun ax => Fin.ext ?_)
    match ax with
    | ⟨0, _⟩ => show win0_5.index t (0 : Fin 1) * 96 + 1 * a.val = a.val; omega
  have hq : ((((cfg0.win 8).blk t).view.emb (ix2 p q)) 1) = q :=
    Fin.ext (by show win0_8.index t (1 : Fin 2) * 96 + 1 * q.val = q.val; omega)
  rw [hX, hW1, hb1, hW2, hb2, hq]

/-- An index of output array 8 is in tile t iff each coordinate is in the tile's range on its axis. -/
theorem mem_blk8 (t : Fin cfg0.N) (i : S10000x96.Idx) :
    i ∈ ((cfg0.win 8).blk t).view.set ↔ ∀ a : Fin 2, win0_8.index t a * S1000x96.size a ≤ (i a).val ∧ (i a).val < win0_8.index t a * S1000x96.size a + S1000x96.size a := by
  show i ∈ ((View.whole main_v29_0).slice (win0_8.rect t)).set ↔ _
  rw [View.set_slice_whole, Rect.mem_set_unit]
  exact Iff.rfl

/-- The tiles cover output array 8: row r is in tile r / 1000. -/
theorem cover8 (i : S10000x96.Idx) : ∃ t : Fin cfg0.N, (cfg0.win 8).flush t = true ∧ i ∈ ((cfg0.win 8).blk t).view.set := by
  have hi0 : (i 0).val < 10000 := (i 0).isLt
  have hi1 : (i 1).val < 96 := (i 1).isLt
  have hN : (i 0).val / 1000 < cfg0.N := by show (i 0).val / 1000 < grid0.N; rw [N_0]; omega
  refine ⟨⟨(i 0).val / 1000, hN⟩, flush0_8 _, ?_⟩
  rw [mem_blk8]
  obtain ⟨e0, e0', e1, e1', e2, e2', e3, e4, e4', e5, e6, e6', e7, e8, e8', e9, e9'⟩ := idx_facts ⟨(i 0).val / 1000, hN⟩
  intro a
  match a with
  | ⟨0, _⟩ =>
    show win0_8.index ⟨(i 0).val / 1000, hN⟩ (0 : Fin 2) * 1000 ≤ (i 0).val ∧ (i 0).val < win0_8.index ⟨(i 0).val / 1000, hN⟩ (0 : Fin 2) * 1000 + 1000
    rw [e8]; show (i 0).val / 1000 * 1000 ≤ (i 0).val ∧ (i 0).val < (i 0).val / 1000 * 1000 + 1000; omega
  | ⟨1, _⟩ =>
    show win0_8.index ⟨(i 0).val / 1000, hN⟩ (1 : Fin 2) * 96 ≤ (i 1).val ∧ (i 1).val < win0_8.index ⟨(i 0).val / 1000, hN⟩ (1 : Fin 2) * 96 + 96
    rw [e8']; omega

/-- After the region output array 8 holds the row-wise function of the input array as the region found it. -/
theorem final8 (c : Dev nD) : (dat0 V c).arrAt 8 cfg0.N = mlpRows (V c main_arg0) (V c main_arg5) (V c main_arg6) (V c main_arg7) (V c main_arg8) :=
  (dat0 V c).arrAt_eq_of_cover 8 _ (fun t _ => flushed8_eq V c t) cover8

/-- The body's stored value at row p, column q of the tile, as a function of the tile's row p. -/
theorem pay9_apply (x : Vec Ideal S1000x8 .f32) (w1 : Vec Ideal S8x96 .f32) (b1 : Vec Ideal S96 .f32) (p : Fin 1000) (q : Fin 96) :
    k0_pay2 x w1 b1 (ix2 p q) = lin (rows x p) (mat w1) (vec b1) q := by
  unfold k0_pay2
  try simp only [shapeCast_self]
  exact dense_apply (n := 1000) dot_S1000x8_S8x96_S1000x96_1_0_0_1_n_n rfl _ x w1 b1 _ _ p q

/-- What grid point t writes back to output window 9 is tile t of the row-wise function of the whole input array. -/
theorem flushed9_eq (c : Dev nD) (t : Fin cfg0.N) :
    (dat0 V c).flushed 9 t = ((cfg0.win 9).blk t).view.read (Elt Ideal) (linRows (V c main_arg2) (V c main_arg9) (V c main_arg10)) := by
  show (cfg0.win 9).cut (grid0.coords t) ((dat0 V c).after 9 t) = _
  rw [after0_9]
  unfold out0_9
  rw [View.canon_unit_zero hz2]
  simp only [View.ld_unit_zero (S := S1000x11) hz2, View.ld_unit_zero (S := S1000x8) hz2, View.ld_unit_zero (S := S11x96) hz2, View.ld_unit_zero (S := S96x96) hz2, View.ld_unit_zero (S := S8x96) hz2, View.ld_unit_zero (S := S96) hz1]
  obtain ⟨e0, e0', e1, e1', e2, e2', e3, e4, e4', e5, e6, e6', e7, e8, e8', e9, e9'⟩ := idx_facts t
  funext j
  obtain ⟨p, q, rfl⟩ : ∃ (p : Fin 1000) (q : Fin 96), j = ix2 p q := ⟨j 0, j 1, eq_ix2 j⟩
  refine (pay9_apply (iblk0 V c 1 t) (iblk0 V c 6 t) (iblk0 V c 7 t) p q).trans ?_
  show lin (rows (iblk0 V c 1 t) p) (mat (iblk0 V c 6 t)) (vec (iblk0 V c 7 t)) q
    = lin (rows (V c main_arg2) ((((cfg0.win 9).blk t).view.emb (ix2 p q)) 0)) (mat (V c main_arg9)) (vec (V c main_arg10)) ((((cfg0.win 9).blk t).view.emb (ix2 p q)) 1)
  have hX : rows (iblk0 V c 1 t) p = rows (V c main_arg2) ((((cfg0.win 9).blk t).view.emb (ix2 p q)) 0) := by
    funext q'
    show V c main_arg2 (((cfg0.win 1).blk t).view.emb (ix2 p q')) = V c main_arg2 (ix2 ((((cfg0.win 9).blk t).view.emb (ix2 p q)) 0) q')
    refine congrArg (V c main_arg2) (funext fun ax => Fin.ext ?_)
    match ax with
    | ⟨0, _⟩ => show win0_1.index t (0 : Fin 2) * 1000 + 1 * p.val = win0_9.index t (0 : Fin 2) * 1000 + 1 * p.val; omega
    | ⟨1, _⟩ => show win0_1.index t (1 : Fin 2) * 8 + 1 * q'.val = q'.val; omega
  have hW1 : mat (iblk0 V c 6 t) = mat (V c main_arg9) := by
    funext a b
    show V c main_arg9 (((cfg0.win 6).blk t).view.emb (ix2 a b)) = V c main_arg9 (ix2 a b)
    refine congrArg (V c main_arg9) (funext fun ax => Fin.ext ?_)
    match ax with
    | ⟨0, _⟩ => show win0_6.index t (0 : Fin 2) * 8 + 1 * a.val = a.val; omega
    | ⟨1, _⟩ => show win0_6.index t (1 : Fin 2) * 96 + 1 * b.val = b.val; omega
  have hb1 : vec (iblk0 V c 7 t) = vec (V c main_arg10) := by
    funext a
    show V c main_arg10 (((cfg0.win 7).blk t).view.emb (ix1 a)) = V c main_arg10 (ix1 a)
    refine congrArg (V c main_arg10) (funext fun ax => Fin.ext ?_)
    match ax with
    | ⟨0, _⟩ => show win0_7.index t (0 : Fin 1) * 96 + 1 * a.val = a.val; omega
  have hq : ((((cfg0.win 9).blk t).view.emb (ix2 p q)) 1) = q :=
    Fin.ext (by show win0_9.index t (1 : Fin 2) * 96 + 1 * q.val = q.val; omega)
  rw [hX, hW1, hb1, hq]

/-- An index of output array 9 is in tile t iff each coordinate is in the tile's range on its axis. -/
theorem mem_blk9 (t : Fin cfg0.N) (i : S10000x96.Idx) :
    i ∈ ((cfg0.win 9).blk t).view.set ↔ ∀ a : Fin 2, win0_9.index t a * S1000x96.size a ≤ (i a).val ∧ (i a).val < win0_9.index t a * S1000x96.size a + S1000x96.size a := by
  show i ∈ ((View.whole main_v29_1).slice (win0_9.rect t)).set ↔ _
  rw [View.set_slice_whole, Rect.mem_set_unit]
  exact Iff.rfl

/-- The tiles cover output array 9: row r is in tile r / 1000. -/
theorem cover9 (i : S10000x96.Idx) : ∃ t : Fin cfg0.N, (cfg0.win 9).flush t = true ∧ i ∈ ((cfg0.win 9).blk t).view.set := by
  have hi0 : (i 0).val < 10000 := (i 0).isLt
  have hi1 : (i 1).val < 96 := (i 1).isLt
  have hN : (i 0).val / 1000 < cfg0.N := by show (i 0).val / 1000 < grid0.N; rw [N_0]; omega
  refine ⟨⟨(i 0).val / 1000, hN⟩, flush0_9 _, ?_⟩
  rw [mem_blk9]
  obtain ⟨e0, e0', e1, e1', e2, e2', e3, e4, e4', e5, e6, e6', e7, e8, e8', e9, e9'⟩ := idx_facts ⟨(i 0).val / 1000, hN⟩
  intro a
  match a with
  | ⟨0, _⟩ =>
    show win0_9.index ⟨(i 0).val / 1000, hN⟩ (0 : Fin 2) * 1000 ≤ (i 0).val ∧ (i 0).val < win0_9.index ⟨(i 0).val / 1000, hN⟩ (0 : Fin 2) * 1000 + 1000
    rw [e9]; show (i 0).val / 1000 * 1000 ≤ (i 0).val ∧ (i 0).val < (i 0).val / 1000 * 1000 + 1000; omega
  | ⟨1, _⟩ =>
    show win0_9.index ⟨(i 0).val / 1000, hN⟩ (1 : Fin 2) * 96 ≤ (i 1).val ∧ (i 1).val < win0_9.index ⟨(i 0).val / 1000, hN⟩ (1 : Fin 2) * 96 + 96
    rw [e9']; omega

/-- After the region output array 9 holds the row-wise function of the input array as the region found it. -/
theorem final9 (c : Dev nD) : (dat0 V c).arrAt 9 cfg0.N = linRows (V c main_arg2) (V c main_arg9) (V c main_arg10) :=
  (dat0 V c).arrAt_eq_of_cover 9 _ (fun t _ => flushed9_eq V c t) cover9

end Cert.KernelIdeal.Embed

end
-- ==== Proof.Region1.lean ====
/-
  A message region: what its output array holds after the run.

  Grid point t of forty takes rows 4000·t … 4000·t + 3999 of the four gathered node arrays and of the distance column, and
  the six weight arrays whole.  It sets the five row blocks side by side (385 columns), applies two dense layers with the
  rectifier after each, gates the result by the logistic function of one more dense layer onto a single column, and stores
  the gated rows.  Row p of the tile depends on row 4000·t + p of the five inputs alone, so the forty tiles together are
  the gated message of every row of the five whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Message1

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The five whole edge arrays set side by side have 385 columns. -/
theorem hcat : Shape.Concatenates [(⟨2, ![160000, 96]⟩ : Shape), ⟨2, ![160000, 96]⟩, ⟨2, ![160000, 96]⟩, ⟨2, ![160000, 96]⟩, ⟨2, ![160000, 1]⟩] ⟨2, ![160000, 385]⟩ 1 := by decide

/-- The body's stored value at row p, column q of the tile: the gated message of row p of the tile's five blocks set side by side. -/
theorem pay_apply (x0 x1 x2 x3 : Vec Ideal S4000x96 .f32) (x4 : Vec Ideal S4000x1 .f32) (w1 : Vec Ideal S385x96 .f32)
    (b1 : Vec Ideal S96 .f32) (w2 : Vec Ideal S96x96 .f32) (b2 : Vec Ideal S96 .f32) (g : Vec Ideal S96x1 .f32) (gb : Vec Ideal S1 .f32)
    (p : Fin 4000) (q : Fin 96) :
    k1_pay1 (k1_pay2 x0 x1 x2 x3 x4 w1 b1 w2 b2) (k1_pay3 x0 x1 x2 x3 x4 w1 b1 w2 b2 g) gb (ix2 p q)
      = msgRow (rows (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1) p)
          (mat w1) (vec b1) (mat w2) (vec b2) (mat g) (vec gb) q := by
  unfold k1_pay1 k1_pay3 k1_pay2
  rw [shapeCast_self x0, shapeCast_self x1, shapeCast_self x2, shapeCast_self x3, shapeCast_self x4]
  simp only [shapeCast_self]
  exact kMsg_full (n := 4000) (φ₁ := .f32) (φ₂ := .f32) (φ₄ := .f32) (φ₅ := .f32) dot_S4000x385_S385x96_S4000x96_1_0_0_1_n_n rfl dot_S4000x96_S96x96_S4000x96_1_0_0_1_n_n rfl
    dot_S4000x96_S96x1_S4000x1_1_0_0_1_n_n rfl (some .fp32) (some .fp32) (some .fp32)
    (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1)
    w1 b1 shapeCasts_S96_S1x96 broadcasts_S1x96_S4000x96 w2 b2 shapeCasts_S96_S1x96 broadcasts_S1x96_S4000x96 g gb
    shapeCasts_S1_S1x1 broadcasts_S1x1_S4000x1 broadcasts_S4000x1_S4000x96 p q

/-- The printed index maps over the grid: the five edge windows and the output window sit on tile t, the weights at 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_11.index t (0 : Fin 2) = t.val ∧ win1_11.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0
    ∧ win1_10.index t (0 : Fin 1) = 0 :=
  (by decide +kernel : ∀ t : Fin grid1.N, _)

/-- What grid point t writes back is tile t of the gated message of every row of the five whole arrays side by side. -/
theorem flushed_eq (c : Dev nD) (t : Fin cfg1.N) :
    (dat1 V c).flushed 11 t = ((cfg1.win 11).blk t).view.read (Elt Ideal)
      (msgRows (concatenate (⟨2, ![160000, 385]⟩ : Shape) 1 [⟨⟨2, ![160000, 96]⟩, V c main_v36⟩, ⟨⟨2, ![160000, 96]⟩, V c main_v43⟩, ⟨⟨2, ![160000, 96]⟩, V c main_v50⟩, ⟨⟨2, ![160000, 96]⟩, V c main_v57⟩, ⟨⟨2, ![160000, 1]⟩, V c main_v22⟩] hcat)
        (V c main_v59) (V c main_v61) (V c main_v63) (V c main_v65) (V c main_v67) (V c main_v69)) := by
  show (cfg1.win 11).cut (grid1.coords t) ((dat1 V c).after 11 t) = _
  rw [after1_11]
  unfold out1_11
  rw [View.canon_unit_zero hz2]
  simp only [View.ld_unit_zero (S := S4000x96) hz2, View.ld_unit_zero (S := S4000x1) hz2, View.ld_unit_zero (S := S385x96) hz2,
    View.ld_unit_zero (S := S96x96) hz2, View.ld_unit_zero (S := S96x1) hz2, View.ld_unit_zero (S := S96) hz1, View.ld_unit_zero (S := S1) hz1]
  obtain ⟨e0, e0', e1, e1', e2, e2', e3, e3', e4, e4', e11, e11', e5, e5', e6, e7, e7', e8, e9, e9', e10⟩ := idx_facts t
  funext j
  obtain ⟨p, q, rfl⟩ : ∃ (p : Fin 4000) (q : Fin 96), j = ix2 p q := ⟨j 0, j 1, eq_ix2 j⟩
  refine (pay_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) p q).trans ?_
  obtain ⟨P, hP⟩ : ∃ P : Fin 160000, P = (((cfg1.win 11).blk t).view.emb (ix2 p q)) 0 := ⟨_, rfl⟩
  have hPv : P.val = win1_11.index t (0 : Fin 2) * 4000 + 1 * p.val := by rw [hP]; rfl
  show msgRow (rows (concatenate S4000x385 1 [⟨S4000x96, iblk1 V c 0 t⟩, ⟨S4000x96, iblk1 V c 1 t⟩, ⟨S4000x96, iblk1 V c 2 t⟩, ⟨S4000x96, iblk1 V c 3 t⟩, ⟨S4000x1, iblk1 V c 4 t⟩] concatenates_S4000x96_S4000x96_S4000x96_S4000x96_S4000x1_S4000x385_d1) p)
      (mat (iblk1 V c 5 t)) (vec (iblk1 V c 6 t)) (mat (iblk1 V c 7 t)) (vec (iblk1 V c 8 t)) (mat (iblk1 V c 9 t)) (vec (iblk1 V c 10 t)) q
    = msgRow (rows (concatenate (⟨2, ![160000, 385]⟩ : Shape) 1 [⟨⟨2, ![160000, 96]⟩, V c main_v36⟩, ⟨⟨2, ![160000, 96]⟩, V c main_v43⟩, ⟨⟨2, ![160000, 96]⟩, V c main_v50⟩, ⟨⟨2, ![160000, 96]⟩, V c main_v57⟩, ⟨⟨2, ![160000, 1]⟩, V c main_v22⟩] hcat) ((((cfg1.win 11).blk t).view.emb (ix2 p q)) 0))
      (mat (V c main_v59)) (vec (V c main_v61)) (mat (V c main_v63)) (vec (V c main_v65)) (mat (V c main_v67)) (vec (V c main_v69)) ((((cfg1.win 11).blk t).view.emb (ix2 p q)) 1)
  rw [← hP]
  have ha : ∀ j : Fin 96, iblk1 V c 0 t (ix2 p j) = V c main_v36 (ix2 P j) := fun j => by
    show V c main_v36 (((cfg1.win 0).blk t).view.emb (ix2 p j)) = V c main_v36 (ix2 P j)
    refine congrArg (V c main_v36) (funext fun ax => Fin.ext ?_)
    match ax with
    | ⟨0, _⟩ => show win1_0.index t (0 : Fin 2) * 4000 + 1 * p.val = P.val; omega
    | ⟨1, _⟩ => show win1_0.index t (1 : Fin 2) * 96 + 1 * j.val = j.val; omega
  have hb : ∀ j : Fin 96, iblk1 V c 1 t (ix2 p j) = V c main_v43 (ix2 P j) := fun j => by
    show V c main_v43 (((cfg1.win 1).blk t).view.emb (ix2 p j)) = V c main_v43 (ix2 P j)
    refine congrArg (V c main_v43) (funext fun ax => Fin.ext ?_)
    match ax with
    | ⟨0, _⟩ => show win1_1.index t (0 : Fin 2) * 4000 + 1 * p.val = P.val; omega
    | ⟨1, _⟩ => show win1_1.index t (1 : Fin 2) * 96 + 1 * j.val = j.val; omega
  have hc : ∀ j : Fin 96, iblk1 V c 2 t (ix2 p j) = V c main_v50 (ix2 P j) := fun j => by
    show V c main_v50 (((cfg1.win 2).blk t).view.emb (ix2 p j)) = V c main_v50 (ix2 P j)
    refine congrArg (V c main_v50) (funext fun ax => Fin.ext ?_)
    match ax with
    | ⟨0, _⟩ => show win1_2.index t (0 : Fin 2) * 4000 + 1 * p.val = P.val; omega
    | ⟨1, _⟩ => show win1_2.index t (1 : Fin 2) * 96 + 1 * j.val = j.val; omega
  have hd : ∀ j : Fin 96, iblk1 V c 3 t (ix2 p j) = V c main_v57 (ix2 P j) := fun j => by
    show V c main_v57 (((cfg1.win 3).blk t).view.emb (ix2 p j)) = V c main_v57 (ix2 P j)
    refine congrArg (V c main_v57) (funext fun ax => Fin.ext ?_)
    match ax with
    | ⟨0, _⟩ => show win1_3.index t (0 : Fin 2) * 4000 + 1 * p.val = P.val; omega
    | ⟨1, _⟩ => show win1_3.index t (1 : Fin 2) * 96 + 1 * j.val = j.val; omega
  have he : ∀ j : Fin 1, iblk1 V c 4 t (ix2 p j) = V c main_v22 (ix2 P j) := fun j => by
    show V c main_v22 (((cfg1.win 4).blk t).view.emb (ix2 p j)) = V c main_v22 (ix2 P j)
    refine congrArg (V c main_v22) (funext fun ax => Fin.ext ?_)
    match ax with
    | ⟨0, _⟩ => show win1_4.index t (0 : Fin 2) * 4000 + 1 * p.val = P.val; omega
    | ⟨1, _⟩ => show win1_4.index t (1 : Fin 2) * 1 + 1 * j.val = j.val; omega
  have hX : rows (concatenate S4000x385 1 [⟨S4000x96, iblk1 V c 0 t⟩, ⟨S4000x96, iblk1 V c 1 t⟩, ⟨S4000x96, iblk1 V c 2 t⟩, ⟨S4000x96, iblk1 V c 3 t⟩, ⟨S4000x1, iblk1 V c 4 t⟩] concatenates_S4000x96_S4000x96_S4000x96_S4000x96_S4000x1_S4000x385_d1) p = rows (concatenate (⟨2, ![160000, 385]⟩ : Shape) 1 [⟨⟨2, ![160000, 96]⟩, V c main_v36⟩, ⟨⟨2, ![160000, 96]⟩, V c main_v43⟩, ⟨⟨2, ![160000, 96]⟩, V c main_v50⟩, ⟨⟨2, ![160000, 96]⟩, V c main_v57⟩, ⟨⟨2, ![160000, 1]⟩, V c main_v22⟩] hcat) P :=
    funext fun k => concat5_rows (iblk1 V c 0 t) (iblk1 V c 1 t) (iblk1 V c 2 t) (iblk1 V c 3 t) (iblk1 V c 4 t)
      (V c main_v36) (V c main_v43) (V c main_v50) (V c main_v57) (V c main_v22) _ hcat p P ha hb hc hd he k
  have hW1 : mat (iblk1 V c 5 t) = mat (V c main_v59) := by
    funext a b
    show V c main_v59 (((cfg1.win 5).blk t).view.emb (ix2 a b)) = V c main_v59 (ix2 a b)
    refine congrArg (V c main_v59) (funext fun ax => Fin.ext ?_)
    match ax with
    | ⟨0, _⟩ => show win1_5.index t (0 : Fin 2) * 385 + 1 * a.val = a.val; omega
    | ⟨1, _⟩ => show win1_5.index t (1 : Fin 2) * 96 + 1 * b.val = b.val; omega
  have hb1 : vec (iblk1 V c 6 t) = vec (V c main_v61) := by
    funext a
    show V c main_v61 (((cfg1.win 6).blk t).view.emb (ix1 a)) = V c main_v61 (ix1 a)
    refine congrArg (V c main_v61) (funext fun ax => Fin.ext ?_)
    match ax with
    | ⟨0, _⟩ => show win1_6.index t (0 : Fin 1) * 96 + 1 * a.val = a.val; omega
  have hW2 : mat (iblk1 V c 7 t) = mat (V c main_v63) := by
    funext a b
    show V c main_v63 (((cfg1.win 7).blk t).view.emb (ix2 a b)) = V c main_v63 (ix2 a b)
    refine congrArg (V c main_v63) (funext fun ax => Fin.ext ?_)
    match ax with
    | ⟨0, _⟩ => show win1_7.index t (0 : Fin 2) * 96 + 1 * a.val = a.val; omega
    | ⟨1, _⟩ => show win1_7.index t (1 : Fin 2) * 96 + 1 * b.val = b.val; omega
  have hb2 : vec (iblk1 V c 8 t) = vec (V c main_v65) := by
    funext a
    show V c main_v65 (((cfg1.win 8).blk t).view.emb (ix1 a)) = V c main_v65 (ix1 a)
    refine congrArg (V c main_v65) (funext fun ax => Fin.ext ?_)
    match ax with
    | ⟨0, _⟩ => show win1_8.index t (0 : Fin 1) * 96 + 1 * a.val = a.val; omega
  have hg : mat (iblk1 V c 9 t) = mat (V c main_v67) := by
    funext a b
    show V c main_v67 (((cfg1.win 9).blk t).view.emb (ix2 a b)) = V c main_v67 (ix2 a b)
    refine congrArg (V c main_v67) (funext fun ax => Fin.ext ?_)
    match ax with
    | ⟨0, _⟩ => show win1_9.index t (0 : Fin 2) * 96 + 1 * a.val = a.val; omega
    | ⟨1, _⟩ => show win1_9.index t (1 : Fin 2) * 1 + 1 * b.val = b.val; omega
  have hgb : vec (iblk1 V c 10 t) = vec (V c main_v69) := by
    funext a
    show V c main_v69 (((cfg1.win 10).blk t).view.emb (ix1 a)) = V c main_v69 (ix1 a)
    refine congrArg (V c main_v69) (funext fun ax => Fin.ext ?_)
    match ax with
    | ⟨0, _⟩ => show win1_10.index t (0 : Fin 1) * 1 + 1 * a.val = a.val; omega
  have hq : (((cfg1.win 11).blk t).view.emb (ix2 p q)) 1 = q :=
    Fin.ext (by show win1_11.index t (1 : Fin 2) * 96 + 1 * q.val = q.val; omega)
  rw [hX, hW1, hb1, hW2, hb2, hg, hgb, hq]

/-- An index of the output array is in tile t iff each coordinate is in the tile's range on its axis. -/
theorem mem_blk (t : Fin cfg1.N) (i : S160000x96.Idx) :
    i ∈ ((cfg1.win 11).blk t).view.set ↔ ∀ a : Fin 2, win1_11.index t a * S4000x96.size a ≤ (i a).val ∧ (i a).val < win1_11.index t a * S4000x96.size a + S4000x96.size a := by
  show i ∈ ((View.whole main_v70).slice (win1_11.rect t)).set ↔ _
  rw [View.set_slice_whole, Rect.mem_set_unit]
  exact Iff.rfl

/-- The forty tiles cover the output array: row r is in tile r / 4000. -/
theorem cover (i : S160000x96.Idx) : ∃ t : Fin cfg1.N, (cfg1.win 11).flush t = true ∧ i ∈ ((cfg1.win 11).blk t).view.set := by
  have hi0 : (i 0).val < 160000 := (i 0).isLt
  have hi1 : (i 1).val < 96 := (i 1).isLt
  have hN : (i 0).val / 4000 < cfg1.N := by show (i 0).val / 4000 < grid1.N; rw [N_1]; omega
  refine ⟨⟨(i 0).val / 4000, hN⟩, flush1_11 _, ?_⟩
  rw [mem_blk]
  obtain ⟨e0, e0', e1, e1', e2, e2', e3, e3', e4, e4', e11, e11', e5, e5', e6, e7, e7', e8, e9, e9', e10⟩ := idx_facts ⟨(i 0).val / 4000, hN⟩
  intro a
  match a with
  | ⟨0, _⟩ =>
    show win1_11.index ⟨(i 0).val / 4000, hN⟩ (0 : Fin 2) * 4000 ≤ (i 0).val ∧ (i 0).val < win1_11.index ⟨(i 0).val / 4000, hN⟩ (0 : Fin 2) * 4000 + 4000
    rw [e11]; show (i 0).val / 4000 * 4000 ≤ (i 0).val ∧ (i 0).val < (i 0).val / 4000 * 4000 + 4000; omega
  | ⟨1, _⟩ =>
    show win1_11.index ⟨(i 0).val / 4000, hN⟩ (1 : Fin 2) * 96 ≤ (i 1).val ∧ (i 1).val < win1_11.index ⟨(i 0).val / 4000, hN⟩ (1 : Fin 2) * 96 + 96
    rw [e11']; omega

/-- After the region the message array holds the gated message of every row of the five arrays as the region found them. -/
theorem final (c : Dev nD) : (dat1 V c).arrAt 11 cfg1.N
    = msgRows (concatenate (⟨2, ![160000, 385]⟩ : Shape) 1 [⟨⟨2, ![160000, 96]⟩, V c main_v36⟩, ⟨⟨2, ![160000, 96]⟩, V c main_v43⟩, ⟨⟨2, ![160000, 96]⟩, V c main_v50⟩, ⟨⟨2, ![160000, 96]⟩, V c main_v57⟩, ⟨⟨2, ![160000, 1]⟩, V c main_v22⟩] hcat)
        (V c main_v59) (V c main_v61) (V c main_v63) (V c main_v65) (V c main_v67) (V c main_v69) :=
  (dat1 V c).arrAt_eq_of_cover 11 _ (fun t _ => flushed_eq V c t) cover

end Cert.KernelIdeal.Message1

end
-- ==== Proof.Region2.lean ====
/-
  A node-update region: what its two output arrays hold after the run.

  Grid point t of ten takes rows 1000·t … 1000·t + 999 of the node states h, the position encodings pe and the aggregated
  messages agg, and the eight weight arrays whole.  The new node states are two dense layers (the rectifier between them)
  of [h | pe | agg] (288 columns); the new position encodings are two dense layers of [pe | the first 48 columns of agg]
  (144 columns).  Row p of either tile depends on row 1000·t + p of the three inputs alone, so the ten tiles together are
  those two perceptrons applied to every row of the whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Update2

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem hcat3 : Shape.Concatenates [(⟨2, ![10000, 96]⟩ : Shape), ⟨2, ![10000, 96]⟩, ⟨2, ![10000, 96]⟩] ⟨2, ![10000, 288]⟩ 1 := by decide
theorem hcat2 : Shape.Concatenates [(⟨2, ![10000, 96]⟩ : Shape), ⟨2, ![10000, 48]⟩] ⟨2, ![10000, 144]⟩ 1 := by decide
theorem hsl : (⟨2, ![10000, 96]⟩ : Shape).Slices ![0, 0] ⟨2, ![10000, 48]⟩ := by decide

/-- The stored new node state at row p, column q of the tile: the perceptron of row p of [h | pe | agg]. -/
theorem payH_apply (x0 x1 x2 : Vec Ideal S1000x96 .f32) (w1 : Vec Ideal S288x96 .f32) (b1 : Vec Ideal S96 .f32)
    (w2 : Vec Ideal S96x96 .f32) (b2 : Vec Ideal S96 .f32) (p : Fin 1000) (q : Fin 96) :
    k2_pay4 x0 x1 x2 w1 b1 w2 b2 (ix2 p q)
      = mlp relu id (rows (concatenate S1000x288 1 [⟨S1000x96, x0⟩, ⟨S1000x96, x1⟩, ⟨S1000x96, x2⟩] concatenates_S1000x96_S1000x96_S1000x96_S1000x288_d1) p)
          (mat w1) (vec b1) (mat w2) (vec b2) q := by
  unfold k2_pay4 k2_pay2 k2_pay3
  rw [shapeCast_self x0, shapeCast_self x1, shapeCast_self x2]
  simp only [shapeCast_self]
  exact kMlp_full (n := 1000) (φ₁ := .f32) (φ₂ := .f32) (φ₄ := .f32) id dot_S1000x288_S288x96_S1000x96_1_0_0_1_n_n rfl dot_S1000x96_S96x96_S1000x96_1_0_0_1_n_n rfl (some .fp32) (some .fp32)
    (concatenate S1000x288 1 [⟨S1000x96, x0⟩, ⟨S1000x96, x1⟩, ⟨S1000x96, x2⟩] concatenates_S1000x96_S1000x96_S1000x96_S1000x288_d1)
    w1 b1 shapeCasts_S96_S1x96 broadcasts_S1x96_S1000x96 w2 b2 shapeCasts_S96_S1x96 broadcasts_S1x96_S1000x96 p q

/-- The stored new position encoding at row p, column q of the tile: the perceptron of row p of [pe | agg's first 48 columns]. -/
theorem payP_apply (x1 x2 : Vec Ideal S1000x96 .f32) (w1 : Vec Ideal S144x96 .f32) (b1 : Vec Ideal S96 .f32)
    (w2 : Vec Ideal S96x96 .f32) (b2 : Vec Ideal S96 .f32) (p : Fin 1000) (q : Fin 96) :
    k2_pay1 (k2_pay5 x1 x2 w1 b1) w2 b2 (ix2 p q)
      = mlp relu id (rows (concatenate S1000x144 1 [⟨S1000x96, x1⟩, ⟨S1000x48, extractStridedSlice S1000x48 ![0, 0] x2 slices_S1000x96_o0_0_S1000x48⟩] concatenates_S1000x96_S1000x48_S1000x144_d1) p)
          (mat w1) (vec b1) (mat w2) (vec b2) q := by
  unfold k2_pay1 k2_pay5 k2_pay2 k2_pay3
  rw [shapeCast_self x1, shapeCast_self x2]
  simp only [shapeCast_self]
  exact kMlp_full (n := 1000) (φ₁ := .f32) (φ₂ := .f32) (φ₄ := .f32) id dot_S1000x144_S144x96_S1000x96_1_0_0_1_n_n rfl dot_S1000x96_S96x96_S1000x96_1_0_0_1_n_n rfl (some .fp32) (some .fp32)
    _ w1 b1 shapeCasts_S96_S1x96 broadcasts_S1x96_S1000x96 w2 b2 shapeCasts_S96_S1x96 broadcasts_S1x96_S1000x96 p q

/-- The printed index maps over the grid: the three node windows and both outputs sit on tile t, the weights at 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_11.index t (0 : Fin 2) = t.val ∧ win2_11.index t (1 : Fin 2) = 0
    ∧ win2_12.index t (0 : Fin 2) = t.val ∧ win2_12.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = 0 ∧ win2_7.index t (1 : Fin 2) = 0
    ∧ win2_8.index t (0 : Fin 1) = 0
    ∧ win2_9.index t (0 : Fin 2) = 0 ∧ win2_9.index t (1 : Fin 2) = 0
    ∧ win2_10.index t (0 : Fin 1) = 0 :=
  (by decide +kernel : ∀ t : Fin grid2.N, _)

/-- What grid point t writes back to the node-state output is tile t of the perceptron of every row of [h | pe | agg]. -/
theorem flushedH_eq (c : Dev nD) (t : Fin cfg2.N) :
    (dat2 V c).flushed 11 t = ((cfg2.win 11).blk t).view.read (Elt Ideal)
      (mlpRows (concatenate (⟨2, ![10000, 288]⟩ : Shape) 1 [⟨⟨2, ![10000, 96]⟩, V c main_v29_0⟩, ⟨⟨2, ![10000, 96]⟩, V c main_v29_1⟩, ⟨⟨2, ![10000, 96]⟩, V c main_v75⟩] hcat3) (V c main_v77) (V c main_v79) (V c main_v81) (V c main_v83)) := by
  show (cfg2.win 11).cut (grid2.coords t) ((dat2 V c).after 11 t) = _
  rw [after2_11]
  unfold out2_11
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payH_apply (iblk2 V c 0 t) (iblk2 V c 1 t) (iblk2 V c 2 t) (iblk2 V c 3 t) (iblk2 V c 4 t) (iblk2 V c 5 t) (iblk2 V c 6 t) p q).trans ?_
  obtain ⟨P, hP⟩ : ∃ P : Fin 10000, P = (((cfg2.win 11).blk t).view.emb (ix2 p q)) 0 := ⟨_, rfl⟩
  have hPv : P.val = win2_11.index t (0 : Fin 2) * 1000 + 1 * p.val := by rw [hP]; rfl
  show mlp relu id (rows (concatenate S1000x288 1 [⟨S1000x96, iblk2 V c 0 t⟩, ⟨S1000x96, iblk2 V c 1 t⟩, ⟨S1000x96, iblk2 V c 2 t⟩] concatenates_S1000x96_S1000x96_S1000x96_S1000x288_d1) p) (mat (iblk2 V c 3 t)) (vec (iblk2 V c 4 t)) (mat (iblk2 V c 5 t)) (vec (iblk2 V c 6 t)) q
    = mlp relu id (rows (concatenate (⟨2, ![10000, 288]⟩ : Shape) 1 [⟨⟨2, ![10000, 96]⟩, V c main_v29_0⟩, ⟨⟨2, ![10000, 96]⟩, V c main_v29_1⟩, ⟨⟨2, ![10000, 96]⟩, V c main_v75⟩] hcat3) ((((cfg2.win 11).blk t).view.emb (ix2 p q)) 0))
      (mat (V c main_v77)) (vec (V c main_v79)) (mat (V c main_v81)) (vec (V c main_v83)) ((((cfg2.win 11).blk t).view.emb (ix2 p q)) 1)
  rw [← hP]
  have ha : ∀ j : Fin 96, iblk2 V c 0 t (ix2 p j) = V c main_v29_0 (ix2 P j) := fun j => by
    show V c main_v29_0 (((cfg2.win 0).blk t).view.emb (ix2 p j)) = V c main_v29_0 (ix2 P j)
    refine congrArg (V c main_v29_0) (funext fun ax => Fin.ext ?_)
    match ax with
    | ⟨0, _⟩ => show win2_0.index t (0 : Fin 2) * 1000 + 1 * p.val = P.val; omega
    | ⟨1, _⟩ => show win2_0.index t (1 : Fin 2) * 96 + 1 * j.val = j.val; omega
  have hb : ∀ j : Fin 96, iblk2 V c 1 t (ix2 p j) = V c main_v29_1 (ix2 P j) := fun j => by
    show V c main_v29_1 (((cfg2.win 1).blk t).view.emb (ix2 p j)) = V c main_v29_1 (ix2 P j)
    refine congrArg (V c main_v29_1) (funext fun ax => Fin.ext ?_)
    match ax with
    | ⟨0, _⟩ => show win2_1.index t (0 : Fin 2) * 1000 + 1 * p.val = P.val; omega
    | ⟨1, _⟩ => show win2_1.index t (1 : Fin 2) * 96 + 1 * j.val = j.val; omega
  have hc : ∀ j : Fin 96, iblk2 V c 2 t (ix2 p j) = V c main_v75 (ix2 P j) := fun j => by
    show V c main_v75 (((cfg2.win 2).blk t).view.emb (ix2 p j)) = V c main_v75 (ix2 P j)
    refine congrArg (V c main_v75) (funext fun ax => Fin.ext ?_)
    match ax with
    | ⟨0, _⟩ => show win2_2.index t (0 : Fin 2) * 1000 + 1 * p.val = P.val; omega
    | ⟨1, _⟩ => show win2_2.index t (1 : Fin 2) * 96 + 1 * j.val = j.val; omega
  have hX : rows (concatenate S1000x288 1 [⟨S1000x96, iblk2 V c 0 t⟩, ⟨S1000x96, iblk2 V c 1 t⟩, ⟨S1000x96, iblk2 V c 2 t⟩] concatenates_S1000x96_S1000x96_S1000x96_S1000x288_d1) p = rows (concatenate (⟨2, ![10000, 288]⟩ : Shape) 1 [⟨⟨2, ![10000, 96]⟩, V c main_v29_0⟩, ⟨⟨2, ![10000, 96]⟩, V c main_v29_1⟩, ⟨⟨2, ![10000, 96]⟩, V c main_v75⟩] hcat3) P :=
    funext fun k => concat3_rows (iblk2 V c 0 t) (iblk2 V c 1 t) (iblk2 V c 2 t) (V c main_v29_0) (V c main_v29_1) (V c main_v75) _ hcat3 p P ha hb hc k
  have hW1 : mat (iblk2 V c 3 t) = mat (V c main_v77) := by
    funext a b
    show V c main_v77 (((cfg2.win 3).blk t).view.emb (ix2 a b)) = V c main_v77 (ix2 a b)
    refine congrArg (V c main_v77) (funext fun ax => Fin.ext ?_)
    match ax with
    | ⟨0, _⟩ => show win2_3.index t (0 : Fin 2) * 288 + 1 * a.val = a.val; omega
    | ⟨1, _⟩ => show win2_3.index t (1 : Fin 2) * 96 + 1 * b.val = b.val; omega
  have hb1 : vec (iblk2 V c 4 t) = vec (V c main_v79) := by
    funext a
    show V c main_v79 (((cfg2.win 4).blk t).view.emb (ix1 a)) = V c main_v79 (ix1 a)
    refine congrArg (V c main_v79) (funext fun ax => Fin.ext ?_)
    match ax with
    | ⟨0, _⟩ => show win2_4.index t (0 : Fin 1) * 96 + 1 * a.val = a.val; omega
  have hW2 : mat (iblk2 V c 5 t) = mat (V c main_v81) := by
    funext a b
    show V c main_v81 (((cfg2.win 5).blk t).view.emb (ix2 a b)) = V c main_v81 (ix2 a b)
    refine congrArg (V c main_v81) (funext fun ax => Fin.ext ?_)
    match ax with
    | ⟨0, _⟩ => show win2_5.index t (0 : Fin 2) * 96 + 1 * a.val = a.val; omega
    | ⟨1, _⟩ => show win2_5.index t (1 : Fin 2) * 96 + 1 * b.val = b.val; omega
  have hb2 : vec (iblk2 V c 6 t) = vec (V c main_v83) := by
    funext a
    show V c main_v83 (((cfg2.win 6).blk t).view.emb (ix1 a)) = V c main_v83 (ix1 a)
    refine congrArg (V c main_v83) (funext fun ax => Fin.ext ?_)
    match ax with
    | ⟨0, _⟩ => show win2_6.index t (0 : Fin 1) * 96 + 1 * a.val = a.val; omega
  have hq : (((cfg2.win 11).blk t).view.emb (ix2 p q)) 1 = q :=
    Fin.ext (by show win2_11.index t (1 : Fin 2) * 96 + 1 * q.val = q.val; omega)
  rw [hX, hW1, hb1, hW2, hb2, hq]

/-- What grid point t writes back to the position-encoding output is tile t of the perceptron of every row of
    [pe | agg's first 48 columns]. -/
theorem flushedP_eq (c : Dev nD) (t : Fin cfg2.N) :
    (dat2 V c).flushed 12 t = ((cfg2.win 12).blk t).view.read (Elt Ideal)
      (mlpRows (concatenate (⟨2, ![10000, 144]⟩ : Shape) 1 [⟨⟨2, ![10000, 96]⟩, V c main_v29_1⟩, ⟨⟨2, ![10000, 48]⟩, extractStridedSlice (⟨2, ![10000, 48]⟩ : Shape) ![0, 0] (V c main_v75) hsl⟩] hcat2) (V c main_v85) (V c main_v87) (V c main_v89) (V c main_v91)) := by
  show (cfg2.win 12).cut (grid2.coords t) ((dat2 V c).after 12 t) = _
  rw [after2_12]
  unfold out2_12
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payP_apply (iblk2 V c 1 t) (iblk2 V c 2 t) (iblk2 V c 7 t) (iblk2 V c 8 t) (iblk2 V c 9 t) (iblk2 V c 10 t) p q).trans ?_
  obtain ⟨P, hP⟩ : ∃ P : Fin 10000, P = (((cfg2.win 12).blk t).view.emb (ix2 p q)) 0 := ⟨_, rfl⟩
  have hPv : P.val = win2_12.index t (0 : Fin 2) * 1000 + 1 * p.val := by rw [hP]; rfl
  show mlp relu id (rows (concatenate S1000x144 1 [⟨S1000x96, iblk2 V c 1 t⟩, ⟨S1000x48, extractStridedSlice S1000x48 ![0, 0] (iblk2 V c 2 t) slices_S1000x96_o0_0_S1000x48⟩] concatenates_S1000x96_S1000x48_S1000x144_d1) p) (mat (iblk2 V c 7 t)) (vec (iblk2 V c 8 t)) (mat (iblk2 V c 9 t)) (vec (iblk2 V c 10 t)) q
    = mlp relu id (rows (concatenate (⟨2, ![10000, 144]⟩ : Shape) 1 [⟨⟨2, ![10000, 96]⟩, V c main_v29_1⟩, ⟨⟨2, ![10000, 48]⟩, extractStridedSlice (⟨2, ![10000, 48]⟩ : Shape) ![0, 0] (V c main_v75) hsl⟩] hcat2) ((((cfg2.win 12).blk t).view.emb (ix2 p q)) 0))
      (mat (V c main_v85)) (vec (V c main_v87)) (mat (V c main_v89)) (vec (V c main_v91)) ((((cfg2.win 12).blk t).view.emb (ix2 p q)) 1)
  rw [← hP]
  have hb : ∀ j : Fin 96, iblk2 V c 1 t (ix2 p j) = V c main_v29_1 (ix2 P j) := fun j => by
    show V c main_v29_1 (((cfg2.win 1).blk t).view.emb (ix2 p j)) = V c main_v29_1 (ix2 P j)
    refine congrArg (V c main_v29_1) (funext fun ax => Fin.ext ?_)
    match ax with
    | ⟨0, _⟩ => show win2_1.index t (0 : Fin 2) * 1000 + 1 * p.val = P.val; omega
    | ⟨1, _⟩ => show win2_1.index t (1 : Fin 2) * 96 + 1 * j.val = j.val; omega
  have hc : ∀ j : Fin 96, iblk2 V c 2 t (ix2 p j) = V c main_v75 (ix2 P j) := fun j => by
    show V c main_v75 (((cfg2.win 2).blk t).view.emb (ix2 p j)) = V c main_v75 (ix2 P j)
    refine congrArg (V c main_v75) (funext fun ax => Fin.ext ?_)
    match ax with
    | ⟨0, _⟩ => show win2_2.index t (0 : Fin 2) * 1000 + 1 * p.val = P.val; omega
    | ⟨1, _⟩ => show win2_2.index t (1 : Fin 2) * 96 + 1 * j.val = j.val; omega
  have hs : ∀ j : Fin 48, extractStridedSlice S1000x48 ![0, 0] (iblk2 V c 2 t) slices_S1000x96_o0_0_S1000x48 (ix2 p j)
      = extractStridedSlice (⟨2, ![10000, 48]⟩ : Shape) ![0, 0] (V c main_v75) hsl (ix2 P j) := fun j => by
    rw [slice48_apply, slice48_apply]; exact hc _
  have hX : rows (concatenate S1000x144 1 [⟨S1000x96, iblk2 V c 1 t⟩, ⟨S1000x48, extractStridedSlice S1000x48 ![0, 0] (iblk2 V c 2 t) slices_S1000x96_o0_0_S1000x48⟩] concatenates_S1000x96_S1000x48_S1000x144_d1) p = rows (concatenate (⟨2, ![10000, 144]⟩ : Shape) 1 [⟨⟨2, ![10000, 96]⟩, V c main_v29_1⟩, ⟨⟨2, ![10000, 48]⟩, extractStridedSlice (⟨2, ![10000, 48]⟩ : Shape) ![0, 0] (V c main_v75) hsl⟩] hcat2) P := by
    funext k
    show (concatenate S1000x144 1 [⟨S1000x96, iblk2 V c 1 t⟩, ⟨S1000x48, extractStridedSlice S1000x48 ![0, 0] (iblk2 V c 2 t) slices_S1000x96_o0_0_S1000x48⟩] concatenates_S1000x96_S1000x48_S1000x144_d1) (ix2 p k) = (concatenate (⟨2, ![10000, 144]⟩ : Shape) 1 [⟨⟨2, ![10000, 96]⟩, V c main_v29_1⟩, ⟨⟨2, ![10000, 48]⟩, extractStridedSlice (⟨2, ![10000, 48]⟩ : Shape) ![0, 0] (V c main_v75) hsl⟩] hcat2) (ix2 P k)
    exact concat2_rows (iblk2 V c 1 t) (extractStridedSlice S1000x48 ![0, 0] (iblk2 V c 2 t) slices_S1000x96_o0_0_S1000x48)
      (V c main_v29_1) (extractStridedSlice (⟨2, ![10000, 48]⟩ : Shape) ![0, 0] (V c main_v75) hsl) concatenates_S1000x96_S1000x48_S1000x144_d1 hcat2 p P hb hs k
  have hW1 : mat (iblk2 V c 7 t) = mat (V c main_v85) := by
    funext a b
    show V c main_v85 (((cfg2.win 7).blk t).view.emb (ix2 a b)) = V c main_v85 (ix2 a b)
    refine congrArg (V c main_v85) (funext fun ax => Fin.ext ?_)
    match ax with
    | ⟨0, _⟩ => show win2_7.index t (0 : Fin 2) * 144 + 1 * a.val = a.val; omega
    | ⟨1, _⟩ => show win2_7.index t (1 : Fin 2) * 96 + 1 * b.val = b.val; omega
  have hb1 : vec (iblk2 V c 8 t) = vec (V c main_v87) := by
    funext a
    show V c main_v87 (((cfg2.win 8).blk t).view.emb (ix1 a)) = V c main_v87 (ix1 a)
    refine congrArg (V c main_v87) (funext fun ax => Fin.ext ?_)
    match ax with
    | ⟨0, _⟩ => show win2_8.index t (0 : Fin 1) * 96 + 1 * a.val = a.val; omega
  have hW2 : mat (iblk2 V c 9 t) = mat (V c main_v89) := by
    funext a b
    show V c main_v89 (((cfg2.win 9).blk t).view.emb (ix2 a b)) = V c main_v89 (ix2 a b)
    refine congrArg (V c main_v89) (funext fun ax => Fin.ext ?_)
    match ax with
    | ⟨0, _⟩ => show win2_9.index t (0 : Fin 2) * 96 + 1 * a.val = a.val; omega
    | ⟨1, _⟩ => show win2_9.index t (1 : Fin 2) * 96 + 1 * b.val = b.val; omega
  have hb2 : vec (iblk2 V c 10 t) = vec (V c main_v91) := by
    funext a
    show V c main_v91 (((cfg2.win 10).blk t).view.emb (ix1 a)) = V c main_v91 (ix1 a)
    refine congrArg (V c main_v91) (funext fun ax => Fin.ext ?_)
    match ax with
    | ⟨0, _⟩ => show win2_10.index t (0 : Fin 1) * 96 + 1 * a.val = a.val; omega
  have hq : (((cfg2.win 12).blk t).view.emb (ix2 p q)) 1 = q :=
    Fin.ext (by show win2_12.index t (1 : Fin 2) * 96 + 1 * q.val = q.val; omega)
  rw [hX, hW1, hb1, hW2, hb2, hq]

/-- An index of output array 11 is in tile t iff each coordinate is in the tile's range on its axis. -/
theorem mem_blk11 (t : Fin cfg2.N) (i : S10000x96.Idx) :
    i ∈ ((cfg2.win 11).blk t).view.set ↔ ∀ a : Fin 2, win2_11.index t a * S1000x96.size a ≤ (i a).val ∧ (i a).val < win2_11.index t a * S1000x96.size a + S1000x96.size a := by
  show i ∈ ((View.whole main_v92_0).slice (win2_11.rect t)).set ↔ _
  rw [View.set_slice_whole, Rect.mem_set_unit]
  exact Iff.rfl

/-- The ten tiles cover output array 11: row r is in tile r / 1000. -/
theorem cover11 (i : S10000x96.Idx) : ∃ t : Fin cfg2.N, (cfg2.win 11).flush t = true ∧ i ∈ ((cfg2.win 11).blk t).view.set := by
  have hi0 : (i 0).val < 10000 := (i 0).isLt
  have hi1 : (i 1).val < 96 := (i 1).isLt
  have hN : (i 0).val / 1000 < cfg2.N := by show (i 0).val / 1000 < grid2.N; rw [N_2]; omega
  refine ⟨⟨(i 0).val / 1000, hN⟩, flush2_11 _, ?_⟩
  rw [mem_blk11]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win2_11.index ⟨(i 0).val / 1000, hN⟩ (0 : Fin 2) * 1000 ≤ (i 0).val ∧ (i 0).val < win2_11.index ⟨(i 0).val / 1000, hN⟩ (0 : Fin 2) * 1000 + 1000
    rw [e11]; show (i 0).val / 1000 * 1000 ≤ (i 0).val ∧ (i 0).val < (i 0).val / 1000 * 1000 + 1000; omega
  | ⟨1, _⟩ =>
    show win2_11.index ⟨(i 0).val / 1000, hN⟩ (1 : Fin 2) * 96 ≤ (i 1).val ∧ (i 1).val < win2_11.index ⟨(i 0).val / 1000, hN⟩ (1 : Fin 2) * 96 + 96
    rw [e11']; omega

/-- An index of output array 12 is in tile t iff each coordinate is in the tile's range on its axis. -/
theorem mem_blk12 (t : Fin cfg2.N) (i : S10000x96.Idx) :
    i ∈ ((cfg2.win 12).blk t).view.set ↔ ∀ a : Fin 2, win2_12.index t a * S1000x96.size a ≤ (i a).val ∧ (i a).val < win2_12.index t a * S1000x96.size a + S1000x96.size a := by
  show i ∈ ((View.whole main_v92_1).slice (win2_12.rect t)).set ↔ _
  rw [View.set_slice_whole, Rect.mem_set_unit]
  exact Iff.rfl

/-- The ten tiles cover output array 12: row r is in tile r / 1000. -/
theorem cover12 (i : S10000x96.Idx) : ∃ t : Fin cfg2.N, (cfg2.win 12).flush t = true ∧ i ∈ ((cfg2.win 12).blk t).view.set := by
  have hi0 : (i 0).val < 10000 := (i 0).isLt
  have hi1 : (i 1).val < 96 := (i 1).isLt
  have hN : (i 0).val / 1000 < cfg2.N := by show (i 0).val / 1000 < grid2.N; rw [N_2]; omega
  refine ⟨⟨(i 0).val / 1000, hN⟩, flush2_12 _, ?_⟩
  rw [mem_blk12]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win2_12.index ⟨(i 0).val / 1000, hN⟩ (0 : Fin 2) * 1000 ≤ (i 0).val ∧ (i 0).val < win2_12.index ⟨(i 0).val / 1000, hN⟩ (0 : Fin 2) * 1000 + 1000
    rw [e12]; show (i 0).val / 1000 * 1000 ≤ (i 0).val ∧ (i 0).val < (i 0).val / 1000 * 1000 + 1000; omega
  | ⟨1, _⟩ =>
    show win2_12.index ⟨(i 0).val / 1000, hN⟩ (1 : Fin 2) * 96 ≤ (i 1).val ∧ (i 1).val < win2_12.index ⟨(i 0).val / 1000, hN⟩ (1 : Fin 2) * 96 + 96
    rw [e12']; omega

/-- After the region the new node states are the perceptron of every row of [h | pe | agg] as the region found them. -/
theorem finalH (c : Dev nD) : (dat2 V c).arrAt 11 cfg2.N
    = mlpRows (concatenate (⟨2, ![10000, 288]⟩ : Shape) 1 [⟨⟨2, ![10000, 96]⟩, V c main_v29_0⟩, ⟨⟨2, ![10000, 96]⟩, V c main_v29_1⟩, ⟨⟨2, ![10000, 96]⟩, V c main_v75⟩] hcat3) (V c main_v77) (V c main_v79) (V c main_v81) (V c main_v83) :=
  (dat2 V c).arrAt_eq_of_cover 11 _ (fun t _ => flushedH_eq V c t) cover11

/-- After the region the new position encodings are the perceptron of every row of [pe | agg's first 48 columns]. -/
theorem finalP (c : Dev nD) : (dat2 V c).arrAt 12 cfg2.N
    = mlpRows (concatenate (⟨2, ![10000, 144]⟩ : Shape) 1 [⟨⟨2, ![10000, 96]⟩, V c main_v29_1⟩, ⟨⟨2, ![10000, 48]⟩, extractStridedSlice (⟨2, ![10000, 48]⟩ : Shape) ![0, 0] (V c main_v75) hsl⟩] hcat2) (V c main_v85) (V c main_v87) (V c main_v89) (V c main_v91) :=
  (dat2 V c).arrAt_eq_of_cover 12 _ (fun t _ => flushedP_eq V c t) cover12

end Cert.KernelIdeal.Update2

end
-- ==== Proof.Region3.lean ====
/-
  A message region: what its output array holds after the run.

  Grid point t of forty takes rows 4000·t … 4000·t + 3999 of the four gathered node arrays and of the distance column, and
  the six weight arrays whole.  It sets the five row blocks side by side (385 columns), applies two dense layers with the
  rectifier after each, gates the result by the logistic function of one more dense layer onto a single column, and stores
  the gated rows.  Row p of the tile depends on row 4000·t + p of the five inputs alone, so the forty tiles together are
  the gated message of every row of the five whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Message3

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The five whole edge arrays set side by side have 385 columns. -/
theorem hcat : Shape.Concatenates [(⟨2, ![160000, 96]⟩ : Shape), ⟨2, ![160000, 96]⟩, ⟨2, ![160000, 96]⟩, ⟨2, ![160000, 96]⟩, ⟨2, ![160000, 1]⟩] ⟨2, ![160000, 385]⟩ 1 := by decide

/-- The body's stored value at row p, column q of the tile: the gated message of row p of the tile's five blocks set side by side. -/
theorem pay_apply (x0 x1 x2 x3 : Vec Ideal S4000x96 .f32) (x4 : Vec Ideal S4000x1 .f32) (w1 : Vec Ideal S385x96 .f32)
    (b1 : Vec Ideal S96 .f32) (w2 : Vec Ideal S96x96 .f32) (b2 : Vec Ideal S96 .f32) (g : Vec Ideal S96x1 .f32) (gb : Vec Ideal S1 .f32)
    (p : Fin 4000) (q : Fin 96) :
    k3_pay1 (k3_pay2 x0 x1 x2 x3 x4 w1 b1 w2 b2) (k3_pay3 x0 x1 x2 x3 x4 w1 b1 w2 b2 g) gb (ix2 p q)
      = msgRow (rows (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1) p)
          (mat w1) (vec b1) (mat w2) (vec b2) (mat g) (vec gb) q := by
  unfold k3_pay1 k3_pay3 k3_pay2
  rw [shapeCast_self x0, shapeCast_self x1, shapeCast_self x2, shapeCast_self x3, shapeCast_self x4]
  simp only [shapeCast_self]
  exact kMsg_full (n := 4000) (φ₁ := .f32) (φ₂ := .f32) (φ₄ := .f32) (φ₅ := .f32) dot_S4000x385_S385x96_S4000x96_1_0_0_1_n_n rfl dot_S4000x96_S96x96_S4000x96_1_0_0_1_n_n rfl
    dot_S4000x96_S96x1_S4000x1_1_0_0_1_n_n rfl (some .fp32) (some .fp32) (some .fp32)
    (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1)
    w1 b1 shapeCasts_S96_S1x96 broadcasts_S1x96_S4000x96 w2 b2 shapeCasts_S96_S1x96 broadcasts_S1x96_S4000x96 g gb
    shapeCasts_S1_S1x1 broadcasts_S1x1_S4000x1 broadcasts_S4000x1_S4000x96 p q

/-- The printed index maps over the grid: the five edge windows and the output window sit on tile t, the weights at 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_11.index t (0 : Fin 2) = t.val ∧ win3_11.index t (1 : Fin 2) = 0
    ∧ win3_5.index t (0 : Fin 2) = 0 ∧ win3_5.index t (1 : Fin 2) = 0
    ∧ win3_6.index t (0 : Fin 1) = 0
    ∧ win3_7.index t (0 : Fin 2) = 0 ∧ win3_7.index t (1 : Fin 2) = 0
    ∧ win3_8.index t (0 : Fin 1) = 0
    ∧ win3_9.index t (0 : Fin 2) = 0 ∧ win3_9.index t (1 : Fin 2) = 0
    ∧ win3_10.index t (0 : Fin 1) = 0 :=
  (by decide +kernel : ∀ t : Fin grid3.N, _)

/-- What grid point t writes back is tile t of the gated message of every row of the five whole arrays side by side. -/
theorem flushed_eq (c : Dev nD) (t : Fin cfg3.N) :
    (dat3 V c).flushed 11 t = ((cfg3.win 11).blk t).view.read (Elt Ideal)
      (msgRows (concatenate (⟨2, ![160000, 385]⟩ : Shape) 1 [⟨⟨2, ![160000, 96]⟩, V c main_v99⟩, ⟨⟨2, ![160000, 96]⟩, V c main_v106⟩, ⟨⟨2, ![160000, 96]⟩, V c main_v113⟩, ⟨⟨2, ![160000, 96]⟩, V c main_v120⟩, ⟨⟨2, ![160000, 1]⟩, V c main_v22⟩] hcat)
        (V c main_v122) (V c main_v124) (V c main_v126) (V c main_v128) (V c main_v130) (V c main_v132)) := by
  show (cfg3.win 11).cut (grid3.coords t) ((dat3 V c).after 11 t) = _
  rw [after3_11]
  unfold out3_11
  rw [View.canon_unit_zero hz2]
  simp only [View.ld_unit_zero (S := S4000x96) hz2, View.ld_unit_zero (S := S4000x1) hz2, View.ld_unit_zero (S := S385x96) hz2,
    View.ld_unit_zero (S := S96x96) hz2, View.ld_unit_zero (S := S96x1) hz2, View.ld_unit_zero (S := S96) hz1, View.ld_unit_zero (S := S1) hz1]
  obtain ⟨e0, e0', e1, e1', e2, e2', e3, e3', e4, e4', e11, e11', e5, e5', e6, e7, e7', e8, e9, e9', e10⟩ := idx_facts t
  funext j
  obtain ⟨p, q, rfl⟩ : ∃ (p : Fin 4000) (q : Fin 96), j = ix2 p q := ⟨j 0, j 1, eq_ix2 j⟩
  refine (pay_apply (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) p q).trans ?_
  obtain ⟨P, hP⟩ : ∃ P : Fin 160000, P = (((cfg3.win 11).blk t).view.emb (ix2 p q)) 0 := ⟨_, rfl⟩
  have hPv : P.val = win3_11.index t (0 : Fin 2) * 4000 + 1 * p.val := by rw [hP]; rfl
  show msgRow (rows (concatenate S4000x385 1 [⟨S4000x96, iblk3 V c 0 t⟩, ⟨S4000x96, iblk3 V c 1 t⟩, ⟨S4000x96, iblk3 V c 2 t⟩, ⟨S4000x96, iblk3 V c 3 t⟩, ⟨S4000x1, iblk3 V c 4 t⟩] concatenates_S4000x96_S4000x96_S4000x96_S4000x96_S4000x1_S4000x385_d1) p)
      (mat (iblk3 V c 5 t)) (vec (iblk3 V c 6 t)) (mat (iblk3 V c 7 t)) (vec (iblk3 V c 8 t)) (mat (iblk3 V c 9 t)) (vec (iblk3 V c 10 t)) q
    = msgRow (rows (concatenate (⟨2, ![160000, 385]⟩ : Shape) 1 [⟨⟨2, ![160000, 96]⟩, V c main_v99⟩, ⟨⟨2, ![160000, 96]⟩, V c main_v106⟩, ⟨⟨2, ![160000, 96]⟩, V c main_v113⟩, ⟨⟨2, ![160000, 96]⟩, V c main_v120⟩, ⟨⟨2, ![160000, 1]⟩, V c main_v22⟩] hcat) ((((cfg3.win 11).blk t).view.emb (ix2 p q)) 0))
      (mat (V c main_v122)) (vec (V c main_v124)) (mat (V c main_v126)) (vec (V c main_v128)) (mat (V c main_v130)) (vec (V c main_v132)) ((((cfg3.win 11).blk t).view.emb (ix2 p q)) 1)
  rw [← hP]
  have ha : ∀ j : Fin 96, iblk3 V c 0 t (ix2 p j) = V c main_v99 (ix2 P j) := fun j => by
    show V c main_v99 (((cfg3.win 0).blk t).view.emb (ix2 p j)) = V c main_v99 (ix2 P j)
    refine congrArg (V c main_v99) (funext fun ax => Fin.ext ?_)
    match ax with
    | ⟨0, _⟩ => show win3_0.index t (0 : Fin 2) * 4000 + 1 * p.val = P.val; omega
    | ⟨1, _⟩ => show win3_0.index t (1 : Fin 2) * 96 + 1 * j.val = j.val; omega
  have hb : ∀ j : Fin 96, iblk3 V c 1 t (ix2 p j) = V c main_v106 (ix2 P j) := fun j => by
    show V c main_v106 (((cfg3.win 1).blk t).view.emb (ix2 p j)) = V c main_v106 (ix2 P j)
    refine congrArg (V c main_v106) (funext fun ax => Fin.ext ?_)
    match ax with
    | ⟨0, _⟩ => show win3_1.index t (0 : Fin 2) * 4000 + 1 * p.val = P.val; omega
    | ⟨1, _⟩ => show win3_1.index t (1 : Fin 2) * 96 + 1 * j.val = j.val; omega
  have hc : ∀ j : Fin 96, iblk3 V c 2 t (ix2 p j) = V c main_v113 (ix2 P j) := fun j => by
    show V c main_v113 (((cfg3.win 2).blk t).view.emb (ix2 p j)) = V c main_v113 (ix2 P j)
    refine congrArg (V c main_v113) (funext fun ax => Fin.ext ?_)
    match ax with
    | ⟨0, _⟩ => show win3_2.index t (0 : Fin 2) * 4000 + 1 * p.val = P.val; omega
    | ⟨1, _⟩ => show win3_2.index t (1 : Fin 2) * 96 + 1 * j.val = j.val; omega
  have hd : ∀ j : Fin 96, iblk3 V c 3 t (ix2 p j) = V c main_v120 (ix2 P j) := fun j => by
    show V c main_v120 (((cfg3.win 3).blk t).view.emb (ix2 p j)) = V c main_v120 (ix2 P j)
    refine congrArg (V c main_v120) (funext fun ax => Fin.ext ?_)
    match ax with
    | ⟨0, _⟩ => show win3_3.index t (0 : Fin 2) * 4000 + 1 * p.val = P.val; omega
    | ⟨1, _⟩ => show win3_3.index t (1 : Fin 2) * 96 + 1 * j.val = j.val; omega
  have he : ∀ j : Fin 1, iblk3 V c 4 t (ix2 p j) = V c main_v22 (ix2 P j) := fun j => by
    show V c main_v22 (((cfg3.win 4).blk t).view.emb (ix2 p j)) = V c main_v22 (ix2 P j)
    refine congrArg (V c main_v22) (funext fun ax => Fin.ext ?_)
    match ax with
    | ⟨0, _⟩ => show win3_4.index t (0 : Fin 2) * 4000 + 1 * p.val = P.val; omega
    | ⟨1, _⟩ => show win3_4.index t (1 : Fin 2) * 1 + 1 * j.val = j.val; omega
  have hX : rows (concatenate S4000x385 1 [⟨S4000x96, iblk3 V c 0 t⟩, ⟨S4000x96, iblk3 V c 1 t⟩, ⟨S4000x96, iblk3 V c 2 t⟩, ⟨S4000x96, iblk3 V c 3 t⟩, ⟨S4000x1, iblk3 V c 4 t⟩] concatenates_S4000x96_S4000x96_S4000x96_S4000x96_S4000x1_S4000x385_d1) p = rows (concatenate (⟨2, ![160000, 385]⟩ : Shape) 1 [⟨⟨2, ![160000, 96]⟩, V c main_v99⟩, ⟨⟨2, ![160000, 96]⟩, V c main_v106⟩, ⟨⟨2, ![160000, 96]⟩, V c main_v113⟩, ⟨⟨2, ![160000, 96]⟩, V c main_v120⟩, ⟨⟨2, ![160000, 1]⟩, V c main_v22⟩] hcat) P :=
    funext fun k => concat5_rows (iblk3 V c 0 t) (iblk3 V c 1 t) (iblk3 V c 2 t) (iblk3 V c 3 t) (iblk3 V c 4 t)
      (V c main_v99) (V c main_v106) (V c main_v113) (V c main_v120) (V c main_v22) _ hcat p P ha hb hc hd he k
  have hW1 : mat (iblk3 V c 5 t) = mat (V c main_v122) := by
    funext a b
    show V c main_v122 (((cfg3.win 5).blk t).view.emb (ix2 a b)) = V c main_v122 (ix2 a b)
    refine congrArg (V c main_v122) (funext fun ax => Fin.ext ?_)
    match ax with
    | ⟨0, _⟩ => show win3_5.index t (0 : Fin 2) * 385 + 1 * a.val = a.val; omega
    | ⟨1, _⟩ => show win3_5.index t (1 : Fin 2) * 96 + 1 * b.val = b.val; omega
  have hb1 : vec (iblk3 V c 6 t) = vec (V c main_v124) := by
    funext a
    show V c main_v124 (((cfg3.win 6).blk t).view.emb (ix1 a)) = V c main_v124 (ix1 a)
    refine congrArg (V c main_v124) (funext fun ax => Fin.ext ?_)
    match ax with
    | ⟨0, _⟩ => show win3_6.index t (0 : Fin 1) * 96 + 1 * a.val = a.val; omega
  have hW2 : mat (iblk3 V c 7 t) = mat (V c main_v126) := by
    funext a b
    show V c main_v126 (((cfg3.win 7).blk t).view.emb (ix2 a b)) = V c main_v126 (ix2 a b)
    refine congrArg (V c main_v126) (funext fun ax => Fin.ext ?_)
    match ax with
    | ⟨0, _⟩ => show win3_7.index t (0 : Fin 2) * 96 + 1 * a.val = a.val; omega
    | ⟨1, _⟩ => show win3_7.index t (1 : Fin 2) * 96 + 1 * b.val = b.val; omega
  have hb2 : vec (iblk3 V c 8 t) = vec (V c main_v128) := by
    funext a
    show V c main_v128 (((cfg3.win 8).blk t).view.emb (ix1 a)) = V c main_v128 (ix1 a)
    refine congrArg (V c main_v128) (funext fun ax => Fin.ext ?_)
    match ax with
    | ⟨0, _⟩ => show win3_8.index t (0 : Fin 1) * 96 + 1 * a.val = a.val; omega
  have hg : mat (iblk3 V c 9 t) = mat (V c main_v130) := by
    funext a b
    show V c main_v130 (((cfg3.win 9).blk t).view.emb (ix2 a b)) = V c main_v130 (ix2 a b)
    refine congrArg (V c main_v130) (funext fun ax => Fin.ext ?_)
    match ax with
    | ⟨0, _⟩ => show win3_9.index t (0 : Fin 2) * 96 + 1 * a.val = a.val; omega
    | ⟨1, _⟩ => show win3_9.index t (1 : Fin 2) * 1 + 1 * b.val = b.val; omega
  have hgb : vec (iblk3 V c 10 t) = vec (V c main_v132) := by
    funext a
    show V c main_v132 (((cfg3.win 10).blk t).view.emb (ix1 a)) = V c main_v132 (ix1 a)
    refine congrArg (V c main_v132) (funext fun ax => Fin.ext ?_)
    match ax with
    | ⟨0, _⟩ => show win3_10.index t (0 : Fin 1) * 1 + 1 * a.val = a.val; omega
  have hq : (((cfg3.win 11).blk t).view.emb (ix2 p q)) 1 = q :=
    Fin.ext (by show win3_11.index t (1 : Fin 2) * 96 + 1 * q.val = q.val; omega)
  rw [hX, hW1, hb1, hW2, hb2, hg, hgb, hq]

/-- An index of the output array is in tile t iff each coordinate is in the tile's range on its axis. -/
theorem mem_blk (t : Fin cfg3.N) (i : S160000x96.Idx) :
    i ∈ ((cfg3.win 11).blk t).view.set ↔ ∀ a : Fin 2, win3_11.index t a * S4000x96.size a ≤ (i a).val ∧ (i a).val < win3_11.index t a * S4000x96.size a + S4000x96.size a := by
  show i ∈ ((View.whole main_v133).slice (win3_11.rect t)).set ↔ _
  rw [View.set_slice_whole, Rect.mem_set_unit]
  exact Iff.rfl

/-- The forty tiles cover the output array: row r is in tile r / 4000. -/
theorem cover (i : S160000x96.Idx) : ∃ t : Fin cfg3.N, (cfg3.win 11).flush t = true ∧ i ∈ ((cfg3.win 11).blk t).view.set := by
  have hi0 : (i 0).val < 160000 := (i 0).isLt
  have hi1 : (i 1).val < 96 := (i 1).isLt
  have hN : (i 0).val / 4000 < cfg3.N := by show (i 0).val / 4000 < grid3.N; rw [N_3]; omega
  refine ⟨⟨(i 0).val / 4000, hN⟩, flush3_11 _, ?_⟩
  rw [mem_blk]
  obtain ⟨e0, e0', e1, e1', e2, e2', e3, e3', e4, e4', e11, e11', e5, e5', e6, e7, e7', e8, e9, e9', e10⟩ := idx_facts ⟨(i 0).val / 4000, hN⟩
  intro a
  match a with
  | ⟨0, _⟩ =>
    show win3_11.index ⟨(i 0).val / 4000, hN⟩ (0 : Fin 2) * 4000 ≤ (i 0).val ∧ (i 0).val < win3_11.index ⟨(i 0).val / 4000, hN⟩ (0 : Fin 2) * 4000 + 4000
    rw [e11]; show (i 0).val / 4000 * 4000 ≤ (i 0).val ∧ (i 0).val < (i 0).val / 4000 * 4000 + 4000; omega
  | ⟨1, _⟩ =>
    show win3_11.index ⟨(i 0).val / 4000, hN⟩ (1 : Fin 2) * 96 ≤ (i 1).val ∧ (i 1).val < win3_11.index ⟨(i 0).val / 4000, hN⟩ (1 : Fin 2) * 96 + 96
    rw [e11']; omega

/-- After the region the message array holds the gated message of every row of the five arrays as the region found them. -/
theorem final (c : Dev nD) : (dat3 V c).arrAt 11 cfg3.N
    = msgRows (concatenate (⟨2, ![160000, 385]⟩ : Shape) 1 [⟨⟨2, ![160000, 96]⟩, V c main_v99⟩, ⟨⟨2, ![160000, 96]⟩, V c main_v106⟩, ⟨⟨2, ![160000, 96]⟩, V c main_v113⟩, ⟨⟨2, ![160000, 96]⟩, V c main_v120⟩, ⟨⟨2, ![160000, 1]⟩, V c main_v22⟩] hcat)
        (V c main_v122) (V c main_v124) (V c main_v126) (V c main_v128) (V c main_v130) (V c main_v132) :=
  (dat3 V c).arrAt_eq_of_cover 11 _ (fun t _ => flushed_eq V c t) cover

end Cert.KernelIdeal.Message3

end
-- ==== Proof.Region4.lean ====
/-
  A node-update region: what its two output arrays hold after the run.

  Grid point t of ten takes rows 1000·t … 1000·t + 999 of the node states h, the position encodings pe and the aggregated
  messages agg, and the eight weight arrays whole.  The new node states are two dense layers (the rectifier between them)
  of [h | pe | agg] (288 columns); the new position encodings are two dense layers of [pe | the first 48 columns of agg]
  (144 columns).  Row p of either tile depends on row 1000·t + p of the three inputs alone, so the ten tiles together are
  those two perceptrons applied to every row of the whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Update4

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem hcat3 : Shape.Concatenates [(⟨2, ![10000, 96]⟩ : Shape), ⟨2, ![10000, 96]⟩, ⟨2, ![10000, 96]⟩] ⟨2, ![10000, 288]⟩ 1 := by decide
theorem hcat2 : Shape.Concatenates [(⟨2, ![10000, 96]⟩ : Shape), ⟨2, ![10000, 48]⟩] ⟨2, ![10000, 144]⟩ 1 := by decide
theorem hsl : (⟨2, ![10000, 96]⟩ : Shape).Slices ![0, 0] ⟨2, ![10000, 48]⟩ := by decide

/-- The stored new node state at row p, column q of the tile: the perceptron of row p of [h | pe | agg]. -/
theorem payH_apply (x0 x1 x2 : Vec Ideal S1000x96 .f32) (w1 : Vec Ideal S288x96 .f32) (b1 : Vec Ideal S96 .f32)
    (w2 : Vec Ideal S96x96 .f32) (b2 : Vec Ideal S96 .f32) (p : Fin 1000) (q : Fin 96) :
    k4_pay4 x0 x1 x2 w1 b1 w2 b2 (ix2 p q)
      = mlp relu id (rows (concatenate S1000x288 1 [⟨S1000x96, x0⟩, ⟨S1000x96, x1⟩, ⟨S1000x96, x2⟩] concatenates_S1000x96_S1000x96_S1000x96_S1000x288_d1) p)
          (mat w1) (vec b1) (mat w2) (vec b2) q := by
  unfold k4_pay4 k4_pay2 k4_pay3
  rw [shapeCast_self x0, shapeCast_self x1, shapeCast_self x2]
  simp only [shapeCast_self]
  exact kMlp_full (n := 1000) (φ₁ := .f32) (φ₂ := .f32) (φ₄ := .f32) id dot_S1000x288_S288x96_S1000x96_1_0_0_1_n_n rfl dot_S1000x96_S96x96_S1000x96_1_0_0_1_n_n rfl (some .fp32) (some .fp32)
    (concatenate S1000x288 1 [⟨S1000x96, x0⟩, ⟨S1000x96, x1⟩, ⟨S1000x96, x2⟩] concatenates_S1000x96_S1000x96_S1000x96_S1000x288_d1)
    w1 b1 shapeCasts_S96_S1x96 broadcasts_S1x96_S1000x96 w2 b2 shapeCasts_S96_S1x96 broadcasts_S1x96_S1000x96 p q

/-- The stored new position encoding at row p, column q of the tile: the perceptron of row p of [pe | agg's first 48 columns]. -/
theorem payP_apply (x1 x2 : Vec Ideal S1000x96 .f32) (w1 : Vec Ideal S144x96 .f32) (b1 : Vec Ideal S96 .f32)
    (w2 : Vec Ideal S96x96 .f32) (b2 : Vec Ideal S96 .f32) (p : Fin 1000) (q : Fin 96) :
    k4_pay1 (k4_pay5 x1 x2 w1 b1) w2 b2 (ix2 p q)
      = mlp relu id (rows (concatenate S1000x144 1 [⟨S1000x96, x1⟩, ⟨S1000x48, extractStridedSlice S1000x48 ![0, 0] x2 slices_S1000x96_o0_0_S1000x48⟩] concatenates_S1000x96_S1000x48_S1000x144_d1) p)
          (mat w1) (vec b1) (mat w2) (vec b2) q := by
  unfold k4_pay1 k4_pay5 k4_pay2 k4_pay3
  rw [shapeCast_self x1, shapeCast_self x2]
  simp only [shapeCast_self]
  exact kMlp_full (n := 1000) (φ₁ := .f32) (φ₂ := .f32) (φ₄ := .f32) id dot_S1000x144_S144x96_S1000x96_1_0_0_1_n_n rfl dot_S1000x96_S96x96_S1000x96_1_0_0_1_n_n rfl (some .fp32) (some .fp32)
    _ w1 b1 shapeCasts_S96_S1x96 broadcasts_S1x96_S1000x96 w2 b2 shapeCasts_S96_S1x96 broadcasts_S1x96_S1000x96 p q

/-- The printed index maps over the grid: the three node windows and both outputs sit on tile t, the weights at 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_11.index t (0 : Fin 2) = t.val ∧ win4_11.index t (1 : Fin 2) = 0
    ∧ win4_12.index t (0 : Fin 2) = t.val ∧ win4_12.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0
    ∧ win4_8.index t (0 : Fin 1) = 0
    ∧ win4_9.index t (0 : Fin 2) = 0 ∧ win4_9.index t (1 : Fin 2) = 0
    ∧ win4_10.index t (0 : Fin 1) = 0 :=
  (by decide +kernel : ∀ t : Fin grid4.N, _)

/-- What grid point t writes back to the node-state output is tile t of the perceptron of every row of [h | pe | agg]. -/
theorem flushedH_eq (c : Dev nD) (t : Fin cfg4.N) :
    (dat4 V c).flushed 11 t = ((cfg4.win 11).blk t).view.read (Elt Ideal)
      (mlpRows (concatenate (⟨2, ![10000, 288]⟩ : Shape) 1 [⟨⟨2, ![10000, 96]⟩, V c main_v92_0⟩, ⟨⟨2, ![10000, 96]⟩, V c main_v92_1⟩, ⟨⟨2, ![10000, 96]⟩, V c main_v138⟩] hcat3) (V c main_v140) (V c main_v142) (V c main_v144) (V c main_v146)) := by
  show (cfg4.win 11).cut (grid4.coords t) ((dat4 V c).after 11 t) = _
  rw [after4_11]
  unfold out4_11
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payH_apply (iblk4 V c 0 t) (iblk4 V c 1 t) (iblk4 V c 2 t) (iblk4 V c 3 t) (iblk4 V c 4 t) (iblk4 V c 5 t) (iblk4 V c 6 t) p q).trans ?_
  obtain ⟨P, hP⟩ : ∃ P : Fin 10000, P = (((cfg4.win 11).blk t).view.emb (ix2 p q)) 0 := ⟨_, rfl⟩
  have hPv : P.val = win4_11.index t (0 : Fin 2) * 1000 + 1 * p.val := by rw [hP]; rfl
  show mlp relu id (rows (concatenate S1000x288 1 [⟨S1000x96, iblk4 V c 0 t⟩, ⟨S1000x96, iblk4 V c 1 t⟩, ⟨S1000x96, iblk4 V c 2 t⟩] concatenates_S1000x96_S1000x96_S1000x96_S1000x288_d1) p) (mat (iblk4 V c 3 t)) (vec (iblk4 V c 4 t)) (mat (iblk4 V c 5 t)) (vec (iblk4 V c 6 t)) q
    = mlp relu id (rows (concatenate (⟨2, ![10000, 288]⟩ : Shape) 1 [⟨⟨2, ![10000, 96]⟩, V c main_v92_0⟩, ⟨⟨2, ![10000, 96]⟩, V c main_v92_1⟩, ⟨⟨2, ![10000, 96]⟩, V c main_v138⟩] hcat3) ((((cfg4.win 11).blk t).view.emb (ix2 p q)) 0))
      (mat (V c main_v140)) (vec (V c main_v142)) (mat (V c main_v144)) (vec (V c main_v146)) ((((cfg4.win 11).blk t).view.emb (ix2 p q)) 1)
  rw [← hP]
  have ha : ∀ j : Fin 96, iblk4 V c 0 t (ix2 p j) = V c main_v92_0 (ix2 P j) := fun j => by
    show V c main_v92_0 (((cfg4.win 0).blk t).view.emb (ix2 p j)) = V c main_v92_0 (ix2 P j)
    refine congrArg (V c main_v92_0) (funext fun ax => Fin.ext ?_)
    match ax with
    | ⟨0, _⟩ => show win4_0.index t (0 : Fin 2) * 1000 + 1 * p.val = P.val; omega
    | ⟨1, _⟩ => show win4_0.index t (1 : Fin 2) * 96 + 1 * j.val = j.val; omega
  have hb : ∀ j : Fin 96, iblk4 V c 1 t (ix2 p j) = V c main_v92_1 (ix2 P j) := fun j => by
    show V c main_v92_1 (((cfg4.win 1).blk t).view.emb (ix2 p j)) = V c main_v92_1 (ix2 P j)
    refine congrArg (V c main_v92_1) (funext fun ax => Fin.ext ?_)
    match ax with
    | ⟨0, _⟩ => show win4_1.index t (0 : Fin 2) * 1000 + 1 * p.val = P.val; omega
    | ⟨1, _⟩ => show win4_1.index t (1 : Fin 2) * 96 + 1 * j.val = j.val; omega
  have hc : ∀ j : Fin 96, iblk4 V c 2 t (ix2 p j) = V c main_v138 (ix2 P j) := fun j => by
    show V c main_v138 (((cfg4.win 2).blk t).view.emb (ix2 p j)) = V c main_v138 (ix2 P j)
    refine congrArg (V c main_v138) (funext fun ax => Fin.ext ?_)
    match ax with
    | ⟨0, _⟩ => show win4_2.index t (0 : Fin 2) * 1000 + 1 * p.val = P.val; omega
    | ⟨1, _⟩ => show win4_2.index t (1 : Fin 2) * 96 + 1 * j.val = j.val; omega
  have hX : rows (concatenate S1000x288 1 [⟨S1000x96, iblk4 V c 0 t⟩, ⟨S1000x96, iblk4 V c 1 t⟩, ⟨S1000x96, iblk4 V c 2 t⟩] concatenates_S1000x96_S1000x96_S1000x96_S1000x288_d1) p = rows (concatenate (⟨2, ![10000, 288]⟩ : Shape) 1 [⟨⟨2, ![10000, 96]⟩, V c main_v92_0⟩, ⟨⟨2, ![10000, 96]⟩, V c main_v92_1⟩, ⟨⟨2, ![10000, 96]⟩, V c main_v138⟩] hcat3) P :=
    funext fun k => concat3_rows (iblk4 V c 0 t) (iblk4 V c 1 t) (iblk4 V c 2 t) (V c main_v92_0) (V c main_v92_1) (V c main_v138) _ hcat3 p P ha hb hc k
  have hW1 : mat (iblk4 V c 3 t) = mat (V c main_v140) := by
    funext a b
    show V c main_v140 (((cfg4.win 3).blk t).view.emb (ix2 a b)) = V c main_v140 (ix2 a b)
    refine congrArg (V c main_v140) (funext fun ax => Fin.ext ?_)
    match ax with
    | ⟨0, _⟩ => show win4_3.index t (0 : Fin 2) * 288 + 1 * a.val = a.val; omega
    | ⟨1, _⟩ => show win4_3.index t (1 : Fin 2) * 96 + 1 * b.val = b.val; omega
  have hb1 : vec (iblk4 V c 4 t) = vec (V c main_v142) := by
    funext a
    show V c main_v142 (((cfg4.win 4).blk t).view.emb (ix1 a)) = V c main_v142 (ix1 a)
    refine congrArg (V c main_v142) (funext fun ax => Fin.ext ?_)
    match ax with
    | ⟨0, _⟩ => show win4_4.index t (0 : Fin 1) * 96 + 1 * a.val = a.val; omega
  have hW2 : mat (iblk4 V c 5 t) = mat (V c main_v144) := by
    funext a b
    show V c main_v144 (((cfg4.win 5).blk t).view.emb (ix2 a b)) = V c main_v144 (ix2 a b)
    refine congrArg (V c main_v144) (funext fun ax => Fin.ext ?_)
    match ax with
    | ⟨0, _⟩ => show win4_5.index t (0 : Fin 2) * 96 + 1 * a.val = a.val; omega
    | ⟨1, _⟩ => show win4_5.index t (1 : Fin 2) * 96 + 1 * b.val = b.val; omega
  have hb2 : vec (iblk4 V c 6 t) = vec (V c main_v146) := by
    funext a
    show V c main_v146 (((cfg4.win 6).blk t).view.emb (ix1 a)) = V c main_v146 (ix1 a)
    refine congrArg (V c main_v146) (funext fun ax => Fin.ext ?_)
    match ax with
    | ⟨0, _⟩ => show win4_6.index t (0 : Fin 1) * 96 + 1 * a.val = a.val; omega
  have hq : (((cfg4.win 11).blk t).view.emb (ix2 p q)) 1 = q :=
    Fin.ext (by show win4_11.index t (1 : Fin 2) * 96 + 1 * q.val = q.val; omega)
  rw [hX, hW1, hb1, hW2, hb2, hq]

/-- What grid point t writes back to the position-encoding output is tile t of the perceptron of every row of
    [pe | agg's first 48 columns]. -/
theorem flushedP_eq (c : Dev nD) (t : Fin cfg4.N) :
    (dat4 V c).flushed 12 t = ((cfg4.win 12).blk t).view.read (Elt Ideal)
      (mlpRows (concatenate (⟨2, ![10000, 144]⟩ : Shape) 1 [⟨⟨2, ![10000, 96]⟩, V c main_v92_1⟩, ⟨⟨2, ![10000, 48]⟩, extractStridedSlice (⟨2, ![10000, 48]⟩ : Shape) ![0, 0] (V c main_v138) hsl⟩] hcat2) (V c main_v148) (V c main_v150) (V c main_v152) (V c main_v154)) := by
  show (cfg4.win 12).cut (grid4.coords t) ((dat4 V c).after 12 t) = _
  rw [after4_12]
  unfold out4_12
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payP_apply (iblk4 V c 1 t) (iblk4 V c 2 t) (iblk4 V c 7 t) (iblk4 V c 8 t) (iblk4 V c 9 t) (iblk4 V c 10 t) p q).trans ?_
  obtain ⟨P, hP⟩ : ∃ P : Fin 10000, P = (((cfg4.win 12).blk t).view.emb (ix2 p q)) 0 := ⟨_, rfl⟩
  have hPv : P.val = win4_12.index t (0 : Fin 2) * 1000 + 1 * p.val := by rw [hP]; rfl
  show mlp relu id (rows (concatenate S1000x144 1 [⟨S1000x96, iblk4 V c 1 t⟩, ⟨S1000x48, extractStridedSlice S1000x48 ![0, 0] (iblk4 V c 2 t) slices_S1000x96_o0_0_S1000x48⟩] concatenates_S1000x96_S1000x48_S1000x144_d1) p) (mat (iblk4 V c 7 t)) (vec (iblk4 V c 8 t)) (mat (iblk4 V c 9 t)) (vec (iblk4 V c 10 t)) q
    = mlp relu id (rows (concatenate (⟨2, ![10000, 144]⟩ : Shape) 1 [⟨⟨2, ![10000, 96]⟩, V c main_v92_1⟩, ⟨⟨2, ![10000, 48]⟩, extractStridedSlice (⟨2, ![10000, 48]⟩ : Shape) ![0, 0] (V c main_v138) hsl⟩] hcat2) ((((cfg4.win 12).blk t).view.emb (ix2 p q)) 0))
      (mat (V c main_v148)) (vec (V c main_v150)) (mat (V c main_v152)) (vec (V c main_v154)) ((((cfg4.win 12).blk t).view.emb (ix2 p q)) 1)
  rw [← hP]
  have hb : ∀ j : Fin 96, iblk4 V c 1 t (ix2 p j) = V c main_v92_1 (ix2 P j) := fun j => by
    show V c main_v92_1 (((cfg4.win 1).blk t).view.emb (ix2 p j)) = V c main_v92_1 (ix2 P j)
    refine congrArg (V c main_v92_1) (funext fun ax => Fin.ext ?_)
    match ax with
    | ⟨0, _⟩ => show win4_1.index t (0 : Fin 2) * 1000 + 1 * p.val = P.val; omega
    | ⟨1, _⟩ => show win4_1.index t (1 : Fin 2) * 96 + 1 * j.val = j.val; omega
  have hc : ∀ j : Fin 96, iblk4 V c 2 t (ix2 p j) = V c main_v138 (ix2 P j) := fun j => by
    show V c main_v138 (((cfg4.win 2).blk t).view.emb (ix2 p j)) = V c main_v138 (ix2 P j)
    refine congrArg (V c main_v138) (funext fun ax => Fin.ext ?_)
    match ax with
    | ⟨0, _⟩ => show win4_2.index t (0 : Fin 2) * 1000 + 1 * p.val = P.val; omega
    | ⟨1, _⟩ => show win4_2.index t (1 : Fin 2) * 96 + 1 * j.val = j.val; omega
  have hs : ∀ j : Fin 48, extractStridedSlice S1000x48 ![0, 0] (iblk4 V c 2 t) slices_S1000x96_o0_0_S1000x48 (ix2 p j)
      = extractStridedSlice (⟨2, ![10000, 48]⟩ : Shape) ![0, 0] (V c main_v138) hsl (ix2 P j) := fun j => by
    rw [slice48_apply, slice48_apply]; exact hc _
  have hX : rows (concatenate S1000x144 1 [⟨S1000x96, iblk4 V c 1 t⟩, ⟨S1000x48, extractStridedSlice S1000x48 ![0, 0] (iblk4 V c 2 t) slices_S1000x96_o0_0_S1000x48⟩] concatenates_S1000x96_S1000x48_S1000x144_d1) p = rows (concatenate (⟨2, ![10000, 144]⟩ : Shape) 1 [⟨⟨2, ![10000, 96]⟩, V c main_v92_1⟩, ⟨⟨2, ![10000, 48]⟩, extractStridedSlice (⟨2, ![10000, 48]⟩ : Shape) ![0, 0] (V c main_v138) hsl⟩] hcat2) P := by
    funext k
    show (concatenate S1000x144 1 [⟨S1000x96, iblk4 V c 1 t⟩, ⟨S1000x48, extractStridedSlice S1000x48 ![0, 0] (iblk4 V c 2 t) slices_S1000x96_o0_0_S1000x48⟩] concatenates_S1000x96_S1000x48_S1000x144_d1) (ix2 p k) = (concatenate (⟨2, ![10000, 144]⟩ : Shape) 1 [⟨⟨2, ![10000, 96]⟩, V c main_v92_1⟩, ⟨⟨2, ![10000, 48]⟩, extractStridedSlice (⟨2, ![10000, 48]⟩ : Shape) ![0, 0] (V c main_v138) hsl⟩] hcat2) (ix2 P k)
    exact concat2_rows (iblk4 V c 1 t) (extractStridedSlice S1000x48 ![0, 0] (iblk4 V c 2 t) slices_S1000x96_o0_0_S1000x48)
      (V c main_v92_1) (extractStridedSlice (⟨2, ![10000, 48]⟩ : Shape) ![0, 0] (V c main_v138) hsl) concatenates_S1000x96_S1000x48_S1000x144_d1 hcat2 p P hb hs k
  have hW1 : mat (iblk4 V c 7 t) = mat (V c main_v148) := by
    funext a b
    show V c main_v148 (((cfg4.win 7).blk t).view.emb (ix2 a b)) = V c main_v148 (ix2 a b)
    refine congrArg (V c main_v148) (funext fun ax => Fin.ext ?_)
    match ax with
    | ⟨0, _⟩ => show win4_7.index t (0 : Fin 2) * 144 + 1 * a.val = a.val; omega
    | ⟨1, _⟩ => show win4_7.index t (1 : Fin 2) * 96 + 1 * b.val = b.val; omega
  have hb1 : vec (iblk4 V c 8 t) = vec (V c main_v150) := by
    funext a
    show V c main_v150 (((cfg4.win 8).blk t).view.emb (ix1 a)) = V c main_v150 (ix1 a)
    refine congrArg (V c main_v150) (funext fun ax => Fin.ext ?_)
    match ax with
    | ⟨0, _⟩ => show win4_8.index t (0 : Fin 1) * 96 + 1 * a.val = a.val; omega
  have hW2 : mat (iblk4 V c 9 t) = mat (V c main_v152) := by
    funext a b
    show V c main_v152 (((cfg4.win 9).blk t).view.emb (ix2 a b)) = V c main_v152 (ix2 a b)
    refine congrArg (V c main_v152) (funext fun ax => Fin.ext ?_)
    match ax with
    | ⟨0, _⟩ => show win4_9.index t (0 : Fin 2) * 96 + 1 * a.val = a.val; omega
    | ⟨1, _⟩ => show win4_9.index t (1 : Fin 2) * 96 + 1 * b.val = b.val; omega
  have hb2 : vec (iblk4 V c 10 t) = vec (V c main_v154) := by
    funext a
    show V c main_v154 (((cfg4.win 10).blk t).view.emb (ix1 a)) = V c main_v154 (ix1 a)
    refine congrArg (V c main_v154) (funext fun ax => Fin.ext ?_)
    match ax with
    | ⟨0, _⟩ => show win4_10.index t (0 : Fin 1) * 96 + 1 * a.val = a.val; omega
  have hq : (((cfg4.win 12).blk t).view.emb (ix2 p q)) 1 = q :=
    Fin.ext (by show win4_12.index t (1 : Fin 2) * 96 + 1 * q.val = q.val; omega)
  rw [hX, hW1, hb1, hW2, hb2, hq]

/-- An index of output array 11 is in tile t iff each coordinate is in the tile's range on its axis. -/
theorem mem_blk11 (t : Fin cfg4.N) (i : S10000x96.Idx) :
    i ∈ ((cfg4.win 11).blk t).view.set ↔ ∀ a : Fin 2, win4_11.index t a * S1000x96.size a ≤ (i a).val ∧ (i a).val < win4_11.index t a * S1000x96.size a + S1000x96.size a := by
  show i ∈ ((View.whole main_v155_0).slice (win4_11.rect t)).set ↔ _
  rw [View.set_slice_whole, Rect.mem_set_unit]
  exact Iff.rfl

/-- The ten tiles cover output array 11: row r is in tile r / 1000. -/
theorem cover11 (i : S10000x96.Idx) : ∃ t : Fin cfg4.N, (cfg4.win 11).flush t = true ∧ i ∈ ((cfg4.win 11).blk t).view.set := by
  have hi0 : (i 0).val < 10000 := (i 0).isLt
  have hi1 : (i 1).val < 96 := (i 1).isLt
  have hN : (i 0).val / 1000 < cfg4.N := by show (i 0).val / 1000 < grid4.N; rw [N_4]; omega
  refine ⟨⟨(i 0).val / 1000, hN⟩, flush4_11 _, ?_⟩
  rw [mem_blk11]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win4_11.index ⟨(i 0).val / 1000, hN⟩ (0 : Fin 2) * 1000 ≤ (i 0).val ∧ (i 0).val < win4_11.index ⟨(i 0).val / 1000, hN⟩ (0 : Fin 2) * 1000 + 1000
    rw [e11]; show (i 0).val / 1000 * 1000 ≤ (i 0).val ∧ (i 0).val < (i 0).val / 1000 * 1000 + 1000; omega
  | ⟨1, _⟩ =>
    show win4_11.index ⟨(i 0).val / 1000, hN⟩ (1 : Fin 2) * 96 ≤ (i 1).val ∧ (i 1).val < win4_11.index ⟨(i 0).val / 1000, hN⟩ (1 : Fin 2) * 96 + 96
    rw [e11']; omega

/-- An index of output array 12 is in tile t iff each coordinate is in the tile's range on its axis. -/
theorem mem_blk12 (t : Fin cfg4.N) (i : S10000x96.Idx) :
    i ∈ ((cfg4.win 12).blk t).view.set ↔ ∀ a : Fin 2, win4_12.index t a * S1000x96.size a ≤ (i a).val ∧ (i a).val < win4_12.index t a * S1000x96.size a + S1000x96.size a := by
  show i ∈ ((View.whole main_v155_1).slice (win4_12.rect t)).set ↔ _
  rw [View.set_slice_whole, Rect.mem_set_unit]
  exact Iff.rfl

/-- The ten tiles cover output array 12: row r is in tile r / 1000. -/
theorem cover12 (i : S10000x96.Idx) : ∃ t : Fin cfg4.N, (cfg4.win 12).flush t = true ∧ i ∈ ((cfg4.win 12).blk t).view.set := by
  have hi0 : (i 0).val < 10000 := (i 0).isLt
  have hi1 : (i 1).val < 96 := (i 1).isLt
  have hN : (i 0).val / 1000 < cfg4.N := by show (i 0).val / 1000 < grid4.N; rw [N_4]; omega
  refine ⟨⟨(i 0).val / 1000, hN⟩, flush4_12 _, ?_⟩
  rw [mem_blk12]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win4_12.index ⟨(i 0).val / 1000, hN⟩ (0 : Fin 2) * 1000 ≤ (i 0).val ∧ (i 0).val < win4_12.index ⟨(i 0).val / 1000, hN⟩ (0 : Fin 2) * 1000 + 1000
    rw [e12]; show (i 0).val / 1000 * 1000 ≤ (i 0).val ∧ (i 0).val < (i 0).val / 1000 * 1000 + 1000; omega
  | ⟨1, _⟩ =>
    show win4_12.index ⟨(i 0).val / 1000, hN⟩ (1 : Fin 2) * 96 ≤ (i 1).val ∧ (i 1).val < win4_12.index ⟨(i 0).val / 1000, hN⟩ (1 : Fin 2) * 96 + 96
    rw [e12']; omega

/-- After the region the new node states are the perceptron of every row of [h | pe | agg] as the region found them. -/
theorem finalH (c : Dev nD) : (dat4 V c).arrAt 11 cfg4.N
    = mlpRows (concatenate (⟨2, ![10000, 288]⟩ : Shape) 1 [⟨⟨2, ![10000, 96]⟩, V c main_v92_0⟩, ⟨⟨2, ![10000, 96]⟩, V c main_v92_1⟩, ⟨⟨2, ![10000, 96]⟩, V c main_v138⟩] hcat3) (V c main_v140) (V c main_v142) (V c main_v144) (V c main_v146) :=
  (dat4 V c).arrAt_eq_of_cover 11 _ (fun t _ => flushedH_eq V c t) cover11

/-- After the region the new position encodings are the perceptron of every row of [pe | agg's first 48 columns]. -/
theorem finalP (c : Dev nD) : (dat4 V c).arrAt 12 cfg4.N
    = mlpRows (concatenate (⟨2, ![10000, 144]⟩ : Shape) 1 [⟨⟨2, ![10000, 96]⟩, V c main_v92_1⟩, ⟨⟨2, ![10000, 48]⟩, extractStridedSlice (⟨2, ![10000, 48]⟩ : Shape) ![0, 0] (V c main_v138) hsl⟩] hcat2) (V c main_v148) (V c main_v150) (V c main_v152) (V c main_v154) :=
  (dat4 V c).arrAt_eq_of_cover 12 _ (fun t _ => flushedP_eq V c t) cover12

end Cert.KernelIdeal.Update4

end
-- ==== Proof.Region5.lean ====
/-
  A message region: what its output array holds after the run.

  Grid point t of forty takes rows 4000·t … 4000·t + 3999 of the four gathered node arrays and of the distance column, and
  the six weight arrays whole.  It sets the five row blocks side by side (385 columns), applies two dense layers with the
  rectifier after each, gates the result by the logistic function of one more dense layer onto a single column, and stores
  the gated rows.  Row p of the tile depends on row 4000·t + p of the five inputs alone, so the forty tiles together are
  the gated message of every row of the five whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Message5

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The five whole edge arrays set side by side have 385 columns. -/
theorem hcat : Shape.Concatenates [(⟨2, ![160000, 96]⟩ : Shape), ⟨2, ![160000, 96]⟩, ⟨2, ![160000, 96]⟩, ⟨2, ![160000, 96]⟩, ⟨2, ![160000, 1]⟩] ⟨2, ![160000, 385]⟩ 1 := by decide

/-- The body's stored value at row p, column q of the tile: the gated message of row p of the tile's five blocks set side by side. -/
theorem pay_apply (x0 x1 x2 x3 : Vec Ideal S4000x96 .f32) (x4 : Vec Ideal S4000x1 .f32) (w1 : Vec Ideal S385x96 .f32)
    (b1 : Vec Ideal S96 .f32) (w2 : Vec Ideal S96x96 .f32) (b2 : Vec Ideal S96 .f32) (g : Vec Ideal S96x1 .f32) (gb : Vec Ideal S1 .f32)
    (p : Fin 4000) (q : Fin 96) :
    k5_pay1 (k5_pay2 x0 x1 x2 x3 x4 w1 b1 w2 b2) (k5_pay3 x0 x1 x2 x3 x4 w1 b1 w2 b2 g) gb (ix2 p q)
      = msgRow (rows (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1) p)
          (mat w1) (vec b1) (mat w2) (vec b2) (mat g) (vec gb) q := by
  unfold k5_pay1 k5_pay3 k5_pay2
  rw [shapeCast_self x0, shapeCast_self x1, shapeCast_self x2, shapeCast_self x3, shapeCast_self x4]
  simp only [shapeCast_self]
  exact kMsg_full (n := 4000) (φ₁ := .f32) (φ₂ := .f32) (φ₄ := .f32) (φ₅ := .f32) dot_S4000x385_S385x96_S4000x96_1_0_0_1_n_n rfl dot_S4000x96_S96x96_S4000x96_1_0_0_1_n_n rfl
    dot_S4000x96_S96x1_S4000x1_1_0_0_1_n_n rfl (some .fp32) (some .fp32) (some .fp32)
    (concatenate S4000x385 1 [⟨S4000x96, x0⟩, ⟨S4000x96, x1⟩, ⟨S4000x96, x2⟩, ⟨S4000x96, x3⟩, ⟨S4000x1, x4⟩] concatenates_S4000x96_S4000x96_S4000x96_S4000x96_S4000x1_S4000x385_d1)
    w1 b1 shapeCasts_S96_S1x96 broadcasts_S1x96_S4000x96 w2 b2 shapeCasts_S96_S1x96 broadcasts_S1x96_S4000x96 g gb
    shapeCasts_S1_S1x1 broadcasts_S1x1_S4000x1 broadcasts_S4000x1_S4000x96 p q

/-- The printed index maps over the grid: the five edge windows and the output window sit on tile t, the weights at 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_11.index t (0 : Fin 2) = t.val ∧ win5_11.index t (1 : Fin 2) = 0
    ∧ win5_5.index t (0 : Fin 2) = 0 ∧ win5_5.index t (1 : Fin 2) = 0
    ∧ win5_6.index t (0 : Fin 1) = 0
    ∧ win5_7.index t (0 : Fin 2) = 0 ∧ win5_7.index t (1 : Fin 2) = 0
    ∧ win5_8.index t (0 : Fin 1) = 0
    ∧ win5_9.index t (0 : Fin 2) = 0 ∧ win5_9.index t (1 : Fin 2) = 0
    ∧ win5_10.index t (0 : Fin 1) = 0 :=
  (by decide +kernel : ∀ t : Fin grid5.N, _)

/-- What grid point t writes back is tile t of the gated message of every row of the five whole arrays side by side. -/
theorem flushed_eq (c : Dev nD) (t : Fin cfg5.N) :
    (dat5 V c).flushed 11 t = ((cfg5.win 11).blk t).view.read (Elt Ideal)
      (msgRows (concatenate (⟨2, ![160000, 385]⟩ : Shape) 1 [⟨⟨2, ![160000, 96]⟩, V c main_v162⟩, ⟨⟨2, ![160000, 96]⟩, V c main_v169⟩, ⟨⟨2, ![160000, 96]⟩, V c main_v176⟩, ⟨⟨2, ![160000, 96]⟩, V c main_v183⟩, ⟨⟨2, ![160000, 1]⟩, V c main_v22⟩] hcat)
        (V c main_v185) (V c main_v187) (V c main_v189) (V c main_v191) (V c main_v193) (V c main_v195)) := by
  show (cfg5.win 11).cut (grid5.coords t) ((dat5 V c).after 11 t) = _
  rw [after5_11]
  unfold out5_11
  rw [View.canon_unit_zero hz2]
  simp only [View.ld_unit_zero (S := S4000x96) hz2, View.ld_unit_zero (S := S4000x1) hz2, View.ld_unit_zero (S := S385x96) hz2,
    View.ld_unit_zero (S := S96x96) hz2, View.ld_unit_zero (S := S96x1) hz2, View.ld_unit_zero (S := S96) hz1, View.ld_unit_zero (S := S1) hz1]
  obtain ⟨e0, e0', e1, e1', e2, e2', e3, e3', e4, e4', e11, e11', e5, e5', e6, e7, e7', e8, e9, e9', e10⟩ := idx_facts t
  funext j
  obtain ⟨p, q, rfl⟩ : ∃ (p : Fin 4000) (q : Fin 96), j = ix2 p q := ⟨j 0, j 1, eq_ix2 j⟩
  refine (pay_apply (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) p q).trans ?_
  obtain ⟨P, hP⟩ : ∃ P : Fin 160000, P = (((cfg5.win 11).blk t).view.emb (ix2 p q)) 0 := ⟨_, rfl⟩
  have hPv : P.val = win5_11.index t (0 : Fin 2) * 4000 + 1 * p.val := by rw [hP]; rfl
  show msgRow (rows (concatenate S4000x385 1 [⟨S4000x96, iblk5 V c 0 t⟩, ⟨S4000x96, iblk5 V c 1 t⟩, ⟨S4000x96, iblk5 V c 2 t⟩, ⟨S4000x96, iblk5 V c 3 t⟩, ⟨S4000x1, iblk5 V c 4 t⟩] concatenates_S4000x96_S4000x96_S4000x96_S4000x96_S4000x1_S4000x385_d1) p)
      (mat (iblk5 V c 5 t)) (vec (iblk5 V c 6 t)) (mat (iblk5 V c 7 t)) (vec (iblk5 V c 8 t)) (mat (iblk5 V c 9 t)) (vec (iblk5 V c 10 t)) q
    = msgRow (rows (concatenate (⟨2, ![160000, 385]⟩ : Shape) 1 [⟨⟨2, ![160000, 96]⟩, V c main_v162⟩, ⟨⟨2, ![160000, 96]⟩, V c main_v169⟩, ⟨⟨2, ![160000, 96]⟩, V c main_v176⟩, ⟨⟨2, ![160000, 96]⟩, V c main_v183⟩, ⟨⟨2, ![160000, 1]⟩, V c main_v22⟩] hcat) ((((cfg5.win 11).blk t).view.emb (ix2 p q)) 0))
      (mat (V c main_v185)) (vec (V c main_v187)) (mat (V c main_v189)) (vec (V c main_v191)) (mat (V c main_v193)) (vec (V c main_v195)) ((((cfg5.win 11).blk t).view.emb (ix2 p q)) 1)
  rw [← hP]
  have ha : ∀ j : Fin 96, iblk5 V c 0 t (ix2 p j) = V c main_v162 (ix2 P j) := fun j => by
    show V c main_v162 (((cfg5.win 0).blk t).view.emb (ix2 p j)) = V c main_v162 (ix2 P j)
    refine congrArg (V c main_v162) (funext fun ax => Fin.ext ?_)
    match ax with
    | ⟨0, _⟩ => show win5_0.index t (0 : Fin 2) * 4000 + 1 * p.val = P.val; omega
    | ⟨1, _⟩ => show win5_0.index t (1 : Fin 2) * 96 + 1 * j.val = j.val; omega
  have hb : ∀ j : Fin 96, iblk5 V c 1 t (ix2 p j) = V c main_v169 (ix2 P j) := fun j => by
    show V c main_v169 (((cfg5.win 1).blk t).view.emb (ix2 p j)) = V c main_v169 (ix2 P j)
    refine congrArg (V c main_v169) (funext fun ax => Fin.ext ?_)
    match ax with
    | ⟨0, _⟩ => show win5_1.index t (0 : Fin 2) * 4000 + 1 * p.val = P.val; omega
    | ⟨1, _⟩ => show win5_1.index t (1 : Fin 2) * 96 + 1 * j.val = j.val; omega
  have hc : ∀ j : Fin 96, iblk5 V c 2 t (ix2 p j) = V c main_v176 (ix2 P j) := fun j => by
    show V c main_v176 (((cfg5.win 2).blk t).view.emb (ix2 p j)) = V c main_v176 (ix2 P j)
    refine congrArg (V c main_v176) (funext fun ax => Fin.ext ?_)
    match ax with
    | ⟨0, _⟩ => show win5_2.index t (0 : Fin 2) * 4000 + 1 * p.val = P.val; omega
    | ⟨1, _⟩ => show win5_2.index t (1 : Fin 2) * 96 + 1 * j.val = j.val; omega
  have hd : ∀ j : Fin 96, iblk5 V c 3 t (ix2 p j) = V c main_v183 (ix2 P j) := fun j => by
    show V c main_v183 (((cfg5.win 3).blk t).view.emb (ix2 p j)) = V c main_v183 (ix2 P j)
    refine congrArg (V c main_v183) (funext fun ax => Fin.ext ?_)
    match ax with
    | ⟨0, _⟩ => show win5_3.index t (0 : Fin 2) * 4000 + 1 * p.val = P.val; omega
    | ⟨1, _⟩ => show win5_3.index t (1 : Fin 2) * 96 + 1 * j.val = j.val; omega
  have he : ∀ j : Fin 1, iblk5 V c 4 t (ix2 p j) = V c main_v22 (ix2 P j) := fun j => by
    show V c main_v22 (((cfg5.win 4).blk t).view.emb (ix2 p j)) = V c main_v22 (ix2 P j)
    refine congrArg (V c main_v22) (funext fun ax => Fin.ext ?_)
    match ax with
    | ⟨0, _⟩ => show win5_4.index t (0 : Fin 2) * 4000 + 1 * p.val = P.val; omega
    | ⟨1, _⟩ => show win5_4.index t (1 : Fin 2) * 1 + 1 * j.val = j.val; omega
  have hX : rows (concatenate S4000x385 1 [⟨S4000x96, iblk5 V c 0 t⟩, ⟨S4000x96, iblk5 V c 1 t⟩, ⟨S4000x96, iblk5 V c 2 t⟩, ⟨S4000x96, iblk5 V c 3 t⟩, ⟨S4000x1, iblk5 V c 4 t⟩] concatenates_S4000x96_S4000x96_S4000x96_S4000x96_S4000x1_S4000x385_d1) p = rows (concatenate (⟨2, ![160000, 385]⟩ : Shape) 1 [⟨⟨2, ![160000, 96]⟩, V c main_v162⟩, ⟨⟨2, ![160000, 96]⟩, V c main_v169⟩, ⟨⟨2, ![160000, 96]⟩, V c main_v176⟩, ⟨⟨2, ![160000, 96]⟩, V c main_v183⟩, ⟨⟨2, ![160000, 1]⟩, V c main_v22⟩] hcat) P :=
    funext fun k => concat5_rows (iblk5 V c 0 t) (iblk5 V c 1 t) (iblk5 V c 2 t) (iblk5 V c 3 t) (iblk5 V c 4 t)
      (V c main_v162) (V c main_v169) (V c main_v176) (V c main_v183) (V c main_v22) _ hcat p P ha hb hc hd he k
  have hW1 : mat (iblk5 V c 5 t) = mat (V c main_v185) := by
    funext a b
    show V c main_v185 (((cfg5.win 5).blk t).view.emb (ix2 a b)) = V c main_v185 (ix2 a b)
    refine congrArg (V c main_v185) (funext fun ax => Fin.ext ?_)
    match ax with
    | ⟨0, _⟩ => show win5_5.index t (0 : Fin 2) * 385 + 1 * a.val = a.val; omega
    | ⟨1, _⟩ => show win5_5.index t (1 : Fin 2) * 96 + 1 * b.val = b.val; omega
  have hb1 : vec (iblk5 V c 6 t) = vec (V c main_v187) := by
    funext a
    show V c main_v187 (((cfg5.win 6).blk t).view.emb (ix1 a)) = V c main_v187 (ix1 a)
    refine congrArg (V c main_v187) (funext fun ax => Fin.ext ?_)
    match ax with
    | ⟨0, _⟩ => show win5_6.index t (0 : Fin 1) * 96 + 1 * a.val = a.val; omega
  have hW2 : mat (iblk5 V c 7 t) = mat (V c main_v189) := by
    funext a b
    show V c main_v189 (((cfg5.win 7).blk t).view.emb (ix2 a b)) = V c main_v189 (ix2 a b)
    refine congrArg (V c main_v189) (funext fun ax => Fin.ext ?_)
    match ax with
    | ⟨0, _⟩ => show win5_7.index t (0 : Fin 2) * 96 + 1 * a.val = a.val; omega
    | ⟨1, _⟩ => show win5_7.index t (1 : Fin 2) * 96 + 1 * b.val = b.val; omega
  have hb2 : vec (iblk5 V c 8 t) = vec (V c main_v191) := by
    funext a
    show V c main_v191 (((cfg5.win 8).blk t).view.emb (ix1 a)) = V c main_v191 (ix1 a)
    refine congrArg (V c main_v191) (funext fun ax => Fin.ext ?_)
    match ax with
    | ⟨0, _⟩ => show win5_8.index t (0 : Fin 1) * 96 + 1 * a.val = a.val; omega
  have hg : mat (iblk5 V c 9 t) = mat (V c main_v193) := by
    funext a b
    show V c main_v193 (((cfg5.win 9).blk t).view.emb (ix2 a b)) = V c main_v193 (ix2 a b)
    refine congrArg (V c main_v193) (funext fun ax => Fin.ext ?_)
    match ax with
    | ⟨0, _⟩ => show win5_9.index t (0 : Fin 2) * 96 + 1 * a.val = a.val; omega
    | ⟨1, _⟩ => show win5_9.index t (1 : Fin 2) * 1 + 1 * b.val = b.val; omega
  have hgb : vec (iblk5 V c 10 t) = vec (V c main_v195) := by
    funext a
    show V c main_v195 (((cfg5.win 10).blk t).view.emb (ix1 a)) = V c main_v195 (ix1 a)
    refine congrArg (V c main_v195) (funext fun ax => Fin.ext ?_)
    match ax with
    | ⟨0, _⟩ => show win5_10.index t (0 : Fin 1) * 1 + 1 * a.val = a.val; omega
  have hq : (((cfg5.win 11).blk t).view.emb (ix2 p q)) 1 = q :=
    Fin.ext (by show win5_11.index t (1 : Fin 2) * 96 + 1 * q.val = q.val; omega)
  rw [hX, hW1, hb1, hW2, hb2, hg, hgb, hq]

/-- An index of the output array is in tile t iff each coordinate is in the tile's range on its axis. -/
theorem mem_blk (t : Fin cfg5.N) (i : S160000x96.Idx) :
    i ∈ ((cfg5.win 11).blk t).view.set ↔ ∀ a : Fin 2, win5_11.index t a * S4000x96.size a ≤ (i a).val ∧ (i a).val < win5_11.index t a * S4000x96.size a + S4000x96.size a := by
  show i ∈ ((View.whole main_v196).slice (win5_11.rect t)).set ↔ _
  rw [View.set_slice_whole, Rect.mem_set_unit]
  exact Iff.rfl

/-- The forty tiles cover the output array: row r is in tile r / 4000. -/
theorem cover (i : S160000x96.Idx) : ∃ t : Fin cfg5.N, (cfg5.win 11).flush t = true ∧ i ∈ ((cfg5.win 11).blk t).view.set := by
  have hi0 : (i 0).val < 160000 := (i 0).isLt
  have hi1 : (i 1).val < 96 := (i 1).isLt
  have hN : (i 0).val / 4000 < cfg5.N := by show (i 0).val / 4000 < grid5.N; rw [N_5]; omega
  refine ⟨⟨(i 0).val / 4000, hN⟩, flush5_11 _, ?_⟩
  rw [mem_blk]
  obtain ⟨e0, e0', e1, e1', e2, e2', e3, e3', e4, e4', e11, e11', e5, e5', e6, e7, e7', e8, e9, e9', e10⟩ := idx_facts ⟨(i 0).val / 4000, hN⟩
  intro a
  match a with
  | ⟨0, _⟩ =>
    show win5_11.index ⟨(i 0).val / 4000, hN⟩ (0 : Fin 2) * 4000 ≤ (i 0).val ∧ (i 0).val < win5_11.index ⟨(i 0).val / 4000, hN⟩ (0 : Fin 2) * 4000 + 4000
    rw [e11]; show (i 0).val / 4000 * 4000 ≤ (i 0).val ∧ (i 0).val < (i 0).val / 4000 * 4000 + 4000; omega
  | ⟨1, _⟩ =>
    show win5_11.index ⟨(i 0).val / 4000, hN⟩ (1 : Fin 2) * 96 ≤ (i 1).val ∧ (i 1).val < win5_11.index ⟨(i 0).val / 4000, hN⟩ (1 : Fin 2) * 96 + 96
    rw [e11']; omega

/-- After the region the message array holds the gated message of every row of the five arrays as the region found them. -/
theorem final (c : Dev nD) : (dat5 V c).arrAt 11 cfg5.N
    = msgRows (concatenate (⟨2, ![160000, 385]⟩ : Shape) 1 [⟨⟨2, ![160000, 96]⟩, V c main_v162⟩, ⟨⟨2, ![160000, 96]⟩, V c main_v169⟩, ⟨⟨2, ![160000, 96]⟩, V c main_v176⟩, ⟨⟨2, ![160000, 96]⟩, V c main_v183⟩, ⟨⟨2, ![160000, 1]⟩, V c main_v22⟩] hcat)
        (V c main_v185) (V c main_v187) (V c main_v189) (V c main_v191) (V c main_v193) (V c main_v195) :=
  (dat5 V c).arrAt_eq_of_cover 11 _ (fun t _ => flushed_eq V c t) cover

end Cert.KernelIdeal.Message5

end
-- ==== Proof.Region6.lean ====
/-
  A node-update region: what its two output arrays hold after the run.

  Grid point t of ten takes rows 1000·t … 1000·t + 999 of the node states h, the position encodings pe and the aggregated
  messages agg, and the eight weight arrays whole.  The new node states are two dense layers (the rectifier between them)
  of [h | pe | agg] (288 columns); the new position encodings are two dense layers of [pe | the first 48 columns of agg]
  (144 columns).  Row p of either tile depends on row 1000·t + p of the three inputs alone, so the ten tiles together are
  those two perceptrons applied to every row of the whole arrays set side by side.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Update6

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem hcat3 : Shape.Concatenates [(⟨2, ![10000, 96]⟩ : Shape), ⟨2, ![10000, 96]⟩, ⟨2, ![10000, 96]⟩] ⟨2, ![10000, 288]⟩ 1 := by decide
theorem hcat2 : Shape.Concatenates [(⟨2, ![10000, 96]⟩ : Shape), ⟨2, ![10000, 48]⟩] ⟨2, ![10000, 144]⟩ 1 := by decide
theorem hsl : (⟨2, ![10000, 96]⟩ : Shape).Slices ![0, 0] ⟨2, ![10000, 48]⟩ := by decide

/-- The stored new node state at row p, column q of the tile: the perceptron of row p of [h | pe | agg]. -/
theorem payH_apply (x0 x1 x2 : Vec Ideal S1000x96 .f32) (w1 : Vec Ideal S288x96 .f32) (b1 : Vec Ideal S96 .f32)
    (w2 : Vec Ideal S96x96 .f32) (b2 : Vec Ideal S96 .f32) (p : Fin 1000) (q : Fin 96) :
    k6_pay4 x0 x1 x2 w1 b1 w2 b2 (ix2 p q)
      = mlp relu id (rows (concatenate S1000x288 1 [⟨S1000x96, x0⟩, ⟨S1000x96, x1⟩, ⟨S1000x96, x2⟩] concatenates_S1000x96_S1000x96_S1000x96_S1000x288_d1) p)
          (mat w1) (vec b1) (mat w2) (vec b2) q := by
  unfold k6_pay4 k6_pay2 k6_pay3
  rw [shapeCast_self x0, shapeCast_self x1, shapeCast_self x2]
  simp only [shapeCast_self]
  exact kMlp_full (n := 1000) (φ₁ := .f32) (φ₂ := .f32) (φ₄ := .f32) id dot_S1000x288_S288x96_S1000x96_1_0_0_1_n_n rfl dot_S1000x96_S96x96_S1000x96_1_0_0_1_n_n rfl (some .fp32) (some .fp32)
    (concatenate S1000x288 1 [⟨S1000x96, x0⟩, ⟨S1000x96, x1⟩, ⟨S1000x96, x2⟩] concatenates_S1000x96_S1000x96_S1000x96_S1000x288_d1)
    w1 b1 shapeCasts_S96_S1x96 broadcasts_S1x96_S1000x96 w2 b2 shapeCasts_S96_S1x96 broadcasts_S1x96_S1000x96 p q

/-- The stored new position encoding at row p, column q of the tile: the perceptron of row p of [pe | agg's first 48 columns]. -/
theorem payP_apply (x1 x2 : Vec Ideal S1000x96 .f32) (w1 : Vec Ideal S144x96 .f32) (b1 : Vec Ideal S96 .f32)
    (w2 : Vec Ideal S96x96 .f32) (b2 : Vec Ideal S96 .f32) (p : Fin 1000) (q : Fin 96) :
    k6_pay1 (k6_pay5 x1 x2 w1 b1) w2 b2 (ix2 p q)
      = mlp relu id (rows (concatenate S1000x144 1 [⟨S1000x96, x1⟩, ⟨S1000x48, extractStridedSlice S1000x48 ![0, 0] x2 slices_S1000x96_o0_0_S1000x48⟩] concatenates_S1000x96_S1000x48_S1000x144_d1) p)
          (mat w1) (vec b1) (mat w2) (vec b2) q := by
  unfold k6_pay1 k6_pay5 k6_pay2 k6_pay3
  rw [shapeCast_self x1, shapeCast_self x2]
  simp only [shapeCast_self]
  exact kMlp_full (n := 1000) (φ₁ := .f32) (φ₂ := .f32) (φ₄ := .f32) id dot_S1000x144_S144x96_S1000x96_1_0_0_1_n_n rfl dot_S1000x96_S96x96_S1000x96_1_0_0_1_n_n rfl (some .fp32) (some .fp32)
    _ w1 b1 shapeCasts_S96_S1x96 broadcasts_S1x96_S1000x96 w2 b2 shapeCasts_S96_S1x96 broadcasts_S1x96_S1000x96 p q

/-- The printed index maps over the grid: the three node windows and both outputs sit on tile t, the weights at 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_11.index t (0 : Fin 2) = t.val ∧ win6_11.index t (1 : Fin 2) = 0
    ∧ win6_12.index t (0 : Fin 2) = t.val ∧ win6_12.index t (1 : Fin 2) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0
    ∧ win6_6.index t (0 : Fin 1) = 0
    ∧ win6_7.index t (0 : Fin 2) = 0 ∧ win6_7.index t (1 : Fin 2) = 0
    ∧ win6_8.index t (0 : Fin 1) = 0
    ∧ win6_9.index t (0 : Fin 2) = 0 ∧ win6_9.index t (1 : Fin 2) = 0
    ∧ win6_10.index t (0 : Fin 1) = 0 :=
  (by decide +kernel : ∀ t : Fin grid6.N, _)

/-- What grid point t writes back to the node-state output is tile t of the perceptron of every row of [h | pe | agg]. -/
theorem flushedH_eq (c : Dev nD) (t : Fin cfg6.N) :
    (dat6 V c).flushed 11 t = ((cfg6.win 11).blk t).view.read (Elt Ideal)
      (mlpRows (concatenate (⟨2, ![10000, 288]⟩ : Shape) 1 [⟨⟨2, ![10000, 96]⟩, V c main_v155_0⟩, ⟨⟨2, ![10000, 96]⟩, V c main_v155_1⟩, ⟨⟨2, ![10000, 96]⟩, V c main_v201⟩] hcat3) (V c main_v203) (V c main_v205) (V c main_v207) (V c main_v209)) := by
  show (cfg6.win 11).cut (grid6.coords t) ((dat6 V c).after 11 t) = _
  rw [after6_11]
  unfold out6_11
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payH_apply (iblk6 V c 0 t) (iblk6 V c 1 t) (iblk6 V c 2 t) (iblk6 V c 3 t) (iblk6 V c 4 t) (iblk6 V c 5 t) (iblk6 V c 6 t) p q).trans ?_
  obtain ⟨P, hP⟩ : ∃ P : Fin 10000, P = (((cfg6.win 11).blk t).view.emb (ix2 p q)) 0 := ⟨_, rfl⟩
  have hPv : P.val = win6_11.index t (0 : Fin 2) * 1000 + 1 * p.val := by rw [hP]; rfl
  show mlp relu id (rows (concatenate S1000x288 1 [⟨S1000x96, iblk6 V c 0 t⟩, ⟨S1000x96, iblk6 V c 1 t⟩, ⟨S1000x96, iblk6 V c 2 t⟩] concatenates_S1000x96_S1000x96_S1000x96_S1000x288_d1) p) (mat (iblk6 V c 3 t)) (vec (iblk6 V c 4 t)) (mat (iblk6 V c 5 t)) (vec (iblk6 V c 6 t)) q
    = mlp relu id (rows (concatenate (⟨2, ![10000, 288]⟩ : Shape) 1 [⟨⟨2, ![10000, 96]⟩, V c main_v155_0⟩, ⟨⟨2, ![10000, 96]⟩, V c main_v155_1⟩, ⟨⟨2, ![10000, 96]⟩, V c main_v201⟩] hcat3) ((((cfg6.win 11).blk t).view.emb (ix2 p q)) 0))
      (mat (V c main_v203)) (vec (V c main_v205)) (mat (V c main_v207)) (vec (V c main_v209)) ((((cfg6.win 11).blk t).view.emb (ix2 p q)) 1)
  rw [← hP]
  have ha : ∀ j : Fin 96, iblk6 V c 0 t (ix2 p j) = V c main_v155_0 (ix2 P j) := fun j => by
    show V c main_v155_0 (((cfg6.win 0).blk t).view.emb (ix2 p j)) = V c main_v155_0 (ix2 P j)
    refine congrArg (V c main_v155_0) (funext fun ax => Fin.ext ?_)
    match ax with
    | ⟨0, _⟩ => show win6_0.index t (0 : Fin 2) * 1000 + 1 * p.val = P.val; omega
    | ⟨1, _⟩ => show win6_0.index t (1 : Fin 2) * 96 + 1 * j.val = j.val; omega
  have hb : ∀ j : Fin 96, iblk6 V c 1 t (ix2 p j) = V c main_v155_1 (ix2 P j) := fun j => by
    show V c main_v155_1 (((cfg6.win 1).blk t).view.emb (ix2 p j)) = V c main_v155_1 (ix2 P j)
    refine congrArg (V c main_v155_1) (funext fun ax => Fin.ext ?_)
    match ax with
    | ⟨0, _⟩ => show win6_1.index t (0 : Fin 2) * 1000 + 1 * p.val = P.val; omega
    | ⟨1, _⟩ => show win6_1.index t (1 : Fin 2) * 96 + 1 * j.val = j.val; omega
  have hc : ∀ j : Fin 96, iblk6 V c 2 t (ix2 p j) = V c main_v201 (ix2 P j) := fun j => by
    show V c main_v201 (((cfg6.win 2).blk t).view.emb (ix2 p j)) = V c main_v201 (ix2 P j)
    refine congrArg (V c main_v201) (funext fun ax => Fin.ext ?_)
    match ax with
    | ⟨0, _⟩ => show win6_2.index t (0 : Fin 2) * 1000 + 1 * p.val = P.val; omega
    | ⟨1, _⟩ => show win6_2.index t (1 : Fin 2) * 96 + 1 * j.val = j.val; omega
  have hX : rows (concatenate S1000x288 1 [⟨S1000x96, iblk6 V c 0 t⟩, ⟨S1000x96, iblk6 V c 1 t⟩, ⟨S1000x96, iblk6 V c 2 t⟩] concatenates_S1000x96_S1000x96_S1000x96_S1000x288_d1) p = rows (concatenate (⟨2, ![10000, 288]⟩ : Shape) 1 [⟨⟨2, ![10000, 96]⟩, V c main_v155_0⟩, ⟨⟨2, ![10000, 96]⟩, V c main_v155_1⟩, ⟨⟨2, ![10000, 96]⟩, V c main_v201⟩] hcat3) P :=
    funext fun k => concat3_rows (iblk6 V c 0 t) (iblk6 V c 1 t) (iblk6 V c 2 t) (V c main_v155_0) (V c main_v155_1) (V c main_v201) _ hcat3 p P ha hb hc k
  have hW1 : mat (iblk6 V c 3 t) = mat (V c main_v203) := by
    funext a b
    show V c main_v203 (((cfg6.win 3).blk t).view.emb (ix2 a b)) = V c main_v203 (ix2 a b)
    refine congrArg (V c main_v203) (funext fun ax => Fin.ext ?_)
    match ax with
    | ⟨0, _⟩ => show win6_3.index t (0 : Fin 2) * 288 + 1 * a.val = a.val; omega
    | ⟨1, _⟩ => show win6_3.index t (1 : Fin 2) * 96 + 1 * b.val = b.val; omega
  have hb1 : vec (iblk6 V c 4 t) = vec (V c main_v205) := by
    funext a
    show V c main_v205 (((cfg6.win 4).blk t).view.emb (ix1 a)) = V c main_v205 (ix1 a)
    refine congrArg (V c main_v205) (funext fun ax => Fin.ext ?_)
    match ax with
    | ⟨0, _⟩ => show win6_4.index t (0 : Fin 1) * 96 + 1 * a.val = a.val; omega
  have hW2 : mat (iblk6 V c 5 t) = mat (V c main_v207) := by
    funext a b
    show V c main_v207 (((cfg6.win 5).blk t).view.emb (ix2 a b)) = V c main_v207 (ix2 a b)
    refine congrArg (V c main_v207) (funext fun ax => Fin.ext ?_)
    match ax with
    | ⟨0, _⟩ => show win6_5.index t (0 : Fin 2) * 96 + 1 * a.val = a.val; omega
    | ⟨1, _⟩ => show win6_5.index t (1 : Fin 2) * 96 + 1 * b.val = b.val; omega
  have hb2 : vec (iblk6 V c 6 t) = vec (V c main_v209) := by
    funext a
    show V c main_v209 (((cfg6.win 6).blk t).view.emb (ix1 a)) = V c main_v209 (ix1 a)
    refine congrArg (V c main_v209) (funext fun ax => Fin.ext ?_)
    match ax with
    | ⟨0, _⟩ => show win6_6.index t (0 : Fin 1) * 96 + 1 * a.val = a.val; omega
  have hq : (((cfg6.win 11).blk t).view.emb (ix2 p q)) 1 = q :=
    Fin.ext (by show win6_11.index t (1 : Fin 2) * 96 + 1 * q.val = q.val; omega)
  rw [hX, hW1, hb1, hW2, hb2, hq]

/-- What grid point t writes back to the position-encoding output is tile t of the perceptron of every row of
    [pe | agg's first 48 columns]. -/
theorem flushedP_eq (c : Dev nD) (t : Fin cfg6.N) :
    (dat6 V c).flushed 12 t = ((cfg6.win 12).blk t).view.read (Elt Ideal)
      (mlpRows (concatenate (⟨2, ![10000, 144]⟩ : Shape) 1 [⟨⟨2, ![10000, 96]⟩, V c main_v155_1⟩, ⟨⟨2, ![10000, 48]⟩, extractStridedSlice (⟨2, ![10000, 48]⟩ : Shape) ![0, 0] (V c main_v201) hsl⟩] hcat2) (V c main_v211) (V c main_v213) (V c main_v215) (V c main_v217)) := by
  show (cfg6.win 12).cut (grid6.coords t) ((dat6 V c).after 12 t) = _
  rw [after6_12]
  unfold out6_12
  rw [View.canon_unit_zero hz2]
  simp only [View.ld_unit_zero (S := S1000x96) hz2, View.ld_unit_zero (S := S288x96) hz2, View.ld_unit_zero (S := S144x96) hz2,
    View.ld_unit_zero (S := S96x96) hz2, View.ld_unit_zero (S := S96) hz1]
  obtain ⟨e0, e0', e1, e1', e2, e2', e11, e11', e12, e12', e3, e3', e4, e5, e5', e6, e7, e7', e8, e9, e9', e10⟩ := idx_facts t
  funext j
  obtain ⟨p, q, rfl⟩ : ∃ (p : Fin 1000) (q : Fin 96), j = ix2 p q := ⟨j 0, j 1, eq_ix2 j⟩
  refine (payP_apply (iblk6 V c 1 t) (iblk6 V c 2 t) (iblk6 V c 7 t) (iblk6 V c 8 t) (iblk6 V c 9 t) (iblk6 V c 10 t) p q).trans ?_
  obtain ⟨P, hP⟩ : ∃ P : Fin 10000, P = (((cfg6.win 12).blk t).view.emb (ix2 p q)) 0 := ⟨_, rfl⟩
  have hPv : P.val = win6_12.index t (0 : Fin 2) * 1000 + 1 * p.val := by rw [hP]; rfl
  show mlp relu id (rows (concatenate S1000x144 1 [⟨S1000x96, iblk6 V c 1 t⟩, ⟨S1000x48, extractStridedSlice S1000x48 ![0, 0] (iblk6 V c 2 t) slices_S1000x96_o0_0_S1000x48⟩] concatenates_S1000x96_S1000x48_S1000x144_d1) p) (mat (iblk6 V c 7 t)) (vec (iblk6 V c 8 t)) (mat (iblk6 V c 9 t)) (vec (iblk6 V c 10 t)) q
    = mlp relu id (rows (concatenate (⟨2, ![10000, 144]⟩ : Shape) 1 [⟨⟨2, ![10000, 96]⟩, V c main_v155_1⟩, ⟨⟨2, ![10000, 48]⟩, extractStridedSlice (⟨2, ![10000, 48]⟩ : Shape) ![0, 0] (V c main_v201) hsl⟩] hcat2) ((((cfg6.win 12).blk t).view.emb (ix2 p q)) 0))
      (mat (V c main_v211)) (vec (V c main_v213)) (mat (V c main_v215)) (vec (V c main_v217)) ((((cfg6.win 12).blk t).view.emb (ix2 p q)) 1)
  rw [← hP]
  have hb : ∀ j : Fin 96, iblk6 V c 1 t (ix2 p j) = V c main_v155_1 (ix2 P j) := fun j => by
    show V c main_v155_1 (((cfg6.win 1).blk t).view.emb (ix2 p j)) = V c main_v155_1 (ix2 P j)
    refine congrArg (V c main_v155_1) (funext fun ax => Fin.ext ?_)
    match ax with
    | ⟨0, _⟩ => show win6_1.index t (0 : Fin 2) * 1000 + 1 * p.val = P.val; omega
    | ⟨1, _⟩ => show win6_1.index t (1 : Fin 2) * 96 + 1 * j.val = j.val; omega
  have hc : ∀ j : Fin 96, iblk6 V c 2 t (ix2 p j) = V c main_v201 (ix2 P j) := fun j => by
    show V c main_v201 (((cfg6.win 2).blk t).view.emb (ix2 p j)) = V c main_v201 (ix2 P j)
    refine congrArg (V c main_v201) (funext fun ax => Fin.ext ?_)
    match ax with
    | ⟨0, _⟩ => show win6_2.index t (0 : Fin 2) * 1000 + 1 * p.val = P.val; omega
    | ⟨1, _⟩ => show win6_2.index t (1 : Fin 2) * 96 + 1 * j.val = j.val; omega
  have hs : ∀ j : Fin 48, extractStridedSlice S1000x48 ![0, 0] (iblk6 V c 2 t) slices_S1000x96_o0_0_S1000x48 (ix2 p j)
      = extractStridedSlice (⟨2, ![10000, 48]⟩ : Shape) ![0, 0] (V c main_v201) hsl (ix2 P j) := fun j => by
    rw [slice48_apply, slice48_apply]; exact hc _
  have hX : rows (concatenate S1000x144 1 [⟨S1000x96, iblk6 V c 1 t⟩, ⟨S1000x48, extractStridedSlice S1000x48 ![0, 0] (iblk6 V c 2 t) slices_S1000x96_o0_0_S1000x48⟩] concatenates_S1000x96_S1000x48_S1000x144_d1) p = rows (concatenate (⟨2, ![10000, 144]⟩ : Shape) 1 [⟨⟨2, ![10000, 96]⟩, V c main_v155_1⟩, ⟨⟨2, ![10000, 48]⟩, extractStridedSlice (⟨2, ![10000, 48]⟩ : Shape) ![0, 0] (V c main_v201) hsl⟩] hcat2) P := by
    funext k
    show (concatenate S1000x144 1 [⟨S1000x96, iblk6 V c 1 t⟩, ⟨S1000x48, extractStridedSlice S1000x48 ![0, 0] (iblk6 V c 2 t) slices_S1000x96_o0_0_S1000x48⟩] concatenates_S1000x96_S1000x48_S1000x144_d1) (ix2 p k) = (concatenate (⟨2, ![10000, 144]⟩ : Shape) 1 [⟨⟨2, ![10000, 96]⟩, V c main_v155_1⟩, ⟨⟨2, ![10000, 48]⟩, extractStridedSlice (⟨2, ![10000, 48]⟩ : Shape) ![0, 0] (V c main_v201) hsl⟩] hcat2) (ix2 P k)
    exact concat2_rows (iblk6 V c 1 t) (extractStridedSlice S1000x48 ![0, 0] (iblk6 V c 2 t) slices_S1000x96_o0_0_S1000x48)
      (V c main_v155_1) (extractStridedSlice (⟨2, ![10000, 48]⟩ : Shape) ![0, 0] (V c main_v201) hsl) concatenates_S1000x96_S1000x48_S1000x144_d1 hcat2 p P hb hs k
  have hW1 : mat (iblk6 V c 7 t) = mat (V c main_v211) := by
    funext a b
    show V c main_v211 (((cfg6.win 7).blk t).view.emb (ix2 a b)) = V c main_v211 (ix2 a b)
    refine congrArg (V c main_v211) (funext fun ax => Fin.ext ?_)
    match ax with
    | ⟨0, _⟩ => show win6_7.index t (0 : Fin 2) * 144 + 1 * a.val = a.val; omega
    | ⟨1, _⟩ => show win6_7.index t (1 : Fin 2) * 96 + 1 * b.val = b.val; omega
  have hb1 : vec (iblk6 V c 8 t) = vec (V c main_v213) := by
    funext a
    show V c main_v213 (((cfg6.win 8).blk t).view.emb (ix1 a)) = V c main_v213 (ix1 a)
    refine congrArg (V c main_v213) (funext fun ax => Fin.ext ?_)
    match ax with
    | ⟨0, _⟩ => show win6_8.index t (0 : Fin 1) * 96 + 1 * a.val = a.val; omega
  have hW2 : mat (iblk6 V c 9 t) = mat (V c main_v215) := by
    funext a b
    show V c main_v215 (((cfg6.win 9).blk t).view.emb (ix2 a b)) = V c main_v215 (ix2 a b)
    refine congrArg (V c main_v215) (funext fun ax => Fin.ext ?_)
    match ax with
    | ⟨0, _⟩ => show win6_9.index t (0 : Fin 2) * 96 + 1 * a.val = a.val; omega
    | ⟨1, _⟩ => show win6_9.index t (1 : Fin 2) * 96 + 1 * b.val = b.val; omega
  have hb2 : vec (iblk6 V c 10 t) = vec (V c main_v217) := by
    funext a
    show V c main_v217 (((cfg6.win 10).blk t).view.emb (ix1 a)) = V c main_v217 (ix1 a)
    refine congrArg (V c main_v217) (funext fun ax => Fin.ext ?_)
    match ax with
    | ⟨0, _⟩ => show win6_10.index t (0 : Fin 1) * 96 + 1 * a.val = a.val; omega
  have hq : (((cfg6.win 12).blk t).view.emb (ix2 p q)) 1 = q :=
    Fin.ext (by show win6_12.index t (1 : Fin 2) * 96 + 1 * q.val = q.val; omega)
  rw [hX, hW1, hb1, hW2, hb2, hq]

/-- An index of output array 11 is in tile t iff each coordinate is in the tile's range on its axis. -/
theorem mem_blk11 (t : Fin cfg6.N) (i : S10000x96.Idx) :
    i ∈ ((cfg6.win 11).blk t).view.set ↔ ∀ a : Fin 2, win6_11.index t a * S1000x96.size a ≤ (i a).val ∧ (i a).val < win6_11.index t a * S1000x96.size a + S1000x96.size a := by
  show i ∈ ((View.whole main_v218_0).slice (win6_11.rect t)).set ↔ _
  rw [View.set_slice_whole, Rect.mem_set_unit]
  exact Iff.rfl

/-- The ten tiles cover output array 11: row r is in tile r / 1000. -/
theorem cover11 (i : S10000x96.Idx) : ∃ t : Fin cfg6.N, (cfg6.win 11).flush t = true ∧ i ∈ ((cfg6.win 11).blk t).view.set := by
  have hi0 : (i 0).val < 10000 := (i 0).isLt
  have hi1 : (i 1).val < 96 := (i 1).isLt
  have hN : (i 0).val / 1000 < cfg6.N := by show (i 0).val / 1000 < grid6.N; rw [N_6]; omega
  refine ⟨⟨(i 0).val / 1000, hN⟩, flush6_11 _, ?_⟩
  rw [mem_blk11]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win6_11.index ⟨(i 0).val / 1000, hN⟩ (0 : Fin 2) * 1000 ≤ (i 0).val ∧ (i 0).val < win6_11.index ⟨(i 0).val / 1000, hN⟩ (0 : Fin 2) * 1000 + 1000
    rw [e11]; show (i 0).val / 1000 * 1000 ≤ (i 0).val ∧ (i 0).val < (i 0).val / 1000 * 1000 + 1000; omega
  | ⟨1, _⟩ =>
    show win6_11.index ⟨(i 0).val / 1000, hN⟩ (1 : Fin 2) * 96 ≤ (i 1).val ∧ (i 1).val < win6_11.index ⟨(i 0).val / 1000, hN⟩ (1 : Fin 2) * 96 + 96
    rw [e11']; omega

/-- An index of output array 12 is in tile t iff each coordinate is in the tile's range on its axis. -/
theorem mem_blk12 (t : Fin cfg6.N) (i : S10000x96.Idx) :
    i ∈ ((cfg6.win 12).blk t).view.set ↔ ∀ a : Fin 2, win6_12.index t a * S1000x96.size a ≤ (i a).val ∧ (i a).val < win6_12.index t a * S1000x96.size a + S1000x96.size a := by
  show i ∈ ((View.whole main_v218_1).slice (win6_12.rect t)).set ↔ _
  rw [View.set_slice_whole, Rect.mem_set_unit]
  exact Iff.rfl

/-- The ten tiles cover output array 12: row r is in tile r / 1000. -/
theorem cover12 (i : S10000x96.Idx) : ∃ t : Fin cfg6.N, (cfg6.win 12).flush t = true ∧ i ∈ ((cfg6.win 12).blk t).view.set := by
  have hi0 : (i 0).val < 10000 := (i 0).isLt
  have hi1 : (i 1).val < 96 := (i 1).isLt
  have hN : (i 0).val / 1000 < cfg6.N := by show (i 0).val / 1000 < grid6.N; rw [N_6]; omega
  refine ⟨⟨(i 0).val / 1000, hN⟩, flush6_12 _, ?_⟩
  rw [mem_blk12]
  obtain ⟨e0, e0', e1, e1', e2, e2', e11, e11', e12, e12', e3, e3', e4, e5, e5', e6, e7, e7', e8, e9, e9', e10⟩ := idx_facts ⟨(i 0).val / 1000, hN⟩
  intro a
  match a with
  | ⟨0, _⟩ =>
    show win6_12.index ⟨(i 0).val / 1000, hN⟩ (0 : Fin 2) * 1000 ≤ (i 0).val ∧ (i 0).val < win6_12.index ⟨(i 0).val / 1000, hN⟩ (0 : Fin 2) * 1000 + 1000
    rw [e12]; show (i 0).val / 1000 * 1000 ≤ (i 0).val ∧ (i 0).val < (i 0).val / 1000 * 1000 + 1000; omega
  | ⟨1, _⟩ =>
    show win6_12.index ⟨(i 0).val / 1000, hN⟩ (1 : Fin 2) * 96 ≤ (i 1).val ∧ (i 1).val < win6_12.index ⟨(i 0).val / 1000, hN⟩ (1 : Fin 2) * 96 + 96
    rw [e12']; omega

/-- After the region the new node states are the perceptron of every row of [h | pe | agg] as the region found them. -/
theorem finalH (c : Dev nD) : (dat6 V c).arrAt 11 cfg6.N
    = mlpRows (concatenate (⟨2, ![10000, 288]⟩ : Shape) 1 [⟨⟨2, ![10000, 96]⟩, V c main_v155_0⟩, ⟨⟨2, ![10000, 96]⟩, V c main_v155_1⟩, ⟨⟨2, ![10000, 96]⟩, V c main_v201⟩] hcat3) (V c main_v203) (V c main_v205) (V c main_v207) (V c main_v209) :=
  (dat6 V c).arrAt_eq_of_cover 11 _ (fun t _ => flushedH_eq V c t) cover11

/-- After the region the new position encodings are the perceptron of every row of [pe | agg's first 48 columns]. -/
theorem finalP (c : Dev nD) : (dat6 V c).arrAt 12 cfg6.N
    = mlpRows (concatenate (⟨2, ![10000, 144]⟩ : Shape) 1 [⟨⟨2, ![10000, 96]⟩, V c main_v155_1⟩, ⟨⟨2, ![10000, 48]⟩, extractStridedSlice (⟨2, ![10000, 48]⟩ : Shape) ![0, 0] (V c main_v201) hsl⟩] hcat2) (V c main_v211) (V c main_v213) (V c main_v215) (V c main_v217) :=
  (dat6 V c).arrAt_eq_of_cover 12 _ (fun t _ => flushedP_eq V c t) cover12

end Cert.KernelIdeal.Update6

end
-- ==== Proof.Region7.lean ====
/-
  The node decoder's region: what its output array holds after the run.

  Grid point t of ten takes rows 1000·t … 1000·t + 999 of the node states and the four weight arrays whole, and stores
  (relu(X·W₁ + b₁))·W₂ + b₂ for its thousand rows.  Row p of that tile depends on row 1000·t + p of the node states alone,
  so the ten tiles together are the two-layer perceptron applied to every row of the node states.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Decoder

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-tiled windows sit on tile t, the weight windows at 0. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = 0 ∧ win7_3.index t (1 : Fin 2) = 0
    ∧ win7_4.index t (0 : Fin 1) = 0
    ∧ win7_5.index t (0 : Fin 2) = t.val ∧ win7_5.index t (1 : Fin 2) = 0 :=
  (by decide +kernel : ∀ t : Fin grid7.N, _)

/-- The body's stored value at row p, column q of the tile, as a function of the tile's row p. -/
theorem pay_apply (x : Vec Ideal S1000x96 .f32) (w1 : Vec Ideal S96x96 .f32) (b1 : Vec Ideal S96 .f32) (w2 : Vec Ideal S96x96 .f32) (b2 : Vec Ideal S96 .f32) (p : Fin 1000) (q : Fin 96) :
    k7_pay1 x w1 b1 w2 b2 (ix2 p q) = mlp relu id (rows x p) (mat w1) (vec b1) (mat w2) (vec b2) q := by
  unfold k7_pay1
  simp only [shapeCast_self]
  exact mlp_apply (n := 1000) relu id dot_S1000x96_S96x96_S1000x96_1_0_0_1_n_n rfl dot_S1000x96_S96x96_S1000x96_1_0_0_1_n_n rfl _ _ x w1 b1 _ _ _ (fun _ _ => rfl) w2 b2 _ _ p q

/-- What grid point t writes back to output window 5 is tile t of the row-wise function of the whole input array. -/
theorem flushed_eq (c : Dev nD) (t : Fin cfg7.N) :
    (dat7 V c).flushed 5 t = ((cfg7.win 5).blk t).view.read (Elt Ideal) (mlpRows (V c main_v218_0) (V c main_arg25) (V c main_arg26) (V c main_arg27) (V c main_arg28)) := by
  show (cfg7.win 5).cut (grid7.coords t) ((dat7 V c).after 5 t) = _
  rw [after7_5]
  unfold out7_5
  rw [View.canon_unit_zero hz2]
  simp only [View.ld_unit_zero (S := S1000x96) hz2, View.ld_unit_zero (S := S96x96) hz2, View.ld_unit_zero (S := S96) hz1]
  obtain ⟨e0, e0', e1, e1', e2, e3, e3', e4, e5, e5'⟩ := idx_facts t
  funext j
  obtain ⟨p, q, rfl⟩ : ∃ (p : Fin 1000) (q : Fin 96), j = ix2 p q := ⟨j 0, j 1, eq_ix2 j⟩
  refine (pay_apply (iblk7 V c 0 t) (iblk7 V c 1 t) (iblk7 V c 2 t) (iblk7 V c 3 t) (iblk7 V c 4 t) p q).trans ?_
  show mlp relu id (rows (iblk7 V c 0 t) p) (mat (iblk7 V c 1 t)) (vec (iblk7 V c 2 t)) (mat (iblk7 V c 3 t)) (vec (iblk7 V c 4 t)) q
    = mlp relu id (rows (V c main_v218_0) ((((cfg7.win 5).blk t).view.emb (ix2 p q)) 0)) (mat (V c main_arg25)) (vec (V c main_arg26)) (mat (V c main_arg27)) (vec (V c main_arg28)) ((((cfg7.win 5).blk t).view.emb (ix2 p q)) 1)
  have hX : rows (iblk7 V c 0 t) p = rows (V c main_v218_0) ((((cfg7.win 5).blk t).view.emb (ix2 p q)) 0) := by
    funext q'
    show V c main_v218_0 (((cfg7.win 0).blk t).view.emb (ix2 p q')) = V c main_v218_0 (ix2 ((((cfg7.win 5).blk t).view.emb (ix2 p q)) 0) q')
    refine congrArg (V c main_v218_0) (funext fun ax => Fin.ext ?_)
    match ax with
    | ⟨0, _⟩ => show win7_0.index t (0 : Fin 2) * 1000 + 1 * p.val = win7_5.index t (0 : Fin 2) * 1000 + 1 * p.val; omega
    | ⟨1, _⟩ => show win7_0.index t (1 : Fin 2) * 96 + 1 * q'.val = q'.val; omega
  have hW1 : mat (iblk7 V c 1 t) = mat (V c main_arg25) := by
    funext a b
    show V c main_arg25 (((cfg7.win 1).blk t).view.emb (ix2 a b)) = V c main_arg25 (ix2 a b)
    refine congrArg (V c main_arg25) (funext fun ax => Fin.ext ?_)
    match ax with
    | ⟨0, _⟩ => show win7_1.index t (0 : Fin 2) * 96 + 1 * a.val = a.val; omega
    | ⟨1, _⟩ => show win7_1.index t (1 : Fin 2) * 96 + 1 * b.val = b.val; omega
  have hW2 : mat (iblk7 V c 3 t) = mat (V c main_arg27) := by
    funext a b
    show V c main_arg27 (((cfg7.win 3).blk t).view.emb (ix2 a b)) = V c main_arg27 (ix2 a b)
    refine congrArg (V c main_arg27) (funext fun ax => Fin.ext ?_)
    match ax with
    | ⟨0, _⟩ => show win7_3.index t (0 : Fin 2) * 96 + 1 * a.val = a.val; omega
    | ⟨1, _⟩ => show win7_3.index t (1 : Fin 2) * 96 + 1 * b.val = b.val; omega
  have hb1 : vec (iblk7 V c 2 t) = vec (V c main_arg26) := by
    funext a
    show V c main_arg26 (((cfg7.win 2).blk t).view.emb (ix1 a)) = V c main_arg26 (ix1 a)
    refine congrArg (V c main_arg26) (funext fun ax => Fin.ext ?_)
    match ax with
    | ⟨0, _⟩ => show win7_2.index t (0 : Fin 1) * 96 + 1 * a.val = a.val; omega
  have hb2 : vec (iblk7 V c 4 t) = vec (V c main_arg28) := by
    funext a
    show V c main_arg28 (((cfg7.win 4).blk t).view.emb (ix1 a)) = V c main_arg28 (ix1 a)
    refine congrArg (V c main_arg28) (funext fun ax => Fin.ext ?_)
    match ax with
    | ⟨0, _⟩ => show win7_4.index t (0 : Fin 1) * 96 + 1 * a.val = a.val; omega
  have hq : ((((cfg7.win 5).blk t).view.emb (ix2 p q)) 1) = q :=
    Fin.ext (by show win7_5.index t (1 : Fin 2) * 96 + 1 * q.val = q.val; omega)
  rw [hX, hW1, hb1, hW2, hb2, hq]

/-- An index of output array 5 is in tile t iff each coordinate is in the tile's range on its axis. -/
theorem mem_blk (t : Fin cfg7.N) (i : S10000x96.Idx) :
    i ∈ ((cfg7.win 5).blk t).view.set ↔ ∀ a : Fin 2, win7_5.index t a * S1000x96.size a ≤ (i a).val ∧ (i a).val < win7_5.index t a * S1000x96.size a + S1000x96.size a := by
  show i ∈ ((View.whole main_v219).slice (win7_5.rect t)).set ↔ _
  rw [View.set_slice_whole, Rect.mem_set_unit]
  exact Iff.rfl

/-- The tiles cover output array 5: row r is in tile r / 1000. -/
theorem cover (i : S10000x96.Idx) : ∃ t : Fin cfg7.N, (cfg7.win 5).flush t = true ∧ i ∈ ((cfg7.win 5).blk t).view.set := by
  have hi0 : (i 0).val < 10000 := (i 0).isLt
  have hi1 : (i 1).val < 96 := (i 1).isLt
  have hN : (i 0).val / 1000 < cfg7.N := by show (i 0).val / 1000 < grid7.N; rw [N_7]; omega
  refine ⟨⟨(i 0).val / 1000, hN⟩, flush7_5 _, ?_⟩
  rw [mem_blk]
  obtain ⟨e0, e0', e1, e1', e2, e3, e3', e4, e5, e5'⟩ := idx_facts ⟨(i 0).val / 1000, hN⟩
  intro a
  match a with
  | ⟨0, _⟩ =>
    show win7_5.index ⟨(i 0).val / 1000, hN⟩ (0 : Fin 2) * 1000 ≤ (i 0).val ∧ (i 0).val < win7_5.index ⟨(i 0).val / 1000, hN⟩ (0 : Fin 2) * 1000 + 1000
    rw [e5]; show (i 0).val / 1000 * 1000 ≤ (i 0).val ∧ (i 0).val < (i 0).val / 1000 * 1000 + 1000; omega
  | ⟨1, _⟩ =>
    show win7_5.index ⟨(i 0).val / 1000, hN⟩ (1 : Fin 2) * 96 ≤ (i 1).val ∧ (i 1).val < win7_5.index ⟨(i 0).val / 1000, hN⟩ (1 : Fin 2) * 96 + 96
    rw [e5']; omega

/-- After the region output array 5 holds the row-wise function of the input array as the region found it. -/
theorem final (c : Dev nD) : (dat7 V c).arrAt 5 cfg7.N = mlpRows (V c main_v218_0) (V c main_arg25) (V c main_arg26) (V c main_arg27) (V c main_arg28) :=
  (dat7 V c).arrAt_eq_of_cover 5 _ (fun t _ => flushed_eq V c t) cover

end Cert.KernelIdeal.Decoder

end
-- ==== Proof.Region8.lean ====
/-
  The pooled head's region: what its output array holds after the run.

  The grid has one point: it takes the 500 pooled rows and the four weight arrays whole and stores
  (relu(X·W₁ + b₁))·W₂ + b₂, the two-layer perceptron of every pooled row.
-/
import proofs.«112516_j88167088653030_2_alg».proof.Proof.Gen.KernelIdeal.Frame
import proofs.«112516_j88167088653030_2_alg».proof.Proof.Rowwise
import proofs.«112516_j88167088653030_2_alg».proof.Proof.Concat

set_option maxRecDepth 16384

noncomputable section

namespace Cert.KernelIdeal.Head

open Cert.KernelIdeal Cert.KernelIdeal.Gen Cert.Layer Cert.Rowwise Cert.LibDenseLayers Cert.Concat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the row-tiled windows sit on tile t, the weight windows at 0. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0
    ∧ win8_4.index t (0 : Fin 1) = 0
    ∧ win8_5.index t (0 : Fin 2) = t.val ∧ win8_5.index t (1 : Fin 2) = 0 :=
  (by decide +kernel : ∀ t : Fin grid8.N, _)

/-- The body's stored value at row p, column q of the tile, as a function of the tile's row p. -/
theorem pay_apply (x : Vec Ideal S500x96 .f32) (w1 : Vec Ideal S96x96 .f32) (b1 : Vec Ideal S96 .f32) (w2 : Vec Ideal S96x96 .f32) (b2 : Vec Ideal S96 .f32) (p : Fin 500) (q : Fin 96) :
    k8_pay1 x w1 b1 w2 b2 (ix2 p q) = mlp relu id (rows x p) (mat w1) (vec b1) (mat w2) (vec b2) q := by
  unfold k8_pay1
  simp only [shapeCast_self]
  exact mlp_apply (n := 500) relu id dot_S500x96_S96x96_S500x96_1_0_0_1_n_n rfl dot_S500x96_S96x96_S500x96_1_0_0_1_n_n rfl _ _ x w1 b1 _ _ _ (fun _ _ => rfl) w2 b2 _ _ p q

/-- What grid point t writes back to output window 5 is tile t of the row-wise function of the whole input array. -/
theorem flushed_eq (c : Dev nD) (t : Fin cfg8.N) :
    (dat8 V c).flushed 5 t = ((cfg8.win 5).blk t).view.read (Elt Ideal) (mlpRows (V c main_v222) (V c main_arg29) (V c main_arg30) (V c main_arg31) (V c main_arg32)) := by
  show (cfg8.win 5).cut (grid8.coords t) ((dat8 V c).after 5 t) = _
  rw [after8_5]
  unfold out8_5
  rw [View.canon_unit_zero hz2]
  simp only [View.ld_unit_zero (S := S500x96) hz2, View.ld_unit_zero (S := S96x96) hz2, View.ld_unit_zero (S := S96) hz1]
  obtain ⟨e0, e0', e1, e1', e2, e3, e3', e4, e5, e5'⟩ := idx_facts t
  funext j
  obtain ⟨p, q, rfl⟩ : ∃ (p : Fin 500) (q : Fin 96), j = ix2 p q := ⟨j 0, j 1, eq_ix2 j⟩
  refine (pay_apply (iblk8 V c 0 t) (iblk8 V c 1 t) (iblk8 V c 2 t) (iblk8 V c 3 t) (iblk8 V c 4 t) p q).trans ?_
  show mlp relu id (rows (iblk8 V c 0 t) p) (mat (iblk8 V c 1 t)) (vec (iblk8 V c 2 t)) (mat (iblk8 V c 3 t)) (vec (iblk8 V c 4 t)) q
    = mlp relu id (rows (V c main_v222) ((((cfg8.win 5).blk t).view.emb (ix2 p q)) 0)) (mat (V c main_arg29)) (vec (V c main_arg30)) (mat (V c main_arg31)) (vec (V c main_arg32)) ((((cfg8.win 5).blk t).view.emb (ix2 p q)) 1)
  have hX : rows (iblk8 V c 0 t) p = rows (V c main_v222) ((((cfg8.win 5).blk t).view.emb (ix2 p q)) 0) := by
    funext q'
    show V c main_v222 (((cfg8.win 0).blk t).view.emb (ix2 p q')) = V c main_v222 (ix2 ((((cfg8.win 5).blk t).view.emb (ix2 p q)) 0) q')
    refine congrArg (V c main_v222) (funext fun ax => Fin.ext ?_)
    match ax with
    | ⟨0, _⟩ => show win8_0.index t (0 : Fin 2) * 500 + 1 * p.val = win8_5.index t (0 : Fin 2) * 500 + 1 * p.val; omega
    | ⟨1, _⟩ => show win8_0.index t (1 : Fin 2) * 96 + 1 * q'.val = q'.val; omega
  have hW1 : mat (iblk8 V c 1 t) = mat (V c main_arg29) := by
    funext a b
    show V c main_arg29 (((cfg8.win 1).blk t).view.emb (ix2 a b)) = V c main_arg29 (ix2 a b)
    refine congrArg (V c main_arg29) (funext fun ax => Fin.ext ?_)
    match ax with
    | ⟨0, _⟩ => show win8_1.index t (0 : Fin 2) * 96 + 1 * a.val = a.val; omega
    | ⟨1, _⟩ => show win8_1.index t (1 : Fin 2) * 96 + 1 * b.val = b.val; omega
  have hW2 : mat (iblk8 V c 3 t) = mat (V c main_arg31) := by
    funext a b
    show V c main_arg31 (((cfg8.win 3).blk t).view.emb (ix2 a b)) = V c main_arg31 (ix2 a b)
    refine congrArg (V c main_arg31) (funext fun ax => Fin.ext ?_)
    match ax with
    | ⟨0, _⟩ => show win8_3.index t (0 : Fin 2) * 96 + 1 * a.val = a.val; omega
    | ⟨1, _⟩ => show win8_3.index t (1 : Fin 2) * 96 + 1 * b.val = b.val; omega
  have hb1 : vec (iblk8 V c 2 t) = vec (V c main_arg30) := by
    funext a
    show V c main_arg30 (((cfg8.win 2).blk t).view.emb (ix1 a)) = V c main_arg30 (ix1 a)
    refine congrArg (V c main_arg30) (funext fun ax => Fin.ext ?_)
    match ax with
    | ⟨0, _⟩ => show win8_2.index t (0 : Fin 1) * 96 + 1 * a.val = a.val; omega
  have hb2 : vec (iblk8 V c 4 t) = vec (V c main_arg32) := by
    funext a
    show V c main_arg32 (((cfg8.win 4).blk t).view.emb (ix1 a)) = V c main_arg32 (ix1 a)
    refine congrArg (V c main_arg32) (funext fun ax => Fin.ext ?_)
    match ax with
    | ⟨0, _⟩ => show win8_4.index t (0 : Fin 1) * 96 + 1 * a.val = a.val; omega
  have hq : ((((cfg8.win 5).blk t).view.emb (ix2 p q)) 1) = q :=
    Fin.ext (by show win8_5.index t (1 : Fin 2) * 96 + 1 * q.val = q.val; omega)
  rw [hX, hW1, hb1, hW2, hb2, hq]

/-- An index of output array 5 is in tile t iff each coordinate is in the tile's range on its axis. -/
theorem mem_blk (t : Fin cfg8.N) (i : S500x96.Idx) :
    i ∈ ((cfg8.win 5).blk t).view.set ↔ ∀ a : Fin 2, win8_5.index t a * S500x96.size a ≤ (i a).val ∧ (i a).val < win8_5.index t a * S500x96.size a + S500x96.size a := by
  show i ∈ ((View.whole main_v223).slice (win8_5.rect t)).set ↔ _
  rw [View.set_slice_whole, Rect.mem_set_unit]
  exact Iff.rfl

/-- The tiles cover output array 5: row r is in tile r / 500. -/
theorem cover (i : S500x96.Idx) : ∃ t : Fin cfg8.N, (cfg8.win 5).flush t = true ∧ i ∈ ((cfg8.win 5).blk t).view.set := by
  have hi0 : (i 0).val < 500 := (i 0).isLt
  have hi1 : (i 1).val < 96 := (i 1).isLt
  have hN : (i 0).val / 500 < cfg8.N := by show (i 0).val / 500 < grid8.N; rw [N_8]; omega
  refine ⟨⟨(i 0).val / 500, hN⟩, flush8_5 _, ?_⟩
  rw [mem_blk]
  obtain ⟨e0, e0', e1, e1', e2, e3, e3', e4, e5, e5'⟩ := idx_facts ⟨(i 0).val / 500, hN⟩
  intro a
  match a with
  | ⟨0, _⟩ =>
    show win8_5.index ⟨(i 0).val / 500, hN⟩ (0 : Fin 2) * 500 ≤ (i 0).val ∧ (i 0).val < win8_5.index ⟨(i 0).val / 500, hN⟩ (0 : Fin 2) * 500 + 500
    rw [e5]; show (i 0).val / 500 * 500 ≤ (i 0).val ∧ (i 0).val < (i 0).val / 500 * 500 + 500; omega
  | ⟨1, _⟩ =>
    show win8_5.index ⟨(i 0).val / 500, hN⟩ (1 : Fin 2) * 96 ≤ (i 1).val ∧ (i 1).val < win8_5.index ⟨(i 0).val / 500, hN⟩ (1 : Fin 2) * 96 + 96
    rw [e5']; omega

/-- After the region output array 5 holds the row-wise function of the input array as the region found it. -/
theorem final (c : Dev nD) : (dat8 V c).arrAt 5 cfg8.N = mlpRows (V c main_v222) (V c main_arg29) (V c main_arg30) (V c main_arg31) (V c main_arg32) :=
  (dat8 V c).arrAt_eq_of_cover 5 _ (fun t _ => flushed_eq V c t) cover

end Cert.KernelIdeal.Head

end
-- ==== Proof.KChain.lean ====
/-
  The idealized kernel program's buffers, segment by segment, as the reference's stages of the argument arrays.

  @main is seventeen segments.  Through a host line a buffer the line does not write keeps its contents, and a buffer it
  writes holds the line's operations applied to the contents the line was entered with; through a kernel region an input
  array and every buffer that is no window's array keep their contents, and an output array holds the region's row-wise
  function of the input arrays (the region modules).  The kernel program's host lines are, operation for operation, the
  reference's own host lines, and each region's row-wise function is the one the reference's dense stretch computes
  (the reference's dense stretches, row by row).  So every buffer a later segment reads holds, when it is read, the
  reference's stage of the argument arrays with the same meaning: source and target indices, distances, in-degrees, node
  states and position encodings after each layer, gathered rows, weight slices, messages, aggregated messages, decoded
  nodes, pooled rows, and last the result.  Below, one statement per buffer and segment boundary at which it is read,
  each from the statements one boundary earlier.
-/
import proofs.«112516_j88167088653030_2_alg».proof.Proof.Gen.KernelIdeal.Frame
import proofs.«112516_j88167088653030_2_alg».proof.Proof.RefDense
import proofs.«112516_j88167088653030_2_alg».proof.Proof.Region0
import proofs.«112516_j88167088653030_2_alg».proof.Proof.Region1
import proofs.«112516_j88167088653030_2_alg».proof.Proof.Region2
import proofs.«112516_j88167088653030_2_alg».proof.Proof.Region3
import proofs.«112516_j88167088653030_2_alg».proof.Proof.Region4
import proofs.«112516_j88167088653030_2_alg».proof.Proof.Region5
import proofs.«112516_j88167088653030_2_alg».proof.Proof.Region6
import proofs.«112516_j88167088653030_2_alg».proof.Proof.Region7
import proofs.«112516_j88167088653030_2_alg».proof.Proof.Region8
import proofs.«112516_j88167088653030_2_alg».proof.Proof.LibNary
import Idealize.ShloMosaic.Lib.StableHlo.Run

set_option maxRecDepth 16384
set_option maxHeartbeats 400000

noncomputable section

namespace Cert.KernelIdeal.Chain

open Cert.KernelIdeal Cert.KernelIdeal.Gen Cert.Rowwise
open Idealize.ShloMosaic Idealize.ShloMosaic.TcCoe Idealize.ShloMosaic.StableHlo Idealize.SL.Sem

variable (m : (ℓ : Loc nD τ sig) → Buf (Elt Ideal) ℓ) (ρ : Dev nD → PrngReg)

theorem F0_arg0 (c : Dev nD) : W0 m ρ c (Proc.devRef .tc main_arg0) = m ((c : Thread nD τ).loc main_arg0) := rfl

theorem F1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg0 m ρ c)
theorem F1_arg0' (c : Dev nD) : V1 m ρ c main_arg0 = m ((c : Thread nD τ).loc main_arg0) := F1_arg0 m ρ c

theorem F0_arg2 (c : Dev nD) : W0 m ρ c (Proc.devRef .tc main_arg2) = m ((c : Thread nD τ).loc main_arg2) := rfl

theorem F1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg2 m ρ c)
theorem F1_arg2' (c : Dev nD) : V1 m ρ c main_arg2 = m ((c : Thread nD τ).loc main_arg2) := F1_arg2 m ρ c

theorem F0_arg5 (c : Dev nD) : W0 m ρ c (Proc.devRef .tc main_arg5) = m ((c : Thread nD τ).loc main_arg5) := rfl

theorem F1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg5 m ρ c)
theorem F1_arg5' (c : Dev nD) : V1 m ρ c main_arg5 = m ((c : Thread nD τ).loc main_arg5) := F1_arg5 m ρ c

theorem F0_arg6 (c : Dev nD) : W0 m ρ c (Proc.devRef .tc main_arg6) = m ((c : Thread nD τ).loc main_arg6) := rfl

theorem F1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg6 m ρ c)
theorem F1_arg6' (c : Dev nD) : V1 m ρ c main_arg6 = m ((c : Thread nD τ).loc main_arg6) := F1_arg6 m ρ c

theorem F0_arg7 (c : Dev nD) : W0 m ρ c (Proc.devRef .tc main_arg7) = m ((c : Thread nD τ).loc main_arg7) := rfl

theorem F1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg7 m ρ c)
theorem F1_arg7' (c : Dev nD) : V1 m ρ c main_arg7 = m ((c : Thread nD τ).loc main_arg7) := F1_arg7 m ρ c

theorem F0_arg8 (c : Dev nD) : W0 m ρ c (Proc.devRef .tc main_arg8) = m ((c : Thread nD τ).loc main_arg8) := rfl

theorem F1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg8 m ρ c)
theorem F1_arg8' (c : Dev nD) : V1 m ρ c main_arg8 = m ((c : Thread nD τ).loc main_arg8) := F1_arg8 m ρ c

theorem F0_arg9 (c : Dev nD) : W0 m ρ c (Proc.devRef .tc main_arg9) = m ((c : Thread nD τ).loc main_arg9) := rfl

theorem F1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg9 m ρ c)
theorem F1_arg9' (c : Dev nD) : V1 m ρ c main_arg9 = m ((c : Thread nD τ).loc main_arg9) := F1_arg9 m ρ c

theorem F0_arg10 (c : Dev nD) : W0 m ρ c (Proc.devRef .tc main_arg10) = m ((c : Thread nD τ).loc main_arg10) := rfl

theorem F1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg10 m ρ c)
theorem F1_arg10' (c : Dev nD) : V1 m ρ c main_arg10 = m ((c : Thread nD τ).loc main_arg10) := F1_arg10 m ρ c

theorem F2_v29_0 (c : Dev nD) : W2 m ρ c (Proc.devRef .tc main_v29_0) = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := by
  refine (W2_arr m ρ c 8).trans ((Cert.KernelIdeal.Embed.final8 (V1 m ρ) c).trans ?_)
  rw [Cert.ReferenceIdeal.RefDense.ref_h0]
  simp only [F1_arg0' m ρ c, F1_arg2' m ρ c, F1_arg5' m ρ c, F1_arg6' m ρ c, F1_arg7' m ρ c, F1_arg8' m ρ c, F1_arg9' m ρ c, F1_arg10' m ρ c] <;> rfl
theorem F2_v29_0' (c : Dev nD) : V2 m ρ c main_v29_0 = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := F2_v29_0 m ρ c

theorem F3_v29_0 (c : Dev nD) : W3 m ρ c (Proc.devRef .tc main_v29_0) = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v29_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v29_0 m ρ c)
theorem F3_v29_0' (c : Dev nD) : V3 m ρ c main_v29_0 = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := F3_v29_0 m ρ c

theorem F4_v29_0 (c : Dev nD) : W4 m ρ c (Proc.devRef .tc main_v29_0) = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (W4_of_ne m ρ c main_v29_0 (by decide)).trans (F3_v29_0 m ρ c)
theorem F4_v29_0' (c : Dev nD) : V4 m ρ c main_v29_0 = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := F4_v29_0 m ρ c

theorem F5_v29_0 (c : Dev nD) : W5 m ρ c (Proc.devRef .tc main_v29_0) = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) :=
  (StableHlo.after_of_forall_not_mem (b := Proc.devRef .tc main_v29_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v29_0 m ρ c)
theorem F5_v29_0' (c : Dev nD) : V5 m ρ c main_v29_0 = Cert.ReferenceIdeal.Stages.val_main_v31 (F := Ideal) (m ((c : Thread nD τ).loc main_arg0)) (m ((c : Thread nD τ).loc main_arg5)) (m ((c : Thread nD τ).loc main_arg6)) (m ((c : Thread nD τ).loc main_arg7)) (m ((c : Thread nD τ).loc main_arg8)) := F5_v29_0 m ρ c

theorem F2_v29_1 (c : Dev nD) : W2 m ρ c (Proc.devRef .tc main_v29_1) = Cert.ReferenceIdeal.Stages.val_main_v35 (F := Ideal) (m ((c : Thread nD τ).loc main_arg2)) (m ((c : Thread nD τ).loc main_arg9)) (m ((c : Thread nD τ).loc main_arg10)) := by
  refine (W2_arr m ρ c 9).trans ((Cert.KernelIdeal.Embed.final9 (V1 m ρ) c).trans ?_)
  rw [Cert.ReferenceIdeal.RefDense.ref_pe0]
  simp only [F1_arg0' m ρ c, F1_arg2' m ρ c, F1_arg5' m ρ c, F1_arg6' m ρ c, F1_arg7' m ρ c, F1_arg8' m ρ c, F1_arg9' m ρ c, F1_arg10' m ρ c] <;> rfl
theorem F2_v29_1' (c : Dev nD) : V2 m ρ c main_v29_1 = Cert.ReferenceIdeal.Stages.val_main_v35 (F := Ideal) (m ((c : Thread nD τ).loc main_arg2)) (m ((c : Thread nD τ).loc main_arg9)) (m ((c : Thread nD τ).loc main_arg10)) := F2_v29_1 m ρ c

theorem F3_v29_1 (c : Dev nD) : W3 m ρ c (Proc.devRef .tc main_v29_1) = Cert.ReferenceIdeal.Stages.val_main_v35 (F := Ideal) (m ((c : Thread nD τ).loc main_arg2)) (m ((c : Thread nD τ).loc main_arg9)) (m ((c : Thread nD τ).loc main_arg10)) :=
  (StableHlo.after_of_forall_not_mem (b := Proc.devRef .tc main_v29_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v29_1 m ρ c)
theorem F3_v29_1' (c : Dev nD) : V3 m ρ c main_v29_1 = Cert.ReferenceIdeal.Stages.val_main_v35 (F := Ideal) (m ((c : Thread nD τ).loc main_arg2)) (m ((c : Thread nD τ).loc main_arg9)) (m ((c : Thread nD τ).loc main_arg10)) := F3_v29_1 m ρ c

theorem F4_v29_1 (c : Dev nD) : W4 m ρ c (Proc.devRef .tc main_v29_1) = Cert.ReferenceIdeal.Stages.val_main_v35 (F := Ideal) (m ((c : Thread nD τ).loc main_arg2)) (m ((c : Thread nD τ).loc main_arg9)) (m ((c : Thread nD τ).loc main_arg10)) :=
  (W4_of_ne m ρ c main_v29_1 (by decide)).trans (F3_v29_1 m ρ c)
theorem F4_v29_1' (c : Dev nD) : V4 m ρ c main_v29_1 = Cert.ReferenceIdeal.Stages.val_main_v35 (F := Ideal) (m ((c : Thread nD τ).loc main_arg2)) (m ((c : Thread nD τ).loc main_arg9)) (m ((c : Thread nD τ).loc main_arg10)) := F4_v29_1 m ρ c

theorem F5_v29_1 (c : Dev nD) : W5 m ρ c (Proc.devRef .tc main_v29_1) = Cert.ReferenceIdeal.Stages.val_main_v35 (F := Ideal) (m ((c : Thread nD τ).loc main_arg2)) (m ((c : Thread nD τ).loc main_arg9)) (m ((c : Thread nD τ).loc main_arg10)) :=
  (StableHlo.after_of_forall_not_mem (b := Proc.devRef .tc main_v29_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v29_1 m ρ c)
theorem F5_v29_1' (c : Dev nD) : V5 m ρ c main_v29_1 = Cert.ReferenceIdeal.Stages.val_main_v35 (F := Ideal) (m ((c : Thread nD τ).loc main_arg2)) (m ((c : Thread nD τ).loc main_arg9)) (m ((c : Thread nD τ).loc main_arg10)) := F5_v29_1 m ρ c

theorem F0_arg3 (c : Dev nD) : W0 m ρ c (Proc.devRef .tc main_arg3) = m ((c : Thread nD τ).loc main_arg3) := rfl

theorem F1_v3 (c : Dev nD) : W1 m ρ c (Proc.devRef .tc main_v3) = Cert.ReferenceIdeal.Stages.val_main_v3 (F := Ideal) (m ((c : Thread nD τ).loc main_arg3)) := by
  show StableHlo.after hostOps0 (W0 m ρ c) (Proc.devRef .tc main_v3) = _
  after_results_each
  simp only [F0_arg3 m ρ c] <;> rfl
theorem F1_v3' (c : Dev nD) : V1 m ρ c main_v3 = Cert.ReferenceIdeal.Stages.val_main_v3 (F := Ideal) (m ((c : Thread nD τ).loc main_arg3)) := F1_v3 m ρ c

theorem F2_v3 (c : Dev nD) : W2 m ρ c (Proc.devRef .tc main_v3) = Cert.ReferenceIdeal.Stages.val_main_v3 (F := Ideal) (m ((c : Thread nD τ).loc main_arg3)) :=
  (W2_of_ne m ρ c main_v3 (by decide)).trans (F1_v3 m ρ c)
theorem F2_v3' (c : Dev nD) : V2 m ρ c main_v3 = Cert.ReferenceIdeal.Stages.val_main_v3 (F := Ideal) (m ((c : Thread nD τ).loc main_arg3)) := F2_v3 m ρ c

theorem F3_v36 (c : Dev nD) : W3 m ρ c (Proc.devRef .tc main_v36) = Cert.ReferenceIdeal.Stages.val_main_v48 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  show StableHlo.after hostOps1 (W2 m ρ c) (Proc.devRef .tc main_v36) = _
  after_results_each
  simp only [F2_v29_0 m ρ c, F2_v3 m ρ c] <;> rfl
theorem F3_v36' (c : Dev nD) : V3 m ρ c main_v36 = Cert.ReferenceIdeal.Stages.val_main_v48 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := F3_v36 m ρ c

theorem F1_v1 (c : Dev nD) : W1 m ρ c (Proc.devRef .tc main_v1) = Cert.ReferenceIdeal.Stages.val_main_v1 (F := Ideal) (m ((c : Thread nD τ).loc main_arg3)) := by
  show StableHlo.after hostOps0 (W0 m ρ c) (Proc.devRef .tc main_v1) = _
  after_results_each
  simp only [F0_arg3 m ρ c] <;> rfl
theorem F1_v1' (c : Dev nD) : V1 m ρ c main_v1 = Cert.ReferenceIdeal.Stages.val_main_v1 (F := Ideal) (m ((c : Thread nD τ).loc main_arg3)) := F1_v1 m ρ c

theorem F2_v1 (c : Dev nD) : W2 m ρ c (Proc.devRef .tc main_v1) = Cert.ReferenceIdeal.Stages.val_main_v1 (F := Ideal) (m ((c : Thread nD τ).loc main_arg3)) :=
  (W2_of_ne m ρ c main_v1 (by decide)).trans (F1_v1 m ρ c)
theorem F2_v1' (c : Dev nD) : V2 m ρ c main_v1 = Cert.ReferenceIdeal.Stages.val_main_v1 (F := Ideal) (m ((c : Thread nD τ).loc main_arg3)) := F2_v1 m ρ c

theorem F3_v43 (c : Dev nD) : W3 m ρ c (Proc.devRef .tc main_v43) = Cert.ReferenceIdeal.Stages.val_main_v55 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
  show StableHlo.after hostOps1 (W2 m ρ c) (Proc.devRef .tc main_v43) = _
  after_results_each
  simp only [F2_v29_0 m ρ c, F2_v1 m ρ c] <;> rfl
theorem F3_v43' (c : Dev nD) : V3 m ρ c main_v43 = Cert.ReferenceIdeal.Stages.val_main_v55 (F := Ideal) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := F3_v43 m ρ c

theorem F3_v50 (c : Dev nD) : W3 m ρ c (Proc.devRef .tc main_v50) = Cert.ReferenceIdeal.Stages.val_main_v62 (F := Ideal) (m ((c : Thread nD τ).loc main_arg2)) (m ((c : Thread nD τ).loc main_arg3)) (m ((c : Thread nD τ).loc main_arg9)) (m ((c : Thread nD τ).loc main_arg10)) := by
  show StableHlo.after hostOps1 (W2 m ρ c) (Proc.devRef .tc main_v50) = _
  after_results_each
  simp only [F2_v29_1 m ρ c, F2_v3 m ρ c] <;> rfl
theorem F3_v50' (c : Dev nD) : V3 m ρ c main_v50 = Cert.ReferenceIdeal.Stages.val_main_v62 (F := Ideal) (m ((c : Thread nD τ).loc main_arg2)) (m ((c : Thread nD τ).loc main_arg3)) (m ((c : Thread nD τ).loc main_arg9)) (m ((c : Thread nD τ).loc main_arg10)) := F3_v50 m ρ c

theorem F3_v57 (c : Dev nD) : W3 m ρ c (Proc.devRef .tc main_v57) = Cert.ReferenceIdeal.Stages.val_main_v69 (F := Ideal) (m ((c : Thread nD τ).loc main_arg2)) (m ((c : Thread nD τ).loc main_arg3)) (m ((c : Thread nD τ).loc main_arg9)) (m ((c : Thread nD τ).loc main_arg10)) := by
  show StableHlo.after hostOps1 (W2 m ρ c) (Proc.devRef .tc main_v57) = _
  after_results_each
  simp only [F2_v29_1 m ρ c, F2_v1 m ρ c] <;> rfl
theorem F3_v57' (c : Dev nD) : V3 m ρ c main_v57 = Cert.ReferenceIdeal.Stages.val_main_v69 (F := Ideal) (m ((c : Thread nD τ).loc main_arg2)) (m ((c : Thread nD τ).loc main_arg3)) (m ((c : Thread nD τ).loc main_arg9)) (m ((c : Thread nD τ).loc main_arg10)) := F3_v57 m ρ c

theorem F0_arg1 (c : Dev nD) : W0 m ρ c (Proc.devRef .tc main_arg1) = m ((c : Thread nD τ).loc main_arg1) := rfl

theorem F1_v22 (c : Dev nD) : W1 m ρ c (Proc.devRef .tc main_v22) = Cert.ReferenceIdeal.Stages.val_main_v22 (F := Ideal) (m ((c : Thread nD τ).loc main_arg1)) (m ((c : Thread nD τ).loc main_arg3)) := by
  show StableHlo.after hostOps0 (W0 m ρ c) (Proc.devRef .tc main_v22) = _
  after_results_each
  simp only [F0_arg1 m ρ c, F0_arg3 m ρ c] <;> rfl
theorem F1_v22' (c : Dev nD) : V1 m ρ c main_v22 = Cert.ReferenceIdeal.Stages.val_main_v22 (F := Ideal) (m ((c : Thread nD τ).loc main_arg1)) (m ((c : Thread nD τ).loc main_arg3)) := F1_v22 m ρ c

theorem F2_v22 (c : Dev nD) : W2 m ρ c (Proc.devRef .tc main_v22) = Cert.ReferenceIdeal.Stages.val_main_v22 (F := Ideal) (m ((c : Thread nD τ).loc main_arg1)) (m ((c : Thread nD τ).loc main_arg3)) :=
  (W2_of_ne m ρ c main_v22 (by decide)).trans (F1_v22 m ρ c)
theorem F2_v22' (c : Dev nD) : V2 m ρ c main_v22 = Cert.ReferenceIdeal.Stages.val_main_v22 (F := Ideal) (m ((c : Thread nD τ).loc main_arg1)) (m ((c : Thread nD τ).loc main_arg3)) := F2_v22 m ρ c

theorem F3_v22 (c : Dev nD) : W3 m ρ c (Proc.devRef .tc main_v22) = Cert.ReferenceIdeal.Stages.val_main_v22 (F := Ideal) (m ((c : Thread nD τ).loc main_arg1)) (m ((c : Thread nD τ).loc main_arg3)) :=
  (StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v22 m ρ c)
theorem F3_v22' (c : Dev nD) : V3 m ρ c main_v22 = Cert.ReferenceIdeal.Stages.val_main_v22 (F := Ideal) (m ((c : Thread nD τ).loc main_arg1)) (m ((c : Thread nD τ).loc main_arg3)) := F3_v22 m ρ c

theorem F0_arg11 (c : Dev nD) : W0 m ρ c (Proc.devRef .tc main_arg11) = m ((c : Thread nD τ).loc main_arg11) := rfl

theorem F1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg11 m ρ c)
theorem F1_arg11' (c : Dev nD) : V1 m ρ c main_arg11 = m ((c : Thread nD τ).loc main_arg11) := F1_arg11 m ρ c

theorem F2_arg11 (c : Dev nD) : W2 m ρ c (Proc.devRef .tc main_arg11) = m ((c : Thread nD τ).loc main_arg11) :=
  (W2_of_ne m ρ c main_arg11 (by decide)).trans (F1_arg11 m ρ c)
theorem F2_arg11' (c : Dev nD) : V2 m ρ c main_arg11 = m ((c : Thread nD τ).loc main_arg11) := F2_arg11 m ρ c

theorem F3_v59 (c : Dev nD) : W3 m ρ c (Proc.devRef .tc main_v59) = Cert.ReferenceIdeal.Stages.val_main_v72 (F := Ideal) (m ((c : Thread nD τ).loc main_arg11)) := by
  show StableHlo.after hostOps1 (W2 m ρ c) (Proc.devRef .tc main_v59) = _
  after_results_each
  simp only [F2_arg11 m ρ c] <;> rfl
theorem F3_v59' (c : Dev nD) : V3 m ρ c main_v59 = Cert.ReferenceIdeal.Stages.val_main_v72 (F := Ideal) (m ((c : Thread nD τ).loc main_arg11)) := F3_v59 m ρ c

theorem F0_arg12 (c : Dev nD) : W0 m ρ c (Proc.devRef .tc main_arg12) = m ((c : Thread nD τ).loc main_arg12) := rfl

theorem F1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg12 m ρ c)
theorem F1_arg12' (c : Dev nD) : V1 m ρ c main_arg12 = m ((c : Thread nD τ).loc main_arg12) := F1_arg12 m ρ c

theorem F2_arg12 (c : Dev nD) : W2 m ρ c (Proc.devRef .tc main_arg12) = m ((c : Thread nD τ).loc main_arg12) :=
  (W2_of_ne m ρ c main_arg12 (by decide)).trans (F1_arg12 m ρ c)
theorem F2_arg12' (c : Dev nD) : V2 m ρ c main_arg12 = m ((c : Thread nD τ).loc main_arg12) := F2_arg12 m ρ c

theorem F3_v61 (c : Dev nD) : W3 m ρ c (Proc.devRef .tc main_v61) = Cert.ReferenceIdeal.Stages.val_main_v75 (F := Ideal) (m ((c : Thread nD τ).loc main_arg12)) := by
  show StableHlo.after hostOps1 (W2 m ρ c) (Proc.devRef .tc main_v61) = _
  after_results_each
  simp only [F2_arg12 m ρ c] <;> rfl
theorem F3_v61' (c : Dev nD) : V3 m ρ c main_v61 = Cert.ReferenceIdeal.Stages.val_main_v75 (F := Ideal) (m ((c : Thread nD τ).loc main_arg12)) := F3_v61 m ρ c

theorem F0_arg13 (c : Dev nD) : W0 m ρ c (Proc.devRef .tc main_arg13) = m ((c : Thread nD τ).loc main_arg13) := rfl

theorem F1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg13 m ρ c)
theorem F1_arg13' (c : Dev nD) : V1 m ρ c main_arg13 = m ((c : Thread nD τ).loc main_arg13) := F1_arg13 m ρ c

theorem F2_arg13 (c : Dev nD) : W2 m ρ c (Proc.devRef .tc main_arg13) = m ((c : Thread nD τ).loc main_arg13) :=
  (W2_of_ne m ρ c main_arg13 (by decide)).trans (F1_arg13 m ρ c)
theorem F2_arg13' (c : Dev nD) : V2 m ρ c main_arg13 = m ((c : Thread nD τ).loc main_arg13) := F2_arg13 m ρ c

theorem F3_v63 (c : Dev nD) : W3 m ρ c (Proc.devRef .tc main_v63) = Cert.ReferenceIdeal.Stages.val_main_v81 (F := Ideal) (m ((c : Thread nD τ).loc main_arg13)) := by
  show StableHlo.after hostOps1 (W2 m ρ c) (Proc.devRef .tc main_v63) = _
  after_results_each
  simp only [F2_arg13 m ρ c] <;> rfl
theorem F3_v63' (c : Dev nD) : V3 m ρ c main_v63 = Cert.ReferenceIdeal.Stages.val_main_v81 (F := Ideal) (m ((c : Thread nD τ).loc main_arg13)) := F3_v63 m ρ c

theorem F0_arg14 (c : Dev nD) : W0 m ρ c (Proc.devRef .tc main_arg14) = m ((c : Thread nD τ).loc main_arg14) := rfl

theorem F1_arg14 (c : Dev nD) : W1 m ρ c (Proc.devRef .tc main_arg14) = m ((c : Thread nD τ).loc main_arg14) :=
  (StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg14 m ρ c)
theorem F1_arg14' (c : Dev nD) : V1 m ρ c main_arg14 = m ((c : Thread nD τ).loc main_arg14) := F1_arg14 m ρ c

theorem F2_arg14 (c : Dev nD) : W2 m ρ c (Proc.devRef .tc main_arg14) = m ((c : Thread nD τ).loc main_arg14) :=
  (W2_of_ne m ρ c main_arg14 (by decide)).trans (F1_arg14 m ρ c)
theorem F2_arg14' (c : Dev nD) : V2 m ρ c main_arg14 = m ((c : Thread nD τ).loc main_arg14) := F2_arg14 m ρ c

theorem F3_v65 (c : Dev nD) : W3 m ρ c (Proc.devRef .tc main_v65) = Cert.ReferenceIdeal.Stages.val_main_v84 (F := Ideal) (m ((c : Thread nD τ).loc main_arg14)) := by
  show StableHlo.after hostOps1 (W2 m ρ c) (Proc.devRef .tc main_v65) = _
  after_results_each
  simp only [F2_arg14 m ρ c] <;> rfl
theorem F3_v65' (c : Dev nD) : V3 m ρ c main_v65 = Cert.ReferenceIdeal.Stages.val_main_v84 (F := Ideal) (m ((c : Thread nD τ).loc main_arg14)) := F3_v65 m ρ c

theorem F0_arg15 (c : Dev nD) : W0 m ρ c (Proc.devRef .tc main_arg15) = m ((c : Thread nD τ).loc main_arg15) := rfl

theorem F1_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg15 m ρ c)
theorem F1_arg15' (c : Dev nD) : V1 m ρ c main_arg15 = m ((c : Thread nD τ).loc main_arg15) := F1_arg15 m ρ c

theorem F2_arg15 (c : Dev nD) : W2 m ρ c (Proc.devRef .tc main_arg15) = m ((c : Thread nD τ).loc main_arg15) :=
  (W2_of_ne m ρ c main_arg15 (by decide)).trans (F1_arg15 m ρ c)
theorem F2_arg15' (c : Dev nD) : V2 m ρ c main_arg15 = m ((c : Thread nD τ).loc main_arg15) := F2_arg15 m ρ c

theorem F3_v67 (c : Dev nD) : W3 m ρ c (Proc.devRef .tc main_v67) = Cert.ReferenceIdeal.Stages.val_main_v90 (F := Ideal) (m ((c : Thread nD τ).loc main_arg15)) := by
  show StableHlo.after hostOps1 (W2 m ρ c) (Proc.devRef .tc main_v67) = _
  after_results_each
  simp only [F2_arg15 m ρ c] <;> rfl
theorem F3_v67' (c : Dev nD) : V3 m ρ c main_v67 = Cert.ReferenceIdeal.Stages.val_main_v90 (F := Ideal) (m ((c : Thread nD τ).loc main_arg15)) := F3_v67 m ρ c

theorem F0_arg16 (c : Dev nD) : W0 m ρ c (Proc.devRef .tc main_arg16) = m ((c : Thread nD τ).loc main_arg16) := rfl

theorem F1_arg16 (c : Dev nD) : W1 m ρ c (Proc.devRef .tc main_arg16) = m ((c : Thread nD τ).loc main_arg16) :=
  (StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg16 m ρ c)
theorem F1_arg16' (c : Dev nD) : V1 m ρ c main_arg16 = m ((c : Thread nD τ).loc main_arg16) := F1_arg16 m ρ c

theorem F2_arg16 (c : Dev nD) : W2 m ρ c (Proc.devRef .tc main_arg16) = m ((c : Thread nD τ).loc main_arg16) :=
  (W2_of_ne m ρ c main_arg16 (by decide)).trans (F1_arg16 m ρ c)
theorem F2_arg16' (c : Dev nD) : V2 m ρ c main_arg16 = m ((c : Thread nD τ).loc main_arg16) := F2_arg16 m ρ c

theorem F3_v69 (c : Dev nD) : W3 m ρ c (Proc.devRef .tc main_v69) = Cert.ReferenceIdeal.Stages.val_main_v93 (F := Ideal) (m ((c : Thread nD τ).loc main_arg16)) := by
  show StableHlo.after hostOps1 (W2 m ρ c) (Proc.devRef .tc main_v69) = _
  after_results_each
  simp only [F2_arg16 m ρ c] <;> rfl
theorem F3_v69' (c : Dev nD) : V3 m ρ c main_v69 = Cert.ReferenceIdeal.Stages.val_main_v93 (F := Ideal) (m ((c : Thread nD τ).loc main_arg16)) := F3_v69 m ρ c

theorem F4_v70 (c : Dev nD) : W4 m ρ c (Proc.devRef .tc main_v70) = Cert.ReferenceIdeal.Stages.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W4_arr m ρ c 11).trans ((Cert.KernelIdeal.Message1.final (V3 m ρ) c).trans ?_)
  rw [Cert.ReferenceIdeal.RefDense.ref_msg1]
  simp only [F3_v36' m ρ c, F3_v43' m ρ c, F3_v50' m ρ c, F3_v57' m ρ c, F3_v22' m ρ c, F3_v59' m ρ c, F3_v61' m ρ c, F3_v63' m ρ c, F3_v65' m ρ c, F3_v67' m ρ c, F3_v69' m ρ c]
  try rw [F3_v36' m ρ c]
  try rw [F3_v43' m ρ c]
  try rw [F3_v50' m ρ c]
  try rw [F3_v57' m ρ c]
  try rw [F3_v22' m ρ c]
  rfl
theorem F4_v70' (c : Dev nD) : V4 m ρ c main_v70 = Cert.ReferenceIdeal.Stages.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := F4_v70 m ρ c

theorem F3_v3 (c : Dev nD) : W3 m ρ c (Proc.devRef .tc main_v3) = Cert.ReferenceIdeal.Stages.val_main_v3 (F := Ideal) (m ((c : Thread nD τ).loc main_arg3)) :=
  (StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v3 m ρ c)
theorem F3_v3' (c : Dev nD) : V3 m ρ c main_v3 = Cert.ReferenceIdeal.Stages.val_main_v3 (F := Ideal) (m ((c : Thread nD τ).loc main_arg3)) := F3_v3 m ρ c

theorem F4_v3 (c : Dev nD) : W4 m ρ c (Proc.devRef .tc main_v3) = Cert.ReferenceIdeal.Stages.val_main_v3 (F := Ideal) (m ((c : Thread nD τ).loc main_arg3)) :=
  (W4_of_ne m ρ c main_v3 (by decide)).trans (F3_v3 m ρ c)
theorem F4_v3' (c : Dev nD) : V4 m ρ c main_v3 = Cert.ReferenceIdeal.Stages.val_main_v3 (F := Ideal) (m ((c : Thread nD τ).loc main_arg3)) := F4_v3 m ρ c

theorem F1_v28 (c : Dev nD) : W1 m ρ c (Proc.devRef .tc main_v28) = Cert.ReferenceIdeal.Stages.val_main_v41 (F := Ideal) (m ((c : Thread nD τ).loc main_arg3)) := by
  show StableHlo.after hostOps0 (W0 m ρ c) (Proc.devRef .tc main_v28) = _
  after_results_each
  simp only [F0_arg3 m ρ c] <;> rfl
theorem F1_v28' (c : Dev nD) : V1 m ρ c main_v28 = Cert.ReferenceIdeal.Stages.val_main_v41 (F := Ideal) (m ((c : Thread nD τ).loc main_arg3)) := F1_v28 m ρ c

theorem F2_v28 (c : Dev nD) : W2 m ρ c (Proc.devRef .tc main_v28) = Cert.ReferenceIdeal.Stages.val_main_v41 (F := Ideal) (m ((c : Thread nD τ).loc main_arg3)) :=
  (W2_of_ne m ρ c main_v28 (by decide)).trans (F1_v28 m ρ c)
theorem F2_v28' (c : Dev nD) : V2 m ρ c main_v28 = Cert.ReferenceIdeal.Stages.val_main_v41 (F := Ideal) (m ((c : Thread nD τ).loc main_arg3)) := F2_v28 m ρ c

theorem F3_v28 (c : Dev nD) : W3 m ρ c (Proc.devRef .tc main_v28) = Cert.ReferenceIdeal.Stages.val_main_v41 (F := Ideal) (m ((c : Thread nD τ).loc main_arg3)) :=
  (StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v28 m ρ c)
theorem F3_v28' (c : Dev nD) : V3 m ρ c main_v28 = Cert.ReferenceIdeal.Stages.val_main_v41 (F := Ideal) (m ((c : Thread nD τ).loc main_arg3)) := F3_v28 m ρ c

theorem F4_v28 (c : Dev nD) : W4 m ρ c (Proc.devRef .tc main_v28) = Cert.ReferenceIdeal.Stages.val_main_v41 (F := Ideal) (m ((c : Thread nD τ).loc main_arg3)) :=
  (W4_of_ne m ρ c main_v28 (by decide)).trans (F3_v28 m ρ c)
theorem F4_v28' (c : Dev nD) : V4 m ρ c main_v28 = Cert.ReferenceIdeal.Stages.val_main_v41 (F := Ideal) (m ((c : Thread nD τ).loc main_arg3)) := F4_v28 m ρ c

theorem F5_v75 (c : Dev nD) : W5 m ρ c (Proc.devRef .tc main_v75) = Cert.ReferenceIdeal.Stages.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps2 (W4 m ρ c) (Proc.devRef .tc main_v75) = _
  after_results_each
  simp only [F4_v70 m ρ c, F4_v3 m ρ c, F4_v28 m ρ c] <;> rfl
theorem F5_v75' (c : Dev nD) : V5 m ρ c main_v75 = Cert.ReferenceIdeal.Stages.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := F5_v75 m ρ c

theorem F0_arg17 (c : Dev nD) : W0 m ρ c (Proc.devRef .tc main_arg17) = m ((c : Thread nD τ).loc main_arg17) := rfl

theorem F1_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg17 m ρ c)
theorem F1_arg17' (c : Dev nD) : V1 m ρ c main_arg17 = m ((c : Thread nD τ).loc main_arg17) := F1_arg17 m ρ c

theorem F2_arg17 (c : Dev nD) : W2 m ρ c (Proc.devRef .tc main_arg17) = m ((c : Thread nD τ).loc main_arg17) :=
  (W2_of_ne m ρ c main_arg17 (by decide)).trans (F1_arg17 m ρ c)
theorem F2_arg17' (c : Dev nD) : V2 m ρ c main_arg17 = m ((c : Thread nD τ).loc main_arg17) := F2_arg17 m ρ c

theorem F3_arg17 (c : Dev nD) : W3 m ρ c (Proc.devRef .tc main_arg17) = m ((c : Thread nD τ).loc main_arg17) :=
  (StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg17 m ρ c)
theorem F3_arg17' (c : Dev nD) : V3 m ρ c main_arg17 = m ((c : Thread nD τ).loc main_arg17) := F3_arg17 m ρ c

theorem F4_arg17 (c : Dev nD) : W4 m ρ c (Proc.devRef .tc main_arg17) = m ((c : Thread nD τ).loc main_arg17) :=
  (W4_of_ne m ρ c main_arg17 (by decide)).trans (F3_arg17 m ρ c)
theorem F4_arg17' (c : Dev nD) : V4 m ρ c main_arg17 = m ((c : Thread nD τ).loc main_arg17) := F4_arg17 m ρ c

theorem F5_v77 (c : Dev nD) : W5 m ρ c (Proc.devRef .tc main_v77) = Cert.ReferenceIdeal.Stages.val_main_v112 (F := Ideal) (m ((c : Thread nD τ).loc main_arg17)) := by
  show StableHlo.after hostOps2 (W4 m ρ c) (Proc.devRef .tc main_v77) = _
  after_results_each
  simp only [F4_arg17 m ρ c] <;> rfl
theorem F5_v77' (c : Dev nD) : V5 m ρ c main_v77 = Cert.ReferenceIdeal.Stages.val_main_v112 (F := Ideal) (m ((c : Thread nD τ).loc main_arg17)) := F5_v77 m ρ c

theorem F0_arg18 (c : Dev nD) : W0 m ρ c (Proc.devRef .tc main_arg18) = m ((c : Thread nD τ).loc main_arg18) := rfl

theorem F1_arg18 (c : Dev nD) : W1 m ρ c (Proc.devRef .tc main_arg18) = m ((c : Thread nD τ).loc main_arg18) :=
  (StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg18 m ρ c)
theorem F1_arg18' (c : Dev nD) : V1 m ρ c main_arg18 = m ((c : Thread nD τ).loc main_arg18) := F1_arg18 m ρ c

theorem F2_arg18 (c : Dev nD) : W2 m ρ c (Proc.devRef .tc main_arg18) = m ((c : Thread nD τ).loc main_arg18) :=
  (W2_of_ne m ρ c main_arg18 (by decide)).trans (F1_arg18 m ρ c)
theorem F2_arg18' (c : Dev nD) : V2 m ρ c main_arg18 = m ((c : Thread nD τ).loc main_arg18) := F2_arg18 m ρ c

theorem F3_arg18 (c : Dev nD) : W3 m ρ c (Proc.devRef .tc main_arg18) = m ((c : Thread nD τ).loc main_arg18) :=
  (StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg18 m ρ c)
theorem F3_arg18' (c : Dev nD) : V3 m ρ c main_arg18 = m ((c : Thread nD τ).loc main_arg18) := F3_arg18 m ρ c

theorem F4_arg18 (c : Dev nD) : W4 m ρ c (Proc.devRef .tc main_arg18) = m ((c : Thread nD τ).loc main_arg18) :=
  (W4_of_ne m ρ c main_arg18 (by decide)).trans (F3_arg18 m ρ c)
theorem F4_arg18' (c : Dev nD) : V4 m ρ c main_arg18 = m ((c : Thread nD τ).loc main_arg18) := F4_arg18 m ρ c

theorem F5_v79 (c : Dev nD) : W5 m ρ c (Proc.devRef .tc main_v79) = Cert.ReferenceIdeal.Stages.val_main_v115 (F := Ideal) (m ((c : Thread nD τ).loc main_arg18)) := by
  show StableHlo.after hostOps2 (W4 m ρ c) (Proc.devRef .tc main_v79) = _
  after_results_each
  simp only [F4_arg18 m ρ c] <;> rfl
theorem F5_v79' (c : Dev nD) : V5 m ρ c main_v79 = Cert.ReferenceIdeal.Stages.val_main_v115 (F := Ideal) (m ((c : Thread nD τ).loc main_arg18)) := F5_v79 m ρ c

theorem F0_arg19 (c : Dev nD) : W0 m ρ c (Proc.devRef .tc main_arg19) = m ((c : Thread nD τ).loc main_arg19) := rfl

theorem F1_arg19 (c : Dev nD) : W1 m ρ c (Proc.devRef .tc main_arg19) = m ((c : Thread nD τ).loc main_arg19) :=
  (StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg19 m ρ c)
theorem F1_arg19' (c : Dev nD) : V1 m ρ c main_arg19 = m ((c : Thread nD τ).loc main_arg19) := F1_arg19 m ρ c

theorem F2_arg19 (c : Dev nD) : W2 m ρ c (Proc.devRef .tc main_arg19) = m ((c : Thread nD τ).loc main_arg19) :=
  (W2_of_ne m ρ c main_arg19 (by decide)).trans (F1_arg19 m ρ c)
theorem F2_arg19' (c : Dev nD) : V2 m ρ c main_arg19 = m ((c : Thread nD τ).loc main_arg19) := F2_arg19 m ρ c

theorem F3_arg19 (c : Dev nD) : W3 m ρ c (Proc.devRef .tc main_arg19) = m ((c : Thread nD τ).loc main_arg19) :=
  (StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg19 m ρ c)
theorem F3_arg19' (c : Dev nD) : V3 m ρ c main_arg19 = m ((c : Thread nD τ).loc main_arg19) := F3_arg19 m ρ c

theorem F4_arg19 (c : Dev nD) : W4 m ρ c (Proc.devRef .tc main_arg19) = m ((c : Thread nD τ).loc main_arg19) :=
  (W4_of_ne m ρ c main_arg19 (by decide)).trans (F3_arg19 m ρ c)
theorem F4_arg19' (c : Dev nD) : V4 m ρ c main_arg19 = m ((c : Thread nD τ).loc main_arg19) := F4_arg19 m ρ c

theorem F5_v81 (c : Dev nD) : W5 m ρ c (Proc.devRef .tc main_v81) = Cert.ReferenceIdeal.Stages.val_main_v121 (F := Ideal) (m ((c : Thread nD τ).loc main_arg19)) := by
  show StableHlo.after hostOps2 (W4 m ρ c) (Proc.devRef .tc main_v81) = _
  after_results_each
  simp only [F4_arg19 m ρ c] <;> rfl
theorem F5_v81' (c : Dev nD) : V5 m ρ c main_v81 = Cert.ReferenceIdeal.Stages.val_main_v121 (F := Ideal) (m ((c : Thread nD τ).loc main_arg19)) := F5_v81 m ρ c

theorem F0_arg20 (c : Dev nD) : W0 m ρ c (Proc.devRef .tc main_arg20) = m ((c : Thread nD τ).loc main_arg20) := rfl

theorem F1_arg20 (c : Dev nD) : W1 m ρ c (Proc.devRef .tc main_arg20) = m ((c : Thread nD τ).loc main_arg20) :=
  (StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg20 m ρ c)
theorem F1_arg20' (c : Dev nD) : V1 m ρ c main_arg20 = m ((c : Thread nD τ).loc main_arg20) := F1_arg20 m ρ c

theorem F2_arg20 (c : Dev nD) : W2 m ρ c (Proc.devRef .tc main_arg20) = m ((c : Thread nD τ).loc main_arg20) :=
  (W2_of_ne m ρ c main_arg20 (by decide)).trans (F1_arg20 m ρ c)
theorem F2_arg20' (c : Dev nD) : V2 m ρ c main_arg20 = m ((c : Thread nD τ).loc main_arg20) := F2_arg20 m ρ c

theorem F3_arg20 (c : Dev nD) : W3 m ρ c (Proc.devRef .tc main_arg20) = m ((c : Thread nD τ).loc main_arg20) :=
  (StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg20 m ρ c)
theorem F3_arg20' (c : Dev nD) : V3 m ρ c main_arg20 = m ((c : Thread nD τ).loc main_arg20) := F3_arg20 m ρ c

theorem F4_arg20 (c : Dev nD) : W4 m ρ c (Proc.devRef .tc main_arg20) = m ((c : Thread nD τ).loc main_arg20) :=
  (W4_of_ne m ρ c main_arg20 (by decide)).trans (F3_arg20 m ρ c)
theorem F4_arg20' (c : Dev nD) : V4 m ρ c main_arg20 = m ((c : Thread nD τ).loc main_arg20) := F4_arg20 m ρ c

theorem F5_v83 (c : Dev nD) : W5 m ρ c (Proc.devRef .tc main_v83) = Cert.ReferenceIdeal.Stages.val_main_v124 (F := Ideal) (m ((c : Thread nD τ).loc main_arg20)) := by
  show StableHlo.after hostOps2 (W4 m ρ c) (Proc.devRef .tc main_v83) = _
  after_results_each
  simp only [F4_arg20 m ρ c] <;> rfl
theorem F5_v83' (c : Dev nD) : V5 m ρ c main_v83 = Cert.ReferenceIdeal.Stages.val_main_v124 (F := Ideal) (m ((c : Thread nD τ).loc main_arg20)) := F5_v83 m ρ c

theorem F0_arg21 (c : Dev nD) : W0 m ρ c (Proc.devRef .tc main_arg21) = m ((c : Thread nD τ).loc main_arg21) := rfl

theorem F1_arg21 (c : Dev nD) : W1 m ρ c (Proc.devRef .tc main_arg21) = m ((c : Thread nD τ).loc main_arg21) :=
  (StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg21 m ρ c)
theorem F1_arg21' (c : Dev nD) : V1 m ρ c main_arg21 = m ((c : Thread nD τ).loc main_arg21) := F1_arg21 m ρ c

theorem F2_arg21 (c : Dev nD) : W2 m ρ c (Proc.devRef .tc main_arg21) = m ((c : Thread nD τ).loc main_arg21) :=
  (W2_of_ne m ρ c main_arg21 (by decide)).trans (F1_arg21 m ρ c)
theorem F2_arg21' (c : Dev nD) : V2 m ρ c main_arg21 = m ((c : Thread nD τ).loc main_arg21) := F2_arg21 m ρ c

theorem F3_arg21 (c : Dev nD) : W3 m ρ c (Proc.devRef .tc main_arg21) = m ((c : Thread nD τ).loc main_arg21) :=
  (StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg21 m ρ c)
theorem F3_arg21' (c : Dev nD) : V3 m ρ c main_arg21 = m ((c : Thread nD τ).loc main_arg21) := F3_arg21 m ρ c

theorem F4_arg21 (c : Dev nD) : W4 m ρ c (Proc.devRef .tc main_arg21) = m ((c : Thread nD τ).loc main_arg21) :=
  (W4_of_ne m ρ c main_arg21 (by decide)).trans (F3_arg21 m ρ c)
theorem F4_arg21' (c : Dev nD) : V4 m ρ c main_arg21 = m ((c : Thread nD τ).loc main_arg21) := F4_arg21 m ρ c

theorem F5_v85 (c : Dev nD) : W5 m ρ c (Proc.devRef .tc main_v85) = Cert.ReferenceIdeal.Stages.val_main_v131 (F := Ideal) (m ((c : Thread nD τ).loc main_arg21)) := by
  show StableHlo.after hostOps2 (W4 m ρ c) (Proc.devRef .tc main_v85) = _
  after_results_each
  simp only [F4_arg21 m ρ c] <;> rfl
theorem F5_v85' (c : Dev nD) : V5 m ρ c main_v85 = Cert.ReferenceIdeal.Stages.val_main_v131 (F := Ideal) (m ((c : Thread nD τ).loc main_arg21)) := F5_v85 m ρ c

theorem F0_arg22 (c : Dev nD) : W0 m ρ c (Proc.devRef .tc main_arg22) = m ((c : Thread nD τ).loc main_arg22) := rfl

theorem F1_arg22 (c : Dev nD) : W1 m ρ c (Proc.devRef .tc main_arg22) = m ((c : Thread nD τ).loc main_arg22) :=
  (StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg22 m ρ c)
theorem F1_arg22' (c : Dev nD) : V1 m ρ c main_arg22 = m ((c : Thread nD τ).loc main_arg22) := F1_arg22 m ρ c

theorem F2_arg22 (c : Dev nD) : W2 m ρ c (Proc.devRef .tc main_arg22) = m ((c : Thread nD τ).loc main_arg22) :=
  (W2_of_ne m ρ c main_arg22 (by decide)).trans (F1_arg22 m ρ c)
theorem F2_arg22' (c : Dev nD) : V2 m ρ c main_arg22 = m ((c : Thread nD τ).loc main_arg22) := F2_arg22 m ρ c

theorem F3_arg22 (c : Dev nD) : W3 m ρ c (Proc.devRef .tc main_arg22) = m ((c : Thread nD τ).loc main_arg22) :=
  (StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg22 m ρ c)
theorem F3_arg22' (c : Dev nD) : V3 m ρ c main_arg22 = m ((c : Thread nD τ).loc main_arg22) := F3_arg22 m ρ c

theorem F4_arg22 (c : Dev nD) : W4 m ρ c (Proc.devRef .tc main_arg22) = m ((c : Thread nD τ).loc main_arg22) :=
  (W4_of_ne m ρ c main_arg22 (by decide)).trans (F3_arg22 m ρ c)
theorem F4_arg22' (c : Dev nD) : V4 m ρ c main_arg22 = m ((c : Thread nD τ).loc main_arg22) := F4_arg22 m ρ c

theorem F5_v87 (c : Dev nD) : W5 m ρ c (Proc.devRef .tc main_v87) = Cert.ReferenceIdeal.Stages.val_main_v134 (F := Ideal) (m ((c : Thread nD τ).loc main_arg22)) := by
  show StableHlo.after hostOps2 (W4 m ρ c) (Proc.devRef .tc main_v87) = _
  after_results_each
  simp only [F4_arg22 m ρ c] <;> rfl
theorem F5_v87' (c : Dev nD) : V5 m ρ c main_v87 = Cert.ReferenceIdeal.Stages.val_main_v134 (F := Ideal) (m ((c : Thread nD τ).loc main_arg22)) := F5_v87 m ρ c

theorem F0_arg23 (c : Dev nD) : W0 m ρ c (Proc.devRef .tc main_arg23) = m ((c : Thread nD τ).loc main_arg23) := rfl

theorem F1_arg23 (c : Dev nD) : W1 m ρ c (Proc.devRef .tc main_arg23) = m ((c : Thread nD τ).loc main_arg23) :=
  (StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg23 m ρ c)
theorem F1_arg23' (c : Dev nD) : V1 m ρ c main_arg23 = m ((c : Thread nD τ).loc main_arg23) := F1_arg23 m ρ c

theorem F2_arg23 (c : Dev nD) : W2 m ρ c (Proc.devRef .tc main_arg23) = m ((c : Thread nD τ).loc main_arg23) :=
  (W2_of_ne m ρ c main_arg23 (by decide)).trans (F1_arg23 m ρ c)
theorem F2_arg23' (c : Dev nD) : V2 m ρ c main_arg23 = m ((c : Thread nD τ).loc main_arg23) := F2_arg23 m ρ c

theorem F3_arg23 (c : Dev nD) : W3 m ρ c (Proc.devRef .tc main_arg23) = m ((c : Thread nD τ).loc main_arg23) :=
  (StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg23 m ρ c)
theorem F3_arg23' (c : Dev nD) : V3 m ρ c main_arg23 = m ((c : Thread nD τ).loc main_arg23) := F3_arg23 m ρ c

theorem F4_arg23 (c : Dev nD) : W4 m ρ c (Proc.devRef .tc main_arg23) = m ((c : Thread nD τ).loc main_arg23) :=
  (W4_of_ne m ρ c main_arg23 (by decide)).trans (F3_arg23 m ρ c)
theorem F4_arg23' (c : Dev nD) : V4 m ρ c main_arg23 = m ((c : Thread nD τ).loc main_arg23) := F4_arg23 m ρ c

theorem F5_v89 (c : Dev nD) : W5 m ρ c (Proc.devRef .tc main_v89) = Cert.ReferenceIdeal.Stages.val_main_v140 (F := Ideal) (m ((c : Thread nD τ).loc main_arg23)) := by
  show StableHlo.after hostOps2 (W4 m ρ c) (Proc.devRef .tc main_v89) = _
  after_results_each
  simp only [F4_arg23 m ρ c] <;> rfl
theorem F5_v89' (c : Dev nD) : V5 m ρ c main_v89 = Cert.ReferenceIdeal.Stages.val_main_v140 (F := Ideal) (m ((c : Thread nD τ).loc main_arg23)) := F5_v89 m ρ c

theorem F0_arg24 (c : Dev nD) : W0 m ρ c (Proc.devRef .tc main_arg24) = m ((c : Thread nD τ).loc main_arg24) := rfl

theorem F1_arg24 (c : Dev nD) : W1 m ρ c (Proc.devRef .tc main_arg24) = m ((c : Thread nD τ).loc main_arg24) :=
  (StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg24 m ρ c)
theorem F1_arg24' (c : Dev nD) : V1 m ρ c main_arg24 = m ((c : Thread nD τ).loc main_arg24) := F1_arg24 m ρ c

theorem F2_arg24 (c : Dev nD) : W2 m ρ c (Proc.devRef .tc main_arg24) = m ((c : Thread nD τ).loc main_arg24) :=
  (W2_of_ne m ρ c main_arg24 (by decide)).trans (F1_arg24 m ρ c)
theorem F2_arg24' (c : Dev nD) : V2 m ρ c main_arg24 = m ((c : Thread nD τ).loc main_arg24) := F2_arg24 m ρ c

theorem F3_arg24 (c : Dev nD) : W3 m ρ c (Proc.devRef .tc main_arg24) = m ((c : Thread nD τ).loc main_arg24) :=
  (StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg24 m ρ c)
theorem F3_arg24' (c : Dev nD) : V3 m ρ c main_arg24 = m ((c : Thread nD τ).loc main_arg24) := F3_arg24 m ρ c

theorem F4_arg24 (c : Dev nD) : W4 m ρ c (Proc.devRef .tc main_arg24) = m ((c : Thread nD τ).loc main_arg24) :=
  (W4_of_ne m ρ c main_arg24 (by decide)).trans (F3_arg24 m ρ c)
theorem F4_arg24' (c : Dev nD) : V4 m ρ c main_arg24 = m ((c : Thread nD τ).loc main_arg24) := F4_arg24 m ρ c

theorem F5_v91 (c : Dev nD) : W5 m ρ c (Proc.devRef .tc main_v91) = Cert.ReferenceIdeal.Stages.val_main_v143 (F := Ideal) (m ((c : Thread nD τ).loc main_arg24)) := by
  show StableHlo.after hostOps2 (W4 m ρ c) (Proc.devRef .tc main_v91) = _
  after_results_each
  simp only [F4_arg24 m ρ c] <;> rfl
theorem F5_v91' (c : Dev nD) : V5 m ρ c main_v91 = Cert.ReferenceIdeal.Stages.val_main_v143 (F := Ideal) (m ((c : Thread nD τ).loc main_arg24)) := F5_v91 m ρ c

theorem F6_v92_0 (c : Dev nD) : W6 m ρ c (Proc.devRef .tc main_v92_0) = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W6_arr m ρ c 11).trans ((Cert.KernelIdeal.Update2.finalH (V5 m ρ) c).trans ?_)
  rw [Cert.ReferenceIdeal.RefDense.ref_h1]
  simp only [F5_v29_0' m ρ c, F5_v29_1' m ρ c, F5_v75' m ρ c, F5_v77' m ρ c, F5_v79' m ρ c, F5_v81' m ρ c, F5_v83' m ρ c, F5_v85' m ρ c, F5_v87' m ρ c, F5_v89' m ρ c, F5_v91' m ρ c]
  try rw [F5_v29_0' m ρ c]
  try rw [F5_v29_1' m ρ c]
  try rw [F5_v75' m ρ c]
  rfl
theorem F6_v92_0' (c : Dev nD) : V6 m ρ c main_v92_0 = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F6_v92_0 m ρ c

theorem F7_v92_0 (c : Dev nD) : W7 m ρ c (Proc.devRef .tc main_v92_0) = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (StableHlo.after_of_forall_not_mem (b := Proc.devRef .tc main_v92_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v92_0 m ρ c)
theorem F7_v92_0' (c : Dev nD) : V7 m ρ c main_v92_0 = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F7_v92_0 m ρ c

theorem F8_v92_0 (c : Dev nD) : W8 m ρ c (Proc.devRef .tc main_v92_0) = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (W8_of_ne m ρ c main_v92_0 (by decide)).trans (F7_v92_0 m ρ c)
theorem F8_v92_0' (c : Dev nD) : V8 m ρ c main_v92_0 = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F8_v92_0 m ρ c

theorem F9_v92_0 (c : Dev nD) : W9 m ρ c (Proc.devRef .tc main_v92_0) = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (StableHlo.after_of_forall_not_mem (b := Proc.devRef .tc main_v92_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v92_0 m ρ c)
theorem F9_v92_0' (c : Dev nD) : V9 m ρ c main_v92_0 = Cert.ReferenceIdeal.Stages.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F9_v92_0 m ρ c

theorem F6_v92_1 (c : Dev nD) : W6 m ρ c (Proc.devRef .tc main_v92_1) = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := by
  refine (W6_arr m ρ c 12).trans ((Cert.KernelIdeal.Update2.finalP (V5 m ρ) c).trans ?_)
  rw [Cert.ReferenceIdeal.RefDense.ref_pe1]
  simp only [F5_v29_0' m ρ c, F5_v29_1' m ρ c, F5_v75' m ρ c, F5_v77' m ρ c, F5_v79' m ρ c, F5_v81' m ρ c, F5_v83' m ρ c, F5_v85' m ρ c, F5_v87' m ρ c, F5_v89' m ρ c, F5_v91' m ρ c]
  try rw [F5_v29_0' m ρ c]
  try rw [F5_v29_1' m ρ c]
  try rw [F5_v75' m ρ c]
  rfl
theorem F6_v92_1' (c : Dev nD) : V6 m ρ c main_v92_1 = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F6_v92_1 m ρ c

theorem F7_v92_1 (c : Dev nD) : W7 m ρ c (Proc.devRef .tc main_v92_1) = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v92_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v92_1 m ρ c)
theorem F7_v92_1' (c : Dev nD) : V7 m ρ c main_v92_1 = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F7_v92_1 m ρ c

theorem F8_v92_1 (c : Dev nD) : W8 m ρ c (Proc.devRef .tc main_v92_1) = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) :=
  (W8_of_ne m ρ c main_v92_1 (by decide)).trans (F7_v92_1 m ρ c)
theorem F8_v92_1' (c : Dev nD) : V8 m ρ c main_v92_1 = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F8_v92_1 m ρ c

theorem F9_v92_1 (c : Dev nD) : W9 m ρ c (Proc.devRef .tc main_v92_1) = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v92_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v92_1 m ρ c)
theorem F9_v92_1' (c : Dev nD) : V9 m ρ c main_v92_1 = Cert.ReferenceIdeal.Stages.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F9_v92_1 m ρ c

theorem F5_v3 (c : Dev nD) : W5 m ρ c (Proc.devRef .tc main_v3) = Cert.ReferenceIdeal.Stages.val_main_v3 (F := Ideal) (m ((c : Thread nD τ).loc main_arg3)) :=
  (StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v3 m ρ c)
theorem F5_v3' (c : Dev nD) : V5 m ρ c main_v3 = Cert.ReferenceIdeal.Stages.val_main_v3 (F := Ideal) (m ((c : Thread nD τ).loc main_arg3)) := F5_v3 m ρ c

theorem F6_v3 (c : Dev nD) : W6 m ρ c (Proc.devRef .tc main_v3) = Cert.ReferenceIdeal.Stages.val_main_v3 (F := Ideal) (m ((c : Thread nD τ).loc main_arg3)) :=
  (W6_of_ne m ρ c main_v3 (by decide)).trans (F5_v3 m ρ c)
theorem F6_v3' (c : Dev nD) : V6 m ρ c main_v3 = Cert.ReferenceIdeal.Stages.val_main_v3 (F := Ideal) (m ((c : Thread nD τ).loc main_arg3)) := F6_v3 m ρ c

theorem F7_v99 (c : Dev nD) : W7 m ρ c (Proc.devRef .tc main_v99) = Cert.ReferenceIdeal.Stages.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps3 (W6 m ρ c) (Proc.devRef .tc main_v99) = _
  after_results_each
  simp only [F6_v92_0 m ρ c, F6_v3 m ρ c] <;> rfl
theorem F7_v99' (c : Dev nD) : V7 m ρ c main_v99 = Cert.ReferenceIdeal.Stages.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F7_v99 m ρ c

theorem F3_v1 (c : Dev nD) : W3 m ρ c (Proc.devRef .tc main_v1) = Cert.ReferenceIdeal.Stages.val_main_v1 (F := Ideal) (m ((c : Thread nD τ).loc main_arg3)) :=
  (StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_v1 m ρ c)
theorem F3_v1' (c : Dev nD) : V3 m ρ c main_v1 = Cert.ReferenceIdeal.Stages.val_main_v1 (F := Ideal) (m ((c : Thread nD τ).loc main_arg3)) := F3_v1 m ρ c

theorem F4_v1 (c : Dev nD) : W4 m ρ c (Proc.devRef .tc main_v1) = Cert.ReferenceIdeal.Stages.val_main_v1 (F := Ideal) (m ((c : Thread nD τ).loc main_arg3)) :=
  (W4_of_ne m ρ c main_v1 (by decide)).trans (F3_v1 m ρ c)
theorem F4_v1' (c : Dev nD) : V4 m ρ c main_v1 = Cert.ReferenceIdeal.Stages.val_main_v1 (F := Ideal) (m ((c : Thread nD τ).loc main_arg3)) := F4_v1 m ρ c

theorem F5_v1 (c : Dev nD) : W5 m ρ c (Proc.devRef .tc main_v1) = Cert.ReferenceIdeal.Stages.val_main_v1 (F := Ideal) (m ((c : Thread nD τ).loc main_arg3)) :=
  (StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v1 m ρ c)
theorem F5_v1' (c : Dev nD) : V5 m ρ c main_v1 = Cert.ReferenceIdeal.Stages.val_main_v1 (F := Ideal) (m ((c : Thread nD τ).loc main_arg3)) := F5_v1 m ρ c

theorem F6_v1 (c : Dev nD) : W6 m ρ c (Proc.devRef .tc main_v1) = Cert.ReferenceIdeal.Stages.val_main_v1 (F := Ideal) (m ((c : Thread nD τ).loc main_arg3)) :=
  (W6_of_ne m ρ c main_v1 (by decide)).trans (F5_v1 m ρ c)
theorem F6_v1' (c : Dev nD) : V6 m ρ c main_v1 = Cert.ReferenceIdeal.Stages.val_main_v1 (F := Ideal) (m ((c : Thread nD τ).loc main_arg3)) := F6_v1 m ρ c

theorem F7_v106 (c : Dev nD) : W7 m ρ c (Proc.devRef .tc main_v106) = Cert.ReferenceIdeal.Stages.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps3 (W6 m ρ c) (Proc.devRef .tc main_v106) = _
  after_results_each
  simp only [F6_v92_0 m ρ c, F6_v1 m ρ c] <;> rfl
theorem F7_v106' (c : Dev nD) : V7 m ρ c main_v106 = Cert.ReferenceIdeal.Stages.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := F7_v106 m ρ c

theorem F7_v113 (c : Dev nD) : W7 m ρ c (Proc.devRef .tc main_v113) = Cert.ReferenceIdeal.Stages.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := by
  show StableHlo.after hostOps3 (W6 m ρ c) (Proc.devRef .tc main_v113) = _
  after_results_each
  simp only [F6_v92_1 m ρ c, F6_v3 m ρ c] <;> rfl
theorem F7_v113' (c : Dev nD) : V7 m ρ c main_v113 = Cert.ReferenceIdeal.Stages.val_main_v167 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F7_v113 m ρ c

theorem F7_v120 (c : Dev nD) : W7 m ρ c (Proc.devRef .tc main_v120) = Cert.ReferenceIdeal.Stages.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := by
  show StableHlo.after hostOps3 (W6 m ρ c) (Proc.devRef .tc main_v120) = _
  after_results_each
  simp only [F6_v92_1 m ρ c, F6_v1 m ρ c] <;> rfl
theorem F7_v120' (c : Dev nD) : V7 m ρ c main_v120 = Cert.ReferenceIdeal.Stages.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg21)) (m ((c : Thread nD τ).loc main_arg22)) (m ((c : Thread nD τ).loc main_arg23)) (m ((c : Thread nD τ).loc main_arg24)) := F7_v120 m ρ c

theorem F4_v22 (c : Dev nD) : W4 m ρ c (Proc.devRef .tc main_v22) = Cert.ReferenceIdeal.Stages.val_main_v22 (F := Ideal) (m ((c : Thread nD τ).loc main_arg1)) (m ((c : Thread nD τ).loc main_arg3)) :=
  ((W4_arr m ρ c 4).trans (((dat1 (V3 m ρ) c).arrAt_in 4 rfl _).trans (A_eq1 (V3 m ρ) c 4))).trans (F3_v22 m ρ c)
theorem F4_v22' (c : Dev nD) : V4 m ρ c main_v22 = Cert.ReferenceIdeal.Stages.val_main_v22 (F := Ideal) (m ((c : Thread nD τ).loc main_arg1)) (m ((c : Thread nD τ).loc main_arg3)) := F4_v22 m ρ c

theorem F5_v22 (c : Dev nD) : W5 m ρ c (Proc.devRef .tc main_v22) = Cert.ReferenceIdeal.Stages.val_main_v22 (F := Ideal) (m ((c : Thread nD τ).loc main_arg1)) (m ((c : Thread nD τ).loc main_arg3)) :=
  (StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v22 m ρ c)
theorem F5_v22' (c : Dev nD) : V5 m ρ c main_v22 = Cert.ReferenceIdeal.Stages.val_main_v22 (F := Ideal) (m ((c : Thread nD τ).loc main_arg1)) (m ((c : Thread nD τ).loc main_arg3)) := F5_v22 m ρ c

theorem F6_v22 (c : Dev nD) : W6 m ρ c (Proc.devRef .tc main_v22) = Cert.ReferenceIdeal.Stages.val_main_v22 (F := Ideal) (m ((c : Thread nD τ).loc main_arg1)) (m ((c : Thread nD τ).loc main_arg3)) :=
  (W6_of_ne m ρ c main_v22 (by decide)).trans (F5_v22 m ρ c)
theorem F6_v22' (c : Dev nD) : V6 m ρ c main_v22 = Cert.ReferenceIdeal.Stages.val_main_v22 (F := Ideal) (m ((c : Thread nD τ).loc main_arg1)) (m ((c : Thread nD τ).loc main_arg3)) := F6_v22 m ρ c

theorem F7_v22 (c : Dev nD) : W7 m ρ c (Proc.devRef .tc main_v22) = Cert.ReferenceIdeal.Stages.val_main_v22 (F := Ideal) (m ((c : Thread nD τ).loc main_arg1)) (m ((c : Thread nD τ).loc main_arg3)) :=
  (StableHlo.after_of_forall_not_mem (b := Proc.devRef .tc main_v22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v22 m ρ c)
theorem F7_v22' (c : Dev nD) : V7 m ρ c main_v22 = Cert.ReferenceIdeal.Stages.val_main_v22 (F := Ideal) (m ((c : Thread nD τ).loc main_arg1)) (m ((c : Thread nD τ).loc main_arg3)) := F7_v22 m ρ c

theorem F3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg11 m ρ c)
theorem F3_arg11' (c : Dev nD) : V3 m ρ c main_arg11 = m ((c : Thread nD τ).loc main_arg11) := F3_arg11 m ρ c

theorem F4_arg11 (c : Dev nD) : W4 m ρ c (Proc.devRef .tc main_arg11) = m ((c : Thread nD τ).loc main_arg11) :=
  (W4_of_ne m ρ c main_arg11 (by decide)).trans (F3_arg11 m ρ c)
theorem F4_arg11' (c : Dev nD) : V4 m ρ c main_arg11 = m ((c : Thread nD τ).loc main_arg11) := F4_arg11 m ρ c

theorem F5_arg11 (c : Dev nD) : W5 m ρ c (Proc.devRef .tc main_arg11) = m ((c : Thread nD τ).loc main_arg11) :=
  (StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg11 m ρ c)
theorem F5_arg11' (c : Dev nD) : V5 m ρ c main_arg11 = m ((c : Thread nD τ).loc main_arg11) := F5_arg11 m ρ c

theorem F6_arg11 (c : Dev nD) : W6 m ρ c (Proc.devRef .tc main_arg11) = m ((c : Thread nD τ).loc main_arg11) :=
  (W6_of_ne m ρ c main_arg11 (by decide)).trans (F5_arg11 m ρ c)
theorem F6_arg11' (c : Dev nD) : V6 m ρ c main_arg11 = m ((c : Thread nD τ).loc main_arg11) := F6_arg11 m ρ c

theorem F7_v122 (c : Dev nD) : W7 m ρ c (Proc.devRef .tc main_v122) = Cert.ReferenceIdeal.Stages.val_main_v177 (F := Ideal) (m ((c : Thread nD τ).loc main_arg11)) := by
  show StableHlo.after hostOps3 (W6 m ρ c) (Proc.devRef .tc main_v122) = _
  after_results_each
  simp only [F6_arg11 m ρ c] <;> rfl
theorem F7_v122' (c : Dev nD) : V7 m ρ c main_v122 = Cert.ReferenceIdeal.Stages.val_main_v177 (F := Ideal) (m ((c : Thread nD τ).loc main_arg11)) := F7_v122 m ρ c

theorem F3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg12 m ρ c)
theorem F3_arg12' (c : Dev nD) : V3 m ρ c main_arg12 = m ((c : Thread nD τ).loc main_arg12) := F3_arg12 m ρ c

theorem F4_arg12 (c : Dev nD) : W4 m ρ c (Proc.devRef .tc main_arg12) = m ((c : Thread nD τ).loc main_arg12) :=
  (W4_of_ne m ρ c main_arg12 (by decide)).trans (F3_arg12 m ρ c)
theorem F4_arg12' (c : Dev nD) : V4 m ρ c main_arg12 = m ((c : Thread nD τ).loc main_arg12) := F4_arg12 m ρ c

theorem F5_arg12 (c : Dev nD) : W5 m ρ c (Proc.devRef .tc main_arg12) = m ((c : Thread nD τ).loc main_arg12) :=
  (StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg12 m ρ c)
theorem F5_arg12' (c : Dev nD) : V5 m ρ c main_arg12 = m ((c : Thread nD τ).loc main_arg12) := F5_arg12 m ρ c

theorem F6_arg12 (c : Dev nD) : W6 m ρ c (Proc.devRef .tc main_arg12) = m ((c : Thread nD τ).loc main_arg12) :=
  (W6_of_ne m ρ c main_arg12 (by decide)).trans (F5_arg12 m ρ c)
theorem F6_arg12' (c : Dev nD) : V6 m ρ c main_arg12 = m ((c : Thread nD τ).loc main_arg12) := F6_arg12 m ρ c

theorem F7_v124 (c : Dev nD) : W7 m ρ c (Proc.devRef .tc main_v124) = Cert.ReferenceIdeal.Stages.val_main_v180 (F := Ideal) (m ((c : Thread nD τ).loc main_arg12)) := by
  show StableHlo.after hostOps3 (W6 m ρ c) (Proc.devRef .tc main_v124) = _
  after_results_each
  simp only [F6_arg12 m ρ c] <;> rfl
theorem F7_v124' (c : Dev nD) : V7 m ρ c main_v124 = Cert.ReferenceIdeal.Stages.val_main_v180 (F := Ideal) (m ((c : Thread nD τ).loc main_arg12)) := F7_v124 m ρ c

theorem F3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg13 m ρ c)
theorem F3_arg13' (c : Dev nD) : V3 m ρ c main_arg13 = m ((c : Thread nD τ).loc main_arg13) := F3_arg13 m ρ c

theorem F4_arg13 (c : Dev nD) : W4 m ρ c (Proc.devRef .tc main_arg13) = m ((c : Thread nD τ).loc main_arg13) :=
  (W4_of_ne m ρ c main_arg13 (by decide)).trans (F3_arg13 m ρ c)
theorem F4_arg13' (c : Dev nD) : V4 m ρ c main_arg13 = m ((c : Thread nD τ).loc main_arg13) := F4_arg13 m ρ c

theorem F5_arg13 (c : Dev nD) : W5 m ρ c (Proc.devRef .tc main_arg13) = m ((c : Thread nD τ).loc main_arg13) :=
  (StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg13 m ρ c)
theorem F5_arg13' (c : Dev nD) : V5 m ρ c main_arg13 = m ((c : Thread nD τ).loc main_arg13) := F5_arg13 m ρ c

theorem F6_arg13 (c : Dev nD) : W6 m ρ c (Proc.devRef .tc main_arg13) = m ((c : Thread nD τ).loc main_arg13) :=
  (W6_of_ne m ρ c main_arg13 (by decide)).trans (F5_arg13 m ρ c)
theorem F6_arg13' (c : Dev nD) : V6 m ρ c main_arg13 = m ((c : Thread nD τ).loc main_arg13) := F6_arg13 m ρ c

theorem F7_v126 (c : Dev nD) : W7 m ρ c (Proc.devRef .tc main_v126) = Cert.ReferenceIdeal.Stages.val_main_v186 (F := Ideal) (m ((c : Thread nD τ).loc main_arg13)) := by
  show StableHlo.after hostOps3 (W6 m ρ c) (Proc.devRef .tc main_v126) = _
  after_results_each
  simp only [F6_arg13 m ρ c] <;> rfl
theorem F7_v126' (c : Dev nD) : V7 m ρ c main_v126 = Cert.ReferenceIdeal.Stages.val_main_v186 (F := Ideal) (m ((c : Thread nD τ).loc main_arg13)) := F7_v126 m ρ c

theorem F3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg14 m ρ c)
theorem F3_arg14' (c : Dev nD) : V3 m ρ c main_arg14 = m ((c : Thread nD τ).loc main_arg14) := F3_arg14 m ρ c

theorem F4_arg14 (c : Dev nD) : W4 m ρ c (Proc.devRef .tc main_arg14) = m ((c : Thread nD τ).loc main_arg14) :=
  (W4_of_ne m ρ c main_arg14 (by decide)).trans (F3_arg14 m ρ c)
theorem F4_arg14' (c : Dev nD) : V4 m ρ c main_arg14 = m ((c : Thread nD τ).loc main_arg14) := F4_arg14 m ρ c

theorem F5_arg14 (c : Dev nD) : W5 m ρ c (Proc.devRef .tc main_arg14) = m ((c : Thread nD τ).loc main_arg14) :=
  (StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg14 m ρ c)
theorem F5_arg14' (c : Dev nD) : V5 m ρ c main_arg14 = m ((c : Thread nD τ).loc main_arg14) := F5_arg14 m ρ c

theorem F6_arg14 (c : Dev nD) : W6 m ρ c (Proc.devRef .tc main_arg14) = m ((c : Thread nD τ).loc main_arg14) :=
  (W6_of_ne m ρ c main_arg14 (by decide)).trans (F5_arg14 m ρ c)
theorem F6_arg14' (c : Dev nD) : V6 m ρ c main_arg14 = m ((c : Thread nD τ).loc main_arg14) := F6_arg14 m ρ c

theorem F7_v128 (c : Dev nD) : W7 m ρ c (Proc.devRef .tc main_v128) = Cert.ReferenceIdeal.Stages.val_main_v189 (F := Ideal) (m ((c : Thread nD τ).loc main_arg14)) := by
  show StableHlo.after hostOps3 (W6 m ρ c) (Proc.devRef .tc main_v128) = _
  after_results_each
  simp only [F6_arg14 m ρ c] <;> rfl
theorem F7_v128' (c : Dev nD) : V7 m ρ c main_v128 = Cert.ReferenceIdeal.Stages.val_main_v189 (F := Ideal) (m ((c : Thread nD τ).loc main_arg14)) := F7_v128 m ρ c

theorem F3_arg15 (c : Dev nD) : W3 m ρ c (Proc.devRef .tc main_arg15) = m ((c : Thread nD τ).loc main_arg15) :=
  (StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg15 m ρ c)
theorem F3_arg15' (c : Dev nD) : V3 m ρ c main_arg15 = m ((c : Thread nD τ).loc main_arg15) := F3_arg15 m ρ c

theorem F4_arg15 (c : Dev nD) : W4 m ρ c (Proc.devRef .tc main_arg15) = m ((c : Thread nD τ).loc main_arg15) :=
  (W4_of_ne m ρ c main_arg15 (by decide)).trans (F3_arg15 m ρ c)
theorem F4_arg15' (c : Dev nD) : V4 m ρ c main_arg15 = m ((c : Thread nD τ).loc main_arg15) := F4_arg15 m ρ c

theorem F5_arg15 (c : Dev nD) : W5 m ρ c (Proc.devRef .tc main_arg15) = m ((c : Thread nD τ).loc main_arg15) :=
  (StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg15 m ρ c)
theorem F5_arg15' (c : Dev nD) : V5 m ρ c main_arg15 = m ((c : Thread nD τ).loc main_arg15) := F5_arg15 m ρ c

theorem F6_arg15 (c : Dev nD) : W6 m ρ c (Proc.devRef .tc main_arg15) = m ((c : Thread nD τ).loc main_arg15) :=
  (W6_of_ne m ρ c main_arg15 (by decide)).trans (F5_arg15 m ρ c)
theorem F6_arg15' (c : Dev nD) : V6 m ρ c main_arg15 = m ((c : Thread nD τ).loc main_arg15) := F6_arg15 m ρ c

theorem F7_v130 (c : Dev nD) : W7 m ρ c (Proc.devRef .tc main_v130) = Cert.ReferenceIdeal.Stages.val_main_v195 (F := Ideal) (m ((c : Thread nD τ).loc main_arg15)) := by
  show StableHlo.after hostOps3 (W6 m ρ c) (Proc.devRef .tc main_v130) = _
  after_results_each
  simp only [F6_arg15 m ρ c] <;> rfl
theorem F7_v130' (c : Dev nD) : V7 m ρ c main_v130 = Cert.ReferenceIdeal.Stages.val_main_v195 (F := Ideal) (m ((c : Thread nD τ).loc main_arg15)) := F7_v130 m ρ c

theorem F3_arg16 (c : Dev nD) : W3 m ρ c (Proc.devRef .tc main_arg16) = m ((c : Thread nD τ).loc main_arg16) :=
  (StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg16 m ρ c)
theorem F3_arg16' (c : Dev nD) : V3 m ρ c main_arg16 = m ((c : Thread nD τ).loc main_arg16) := F3_arg16 m ρ c

theorem F4_arg16 (c : Dev nD) : W4 m ρ c (Proc.devRef .tc main_arg16) = m ((c : Thread nD τ).loc main_arg16) :=
  (W4_of_ne m ρ c main_arg16 (by decide)).trans (F3_arg16 m ρ c)
theorem F4_arg16' (c : Dev nD) : V4 m ρ c main_arg16 = m ((c : Thread nD τ).loc main_arg16) := F4_arg16 m ρ c

theorem F5_arg16 (c : Dev nD) : W5 m ρ c (Proc.devRef .tc main_arg16) = m ((c : Thread nD τ).loc main_arg16) :=
  (StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg16 m ρ c)
theorem F5_arg16' (c : Dev nD) : V5 m ρ c main_arg16 = m ((c : Thread nD τ).loc main_arg16) := F5_arg16 m ρ c

theorem F6_arg16 (c : Dev nD) : W6 m ρ c (Proc.devRef .tc main_arg16) = m ((c : Thread nD τ).loc main_arg16) :=
  (W6_of_ne m ρ c main_arg16 (by decide)).trans (F5_arg16 m ρ c)
theorem F6_arg16' (c : Dev nD) : V6 m ρ c main_arg16 = m ((c : Thread nD τ).loc main_arg16) := F6_arg16 m ρ c

theorem F7_v132 (c : Dev nD) : W7 m ρ c (Proc.devRef .tc main_v132) = Cert.ReferenceIdeal.Stages.val_main_v198 (F := Ideal) (m ((c : Thread nD τ).loc main_arg16)) := by
  show StableHlo.after hostOps3 (W6 m ρ c) (Proc.devRef .tc main_v132) = _
  after_results_each
  simp only [F6_arg16 m ρ c] <;> rfl
theorem F7_v132' (c : Dev nD) : V7 m ρ c main_v132 = Cert.ReferenceIdeal.Stages.val_main_v198 (F := Ideal) (m ((c : Thread nD τ).loc main_arg16)) := F7_v132 m ρ c

theorem F8_v133 (c : Dev nD) : W8 m ρ c (Proc.devRef .tc main_v133) = Cert.ReferenceIdeal.Stages.val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W8_arr m ρ c 11).trans ((Cert.KernelIdeal.Message3.final (V7 m ρ) c).trans ?_)
  rw [Cert.ReferenceIdeal.RefDense.ref_msg2]
  simp only [F7_v99' m ρ c, F7_v106' m ρ c, F7_v113' m ρ c, F7_v120' m ρ c, F7_v22' m ρ c, F7_v122' m ρ c, F7_v124' m ρ c, F7_v126' m ρ c, F7_v128' m ρ c, F7_v130' m ρ c, F7_v132' m ρ c]
  try rw [F7_v99' m ρ c]
  try rw [F7_v106' m ρ c]
  try rw [F7_v113' m ρ c]
  try rw [F7_v120' m ρ c]
  try rw [F7_v22' m ρ c]
  rfl
theorem F8_v133' (c : Dev nD) : V8 m ρ c main_v133 = Cert.ReferenceIdeal.Stages.val_main_v209 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F8_v133 m ρ c

theorem F7_v3 (c : Dev nD) : W7 m ρ c (Proc.devRef .tc main_v3) = Cert.ReferenceIdeal.Stages.val_main_v3 (F := Ideal) (m ((c : Thread nD τ).loc main_arg3)) :=
  (StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v3 m ρ c)
theorem F7_v3' (c : Dev nD) : V7 m ρ c main_v3 = Cert.ReferenceIdeal.Stages.val_main_v3 (F := Ideal) (m ((c : Thread nD τ).loc main_arg3)) := F7_v3 m ρ c

theorem F8_v3 (c : Dev nD) : W8 m ρ c (Proc.devRef .tc main_v3) = Cert.ReferenceIdeal.Stages.val_main_v3 (F := Ideal) (m ((c : Thread nD τ).loc main_arg3)) :=
  (W8_of_ne m ρ c main_v3 (by decide)).trans (F7_v3 m ρ c)
theorem F8_v3' (c : Dev nD) : V8 m ρ c main_v3 = Cert.ReferenceIdeal.Stages.val_main_v3 (F := Ideal) (m ((c : Thread nD τ).loc main_arg3)) := F8_v3 m ρ c

theorem F5_v28 (c : Dev nD) : W5 m ρ c (Proc.devRef .tc main_v28) = Cert.ReferenceIdeal.Stages.val_main_v41 (F := Ideal) (m ((c : Thread nD τ).loc main_arg3)) :=
  (StableHlo.after_of_forall_not_mem (b := Proc.devRef .tc main_v28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_v28 m ρ c)
theorem F5_v28' (c : Dev nD) : V5 m ρ c main_v28 = Cert.ReferenceIdeal.Stages.val_main_v41 (F := Ideal) (m ((c : Thread nD τ).loc main_arg3)) := F5_v28 m ρ c

theorem F6_v28 (c : Dev nD) : W6 m ρ c (Proc.devRef .tc main_v28) = Cert.ReferenceIdeal.Stages.val_main_v41 (F := Ideal) (m ((c : Thread nD τ).loc main_arg3)) :=
  (W6_of_ne m ρ c main_v28 (by decide)).trans (F5_v28 m ρ c)
theorem F6_v28' (c : Dev nD) : V6 m ρ c main_v28 = Cert.ReferenceIdeal.Stages.val_main_v41 (F := Ideal) (m ((c : Thread nD τ).loc main_arg3)) := F6_v28 m ρ c

theorem F7_v28 (c : Dev nD) : W7 m ρ c (Proc.devRef .tc main_v28) = Cert.ReferenceIdeal.Stages.val_main_v41 (F := Ideal) (m ((c : Thread nD τ).loc main_arg3)) :=
  (StableHlo.after_of_forall_not_mem (b := Proc.devRef .tc main_v28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v28 m ρ c)
theorem F7_v28' (c : Dev nD) : V7 m ρ c main_v28 = Cert.ReferenceIdeal.Stages.val_main_v41 (F := Ideal) (m ((c : Thread nD τ).loc main_arg3)) := F7_v28 m ρ c

theorem F8_v28 (c : Dev nD) : W8 m ρ c (Proc.devRef .tc main_v28) = Cert.ReferenceIdeal.Stages.val_main_v41 (F := Ideal) (m ((c : Thread nD τ).loc main_arg3)) :=
  (W8_of_ne m ρ c main_v28 (by decide)).trans (F7_v28 m ρ c)
theorem F8_v28' (c : Dev nD) : V8 m ρ c main_v28 = Cert.ReferenceIdeal.Stages.val_main_v41 (F := Ideal) (m ((c : Thread nD τ).loc main_arg3)) := F8_v28 m ρ c

theorem F9_v138 (c : Dev nD) : W9 m ρ c (Proc.devRef .tc main_v138) = Cert.ReferenceIdeal.Stages.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps4 (W8 m ρ c) (Proc.devRef .tc main_v138) = _
  after_results_each
  simp only [F8_v133 m ρ c, F8_v3 m ρ c, F8_v28 m ρ c] <;> rfl
theorem F9_v138' (c : Dev nD) : V9 m ρ c main_v138 = Cert.ReferenceIdeal.Stages.val_main_v214 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F9_v138 m ρ c

theorem F5_arg17 (c : Dev nD) : W5 m ρ c (Proc.devRef .tc main_arg17) = m ((c : Thread nD τ).loc main_arg17) :=
  (StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg17 m ρ c)
theorem F5_arg17' (c : Dev nD) : V5 m ρ c main_arg17 = m ((c : Thread nD τ).loc main_arg17) := F5_arg17 m ρ c

theorem F6_arg17 (c : Dev nD) : W6 m ρ c (Proc.devRef .tc main_arg17) = m ((c : Thread nD τ).loc main_arg17) :=
  (W6_of_ne m ρ c main_arg17 (by decide)).trans (F5_arg17 m ρ c)
theorem F6_arg17' (c : Dev nD) : V6 m ρ c main_arg17 = m ((c : Thread nD τ).loc main_arg17) := F6_arg17 m ρ c

theorem F7_arg17 (c : Dev nD) : W7 m ρ c (Proc.devRef .tc main_arg17) = m ((c : Thread nD τ).loc main_arg17) :=
  (StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg17 m ρ c)
theorem F7_arg17' (c : Dev nD) : V7 m ρ c main_arg17 = m ((c : Thread nD τ).loc main_arg17) := F7_arg17 m ρ c

theorem F8_arg17 (c : Dev nD) : W8 m ρ c (Proc.devRef .tc main_arg17) = m ((c : Thread nD τ).loc main_arg17) :=
  (W8_of_ne m ρ c main_arg17 (by decide)).trans (F7_arg17 m ρ c)
theorem F8_arg17' (c : Dev nD) : V8 m ρ c main_arg17 = m ((c : Thread nD τ).loc main_arg17) := F8_arg17 m ρ c

theorem F9_v140 (c : Dev nD) : W9 m ρ c (Proc.devRef .tc main_v140) = Cert.ReferenceIdeal.Stages.val_main_v217 (F := Ideal) (m ((c : Thread nD τ).loc main_arg17)) := by
  show StableHlo.after hostOps4 (W8 m ρ c) (Proc.devRef .tc main_v140) = _
  after_results_each
  simp only [F8_arg17 m ρ c] <;> rfl
theorem F9_v140' (c : Dev nD) : V9 m ρ c main_v140 = Cert.ReferenceIdeal.Stages.val_main_v217 (F := Ideal) (m ((c : Thread nD τ).loc main_arg17)) := F9_v140 m ρ c

theorem F5_arg18 (c : Dev nD) : W5 m ρ c (Proc.devRef .tc main_arg18) = m ((c : Thread nD τ).loc main_arg18) :=
  (StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg18 m ρ c)
theorem F5_arg18' (c : Dev nD) : V5 m ρ c main_arg18 = m ((c : Thread nD τ).loc main_arg18) := F5_arg18 m ρ c

theorem F6_arg18 (c : Dev nD) : W6 m ρ c (Proc.devRef .tc main_arg18) = m ((c : Thread nD τ).loc main_arg18) :=
  (W6_of_ne m ρ c main_arg18 (by decide)).trans (F5_arg18 m ρ c)
theorem F6_arg18' (c : Dev nD) : V6 m ρ c main_arg18 = m ((c : Thread nD τ).loc main_arg18) := F6_arg18 m ρ c

theorem F7_arg18 (c : Dev nD) : W7 m ρ c (Proc.devRef .tc main_arg18) = m ((c : Thread nD τ).loc main_arg18) :=
  (StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg18 m ρ c)
theorem F7_arg18' (c : Dev nD) : V7 m ρ c main_arg18 = m ((c : Thread nD τ).loc main_arg18) := F7_arg18 m ρ c

theorem F8_arg18 (c : Dev nD) : W8 m ρ c (Proc.devRef .tc main_arg18) = m ((c : Thread nD τ).loc main_arg18) :=
  (W8_of_ne m ρ c main_arg18 (by decide)).trans (F7_arg18 m ρ c)
theorem F8_arg18' (c : Dev nD) : V8 m ρ c main_arg18 = m ((c : Thread nD τ).loc main_arg18) := F8_arg18 m ρ c

theorem F9_v142 (c : Dev nD) : W9 m ρ c (Proc.devRef .tc main_v142) = Cert.ReferenceIdeal.Stages.val_main_v220 (F := Ideal) (m ((c : Thread nD τ).loc main_arg18)) := by
  show StableHlo.after hostOps4 (W8 m ρ c) (Proc.devRef .tc main_v142) = _
  after_results_each
  simp only [F8_arg18 m ρ c] <;> rfl
theorem F9_v142' (c : Dev nD) : V9 m ρ c main_v142 = Cert.ReferenceIdeal.Stages.val_main_v220 (F := Ideal) (m ((c : Thread nD τ).loc main_arg18)) := F9_v142 m ρ c

theorem F5_arg19 (c : Dev nD) : W5 m ρ c (Proc.devRef .tc main_arg19) = m ((c : Thread nD τ).loc main_arg19) :=
  (StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg19 m ρ c)
theorem F5_arg19' (c : Dev nD) : V5 m ρ c main_arg19 = m ((c : Thread nD τ).loc main_arg19) := F5_arg19 m ρ c

theorem F6_arg19 (c : Dev nD) : W6 m ρ c (Proc.devRef .tc main_arg19) = m ((c : Thread nD τ).loc main_arg19) :=
  (W6_of_ne m ρ c main_arg19 (by decide)).trans (F5_arg19 m ρ c)
theorem F6_arg19' (c : Dev nD) : V6 m ρ c main_arg19 = m ((c : Thread nD τ).loc main_arg19) := F6_arg19 m ρ c

theorem F7_arg19 (c : Dev nD) : W7 m ρ c (Proc.devRef .tc main_arg19) = m ((c : Thread nD τ).loc main_arg19) :=
  (StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg19 m ρ c)
theorem F7_arg19' (c : Dev nD) : V7 m ρ c main_arg19 = m ((c : Thread nD τ).loc main_arg19) := F7_arg19 m ρ c

theorem F8_arg19 (c : Dev nD) : W8 m ρ c (Proc.devRef .tc main_arg19) = m ((c : Thread nD τ).loc main_arg19) :=
  (W8_of_ne m ρ c main_arg19 (by decide)).trans (F7_arg19 m ρ c)
theorem F8_arg19' (c : Dev nD) : V8 m ρ c main_arg19 = m ((c : Thread nD τ).loc main_arg19) := F8_arg19 m ρ c

theorem F9_v144 (c : Dev nD) : W9 m ρ c (Proc.devRef .tc main_v144) = Cert.ReferenceIdeal.Stages.val_main_v226 (F := Ideal) (m ((c : Thread nD τ).loc main_arg19)) := by
  show StableHlo.after hostOps4 (W8 m ρ c) (Proc.devRef .tc main_v144) = _
  after_results_each
  simp only [F8_arg19 m ρ c] <;> rfl
theorem F9_v144' (c : Dev nD) : V9 m ρ c main_v144 = Cert.ReferenceIdeal.Stages.val_main_v226 (F := Ideal) (m ((c : Thread nD τ).loc main_arg19)) := F9_v144 m ρ c

theorem F5_arg20 (c : Dev nD) : W5 m ρ c (Proc.devRef .tc main_arg20) = m ((c : Thread nD τ).loc main_arg20) :=
  (StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg20 m ρ c)
theorem F5_arg20' (c : Dev nD) : V5 m ρ c main_arg20 = m ((c : Thread nD τ).loc main_arg20) := F5_arg20 m ρ c

theorem F6_arg20 (c : Dev nD) : W6 m ρ c (Proc.devRef .tc main_arg20) = m ((c : Thread nD τ).loc main_arg20) :=
  (W6_of_ne m ρ c main_arg20 (by decide)).trans (F5_arg20 m ρ c)
theorem F6_arg20' (c : Dev nD) : V6 m ρ c main_arg20 = m ((c : Thread nD τ).loc main_arg20) := F6_arg20 m ρ c

theorem F7_arg20 (c : Dev nD) : W7 m ρ c (Proc.devRef .tc main_arg20) = m ((c : Thread nD τ).loc main_arg20) :=
  (StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg20 m ρ c)
theorem F7_arg20' (c : Dev nD) : V7 m ρ c main_arg20 = m ((c : Thread nD τ).loc main_arg20) := F7_arg20 m ρ c

theorem F8_arg20 (c : Dev nD) : W8 m ρ c (Proc.devRef .tc main_arg20) = m ((c : Thread nD τ).loc main_arg20) :=
  (W8_of_ne m ρ c main_arg20 (by decide)).trans (F7_arg20 m ρ c)
theorem F8_arg20' (c : Dev nD) : V8 m ρ c main_arg20 = m ((c : Thread nD τ).loc main_arg20) := F8_arg20 m ρ c

theorem F9_v146 (c : Dev nD) : W9 m ρ c (Proc.devRef .tc main_v146) = Cert.ReferenceIdeal.Stages.val_main_v229 (F := Ideal) (m ((c : Thread nD τ).loc main_arg20)) := by
  show StableHlo.after hostOps4 (W8 m ρ c) (Proc.devRef .tc main_v146) = _
  after_results_each
  simp only [F8_arg20 m ρ c] <;> rfl
theorem F9_v146' (c : Dev nD) : V9 m ρ c main_v146 = Cert.ReferenceIdeal.Stages.val_main_v229 (F := Ideal) (m ((c : Thread nD τ).loc main_arg20)) := F9_v146 m ρ c

theorem F5_arg21 (c : Dev nD) : W5 m ρ c (Proc.devRef .tc main_arg21) = m ((c : Thread nD τ).loc main_arg21) :=
  (StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg21 m ρ c)
theorem F5_arg21' (c : Dev nD) : V5 m ρ c main_arg21 = m ((c : Thread nD τ).loc main_arg21) := F5_arg21 m ρ c

theorem F6_arg21 (c : Dev nD) : W6 m ρ c (Proc.devRef .tc main_arg21) = m ((c : Thread nD τ).loc main_arg21) :=
  (W6_of_ne m ρ c main_arg21 (by decide)).trans (F5_arg21 m ρ c)
theorem F6_arg21' (c : Dev nD) : V6 m ρ c main_arg21 = m ((c : Thread nD τ).loc main_arg21) := F6_arg21 m ρ c

theorem F7_arg21 (c : Dev nD) : W7 m ρ c (Proc.devRef .tc main_arg21) = m ((c : Thread nD τ).loc main_arg21) :=
  (StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg21 m ρ c)
theorem F7_arg21' (c : Dev nD) : V7 m ρ c main_arg21 = m ((c : Thread nD τ).loc main_arg21) := F7_arg21 m ρ c

theorem F8_arg21 (c : Dev nD) : W8 m ρ c (Proc.devRef .tc main_arg21) = m ((c : Thread nD τ).loc main_arg21) :=
  (W8_of_ne m ρ c main_arg21 (by decide)).trans (F7_arg21 m ρ c)
theorem F8_arg21' (c : Dev nD) : V8 m ρ c main_arg21 = m ((c : Thread nD τ).loc main_arg21) := F8_arg21 m ρ c

theorem F9_v148 (c : Dev nD) : W9 m ρ c (Proc.devRef .tc main_v148) = Cert.ReferenceIdeal.Stages.val_main_v236 (F := Ideal) (m ((c : Thread nD τ).loc main_arg21)) := by
  show StableHlo.after hostOps4 (W8 m ρ c) (Proc.devRef .tc main_v148) = _
  after_results_each
  simp only [F8_arg21 m ρ c] <;> rfl
theorem F9_v148' (c : Dev nD) : V9 m ρ c main_v148 = Cert.ReferenceIdeal.Stages.val_main_v236 (F := Ideal) (m ((c : Thread nD τ).loc main_arg21)) := F9_v148 m ρ c

theorem F5_arg22 (c : Dev nD) : W5 m ρ c (Proc.devRef .tc main_arg22) = m ((c : Thread nD τ).loc main_arg22) :=
  (StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg22 m ρ c)
theorem F5_arg22' (c : Dev nD) : V5 m ρ c main_arg22 = m ((c : Thread nD τ).loc main_arg22) := F5_arg22 m ρ c

theorem F6_arg22 (c : Dev nD) : W6 m ρ c (Proc.devRef .tc main_arg22) = m ((c : Thread nD τ).loc main_arg22) :=
  (W6_of_ne m ρ c main_arg22 (by decide)).trans (F5_arg22 m ρ c)
theorem F6_arg22' (c : Dev nD) : V6 m ρ c main_arg22 = m ((c : Thread nD τ).loc main_arg22) := F6_arg22 m ρ c

theorem F7_arg22 (c : Dev nD) : W7 m ρ c (Proc.devRef .tc main_arg22) = m ((c : Thread nD τ).loc main_arg22) :=
  (StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg22 m ρ c)
theorem F7_arg22' (c : Dev nD) : V7 m ρ c main_arg22 = m ((c : Thread nD τ).loc main_arg22) := F7_arg22 m ρ c

theorem F8_arg22 (c : Dev nD) : W8 m ρ c (Proc.devRef .tc main_arg22) = m ((c : Thread nD τ).loc main_arg22) :=
  (W8_of_ne m ρ c main_arg22 (by decide)).trans (F7_arg22 m ρ c)
theorem F8_arg22' (c : Dev nD) : V8 m ρ c main_arg22 = m ((c : Thread nD τ).loc main_arg22) := F8_arg22 m ρ c

theorem F9_v150 (c : Dev nD) : W9 m ρ c (Proc.devRef .tc main_v150) = Cert.ReferenceIdeal.Stages.val_main_v239 (F := Ideal) (m ((c : Thread nD τ).loc main_arg22)) := by
  show StableHlo.after hostOps4 (W8 m ρ c) (Proc.devRef .tc main_v150) = _
  after_results_each
  simp only [F8_arg22 m ρ c] <;> rfl
theorem F9_v150' (c : Dev nD) : V9 m ρ c main_v150 = Cert.ReferenceIdeal.Stages.val_main_v239 (F := Ideal) (m ((c : Thread nD τ).loc main_arg22)) := F9_v150 m ρ c

theorem F5_arg23 (c : Dev nD) : W5 m ρ c (Proc.devRef .tc main_arg23) = m ((c : Thread nD τ).loc main_arg23) :=
  (StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg23 m ρ c)
theorem F5_arg23' (c : Dev nD) : V5 m ρ c main_arg23 = m ((c : Thread nD τ).loc main_arg23) := F5_arg23 m ρ c

theorem F6_arg23 (c : Dev nD) : W6 m ρ c (Proc.devRef .tc main_arg23) = m ((c : Thread nD τ).loc main_arg23) :=
  (W6_of_ne m ρ c main_arg23 (by decide)).trans (F5_arg23 m ρ c)
theorem F6_arg23' (c : Dev nD) : V6 m ρ c main_arg23 = m ((c : Thread nD τ).loc main_arg23) := F6_arg23 m ρ c

theorem F7_arg23 (c : Dev nD) : W7 m ρ c (Proc.devRef .tc main_arg23) = m ((c : Thread nD τ).loc main_arg23) :=
  (StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg23 m ρ c)
theorem F7_arg23' (c : Dev nD) : V7 m ρ c main_arg23 = m ((c : Thread nD τ).loc main_arg23) := F7_arg23 m ρ c

theorem F8_arg23 (c : Dev nD) : W8 m ρ c (Proc.devRef .tc main_arg23) = m ((c : Thread nD τ).loc main_arg23) :=
  (W8_of_ne m ρ c main_arg23 (by decide)).trans (F7_arg23 m ρ c)
theorem F8_arg23' (c : Dev nD) : V8 m ρ c main_arg23 = m ((c : Thread nD τ).loc main_arg23) := F8_arg23 m ρ c

theorem F9_v152 (c : Dev nD) : W9 m ρ c (Proc.devRef .tc main_v152) = Cert.ReferenceIdeal.Stages.val_main_v245 (F := Ideal) (m ((c : Thread nD τ).loc main_arg23)) := by
  show StableHlo.after hostOps4 (W8 m ρ c) (Proc.devRef .tc main_v152) = _
  after_results_each
  simp only [F8_arg23 m ρ c] <;> rfl
theorem F9_v152' (c : Dev nD) : V9 m ρ c main_v152 = Cert.ReferenceIdeal.Stages.val_main_v245 (F := Ideal) (m ((c : Thread nD τ).loc main_arg23)) := F9_v152 m ρ c

theorem F5_arg24 (c : Dev nD) : W5 m ρ c (Proc.devRef .tc main_arg24) = m ((c : Thread nD τ).loc main_arg24) :=
  (StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg24 m ρ c)
theorem F5_arg24' (c : Dev nD) : V5 m ρ c main_arg24 = m ((c : Thread nD τ).loc main_arg24) := F5_arg24 m ρ c

theorem F6_arg24 (c : Dev nD) : W6 m ρ c (Proc.devRef .tc main_arg24) = m ((c : Thread nD τ).loc main_arg24) :=
  (W6_of_ne m ρ c main_arg24 (by decide)).trans (F5_arg24 m ρ c)
theorem F6_arg24' (c : Dev nD) : V6 m ρ c main_arg24 = m ((c : Thread nD τ).loc main_arg24) := F6_arg24 m ρ c

theorem F7_arg24 (c : Dev nD) : W7 m ρ c (Proc.devRef .tc main_arg24) = m ((c : Thread nD τ).loc main_arg24) :=
  (StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg24 m ρ c)
theorem F7_arg24' (c : Dev nD) : V7 m ρ c main_arg24 = m ((c : Thread nD τ).loc main_arg24) := F7_arg24 m ρ c

theorem F8_arg24 (c : Dev nD) : W8 m ρ c (Proc.devRef .tc main_arg24) = m ((c : Thread nD τ).loc main_arg24) :=
  (W8_of_ne m ρ c main_arg24 (by decide)).trans (F7_arg24 m ρ c)
theorem F8_arg24' (c : Dev nD) : V8 m ρ c main_arg24 = m ((c : Thread nD τ).loc main_arg24) := F8_arg24 m ρ c

theorem F9_v154 (c : Dev nD) : W9 m ρ c (Proc.devRef .tc main_v154) = Cert.ReferenceIdeal.Stages.val_main_v248 (F := Ideal) (m ((c : Thread nD τ).loc main_arg24)) := by
  show StableHlo.after hostOps4 (W8 m ρ c) (Proc.devRef .tc main_v154) = _
  after_results_each
  simp only [F8_arg24 m ρ c] <;> rfl
theorem F9_v154' (c : Dev nD) : V9 m ρ c main_v154 = Cert.ReferenceIdeal.Stages.val_main_v248 (F := Ideal) (m ((c : Thread nD τ).loc main_arg24)) := F9_v154 m ρ c

theorem F10_v155_0 (c : Dev nD) : W10 m ρ c (Proc.devRef .tc main_v155_0) = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W10_arr m ρ c 11).trans ((Cert.KernelIdeal.Update4.finalH (V9 m ρ) c).trans ?_)
  rw [Cert.ReferenceIdeal.RefDense.ref_h2]
  simp only [F9_v92_0' m ρ c, F9_v92_1' m ρ c, F9_v138' m ρ c, F9_v140' m ρ c, F9_v142' m ρ c, F9_v144' m ρ c, F9_v146' m ρ c, F9_v148' m ρ c, F9_v150' m ρ c, F9_v152' m ρ c, F9_v154' m ρ c]
  try rw [F9_v92_0' m ρ c]
  try rw [F9_v92_1' m ρ c]
  try rw [F9_v138' m ρ c]
  rfl
theorem F10_v155_0' (c : Dev nD) : V10 m ρ c main_v155_0 = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F10_v155_0 m ρ c

theorem F11_v155_0 (c : Dev nD) : W11 m ρ c (Proc.devRef .tc main_v155_0) = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v155_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_v155_0 m ρ c)
theorem F11_v155_0' (c : Dev nD) : V11 m ρ c main_v155_0 = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v155_0 m ρ c

theorem F12_v155_0 (c : Dev nD) : W12 m ρ c (Proc.devRef .tc main_v155_0) = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (W12_of_ne m ρ c main_v155_0 (by decide)).trans (F11_v155_0 m ρ c)
theorem F12_v155_0' (c : Dev nD) : V12 m ρ c main_v155_0 = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F12_v155_0 m ρ c

theorem F13_v155_0 (c : Dev nD) : W13 m ρ c (Proc.devRef .tc main_v155_0) = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v155_0) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_v155_0 m ρ c)
theorem F13_v155_0' (c : Dev nD) : V13 m ρ c main_v155_0 = Cert.ReferenceIdeal.Stages.val_main_v232 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F13_v155_0 m ρ c

theorem F10_v155_1 (c : Dev nD) : W10 m ρ c (Proc.devRef .tc main_v155_1) = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W10_arr m ρ c 12).trans ((Cert.KernelIdeal.Update4.finalP (V9 m ρ) c).trans ?_)
  rw [Cert.ReferenceIdeal.RefDense.ref_pe2]
  simp only [F9_v92_0' m ρ c, F9_v92_1' m ρ c, F9_v138' m ρ c, F9_v140' m ρ c, F9_v142' m ρ c, F9_v144' m ρ c, F9_v146' m ρ c, F9_v148' m ρ c, F9_v150' m ρ c, F9_v152' m ρ c, F9_v154' m ρ c]
  try rw [F9_v92_0' m ρ c]
  try rw [F9_v92_1' m ρ c]
  try rw [F9_v138' m ρ c]
  rfl
theorem F10_v155_1' (c : Dev nD) : V10 m ρ c main_v155_1 = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F10_v155_1 m ρ c

theorem F11_v155_1 (c : Dev nD) : W11 m ρ c (Proc.devRef .tc main_v155_1) = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v155_1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_v155_1 m ρ c)
theorem F11_v155_1' (c : Dev nD) : V11 m ρ c main_v155_1 = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v155_1 m ρ c

theorem F12_v155_1 (c : Dev nD) : W12 m ρ c (Proc.devRef .tc main_v155_1) = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (W12_of_ne m ρ c main_v155_1 (by decide)).trans (F11_v155_1 m ρ c)
theorem F12_v155_1' (c : Dev nD) : V12 m ρ c main_v155_1 = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F12_v155_1 m ρ c

theorem F13_v155_1 (c : Dev nD) : W13 m ρ c (Proc.devRef .tc main_v155_1) = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (StableHlo.after_of_forall_not_mem (b := Proc.devRef .tc main_v155_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_v155_1 m ρ c)
theorem F13_v155_1' (c : Dev nD) : V13 m ρ c main_v155_1 = Cert.ReferenceIdeal.Stages.val_main_v251 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F13_v155_1 m ρ c

theorem F9_v3 (c : Dev nD) : W9 m ρ c (Proc.devRef .tc main_v3) = Cert.ReferenceIdeal.Stages.val_main_v3 (F := Ideal) (m ((c : Thread nD τ).loc main_arg3)) :=
  (StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v3 m ρ c)
theorem F9_v3' (c : Dev nD) : V9 m ρ c main_v3 = Cert.ReferenceIdeal.Stages.val_main_v3 (F := Ideal) (m ((c : Thread nD τ).loc main_arg3)) := F9_v3 m ρ c

theorem F10_v3 (c : Dev nD) : W10 m ρ c (Proc.devRef .tc main_v3) = Cert.ReferenceIdeal.Stages.val_main_v3 (F := Ideal) (m ((c : Thread nD τ).loc main_arg3)) :=
  (W10_of_ne m ρ c main_v3 (by decide)).trans (F9_v3 m ρ c)
theorem F10_v3' (c : Dev nD) : V10 m ρ c main_v3 = Cert.ReferenceIdeal.Stages.val_main_v3 (F := Ideal) (m ((c : Thread nD τ).loc main_arg3)) := F10_v3 m ρ c

theorem F11_v162 (c : Dev nD) : W11 m ρ c (Proc.devRef .tc main_v162) = Cert.ReferenceIdeal.Stages.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5 (W10 m ρ c) (Proc.devRef .tc main_v162) = _
  after_results_each
  simp only [F10_v155_0 m ρ c, F10_v3 m ρ c] <;> rfl
theorem F11_v162' (c : Dev nD) : V11 m ρ c main_v162 = Cert.ReferenceIdeal.Stages.val_main_v258 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v162 m ρ c

theorem F7_v1 (c : Dev nD) : W7 m ρ c (Proc.devRef .tc main_v1) = Cert.ReferenceIdeal.Stages.val_main_v1 (F := Ideal) (m ((c : Thread nD τ).loc main_arg3)) :=
  (StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_v1 m ρ c)
theorem F7_v1' (c : Dev nD) : V7 m ρ c main_v1 = Cert.ReferenceIdeal.Stages.val_main_v1 (F := Ideal) (m ((c : Thread nD τ).loc main_arg3)) := F7_v1 m ρ c

theorem F8_v1 (c : Dev nD) : W8 m ρ c (Proc.devRef .tc main_v1) = Cert.ReferenceIdeal.Stages.val_main_v1 (F := Ideal) (m ((c : Thread nD τ).loc main_arg3)) :=
  (W8_of_ne m ρ c main_v1 (by decide)).trans (F7_v1 m ρ c)
theorem F8_v1' (c : Dev nD) : V8 m ρ c main_v1 = Cert.ReferenceIdeal.Stages.val_main_v1 (F := Ideal) (m ((c : Thread nD τ).loc main_arg3)) := F8_v1 m ρ c

theorem F9_v1 (c : Dev nD) : W9 m ρ c (Proc.devRef .tc main_v1) = Cert.ReferenceIdeal.Stages.val_main_v1 (F := Ideal) (m ((c : Thread nD τ).loc main_arg3)) :=
  (StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v1 m ρ c)
theorem F9_v1' (c : Dev nD) : V9 m ρ c main_v1 = Cert.ReferenceIdeal.Stages.val_main_v1 (F := Ideal) (m ((c : Thread nD τ).loc main_arg3)) := F9_v1 m ρ c

theorem F10_v1 (c : Dev nD) : W10 m ρ c (Proc.devRef .tc main_v1) = Cert.ReferenceIdeal.Stages.val_main_v1 (F := Ideal) (m ((c : Thread nD τ).loc main_arg3)) :=
  (W10_of_ne m ρ c main_v1 (by decide)).trans (F9_v1 m ρ c)
theorem F10_v1' (c : Dev nD) : V10 m ρ c main_v1 = Cert.ReferenceIdeal.Stages.val_main_v1 (F := Ideal) (m ((c : Thread nD τ).loc main_arg3)) := F10_v1 m ρ c

theorem F11_v169 (c : Dev nD) : W11 m ρ c (Proc.devRef .tc main_v169) = Cert.ReferenceIdeal.Stages.val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5 (W10 m ρ c) (Proc.devRef .tc main_v169) = _
  after_results_each
  simp only [F10_v155_0 m ρ c, F10_v1 m ρ c] <;> rfl
theorem F11_v169' (c : Dev nD) : V11 m ρ c main_v169 = Cert.ReferenceIdeal.Stages.val_main_v265 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v169 m ρ c

theorem F11_v176 (c : Dev nD) : W11 m ρ c (Proc.devRef .tc main_v176) = Cert.ReferenceIdeal.Stages.val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5 (W10 m ρ c) (Proc.devRef .tc main_v176) = _
  after_results_each
  simp only [F10_v155_1 m ρ c, F10_v3 m ρ c] <;> rfl
theorem F11_v176' (c : Dev nD) : V11 m ρ c main_v176 = Cert.ReferenceIdeal.Stages.val_main_v272 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v176 m ρ c

theorem F11_v183 (c : Dev nD) : W11 m ρ c (Proc.devRef .tc main_v183) = Cert.ReferenceIdeal.Stages.val_main_v279 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps5 (W10 m ρ c) (Proc.devRef .tc main_v183) = _
  after_results_each
  simp only [F10_v155_1 m ρ c, F10_v1 m ρ c] <;> rfl
theorem F11_v183' (c : Dev nD) : V11 m ρ c main_v183 = Cert.ReferenceIdeal.Stages.val_main_v279 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F11_v183 m ρ c

theorem F8_v22 (c : Dev nD) : W8 m ρ c (Proc.devRef .tc main_v22) = Cert.ReferenceIdeal.Stages.val_main_v22 (F := Ideal) (m ((c : Thread nD τ).loc main_arg1)) (m ((c : Thread nD τ).loc main_arg3)) :=
  ((W8_arr m ρ c 4).trans (((dat3 (V7 m ρ) c).arrAt_in 4 rfl _).trans (A_eq3 (V7 m ρ) c 4))).trans (F7_v22 m ρ c)
theorem F8_v22' (c : Dev nD) : V8 m ρ c main_v22 = Cert.ReferenceIdeal.Stages.val_main_v22 (F := Ideal) (m ((c : Thread nD τ).loc main_arg1)) (m ((c : Thread nD τ).loc main_arg3)) := F8_v22 m ρ c

theorem F9_v22 (c : Dev nD) : W9 m ρ c (Proc.devRef .tc main_v22) = Cert.ReferenceIdeal.Stages.val_main_v22 (F := Ideal) (m ((c : Thread nD τ).loc main_arg1)) (m ((c : Thread nD τ).loc main_arg3)) :=
  (StableHlo.after_of_forall_not_mem (b := Proc.devRef .tc main_v22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v22 m ρ c)
theorem F9_v22' (c : Dev nD) : V9 m ρ c main_v22 = Cert.ReferenceIdeal.Stages.val_main_v22 (F := Ideal) (m ((c : Thread nD τ).loc main_arg1)) (m ((c : Thread nD τ).loc main_arg3)) := F9_v22 m ρ c

theorem F10_v22 (c : Dev nD) : W10 m ρ c (Proc.devRef .tc main_v22) = Cert.ReferenceIdeal.Stages.val_main_v22 (F := Ideal) (m ((c : Thread nD τ).loc main_arg1)) (m ((c : Thread nD τ).loc main_arg3)) :=
  (W10_of_ne m ρ c main_v22 (by decide)).trans (F9_v22 m ρ c)
theorem F10_v22' (c : Dev nD) : V10 m ρ c main_v22 = Cert.ReferenceIdeal.Stages.val_main_v22 (F := Ideal) (m ((c : Thread nD τ).loc main_arg1)) (m ((c : Thread nD τ).loc main_arg3)) := F10_v22 m ρ c

theorem F11_v22 (c : Dev nD) : W11 m ρ c (Proc.devRef .tc main_v22) = Cert.ReferenceIdeal.Stages.val_main_v22 (F := Ideal) (m ((c : Thread nD τ).loc main_arg1)) (m ((c : Thread nD τ).loc main_arg3)) :=
  (StableHlo.after_of_forall_not_mem (b := Proc.devRef .tc main_v22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_v22 m ρ c)
theorem F11_v22' (c : Dev nD) : V11 m ρ c main_v22 = Cert.ReferenceIdeal.Stages.val_main_v22 (F := Ideal) (m ((c : Thread nD τ).loc main_arg1)) (m ((c : Thread nD τ).loc main_arg3)) := F11_v22 m ρ c

theorem F7_arg11 (c : Dev nD) : W7 m ρ c (Proc.devRef .tc main_arg11) = m ((c : Thread nD τ).loc main_arg11) :=
  (StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg11 m ρ c)
theorem F7_arg11' (c : Dev nD) : V7 m ρ c main_arg11 = m ((c : Thread nD τ).loc main_arg11) := F7_arg11 m ρ c

theorem F8_arg11 (c : Dev nD) : W8 m ρ c (Proc.devRef .tc main_arg11) = m ((c : Thread nD τ).loc main_arg11) :=
  (W8_of_ne m ρ c main_arg11 (by decide)).trans (F7_arg11 m ρ c)
theorem F8_arg11' (c : Dev nD) : V8 m ρ c main_arg11 = m ((c : Thread nD τ).loc main_arg11) := F8_arg11 m ρ c

theorem F9_arg11 (c : Dev nD) : W9 m ρ c (Proc.devRef .tc main_arg11) = m ((c : Thread nD τ).loc main_arg11) :=
  (StableHlo.after_of_forall_not_mem (b := Proc.devRef .tc main_arg11) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg11 m ρ c)
theorem F9_arg11' (c : Dev nD) : V9 m ρ c main_arg11 = m ((c : Thread nD τ).loc main_arg11) := F9_arg11 m ρ c

theorem F10_arg11 (c : Dev nD) : W10 m ρ c (Proc.devRef .tc main_arg11) = m ((c : Thread nD τ).loc main_arg11) :=
  (W10_of_ne m ρ c main_arg11 (by decide)).trans (F9_arg11 m ρ c)
theorem F10_arg11' (c : Dev nD) : V10 m ρ c main_arg11 = m ((c : Thread nD τ).loc main_arg11) := F10_arg11 m ρ c

theorem F11_v185 (c : Dev nD) : W11 m ρ c (Proc.devRef .tc main_v185) = Cert.ReferenceIdeal.Stages.val_main_v282 (F := Ideal) (m ((c : Thread nD τ).loc main_arg11)) := by
  show StableHlo.after hostOps5 (W10 m ρ c) (Proc.devRef .tc main_v185) = _
  after_results_each
  simp only [F10_arg11 m ρ c] <;> rfl
theorem F11_v185' (c : Dev nD) : V11 m ρ c main_v185 = Cert.ReferenceIdeal.Stages.val_main_v282 (F := Ideal) (m ((c : Thread nD τ).loc main_arg11)) := F11_v185 m ρ c

theorem F7_arg12 (c : Dev nD) : W7 m ρ c (Proc.devRef .tc main_arg12) = m ((c : Thread nD τ).loc main_arg12) :=
  (StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg12 m ρ c)
theorem F7_arg12' (c : Dev nD) : V7 m ρ c main_arg12 = m ((c : Thread nD τ).loc main_arg12) := F7_arg12 m ρ c

theorem F8_arg12 (c : Dev nD) : W8 m ρ c (Proc.devRef .tc main_arg12) = m ((c : Thread nD τ).loc main_arg12) :=
  (W8_of_ne m ρ c main_arg12 (by decide)).trans (F7_arg12 m ρ c)
theorem F8_arg12' (c : Dev nD) : V8 m ρ c main_arg12 = m ((c : Thread nD τ).loc main_arg12) := F8_arg12 m ρ c

theorem F9_arg12 (c : Dev nD) : W9 m ρ c (Proc.devRef .tc main_arg12) = m ((c : Thread nD τ).loc main_arg12) :=
  (StableHlo.after_of_forall_not_mem (b := Proc.devRef .tc main_arg12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg12 m ρ c)
theorem F9_arg12' (c : Dev nD) : V9 m ρ c main_arg12 = m ((c : Thread nD τ).loc main_arg12) := F9_arg12 m ρ c

theorem F10_arg12 (c : Dev nD) : W10 m ρ c (Proc.devRef .tc main_arg12) = m ((c : Thread nD τ).loc main_arg12) :=
  (W10_of_ne m ρ c main_arg12 (by decide)).trans (F9_arg12 m ρ c)
theorem F10_arg12' (c : Dev nD) : V10 m ρ c main_arg12 = m ((c : Thread nD τ).loc main_arg12) := F10_arg12 m ρ c

theorem F11_v187 (c : Dev nD) : W11 m ρ c (Proc.devRef .tc main_v187) = Cert.ReferenceIdeal.Stages.val_main_v285 (F := Ideal) (m ((c : Thread nD τ).loc main_arg12)) := by
  show StableHlo.after hostOps5 (W10 m ρ c) (Proc.devRef .tc main_v187) = _
  after_results_each
  simp only [F10_arg12 m ρ c] <;> rfl
theorem F11_v187' (c : Dev nD) : V11 m ρ c main_v187 = Cert.ReferenceIdeal.Stages.val_main_v285 (F := Ideal) (m ((c : Thread nD τ).loc main_arg12)) := F11_v187 m ρ c

theorem F7_arg13 (c : Dev nD) : W7 m ρ c (Proc.devRef .tc main_arg13) = m ((c : Thread nD τ).loc main_arg13) :=
  (StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg13 m ρ c)
theorem F7_arg13' (c : Dev nD) : V7 m ρ c main_arg13 = m ((c : Thread nD τ).loc main_arg13) := F7_arg13 m ρ c

theorem F8_arg13 (c : Dev nD) : W8 m ρ c (Proc.devRef .tc main_arg13) = m ((c : Thread nD τ).loc main_arg13) :=
  (W8_of_ne m ρ c main_arg13 (by decide)).trans (F7_arg13 m ρ c)
theorem F8_arg13' (c : Dev nD) : V8 m ρ c main_arg13 = m ((c : Thread nD τ).loc main_arg13) := F8_arg13 m ρ c

theorem F9_arg13 (c : Dev nD) : W9 m ρ c (Proc.devRef .tc main_arg13) = m ((c : Thread nD τ).loc main_arg13) :=
  (StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg13 m ρ c)
theorem F9_arg13' (c : Dev nD) : V9 m ρ c main_arg13 = m ((c : Thread nD τ).loc main_arg13) := F9_arg13 m ρ c

theorem F10_arg13 (c : Dev nD) : W10 m ρ c (Proc.devRef .tc main_arg13) = m ((c : Thread nD τ).loc main_arg13) :=
  (W10_of_ne m ρ c main_arg13 (by decide)).trans (F9_arg13 m ρ c)
theorem F10_arg13' (c : Dev nD) : V10 m ρ c main_arg13 = m ((c : Thread nD τ).loc main_arg13) := F10_arg13 m ρ c

theorem F11_v189 (c : Dev nD) : W11 m ρ c (Proc.devRef .tc main_v189) = Cert.ReferenceIdeal.Stages.val_main_v291 (F := Ideal) (m ((c : Thread nD τ).loc main_arg13)) := by
  show StableHlo.after hostOps5 (W10 m ρ c) (Proc.devRef .tc main_v189) = _
  after_results_each
  simp only [F10_arg13 m ρ c] <;> rfl
theorem F11_v189' (c : Dev nD) : V11 m ρ c main_v189 = Cert.ReferenceIdeal.Stages.val_main_v291 (F := Ideal) (m ((c : Thread nD τ).loc main_arg13)) := F11_v189 m ρ c

theorem F7_arg14 (c : Dev nD) : W7 m ρ c (Proc.devRef .tc main_arg14) = m ((c : Thread nD τ).loc main_arg14) :=
  (StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg14 m ρ c)
theorem F7_arg14' (c : Dev nD) : V7 m ρ c main_arg14 = m ((c : Thread nD τ).loc main_arg14) := F7_arg14 m ρ c

theorem F8_arg14 (c : Dev nD) : W8 m ρ c (Proc.devRef .tc main_arg14) = m ((c : Thread nD τ).loc main_arg14) :=
  (W8_of_ne m ρ c main_arg14 (by decide)).trans (F7_arg14 m ρ c)
theorem F8_arg14' (c : Dev nD) : V8 m ρ c main_arg14 = m ((c : Thread nD τ).loc main_arg14) := F8_arg14 m ρ c

theorem F9_arg14 (c : Dev nD) : W9 m ρ c (Proc.devRef .tc main_arg14) = m ((c : Thread nD τ).loc main_arg14) :=
  (StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg14 m ρ c)
theorem F9_arg14' (c : Dev nD) : V9 m ρ c main_arg14 = m ((c : Thread nD τ).loc main_arg14) := F9_arg14 m ρ c

theorem F10_arg14 (c : Dev nD) : W10 m ρ c (Proc.devRef .tc main_arg14) = m ((c : Thread nD τ).loc main_arg14) :=
  (W10_of_ne m ρ c main_arg14 (by decide)).trans (F9_arg14 m ρ c)
theorem F10_arg14' (c : Dev nD) : V10 m ρ c main_arg14 = m ((c : Thread nD τ).loc main_arg14) := F10_arg14 m ρ c

theorem F11_v191 (c : Dev nD) : W11 m ρ c (Proc.devRef .tc main_v191) = Cert.ReferenceIdeal.Stages.val_main_v294 (F := Ideal) (m ((c : Thread nD τ).loc main_arg14)) := by
  show StableHlo.after hostOps5 (W10 m ρ c) (Proc.devRef .tc main_v191) = _
  after_results_each
  simp only [F10_arg14 m ρ c] <;> rfl
theorem F11_v191' (c : Dev nD) : V11 m ρ c main_v191 = Cert.ReferenceIdeal.Stages.val_main_v294 (F := Ideal) (m ((c : Thread nD τ).loc main_arg14)) := F11_v191 m ρ c

theorem F7_arg15 (c : Dev nD) : W7 m ρ c (Proc.devRef .tc main_arg15) = m ((c : Thread nD τ).loc main_arg15) :=
  (StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg15 m ρ c)
theorem F7_arg15' (c : Dev nD) : V7 m ρ c main_arg15 = m ((c : Thread nD τ).loc main_arg15) := F7_arg15 m ρ c

theorem F8_arg15 (c : Dev nD) : W8 m ρ c (Proc.devRef .tc main_arg15) = m ((c : Thread nD τ).loc main_arg15) :=
  (W8_of_ne m ρ c main_arg15 (by decide)).trans (F7_arg15 m ρ c)
theorem F8_arg15' (c : Dev nD) : V8 m ρ c main_arg15 = m ((c : Thread nD τ).loc main_arg15) := F8_arg15 m ρ c

theorem F9_arg15 (c : Dev nD) : W9 m ρ c (Proc.devRef .tc main_arg15) = m ((c : Thread nD τ).loc main_arg15) :=
  (StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg15 m ρ c)
theorem F9_arg15' (c : Dev nD) : V9 m ρ c main_arg15 = m ((c : Thread nD τ).loc main_arg15) := F9_arg15 m ρ c

theorem F10_arg15 (c : Dev nD) : W10 m ρ c (Proc.devRef .tc main_arg15) = m ((c : Thread nD τ).loc main_arg15) :=
  (W10_of_ne m ρ c main_arg15 (by decide)).trans (F9_arg15 m ρ c)
theorem F10_arg15' (c : Dev nD) : V10 m ρ c main_arg15 = m ((c : Thread nD τ).loc main_arg15) := F10_arg15 m ρ c

theorem F11_v193 (c : Dev nD) : W11 m ρ c (Proc.devRef .tc main_v193) = Cert.ReferenceIdeal.Stages.val_main_v300 (F := Ideal) (m ((c : Thread nD τ).loc main_arg15)) := by
  show StableHlo.after hostOps5 (W10 m ρ c) (Proc.devRef .tc main_v193) = _
  after_results_each
  simp only [F10_arg15 m ρ c] <;> rfl
theorem F11_v193' (c : Dev nD) : V11 m ρ c main_v193 = Cert.ReferenceIdeal.Stages.val_main_v300 (F := Ideal) (m ((c : Thread nD τ).loc main_arg15)) := F11_v193 m ρ c

theorem F7_arg16 (c : Dev nD) : W7 m ρ c (Proc.devRef .tc main_arg16) = m ((c : Thread nD τ).loc main_arg16) :=
  (StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg16 m ρ c)
theorem F7_arg16' (c : Dev nD) : V7 m ρ c main_arg16 = m ((c : Thread nD τ).loc main_arg16) := F7_arg16 m ρ c

theorem F8_arg16 (c : Dev nD) : W8 m ρ c (Proc.devRef .tc main_arg16) = m ((c : Thread nD τ).loc main_arg16) :=
  (W8_of_ne m ρ c main_arg16 (by decide)).trans (F7_arg16 m ρ c)
theorem F8_arg16' (c : Dev nD) : V8 m ρ c main_arg16 = m ((c : Thread nD τ).loc main_arg16) := F8_arg16 m ρ c

theorem F9_arg16 (c : Dev nD) : W9 m ρ c (Proc.devRef .tc main_arg16) = m ((c : Thread nD τ).loc main_arg16) :=
  (StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg16 m ρ c)
theorem F9_arg16' (c : Dev nD) : V9 m ρ c main_arg16 = m ((c : Thread nD τ).loc main_arg16) := F9_arg16 m ρ c

theorem F10_arg16 (c : Dev nD) : W10 m ρ c (Proc.devRef .tc main_arg16) = m ((c : Thread nD τ).loc main_arg16) :=
  (W10_of_ne m ρ c main_arg16 (by decide)).trans (F9_arg16 m ρ c)
theorem F10_arg16' (c : Dev nD) : V10 m ρ c main_arg16 = m ((c : Thread nD τ).loc main_arg16) := F10_arg16 m ρ c

theorem F11_v195 (c : Dev nD) : W11 m ρ c (Proc.devRef .tc main_v195) = Cert.ReferenceIdeal.Stages.val_main_v303 (F := Ideal) (m ((c : Thread nD τ).loc main_arg16)) := by
  show StableHlo.after hostOps5 (W10 m ρ c) (Proc.devRef .tc main_v195) = _
  after_results_each
  simp only [F10_arg16 m ρ c] <;> rfl
theorem F11_v195' (c : Dev nD) : V11 m ρ c main_v195 = Cert.ReferenceIdeal.Stages.val_main_v303 (F := Ideal) (m ((c : Thread nD τ).loc main_arg16)) := F11_v195 m ρ c

theorem F12_v196 (c : Dev nD) : W12 m ρ c (Proc.devRef .tc main_v196) = Cert.ReferenceIdeal.Stages.val_main_v314 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W12_arr m ρ c 11).trans ((Cert.KernelIdeal.Message5.final (V11 m ρ) c).trans ?_)
  rw [Cert.ReferenceIdeal.RefDense.ref_msg3]
  simp only [F11_v162' m ρ c, F11_v169' m ρ c, F11_v176' m ρ c, F11_v183' m ρ c, F11_v22' m ρ c, F11_v185' m ρ c, F11_v187' m ρ c, F11_v189' m ρ c, F11_v191' m ρ c, F11_v193' m ρ c, F11_v195' m ρ c]
  try rw [F11_v162' m ρ c]
  try rw [F11_v169' m ρ c]
  try rw [F11_v176' m ρ c]
  try rw [F11_v183' m ρ c]
  try rw [F11_v22' m ρ c]
  rfl
theorem F12_v196' (c : Dev nD) : V12 m ρ c main_v196 = Cert.ReferenceIdeal.Stages.val_main_v314 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F12_v196 m ρ c

theorem F11_v3 (c : Dev nD) : W11 m ρ c (Proc.devRef .tc main_v3) = Cert.ReferenceIdeal.Stages.val_main_v3 (F := Ideal) (m ((c : Thread nD τ).loc main_arg3)) :=
  (StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_v3 m ρ c)
theorem F11_v3' (c : Dev nD) : V11 m ρ c main_v3 = Cert.ReferenceIdeal.Stages.val_main_v3 (F := Ideal) (m ((c : Thread nD τ).loc main_arg3)) := F11_v3 m ρ c

theorem F12_v3 (c : Dev nD) : W12 m ρ c (Proc.devRef .tc main_v3) = Cert.ReferenceIdeal.Stages.val_main_v3 (F := Ideal) (m ((c : Thread nD τ).loc main_arg3)) :=
  (W12_of_ne m ρ c main_v3 (by decide)).trans (F11_v3 m ρ c)
theorem F12_v3' (c : Dev nD) : V12 m ρ c main_v3 = Cert.ReferenceIdeal.Stages.val_main_v3 (F := Ideal) (m ((c : Thread nD τ).loc main_arg3)) := F12_v3 m ρ c

theorem F9_v28 (c : Dev nD) : W9 m ρ c (Proc.devRef .tc main_v28) = Cert.ReferenceIdeal.Stages.val_main_v41 (F := Ideal) (m ((c : Thread nD τ).loc main_arg3)) :=
  (StableHlo.after_of_forall_not_mem (b := Proc.devRef .tc main_v28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_v28 m ρ c)
theorem F9_v28' (c : Dev nD) : V9 m ρ c main_v28 = Cert.ReferenceIdeal.Stages.val_main_v41 (F := Ideal) (m ((c : Thread nD τ).loc main_arg3)) := F9_v28 m ρ c

theorem F10_v28 (c : Dev nD) : W10 m ρ c (Proc.devRef .tc main_v28) = Cert.ReferenceIdeal.Stages.val_main_v41 (F := Ideal) (m ((c : Thread nD τ).loc main_arg3)) :=
  (W10_of_ne m ρ c main_v28 (by decide)).trans (F9_v28 m ρ c)
theorem F10_v28' (c : Dev nD) : V10 m ρ c main_v28 = Cert.ReferenceIdeal.Stages.val_main_v41 (F := Ideal) (m ((c : Thread nD τ).loc main_arg3)) := F10_v28 m ρ c

theorem F11_v28 (c : Dev nD) : W11 m ρ c (Proc.devRef .tc main_v28) = Cert.ReferenceIdeal.Stages.val_main_v41 (F := Ideal) (m ((c : Thread nD τ).loc main_arg3)) :=
  (StableHlo.after_of_forall_not_mem (b := Proc.devRef .tc main_v28) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_v28 m ρ c)
theorem F11_v28' (c : Dev nD) : V11 m ρ c main_v28 = Cert.ReferenceIdeal.Stages.val_main_v41 (F := Ideal) (m ((c : Thread nD τ).loc main_arg3)) := F11_v28 m ρ c

theorem F12_v28 (c : Dev nD) : W12 m ρ c (Proc.devRef .tc main_v28) = Cert.ReferenceIdeal.Stages.val_main_v41 (F := Ideal) (m ((c : Thread nD τ).loc main_arg3)) :=
  (W12_of_ne m ρ c main_v28 (by decide)).trans (F11_v28 m ρ c)
theorem F12_v28' (c : Dev nD) : V12 m ρ c main_v28 = Cert.ReferenceIdeal.Stages.val_main_v41 (F := Ideal) (m ((c : Thread nD τ).loc main_arg3)) := F12_v28 m ρ c

theorem F13_v201 (c : Dev nD) : W13 m ρ c (Proc.devRef .tc main_v201) = Cert.ReferenceIdeal.Stages.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps6 (W12 m ρ c) (Proc.devRef .tc main_v201) = _
  after_results_each
  simp only [F12_v196 m ρ c, F12_v3 m ρ c, F12_v28 m ρ c] <;> rfl
theorem F13_v201' (c : Dev nD) : V13 m ρ c main_v201 = Cert.ReferenceIdeal.Stages.val_main_v319 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F13_v201 m ρ c

theorem F9_arg17 (c : Dev nD) : W9 m ρ c (Proc.devRef .tc main_arg17) = m ((c : Thread nD τ).loc main_arg17) :=
  (StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg17 m ρ c)
theorem F9_arg17' (c : Dev nD) : V9 m ρ c main_arg17 = m ((c : Thread nD τ).loc main_arg17) := F9_arg17 m ρ c

theorem F10_arg17 (c : Dev nD) : W10 m ρ c (Proc.devRef .tc main_arg17) = m ((c : Thread nD τ).loc main_arg17) :=
  (W10_of_ne m ρ c main_arg17 (by decide)).trans (F9_arg17 m ρ c)
theorem F10_arg17' (c : Dev nD) : V10 m ρ c main_arg17 = m ((c : Thread nD τ).loc main_arg17) := F10_arg17 m ρ c

theorem F11_arg17 (c : Dev nD) : W11 m ρ c (Proc.devRef .tc main_arg17) = m ((c : Thread nD τ).loc main_arg17) :=
  (StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg17 m ρ c)
theorem F11_arg17' (c : Dev nD) : V11 m ρ c main_arg17 = m ((c : Thread nD τ).loc main_arg17) := F11_arg17 m ρ c

theorem F12_arg17 (c : Dev nD) : W12 m ρ c (Proc.devRef .tc main_arg17) = m ((c : Thread nD τ).loc main_arg17) :=
  (W12_of_ne m ρ c main_arg17 (by decide)).trans (F11_arg17 m ρ c)
theorem F12_arg17' (c : Dev nD) : V12 m ρ c main_arg17 = m ((c : Thread nD τ).loc main_arg17) := F12_arg17 m ρ c

theorem F13_v203 (c : Dev nD) : W13 m ρ c (Proc.devRef .tc main_v203) = Cert.ReferenceIdeal.Stages.val_main_v322 (F := Ideal) (m ((c : Thread nD τ).loc main_arg17)) := by
  show StableHlo.after hostOps6 (W12 m ρ c) (Proc.devRef .tc main_v203) = _
  after_results_each
  simp only [F12_arg17 m ρ c] <;> rfl
theorem F13_v203' (c : Dev nD) : V13 m ρ c main_v203 = Cert.ReferenceIdeal.Stages.val_main_v322 (F := Ideal) (m ((c : Thread nD τ).loc main_arg17)) := F13_v203 m ρ c

theorem F9_arg18 (c : Dev nD) : W9 m ρ c (Proc.devRef .tc main_arg18) = m ((c : Thread nD τ).loc main_arg18) :=
  (StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg18 m ρ c)
theorem F9_arg18' (c : Dev nD) : V9 m ρ c main_arg18 = m ((c : Thread nD τ).loc main_arg18) := F9_arg18 m ρ c

theorem F10_arg18 (c : Dev nD) : W10 m ρ c (Proc.devRef .tc main_arg18) = m ((c : Thread nD τ).loc main_arg18) :=
  (W10_of_ne m ρ c main_arg18 (by decide)).trans (F9_arg18 m ρ c)
theorem F10_arg18' (c : Dev nD) : V10 m ρ c main_arg18 = m ((c : Thread nD τ).loc main_arg18) := F10_arg18 m ρ c

theorem F11_arg18 (c : Dev nD) : W11 m ρ c (Proc.devRef .tc main_arg18) = m ((c : Thread nD τ).loc main_arg18) :=
  (StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg18 m ρ c)
theorem F11_arg18' (c : Dev nD) : V11 m ρ c main_arg18 = m ((c : Thread nD τ).loc main_arg18) := F11_arg18 m ρ c

theorem F12_arg18 (c : Dev nD) : W12 m ρ c (Proc.devRef .tc main_arg18) = m ((c : Thread nD τ).loc main_arg18) :=
  (W12_of_ne m ρ c main_arg18 (by decide)).trans (F11_arg18 m ρ c)
theorem F12_arg18' (c : Dev nD) : V12 m ρ c main_arg18 = m ((c : Thread nD τ).loc main_arg18) := F12_arg18 m ρ c

theorem F13_v205 (c : Dev nD) : W13 m ρ c (Proc.devRef .tc main_v205) = Cert.ReferenceIdeal.Stages.val_main_v325 (F := Ideal) (m ((c : Thread nD τ).loc main_arg18)) := by
  show StableHlo.after hostOps6 (W12 m ρ c) (Proc.devRef .tc main_v205) = _
  after_results_each
  simp only [F12_arg18 m ρ c] <;> rfl
theorem F13_v205' (c : Dev nD) : V13 m ρ c main_v205 = Cert.ReferenceIdeal.Stages.val_main_v325 (F := Ideal) (m ((c : Thread nD τ).loc main_arg18)) := F13_v205 m ρ c

theorem F9_arg19 (c : Dev nD) : W9 m ρ c (Proc.devRef .tc main_arg19) = m ((c : Thread nD τ).loc main_arg19) :=
  (StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg19 m ρ c)
theorem F9_arg19' (c : Dev nD) : V9 m ρ c main_arg19 = m ((c : Thread nD τ).loc main_arg19) := F9_arg19 m ρ c

theorem F10_arg19 (c : Dev nD) : W10 m ρ c (Proc.devRef .tc main_arg19) = m ((c : Thread nD τ).loc main_arg19) :=
  (W10_of_ne m ρ c main_arg19 (by decide)).trans (F9_arg19 m ρ c)
theorem F10_arg19' (c : Dev nD) : V10 m ρ c main_arg19 = m ((c : Thread nD τ).loc main_arg19) := F10_arg19 m ρ c

theorem F11_arg19 (c : Dev nD) : W11 m ρ c (Proc.devRef .tc main_arg19) = m ((c : Thread nD τ).loc main_arg19) :=
  (StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg19 m ρ c)
theorem F11_arg19' (c : Dev nD) : V11 m ρ c main_arg19 = m ((c : Thread nD τ).loc main_arg19) := F11_arg19 m ρ c

theorem F12_arg19 (c : Dev nD) : W12 m ρ c (Proc.devRef .tc main_arg19) = m ((c : Thread nD τ).loc main_arg19) :=
  (W12_of_ne m ρ c main_arg19 (by decide)).trans (F11_arg19 m ρ c)
theorem F12_arg19' (c : Dev nD) : V12 m ρ c main_arg19 = m ((c : Thread nD τ).loc main_arg19) := F12_arg19 m ρ c

theorem F13_v207 (c : Dev nD) : W13 m ρ c (Proc.devRef .tc main_v207) = Cert.ReferenceIdeal.Stages.val_main_v331 (F := Ideal) (m ((c : Thread nD τ).loc main_arg19)) := by
  show StableHlo.after hostOps6 (W12 m ρ c) (Proc.devRef .tc main_v207) = _
  after_results_each
  simp only [F12_arg19 m ρ c] <;> rfl
theorem F13_v207' (c : Dev nD) : V13 m ρ c main_v207 = Cert.ReferenceIdeal.Stages.val_main_v331 (F := Ideal) (m ((c : Thread nD τ).loc main_arg19)) := F13_v207 m ρ c

theorem F9_arg20 (c : Dev nD) : W9 m ρ c (Proc.devRef .tc main_arg20) = m ((c : Thread nD τ).loc main_arg20) :=
  (StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg20 m ρ c)
theorem F9_arg20' (c : Dev nD) : V9 m ρ c main_arg20 = m ((c : Thread nD τ).loc main_arg20) := F9_arg20 m ρ c

theorem F10_arg20 (c : Dev nD) : W10 m ρ c (Proc.devRef .tc main_arg20) = m ((c : Thread nD τ).loc main_arg20) :=
  (W10_of_ne m ρ c main_arg20 (by decide)).trans (F9_arg20 m ρ c)
theorem F10_arg20' (c : Dev nD) : V10 m ρ c main_arg20 = m ((c : Thread nD τ).loc main_arg20) := F10_arg20 m ρ c

theorem F11_arg20 (c : Dev nD) : W11 m ρ c (Proc.devRef .tc main_arg20) = m ((c : Thread nD τ).loc main_arg20) :=
  (StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg20 m ρ c)
theorem F11_arg20' (c : Dev nD) : V11 m ρ c main_arg20 = m ((c : Thread nD τ).loc main_arg20) := F11_arg20 m ρ c

theorem F12_arg20 (c : Dev nD) : W12 m ρ c (Proc.devRef .tc main_arg20) = m ((c : Thread nD τ).loc main_arg20) :=
  (W12_of_ne m ρ c main_arg20 (by decide)).trans (F11_arg20 m ρ c)
theorem F12_arg20' (c : Dev nD) : V12 m ρ c main_arg20 = m ((c : Thread nD τ).loc main_arg20) := F12_arg20 m ρ c

theorem F13_v209 (c : Dev nD) : W13 m ρ c (Proc.devRef .tc main_v209) = Cert.ReferenceIdeal.Stages.val_main_v334 (F := Ideal) (m ((c : Thread nD τ).loc main_arg20)) := by
  show StableHlo.after hostOps6 (W12 m ρ c) (Proc.devRef .tc main_v209) = _
  after_results_each
  simp only [F12_arg20 m ρ c] <;> rfl
theorem F13_v209' (c : Dev nD) : V13 m ρ c main_v209 = Cert.ReferenceIdeal.Stages.val_main_v334 (F := Ideal) (m ((c : Thread nD τ).loc main_arg20)) := F13_v209 m ρ c

theorem F9_arg21 (c : Dev nD) : W9 m ρ c (Proc.devRef .tc main_arg21) = m ((c : Thread nD τ).loc main_arg21) :=
  (StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg21 m ρ c)
theorem F9_arg21' (c : Dev nD) : V9 m ρ c main_arg21 = m ((c : Thread nD τ).loc main_arg21) := F9_arg21 m ρ c

theorem F10_arg21 (c : Dev nD) : W10 m ρ c (Proc.devRef .tc main_arg21) = m ((c : Thread nD τ).loc main_arg21) :=
  (W10_of_ne m ρ c main_arg21 (by decide)).trans (F9_arg21 m ρ c)
theorem F10_arg21' (c : Dev nD) : V10 m ρ c main_arg21 = m ((c : Thread nD τ).loc main_arg21) := F10_arg21 m ρ c

theorem F11_arg21 (c : Dev nD) : W11 m ρ c (Proc.devRef .tc main_arg21) = m ((c : Thread nD τ).loc main_arg21) :=
  (StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg21 m ρ c)
theorem F11_arg21' (c : Dev nD) : V11 m ρ c main_arg21 = m ((c : Thread nD τ).loc main_arg21) := F11_arg21 m ρ c

theorem F12_arg21 (c : Dev nD) : W12 m ρ c (Proc.devRef .tc main_arg21) = m ((c : Thread nD τ).loc main_arg21) :=
  (W12_of_ne m ρ c main_arg21 (by decide)).trans (F11_arg21 m ρ c)
theorem F12_arg21' (c : Dev nD) : V12 m ρ c main_arg21 = m ((c : Thread nD τ).loc main_arg21) := F12_arg21 m ρ c

theorem F13_v211 (c : Dev nD) : W13 m ρ c (Proc.devRef .tc main_v211) = Cert.ReferenceIdeal.Stages.val_main_v341 (F := Ideal) (m ((c : Thread nD τ).loc main_arg21)) := by
  show StableHlo.after hostOps6 (W12 m ρ c) (Proc.devRef .tc main_v211) = _
  after_results_each
  simp only [F12_arg21 m ρ c] <;> rfl
theorem F13_v211' (c : Dev nD) : V13 m ρ c main_v211 = Cert.ReferenceIdeal.Stages.val_main_v341 (F := Ideal) (m ((c : Thread nD τ).loc main_arg21)) := F13_v211 m ρ c

theorem F9_arg22 (c : Dev nD) : W9 m ρ c (Proc.devRef .tc main_arg22) = m ((c : Thread nD τ).loc main_arg22) :=
  (StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg22 m ρ c)
theorem F9_arg22' (c : Dev nD) : V9 m ρ c main_arg22 = m ((c : Thread nD τ).loc main_arg22) := F9_arg22 m ρ c

theorem F10_arg22 (c : Dev nD) : W10 m ρ c (Proc.devRef .tc main_arg22) = m ((c : Thread nD τ).loc main_arg22) :=
  (W10_of_ne m ρ c main_arg22 (by decide)).trans (F9_arg22 m ρ c)
theorem F10_arg22' (c : Dev nD) : V10 m ρ c main_arg22 = m ((c : Thread nD τ).loc main_arg22) := F10_arg22 m ρ c

theorem F11_arg22 (c : Dev nD) : W11 m ρ c (Proc.devRef .tc main_arg22) = m ((c : Thread nD τ).loc main_arg22) :=
  (StableHlo.after_of_forall_not_mem (b := Proc.devRef .tc main_arg22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg22 m ρ c)
theorem F11_arg22' (c : Dev nD) : V11 m ρ c main_arg22 = m ((c : Thread nD τ).loc main_arg22) := F11_arg22 m ρ c

theorem F12_arg22 (c : Dev nD) : W12 m ρ c (Proc.devRef .tc main_arg22) = m ((c : Thread nD τ).loc main_arg22) :=
  (W12_of_ne m ρ c main_arg22 (by decide)).trans (F11_arg22 m ρ c)
theorem F12_arg22' (c : Dev nD) : V12 m ρ c main_arg22 = m ((c : Thread nD τ).loc main_arg22) := F12_arg22 m ρ c

theorem F13_v213 (c : Dev nD) : W13 m ρ c (Proc.devRef .tc main_v213) = Cert.ReferenceIdeal.Stages.val_main_v344 (F := Ideal) (m ((c : Thread nD τ).loc main_arg22)) := by
  show StableHlo.after hostOps6 (W12 m ρ c) (Proc.devRef .tc main_v213) = _
  after_results_each
  simp only [F12_arg22 m ρ c] <;> rfl
theorem F13_v213' (c : Dev nD) : V13 m ρ c main_v213 = Cert.ReferenceIdeal.Stages.val_main_v344 (F := Ideal) (m ((c : Thread nD τ).loc main_arg22)) := F13_v213 m ρ c

theorem F9_arg23 (c : Dev nD) : W9 m ρ c (Proc.devRef .tc main_arg23) = m ((c : Thread nD τ).loc main_arg23) :=
  (StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg23 m ρ c)
theorem F9_arg23' (c : Dev nD) : V9 m ρ c main_arg23 = m ((c : Thread nD τ).loc main_arg23) := F9_arg23 m ρ c

theorem F10_arg23 (c : Dev nD) : W10 m ρ c (Proc.devRef .tc main_arg23) = m ((c : Thread nD τ).loc main_arg23) :=
  (W10_of_ne m ρ c main_arg23 (by decide)).trans (F9_arg23 m ρ c)
theorem F10_arg23' (c : Dev nD) : V10 m ρ c main_arg23 = m ((c : Thread nD τ).loc main_arg23) := F10_arg23 m ρ c

theorem F11_arg23 (c : Dev nD) : W11 m ρ c (Proc.devRef .tc main_arg23) = m ((c : Thread nD τ).loc main_arg23) :=
  (StableHlo.after_of_forall_not_mem (b := Proc.devRef .tc main_arg23) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg23 m ρ c)
theorem F11_arg23' (c : Dev nD) : V11 m ρ c main_arg23 = m ((c : Thread nD τ).loc main_arg23) := F11_arg23 m ρ c

theorem F12_arg23 (c : Dev nD) : W12 m ρ c (Proc.devRef .tc main_arg23) = m ((c : Thread nD τ).loc main_arg23) :=
  (W12_of_ne m ρ c main_arg23 (by decide)).trans (F11_arg23 m ρ c)
theorem F12_arg23' (c : Dev nD) : V12 m ρ c main_arg23 = m ((c : Thread nD τ).loc main_arg23) := F12_arg23 m ρ c

theorem F13_v215 (c : Dev nD) : W13 m ρ c (Proc.devRef .tc main_v215) = Cert.ReferenceIdeal.Stages.val_main_v350 (F := Ideal) (m ((c : Thread nD τ).loc main_arg23)) := by
  show StableHlo.after hostOps6 (W12 m ρ c) (Proc.devRef .tc main_v215) = _
  after_results_each
  simp only [F12_arg23 m ρ c] <;> rfl
theorem F13_v215' (c : Dev nD) : V13 m ρ c main_v215 = Cert.ReferenceIdeal.Stages.val_main_v350 (F := Ideal) (m ((c : Thread nD τ).loc main_arg23)) := F13_v215 m ρ c

theorem F9_arg24 (c : Dev nD) : W9 m ρ c (Proc.devRef .tc main_arg24) = m ((c : Thread nD τ).loc main_arg24) :=
  (StableHlo.after_of_forall_not_mem (b := Proc.devRef .tc main_arg24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg24 m ρ c)
theorem F9_arg24' (c : Dev nD) : V9 m ρ c main_arg24 = m ((c : Thread nD τ).loc main_arg24) := F9_arg24 m ρ c

theorem F10_arg24 (c : Dev nD) : W10 m ρ c (Proc.devRef .tc main_arg24) = m ((c : Thread nD τ).loc main_arg24) :=
  (W10_of_ne m ρ c main_arg24 (by decide)).trans (F9_arg24 m ρ c)
theorem F10_arg24' (c : Dev nD) : V10 m ρ c main_arg24 = m ((c : Thread nD τ).loc main_arg24) := F10_arg24 m ρ c

theorem F11_arg24 (c : Dev nD) : W11 m ρ c (Proc.devRef .tc main_arg24) = m ((c : Thread nD τ).loc main_arg24) :=
  (StableHlo.after_of_forall_not_mem (b := Proc.devRef .tc main_arg24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg24 m ρ c)
theorem F11_arg24' (c : Dev nD) : V11 m ρ c main_arg24 = m ((c : Thread nD τ).loc main_arg24) := F11_arg24 m ρ c

theorem F12_arg24 (c : Dev nD) : W12 m ρ c (Proc.devRef .tc main_arg24) = m ((c : Thread nD τ).loc main_arg24) :=
  (W12_of_ne m ρ c main_arg24 (by decide)).trans (F11_arg24 m ρ c)
theorem F12_arg24' (c : Dev nD) : V12 m ρ c main_arg24 = m ((c : Thread nD τ).loc main_arg24) := F12_arg24 m ρ c

theorem F13_v217 (c : Dev nD) : W13 m ρ c (Proc.devRef .tc main_v217) = Cert.ReferenceIdeal.Stages.val_main_v353 (F := Ideal) (m ((c : Thread nD τ).loc main_arg24)) := by
  show StableHlo.after hostOps6 (W12 m ρ c) (Proc.devRef .tc main_v217) = _
  after_results_each
  simp only [F12_arg24 m ρ c] <;> rfl
theorem F13_v217' (c : Dev nD) : V13 m ρ c main_v217 = Cert.ReferenceIdeal.Stages.val_main_v353 (F := Ideal) (m ((c : Thread nD τ).loc main_arg24)) := F13_v217 m ρ c

theorem F14_v218_0 (c : Dev nD) : W14 m ρ c (Proc.devRef .tc main_v218_0) = Cert.ReferenceIdeal.Stages.val_main_v337 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W14_arr m ρ c 11).trans ((Cert.KernelIdeal.Update6.finalH (V13 m ρ) c).trans ?_)
  rw [Cert.ReferenceIdeal.RefDense.ref_h3]
  simp only [F13_v155_0' m ρ c, F13_v155_1' m ρ c, F13_v201' m ρ c, F13_v203' m ρ c, F13_v205' m ρ c, F13_v207' m ρ c, F13_v209' m ρ c, F13_v211' m ρ c, F13_v213' m ρ c, F13_v215' m ρ c, F13_v217' m ρ c]
  try rw [F13_v155_0' m ρ c]
  try rw [F13_v155_1' m ρ c]
  try rw [F13_v201' m ρ c]
  rfl
theorem F14_v218_0' (c : Dev nD) : V14 m ρ c main_v218_0 = Cert.ReferenceIdeal.Stages.val_main_v337 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := F14_v218_0 m ρ c

theorem F0_arg25 (c : Dev nD) : W0 m ρ c (Proc.devRef .tc main_arg25) = m ((c : Thread nD τ).loc main_arg25) := rfl

theorem F1_arg25 (c : Dev nD) : W1 m ρ c (Proc.devRef .tc main_arg25) = m ((c : Thread nD τ).loc main_arg25) :=
  (StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg25 m ρ c)
theorem F1_arg25' (c : Dev nD) : V1 m ρ c main_arg25 = m ((c : Thread nD τ).loc main_arg25) := F1_arg25 m ρ c

theorem F2_arg25 (c : Dev nD) : W2 m ρ c (Proc.devRef .tc main_arg25) = m ((c : Thread nD τ).loc main_arg25) :=
  (W2_of_ne m ρ c main_arg25 (by decide)).trans (F1_arg25 m ρ c)
theorem F2_arg25' (c : Dev nD) : V2 m ρ c main_arg25 = m ((c : Thread nD τ).loc main_arg25) := F2_arg25 m ρ c

theorem F3_arg25 (c : Dev nD) : W3 m ρ c (Proc.devRef .tc main_arg25) = m ((c : Thread nD τ).loc main_arg25) :=
  (StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg25 m ρ c)
theorem F3_arg25' (c : Dev nD) : V3 m ρ c main_arg25 = m ((c : Thread nD τ).loc main_arg25) := F3_arg25 m ρ c

theorem F4_arg25 (c : Dev nD) : W4 m ρ c (Proc.devRef .tc main_arg25) = m ((c : Thread nD τ).loc main_arg25) :=
  (W4_of_ne m ρ c main_arg25 (by decide)).trans (F3_arg25 m ρ c)
theorem F4_arg25' (c : Dev nD) : V4 m ρ c main_arg25 = m ((c : Thread nD τ).loc main_arg25) := F4_arg25 m ρ c

theorem F5_arg25 (c : Dev nD) : W5 m ρ c (Proc.devRef .tc main_arg25) = m ((c : Thread nD τ).loc main_arg25) :=
  (StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg25 m ρ c)
theorem F5_arg25' (c : Dev nD) : V5 m ρ c main_arg25 = m ((c : Thread nD τ).loc main_arg25) := F5_arg25 m ρ c

theorem F6_arg25 (c : Dev nD) : W6 m ρ c (Proc.devRef .tc main_arg25) = m ((c : Thread nD τ).loc main_arg25) :=
  (W6_of_ne m ρ c main_arg25 (by decide)).trans (F5_arg25 m ρ c)
theorem F6_arg25' (c : Dev nD) : V6 m ρ c main_arg25 = m ((c : Thread nD τ).loc main_arg25) := F6_arg25 m ρ c

theorem F7_arg25 (c : Dev nD) : W7 m ρ c (Proc.devRef .tc main_arg25) = m ((c : Thread nD τ).loc main_arg25) :=
  (StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg25 m ρ c)
theorem F7_arg25' (c : Dev nD) : V7 m ρ c main_arg25 = m ((c : Thread nD τ).loc main_arg25) := F7_arg25 m ρ c

theorem F8_arg25 (c : Dev nD) : W8 m ρ c (Proc.devRef .tc main_arg25) = m ((c : Thread nD τ).loc main_arg25) :=
  (W8_of_ne m ρ c main_arg25 (by decide)).trans (F7_arg25 m ρ c)
theorem F8_arg25' (c : Dev nD) : V8 m ρ c main_arg25 = m ((c : Thread nD τ).loc main_arg25) := F8_arg25 m ρ c

theorem F9_arg25 (c : Dev nD) : W9 m ρ c (Proc.devRef .tc main_arg25) = m ((c : Thread nD τ).loc main_arg25) :=
  (StableHlo.after_of_forall_not_mem (b := Proc.devRef .tc main_arg25) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg25 m ρ c)
theorem F9_arg25' (c : Dev nD) : V9 m ρ c main_arg25 = m ((c : Thread nD τ).loc main_arg25) := F9_arg25 m ρ c

theorem F10_arg25 (c : Dev nD) : W10 m ρ c (Proc.devRef .tc main_arg25) = m ((c : Thread nD τ).loc main_arg25) :=
  (W10_of_ne m ρ c main_arg25 (by decide)).trans (F9_arg25 m ρ c)
theorem F10_arg25' (c : Dev nD) : V10 m ρ c main_arg25 = m ((c : Thread nD τ).loc main_arg25) := F10_arg25 m ρ c

theorem F11_arg25 (c : Dev nD) : W11 m ρ c (Proc.devRef .tc main_arg25) = m ((c : Thread nD τ).loc main_arg25) :=
  (StableHlo.after_of_forall_not_mem (b := Proc.devRef .tc main_arg25) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg25 m ρ c)
theorem F11_arg25' (c : Dev nD) : V11 m ρ c main_arg25 = m ((c : Thread nD τ).loc main_arg25) := F11_arg25 m ρ c

theorem F12_arg25 (c : Dev nD) : W12 m ρ c (Proc.devRef .tc main_arg25) = m ((c : Thread nD τ).loc main_arg25) :=
  (W12_of_ne m ρ c main_arg25 (by decide)).trans (F11_arg25 m ρ c)
theorem F12_arg25' (c : Dev nD) : V12 m ρ c main_arg25 = m ((c : Thread nD τ).loc main_arg25) := F12_arg25 m ρ c

theorem F13_arg25 (c : Dev nD) : W13 m ρ c (Proc.devRef .tc main_arg25) = m ((c : Thread nD τ).loc main_arg25) :=
  (StableHlo.after_of_forall_not_mem (b := Proc.devRef .tc main_arg25) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg25 m ρ c)
theorem F13_arg25' (c : Dev nD) : V13 m ρ c main_arg25 = m ((c : Thread nD τ).loc main_arg25) := F13_arg25 m ρ c

theorem F14_arg25 (c : Dev nD) : W14 m ρ c (Proc.devRef .tc main_arg25) = m ((c : Thread nD τ).loc main_arg25) :=
  (W14_of_ne m ρ c main_arg25 (by decide)).trans (F13_arg25 m ρ c)
theorem F14_arg25' (c : Dev nD) : V14 m ρ c main_arg25 = m ((c : Thread nD τ).loc main_arg25) := F14_arg25 m ρ c

theorem F0_arg26 (c : Dev nD) : W0 m ρ c (Proc.devRef .tc main_arg26) = m ((c : Thread nD τ).loc main_arg26) := rfl

theorem F1_arg26 (c : Dev nD) : W1 m ρ c (Proc.devRef .tc main_arg26) = m ((c : Thread nD τ).loc main_arg26) :=
  (StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg26 m ρ c)
theorem F1_arg26' (c : Dev nD) : V1 m ρ c main_arg26 = m ((c : Thread nD τ).loc main_arg26) := F1_arg26 m ρ c

theorem F2_arg26 (c : Dev nD) : W2 m ρ c (Proc.devRef .tc main_arg26) = m ((c : Thread nD τ).loc main_arg26) :=
  (W2_of_ne m ρ c main_arg26 (by decide)).trans (F1_arg26 m ρ c)
theorem F2_arg26' (c : Dev nD) : V2 m ρ c main_arg26 = m ((c : Thread nD τ).loc main_arg26) := F2_arg26 m ρ c

theorem F3_arg26 (c : Dev nD) : W3 m ρ c (Proc.devRef .tc main_arg26) = m ((c : Thread nD τ).loc main_arg26) :=
  (StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg26 m ρ c)
theorem F3_arg26' (c : Dev nD) : V3 m ρ c main_arg26 = m ((c : Thread nD τ).loc main_arg26) := F3_arg26 m ρ c

theorem F4_arg26 (c : Dev nD) : W4 m ρ c (Proc.devRef .tc main_arg26) = m ((c : Thread nD τ).loc main_arg26) :=
  (W4_of_ne m ρ c main_arg26 (by decide)).trans (F3_arg26 m ρ c)
theorem F4_arg26' (c : Dev nD) : V4 m ρ c main_arg26 = m ((c : Thread nD τ).loc main_arg26) := F4_arg26 m ρ c

theorem F5_arg26 (c : Dev nD) : W5 m ρ c (Proc.devRef .tc main_arg26) = m ((c : Thread nD τ).loc main_arg26) :=
  (StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg26 m ρ c)
theorem F5_arg26' (c : Dev nD) : V5 m ρ c main_arg26 = m ((c : Thread nD τ).loc main_arg26) := F5_arg26 m ρ c

theorem F6_arg26 (c : Dev nD) : W6 m ρ c (Proc.devRef .tc main_arg26) = m ((c : Thread nD τ).loc main_arg26) :=
  (W6_of_ne m ρ c main_arg26 (by decide)).trans (F5_arg26 m ρ c)
theorem F6_arg26' (c : Dev nD) : V6 m ρ c main_arg26 = m ((c : Thread nD τ).loc main_arg26) := F6_arg26 m ρ c

theorem F7_arg26 (c : Dev nD) : W7 m ρ c (Proc.devRef .tc main_arg26) = m ((c : Thread nD τ).loc main_arg26) :=
  (StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg26 m ρ c)
theorem F7_arg26' (c : Dev nD) : V7 m ρ c main_arg26 = m ((c : Thread nD τ).loc main_arg26) := F7_arg26 m ρ c

theorem F8_arg26 (c : Dev nD) : W8 m ρ c (Proc.devRef .tc main_arg26) = m ((c : Thread nD τ).loc main_arg26) :=
  (W8_of_ne m ρ c main_arg26 (by decide)).trans (F7_arg26 m ρ c)
theorem F8_arg26' (c : Dev nD) : V8 m ρ c main_arg26 = m ((c : Thread nD τ).loc main_arg26) := F8_arg26 m ρ c

theorem F9_arg26 (c : Dev nD) : W9 m ρ c (Proc.devRef .tc main_arg26) = m ((c : Thread nD τ).loc main_arg26) :=
  (StableHlo.after_of_forall_not_mem (b := Proc.devRef .tc main_arg26) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg26 m ρ c)
theorem F9_arg26' (c : Dev nD) : V9 m ρ c main_arg26 = m ((c : Thread nD τ).loc main_arg26) := F9_arg26 m ρ c

theorem F10_arg26 (c : Dev nD) : W10 m ρ c (Proc.devRef .tc main_arg26) = m ((c : Thread nD τ).loc main_arg26) :=
  (W10_of_ne m ρ c main_arg26 (by decide)).trans (F9_arg26 m ρ c)
theorem F10_arg26' (c : Dev nD) : V10 m ρ c main_arg26 = m ((c : Thread nD τ).loc main_arg26) := F10_arg26 m ρ c

theorem F11_arg26 (c : Dev nD) : W11 m ρ c (Proc.devRef .tc main_arg26) = m ((c : Thread nD τ).loc main_arg26) :=
  (StableHlo.after_of_forall_not_mem (b := Proc.devRef .tc main_arg26) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg26 m ρ c)
theorem F11_arg26' (c : Dev nD) : V11 m ρ c main_arg26 = m ((c : Thread nD τ).loc main_arg26) := F11_arg26 m ρ c

theorem F12_arg26 (c : Dev nD) : W12 m ρ c (Proc.devRef .tc main_arg26) = m ((c : Thread nD τ).loc main_arg26) :=
  (W12_of_ne m ρ c main_arg26 (by decide)).trans (F11_arg26 m ρ c)
theorem F12_arg26' (c : Dev nD) : V12 m ρ c main_arg26 = m ((c : Thread nD τ).loc main_arg26) := F12_arg26 m ρ c

theorem F13_arg26 (c : Dev nD) : W13 m ρ c (Proc.devRef .tc main_arg26) = m ((c : Thread nD τ).loc main_arg26) :=
  (StableHlo.after_of_forall_not_mem (b := Proc.devRef .tc main_arg26) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg26 m ρ c)
theorem F13_arg26' (c : Dev nD) : V13 m ρ c main_arg26 = m ((c : Thread nD τ).loc main_arg26) := F13_arg26 m ρ c

theorem F14_arg26 (c : Dev nD) : W14 m ρ c (Proc.devRef .tc main_arg26) = m ((c : Thread nD τ).loc main_arg26) :=
  (W14_of_ne m ρ c main_arg26 (by decide)).trans (F13_arg26 m ρ c)
theorem F14_arg26' (c : Dev nD) : V14 m ρ c main_arg26 = m ((c : Thread nD τ).loc main_arg26) := F14_arg26 m ρ c

theorem F0_arg27 (c : Dev nD) : W0 m ρ c (Proc.devRef .tc main_arg27) = m ((c : Thread nD τ).loc main_arg27) := rfl

theorem F1_arg27 (c : Dev nD) : W1 m ρ c (Proc.devRef .tc main_arg27) = m ((c : Thread nD τ).loc main_arg27) :=
  (StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg27 m ρ c)
theorem F1_arg27' (c : Dev nD) : V1 m ρ c main_arg27 = m ((c : Thread nD τ).loc main_arg27) := F1_arg27 m ρ c

theorem F2_arg27 (c : Dev nD) : W2 m ρ c (Proc.devRef .tc main_arg27) = m ((c : Thread nD τ).loc main_arg27) :=
  (W2_of_ne m ρ c main_arg27 (by decide)).trans (F1_arg27 m ρ c)
theorem F2_arg27' (c : Dev nD) : V2 m ρ c main_arg27 = m ((c : Thread nD τ).loc main_arg27) := F2_arg27 m ρ c

theorem F3_arg27 (c : Dev nD) : W3 m ρ c (Proc.devRef .tc main_arg27) = m ((c : Thread nD τ).loc main_arg27) :=
  (StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg27 m ρ c)
theorem F3_arg27' (c : Dev nD) : V3 m ρ c main_arg27 = m ((c : Thread nD τ).loc main_arg27) := F3_arg27 m ρ c

theorem F4_arg27 (c : Dev nD) : W4 m ρ c (Proc.devRef .tc main_arg27) = m ((c : Thread nD τ).loc main_arg27) :=
  (W4_of_ne m ρ c main_arg27 (by decide)).trans (F3_arg27 m ρ c)
theorem F4_arg27' (c : Dev nD) : V4 m ρ c main_arg27 = m ((c : Thread nD τ).loc main_arg27) := F4_arg27 m ρ c

theorem F5_arg27 (c : Dev nD) : W5 m ρ c (Proc.devRef .tc main_arg27) = m ((c : Thread nD τ).loc main_arg27) :=
  (StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg27 m ρ c)
theorem F5_arg27' (c : Dev nD) : V5 m ρ c main_arg27 = m ((c : Thread nD τ).loc main_arg27) := F5_arg27 m ρ c

theorem F6_arg27 (c : Dev nD) : W6 m ρ c (Proc.devRef .tc main_arg27) = m ((c : Thread nD τ).loc main_arg27) :=
  (W6_of_ne m ρ c main_arg27 (by decide)).trans (F5_arg27 m ρ c)
theorem F6_arg27' (c : Dev nD) : V6 m ρ c main_arg27 = m ((c : Thread nD τ).loc main_arg27) := F6_arg27 m ρ c

theorem F7_arg27 (c : Dev nD) : W7 m ρ c (Proc.devRef .tc main_arg27) = m ((c : Thread nD τ).loc main_arg27) :=
  (StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg27 m ρ c)
theorem F7_arg27' (c : Dev nD) : V7 m ρ c main_arg27 = m ((c : Thread nD τ).loc main_arg27) := F7_arg27 m ρ c

theorem F8_arg27 (c : Dev nD) : W8 m ρ c (Proc.devRef .tc main_arg27) = m ((c : Thread nD τ).loc main_arg27) :=
  (W8_of_ne m ρ c main_arg27 (by decide)).trans (F7_arg27 m ρ c)
theorem F8_arg27' (c : Dev nD) : V8 m ρ c main_arg27 = m ((c : Thread nD τ).loc main_arg27) := F8_arg27 m ρ c

theorem F9_arg27 (c : Dev nD) : W9 m ρ c (Proc.devRef .tc main_arg27) = m ((c : Thread nD τ).loc main_arg27) :=
  (StableHlo.after_of_forall_not_mem (b := Proc.devRef .tc main_arg27) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg27 m ρ c)
theorem F9_arg27' (c : Dev nD) : V9 m ρ c main_arg27 = m ((c : Thread nD τ).loc main_arg27) := F9_arg27 m ρ c

theorem F10_arg27 (c : Dev nD) : W10 m ρ c (Proc.devRef .tc main_arg27) = m ((c : Thread nD τ).loc main_arg27) :=
  (W10_of_ne m ρ c main_arg27 (by decide)).trans (F9_arg27 m ρ c)
theorem F10_arg27' (c : Dev nD) : V10 m ρ c main_arg27 = m ((c : Thread nD τ).loc main_arg27) := F10_arg27 m ρ c

theorem F11_arg27 (c : Dev nD) : W11 m ρ c (Proc.devRef .tc main_arg27) = m ((c : Thread nD τ).loc main_arg27) :=
  (StableHlo.after_of_forall_not_mem (b := Proc.devRef .tc main_arg27) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg27 m ρ c)
theorem F11_arg27' (c : Dev nD) : V11 m ρ c main_arg27 = m ((c : Thread nD τ).loc main_arg27) := F11_arg27 m ρ c

theorem F12_arg27 (c : Dev nD) : W12 m ρ c (Proc.devRef .tc main_arg27) = m ((c : Thread nD τ).loc main_arg27) :=
  (W12_of_ne m ρ c main_arg27 (by decide)).trans (F11_arg27 m ρ c)
theorem F12_arg27' (c : Dev nD) : V12 m ρ c main_arg27 = m ((c : Thread nD τ).loc main_arg27) := F12_arg27 m ρ c

theorem F13_arg27 (c : Dev nD) : W13 m ρ c (Proc.devRef .tc main_arg27) = m ((c : Thread nD τ).loc main_arg27) :=
  (StableHlo.after_of_forall_not_mem (b := Proc.devRef .tc main_arg27) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg27 m ρ c)
theorem F13_arg27' (c : Dev nD) : V13 m ρ c main_arg27 = m ((c : Thread nD τ).loc main_arg27) := F13_arg27 m ρ c

theorem F14_arg27 (c : Dev nD) : W14 m ρ c (Proc.devRef .tc main_arg27) = m ((c : Thread nD τ).loc main_arg27) :=
  (W14_of_ne m ρ c main_arg27 (by decide)).trans (F13_arg27 m ρ c)
theorem F14_arg27' (c : Dev nD) : V14 m ρ c main_arg27 = m ((c : Thread nD τ).loc main_arg27) := F14_arg27 m ρ c

theorem F0_arg28 (c : Dev nD) : W0 m ρ c (Proc.devRef .tc main_arg28) = m ((c : Thread nD τ).loc main_arg28) := rfl

theorem F1_arg28 (c : Dev nD) : W1 m ρ c (Proc.devRef .tc main_arg28) = m ((c : Thread nD τ).loc main_arg28) :=
  (StableHlo.after_of_forall_not_mem (b := Proc.devRef .tc main_arg28) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg28 m ρ c)
theorem F1_arg28' (c : Dev nD) : V1 m ρ c main_arg28 = m ((c : Thread nD τ).loc main_arg28) := F1_arg28 m ρ c

theorem F2_arg28 (c : Dev nD) : W2 m ρ c (Proc.devRef .tc main_arg28) = m ((c : Thread nD τ).loc main_arg28) :=
  (W2_of_ne m ρ c main_arg28 (by decide)).trans (F1_arg28 m ρ c)
theorem F2_arg28' (c : Dev nD) : V2 m ρ c main_arg28 = m ((c : Thread nD τ).loc main_arg28) := F2_arg28 m ρ c

theorem F3_arg28 (c : Dev nD) : W3 m ρ c (Proc.devRef .tc main_arg28) = m ((c : Thread nD τ).loc main_arg28) :=
  (StableHlo.after_of_forall_not_mem (b := Proc.devRef .tc main_arg28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg28 m ρ c)
theorem F3_arg28' (c : Dev nD) : V3 m ρ c main_arg28 = m ((c : Thread nD τ).loc main_arg28) := F3_arg28 m ρ c

theorem F4_arg28 (c : Dev nD) : W4 m ρ c (Proc.devRef .tc main_arg28) = m ((c : Thread nD τ).loc main_arg28) :=
  (W4_of_ne m ρ c main_arg28 (by decide)).trans (F3_arg28 m ρ c)
theorem F4_arg28' (c : Dev nD) : V4 m ρ c main_arg28 = m ((c : Thread nD τ).loc main_arg28) := F4_arg28 m ρ c

theorem F5_arg28 (c : Dev nD) : W5 m ρ c (Proc.devRef .tc main_arg28) = m ((c : Thread nD τ).loc main_arg28) :=
  (StableHlo.after_of_forall_not_mem (b := Proc.devRef .tc main_arg28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg28 m ρ c)
theorem F5_arg28' (c : Dev nD) : V5 m ρ c main_arg28 = m ((c : Thread nD τ).loc main_arg28) := F5_arg28 m ρ c

theorem F6_arg28 (c : Dev nD) : W6 m ρ c (Proc.devRef .tc main_arg28) = m ((c : Thread nD τ).loc main_arg28) :=
  (W6_of_ne m ρ c main_arg28 (by decide)).trans (F5_arg28 m ρ c)
theorem F6_arg28' (c : Dev nD) : V6 m ρ c main_arg28 = m ((c : Thread nD τ).loc main_arg28) := F6_arg28 m ρ c

theorem F7_arg28 (c : Dev nD) : W7 m ρ c (Proc.devRef .tc main_arg28) = m ((c : Thread nD τ).loc main_arg28) :=
  (StableHlo.after_of_forall_not_mem (b := Proc.devRef .tc main_arg28) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg28 m ρ c)
theorem F7_arg28' (c : Dev nD) : V7 m ρ c main_arg28 = m ((c : Thread nD τ).loc main_arg28) := F7_arg28 m ρ c

theorem F8_arg28 (c : Dev nD) : W8 m ρ c (Proc.devRef .tc main_arg28) = m ((c : Thread nD τ).loc main_arg28) :=
  (W8_of_ne m ρ c main_arg28 (by decide)).trans (F7_arg28 m ρ c)
theorem F8_arg28' (c : Dev nD) : V8 m ρ c main_arg28 = m ((c : Thread nD τ).loc main_arg28) := F8_arg28 m ρ c

theorem F9_arg28 (c : Dev nD) : W9 m ρ c (Proc.devRef .tc main_arg28) = m ((c : Thread nD τ).loc main_arg28) :=
  (StableHlo.after_of_forall_not_mem (b := Proc.devRef .tc main_arg28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg28 m ρ c)
theorem F9_arg28' (c : Dev nD) : V9 m ρ c main_arg28 = m ((c : Thread nD τ).loc main_arg28) := F9_arg28 m ρ c

theorem F10_arg28 (c : Dev nD) : W10 m ρ c (Proc.devRef .tc main_arg28) = m ((c : Thread nD τ).loc main_arg28) :=
  (W10_of_ne m ρ c main_arg28 (by decide)).trans (F9_arg28 m ρ c)
theorem F10_arg28' (c : Dev nD) : V10 m ρ c main_arg28 = m ((c : Thread nD τ).loc main_arg28) := F10_arg28 m ρ c

theorem F11_arg28 (c : Dev nD) : W11 m ρ c (Proc.devRef .tc main_arg28) = m ((c : Thread nD τ).loc main_arg28) :=
  (StableHlo.after_of_forall_not_mem (b := Proc.devRef .tc main_arg28) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg28 m ρ c)
theorem F11_arg28' (c : Dev nD) : V11 m ρ c main_arg28 = m ((c : Thread nD τ).loc main_arg28) := F11_arg28 m ρ c

theorem F12_arg28 (c : Dev nD) : W12 m ρ c (Proc.devRef .tc main_arg28) = m ((c : Thread nD τ).loc main_arg28) :=
  (W12_of_ne m ρ c main_arg28 (by decide)).trans (F11_arg28 m ρ c)
theorem F12_arg28' (c : Dev nD) : V12 m ρ c main_arg28 = m ((c : Thread nD τ).loc main_arg28) := F12_arg28 m ρ c

theorem F13_arg28 (c : Dev nD) : W13 m ρ c (Proc.devRef .tc main_arg28) = m ((c : Thread nD τ).loc main_arg28) :=
  (StableHlo.after_of_forall_not_mem (b := Proc.devRef .tc main_arg28) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg28 m ρ c)
theorem F13_arg28' (c : Dev nD) : V13 m ρ c main_arg28 = m ((c : Thread nD τ).loc main_arg28) := F13_arg28 m ρ c

theorem F14_arg28 (c : Dev nD) : W14 m ρ c (Proc.devRef .tc main_arg28) = m ((c : Thread nD τ).loc main_arg28) :=
  (W14_of_ne m ρ c main_arg28 (by decide)).trans (F13_arg28 m ρ c)
theorem F14_arg28' (c : Dev nD) : V14 m ρ c main_arg28 = m ((c : Thread nD τ).loc main_arg28) := F14_arg28 m ρ c

theorem F15_v219 (c : Dev nD) : W15 m ρ c (Proc.devRef .tc main_v219) = Cert.ReferenceIdeal.Stages.val_main_v365 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  refine (W15_arr m ρ c 5).trans ((Cert.KernelIdeal.Decoder.final (V14 m ρ) c).trans ?_)
  rw [Cert.ReferenceIdeal.RefDense.ref_dec]
  simp only [F14_v218_0' m ρ c, F14_arg25' m ρ c, F14_arg26' m ρ c, F14_arg27' m ρ c, F14_arg28' m ρ c] <;> rfl
theorem F15_v219' (c : Dev nD) : V15 m ρ c main_v219 = Cert.ReferenceIdeal.Stages.val_main_v365 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := F15_v219 m ρ c

theorem F0_arg4 (c : Dev nD) : W0 m ρ c (Proc.devRef .tc main_arg4) = m ((c : Thread nD τ).loc main_arg4) := rfl

theorem F1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg4 m ρ c)
theorem F1_arg4' (c : Dev nD) : V1 m ρ c main_arg4 = m ((c : Thread nD τ).loc main_arg4) := F1_arg4 m ρ c

theorem F2_arg4 (c : Dev nD) : W2 m ρ c (Proc.devRef .tc main_arg4) = m ((c : Thread nD τ).loc main_arg4) :=
  (W2_of_ne m ρ c main_arg4 (by decide)).trans (F1_arg4 m ρ c)
theorem F2_arg4' (c : Dev nD) : V2 m ρ c main_arg4 = m ((c : Thread nD τ).loc main_arg4) := F2_arg4 m ρ c

theorem F3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg4 m ρ c)
theorem F3_arg4' (c : Dev nD) : V3 m ρ c main_arg4 = m ((c : Thread nD τ).loc main_arg4) := F3_arg4 m ρ c

theorem F4_arg4 (c : Dev nD) : W4 m ρ c (Proc.devRef .tc main_arg4) = m ((c : Thread nD τ).loc main_arg4) :=
  (W4_of_ne m ρ c main_arg4 (by decide)).trans (F3_arg4 m ρ c)
theorem F4_arg4' (c : Dev nD) : V4 m ρ c main_arg4 = m ((c : Thread nD τ).loc main_arg4) := F4_arg4 m ρ c

theorem F5_arg4 (c : Dev nD) : W5 m ρ c (Proc.devRef .tc main_arg4) = m ((c : Thread nD τ).loc main_arg4) :=
  (StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg4 m ρ c)
theorem F5_arg4' (c : Dev nD) : V5 m ρ c main_arg4 = m ((c : Thread nD τ).loc main_arg4) := F5_arg4 m ρ c

theorem F6_arg4 (c : Dev nD) : W6 m ρ c (Proc.devRef .tc main_arg4) = m ((c : Thread nD τ).loc main_arg4) :=
  (W6_of_ne m ρ c main_arg4 (by decide)).trans (F5_arg4 m ρ c)
theorem F6_arg4' (c : Dev nD) : V6 m ρ c main_arg4 = m ((c : Thread nD τ).loc main_arg4) := F6_arg4 m ρ c

theorem F7_arg4 (c : Dev nD) : W7 m ρ c (Proc.devRef .tc main_arg4) = m ((c : Thread nD τ).loc main_arg4) :=
  (StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg4 m ρ c)
theorem F7_arg4' (c : Dev nD) : V7 m ρ c main_arg4 = m ((c : Thread nD τ).loc main_arg4) := F7_arg4 m ρ c

theorem F8_arg4 (c : Dev nD) : W8 m ρ c (Proc.devRef .tc main_arg4) = m ((c : Thread nD τ).loc main_arg4) :=
  (W8_of_ne m ρ c main_arg4 (by decide)).trans (F7_arg4 m ρ c)
theorem F8_arg4' (c : Dev nD) : V8 m ρ c main_arg4 = m ((c : Thread nD τ).loc main_arg4) := F8_arg4 m ρ c

theorem F9_arg4 (c : Dev nD) : W9 m ρ c (Proc.devRef .tc main_arg4) = m ((c : Thread nD τ).loc main_arg4) :=
  (StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg4 m ρ c)
theorem F9_arg4' (c : Dev nD) : V9 m ρ c main_arg4 = m ((c : Thread nD τ).loc main_arg4) := F9_arg4 m ρ c

theorem F10_arg4 (c : Dev nD) : W10 m ρ c (Proc.devRef .tc main_arg4) = m ((c : Thread nD τ).loc main_arg4) :=
  (W10_of_ne m ρ c main_arg4 (by decide)).trans (F9_arg4 m ρ c)
theorem F10_arg4' (c : Dev nD) : V10 m ρ c main_arg4 = m ((c : Thread nD τ).loc main_arg4) := F10_arg4 m ρ c

theorem F11_arg4 (c : Dev nD) : W11 m ρ c (Proc.devRef .tc main_arg4) = m ((c : Thread nD τ).loc main_arg4) :=
  (StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg4 m ρ c)
theorem F11_arg4' (c : Dev nD) : V11 m ρ c main_arg4 = m ((c : Thread nD τ).loc main_arg4) := F11_arg4 m ρ c

theorem F12_arg4 (c : Dev nD) : W12 m ρ c (Proc.devRef .tc main_arg4) = m ((c : Thread nD τ).loc main_arg4) :=
  (W12_of_ne m ρ c main_arg4 (by decide)).trans (F11_arg4 m ρ c)
theorem F12_arg4' (c : Dev nD) : V12 m ρ c main_arg4 = m ((c : Thread nD τ).loc main_arg4) := F12_arg4 m ρ c

theorem F13_arg4 (c : Dev nD) : W13 m ρ c (Proc.devRef .tc main_arg4) = m ((c : Thread nD τ).loc main_arg4) :=
  (StableHlo.after_of_forall_not_mem (b := Proc.devRef .tc main_arg4) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg4 m ρ c)
theorem F13_arg4' (c : Dev nD) : V13 m ρ c main_arg4 = m ((c : Thread nD τ).loc main_arg4) := F13_arg4 m ρ c

theorem F14_arg4 (c : Dev nD) : W14 m ρ c (Proc.devRef .tc main_arg4) = m ((c : Thread nD τ).loc main_arg4) :=
  (W14_of_ne m ρ c main_arg4 (by decide)).trans (F13_arg4 m ρ c)
theorem F14_arg4' (c : Dev nD) : V14 m ρ c main_arg4 = m ((c : Thread nD τ).loc main_arg4) := F14_arg4 m ρ c

theorem F15_arg4 (c : Dev nD) : W15 m ρ c (Proc.devRef .tc main_arg4) = m ((c : Thread nD τ).loc main_arg4) :=
  (W15_of_ne m ρ c main_arg4 (by decide)).trans (F14_arg4 m ρ c)
theorem F15_arg4' (c : Dev nD) : V15 m ρ c main_arg4 = m ((c : Thread nD τ).loc main_arg4) := F15_arg4 m ρ c

theorem F16_v222 (c : Dev nD) : W16 m ρ c (Proc.devRef .tc main_v222) = Cert.ReferenceIdeal.Stages.val_main_v368 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  show StableHlo.after hostOps8 (W15 m ρ c) (Proc.devRef .tc main_v222) = _
  after_results_each
  simp only [F15_v219 m ρ c, F15_arg4 m ρ c] <;> rfl
theorem F16_v222' (c : Dev nD) : V16 m ρ c main_v222 = Cert.ReferenceIdeal.Stages.val_main_v368 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := F16_v222 m ρ c

theorem F0_arg29 (c : Dev nD) : W0 m ρ c (Proc.devRef .tc main_arg29) = m ((c : Thread nD τ).loc main_arg29) := rfl

theorem F1_arg29 (c : Dev nD) : W1 m ρ c (Proc.devRef .tc main_arg29) = m ((c : Thread nD τ).loc main_arg29) :=
  (StableHlo.after_of_forall_not_mem (b := Proc.devRef .tc main_arg29) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg29 m ρ c)
theorem F1_arg29' (c : Dev nD) : V1 m ρ c main_arg29 = m ((c : Thread nD τ).loc main_arg29) := F1_arg29 m ρ c

theorem F2_arg29 (c : Dev nD) : W2 m ρ c (Proc.devRef .tc main_arg29) = m ((c : Thread nD τ).loc main_arg29) :=
  (W2_of_ne m ρ c main_arg29 (by decide)).trans (F1_arg29 m ρ c)
theorem F2_arg29' (c : Dev nD) : V2 m ρ c main_arg29 = m ((c : Thread nD τ).loc main_arg29) := F2_arg29 m ρ c

theorem F3_arg29 (c : Dev nD) : W3 m ρ c (Proc.devRef .tc main_arg29) = m ((c : Thread nD τ).loc main_arg29) :=
  (StableHlo.after_of_forall_not_mem (b := Proc.devRef .tc main_arg29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg29 m ρ c)
theorem F3_arg29' (c : Dev nD) : V3 m ρ c main_arg29 = m ((c : Thread nD τ).loc main_arg29) := F3_arg29 m ρ c

theorem F4_arg29 (c : Dev nD) : W4 m ρ c (Proc.devRef .tc main_arg29) = m ((c : Thread nD τ).loc main_arg29) :=
  (W4_of_ne m ρ c main_arg29 (by decide)).trans (F3_arg29 m ρ c)
theorem F4_arg29' (c : Dev nD) : V4 m ρ c main_arg29 = m ((c : Thread nD τ).loc main_arg29) := F4_arg29 m ρ c

theorem F5_arg29 (c : Dev nD) : W5 m ρ c (Proc.devRef .tc main_arg29) = m ((c : Thread nD τ).loc main_arg29) :=
  (StableHlo.after_of_forall_not_mem (b := Proc.devRef .tc main_arg29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg29 m ρ c)
theorem F5_arg29' (c : Dev nD) : V5 m ρ c main_arg29 = m ((c : Thread nD τ).loc main_arg29) := F5_arg29 m ρ c

theorem F6_arg29 (c : Dev nD) : W6 m ρ c (Proc.devRef .tc main_arg29) = m ((c : Thread nD τ).loc main_arg29) :=
  (W6_of_ne m ρ c main_arg29 (by decide)).trans (F5_arg29 m ρ c)
theorem F6_arg29' (c : Dev nD) : V6 m ρ c main_arg29 = m ((c : Thread nD τ).loc main_arg29) := F6_arg29 m ρ c

theorem F7_arg29 (c : Dev nD) : W7 m ρ c (Proc.devRef .tc main_arg29) = m ((c : Thread nD τ).loc main_arg29) :=
  (StableHlo.after_of_forall_not_mem (b := Proc.devRef .tc main_arg29) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg29 m ρ c)
theorem F7_arg29' (c : Dev nD) : V7 m ρ c main_arg29 = m ((c : Thread nD τ).loc main_arg29) := F7_arg29 m ρ c

theorem F8_arg29 (c : Dev nD) : W8 m ρ c (Proc.devRef .tc main_arg29) = m ((c : Thread nD τ).loc main_arg29) :=
  (W8_of_ne m ρ c main_arg29 (by decide)).trans (F7_arg29 m ρ c)
theorem F8_arg29' (c : Dev nD) : V8 m ρ c main_arg29 = m ((c : Thread nD τ).loc main_arg29) := F8_arg29 m ρ c

theorem F9_arg29 (c : Dev nD) : W9 m ρ c (Proc.devRef .tc main_arg29) = m ((c : Thread nD τ).loc main_arg29) :=
  (StableHlo.after_of_forall_not_mem (b := Proc.devRef .tc main_arg29) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg29 m ρ c)
theorem F9_arg29' (c : Dev nD) : V9 m ρ c main_arg29 = m ((c : Thread nD τ).loc main_arg29) := F9_arg29 m ρ c

theorem F10_arg29 (c : Dev nD) : W10 m ρ c (Proc.devRef .tc main_arg29) = m ((c : Thread nD τ).loc main_arg29) :=
  (W10_of_ne m ρ c main_arg29 (by decide)).trans (F9_arg29 m ρ c)
theorem F10_arg29' (c : Dev nD) : V10 m ρ c main_arg29 = m ((c : Thread nD τ).loc main_arg29) := F10_arg29 m ρ c

theorem F11_arg29 (c : Dev nD) : W11 m ρ c (Proc.devRef .tc main_arg29) = m ((c : Thread nD τ).loc main_arg29) :=
  (StableHlo.after_of_forall_not_mem (b := Proc.devRef .tc main_arg29) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg29 m ρ c)
theorem F11_arg29' (c : Dev nD) : V11 m ρ c main_arg29 = m ((c : Thread nD τ).loc main_arg29) := F11_arg29 m ρ c

theorem F12_arg29 (c : Dev nD) : W12 m ρ c (Proc.devRef .tc main_arg29) = m ((c : Thread nD τ).loc main_arg29) :=
  (W12_of_ne m ρ c main_arg29 (by decide)).trans (F11_arg29 m ρ c)
theorem F12_arg29' (c : Dev nD) : V12 m ρ c main_arg29 = m ((c : Thread nD τ).loc main_arg29) := F12_arg29 m ρ c

theorem F13_arg29 (c : Dev nD) : W13 m ρ c (Proc.devRef .tc main_arg29) = m ((c : Thread nD τ).loc main_arg29) :=
  (StableHlo.after_of_forall_not_mem (b := Proc.devRef .tc main_arg29) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg29 m ρ c)
theorem F13_arg29' (c : Dev nD) : V13 m ρ c main_arg29 = m ((c : Thread nD τ).loc main_arg29) := F13_arg29 m ρ c

theorem F14_arg29 (c : Dev nD) : W14 m ρ c (Proc.devRef .tc main_arg29) = m ((c : Thread nD τ).loc main_arg29) :=
  (W14_of_ne m ρ c main_arg29 (by decide)).trans (F13_arg29 m ρ c)
theorem F14_arg29' (c : Dev nD) : V14 m ρ c main_arg29 = m ((c : Thread nD τ).loc main_arg29) := F14_arg29 m ρ c

theorem F15_arg29 (c : Dev nD) : W15 m ρ c (Proc.devRef .tc main_arg29) = m ((c : Thread nD τ).loc main_arg29) :=
  (W15_of_ne m ρ c main_arg29 (by decide)).trans (F14_arg29 m ρ c)
theorem F15_arg29' (c : Dev nD) : V15 m ρ c main_arg29 = m ((c : Thread nD τ).loc main_arg29) := F15_arg29 m ρ c

theorem F16_arg29 (c : Dev nD) : W16 m ρ c (Proc.devRef .tc main_arg29) = m ((c : Thread nD τ).loc main_arg29) :=
  (StableHlo.after_of_forall_not_mem (b := Proc.devRef .tc main_arg29) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F15_arg29 m ρ c)
theorem F16_arg29' (c : Dev nD) : V16 m ρ c main_arg29 = m ((c : Thread nD τ).loc main_arg29) := F16_arg29 m ρ c

theorem F0_arg30 (c : Dev nD) : W0 m ρ c (Proc.devRef .tc main_arg30) = m ((c : Thread nD τ).loc main_arg30) := rfl

theorem F1_arg30 (c : Dev nD) : W1 m ρ c (Proc.devRef .tc main_arg30) = m ((c : Thread nD τ).loc main_arg30) :=
  (StableHlo.after_of_forall_not_mem (b := Proc.devRef .tc main_arg30) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg30 m ρ c)
theorem F1_arg30' (c : Dev nD) : V1 m ρ c main_arg30 = m ((c : Thread nD τ).loc main_arg30) := F1_arg30 m ρ c

theorem F2_arg30 (c : Dev nD) : W2 m ρ c (Proc.devRef .tc main_arg30) = m ((c : Thread nD τ).loc main_arg30) :=
  (W2_of_ne m ρ c main_arg30 (by decide)).trans (F1_arg30 m ρ c)
theorem F2_arg30' (c : Dev nD) : V2 m ρ c main_arg30 = m ((c : Thread nD τ).loc main_arg30) := F2_arg30 m ρ c

theorem F3_arg30 (c : Dev nD) : W3 m ρ c (Proc.devRef .tc main_arg30) = m ((c : Thread nD τ).loc main_arg30) :=
  (StableHlo.after_of_forall_not_mem (b := Proc.devRef .tc main_arg30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg30 m ρ c)
theorem F3_arg30' (c : Dev nD) : V3 m ρ c main_arg30 = m ((c : Thread nD τ).loc main_arg30) := F3_arg30 m ρ c

theorem F4_arg30 (c : Dev nD) : W4 m ρ c (Proc.devRef .tc main_arg30) = m ((c : Thread nD τ).loc main_arg30) :=
  (W4_of_ne m ρ c main_arg30 (by decide)).trans (F3_arg30 m ρ c)
theorem F4_arg30' (c : Dev nD) : V4 m ρ c main_arg30 = m ((c : Thread nD τ).loc main_arg30) := F4_arg30 m ρ c

theorem F5_arg30 (c : Dev nD) : W5 m ρ c (Proc.devRef .tc main_arg30) = m ((c : Thread nD τ).loc main_arg30) :=
  (StableHlo.after_of_forall_not_mem (b := Proc.devRef .tc main_arg30) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg30 m ρ c)
theorem F5_arg30' (c : Dev nD) : V5 m ρ c main_arg30 = m ((c : Thread nD τ).loc main_arg30) := F5_arg30 m ρ c

theorem F6_arg30 (c : Dev nD) : W6 m ρ c (Proc.devRef .tc main_arg30) = m ((c : Thread nD τ).loc main_arg30) :=
  (W6_of_ne m ρ c main_arg30 (by decide)).trans (F5_arg30 m ρ c)
theorem F6_arg30' (c : Dev nD) : V6 m ρ c main_arg30 = m ((c : Thread nD τ).loc main_arg30) := F6_arg30 m ρ c

theorem F7_arg30 (c : Dev nD) : W7 m ρ c (Proc.devRef .tc main_arg30) = m ((c : Thread nD τ).loc main_arg30) :=
  (StableHlo.after_of_forall_not_mem (b := Proc.devRef .tc main_arg30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg30 m ρ c)
theorem F7_arg30' (c : Dev nD) : V7 m ρ c main_arg30 = m ((c : Thread nD τ).loc main_arg30) := F7_arg30 m ρ c

theorem F8_arg30 (c : Dev nD) : W8 m ρ c (Proc.devRef .tc main_arg30) = m ((c : Thread nD τ).loc main_arg30) :=
  (W8_of_ne m ρ c main_arg30 (by decide)).trans (F7_arg30 m ρ c)
theorem F8_arg30' (c : Dev nD) : V8 m ρ c main_arg30 = m ((c : Thread nD τ).loc main_arg30) := F8_arg30 m ρ c

theorem F9_arg30 (c : Dev nD) : W9 m ρ c (Proc.devRef .tc main_arg30) = m ((c : Thread nD τ).loc main_arg30) :=
  (StableHlo.after_of_forall_not_mem (b := Proc.devRef .tc main_arg30) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg30 m ρ c)
theorem F9_arg30' (c : Dev nD) : V9 m ρ c main_arg30 = m ((c : Thread nD τ).loc main_arg30) := F9_arg30 m ρ c

theorem F10_arg30 (c : Dev nD) : W10 m ρ c (Proc.devRef .tc main_arg30) = m ((c : Thread nD τ).loc main_arg30) :=
  (W10_of_ne m ρ c main_arg30 (by decide)).trans (F9_arg30 m ρ c)
theorem F10_arg30' (c : Dev nD) : V10 m ρ c main_arg30 = m ((c : Thread nD τ).loc main_arg30) := F10_arg30 m ρ c

theorem F11_arg30 (c : Dev nD) : W11 m ρ c (Proc.devRef .tc main_arg30) = m ((c : Thread nD τ).loc main_arg30) :=
  (StableHlo.after_of_forall_not_mem (b := Proc.devRef .tc main_arg30) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg30 m ρ c)
theorem F11_arg30' (c : Dev nD) : V11 m ρ c main_arg30 = m ((c : Thread nD τ).loc main_arg30) := F11_arg30 m ρ c

theorem F12_arg30 (c : Dev nD) : W12 m ρ c (Proc.devRef .tc main_arg30) = m ((c : Thread nD τ).loc main_arg30) :=
  (W12_of_ne m ρ c main_arg30 (by decide)).trans (F11_arg30 m ρ c)
theorem F12_arg30' (c : Dev nD) : V12 m ρ c main_arg30 = m ((c : Thread nD τ).loc main_arg30) := F12_arg30 m ρ c

theorem F13_arg30 (c : Dev nD) : W13 m ρ c (Proc.devRef .tc main_arg30) = m ((c : Thread nD τ).loc main_arg30) :=
  (StableHlo.after_of_forall_not_mem (b := Proc.devRef .tc main_arg30) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg30 m ρ c)
theorem F13_arg30' (c : Dev nD) : V13 m ρ c main_arg30 = m ((c : Thread nD τ).loc main_arg30) := F13_arg30 m ρ c

theorem F14_arg30 (c : Dev nD) : W14 m ρ c (Proc.devRef .tc main_arg30) = m ((c : Thread nD τ).loc main_arg30) :=
  (W14_of_ne m ρ c main_arg30 (by decide)).trans (F13_arg30 m ρ c)
theorem F14_arg30' (c : Dev nD) : V14 m ρ c main_arg30 = m ((c : Thread nD τ).loc main_arg30) := F14_arg30 m ρ c

theorem F15_arg30 (c : Dev nD) : W15 m ρ c (Proc.devRef .tc main_arg30) = m ((c : Thread nD τ).loc main_arg30) :=
  (W15_of_ne m ρ c main_arg30 (by decide)).trans (F14_arg30 m ρ c)
theorem F15_arg30' (c : Dev nD) : V15 m ρ c main_arg30 = m ((c : Thread nD τ).loc main_arg30) := F15_arg30 m ρ c

theorem F16_arg30 (c : Dev nD) : W16 m ρ c (Proc.devRef .tc main_arg30) = m ((c : Thread nD τ).loc main_arg30) :=
  (StableHlo.after_of_forall_not_mem (b := Proc.devRef .tc main_arg30) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F15_arg30 m ρ c)
theorem F16_arg30' (c : Dev nD) : V16 m ρ c main_arg30 = m ((c : Thread nD τ).loc main_arg30) := F16_arg30 m ρ c

theorem F0_arg31 (c : Dev nD) : W0 m ρ c (Proc.devRef .tc main_arg31) = m ((c : Thread nD τ).loc main_arg31) := rfl

theorem F1_arg31 (c : Dev nD) : W1 m ρ c (Proc.devRef .tc main_arg31) = m ((c : Thread nD τ).loc main_arg31) :=
  (StableHlo.after_of_forall_not_mem (b := Proc.devRef .tc main_arg31) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg31 m ρ c)
theorem F1_arg31' (c : Dev nD) : V1 m ρ c main_arg31 = m ((c : Thread nD τ).loc main_arg31) := F1_arg31 m ρ c

theorem F2_arg31 (c : Dev nD) : W2 m ρ c (Proc.devRef .tc main_arg31) = m ((c : Thread nD τ).loc main_arg31) :=
  (W2_of_ne m ρ c main_arg31 (by decide)).trans (F1_arg31 m ρ c)
theorem F2_arg31' (c : Dev nD) : V2 m ρ c main_arg31 = m ((c : Thread nD τ).loc main_arg31) := F2_arg31 m ρ c

theorem F3_arg31 (c : Dev nD) : W3 m ρ c (Proc.devRef .tc main_arg31) = m ((c : Thread nD τ).loc main_arg31) :=
  (StableHlo.after_of_forall_not_mem (b := Proc.devRef .tc main_arg31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg31 m ρ c)
theorem F3_arg31' (c : Dev nD) : V3 m ρ c main_arg31 = m ((c : Thread nD τ).loc main_arg31) := F3_arg31 m ρ c

theorem F4_arg31 (c : Dev nD) : W4 m ρ c (Proc.devRef .tc main_arg31) = m ((c : Thread nD τ).loc main_arg31) :=
  (W4_of_ne m ρ c main_arg31 (by decide)).trans (F3_arg31 m ρ c)
theorem F4_arg31' (c : Dev nD) : V4 m ρ c main_arg31 = m ((c : Thread nD τ).loc main_arg31) := F4_arg31 m ρ c

theorem F5_arg31 (c : Dev nD) : W5 m ρ c (Proc.devRef .tc main_arg31) = m ((c : Thread nD τ).loc main_arg31) :=
  (StableHlo.after_of_forall_not_mem (b := Proc.devRef .tc main_arg31) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg31 m ρ c)
theorem F5_arg31' (c : Dev nD) : V5 m ρ c main_arg31 = m ((c : Thread nD τ).loc main_arg31) := F5_arg31 m ρ c

theorem F6_arg31 (c : Dev nD) : W6 m ρ c (Proc.devRef .tc main_arg31) = m ((c : Thread nD τ).loc main_arg31) :=
  (W6_of_ne m ρ c main_arg31 (by decide)).trans (F5_arg31 m ρ c)
theorem F6_arg31' (c : Dev nD) : V6 m ρ c main_arg31 = m ((c : Thread nD τ).loc main_arg31) := F6_arg31 m ρ c

theorem F7_arg31 (c : Dev nD) : W7 m ρ c (Proc.devRef .tc main_arg31) = m ((c : Thread nD τ).loc main_arg31) :=
  (StableHlo.after_of_forall_not_mem (b := Proc.devRef .tc main_arg31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg31 m ρ c)
theorem F7_arg31' (c : Dev nD) : V7 m ρ c main_arg31 = m ((c : Thread nD τ).loc main_arg31) := F7_arg31 m ρ c

theorem F8_arg31 (c : Dev nD) : W8 m ρ c (Proc.devRef .tc main_arg31) = m ((c : Thread nD τ).loc main_arg31) :=
  (W8_of_ne m ρ c main_arg31 (by decide)).trans (F7_arg31 m ρ c)
theorem F8_arg31' (c : Dev nD) : V8 m ρ c main_arg31 = m ((c : Thread nD τ).loc main_arg31) := F8_arg31 m ρ c

theorem F9_arg31 (c : Dev nD) : W9 m ρ c (Proc.devRef .tc main_arg31) = m ((c : Thread nD τ).loc main_arg31) :=
  (StableHlo.after_of_forall_not_mem (b := Proc.devRef .tc main_arg31) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg31 m ρ c)
theorem F9_arg31' (c : Dev nD) : V9 m ρ c main_arg31 = m ((c : Thread nD τ).loc main_arg31) := F9_arg31 m ρ c

theorem F10_arg31 (c : Dev nD) : W10 m ρ c (Proc.devRef .tc main_arg31) = m ((c : Thread nD τ).loc main_arg31) :=
  (W10_of_ne m ρ c main_arg31 (by decide)).trans (F9_arg31 m ρ c)
theorem F10_arg31' (c : Dev nD) : V10 m ρ c main_arg31 = m ((c : Thread nD τ).loc main_arg31) := F10_arg31 m ρ c

theorem F11_arg31 (c : Dev nD) : W11 m ρ c (Proc.devRef .tc main_arg31) = m ((c : Thread nD τ).loc main_arg31) :=
  (StableHlo.after_of_forall_not_mem (b := Proc.devRef .tc main_arg31) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg31 m ρ c)
theorem F11_arg31' (c : Dev nD) : V11 m ρ c main_arg31 = m ((c : Thread nD τ).loc main_arg31) := F11_arg31 m ρ c

theorem F12_arg31 (c : Dev nD) : W12 m ρ c (Proc.devRef .tc main_arg31) = m ((c : Thread nD τ).loc main_arg31) :=
  (W12_of_ne m ρ c main_arg31 (by decide)).trans (F11_arg31 m ρ c)
theorem F12_arg31' (c : Dev nD) : V12 m ρ c main_arg31 = m ((c : Thread nD τ).loc main_arg31) := F12_arg31 m ρ c

theorem F13_arg31 (c : Dev nD) : W13 m ρ c (Proc.devRef .tc main_arg31) = m ((c : Thread nD τ).loc main_arg31) :=
  (StableHlo.after_of_forall_not_mem (b := Proc.devRef .tc main_arg31) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg31 m ρ c)
theorem F13_arg31' (c : Dev nD) : V13 m ρ c main_arg31 = m ((c : Thread nD τ).loc main_arg31) := F13_arg31 m ρ c

theorem F14_arg31 (c : Dev nD) : W14 m ρ c (Proc.devRef .tc main_arg31) = m ((c : Thread nD τ).loc main_arg31) :=
  (W14_of_ne m ρ c main_arg31 (by decide)).trans (F13_arg31 m ρ c)
theorem F14_arg31' (c : Dev nD) : V14 m ρ c main_arg31 = m ((c : Thread nD τ).loc main_arg31) := F14_arg31 m ρ c

theorem F15_arg31 (c : Dev nD) : W15 m ρ c (Proc.devRef .tc main_arg31) = m ((c : Thread nD τ).loc main_arg31) :=
  (W15_of_ne m ρ c main_arg31 (by decide)).trans (F14_arg31 m ρ c)
theorem F15_arg31' (c : Dev nD) : V15 m ρ c main_arg31 = m ((c : Thread nD τ).loc main_arg31) := F15_arg31 m ρ c

theorem F16_arg31 (c : Dev nD) : W16 m ρ c (Proc.devRef .tc main_arg31) = m ((c : Thread nD τ).loc main_arg31) :=
  (StableHlo.after_of_forall_not_mem (b := Proc.devRef .tc main_arg31) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F15_arg31 m ρ c)
theorem F16_arg31' (c : Dev nD) : V16 m ρ c main_arg31 = m ((c : Thread nD τ).loc main_arg31) := F16_arg31 m ρ c

theorem F0_arg32 (c : Dev nD) : W0 m ρ c (Proc.devRef .tc main_arg32) = m ((c : Thread nD τ).loc main_arg32) := rfl

theorem F1_arg32 (c : Dev nD) : W1 m ρ c (Proc.devRef .tc main_arg32) = m ((c : Thread nD τ).loc main_arg32) :=
  (StableHlo.after_of_forall_not_mem (b := Proc.devRef .tc main_arg32) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F0_arg32 m ρ c)
theorem F1_arg32' (c : Dev nD) : V1 m ρ c main_arg32 = m ((c : Thread nD τ).loc main_arg32) := F1_arg32 m ρ c

theorem F2_arg32 (c : Dev nD) : W2 m ρ c (Proc.devRef .tc main_arg32) = m ((c : Thread nD τ).loc main_arg32) :=
  (W2_of_ne m ρ c main_arg32 (by decide)).trans (F1_arg32 m ρ c)
theorem F2_arg32' (c : Dev nD) : V2 m ρ c main_arg32 = m ((c : Thread nD τ).loc main_arg32) := F2_arg32 m ρ c

theorem F3_arg32 (c : Dev nD) : W3 m ρ c (Proc.devRef .tc main_arg32) = m ((c : Thread nD τ).loc main_arg32) :=
  (StableHlo.after_of_forall_not_mem (b := Proc.devRef .tc main_arg32) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F2_arg32 m ρ c)
theorem F3_arg32' (c : Dev nD) : V3 m ρ c main_arg32 = m ((c : Thread nD τ).loc main_arg32) := F3_arg32 m ρ c

theorem F4_arg32 (c : Dev nD) : W4 m ρ c (Proc.devRef .tc main_arg32) = m ((c : Thread nD τ).loc main_arg32) :=
  (W4_of_ne m ρ c main_arg32 (by decide)).trans (F3_arg32 m ρ c)
theorem F4_arg32' (c : Dev nD) : V4 m ρ c main_arg32 = m ((c : Thread nD τ).loc main_arg32) := F4_arg32 m ρ c

theorem F5_arg32 (c : Dev nD) : W5 m ρ c (Proc.devRef .tc main_arg32) = m ((c : Thread nD τ).loc main_arg32) :=
  (StableHlo.after_of_forall_not_mem (b := Proc.devRef .tc main_arg32) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F4_arg32 m ρ c)
theorem F5_arg32' (c : Dev nD) : V5 m ρ c main_arg32 = m ((c : Thread nD τ).loc main_arg32) := F5_arg32 m ρ c

theorem F6_arg32 (c : Dev nD) : W6 m ρ c (Proc.devRef .tc main_arg32) = m ((c : Thread nD τ).loc main_arg32) :=
  (W6_of_ne m ρ c main_arg32 (by decide)).trans (F5_arg32 m ρ c)
theorem F6_arg32' (c : Dev nD) : V6 m ρ c main_arg32 = m ((c : Thread nD τ).loc main_arg32) := F6_arg32 m ρ c

theorem F7_arg32 (c : Dev nD) : W7 m ρ c (Proc.devRef .tc main_arg32) = m ((c : Thread nD τ).loc main_arg32) :=
  (StableHlo.after_of_forall_not_mem (b := Proc.devRef .tc main_arg32) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F6_arg32 m ρ c)
theorem F7_arg32' (c : Dev nD) : V7 m ρ c main_arg32 = m ((c : Thread nD τ).loc main_arg32) := F7_arg32 m ρ c

theorem F8_arg32 (c : Dev nD) : W8 m ρ c (Proc.devRef .tc main_arg32) = m ((c : Thread nD τ).loc main_arg32) :=
  (W8_of_ne m ρ c main_arg32 (by decide)).trans (F7_arg32 m ρ c)
theorem F8_arg32' (c : Dev nD) : V8 m ρ c main_arg32 = m ((c : Thread nD τ).loc main_arg32) := F8_arg32 m ρ c

theorem F9_arg32 (c : Dev nD) : W9 m ρ c (Proc.devRef .tc main_arg32) = m ((c : Thread nD τ).loc main_arg32) :=
  (StableHlo.after_of_forall_not_mem (b := Proc.devRef .tc main_arg32) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F8_arg32 m ρ c)
theorem F9_arg32' (c : Dev nD) : V9 m ρ c main_arg32 = m ((c : Thread nD τ).loc main_arg32) := F9_arg32 m ρ c

theorem F10_arg32 (c : Dev nD) : W10 m ρ c (Proc.devRef .tc main_arg32) = m ((c : Thread nD τ).loc main_arg32) :=
  (W10_of_ne m ρ c main_arg32 (by decide)).trans (F9_arg32 m ρ c)
theorem F10_arg32' (c : Dev nD) : V10 m ρ c main_arg32 = m ((c : Thread nD τ).loc main_arg32) := F10_arg32 m ρ c

theorem F11_arg32 (c : Dev nD) : W11 m ρ c (Proc.devRef .tc main_arg32) = m ((c : Thread nD τ).loc main_arg32) :=
  (StableHlo.after_of_forall_not_mem (b := Proc.devRef .tc main_arg32) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F10_arg32 m ρ c)
theorem F11_arg32' (c : Dev nD) : V11 m ρ c main_arg32 = m ((c : Thread nD τ).loc main_arg32) := F11_arg32 m ρ c

theorem F12_arg32 (c : Dev nD) : W12 m ρ c (Proc.devRef .tc main_arg32) = m ((c : Thread nD τ).loc main_arg32) :=
  (W12_of_ne m ρ c main_arg32 (by decide)).trans (F11_arg32 m ρ c)
theorem F12_arg32' (c : Dev nD) : V12 m ρ c main_arg32 = m ((c : Thread nD τ).loc main_arg32) := F12_arg32 m ρ c

theorem F13_arg32 (c : Dev nD) : W13 m ρ c (Proc.devRef .tc main_arg32) = m ((c : Thread nD τ).loc main_arg32) :=
  (StableHlo.after_of_forall_not_mem (b := Proc.devRef .tc main_arg32) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F12_arg32 m ρ c)
theorem F13_arg32' (c : Dev nD) : V13 m ρ c main_arg32 = m ((c : Thread nD τ).loc main_arg32) := F13_arg32 m ρ c

theorem F14_arg32 (c : Dev nD) : W14 m ρ c (Proc.devRef .tc main_arg32) = m ((c : Thread nD τ).loc main_arg32) :=
  (W14_of_ne m ρ c main_arg32 (by decide)).trans (F13_arg32 m ρ c)
theorem F14_arg32' (c : Dev nD) : V14 m ρ c main_arg32 = m ((c : Thread nD τ).loc main_arg32) := F14_arg32 m ρ c

theorem F15_arg32 (c : Dev nD) : W15 m ρ c (Proc.devRef .tc main_arg32) = m ((c : Thread nD τ).loc main_arg32) :=
  (W15_of_ne m ρ c main_arg32 (by decide)).trans (F14_arg32 m ρ c)
theorem F15_arg32' (c : Dev nD) : V15 m ρ c main_arg32 = m ((c : Thread nD τ).loc main_arg32) := F15_arg32 m ρ c

theorem F16_arg32 (c : Dev nD) : W16 m ρ c (Proc.devRef .tc main_arg32) = m ((c : Thread nD τ).loc main_arg32) :=
  (StableHlo.after_of_forall_not_mem (b := Proc.devRef .tc main_arg32) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (F15_arg32 m ρ c)
theorem F16_arg32' (c : Dev nD) : V16 m ρ c main_arg32 = m ((c : Thread nD τ).loc main_arg32) := F16_arg32 m ρ c

theorem F17_v223 (c : Dev nD) : W17 m ρ c (Proc.devRef .tc main_v223) = Cert.ReferenceIdeal.Stages.val_main_v377 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := by
  refine (W17_arr m ρ c 5).trans ((Cert.KernelIdeal.Head.final (V16 m ρ) c).trans ?_)
  rw [Cert.ReferenceIdeal.RefDense.ref_head]
  simp only [F16_v222' m ρ c, F16_arg29' m ρ c, F16_arg30' m ρ c, F16_arg31' m ρ c, F16_arg32' m ρ c] <;> rfl
theorem F17_v223' (c : Dev nD) : V17 m ρ c main_v223 = Cert.ReferenceIdeal.Stages.val_main_v377 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) := F17_v223 m ρ c

end Cert.KernelIdeal.Chain

end
-- ==== Proof.lean ====
/-
  A three-layer message-passing network over a fixed graph: embedders, three rounds of (gather, gated edge message,
  scatter-mean, node and position-encoding update), a node decoder, a sum over each graph's nodes and a head.

  The kernel program and the reference run the same host lines for everything irregular — the source and target indices,
  the pairwise distances, the in-degrees, every gather and every scatter-add — and differ only in the dense stretches:
  the kernel program computes each in a kernel region, a tile of rows at a time on the matrix unit, where the reference
  writes dot_general, a broadcast bias, a maximum with zero and, for the gate, 1 / (1 + e^(−y)).  Over the extended reals a
  matrix-unit product into zero is the plain sum of products, a change of float format is the identity, and the logistic
  function IS 1 / (1 + e^(−y)); every dense stretch is a function of one row of its row-indexed inputs, so a tile of rows
  computed alone equals those rows of the whole array computed at once; the node and edge counts are whole multiples of the
  tile sizes, so nothing is padded.  Hence each buffer of the kernel program holds, when it is read, the reference's stage
  with the same meaning, and the two results are one function of the arguments.  No law of arithmetic beyond reading each
  sum where it is written is used, so the precondition is never opened.
  The ideal pass rewrote nothing: the preservation claim is trivial.
-/
import proofs.«112516_j88167088653030_2_alg».proof.Defs
import proofs.«112516_j88167088653030_2_alg».proof.Proof.Gen.Kernel
import proofs.«112516_j88167088653030_2_alg».proof.Proof.Gen.Kernel.Skeleton
import proofs.«112516_j88167088653030_2_alg».proof.Proof.Gen.Kernel.Launch
import proofs.«112516_j88167088653030_2_alg».proof.Proof.Gen.Kernel.Points
import proofs.«112516_j88167088653030_2_alg».proof.Proof.Gen.Kernel.Frame
import proofs.«112516_j88167088653030_2_alg».proof.Proof.Gen.KernelIdeal
import proofs.«112516_j88167088653030_2_alg».proof.Proof.Gen.KernelIdeal.Skeleton
import proofs.«112516_j88167088653030_2_alg».proof.Proof.Gen.KernelIdeal.Launch
import proofs.«112516_j88167088653030_2_alg».proof.Proof.Gen.KernelIdeal.Points
import proofs.«112516_j88167088653030_2_alg».proof.Proof.Gen.KernelIdeal.Frame
import proofs.«112516_j88167088653030_2_alg».proof.Proof.Gen.ReferenceIdeal
import proofs.«112516_j88167088653030_2_alg».proof.Proof.Gen.Pre_finite_inputs
import proofs.«112516_j88167088653030_2_alg».proof.Proof.RefRun
import proofs.«112516_j88167088653030_2_alg».proof.Proof.KRun
import proofs.«112516_j88167088653030_2_alg».proof.Proof.KChain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end with the reference's last stage of the argument arrays: the kernel program because each of its
    buffers holds the reference's stage of the same meaning, the reference by its own run. -/
theorem algebraic : Cert.algebraic_KernelIdeal_ReferenceIdeal := by
  intro m ρ m' ρ' _ hagree
  refine ⟨fun c => Cert.ReferenceIdeal.Stages.val_main_v377 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)), ?_, ?_⟩
  · exact (θ_run Cert.KernelIdeal.defs _ _).mono
      (fun r h c => ⟨(h c).1.trans (Cert.KernelIdeal.Chain.F17_v223 m ρ c), (h c).2⟩)
      (Cert.KernelIdeal.RunValue.run_value m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14, h15, h16, h17, h18, h19, h20, h21, h22, h23, h24, h25, h26, h27, h28, h29, h30, h31, h32⟩ := hagree c
    rw [h0, h1, h2, h3, h4, h5, h6, h7, h8, h9, h10, h11, h12, h13, h14, h15, h16, h17, h18, h19, h20, h21, h22, h23, h24, h25, h26, h27, h28, h29, h30, h31, h32]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
